-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1000000x16 : Shape := ⟨2, ![1000000, 16]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S16x64 : Shape := ⟨2, ![16, 64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S4 : S_.BroadcastsInDim S4 (![] : Fin 0 → Fin S4.rank)
  reducesTo_S4_S_d0 : S4.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S32 .f32) (main_arg17 : FVec F S32x10 .f32) (main_arg18 : FVec F S10 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x10 .f32 := Host.absf main_arg17
  let main_cst_28 : FVec F S_ .f32 := constant S_ .f32 0x7F800000#32
  let main_v75 : FVec F S32x10 .f32 := broadcastInDim S32x10 ![] bcast_S_S32x10 main_cst_28
  let main_v76 : IVec S32x10 1 := cmpf .olt main_v74 main_v75
  let main_c_29 : IVec S_ 1 := constantI S_ 1 1#1
  let main_v77 : IVec S_ 1 := (fun x v => Host.reduce IntOp.andi x v reducesTo_S32x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S4x64 .f32) (main_arg14 : FVec F S4x64 .f32) (main_arg15 : FVec F S64x32 .f32) (main_arg16 : FVec F S32 .f32) (main_arg17 : FVec F S32x10 .f32) (main_arg18 : FVec F S10 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_v63 main_v67

def fn_part2 {F : FTy → Type} [FloatOps F] (main_arg9 : FVec F S4x64x128 .f32) (main_arg10 : FVec F S4x128 .f32) (main_arg11 : FVec F S4x128x64 .f32) (main_arg12 : FVec F S4x64 .f32) (main_arg13 : FVec F S4x64 .f32) (main_arg14 : FVec F S4x64 .f32) (main_arg15 : FVec F S64x32 .f32) (main_arg16 : FVec F S32 .f32) (main_arg17 : FVec F S32x10 .f32) (main_arg18 : FVec F S10 .f32) (main_v33 : IVec S_ 1) : IVec S_ 1 :=
  let main_v34 : FVec F S4x64x128 .f32 := Host.absf main_arg9
  let main_cst_12 : FVec F S_ .f32 := constant S_ .f32 0x7F800000#32
  let main_v35 : FVec F S4x64x128 .f32 := broadcastInDim S4x64x128 ![] bcast_S_S4x64x128 main_cst_12
  let main_v36 : IVec S4x64x128 1 := cmpf .olt main_v34 main_v35
  let main_c_13 : IVec S_ 1 := constantI S_ 1 1#1
  let main_v37 : IVec S_ 1 := (fun x v => Host.reduce IntOp.andi x v reducesTo_S4x64x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128x64 .f32 := Host.absf main_arg11
  let main_cst_16 : FVec F S_ .f32 := constant S_ .f32 0x7F800000#32
  let main_v45 : FVec F S4x128x64 .f32 := broadcastInDim S4x128x64 ![] bcast_S_S4x128x64 main_cst_16
  let main_v46 : IVec S4x128x64 1 := cmpf .olt main_v44 main_v45
  let main_c_17 : IVec S_ 1 := constantI S_ 1 1#1
  let main_v47 : IVec S_ 1 := (fun x v => Host.reduce IntOp.andi x v reducesTo_S4x128x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_arg16 main_arg17 main_arg18 main_v48 main_v49 main_v50

def fn_part1 {F : FTy → Type} [FloatOps F] (main_arg6 : FVec F S16x64 .f32) (main_arg7 : FVec F S64 .f32) (main_arg8 : FVec F S4 .f32) (main_arg9 : FVec F S4x64x128 .f32) (main_arg10 : FVec F S4x128 .f32) (main_arg11 : FVec F S4x128x64 .f32) (main_arg12 : FVec F S4x64 .f32) (main_arg13 : FVec F S4x64 .f32) (main_arg14 : FVec F S4x64 .f32) (main_arg15 : FVec F S64x32 .f32) (main_arg16 : FVec F S32 .f32) (main_arg17 : FVec F S32x10 .f32) (main_arg18 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x32 .f32) (main_arg1 : FVec F S1000000x16 .f32) (main_arg2 : IVec S2x1000000 32) (main_arg3 : IVec S100000 32) (main_arg4 : FVec F S32x64 .f32) (main_arg5 : FVec F S64 .f32) (main_arg6 : FVec F S16x64 .f32) (main_arg7 : FVec F S64 .f32) (main_arg8 : FVec F S4 .f32) (main_arg9 : FVec F S4x64x128 .f32) (main_arg10 : FVec F S4x128 .f32) (main_arg11 : FVec F S4x128x64 .f32) (main_arg12 : FVec F S4x64 .f32) (main_arg13 : FVec F S4x64 .f32) (main_arg14 : FVec F S4x64 .f32) (main_arg15 : FVec F S64x32 .f32) (main_arg16 : FVec F S32 .f32) (main_arg17 : FVec F S32x10 .f32) (main_arg18 : FVec F S10 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S1000000x16 : Shape := ⟨2, ![1000000, 16]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S16x64 : Shape := ⟨2, ![16, 64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1000000 : Shape := ⟨2, ![1, 1000000]⟩
abbrev S1000000 : Shape := ⟨1, ![1000000]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1000000x64 : Shape := ⟨2, ![1000000, 64]⟩
abbrev S10000x16 : Shape := ⟨2, ![10000, 16]⟩
abbrev S_ : Shape := ⟨0, ![]⟩
abbrev S1000000x1 : Shape := ⟨2, ![1000000, 1]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S10000x128 : Shape := ⟨2, ![10000, 128]⟩
abbrev S64x64 : Shape := ⟨2, ![64, 64]⟩
abbrev S100000x1 : Shape := ⟨2, ![100000, 1]⟩
abbrev S64x1 : Shape := ⟨2, ![64, 1]⟩
abbrev S1x32 : Shape := ⟨2, ![1, 32]⟩
abbrev S64x10 : Shape := ⟨2, ![64, 10]⟩
abbrev S1x10 : Shape := ⟨2, ![1, 10]⟩

abbrev nBuf : Space → Nat
  | .hbm => 262
  | .vmem => 124
  | .smem => 0
  | _ => 0

abbrev hbmTy0_0 (i : Nat) : BufTy := match i % 128 with
  | 0 => ⟨S100000x32, .f32⟩
  | 1 => ⟨S1000000x16, .f32⟩
  | 2 => ⟨S2x1000000, .i32⟩
  | 3 => ⟨S100000, .i32⟩
  | 4 => ⟨S32x64, .f32⟩
  | 5 => ⟨S64, .f32⟩
  | 6 => ⟨S16x64, .f32⟩
  | 7 => ⟨S64, .f32⟩
  | 8 => ⟨S4, .f32⟩
  | 9 => ⟨S4x64x128, .f32⟩
  | 10 => ⟨S4x128, .f32⟩
  | 11 => ⟨S4x128x64, .f32⟩
  | 12 => ⟨S4x64, .f32⟩
  | 13 => ⟨S4x64, .f32⟩
  | 14 => ⟨S4x64, .f32⟩
  | 15 => ⟨S64x32, .f32⟩
  | 16 => ⟨S32, .f32⟩
  | 17 => ⟨S32x10, .f32⟩
  | 18 => ⟨S10, .f32⟩
  | 19 => ⟨S1x1000000, .i32⟩
  | 20 => ⟨S1000000, .i32⟩
  | 21 => ⟨S1x1000000, .i32⟩
  | 22 => ⟨S1000000, .i32⟩
  | 23 => ⟨S1x64, .f32⟩
  | 24 => ⟨S100000x64, .f32⟩
  | 25 => ⟨S1x64, .f32⟩
  | 26 => ⟨S1000000x64, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S1000000x64, .f32⟩
  | 37 => ⟨S_, .f32⟩
  | 38 => ⟨S100000x64, .f32⟩
  | 39 => ⟨S1000000x1, .i32⟩
  | 40 => ⟨S100000x64, .f32⟩
  | 41 => ⟨S1, .f32⟩
  | 42 => ⟨S_, .f32⟩
  | 43 => ⟨S_, .f32⟩
  | 44 => ⟨S_, .f32⟩
  | 45 => ⟨S100000x64, .f32⟩
  | 46 => ⟨S100000x64, .f32⟩
  | 47 => ⟨S100000x64, .f32⟩
  | 48 => ⟨S1x64x128, .f32⟩
  | 49 => ⟨S64x128, .f32⟩
  | 50 => ⟨S1x128, .f32⟩
  | 51 => ⟨S128, .f32⟩
  | 52 => ⟨S1x128x64, .f32⟩
  | 53 => ⟨S128x64, .f32⟩
  | 54 => ⟨S1x64, .f32⟩
  | 55 => ⟨S64, .f32⟩
  | 56 => ⟨S1x128, .f32⟩
  | 57 => ⟨S1x64, .f32⟩
  | 58 => ⟨S100000x64, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S64, .f32⟩
  | 74 => ⟨S1x64, .f32⟩
  | 75 => ⟨S1x64, .f32⟩
  | 76 => ⟨S64, .f32⟩
  | 77 => ⟨S1x64, .f32⟩
  | 78 => ⟨S100000x64, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S1000000x64, .f32⟩
  | 89 => ⟨S_, .f32⟩
  | 90 => ⟨S100000x64, .f32⟩
  | 91 => ⟨S1000000x1, .i32⟩
  | 92 => ⟨S100000x64, .f32⟩
  | 93 => ⟨S1, .f32⟩
  | 94 => ⟨S_, .f32⟩
  | 95 => ⟨S_, .f32⟩
  | 96 => ⟨S_, .f32⟩
  | 97 => ⟨S100000x64, .f32⟩
  | 98 => ⟨S100000x64, .f32⟩
  | 99 => ⟨S100000x64, .f32⟩
  | 100 => ⟨S1x64x128, .f32⟩
  | 101 => ⟨S64x128, .f32⟩
  | 102 => ⟨S1x128, .f32⟩
  | 103 => ⟨S128, .f32⟩
  | 104 => ⟨S1x128x64, .f32⟩
  | 105 => ⟨S128x64, .f32⟩
  | 106 => ⟨S1x64, .f32⟩
  | 107 => ⟨S64, .f32⟩
  | 108 => ⟨S1x128, .f32⟩
  | 109 => ⟨S1x64, .f32⟩
  | 110 => ⟨S100000x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S64, .f32⟩
  | 126 => ⟨S1x64, .f32⟩
  | 127 => ⟨S1x64, .f32⟩
  | _ => ⟨S100000x32, .f32⟩

abbrev hbmTy0_1 (i : Nat) : BufTy := match i % 128 with
  | 0 => ⟨S64, .f32⟩
  | 1 => ⟨S1x64, .f32⟩
  | 2 => ⟨S100000x64, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S1000000x64, .f32⟩
  | 13 => ⟨S_, .f32⟩
  | 14 => ⟨S100000x64, .f32⟩
  | 15 => ⟨S1000000x1, .i32⟩
  | 16 => ⟨S100000x64, .f32⟩
  | 17 => ⟨S1, .f32⟩
  | 18 => ⟨S_, .f32⟩
  | 19 => ⟨S_, .f32⟩
  | 20 => ⟨S_, .f32⟩
  | 21 => ⟨S100000x64, .f32⟩
  | 22 => ⟨S100000x64, .f32⟩
  | 23 => ⟨S100000x64, .f32⟩
  | 24 => ⟨S1x64x128, .f32⟩
  | 25 => ⟨S64x128, .f32⟩
  | 26 => ⟨S1x128, .f32⟩
  | 27 => ⟨S128, .f32⟩
  | 28 => ⟨S1x128x64, .f32⟩
  | 29 => ⟨S128x64, .f32⟩
  | 30 => ⟨S1x64, .f32⟩
  | 31 => ⟨S64, .f32⟩
  | 32 => ⟨S1x128, .f32⟩
  | 33 => ⟨S1x64, .f32⟩
  | 34 => ⟨S100000x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S64, .f32⟩
  | 50 => ⟨S1x64, .f32⟩
  | 51 => ⟨S1x64, .f32⟩
  | 52 => ⟨S64, .f32⟩
  | 53 => ⟨S1x64, .f32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S1, .f32⟩
  | 70 => ⟨S_, .f32⟩
  | 71 => ⟨S_, .f32⟩
  | 72 => ⟨S_, .f32⟩
  | 73 => ⟨S100000x64, .f32⟩
  | 74 => ⟨S100000x64, .f32⟩
  | 75 => ⟨S100000x64, .f32⟩
  | 76 => ⟨S1x64x128, .f32⟩
  | 77 => ⟨S64x128, .f32⟩
  | 78 => ⟨S1x128, .f32⟩
  | 79 => ⟨S128, .f32⟩
  | 80 => ⟨S1x128x64, .f32⟩
  | 81 => ⟨S128x64, .f32⟩
  | 82 => ⟨S1x64, .f32⟩
  | 83 => ⟨S64, .f32⟩
  | 84 => ⟨S1x128, .f32⟩
  | 85 => ⟨S1x64, .f32⟩
  | 86 => ⟨S100000x64, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S1x64, .f32⟩
  | 101 => ⟨S64, .f32⟩
  | 102 => ⟨S1x64, .f32⟩
  | 103 => ⟨S1x64, .f32⟩
  | 104 => ⟨S64, .f32⟩
  | 105 => ⟨S1x64, .f32⟩
  | 106 => ⟨S100000x64, .f32⟩
  | 107 => ⟨S_, .f32⟩
  | 108 => ⟨S64x64, .f32⟩
  | 109 => ⟨S100000x1, .i32⟩
  | 110 => ⟨S64x64, .f32⟩
  | 111 => ⟨S_, .f32⟩
  | 112 => ⟨S100000, .f32⟩
  | 113 => ⟨S_, .f32⟩
  | 114 => ⟨S64, .f32⟩
  | 115 => ⟨S100000x1, .i32⟩
  | 116 => ⟨S64, .f32⟩
  | 117 => ⟨S_, .f32⟩
  | 118 => ⟨S64, .f32⟩
  | 119 => ⟨S64, .f32⟩
  | 120 => ⟨S64x1, .f32⟩
  | 121 => ⟨S64x64, .f32⟩
  | 122 => ⟨S64x64, .f32⟩
  | 123 => ⟨S64x32, .f32⟩
  | 124 => ⟨S1x32, .f32⟩
  | 125 => ⟨S64x32, .f32⟩
  | 126 => ⟨S64x32, .f32⟩
  | 127 => ⟨S_, .f32⟩
  | _ => ⟨S100000x32, .f32⟩

abbrev hbmTy0_2 (i : Nat) : BufTy := match i % 128 with
  | 0 => ⟨S64x32, .f32⟩
  | 1 => ⟨S64x32, .f32⟩
  | 2 => ⟨S64x10, .f32⟩
  | 3 => ⟨S1x10, .f32⟩
  | 4 => ⟨S64x10, .f32⟩
  | 5 => ⟨S64x10, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x16, .f32⟩
  | .local _ .vmem, ⟨7, _⟩ => ⟨S10000x16, .f32⟩
  | .local _ .vmem, ⟨8, _⟩ => ⟨S16x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S64x128, .f32⟩
  | .local _ .vmem, ⟨49, _⟩ => ⟨S1x128, .f32⟩
  | .local _ .vmem, ⟨50, _⟩ => ⟨S128x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S64x128, .f32⟩
  | .local _ .vmem, ⟨77, _⟩ => ⟨S1x128, .f32⟩
  | .local _ .vmem, ⟨78, _⟩ => ⟨S128x64, .f32⟩
  | .local _ .vmem, ⟨79, _⟩ => ⟨S1x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S1x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S10000x64, .f32⟩
  | .local _ .vmem, ⟨95, _⟩ => ⟨S10000x64, .f32⟩
  | .local _ .vmem, ⟨96, _⟩ => ⟨S10000x64, .f32⟩
  | .local _ .vmem, ⟨97, _⟩ => ⟨S10000x64, .f32⟩
  | .local _ .vmem, ⟨98, _⟩ => ⟨S10000x64, .f32⟩
  | .local _ .vmem, ⟨99, _⟩ => ⟨S10000x64, .f32⟩
  | .local _ .vmem, ⟨100, _⟩ => ⟨S10000x64, .f32⟩
  | .local _ .vmem, ⟨101, _⟩ => ⟨S10000x64, .f32⟩
  | .local _ .vmem, ⟨102, _⟩ => ⟨S10000x64, .f32⟩
  | .local _ .vmem, ⟨103, _⟩ => ⟨S10000x64, .f32⟩
  | .local _ .vmem, ⟨104, _⟩ => ⟨S64x128, .f32⟩
  | .local _ .vmem, ⟨105, _⟩ => ⟨S1x128, .f32⟩
  | .local _ .vmem, ⟨106, _⟩ => ⟨S128x64, .f32⟩
  | .local _ .vmem, ⟨107, _⟩ => ⟨S1x64, .f32⟩
  | .local _ .vmem, ⟨108, _⟩ => ⟨S10000x64, .f32⟩
  | .local _ .vmem, ⟨109, _⟩ => ⟨S10000x64, .f32⟩
  | .local _ .vmem, ⟨110, _⟩ => ⟨S1x64, .f32⟩
  | .local _ .vmem, ⟨111, _⟩ => ⟨S1x64, .f32⟩
  | .local _ .vmem, ⟨112, _⟩ => ⟨S1x64, .f32⟩
  | .local _ .vmem, ⟨113, _⟩ => ⟨S1x64, .f32⟩
  | .local _ .vmem, ⟨114, _⟩ => ⟨S10000x64, .f32⟩
  | .local _ .vmem, ⟨115, _⟩ => ⟨S10000x64, .f32⟩
  | .local _ .vmem, ⟨116, _⟩ => ⟨S10000x64, .f32⟩
  | .local _ .vmem, ⟨117, _⟩ => ⟨S10000x64, .f32⟩
  | .local _ .vmem, ⟨118, _⟩ => ⟨S1x64, .f32⟩
  | .local _ .vmem, ⟨119, _⟩ => ⟨S1x64, .f32⟩
  | .local _ .vmem, ⟨120, _⟩ => ⟨S1x64, .f32⟩
  | .local _ .vmem, ⟨121, _⟩ => ⟨S1x64, .f32⟩
  | .local _ .vmem, ⟨122, _⟩ => ⟨S10000x64, .f32⟩
  | .local _ .vmem, ⟨123, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35_0 : Ref sig .tc := ⟨.hbm, 58, rfl⟩
abbrev main_v35_1 : Ref sig .tc := ⟨.hbm, 59, rfl⟩
abbrev main_v35_2 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_5 : Ref sig .tc := ⟨.hbm, 79, rfl⟩
abbrev main_v51 : Ref sig .tc := ⟨.hbm, 80, rfl⟩
abbrev main_v52 : Ref sig .tc := ⟨.hbm, 81, rfl⟩
abbrev main_c_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78_0 : Ref sig .tc := ⟨.hbm, 110, rfl⟩
abbrev main_v78_1 : Ref sig .tc := ⟨.hbm, 111, rfl⟩
abbrev main_v78_2 : Ref sig .tc := ⟨.hbm, 112, rfl⟩
abbrev main_cst_9 : Ref sig .tc := ⟨.hbm, 113, rfl⟩
abbrev main_v79 : Ref sig .tc := ⟨.hbm, 114, rfl⟩
abbrev main_v80 : Ref sig .tc := ⟨.hbm, 115, rfl⟩
abbrev main_cst_10 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_11 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_12 : Ref sig .tc := ⟨.hbm, 131, rfl⟩
abbrev main_v94 : Ref sig .tc := ⟨.hbm, 132, rfl⟩
abbrev main_v95 : Ref sig .tc := ⟨.hbm, 133, rfl⟩
abbrev main_c_13 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_14 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_15 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121_0 : Ref sig .tc := ⟨.hbm, 162, rfl⟩
abbrev main_v121_1 : Ref sig .tc := ⟨.hbm, 163, rfl⟩
abbrev main_v121_2 : Ref sig .tc := ⟨.hbm, 164, rfl⟩
abbrev main_cst_16 : Ref sig .tc := ⟨.hbm, 165, rfl⟩
abbrev main_v122 : Ref sig .tc := ⟨.hbm, 166, rfl⟩
abbrev main_v123 : Ref sig .tc := ⟨.hbm, 167, rfl⟩
abbrev main_cst_17 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_18 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_19 : Ref sig .tc := ⟨.hbm, 183, rfl⟩
abbrev main_v137 : Ref sig .tc := ⟨.hbm, 184, rfl⟩
abbrev main_v138 : Ref sig .tc := ⟨.hbm, 185, rfl⟩
abbrev main_c_20 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_21 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_22 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164_0 : Ref sig .tc := ⟨.hbm, 214, rfl⟩
abbrev main_v164_1 : Ref sig .tc := ⟨.hbm, 215, rfl⟩
abbrev main_v164_2 : Ref sig .tc := ⟨.hbm, 216, rfl⟩
abbrev main_cst_23 : Ref sig .tc := ⟨.hbm, 217, rfl⟩
abbrev main_v165 : Ref sig .tc := ⟨.hbm, 218, rfl⟩
abbrev main_v166 : Ref sig .tc := ⟨.hbm, 219, rfl⟩
abbrev main_cst_24 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_25 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_26 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_27 : Ref sig .tc := ⟨.hbm, 239, rfl⟩
abbrev main_v183 : Ref sig .tc := ⟨.hbm, 240, rfl⟩
abbrev main_cst_28 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_29 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_call0_cst : Ref sig .tc := ⟨.hbm, 255, rfl⟩
abbrev main_call0_v0 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg7_0 : Ref sig .tc := ⟨.vmem, 27, rfl⟩
abbrev cc3_scratch0 : Ref sig .tc := ⟨.vmem, 28, rfl⟩
abbrev cc3_scratch1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc6_stg6_0 : Ref sig .tc := ⟨.vmem, 54, rfl⟩
abbrev cc6_stg7_0 : Ref sig .tc := ⟨.vmem, 55, rfl⟩
abbrev cc6_scratch0 : Ref sig .tc := ⟨.vmem, 56, rfl⟩
abbrev cc6_scratch1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg6_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg2_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg4_0 : Ref sig .tc := ⟨.vmem, 79, rfl⟩
abbrev cc9_stg5_0 : Ref sig .tc := ⟨.vmem, 80, rfl⟩
abbrev cc9_stg5_1 : Ref sig .tc := ⟨.vmem, 81, rfl⟩
abbrev cc9_stg6_0 : Ref sig .tc := ⟨.vmem, 82, rfl⟩
abbrev cc9_stg7_0 : Ref sig .tc := ⟨.vmem, 83, rfl⟩
abbrev cc9_scratch0 : Ref sig .tc := ⟨.vmem, 84, rfl⟩
abbrev cc9_scratch1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg1_1 : Ref sig .tc := ⟨.vmem, 89, rfl⟩
abbrev cc10_stg2_0 : Ref sig .tc := ⟨.vmem, 90, rfl⟩
abbrev cc10_stg3_0 : Ref sig .tc := ⟨.vmem, 91, rfl⟩
abbrev cc10_stg4_0 : Ref sig .tc := ⟨.vmem, 92, rfl⟩
abbrev cc10_stg5_0 : Ref sig .tc := ⟨.vmem, 93, rfl⟩
abbrev cc10_stg6_0 : Ref sig .tc := ⟨.vmem, 94, rfl⟩
abbrev cc10_stg6_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg1_1 : Ref sig .tc := ⟨.vmem, 99, rfl⟩
abbrev cc11_stg2_0 : Ref sig .tc := ⟨.vmem, 100, rfl⟩
abbrev cc11_stg2_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg2_0 : Ref sig .tc := ⟨.vmem, 105, rfl⟩
abbrev cc12_stg3_0 : Ref sig .tc := ⟨.vmem, 106, rfl⟩
abbrev cc12_stg4_0 : Ref sig .tc := ⟨.vmem, 107, rfl⟩
abbrev cc12_stg5_0 : Ref sig .tc := ⟨.vmem, 108, rfl⟩
abbrev cc12_stg5_1 : Ref sig .tc := ⟨.vmem, 109, rfl⟩
abbrev cc12_stg6_0 : Ref sig .tc := ⟨.vmem, 110, rfl⟩
abbrev cc12_stg7_0 : Ref sig .tc := ⟨.vmem, 111, rfl⟩
abbrev cc12_scratch0 : Ref sig .tc := ⟨.vmem, 112, rfl⟩
abbrev cc12_scratch1 : Ref sig .tc := ⟨.vmem, 113, rfl⟩
abbrev cc13_stg0_0 : Ref sig .tc := ⟨.vmem, 114, rfl⟩
abbrev cc13_stg0_1 : Ref sig .tc := ⟨.vmem, 115, rfl⟩
abbrev cc13_stg1_0 : Ref sig .tc := ⟨.vmem, 116, rfl⟩
abbrev cc13_stg1_1 : Ref sig .tc := ⟨.vmem, 117, rfl⟩
abbrev cc13_stg2_0 : Ref sig .tc := ⟨.vmem, 118, rfl⟩
abbrev cc13_stg3_0 : Ref sig .tc := ⟨.vmem, 119, rfl⟩
abbrev cc13_stg4_0 : Ref sig .tc := ⟨.vmem, 120, rfl⟩
abbrev cc13_stg5_0 : Ref sig .tc := ⟨.vmem, 121, rfl⟩
abbrev cc13_stg6_0 : Ref sig .tc := ⟨.vmem, 122, rfl⟩
abbrev cc13_stg6_1 : Ref sig .tc := ⟨.vmem, 123, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem7_0 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem5_1 : DmaSem sig := 51
abbrev cc6_sem6_0 : DmaSem sig := 52
abbrev cc6_sem7_0 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem4_0 : DmaSem sig := 75
abbrev cc9_sem5_0 : DmaSem sig := 76
abbrev cc9_sem5_1 : DmaSem sig := 77
abbrev cc9_sem6_0 : DmaSem sig := 78
abbrev cc9_sem7_0 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem4_0 : DmaSem sig := 86
abbrev cc10_sem5_0 : DmaSem sig := 87
abbrev cc10_sem6_0 : DmaSem sig := 88
abbrev cc10_sem6_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem2_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem4_0 : DmaSem sig := 101
abbrev cc12_sem5_0 : DmaSem sig := 102
abbrev cc12_sem5_1 : DmaSem sig := 103
abbrev cc12_sem6_0 : DmaSem sig := 104
abbrev cc12_sem7_0 : DmaSem sig := 105
abbrev cc13_sem0_0 : DmaSem sig := 106
abbrev cc13_sem0_1 : DmaSem sig := 107
abbrev cc13_sem1_0 : DmaSem sig := 108
abbrev cc13_sem1_1 : DmaSem sig := 109
abbrev cc13_sem2_0 : DmaSem sig := 110
abbrev cc13_sem3_0 : DmaSem sig := 111
abbrev cc13_sem4_0 : DmaSem sig := 112
abbrev cc13_sem5_0 : DmaSem sig := 113
abbrev cc13_sem6_0 : DmaSem sig := 114
abbrev cc13_sem6_1 : DmaSem sig := 115

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S10000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x64 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S10000x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S10000x64_S10000x64 : S10000x64.ShapeCasts S10000x64
  bcast_S_S100000x64 : S_.BroadcastsInDim S100000x64 (![] : Fin 0 → Fin S100000x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S10000x64_S64 : S10000x64.Reduces [0] S64
  bcast_S_S1x64 : S_.BroadcastsInDim S1x64 (![] : Fin 0 → Fin S1x64.rank)
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S10000x32_S32x64_S10000x64_1_0_0_1_n_n_wf : DotDims.WF S10000x32 S32x64 S10000x64 [1] [0] [0] [1] [] []
  dot_S10000x16_S16x64_S10000x64_1_0_0_1_n_n_wf : DotDims.WF S10000x16 S16x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S1000000x16.size a
  hwx1_0 : ∀ i : grid1.Coords, EltTy.bits .f32 = 32 ∨ (Rect.block (s := S1000000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1000000x64.size a
  hwx1_3 : ∀ i : grid1.Coords, EltTy.bits .f32 = 32 ∨ (Rect.block (s := S1000000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1000000x64.size a
  hwx2_2 : ∀ i : grid2.Coords, EltTy.bits .f32 = 32 ∨ (Rect.block (s := S1000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1000000x64.size a
  hwx5_0 : ∀ i : grid5.Coords, EltTy.bits .f32 = 32 ∨ (Rect.block (s := S1000000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S1000000x64.size a
  hwx5_1 : ∀ i : grid5.Coords, EltTy.bits .f32 = 32 ∨ (Rect.block (s := S1000000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1000000x64.size a
  hwx5_2 : ∀ i : grid5.Coords, EltTy.bits .f32 = 32 ∨ (Rect.block (s := S1000000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x64.size a ≤ S100000x64.size a
  hwx7_6 : ∀ i : grid7.Coords, EltTy.bits .f32 = 32 ∨ (Rect.block (s := S100000x64) S10000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S1000000x64.size a
  hwx8_0 : ∀ i : grid8.Coords, EltTy.bits .f32 = 32 ∨ (Rect.block (s := S1000000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S1000000x64.size a
  hwx8_1 : ∀ i : grid8.Coords, EltTy.bits .f32 = 32 ∨ (Rect.block (s := S1000000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S1000000x64.size a
  hwx8_2 : ∀ i : grid8.Coords, EltTy.bits .f32 = 32 ∨ (Rect.block (s := S1000000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x128.size a ≤ S64x128.size a
  hwx9_1 : ∀ i : grid9.Coords, EltTy.bits .f32 = 32 ∨ (Rect.block (s := S64x128) S64x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x64.size a ≤ S128x64.size a
  hwx9_3 : ∀ i : grid9.Coords, EltTy.bits .f32 = 32 ∨ (Rect.block (s := S128x64) S128x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S100000x64.size a
  hwx9_5 : ∀ i : grid9.Coords, EltTy.bits .f32 = 32 ∨ (Rect.block (s := S100000x64) S10000x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x64.size a ≤ S1x64.size a
  hwx9_7 : ∀ i : grid9.Coords, EltTy.bits .f32 = 32 ∨ (Rect.block (s := S1x64) S1x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S100000x64.size a
  hwx10_1 : ∀ i : grid10.Coords, EltTy.bits .f32 = 32 ∨ (Rect.block (s := S100000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S10000x64.size a ≤ S100000x64.size a
  hwx10_6 : ∀ i : grid10.Coords, EltTy.bits .f32 = 32 ∨ (Rect.block (s := S100000x64) S10000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S1000000x64.size a
  hwx11_0 : ∀ i : grid11.Coords, EltTy.bits .f32 = 32 ∨ (Rect.block (s := S1000000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S1000000x64.size a
  hwx11_1 : ∀ i : grid11.Coords, EltTy.bits .f32 = 32 ∨ (Rect.block (s := S1000000x64) S10000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S1000000x64.size a
  hwx11_2 : ∀ i : grid11.Coords, EltTy.bits .f32 = 32 ∨ (Rect.block (s := S1000000x64) S10000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x128.size a ≤ S64x128.size a
  hwx12_1 : ∀ i : grid12.Coords, EltTy.bits .f32 = 32 ∨ (Rect.block (s := S64x128) S64x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x64.size a ≤ S128x64.size a
  hwx12_3 : ∀ i : grid12.Coords, EltTy.bits .f32 = 32 ∨ (Rect.block (s := S128x64) S128x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x64.size a ≤ S100000x64.size a
  hwx12_5 : ∀ i : grid12.Coords, EltTy.bits .f32 = 32 ∨ (Rect.block (s := S100000x64) S10000x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x64.size a ≤ S1x64.size a
  hwx12_7 : ∀ i : grid12.Coords, EltTy.bits .f32 = 32 ∨ (Rect.block (s := S1x64) S1x64.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x64.size a ≤ S100000x64.size a
  hwx13_1 : ∀ i : grid13.Coords, EltTy.bits .f32 = 32 ∨ (Rect.block (s := S100000x64) S10000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S10000x64.size a ≤ S100000x64.size a
  hwx13_6 : ∀ i : grid13.Coords, EltTy.bits .f32 = 32 ∨ (Rect.block (s := S100000x64) S10000x64.size (cc13_transform_6 i) (hinb13_6 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v35_1) S1x64.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v35_2) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v35_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v46) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v57) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v67) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78_0) S10000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v78_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v78_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v78_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v89) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v92) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v93) S10000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v100) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v101) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v110) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v112) S64x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v119) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v116) S128x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v120) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v121_0) S10000x64.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v121_1) S1x64.size cc9_transform_6 reads9_6 true true 1 stage9_6 sem9_6
    hrank9 hreads9_6 hinb9_6 nbuf9_6 (Memref.isWhole_whole _) hwx9_6 hstage9_6

abbrev win9_7 : Pipeline.Window sig grid9 :=
  Pipeline.Window.ofSpec (Memref.whole main_v121_2) S1x64.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v121_0) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v93) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v123) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v129) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v132) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v135) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v136) S10000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v143) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v7) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v144) S10000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v153) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v155) S64x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v162) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v159) S128x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v163) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v164_0) S10000x64.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v164_1) S1x64.size cc12_transform_6 reads12_6 true true 1 stage12_6 sem12_6
    hrank12 hreads12_6 hinb12_6 nbuf12_6 (Memref.isWhole_whole _) hwx12_6 hstage12_6

abbrev win12_7 : Pipeline.Window sig grid12 :=
  Pipeline.Window.ofSpec (Memref.whole main_v164_2) S1x64.size cc12_transform_7 reads12_7 true true 1 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v164_0) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v136) S10000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v166) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v172) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v175) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v178) S1x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v179) S10000x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

class Facts : Prop extends Facts₀ where

variable [Facts]
-- ==== ReferenceIdeal.lean ====
abbrev S100000x32 : Shape := ⟨2, ![100000, 32]⟩
abbrev S1000000x16 : Shape := ⟨2, ![1000000, 16]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S16x64 : Shape := ⟨2, ![16, 64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S1000000x64 : Shape := ⟨2, ![1000000, 64]⟩
abbrev S1000000x1 : Shape := ⟨2, ![1000000, 1]⟩
abbrev S1 : Shape := ⟨1, ![1]⟩
abbrev S1x64x128 : Shape := ⟨3, ![1, 64, 128]⟩
abbrev S64x128 : Shape := ⟨2, ![64, 128]⟩
abbrev S100000x128 : Shape := ⟨2, ![100000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S64x64 : Shape := ⟨2, ![64, 64]⟩
abbrev S100000x1 : Shape := ⟨2, ![100000, 1]⟩
abbrev S64x1 : Shape := ⟨2, ![64, 1]⟩
abbrev S1x32 : Shape := ⟨2, ![1, 32]⟩
abbrev S64x10 : Shape := ⟨2, ![64, 10]⟩
abbrev S1x10 : Shape := ⟨2, ![1, 10]⟩

abbrev nBuf : Space → Nat
  | .hbm => 385
  | .vmem => 0
  | .smem => 0
  | _ => 0

abbrev hbmTy0_0 (i : Nat) : BufTy := match i % 128 with
  | 0 => ⟨S100000x32, .f32⟩
  | 1 => ⟨S1000000x16, .f32⟩
  | 2 => ⟨S2x1000000, .i32⟩
  | 3 => ⟨S100000, .i32⟩
  | 4 => ⟨S32x64, .f32⟩
  | 5 => ⟨S64, .f32⟩
  | 6 => ⟨S16x64, .f32⟩
  | 7 => ⟨S64, .f32⟩
  | 8 => ⟨S4, .f32⟩
  | 9 => ⟨S4x64x128, .f32⟩
  | 10 => ⟨S4x128, .f32⟩
  | 11 => ⟨S4x128x64, .f32⟩
  | 12 => ⟨S4x64, .f32⟩
  | 13 => ⟨S4x64, .f32⟩
  | 14 => ⟨S4x64, .f32⟩
  | 15 => ⟨S64x32, .f32⟩
  | 16 => ⟨S32, .f32⟩
  | 17 => ⟨S32x10, .f32⟩
  | 18 => ⟨S10, .f32⟩
  | 19 => ⟨S1x1000000, .i32⟩
  | 20 => ⟨S1000000, .i32⟩
  | 21 => ⟨S1x1000000, .i32⟩
  | 22 => ⟨S1000000, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S1000000x64, .f32⟩
  | 31 => ⟨S1x64, .f32⟩
  | 32 => ⟨S1000000x64, .f32⟩
  | 33 => ⟨S1000000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S1000000x64, .f32⟩
  | 44 => ⟨S_, .f32⟩
  | 45 => ⟨S1000000x64, .f32⟩
  | 46 => ⟨S1000000x64, .f32⟩
  | 47 => ⟨S_, .f32⟩
  | 48 => ⟨S100000x64, .f32⟩
  | 49 => ⟨S1000000x1, .i32⟩
  | 50 => ⟨S100000x64, .f32⟩
  | 51 => ⟨S1, .f32⟩
  | 52 => ⟨S_, .f32⟩
  | 53 => ⟨S_, .f32⟩
  | 54 => ⟨S_, .f32⟩
  | 55 => ⟨S100000x64, .f32⟩
  | 56 => ⟨S100000x64, .f32⟩
  | 57 => ⟨S100000x64, .f32⟩
  | 58 => ⟨S1x64x128, .f32⟩
  | 59 => ⟨S64x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x128x64, .f32⟩
  | 70 => ⟨S128x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x64, .f32⟩
  | 124 => ⟨S1000000x64, .f32⟩
  | 125 => ⟨S_, .f32⟩
  | 126 => ⟨S1000000x64, .f32⟩
  | 127 => ⟨S1000000x64, .f32⟩
  | _ => ⟨S100000x32, .f32⟩

abbrev hbmTy0_1 (i : Nat) : BufTy := match i % 128 with
  | 0 => ⟨S_, .f32⟩
  | 1 => ⟨S100000x64, .f32⟩
  | 2 => ⟨S1000000x1, .i32⟩
  | 3 => ⟨S100000x64, .f32⟩
  | 4 => ⟨S1, .f32⟩
  | 5 => ⟨S_, .f32⟩
  | 6 => ⟨S_, .f32⟩
  | 7 => ⟨S_, .f32⟩
  | 8 => ⟨S100000x64, .f32⟩
  | 9 => ⟨S100000x64, .f32⟩
  | 10 => ⟨S100000x64, .f32⟩
  | 11 => ⟨S1x64x128, .f32⟩
  | 12 => ⟨S64x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x64, .f32⟩
  | 23 => ⟨S128x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S_, .f32⟩
  | 79 => ⟨S1000000x64, .f32⟩
  | 80 => ⟨S1000000x64, .f32⟩
  | 81 => ⟨S_, .f32⟩
  | 82 => ⟨S100000x64, .f32⟩
  | 83 => ⟨S1000000x1, .i32⟩
  | 84 => ⟨S100000x64, .f32⟩
  | 85 => ⟨S1, .f32⟩
  | 86 => ⟨S_, .f32⟩
  | 87 => ⟨S_, .f32⟩
  | 88 => ⟨S_, .f32⟩
  | 89 => ⟨S100000x64, .f32⟩
  | 90 => ⟨S100000x64, .f32⟩
  | 91 => ⟨S100000x64, .f32⟩
  | 92 => ⟨S1x64x128, .f32⟩
  | 93 => ⟨S64x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128x64, .f32⟩
  | 104 => ⟨S128x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x32, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S100000x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x64, .f32⟩
  | 30 => ⟨S1000000x64, .f32⟩
  | 31 => ⟨S_, .f32⟩
  | 32 => ⟨S1000000x64, .f32⟩
  | 33 => ⟨S1000000x64, .f32⟩
  | 34 => ⟨S_, .f32⟩
  | 35 => ⟨S100000x64, .f32⟩
  | 36 => ⟨S1000000x1, .i32⟩
  | 37 => ⟨S100000x64, .f32⟩
  | 38 => ⟨S1, .f32⟩
  | 39 => ⟨S_, .f32⟩
  | 40 => ⟨S_, .f32⟩
  | 41 => ⟨S_, .f32⟩
  | 42 => ⟨S100000x64, .f32⟩
  | 43 => ⟨S100000x64, .f32⟩
  | 44 => ⟨S100000x64, .f32⟩
  | 45 => ⟨S1x64x128, .f32⟩
  | 46 => ⟨S64x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x128x64, .f32⟩
  | 57 => ⟨S128x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S_, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S64, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S64x64, .f32⟩
  | 104 => ⟨S100000x1, .i32⟩
  | 105 => ⟨S64x64, .f32⟩
  | 106 => ⟨S_, .f32⟩
  | 107 => ⟨S100000, .f32⟩
  | 108 => ⟨S_, .f32⟩
  | 109 => ⟨S64, .f32⟩
  | 110 => ⟨S100000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x64, .f32⟩
  | 117 => ⟨S64x64, .f32⟩
  | 118 => ⟨S64x32, .f32⟩
  | 119 => ⟨S1x32, .f32⟩
  | 120 => ⟨S64x32, .f32⟩
  | 121 => ⟨S64x32, .f32⟩
  | 122 => ⟨S_, .f32⟩
  | 123 => ⟨S64x32, .f32⟩
  | 124 => ⟨S64x32, .f32⟩
  | 125 => ⟨S64x10, .f32⟩
  | 126 => ⟨S1x10, .f32⟩
  | 127 => ⟨S64x10, .f32⟩
  | _ => ⟨S100000x32, .f32⟩

abbrev hbmTy0_3 (i : Nat) : BufTy := match i % 128 with
  | 0 => ⟨S64x10, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call1_cst : Ref sig .tc := ⟨.hbm, 44, rfl⟩
abbrev main_call1_v0 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_cst : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_2 : Ref sig .tc := ⟨.hbm, 77, rfl⟩
abbrev main_v48 : Ref sig .tc := ⟨.hbm, 78, rfl⟩
abbrev main_cst_3 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_4 : Ref sig .tc := ⟨.hbm, 86, rfl⟩
abbrev main_v55 : Ref sig .tc := ⟨.hbm, 87, rfl⟩
abbrev main_cst_5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call3_cst : Ref sig .tc := ⟨.hbm, 112, rfl⟩
abbrev main_call3_v0 : Ref sig .tc := ⟨.hbm, 113, rfl⟩
abbrev main_v78 : Ref sig .tc := ⟨.hbm, 114, rfl⟩
abbrev main_c_7 : Ref sig .tc := ⟨.hbm, 115, rfl⟩
abbrev main_v79 : Ref sig .tc := ⟨.hbm, 116, rfl⟩
abbrev main_v80 : Ref sig .tc := ⟨.hbm, 117, rfl⟩
abbrev main_c_8 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call4_cst : Ref sig .tc := ⟨.hbm, 125, rfl⟩
abbrev main_call4_v0 : Ref sig .tc := ⟨.hbm, 126, rfl⟩
abbrev main_v87 : Ref sig .tc := ⟨.hbm, 127, rfl⟩
abbrev main_cst_9 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_10 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call5_cst : Ref sig .tc := ⟨.hbm, 147, rfl⟩
abbrev main_call5_v0 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_11 : Ref sig .tc := ⟨.hbm, 158, rfl⟩
abbrev main_v114 : Ref sig .tc := ⟨.hbm, 159, rfl⟩
abbrev main_cst_12 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_13 : Ref sig .tc := ⟨.hbm, 167, rfl⟩
abbrev main_v121 : Ref sig .tc := ⟨.hbm, 168, rfl⟩
abbrev main_cst_14 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_15 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_call6_cst : Ref sig .tc := ⟨.hbm, 193, rfl⟩
abbrev main_call6_v0 : Ref sig .tc := ⟨.hbm, 194, rfl⟩
abbrev main_v144 : Ref sig .tc := ⟨.hbm, 195, rfl⟩
abbrev main_c_16 : Ref sig .tc := ⟨.hbm, 196, rfl⟩
abbrev main_v145 : Ref sig .tc := ⟨.hbm, 197, rfl⟩
abbrev main_v146 : Ref sig .tc := ⟨.hbm, 198, rfl⟩
abbrev main_c_17 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_call7_cst : Ref sig .tc := ⟨.hbm, 206, rfl⟩
abbrev main_call7_v0 : Ref sig .tc := ⟨.hbm, 207, rfl⟩
abbrev main_v153 : Ref sig .tc := ⟨.hbm, 208, rfl⟩
abbrev main_cst_18 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_19 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_call8_cst : Ref sig .tc := ⟨.hbm, 228, rfl⟩
abbrev main_call8_v0 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_20 : Ref sig .tc := ⟨.hbm, 239, rfl⟩
abbrev main_v180 : Ref sig .tc := ⟨.hbm, 240, rfl⟩
abbrev main_cst_21 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_22 : Ref sig .tc := ⟨.hbm, 248, rfl⟩
abbrev main_v187 : Ref sig .tc := ⟨.hbm, 249, rfl⟩
abbrev main_cst_23 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_24 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_call9_cst : Ref sig .tc := ⟨.hbm, 274, rfl⟩
abbrev main_call9_v0 : Ref sig .tc := ⟨.hbm, 275, rfl⟩
abbrev main_v210 : Ref sig .tc := ⟨.hbm, 276, rfl⟩
abbrev main_c_25 : Ref sig .tc := ⟨.hbm, 277, rfl⟩
abbrev main_v211 : Ref sig .tc := ⟨.hbm, 278, rfl⟩
abbrev main_v212 : Ref sig .tc := ⟨.hbm, 279, rfl⟩
abbrev main_c_26 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_call10_cst : Ref sig .tc := ⟨.hbm, 287, rfl⟩
abbrev main_call10_v0 : Ref sig .tc := ⟨.hbm, 288, rfl⟩
abbrev main_v219 : Ref sig .tc := ⟨.hbm, 289, rfl⟩
abbrev main_cst_27 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_28 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_call11_cst : Ref sig .tc := ⟨.hbm, 309, rfl⟩
abbrev main_call11_v0 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_cst_29 : Ref sig .tc := ⟨.hbm, 320, rfl⟩
abbrev main_v246 : Ref sig .tc := ⟨.hbm, 321, rfl⟩
abbrev main_cst_30 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_31 : Ref sig .tc := ⟨.hbm, 329, rfl⟩
abbrev main_v253 : Ref sig .tc := ⟨.hbm, 330, rfl⟩
abbrev main_cst_32 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_cst_33 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_call12_cst : Ref sig .tc := ⟨.hbm, 355, rfl⟩
abbrev main_call12_v0 : Ref sig .tc := ⟨.hbm, 356, rfl⟩
abbrev main_v276 : Ref sig .tc := ⟨.hbm, 357, rfl⟩
abbrev main_cst_34 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_cst_35 : Ref sig .tc := ⟨.hbm, 362, rfl⟩
abbrev main_v280 : Ref sig .tc := ⟨.hbm, 363, rfl⟩
abbrev main_cst_36 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_37 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_call13_cst : Ref sig .tc := ⟨.hbm, 378, rfl⟩
abbrev main_call13_v0 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x32_S32x64_S100000x64_1_0_0_1_n_n_wf : DotDims.WF S100000x32 S32x64 S100000x64 [1] [0] [0] [1] [] []
  dot_S1000000x16_S16x64_S1000000x64_1_0_0_1_n_n_wf : DotDims.WF S1000000x16 S16x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.RChunks.lean ====
/- The reference program's 366 host operations in six stretches — the two encoders, the four layers, the pooling with
  the output perceptron — each with the buffers it writes, so that an array is read where it was written and a
  stretch is entered from the contents the stretch before it leaves.
-/
import proofs.«127476_j62818191671466_2_alg».proof.Proof.Gen.ReferenceIdeal
import Idealize.ShloMosaic.Lib.StableHlo.Run

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- A list of operations run after another is the second list from what the first leaves. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => exact ih (op.result V)

set_option maxHeartbeats 4000000 in
/-- Operations 0–14. -/
abbrev opsEnc : List (HloOp τ sig (Elt F)) :=
  [
    unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg2 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg0 main_arg4 main_v4 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg5 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf,
    binary main_arg1 main_arg6 main_v9 ((fun l r => Host.dotGeneral dot_S1000000x16_S16x64_S1000000x64_1_0_0_1_n_n none l r) : (⟨S1000000x16, .f32⟩ : BufTy).Contents (Elt F) → (⟨S16x64, .f32⟩ : BufTy).Contents (Elt F) → (⟨S1000000x64, .f32⟩ : BufTy).Contents (Elt F)),
    unary main_arg7 main_v10 (broadcastInDim S1x64 ![1] bcast_S64_S1x64_1 : (⟨S64, .f32⟩ : BufTy).Contents (Elt F) → (⟨S1x64, .f32⟩ : BufTy).Contents (Elt F)),
    unary main_v10 main_v11 (broadcastInDim S1000000x64 ![0, 1] bcast_S1x64_S1000000x64_0_1 : (⟨S1x64, .f32⟩ : BufTy).Contents (Elt F) → (⟨S1000000x64, .f32⟩ : BufTy).Contents (Elt F)),
    binary main_v9 main_v11 main_v12 (addf : (⟨S1000000x64, .f32⟩ : BufTy).Contents (Elt F) → (⟨S1000000x64, .f32⟩ : BufTy).Contents (Elt F) → (⟨S1000000x64, .f32⟩ : BufTy).Contents (Elt F)) ]
/-- Each touches TensorCore references only. -/
theorem opsEnc_sub : (opsEnc : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- None allocates a buffer. -/
theorem opsEnc_fresh : (opsEnc : List (HloOp τ sig (Elt F))).Forall fun op => op.fresh = ∅ := by
  simp only [List.Forall]; repeat' constructor
/-- The buffers they write. -/
abbrev opsEnc_W : List (Ref sig .tc) := [main_v0, main_v1, main_v2, main_v3, main_v4, main_v5, main_v6, main_v7, main_call0_cst, main_call0_v0, main_v8, main_v9, main_v10, main_v11, main_v12]
set_option maxHeartbeats 4000000 in
theorem opsEnc_writes : (opsEnc : List (HloOp τ sig (Elt F))).Forall fun op => op.writes ⊆ (opsEnc_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- Operations 15–95. -/
abbrev opsL0 : List (HloOp τ sig (Elt F)) :=
  [
    nullary main_c (constantI S_ 32 0#32),
    unary main_c main_v13 (broadcastInDim S1000000 ![] bcast_S_S1000000 : (⟨S_, .i32⟩ : BufTy).Contents (Elt F) → (⟨S1000000, .i32⟩ : BufTy).Contents (Elt F)),
    binary main_v1 main_v13 main_v14 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v15 (broadcastInDim S1000000 ![] bcast_S_S1000000 : (⟨S_, .i32⟩ : BufTy).Contents (Elt F) → (⟨S1000000, .i32⟩ : BufTy).Contents (Elt F)),
    binary main_v1 main_v15 main_v16 (addi : (⟨S1000000, .i32⟩ : BufTy).Contents (Elt F) → (⟨S1000000, .i32⟩ : BufTy).Contents (Elt F) → (⟨S1000000, .i32⟩ : BufTy).Contents (Elt F)),
    ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v17 main_v18 (broadcastInDim S1000000x1 ![0] bcast_S1000000_S1000000x1_0 : (⟨S1000000, .i32⟩ : BufTy).Contents (Elt F) → (⟨S1000000x1, .i32⟩ : BufTy).Contents (Elt F)),
    binary main_v8 main_v18 main_v19 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v19 main_v12 main_v20 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000000x64, .f32⟩) main_call1_v0) (broadcastInDim S1000000x64 ![] bcast_S_S1000000x64),
    TRef.binary (TRef.of (T := ⟨S1000000x64, .f32⟩) main_v20) (TRef.of (T := ⟨S1000000x64, .f32⟩) main_call1_v0) (TRef.of (T := ⟨S1000000x64, .f32⟩) main_v21) maximumf,
    nullary main_cst (constant S_ .f32 0x00000000#32),
    unary main_cst main_v22 (broadcastInDim S100000x64 ![] bcast_S_S100000x64 : (⟨S_, .f32⟩ : BufTy).Contents (Elt F) → (⟨S100000x64, .f32⟩ : BufTy).Contents (Elt F)),
    unary main_v3 main_v23 (broadcastInDim S1000000x1 ![0] bcast_S1000000_S1000000x1_0 : (⟨S1000000, .i32⟩ : BufTy).Contents (Elt F) → (⟨S1000000x1, .i32⟩ : BufTy).Contents (Elt F)),
    ternary main_v22 main_v23 main_v21 main_v24 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg8 main_v25 ((extractStridedSlice S1 ![0] · slices_S4_S1_0) : (⟨S4, .f32⟩ : BufTy).Contents (Elt F) → (⟨S1, .f32⟩ : BufTy).Contents (Elt F)),
    reshape main_v25 main_v26 rfl shapeCasts_S1_S_,
    nullary main_cst_1 (constant S_ .f32 0x3F800000#32),
    binary main_cst_1 main_v26 main_v27 (addf : (⟨S_, .f32⟩ : BufTy).Contents (Elt F) → (⟨S_, .f32⟩ : BufTy).Contents (Elt F) → (⟨S_, .f32⟩ : BufTy).Contents (Elt F)),
    unary main_v27 main_v28 (broadcastInDim S100000x64 ![] bcast_S_S100000x64 : (⟨S_, .f32⟩ : BufTy).Contents (Elt F) → (⟨S100000x64, .f32⟩ : BufTy).Contents (Elt F)),
    binary main_v28 main_v8 main_v29 (mulf : (⟨S100000x64, .f32⟩ : BufTy).Contents (Elt F) → (⟨S100000x64, .f32⟩ : BufTy).Contents (Elt F) → (⟨S100000x64, .f32⟩ : BufTy).Contents (Elt F)),
    binary main_v29 main_v24 main_v30 (addf : (⟨S100000x64, .f32⟩ : BufTy).Contents (Elt F) → (⟨S100000x64, .f32⟩ : BufTy).Contents (Elt F) → (⟨S100000x64, .f32⟩ : BufTy).Contents (Elt F)),
    unary main_arg9 main_v31 ((extractStridedSlice S1x64x128 ![0, 0, 0] · slices_S4x64x128_S1x64x128_0_0_0) : (⟨S4x64x128, .f32⟩ : BufTy).Contents (Elt F) → (⟨S1x64x128, .f32⟩ : BufTy).Contents (Elt F)),
    reshape main_v31 main_v32 rfl shapeCasts_S1x64x128_S64x128,
    binary main_v30 main_v32 main_v33 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg10 main_v34 ((extractStridedSlice S1x128 ![0, 0] · slices_S4x128_S1x128_0_0) : (⟨S4x128, .f32⟩ : BufTy).Contents (Elt F) → (⟨S1x128, .f32⟩ : BufTy).Contents (Elt F)),
    reshape main_v34 main_v35 rfl shapeCasts_S1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v33 main_v37 main_v38 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v38) (TRef.of (T := ⟨S100000x128, .f32⟩) main_call2_v0) (TRef.of (T := ⟨S100000x128, .f32⟩) main_v39) maximumf,
    unary main_arg11 main_v40 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v40 main_v41 rfl shapeCasts_S1x128x64_S128x64,
    binary main_v39 main_v41 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v43 ((extractStridedSlice S1x64 ![0, 0] · slices_S4x64_S1x64_0_0) : (⟨S4x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v42 main_v46 main_v47 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x00000000#32),
    binary main_v47 main_cst_2 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_3 (constant S_ .f32 0x47C35000#32),
    unary main_cst_3 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    unary main_v50 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v47 main_v52 main_v53 (subf : (⟨S100000x64, .f32⟩ : BufTy).Contents (Elt F) → (⟨S100000x64, .f32⟩ : BufTy).Contents (Elt F) → (⟨S100000x64, .f32⟩ : BufTy).Contents (Elt F)),
    binary main_v53 main_v53 main_v54 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v54 main_cst_4 main_v55 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_5 (constant S_ .f32 0x47C35000#32),
    unary main_cst_5 main_v56 (broadcastInDim S64 ![] bcast_S_S64 : (⟨S_, .f32⟩ : BufTy).Contents (Elt F) → (⟨S64, .f32⟩ : BufTy).Contents (Elt F)),
    binary main_v55 main_v56 main_v57 (Host.divf : (⟨S64, .f32⟩ : BufTy).Contents (Elt F) → (⟨S64, .f32⟩ : BufTy).Contents (Elt F) → (⟨S64, .f32⟩ : BufTy).Contents (Elt F)),
    unary main_v50 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v47 main_v59 main_v60 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v61 (broadcastInDim S64 ![] bcast_S_S64 : (⟨S_, .f32⟩ : BufTy).Contents (Elt F) → (⟨S64, .f32⟩ : BufTy).Contents (Elt F)),
    binary main_v57 main_v61 main_v62 (addf : (⟨S64, .f32⟩ : BufTy).Contents (Elt F) → (⟨S64, .f32⟩ : BufTy).Contents (Elt F) → (⟨S64, .f32⟩ : BufTy).Contents (Elt F)),
    unary main_v62 main_v63 (Host.rsqrt : (⟨S64, .f32⟩ : BufTy).Contents (Elt F) → (⟨S64, .f32⟩ : BufTy).Contents (Elt F)),
    unary main_v63 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v60 main_v65 main_v66 (mulf : (⟨S100000x64, .f32⟩ : BufTy).Contents (Elt F) → (⟨S100000x64, .f32⟩ : BufTy).Contents (Elt F) → (⟨S100000x64, .f32⟩ : BufTy).Contents (Elt F)),
    unary main_arg13 main_v67 ((extractStridedSlice S1x64 ![0, 0] · slices_S4x64_S1x64_0_0) : (⟨S4x64, .f32⟩ : BufTy).Contents (Elt F) → (⟨S1x64, .f32⟩ : BufTy).Contents (Elt F)),
    reshape main_v67 main_v68 rfl shapeCasts_S1x64_S64,
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v66 main_v70 main_v71 (mulf : (⟨S100000x64, .f32⟩ : BufTy).Contents (Elt F) → (⟨S100000x64, .f32⟩ : BufTy).Contents (Elt F) → (⟨S100000x64, .f32⟩ : BufTy).Contents (Elt F)),
    unary main_arg14 main_v72 ((extractStridedSlice S1x64 ![0, 0] · slices_S4x64_S1x64_0_0) : (⟨S4x64, .f32⟩ : BufTy).Contents (Elt F) → (⟨S1x64, .f32⟩ : BufTy).Contents (Elt F)),
    reshape main_v72 main_v73 rfl shapeCasts_S1x64_S64,
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v71 main_v75 main_v76 (addf : (⟨S100000x64, .f32⟩ : BufTy).Contents (Elt F) → (⟨S100000x64, .f32⟩ : BufTy).Contents (Elt F) → (⟨S100000x64, .f32⟩ : BufTy).Contents (Elt F)),
    binary main_v76 main_v8 main_v77 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v77) (TRef.of (T := ⟨S100000x64, .f32⟩) main_call3_v0) (TRef.of (T := ⟨S100000x64, .f32⟩) main_v78) maximumf ]
/-- Each touches TensorCore references only. -/
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None allocates a buffer. -/
theorem opsL0_fresh : (opsL0 : List (HloOp τ sig (Elt F))).Forall fun op => op.fresh = ∅ := by
  simp only [List.Forall]; repeat' constructor
/-- The buffers they write. -/
abbrev opsL0_W : List (Ref sig .tc) := [main_c, main_v13, main_v14, main_c_0, main_v15, main_v16, main_v17, main_v18, main_v19, main_v20, main_call1_cst, main_call1_v0, main_v21, main_cst, main_v22, main_v23, main_v24, main_v25, main_v26, main_cst_1, main_v27, main_v28, main_v29, main_v30, main_v31, main_v32, main_v33, main_v34, main_v35, main_v36, main_v37, main_v38, main_call2_cst, main_call2_v0, main_v39, main_v40, main_v41, main_v42, main_v43, main_v44, main_v45, main_v46, main_v47, main_cst_2, main_v48, main_cst_3, main_v49, main_v50, main_v51, main_v52, main_v53, main_v54, main_cst_4, main_v55, main_cst_5, main_v56, main_v57, main_v58, main_v59, main_v60, main_cst_6, main_v61, main_v62, main_v63, main_v64, main_v65, main_v66, main_v67, main_v68, main_v69, main_v70, main_v71, main_v72, main_v73, main_v74, main_v75, main_v76, main_v77, main_call3_cst, main_call3_v0, main_v78]
set_option maxHeartbeats 4000000 in
theorem opsL0_writes : (opsL0 : List (HloOp τ sig (Elt F))).Forall fun op => op.writes ⊆ (opsL0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- Operations 96–176. -/
abbrev opsL1 : List (HloOp τ sig (Elt F)) :=
  [
    nullary main_c_7 (constantI S_ 32 0#32),
    unary main_c_7 main_v79 (broadcastInDim S1000000 ![] bcast_S_S1000000 : (⟨S_, .i32⟩ : BufTy).Contents (Elt F) → (⟨S1000000, .i32⟩ : BufTy).Contents (Elt F)),
    binary main_v1 main_v79 main_v80 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 100000#32),
    unary main_c_8 main_v81 (broadcastInDim S1000000 ![] bcast_S_S1000000 : (⟨S_, .i32⟩ : BufTy).Contents (Elt F) → (⟨S1000000, .i32⟩ : BufTy).Contents (Elt F)),
    binary main_v1 main_v81 main_v82 (addi : (⟨S1000000, .i32⟩ : BufTy).Contents (Elt F) → (⟨S1000000, .i32⟩ : BufTy).Contents (Elt F) → (⟨S1000000, .i32⟩ : BufTy).Contents (Elt F)),
    ternary main_v80 main_v82 main_v1 main_v83 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v83 main_v84 (broadcastInDim S1000000x1 ![0] bcast_S1000000_S1000000x1_0 : (⟨S1000000, .i32⟩ : BufTy).Contents (Elt F) → (⟨S1000000x1, .i32⟩ : BufTy).Contents (Elt F)),
    binary main_v78 main_v84 main_v85 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v85 main_v12 main_v86 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1000000x64, .f32⟩) main_call4_v0) (broadcastInDim S1000000x64 ![] bcast_S_S1000000x64),
    TRef.binary (TRef.of (T := ⟨S1000000x64, .f32⟩) main_v86) (TRef.of (T := ⟨S1000000x64, .f32⟩) main_call4_v0) (TRef.of (T := ⟨S1000000x64, .f32⟩) main_v87) maximumf,
    nullary main_cst_9 (constant S_ .f32 0x00000000#32),
    unary main_cst_9 main_v88 (broadcastInDim S100000x64 ![] bcast_S_S100000x64 : (⟨S_, .f32⟩ : BufTy).Contents (Elt F) → (⟨S100000x64, .f32⟩ : BufTy).Contents (Elt F)),
    unary main_v3 main_v89 (broadcastInDim S1000000x1 ![0] bcast_S1000000_S1000000x1_0 : (⟨S1000000, .i32⟩ : BufTy).Contents (Elt F) → (⟨S1000000x1, .i32⟩ : BufTy).Contents (Elt F)),
    ternary main_v88 main_v89 main_v87 main_v90 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg8 main_v91 ((extractStridedSlice S1 ![1] · slices_S4_S1_1) : (⟨S4, .f32⟩ : BufTy).Contents (Elt F) → (⟨S1, .f32⟩ : BufTy).Contents (Elt F)),
    reshape main_v91 main_v92 rfl shapeCasts_S1_S_,
    nullary main_cst_10 (constant S_ .f32 0x3F800000#32),
    binary main_cst_10 main_v92 main_v93 (addf : (⟨S_, .f32⟩ : BufTy).Contents (Elt F) → (⟨S_, .f32⟩ : BufTy).Contents (Elt F) → (⟨S_, .f32⟩ : BufTy).Contents (Elt F)),
    unary main_v93 main_v94 (broadcastInDim S100000x64 ![] bcast_S_S100000x64 : (⟨S_, .f32⟩ : BufTy).Contents (Elt F) → (⟨S100000x64, .f32⟩ : BufTy).Contents (Elt F)),
    binary main_v94 main_v78 main_v95 (mulf : (⟨S100000x64, .f32⟩ : BufTy).Contents (Elt F) → (⟨S100000x64, .f32⟩ : BufTy).Contents (Elt F) → (⟨S100000x64, .f32⟩ : BufTy).Contents (Elt F)),
    binary main_v95 main_v90 main_v96 (addf : (⟨S100000x64, .f32⟩ : BufTy).Contents (Elt F) → (⟨S100000x64, .f32⟩ : BufTy).Contents (Elt F) → (⟨S100000x64, .f32⟩ : BufTy).Contents (Elt F)),
    unary main_arg9 main_v97 ((extractStridedSlice S1x64x128 ![1, 0, 0] · slices_S4x64x128_S1x64x128_1_0_0) : (⟨S4x64x128, .f32⟩ : BufTy).Contents (Elt F) → (⟨S1x64x128, .f32⟩ : BufTy).Contents (Elt F)),
    reshape main_v97 main_v98 rfl shapeCasts_S1x64x128_S64x128,
    binary main_v96 main_v98 main_v99 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg10 main_v100 ((extractStridedSlice S1x128 ![1, 0] · slices_S4x128_S1x128_1_0) : (⟨S4x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v99 main_v103 main_v104 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v104) (TRef.of (T := ⟨S100000x128, .f32⟩) main_call5_v0) (TRef.of (T := ⟨S100000x128, .f32⟩) main_v105) maximumf,
    unary main_arg11 main_v106 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v106 main_v107 rfl shapeCasts_S1x128x64_S128x64,
    binary main_v105 main_v107 main_v108 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v109 ((extractStridedSlice S1x64 ![1, 0] · slices_S4x64_S1x64_1_0) : (⟨S4x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v108 main_v112 main_v113 (addf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v113 main_cst_11 main_v114 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v115 (broadcastInDim S64 ![] bcast_S_S64 : (⟨S_, .f32⟩ : BufTy).Contents (Elt F) → (⟨S64, .f32⟩ : BufTy).Contents (Elt F)),
    binary main_v114 main_v115 main_v116 (Host.divf : (⟨S64, .f32⟩ : BufTy).Contents (Elt F) → (⟨S64, .f32⟩ : BufTy).Contents (Elt F) → (⟨S64, .f32⟩ : BufTy).Contents (Elt F)),
    unary main_v116 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v113 main_v118 main_v119 (subf : (⟨S100000x64, .f32⟩ : BufTy).Contents (Elt F) → (⟨S100000x64, .f32⟩ : BufTy).Contents (Elt F) → (⟨S100000x64, .f32⟩ : BufTy).Contents (Elt F)),
    binary main_v119 main_v119 main_v120 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v120 main_cst_13 main_v121 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v122 (broadcastInDim S64 ![] bcast_S_S64 : (⟨S_, .f32⟩ : BufTy).Contents (Elt F) → (⟨S64, .f32⟩ : BufTy).Contents (Elt F)),
    binary main_v121 main_v122 main_v123 (Host.divf : (⟨S64, .f32⟩ : BufTy).Contents (Elt F) → (⟨S64, .f32⟩ : BufTy).Contents (Elt F) → (⟨S64, .f32⟩ : BufTy).Contents (Elt F)),
    unary main_v116 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v113 main_v125 main_v126 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v127 (broadcastInDim S64 ![] bcast_S_S64 : (⟨S_, .f32⟩ : BufTy).Contents (Elt F) → (⟨S64, .f32⟩ : BufTy).Contents (Elt F)),
    binary main_v123 main_v127 main_v128 (addf : (⟨S64, .f32⟩ : BufTy).Contents (Elt F) → (⟨S64, .f32⟩ : BufTy).Contents (Elt F) → (⟨S64, .f32⟩ : BufTy).Contents (Elt F)),
    unary main_v128 main_v129 (Host.rsqrt : (⟨S64, .f32⟩ : BufTy).Contents (Elt F) → (⟨S64, .f32⟩ : BufTy).Contents (Elt F)),
    unary main_v129 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v126 main_v131 main_v132 (mulf : (⟨S100000x64, .f32⟩ : BufTy).Contents (Elt F) → (⟨S100000x64, .f32⟩ : BufTy).Contents (Elt F) → (⟨S100000x64, .f32⟩ : BufTy).Contents (Elt F)),
    unary main_arg13 main_v133 ((extractStridedSlice S1x64 ![1, 0] · slices_S4x64_S1x64_1_0) : (⟨S4x64, .f32⟩ : BufTy).Contents (Elt F) → (⟨S1x64, .f32⟩ : BufTy).Contents (Elt F)),
    reshape main_v133 main_v134 rfl shapeCasts_S1x64_S64,
    unary main_v134 main_v135 (broadcastInDim S1x64 ![1] bcast_S64_S1x64_1 : (⟨S64, .f32⟩ : BufTy).Contents (Elt F) → (⟨S1x64, .f32⟩ : BufTy).Contents (Elt F)),
    unary main_v135 main_v136 (broadcastInDim S100000x64 ![0, 1] bcast_S1x64_S100000x64_0_1 : (⟨S1x64, .f32⟩ : BufTy).Contents (Elt F) → (⟨S100000x64, .f32⟩ : BufTy).Contents (Elt F)),
    binary main_v132 main_v136 main_v137 (mulf : (⟨S100000x64, .f32⟩ : BufTy).Contents (Elt F) → (⟨S100000x64, .f32⟩ : BufTy).Contents (Elt F) → (⟨S100000x64, .f32⟩ : BufTy).Contents (Elt F)),
    unary main_arg14 main_v138 ((extractStridedSlice S1x64 ![1, 0] · slices_S4x64_S1x64_1_0) : (⟨S4x64, .f32⟩ : BufTy).Contents (Elt F) → (⟨S1x64, .f32⟩ : BufTy).Contents (Elt F)),
    reshape main_v138 main_v139 rfl shapeCasts_S1x64_S64,
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v137 main_v141 main_v142 (addf : (⟨S100000x64, .f32⟩ : BufTy).Contents (Elt F) → (⟨S100000x64, .f32⟩ : BufTy).Contents (Elt F) → (⟨S100000x64, .f32⟩ : BufTy).Contents (Elt F)),
    binary main_v142 main_v78 main_v143 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v143) (TRef.of (T := ⟨S100000x64, .f32⟩) main_call6_v0) (TRef.of (T := ⟨S100000x64, .f32⟩) main_v144) maximumf ]
/-- Each touches TensorCore references only. -/
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None allocates a buffer. -/
theorem opsL1_fresh : (opsL1 : List (HloOp τ sig (Elt F))).Forall fun op => op.fresh = ∅ := by
  simp only [List.Forall]; repeat' constructor
/-- The buffers they write. -/
abbrev opsL1_W : List (Ref sig .tc) := [main_c_7, main_v79, main_v80, main_c_8, main_v81, main_v82, main_v83, main_v84, main_v85, main_v86, main_call4_cst, main_call4_v0, main_v87, main_cst_9, main_v88, main_v89, main_v90, main_v91, main_v92, main_cst_10, main_v93, main_v94, main_v95, main_v96, main_v97, main_v98, main_v99, main_v100, main_v101, main_v102, main_v103, main_v104, main_call5_cst, main_call5_v0, main_v105, main_v106, main_v107, main_v108, main_v109, main_v110, main_v111, main_v112, main_v113, main_cst_11, main_v114, main_cst_12, main_v115, main_v116, main_v117, main_v118, main_v119, main_v120, main_cst_13, main_v121, main_cst_14, main_v122, main_v123, main_v124, main_v125, main_v126, main_cst_15, main_v127, main_v128, main_v129, main_v130, main_v131, main_v132, main_v133, main_v134, main_v135, main_v136, main_v137, main_v138, main_v139, main_v140, main_v141, main_v142, main_v143, main_call6_cst, main_call6_v0, main_v144]
set_option maxHeartbeats 4000000 in
theorem opsL1_writes : (opsL1 : List (HloOp τ sig (Elt F))).Forall fun op => op.writes ⊆ (opsL1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- Operations 177–257. -/
abbrev opsL2 : List (HloOp τ sig (Elt F)) :=
  [
    nullary main_c_16 (constantI S_ 32 0#32),
    unary main_c_16 main_v145 (broadcastInDim S1000000 ![] bcast_S_S1000000 : (⟨S_, .i32⟩ : BufTy).Contents (Elt F) → (⟨S1000000, .i32⟩ : BufTy).Contents (Elt F)),
    binary main_v1 main_v145 main_v146 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 100000#32),
    unary main_c_17 main_v147 (broadcastInDim S1000000 ![] bcast_S_S1000000 : (⟨S_, .i32⟩ : BufTy).Contents (Elt F) → (⟨S1000000, .i32⟩ : BufTy).Contents (Elt F)),
    binary main_v1 main_v147 main_v148 (addi : (⟨S1000000, .i32⟩ : BufTy).Contents (Elt F) → (⟨S1000000, .i32⟩ : BufTy).Contents (Elt F) → (⟨S1000000, .i32⟩ : BufTy).Contents (Elt F)),
    ternary main_v146 main_v148 main_v1 main_v149 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v149 main_v150 (broadcastInDim S1000000x1 ![0] bcast_S1000000_S1000000x1_0 : (⟨S1000000, .i32⟩ : BufTy).Contents (Elt F) → (⟨S1000000x1, .i32⟩ : BufTy).Contents (Elt F)),
    binary main_v144 main_v150 main_v151 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v151 main_v12 main_v152 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1000000x64, .f32⟩) main_call7_v0) (broadcastInDim S1000000x64 ![] bcast_S_S1000000x64),
    TRef.binary (TRef.of (T := ⟨S1000000x64, .f32⟩) main_v152) (TRef.of (T := ⟨S1000000x64, .f32⟩) main_call7_v0) (TRef.of (T := ⟨S1000000x64, .f32⟩) main_v153) maximumf,
    nullary main_cst_18 (constant S_ .f32 0x00000000#32),
    unary main_cst_18 main_v154 (broadcastInDim S100000x64 ![] bcast_S_S100000x64 : (⟨S_, .f32⟩ : BufTy).Contents (Elt F) → (⟨S100000x64, .f32⟩ : BufTy).Contents (Elt F)),
    unary main_v3 main_v155 (broadcastInDim S1000000x1 ![0] bcast_S1000000_S1000000x1_0 : (⟨S1000000, .i32⟩ : BufTy).Contents (Elt F) → (⟨S1000000x1, .i32⟩ : BufTy).Contents (Elt F)),
    ternary main_v154 main_v155 main_v153 main_v156 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg8 main_v157 ((extractStridedSlice S1 ![2] · slices_S4_S1_2) : (⟨S4, .f32⟩ : BufTy).Contents (Elt F) → (⟨S1, .f32⟩ : BufTy).Contents (Elt F)),
    reshape main_v157 main_v158 rfl shapeCasts_S1_S_,
    nullary main_cst_19 (constant S_ .f32 0x3F800000#32),
    binary main_cst_19 main_v158 main_v159 (addf : (⟨S_, .f32⟩ : BufTy).Contents (Elt F) → (⟨S_, .f32⟩ : BufTy).Contents (Elt F) → (⟨S_, .f32⟩ : BufTy).Contents (Elt F)),
    unary main_v159 main_v160 (broadcastInDim S100000x64 ![] bcast_S_S100000x64 : (⟨S_, .f32⟩ : BufTy).Contents (Elt F) → (⟨S100000x64, .f32⟩ : BufTy).Contents (Elt F)),
    binary main_v160 main_v144 main_v161 (mulf : (⟨S100000x64, .f32⟩ : BufTy).Contents (Elt F) → (⟨S100000x64, .f32⟩ : BufTy).Contents (Elt F) → (⟨S100000x64, .f32⟩ : BufTy).Contents (Elt F)),
    binary main_v161 main_v156 main_v162 (addf : (⟨S100000x64, .f32⟩ : BufTy).Contents (Elt F) → (⟨S100000x64, .f32⟩ : BufTy).Contents (Elt F) → (⟨S100000x64, .f32⟩ : BufTy).Contents (Elt F)),
    unary main_arg9 main_v163 ((extractStridedSlice S1x64x128 ![2, 0, 0] · slices_S4x64x128_S1x64x128_2_0_0) : (⟨S4x64x128, .f32⟩ : BufTy).Contents (Elt F) → (⟨S1x64x128, .f32⟩ : BufTy).Contents (Elt F)),
    reshape main_v163 main_v164 rfl shapeCasts_S1x64x128_S64x128,
    binary main_v162 main_v164 main_v165 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg10 main_v166 ((extractStridedSlice S1x128 ![2, 0] · slices_S4x128_S1x128_2_0) : (⟨S4x128, .f32⟩ : BufTy).Contents (Elt F) → (⟨S1x128, .f32⟩ : BufTy).Contents (Elt F)),
    reshape main_v166 main_v167 rfl shapeCasts_S1x128_S128,
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S100000x128 ![0, 1] bcast_S1x128_S100000x128_0_1 : (⟨S1x128, .f32⟩ : BufTy).Contents (Elt F) → (⟨S100000x128, .f32⟩ : BufTy).Contents (Elt F)),
    binary main_v165 main_v169 main_v170 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v170) (TRef.of (T := ⟨S100000x128, .f32⟩) main_call8_v0) (TRef.of (T := ⟨S100000x128, .f32⟩) main_v171) maximumf,
    unary main_arg11 main_v172 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v172 main_v173 rfl shapeCasts_S1x128x64_S128x64,
    binary main_v171 main_v173 main_v174 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v175 ((extractStridedSlice S1x64 ![2, 0] · slices_S4x64_S1x64_2_0) : (⟨S4x64, .f32⟩ : BufTy).Contents (Elt F) → (⟨S1x64, .f32⟩ : BufTy).Contents (Elt F)),
    reshape main_v175 main_v176 rfl shapeCasts_S1x64_S64,
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v174 main_v178 main_v179 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x00000000#32),
    binary main_v179 main_cst_20 main_v180 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_21 (constant S_ .f32 0x47C35000#32),
    unary main_cst_21 main_v181 (broadcastInDim S64 ![] bcast_S_S64 : (⟨S_, .f32⟩ : BufTy).Contents (Elt F) → (⟨S64, .f32⟩ : BufTy).Contents (Elt F)),
    binary main_v180 main_v181 main_v182 (Host.divf : (⟨S64, .f32⟩ : BufTy).Contents (Elt F) → (⟨S64, .f32⟩ : BufTy).Contents (Elt F) → (⟨S64, .f32⟩ : BufTy).Contents (Elt F)),
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S100000x64 ![0, 1] bcast_S1x64_S100000x64_0_1 : (⟨S1x64, .f32⟩ : BufTy).Contents (Elt F) → (⟨S100000x64, .f32⟩ : BufTy).Contents (Elt F)),
    binary main_v179 main_v184 main_v185 (subf : (⟨S100000x64, .f32⟩ : BufTy).Contents (Elt F) → (⟨S100000x64, .f32⟩ : BufTy).Contents (Elt F) → (⟨S100000x64, .f32⟩ : BufTy).Contents (Elt F)),
    binary main_v185 main_v185 main_v186 (mulf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v186 main_cst_22 main_v187 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v188 (broadcastInDim S64 ![] bcast_S_S64 : (⟨S_, .f32⟩ : BufTy).Contents (Elt F) → (⟨S64, .f32⟩ : BufTy).Contents (Elt F)),
    binary main_v187 main_v188 main_v189 (Host.divf : (⟨S64, .f32⟩ : BufTy).Contents (Elt F) → (⟨S64, .f32⟩ : BufTy).Contents (Elt F) → (⟨S64, .f32⟩ : BufTy).Contents (Elt F)),
    unary main_v182 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v179 main_v191 main_v192 (subf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3727C5AC#32),
    unary main_cst_24 main_v193 (broadcastInDim S64 ![] bcast_S_S64 : (⟨S_, .f32⟩ : BufTy).Contents (Elt F) → (⟨S64, .f32⟩ : BufTy).Contents (Elt F)),
    binary main_v189 main_v193 main_v194 (addf : (⟨S64, .f32⟩ : BufTy).Contents (Elt F) → (⟨S64, .f32⟩ : BufTy).Contents (Elt F) → (⟨S64, .f32⟩ : BufTy).Contents (Elt F)),
    unary main_v194 main_v195 (Host.rsqrt : (⟨S64, .f32⟩ : BufTy).Contents (Elt F) → (⟨S64, .f32⟩ : BufTy).Contents (Elt F)),
    unary main_v195 main_v196 (broadcastInDim S1x64 ![1] bcast_S64_S1x64_1 : (⟨S64, .f32⟩ : BufTy).Contents (Elt F) → (⟨S1x64, .f32⟩ : BufTy).Contents (Elt F)),
    unary main_v196 main_v197 (broadcastInDim S100000x64 ![0, 1] bcast_S1x64_S100000x64_0_1 : (⟨S1x64, .f32⟩ : BufTy).Contents (Elt F) → (⟨S100000x64, .f32⟩ : BufTy).Contents (Elt F)),
    binary main_v192 main_v197 main_v198 (mulf : (⟨S100000x64, .f32⟩ : BufTy).Contents (Elt F) → (⟨S100000x64, .f32⟩ : BufTy).Contents (Elt F) → (⟨S100000x64, .f32⟩ : BufTy).Contents (Elt F)),
    unary main_arg13 main_v199 ((extractStridedSlice S1x64 ![2, 0] · slices_S4x64_S1x64_2_0) : (⟨S4x64, .f32⟩ : BufTy).Contents (Elt F) → (⟨S1x64, .f32⟩ : BufTy).Contents (Elt F)),
    reshape main_v199 main_v200 rfl shapeCasts_S1x64_S64,
    unary main_v200 main_v201 (broadcastInDim S1x64 ![1] bcast_S64_S1x64_1 : (⟨S64, .f32⟩ : BufTy).Contents (Elt F) → (⟨S1x64, .f32⟩ : BufTy).Contents (Elt F)),
    unary main_v201 main_v202 (broadcastInDim S100000x64 ![0, 1] bcast_S1x64_S100000x64_0_1 : (⟨S1x64, .f32⟩ : BufTy).Contents (Elt F) → (⟨S100000x64, .f32⟩ : BufTy).Contents (Elt F)),
    binary main_v198 main_v202 main_v203 (mulf : (⟨S100000x64, .f32⟩ : BufTy).Contents (Elt F) → (⟨S100000x64, .f32⟩ : BufTy).Contents (Elt F) → (⟨S100000x64, .f32⟩ : BufTy).Contents (Elt F)),
    unary main_arg14 main_v204 ((extractStridedSlice S1x64 ![2, 0] · slices_S4x64_S1x64_2_0) : (⟨S4x64, .f32⟩ : BufTy).Contents (Elt F) → (⟨S1x64, .f32⟩ : BufTy).Contents (Elt F)),
    reshape main_v204 main_v205 rfl shapeCasts_S1x64_S64,
    unary main_v205 main_v206 (broadcastInDim S1x64 ![1] bcast_S64_S1x64_1 : (⟨S64, .f32⟩ : BufTy).Contents (Elt F) → (⟨S1x64, .f32⟩ : BufTy).Contents (Elt F)),
    unary main_v206 main_v207 (broadcastInDim S100000x64 ![0, 1] bcast_S1x64_S100000x64_0_1 : (⟨S1x64, .f32⟩ : BufTy).Contents (Elt F) → (⟨S100000x64, .f32⟩ : BufTy).Contents (Elt F)),
    binary main_v203 main_v207 main_v208 (addf : (⟨S100000x64, .f32⟩ : BufTy).Contents (Elt F) → (⟨S100000x64, .f32⟩ : BufTy).Contents (Elt F) → (⟨S100000x64, .f32⟩ : BufTy).Contents (Elt F)),
    binary main_v208 main_v144 main_v209 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v209) (TRef.of (T := ⟨S100000x64, .f32⟩) main_call9_v0) (TRef.of (T := ⟨S100000x64, .f32⟩) main_v210) maximumf ]
/-- Each touches TensorCore references only. -/
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None allocates a buffer. -/
theorem opsL2_fresh : (opsL2 : List (HloOp τ sig (Elt F))).Forall fun op => op.fresh = ∅ := by
  simp only [List.Forall]; repeat' constructor
/-- The buffers they write. -/
abbrev opsL2_W : List (Ref sig .tc) := [main_c_16, main_v145, main_v146, main_c_17, main_v147, main_v148, main_v149, main_v150, main_v151, main_v152, main_call7_cst, main_call7_v0, main_v153, main_cst_18, main_v154, main_v155, main_v156, main_v157, main_v158, main_cst_19, main_v159, main_v160, main_v161, main_v162, main_v163, main_v164, main_v165, main_v166, main_v167, main_v168, main_v169, main_v170, main_call8_cst, main_call8_v0, main_v171, main_v172, main_v173, main_v174, main_v175, main_v176, main_v177, main_v178, main_v179, main_cst_20, main_v180, main_cst_21, main_v181, main_v182, main_v183, main_v184, main_v185, main_v186, main_cst_22, main_v187, main_cst_23, main_v188, main_v189, main_v190, main_v191, main_v192, main_cst_24, main_v193, main_v194, main_v195, main_v196, main_v197, main_v198, main_v199, main_v200, main_v201, main_v202, main_v203, main_v204, main_v205, main_v206, main_v207, main_v208, main_v209, main_call9_cst, main_call9_v0, main_v210]
set_option maxHeartbeats 4000000 in
theorem opsL2_writes : (opsL2 : List (HloOp τ sig (Elt F))).Forall fun op => op.writes ⊆ (opsL2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- Operations 258–338. -/
abbrev opsL3 : List (HloOp τ sig (Elt F)) :=
  [
    nullary main_c_25 (constantI S_ 32 0#32),
    unary main_c_25 main_v211 (broadcastInDim S1000000 ![] bcast_S_S1000000 : (⟨S_, .i32⟩ : BufTy).Contents (Elt F) → (⟨S1000000, .i32⟩ : BufTy).Contents (Elt F)),
    binary main_v1 main_v211 main_v212 (cmpi .slt : (⟨S1000000, .i32⟩ : BufTy).Contents (Elt F) → (⟨S1000000, .i32⟩ : BufTy).Contents (Elt F) → (⟨S1000000, .i1⟩ : BufTy).Contents (Elt F)),
    nullary main_c_26 (constantI S_ 32 100000#32),
    unary main_c_26 main_v213 (broadcastInDim S1000000 ![] bcast_S_S1000000 : (⟨S_, .i32⟩ : BufTy).Contents (Elt F) → (⟨S1000000, .i32⟩ : BufTy).Contents (Elt F)),
    binary main_v1 main_v213 main_v214 (addi : (⟨S1000000, .i32⟩ : BufTy).Contents (Elt F) → (⟨S1000000, .i32⟩ : BufTy).Contents (Elt F) → (⟨S1000000, .i32⟩ : BufTy).Contents (Elt F)),
    ternary main_v212 main_v214 main_v1 main_v215 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v215 main_v216 (broadcastInDim S1000000x1 ![0] bcast_S1000000_S1000000x1_0 : (⟨S1000000, .i32⟩ : BufTy).Contents (Elt F) → (⟨S1000000x1, .i32⟩ : BufTy).Contents (Elt F)),
    binary main_v210 main_v216 main_v217 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v217 main_v12 main_v218 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1000000x64, .f32⟩) main_call10_v0) (broadcastInDim S1000000x64 ![] bcast_S_S1000000x64),
    TRef.binary (TRef.of (T := ⟨S1000000x64, .f32⟩) main_v218) (TRef.of (T := ⟨S1000000x64, .f32⟩) main_call10_v0) (TRef.of (T := ⟨S1000000x64, .f32⟩) main_v219) maximumf,
    nullary main_cst_27 (constant S_ .f32 0x00000000#32),
    unary main_cst_27 main_v220 (broadcastInDim S100000x64 ![] bcast_S_S100000x64 : (⟨S_, .f32⟩ : BufTy).Contents (Elt F) → (⟨S100000x64, .f32⟩ : BufTy).Contents (Elt F)),
    unary main_v3 main_v221 (broadcastInDim S1000000x1 ![0] bcast_S1000000_S1000000x1_0 : (⟨S1000000, .i32⟩ : BufTy).Contents (Elt F) → (⟨S1000000x1, .i32⟩ : BufTy).Contents (Elt F)),
    ternary main_v220 main_v221 main_v219 main_v222 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg8 main_v223 ((extractStridedSlice S1 ![3] · slices_S4_S1_3) : (⟨S4, .f32⟩ : BufTy).Contents (Elt F) → (⟨S1, .f32⟩ : BufTy).Contents (Elt F)),
    reshape main_v223 main_v224 rfl shapeCasts_S1_S_,
    nullary main_cst_28 (constant S_ .f32 0x3F800000#32),
    binary main_cst_28 main_v224 main_v225 (addf : (⟨S_, .f32⟩ : BufTy).Contents (Elt F) → (⟨S_, .f32⟩ : BufTy).Contents (Elt F) → (⟨S_, .f32⟩ : BufTy).Contents (Elt F)),
    unary main_v225 main_v226 (broadcastInDim S100000x64 ![] bcast_S_S100000x64 : (⟨S_, .f32⟩ : BufTy).Contents (Elt F) → (⟨S100000x64, .f32⟩ : BufTy).Contents (Elt F)),
    binary main_v226 main_v210 main_v227 (mulf : (⟨S100000x64, .f32⟩ : BufTy).Contents (Elt F) → (⟨S100000x64, .f32⟩ : BufTy).Contents (Elt F) → (⟨S100000x64, .f32⟩ : BufTy).Contents (Elt F)),
    binary main_v227 main_v222 main_v228 (addf : (⟨S100000x64, .f32⟩ : BufTy).Contents (Elt F) → (⟨S100000x64, .f32⟩ : BufTy).Contents (Elt F) → (⟨S100000x64, .f32⟩ : BufTy).Contents (Elt F)),
    unary main_arg9 main_v229 ((extractStridedSlice S1x64x128 ![3, 0, 0] · slices_S4x64x128_S1x64x128_3_0_0) : (⟨S4x64x128, .f32⟩ : BufTy).Contents (Elt F) → (⟨S1x64x128, .f32⟩ : BufTy).Contents (Elt F)),
    reshape main_v229 main_v230 rfl shapeCasts_S1x64x128_S64x128,
    binary main_v228 main_v230 main_v231 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg10 main_v232 ((extractStridedSlice S1x128 ![3, 0] · slices_S4x128_S1x128_3_0) : (⟨S4x128, .f32⟩ : BufTy).Contents (Elt F) → (⟨S1x128, .f32⟩ : BufTy).Contents (Elt F)),
    reshape main_v232 main_v233 rfl shapeCasts_S1x128_S128,
    unary main_v233 main_v234 (broadcastInDim S1x128 ![1] bcast_S128_S1x128_1 : (⟨S128, .f32⟩ : BufTy).Contents (Elt F) → (⟨S1x128, .f32⟩ : BufTy).Contents (Elt F)),
    unary main_v234 main_v235 (broadcastInDim S100000x128 ![0, 1] bcast_S1x128_S100000x128_0_1 : (⟨S1x128, .f32⟩ : BufTy).Contents (Elt F) → (⟨S100000x128, .f32⟩ : BufTy).Contents (Elt F)),
    binary main_v231 main_v235 main_v236 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x128, .f32⟩) main_call11_v0) (broadcastInDim S100000x128 ![] bcast_S_S100000x128),
    TRef.binary (TRef.of (T := ⟨S100000x128, .f32⟩) main_v236) (TRef.of (T := ⟨S100000x128, .f32⟩) main_call11_v0) (TRef.of (T := ⟨S100000x128, .f32⟩) main_v237) maximumf,
    unary main_arg11 main_v238 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v238 main_v239 rfl shapeCasts_S1x128x64_S128x64,
    binary main_v237 main_v239 main_v240 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v241 ((extractStridedSlice S1x64 ![3, 0] · slices_S4x64_S1x64_3_0) : (⟨S4x64, .f32⟩ : BufTy).Contents (Elt F) → (⟨S1x64, .f32⟩ : BufTy).Contents (Elt F)),
    reshape main_v241 main_v242 rfl shapeCasts_S1x64_S64,
    unary main_v242 main_v243 (broadcastInDim S1x64 ![1] bcast_S64_S1x64_1 : (⟨S64, .f32⟩ : BufTy).Contents (Elt F) → (⟨S1x64, .f32⟩ : BufTy).Contents (Elt F)),
    unary main_v243 main_v244 (broadcastInDim S100000x64 ![0, 1] bcast_S1x64_S100000x64_0_1 : (⟨S1x64, .f32⟩ : BufTy).Contents (Elt F) → (⟨S100000x64, .f32⟩ : BufTy).Contents (Elt F)),
    binary main_v240 main_v244 main_v245 (addf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    binary main_v245 main_cst_29 main_v246 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v247 (broadcastInDim S64 ![] bcast_S_S64 : (⟨S_, .f32⟩ : BufTy).Contents (Elt F) → (⟨S64, .f32⟩ : BufTy).Contents (Elt F)),
    binary main_v246 main_v247 main_v248 (Host.divf : (⟨S64, .f32⟩ : BufTy).Contents (Elt F) → (⟨S64, .f32⟩ : BufTy).Contents (Elt F) → (⟨S64, .f32⟩ : BufTy).Contents (Elt F)),
    unary main_v248 main_v249 (broadcastInDim S1x64 ![1] bcast_S64_S1x64_1 : (⟨S64, .f32⟩ : BufTy).Contents (Elt F) → (⟨S1x64, .f32⟩ : BufTy).Contents (Elt F)),
    unary main_v249 main_v250 (broadcastInDim S100000x64 ![0, 1] bcast_S1x64_S100000x64_0_1 : (⟨S1x64, .f32⟩ : BufTy).Contents (Elt F) → (⟨S100000x64, .f32⟩ : BufTy).Contents (Elt F)),
    binary main_v245 main_v250 main_v251 (subf : (⟨S100000x64, .f32⟩ : BufTy).Contents (Elt F) → (⟨S100000x64, .f32⟩ : BufTy).Contents (Elt F) → (⟨S100000x64, .f32⟩ : BufTy).Contents (Elt F)),
    binary main_v251 main_v251 main_v252 (mulf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x00000000#32),
    binary main_v252 main_cst_31 main_v253 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_32 (constant S_ .f32 0x47C35000#32),
    unary main_cst_32 main_v254 (broadcastInDim S64 ![] bcast_S_S64 : (⟨S_, .f32⟩ : BufTy).Contents (Elt F) → (⟨S64, .f32⟩ : BufTy).Contents (Elt F)),
    binary main_v253 main_v254 main_v255 (Host.divf : (⟨S64, .f32⟩ : BufTy).Contents (Elt F) → (⟨S64, .f32⟩ : BufTy).Contents (Elt F) → (⟨S64, .f32⟩ : BufTy).Contents (Elt F)),
    unary main_v248 main_v256 (broadcastInDim S1x64 ![1] bcast_S64_S1x64_1 : (⟨S64, .f32⟩ : BufTy).Contents (Elt F) → (⟨S1x64, .f32⟩ : BufTy).Contents (Elt F)),
    unary main_v256 main_v257 (broadcastInDim S100000x64 ![0, 1] bcast_S1x64_S100000x64_0_1 : (⟨S1x64, .f32⟩ : BufTy).Contents (Elt F) → (⟨S100000x64, .f32⟩ : BufTy).Contents (Elt F)),
    binary main_v245 main_v257 main_v258 (subf : (⟨S100000x64, .f32⟩ : BufTy).Contents (Elt F) → (⟨S100000x64, .f32⟩ : BufTy).Contents (Elt F) → (⟨S100000x64, .f32⟩ : BufTy).Contents (Elt F)),
    nullary main_cst_33 (constant S_ .f32 0x3727C5AC#32),
    unary main_cst_33 main_v259 (broadcastInDim S64 ![] bcast_S_S64 : (⟨S_, .f32⟩ : BufTy).Contents (Elt F) → (⟨S64, .f32⟩ : BufTy).Contents (Elt F)),
    binary main_v255 main_v259 main_v260 (addf : (⟨S64, .f32⟩ : BufTy).Contents (Elt F) → (⟨S64, .f32⟩ : BufTy).Contents (Elt F) → (⟨S64, .f32⟩ : BufTy).Contents (Elt F)),
    unary main_v260 main_v261 (Host.rsqrt : (⟨S64, .f32⟩ : BufTy).Contents (Elt F) → (⟨S64, .f32⟩ : BufTy).Contents (Elt F)),
    unary main_v261 main_v262 (broadcastInDim S1x64 ![1] bcast_S64_S1x64_1 : (⟨S64, .f32⟩ : BufTy).Contents (Elt F) → (⟨S1x64, .f32⟩ : BufTy).Contents (Elt F)),
    unary main_v262 main_v263 (broadcastInDim S100000x64 ![0, 1] bcast_S1x64_S100000x64_0_1 : (⟨S1x64, .f32⟩ : BufTy).Contents (Elt F) → (⟨S100000x64, .f32⟩ : BufTy).Contents (Elt F)),
    binary main_v258 main_v263 main_v264 (mulf : (⟨S100000x64, .f32⟩ : BufTy).Contents (Elt F) → (⟨S100000x64, .f32⟩ : BufTy).Contents (Elt F) → (⟨S100000x64, .f32⟩ : BufTy).Contents (Elt F)),
    unary main_arg13 main_v265 ((extractStridedSlice S1x64 ![3, 0] · slices_S4x64_S1x64_3_0) : (⟨S4x64, .f32⟩ : BufTy).Contents (Elt F) → (⟨S1x64, .f32⟩ : BufTy).Contents (Elt F)),
    reshape main_v265 main_v266 rfl shapeCasts_S1x64_S64,
    unary main_v266 main_v267 (broadcastInDim S1x64 ![1] bcast_S64_S1x64_1 : (⟨S64, .f32⟩ : BufTy).Contents (Elt F) → (⟨S1x64, .f32⟩ : BufTy).Contents (Elt F)),
    unary main_v267 main_v268 (broadcastInDim S100000x64 ![0, 1] bcast_S1x64_S100000x64_0_1 : (⟨S1x64, .f32⟩ : BufTy).Contents (Elt F) → (⟨S100000x64, .f32⟩ : BufTy).Contents (Elt F)),
    binary main_v264 main_v268 main_v269 (mulf : (⟨S100000x64, .f32⟩ : BufTy).Contents (Elt F) → (⟨S100000x64, .f32⟩ : BufTy).Contents (Elt F) → (⟨S100000x64, .f32⟩ : BufTy).Contents (Elt F)),
    unary main_arg14 main_v270 ((extractStridedSlice S1x64 ![3, 0] · slices_S4x64_S1x64_3_0) : (⟨S4x64, .f32⟩ : BufTy).Contents (Elt F) → (⟨S1x64, .f32⟩ : BufTy).Contents (Elt F)),
    reshape main_v270 main_v271 rfl shapeCasts_S1x64_S64,
    unary main_v271 main_v272 (broadcastInDim S1x64 ![1] bcast_S64_S1x64_1 : (⟨S64, .f32⟩ : BufTy).Contents (Elt F) → (⟨S1x64, .f32⟩ : BufTy).Contents (Elt F)),
    unary main_v272 main_v273 (broadcastInDim S100000x64 ![0, 1] bcast_S1x64_S100000x64_0_1 : (⟨S1x64, .f32⟩ : BufTy).Contents (Elt F) → (⟨S100000x64, .f32⟩ : BufTy).Contents (Elt F)),
    binary main_v269 main_v273 main_v274 (addf : (⟨S100000x64, .f32⟩ : BufTy).Contents (Elt F) → (⟨S100000x64, .f32⟩ : BufTy).Contents (Elt F) → (⟨S100000x64, .f32⟩ : BufTy).Contents (Elt F)),
    binary main_v274 main_v210 main_v275 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x64, .f32⟩) main_call12_v0) (broadcastInDim S100000x64 ![] bcast_S_S100000x64),
    TRef.binary (TRef.of (T := ⟨S100000x64, .f32⟩) main_v275) (TRef.of (T := ⟨S100000x64, .f32⟩) main_call12_v0) (TRef.of (T := ⟨S100000x64, .f32⟩) main_v276) maximumf ]
/-- Each touches TensorCore references only. -/
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None allocates a buffer. -/
theorem opsL3_fresh : (opsL3 : List (HloOp τ sig (Elt F))).Forall fun op => op.fresh = ∅ := by
  simp only [List.Forall]; repeat' constructor
/-- The buffers they write. -/
abbrev opsL3_W : List (Ref sig .tc) := [main_c_25, main_v211, main_v212, main_c_26, main_v213, main_v214, main_v215, main_v216, main_v217, main_v218, main_call10_cst, main_call10_v0, main_v219, main_cst_27, main_v220, main_v221, main_v222, main_v223, main_v224, main_cst_28, main_v225, main_v226, main_v227, main_v228, main_v229, main_v230, main_v231, main_v232, main_v233, main_v234, main_v235, main_v236, main_call11_cst, main_call11_v0, main_v237, main_v238, main_v239, main_v240, main_v241, main_v242, main_v243, main_v244, main_v245, main_cst_29, main_v246, main_cst_30, main_v247, main_v248, main_v249, main_v250, main_v251, main_v252, main_cst_31, main_v253, main_cst_32, main_v254, main_v255, main_v256, main_v257, main_v258, main_cst_33, main_v259, main_v260, main_v261, main_v262, main_v263, main_v264, main_v265, main_v266, main_v267, main_v268, main_v269, main_v270, main_v271, main_v272, main_v273, main_v274, main_v275, main_call12_cst, main_call12_v0, main_v276]
set_option maxHeartbeats 4000000 in
theorem opsL3_writes : (opsL3 : List (HloOp τ sig (Elt F))).Forall fun op => op.writes ⊆ (opsL3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
/-- Operations 339–365. -/
abbrev opsTail : List (HloOp τ sig (Elt F)) :=
  [
    nullary main_cst_34 (constant S_ .f32 0x00000000#32),
    unary main_cst_34 main_v277 (broadcastInDim S64x64 ![] bcast_S_S64x64 : (⟨S_, .f32⟩ : BufTy).Contents (Elt F) → (⟨S64x64, .f32⟩ : BufTy).Contents (Elt F)),
    unary main_arg3 main_v278 (broadcastInDim S100000x1 ![0] bcast_S100000_S100000x1_0 : (⟨S100000, .i32⟩ : BufTy).Contents (Elt F) → (⟨S100000x1, .i32⟩ : BufTy).Contents (Elt F)),
    ternary main_v277 main_v278 main_v276 main_v279 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    nullary main_cst_35 (constant S_ .f32 0x3F800000#32),
    unary main_cst_35 main_v280 (broadcastInDim S100000 ![] bcast_S_S100000 : (⟨S_, .f32⟩ : BufTy).Contents (Elt F) → (⟨S100000, .f32⟩ : BufTy).Contents (Elt F)),
    nullary main_cst_36 (constant S_ .f32 0x00000000#32),
    unary main_cst_36 main_v281 (broadcastInDim S64 ![] bcast_S_S64 : (⟨S_, .f32⟩ : BufTy).Contents (Elt F) → (⟨S64, .f32⟩ : BufTy).Contents (Elt F)),
    unary main_arg3 main_v282 (broadcastInDim S100000x1 ![0] bcast_S100000_S100000x1_0 : (⟨S100000, .i32⟩ : BufTy).Contents (Elt F) → (⟨S100000x1, .i32⟩ : BufTy).Contents (Elt F)),
    ternary main_v281 main_v282 main_v280 main_v283 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_37 (constant S_ .f32 0x3F800000#32),
    unary main_cst_37 main_v284 (broadcastInDim S64 ![] bcast_S_S64 : (⟨S_, .f32⟩ : BufTy).Contents (Elt F) → (⟨S64, .f32⟩ : BufTy).Contents (Elt F)),
    binary main_v283 main_v284 main_v285 (maximumf : (⟨S64, .f32⟩ : BufTy).Contents (Elt F) → (⟨S64, .f32⟩ : BufTy).Contents (Elt F) → (⟨S64, .f32⟩ : BufTy).Contents (Elt F)),
    unary main_v285 main_v286 (broadcastInDim S64x1 ![0] bcast_S64_S64x1_0 : (⟨S64, .f32⟩ : BufTy).Contents (Elt F) → (⟨S64x1, .f32⟩ : BufTy).Contents (Elt F)),
    unary main_v286 main_v287 (broadcastInDim S64x64 ![0, 1] bcast_S64x1_S64x64_0_1 : (⟨S64x1, .f32⟩ : BufTy).Contents (Elt F) → (⟨S64x64, .f32⟩ : BufTy).Contents (Elt F)),
    binary main_v279 main_v287 main_v288 (Host.divf : (⟨S64x64, .f32⟩ : BufTy).Contents (Elt F) → (⟨S64x64, .f32⟩ : BufTy).Contents (Elt F) → (⟨S64x64, .f32⟩ : BufTy).Contents (Elt F)),
    binary main_v288 main_arg15 main_v289 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    unary main_arg16 main_v290 (broadcastInDim S1x32 ![1] bcast_S32_S1x32_1 : (⟨S32, .f32⟩ : BufTy).Contents (Elt F) → (⟨S1x32, .f32⟩ : BufTy).Contents (Elt F)),
    unary main_v290 main_v291 (broadcastInDim S64x32 ![0, 1] bcast_S1x32_S64x32_0_1 : (⟨S1x32, .f32⟩ : BufTy).Contents (Elt F) → (⟨S64x32, .f32⟩ : BufTy).Contents (Elt F)),
    binary main_v289 main_v291 main_v292 (addf : (⟨S64x32, .f32⟩ : BufTy).Contents (Elt F) → (⟨S64x32, .f32⟩ : BufTy).Contents (Elt F) → (⟨S64x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S64x32, .f32⟩) main_call13_v0) (broadcastInDim S64x32 ![] bcast_S_S64x32),
    TRef.binary (TRef.of (T := ⟨S64x32, .f32⟩) main_v292) (TRef.of (T := ⟨S64x32, .f32⟩) main_call13_v0) (TRef.of (T := ⟨S64x32, .f32⟩) main_v293) maximumf,
    binary main_v293 main_arg17 main_v294 ((fun l r => Host.dotGeneral dot_S64x32_S32x10_S64x10_1_0_0_1_n_n none l r) : (⟨S64x32, .f32⟩ : BufTy).Contents (Elt F) → (⟨S32x10, .f32⟩ : BufTy).Contents (Elt F) → (⟨S64x10, .f32⟩ : BufTy).Contents (Elt F)),
    unary main_arg18 main_v295 (broadcastInDim S1x10 ![1] bcast_S10_S1x10_1 : (⟨S10, .f32⟩ : BufTy).Contents (Elt F) → (⟨S1x10, .f32⟩ : BufTy).Contents (Elt F)),
    unary main_v295 main_v296 (broadcastInDim S64x10 ![0, 1] bcast_S1x10_S64x10_0_1 : (⟨S1x10, .f32⟩ : BufTy).Contents (Elt F) → (⟨S64x10, .f32⟩ : BufTy).Contents (Elt F)),
    binary main_v294 main_v296 main_v297 (addf : (⟨S64x10, .f32⟩ : BufTy).Contents (Elt F) → (⟨S64x10, .f32⟩ : BufTy).Contents (Elt F) → (⟨S64x10, .f32⟩ : BufTy).Contents (Elt F)) ]
/-- Each touches TensorCore references only. -/
theorem opsTail_sub : (opsTail : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- None allocates a buffer. -/
theorem opsTail_fresh : (opsTail : List (HloOp τ sig (Elt F))).Forall fun op => op.fresh = ∅ := by
  simp only [List.Forall]; repeat' constructor
/-- The buffers they write. -/
abbrev opsTail_W : List (Ref sig .tc) := [main_cst_34, main_v277, main_v278, main_v279, main_cst_35, main_v280, main_cst_36, main_v281, main_v282, main_v283, main_cst_37, main_v284, main_v285, main_v286, main_v287, main_v288, main_v289, main_v290, main_v291, main_v292, main_call13_cst, main_call13_v0, main_v293, main_v294, main_v295, main_v296, main_v297]
set_option maxHeartbeats 4000000 in
theorem opsTail_writes : (opsTail : List (HloOp τ sig (Elt F))).Forall fun op => op.writes ⊆ (opsTail_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

end Cert.ReferenceIdeal.ValueP

end
-- ==== Proof.RefFrame.lean ====
/-
  The reference program is a straight-line host program: its run is the composition of its operations, each a pure
  function of buffers written before it, none of which is an argument array. So every weakly fair execution ends,
  nothing faults, and the argument arrays are left as they were: the frame claim is the program's run with the
  statement about the result dropped.
-/
import proofs.«127476_j62818191671466_2_alg».proof.Defs
import proofs.«127476_j62818191671466_2_alg».proof.Proof.Gen.ReferenceIdeal
import proofs.«127476_j62818191671466_2_alg».proof.Proof.Gen.Pre_finite_inputs
import proofs.«127476_j62818191671466_2_alg».proof.Proof.RefRunLite

noncomputable section

namespace Cert.Proof.RefClaims

open Idealize.ShloMosaic Idealize.ShloMosaic.TcCoe Idealize.SL.Sem

/-- The reference's argument arrays are never written: read off its run. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.Region0.lean ====
/-
  Region 0, the node encoder: at grid point t the body reads a block of 10000 rows of x (window 0), the whole
  weight matrix (window 1) and the bias row (window 2), and stores one whole 10000 x 64 block of
  relu(x · w + b) into the output window (window 3). The body keeps nothing between points, so what each
  staging buffer holds after the body is a function of the three input blocks alone; this module states that
  function, proves the body's triple, and derives the pipeline's body obligation at every point, for any
  contents V of the buffers when the region is entered, at any float instance.
-/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole block -/

abbrev rx0 : Rect S10000x32 := Rect.unit (s := S10000x32) ![0, 0] S10000x32.size inb_S10000x32_S10000x32_0_0
abbrev rw0 : Rect S32x64 := Rect.unit (s := S32x64) ![0, 0] S32x64.size inb_S32x64_S32x64_0_0
abbrev rb0 : Rect S1x64 := Rect.unit (s := S1x64) ![0, 0] S1x64.size inb_S1x64_S1x64_0_0
abbrev ro0 : Rect S10000x64 := Rect.unit (s := S10000x64) ![0, 0] S10000x64.size inb_S10000x64_S10000x64_0_0

/-- The output window's staging buffer after the body, from the three input blocks: its one store. -/
def out0_3 (x0 : Vec F S10000x32 .f32) (x1 : Vec F S32x64 .f32) (x2 : Vec F S1x64 .f32) : Vec F S10000x64 .f32 :=
  View.canon [⟨ro0, k0_pay1 (View.ld x0 rx0) (View.ld x1 rw0) (View.ld x2 rb0)⟩]

/-- The one store covers the block. -/
theorem cover0_3 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

/-! ## The body's triple -/

set_option maxHeartbeats 1000000 in
/-- On whole staging memrefs, the inputs' at contents x0, x1, x2 and the output's at anything, the body runs to a
    state holding the inputs as they were and the output at out0_3 of them. -/
theorem sound_kernel0 (c : Dev nD) (E : Set ℕ) (i : grid0.Coords)
    (arg1 : Memref sig .tc .vmem S10000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x32 .f32) (x1 : Vec F S32x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_enc_kernel i arg1 harg1 arg2 harg2 arg3 harg3 arg4 harg4) K := by
  simp only [cc0__node_enc_kernel_eq_skeleton]; unfold cc0__node_enc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each input's
    buffer still at its block and the output's at out0_3 of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region1.lean ====
/- The proof data and the body obligation of the pipeline of custom_call 1, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or
    not (then the block index has not moved since the last fetch), for any proof data over these arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or
    not (then the block index has not moved since the last fetch), for any proof data over these arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or
    not (then the block index has not moved since the last fetch), for any proof data over these arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store: the whole output block -/

abbrev r1_0 : Rect S10000x64 := Rect.unit (s := S10000x64) ![0, 0] S10000x64.size inb_S10000x64_S10000x64_0_0

/-- The output window's staging buffer after the body, from the input windows' blocks: the one store, of the
    payload of the loaded input blocks, over the whole rectangle. -/
def out1_3 (x0 : Vec F S10000x16 .f32) (x1 : Vec F S16x64 .f32) (x2 : Vec F S1x64 .f32) : Vec F S10000x64 .f32 :=
  View.canon [⟨r1_0, k1_pay1 (View.ld x0 (Rect.unit (s := S10000x16) ![0, 0] S10000x16.size inb_S10000x16_S10000x16_0_0)) (View.ld x1 (Rect.unit (s := S16x64) ![0, 0] S16x64.size inb_S16x64_S16x64_0_0)) (View.ld x2 (Rect.unit (s := S1x64) ![0, 0] S1x64.size inb_S1x64_S1x64_0_0))⟩]

/-- The store's rectangle is the whole buffer, so it covers every index. -/
theorem cover1_3 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

/-! ## The body's triple -/

set_option maxHeartbeats 1000000 in
/-- The kernel body on whole staging memrefs, the inputs' at contents x and the output's at anything, runs to the
    continuation holding the inputs' as they were and the output's at out1_3 of the inputs: the printed function
    is its skeleton, whose loads and one store are run one after the other. -/
theorem sound_kernel1 (c : Dev nD) (E : Set ℕ) (i : grid1.Coords) (arg0 : Memref sig .tc .vmem S10000x16 .f32) (harg0 : arg0.IsWhole) (arg1 : Memref sig .tc .vmem S16x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x16 .f32) (x1 : Vec F S16x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__edge_enc_kernel i arg0 harg0 arg1 harg1 arg2 harg2 arg3 harg3) K := by
  simp only [cc1__edge_enc_kernel_eq_skeleton]; unfold cc1__edge_enc_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    exact View.read_writes_eq_canon _ _ _ (cover1_3 _)

/-! ## The pipeline's proof data -/

/-- The proof data of the pipeline on core c: the arrays as the region finds them; after the body at point t each
    input's buffer at its block and the output's at out1_3 of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, the core's debt, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen
-- ==== Proof.Region2.lean ====
/- The proof data and the body obligation of the pipeline of custom_call 2, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or
    not (then the block index has not moved since the last fetch), for any proof data over these arrays whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or
    not (then the block index has not moved since the last fetch), for any proof data over these arrays whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store: the whole output block -/

abbrev r2_0 : Rect S10000x64 := Rect.unit (s := S10000x64) ![0, 0] S10000x64.size inb_S10000x64_S10000x64_0_0

/-- The output window's staging buffer after the body, from the input windows' blocks: the one store, of the
    payload of the loaded input blocks, over the whole rectangle. -/
def out2_2 (x0 : Vec F S10000x64 .f32) (x1 : Vec F S10000x64 .f32) : Vec F S10000x64 .f32 :=
  View.canon [⟨r2_0, k2_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover2_2 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

/-! ## The body's triple -/

set_option maxHeartbeats 1000000 in
/-- The kernel body on whole staging memrefs, the inputs' at contents x and the output's at anything, runs to the
    continuation holding the inputs' as they were and the output's at out2_2 of the inputs: the printed function
    is its skeleton, whose loads and one store are run one after the other. -/
theorem sound_kernel2 (c : Dev nD) (E : Set ℕ) (i : grid2.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__msg_kernel i arg0 harg0 arg1 harg1 arg2 harg2) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover2_2 _)

/-! ## The pipeline's proof data -/

/-- The proof data of the pipeline on core c: the arrays as the region finds them; after the body at point t each
    input's buffer at its block and the output's at out2_2 of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t: the invariant, the core's debt, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen
-- ==== Proof.Region3.lean ====
/- The proof data and the body obligation of the pipeline of custom_call 3, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA3 : Rect S10000x64 := Rect.unit (s := S10000x64) ![0, 0] S10000x64.size inb_S10000x64_S10000x64_0_0
abbrev rW1_3 : Rect S64x128 := Rect.unit (s := S64x128) ![0, 0] S64x128.size inb_S64x128_S64x128_0_0
abbrev rB1_3 : Rect S1x128 := Rect.unit (s := S1x128) ![0, 0] S1x128.size inb_S1x128_S1x128_0_0
abbrev rW2_3 : Rect S128x64 := Rect.unit (s := S128x64) ![0, 0] S128x64.size inb_S128x64_S128x64_0_0
abbrev rR3 : Rect S1x64 := Rect.unit (s := S1x64) ![0, 0] S1x64.size inb_S1x64_S1x64_0_0

/-! ## The values the body stores -/

/-- The second matmul's result with its bias, from the five input blocks: what the body stores into the first output
    window's buffer and sums column by column. -/
def zraw3 (x1 : Vec F S10000x64 .f32) (x2 : Vec F S64x128 .f32) (x3 : Vec F S1x128 .f32) (x4 : Vec F S128x64 .f32) (x5 : Vec F S1x64 .f32) : Vec F S10000x64 .f32 :=
  k3_pay4 (View.ld x1 rA3) (View.ld x2 rW1_3) (View.ld x3 rB1_3) (View.ld x4 rW2_3) (View.ld x5 rR3)

/-- The running column sums after a point: the row `v` the sum scratch held, plus the column sums of the point's result. -/
def sumP3 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k3_pay5 (View.ld x1 rA3) (View.ld x2 rW1_3) (View.ld x3 rB1_3) (View.ld x4 rW2_3) (View.ld x5 rR3) v

/-- The running column sums of squares after a point: the row `v` the second scratch held, plus the column sums of the
    squares of the point's result. -/
def sqP3 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k3_pay1 (zraw3 x1 x2 x3 x4 x5) v

/-- The first output window's staging buffer after the body: its one store, over the whole buffer. -/
def out3_5 (x1 : Vec F S10000x64 .f32) (x2 : Vec F S64x128 .f32) (x3 : Vec F S1x128 .f32) (x4 : Vec F S128x64 .f32) (x5 : Vec F S1x64 .f32) : Vec F S10000x64 .f32 :=
  View.canon [⟨rA3, zraw3 x1 x2 x3 x4 x5⟩]

/-- A one-row buffer after a store of the row `p` over the whole of it. -/
def rowBuf3 (p : Vec F S1x64 .f32) : Vec F S1x64 .f32 :=
  View.canon [⟨rR3, p⟩]

/-- A whole-buffer store covers every index of the large block, -/
theorem coverA3 (p0 : Vec F S10000x64 .f32) (y : S10000x64.Idx) :
    ∃ pc ∈ ([⟨rA3, p0⟩] : List (View.Piece (Elt F) S10000x64 .f32)), y ∈ pc.1.set :=
  View.cover_of_tiled [⟨rA3, p0⟩] S10000x64.size (by rfl) y

/-- and of a one-row buffer, -/
theorem coverR3 (p0 : Vec F S1x64 .f32) (y : S1x64.Idx) :
    ∃ pc ∈ ([⟨rR3, p0⟩] : List (View.Piece (Elt F) S1x64 .f32)), y ∈ pc.1.set :=
  View.cover_of_tiled [⟨rR3, p0⟩] S1x64.size (by rfl) y

/-- whatever was stored before it. -/
theorem coverR3_cons (p0 : Vec F S1x64 .f32) (L : List (View.Piece (Elt F) S1x64 .f32)) (y : S1x64.Idx) :
    ∃ pc ∈ (⟨rR3, p0⟩ :: L : List (View.Piece (Elt F) S1x64 .f32)), y ∈ pc.1.set := by
  obtain ⟨pc, hm, hy⟩ := coverR3 p0 y
  exact ⟨pc, List.mem_cons.mpr (Or.inl (List.mem_singleton.mp hm)), hy⟩

/-- A whole-row store hides the stores before it: the buffer reads as the row alone. -/
theorem canon_rowBuf3 (p0 : Vec F S1x64 .f32) (L : List (View.Piece (Elt F) S1x64 .f32)) :
    View.canon (⟨rR3, p0⟩ :: L) = rowBuf3 p0 := by
  funext y
  obtain ⟨pc, hm, hy⟩ := coverR3 p0 y
  obtain rfl : pc = ⟨rR3, p0⟩ := List.mem_singleton.mp hm
  obtain ⟨x, rfl⟩ : ∃ x, (rR3).emb x = y := (rR3).exists_idx_of_mem hy
  unfold rowBuf3
  rw [View.canon_cons_emb, View.canon_cons_emb]

/-- A load of the whole of a one-row buffer after a whole-row store reads the row stored. -/
theorem ld_rowBuf3 (p0 : Vec F S1x64 .f32) : View.ld (rowBuf3 p0) rR3 = p0 := by
  funext x
  exact View.canon_cons_emb rR3 p0 [] x

/-! ## The branch on the grid coordinate -/

/-- The condition of the body's one conditional (the zero-fill of the two scratch rows), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-- What any view of a one-row buffer reads after a whole-row store of `p`, whatever was stored before and whatever it held. -/
theorem read_rowStore3 (v : View sig .tc .vmem S1x64 .f32) (f : v.ty.Contents (Elt F)) (p0 : Vec F S1x64 .f32)
    (L : List (View.Piece (Elt F) S1x64 .f32)) :
    v.read (Elt F) (v.writes (Elt F) f (⟨rR3, p0⟩ :: L)) = rowBuf3 p0 :=
  (View.read_writes_eq_canon _ _ _ (coverR3_cons p0 L)).trans (canon_rowBuf3 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel3_first (c : Dev nD) (E : Set ℕ) (i : grid3.Coords) (hc : cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 (k3_pay2 (F := F))))
            ∗ owns (c : Thread nD τ) arg8 fullShare (rowBuf3 (sqP3 x1 x2 x3 x4 x5 (k3_pay3 (F := F))))
            ∗ owns (c : Thread nD τ) arg9 fullShare (rowBuf3 (sumP3 x1 x2 x3 x4 x5 (k3_pay2 (F := F))))
            ∗ owns (c : Thread nD τ) arg10 fullShare (rowBuf3 (sqP3 x1 x2 x3 x4 x5 (k3_pay3 (F := F))))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  simp only [cc3__mlp_stats_kernel_eq_skeleton]; unfold cc3__mlp_stats_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA3 _)
  isplitl [H7]
  · iexists _; isplitr
    swap; · iexact H7
    ipureintro
    exact (read_rowStore3 _ _ _ _).trans (congrArg rowBuf3 ((View.readCov_cons_toLoadRect _ rR3 _ _).trans
      (congrArg (k3_pay5 _ _ _ _ _) (View.readCov_cons_toLoadRect _ rR3 _ _))))
  isplitl [H8]
  · iexists _; isplitr
    swap; · iexact H8
    ipureintro
    exact (read_rowStore3 _ _ _ _).trans (congrArg rowBuf3 ((View.readCov_cons_toLoadRect _ rR3 _ _).trans
      (congrArg (k3_pay1 _) (View.readCov_cons_toLoadRect _ rR3 _ _))))
  isplitl [H9]
  · iexists _; isplitr
    swap; · iexact H9
    ipureintro
    exact (read_rowStore3 _ _ _ _).trans (congrArg rowBuf3 (congrArg (k3_pay5 _ _ _ _ _) (View.readCov_cons_toLoadRect _ rR3 _ _)))
  · iexists _; isplitr
    swap; · iexact H10
    ipureintro
    exact (read_rowStore3 _ _ _ _).trans (congrArg rowBuf3 (congrArg (k3_pay1 _) (View.readCov_cons_toLoadRect _ rR3 _ _)))

set_option maxHeartbeats 4000000 in
/-- Where the condition fails: the two scratch rows at what they hold, `s9` and `s10`; the body stores the result block,
    adds its column sums (and those of its squares) to the rows and copies the two rows into the last two output
    windows' buffers. -/
theorem sound_kernel3_later (c : Dev nD) (E : Set ℕ) (i : grid3.Coords) (hc : ¬cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 (View.ld s9 rR3)))
            ∗ owns (c : Thread nD τ) arg8 fullShare (rowBuf3 (sqP3 x1 x2 x3 x4 x5 (View.ld s10 rR3)))
            ∗ owns (c : Thread nD τ) arg9 fullShare (rowBuf3 (sumP3 x1 x2 x3 x4 x5 (View.ld s9 rR3)))
            ∗ owns (c : Thread nD τ) arg10 fullShare (rowBuf3 (sqP3 x1 x2 x3 x4 x5 (View.ld s10 rR3)))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  simp only [cc3__mlp_stats_kernel_eq_skeleton]; unfold cc3__mlp_stats_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA3 _)
  isplitl [H7]
  · iexists _; isplitr
    swap; · iexact H7
    ipureintro
    exact (read_rowStore3 _ _ _ _).trans (congrArg rowBuf3 (View.readCov_cons_toLoadRect _ rR3 _ _))
  isplitl [H8]
  · iexists _; isplitr
    swap; · iexact H8
    ipureintro
    exact (read_rowStore3 _ _ _ _).trans (congrArg rowBuf3 (View.readCov_cons_toLoadRect _ rR3 _ _))
  isplitl [H9]
  · iexists _; isplitr
    swap; · iexact H9
    ipureintro
    exact read_rowStore3 _ _ _ _
  · iexists _; isplitr
    swap; · iexact H10
    ipureintro
    exact read_rowStore3 _ _ _ _

/-- The same with the rows the two loads read named: `p9` and `p10` are what a load of the whole of each scratch row reads. -/
theorem sound_kernel3_later' (c : Dev nD) (E : Set ℕ) (i : grid3.Coords) (hc : ¬cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR3 = p9) (h10 : View.ld s10 rR3 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 p9))
            ∗ owns (c : Thread nD τ) arg8 fullShare (rowBuf3 (sqP3 x1 x2 x3 x4 x5 p10))
            ∗ owns (c : Thread nD τ) arg9 fullShare (rowBuf3 (sumP3 x1 x2 x3 x4 x5 p9))
            ∗ owns (c : Thread nD τ) arg10 fullShare (rowBuf3 (sqP3 x1 x2 x3 x4 x5 p10))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  subst h9 h10
  exact sound_kernel3_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not (then its
    block index has not moved since the last fetch), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or not (then its
    block index has not moved since the last fetch), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or not (then its
    block index has not moved since the last fetch), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether it was fetched there or not (then its
    block index has not moved since the last fetch), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether it was fetched there or not (then its
    block index has not moved since the last fetch), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The two scratch rows, point by point -/

/-- The running sums the point `t` leaves, from the rows `v` it finds. -/
def sumAt3 (c : Dev nD) (t : Fin cfg3.N) (v : Vec F S1x64 .f32) : Vec F S1x64 .f32 :=
  sumP3 (iblk3 V c 0 t) (iblk3 V c 1 t) (iblk3 V c 2 t) (iblk3 V c 3 t) (iblk3 V c 4 t) v
def sqAt3 (c : Dev nD) (t : Fin cfg3.N) (v : Vec F S1x64 .f32) : Vec F S1x64 .f32 :=
  sqP3 (iblk3 V c 0 t) (iblk3 V c 1 t) (iblk3 V c 2 t) (iblk3 V c 3 t) (iblk3 V c 4 t) v

/-- THE ACCUMULATION. The rows the body stores into the two scratch buffers (column sums; column sums of squares) at
    position `n`: at the first point over the zero rows the body has just filled in, afterwards over the rows the point
    before stored. -/
def acc3 (c : Dev nD) : (n : ℕ) → n < cfg3.N → Vec F S1x64 .f32 × Vec F S1x64 .f32
  | 0, hn => (sumAt3 V c ⟨0, hn⟩ (k3_pay2 (F := F)), sqAt3 V c ⟨0, hn⟩ (k3_pay3 (F := F)))
  | n + 1, hn => (sumAt3 V c ⟨n + 1, hn⟩ (acc3 c n (Nat.lt_of_succ_lt hn)).1, sqAt3 V c ⟨n + 1, hn⟩ (acc3 c n (Nat.lt_of_succ_lt hn)).2)

/-- At the first point: over the zero rows. -/
theorem acc3_first (c : Dev nD) (t : Fin cfg3.N) (hz : t.val = 0) :
    acc3 V c t.val t.isLt = (sumAt3 V c t (k3_pay2 (F := F)), sqAt3 V c t (k3_pay3 (F := F))) := by
  obtain ⟨n, hn⟩ := t
  cases n with
  | zero => rfl
  | succ n => exact absurd hz (Nat.succ_ne_zero n)

/-- At a later point: over what the point before stored. -/
theorem acc3_later (c : Dev nD) (t : Fin cfg3.N) (hz : t.val ≠ 0) :
    acc3 V c t.val t.isLt = (sumAt3 V c t (acc3 V c (t.val - 1) (Nat.lt_of_le_of_lt (Nat.sub_le _ _) t.isLt)).1,
      sqAt3 V c t (acc3 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM3_0 : Memref sig .tc .vmem S1x64 .f32 := Memref.whole cc3_scratch0
abbrev scM3_1 : Memref sig .tc .vmem S1x64 .f32 := Memref.whole cc3_scratch1

/-- The invariant before position `n`: before the first point the scoped buffers no window stages, each at anything, and
    the generator register at some state; afterwards the same with the two scratch rows at what the point before stored. -/
def PhiS3 (c : Dev nD) : (n : ℕ) → n ≤ cfg3.N → sProp 𝕄
  | 0, _ => Pipeline.ΦA spec3 c
  | n + 1, hn => iprop(iprop(iprop(owns (c : Thread nD τ) scM3_0 fullShare (rowBuf3 (acc3 V c n hn).1) ∗ owns (c : Thread nD τ) scM3_1 fullShare (rowBuf3 (acc3 V c n hn).2))
        ∗ Pipeline.scopedRestBut (Ix := Unit) (Name := ℕ) (U := UR sig nD τ) (Lvl := ℕ) (Val := Elt F) spec3 c [cc3_scratch0, cc3_scratch1])
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (rowBuf3 (acc3 V c n hn).1) ∗ owns (c : Thread nD τ) scM3_1 fullShare (rowBuf3 (acc3 V c n hn).2))
        ∗ Pipeline.scopedRestBut (Ix := Unit) (Name := ℕ) (U := UR sig nD τ) (Lvl := ℕ) (Val := Elt F) spec3 c [cc3_scratch0, cc3_scratch1])
      ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (rowBuf3 (acc3 V c (n - 1) (by omega)).1) ∗ owns (c : Thread nD τ) scM3_1 fullShare (rowBuf3 (acc3 V c (n - 1) (by omega)).2))
        ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-- The invariant before the first point with the two scratch operands as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => rowBuf3 (acc3 V c t.val t.isLt).1
    | ⟨7, _⟩ => rowBuf3 (acc3 V c t.val t.isLt).2
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Before the first point the invariant is the scoped rest and the generator register; -/
theorem Phi3_zero (c : Dev nD) : (dat3 V c).Φ 0 = Pipeline.ΦA spec3 c := rfl

/-- after the last point it holds the two scratch rows at the totals over all ten points. -/
theorem Phi3_last (c : Dev nD) :
    (dat3 V c).Φ (Fin.last cfg3.N) = iprop(iprop(iprop(owns (c : Thread nD τ) scM3_0 fullShare (rowBuf3 (acc3 V c 9 (by rw [show cfg3.N = 10 from N_3]; decide)).1) ∗ owns (c : Thread nD τ) scM3_1 fullShare (rowBuf3 (acc3 V c 9 (by rw [show cfg3.N = 10 from N_3]; decide)).2))
        ∗ Pipeline.scopedRestBut (Ix := Unit) (Name := ℕ) (U := UR sig nD τ) (Lvl := ℕ) (Val := Elt F) spec3 c [cc3_scratch0, cc3_scratch1])
      ∗ (∃ r, prngReg c r)) := by
  rw [show (dat3 V c).Φ (Fin.last cfg3.N) = PhiS3 V c (Fin.last cfg3.N).val (Nat.le_of_lt_succ (Fin.last cfg3.N).isLt) from rfl]
  rw [PhiS3_pos V c _ _ (by rw [Fin.val_last]; have : cfg3.N = 10 := N_3; omega)]
  have hN : (Fin.last cfg3.N).val - 1 = 9 := by rw [Fin.val_last]; have : cfg3.N = 10 := N_3; omega
  simp only [hN]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = rowBuf3 (acc3 V c t.val t.isLt).1 := by dsimp only [dat3]
theorem after3_7 (c : Dev nD) (t : Fin cfg3.N) : (dat3 V c).after 7 t = rowBuf3 (acc3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The invariant against the launch's resources -/

/-- What the launch hands the region — the generator register, no prefetched table (anything beside them is dropped), the
    scoped buffers no window stages — is the invariant before the first point. -/
theorem phi_in3 (c : Dev nD) (P : sProp 𝕄) :
    iprop((∃ r, prngReg c r) ∗ P ∗ Pipeline.scopedRest (Ix := Unit) (Name := ℕ) (U := UR sig nD τ) (Lvl := ℕ) (Val := Elt F) spec3 c) ⊢ (dat3 V c).Φ 0 := by
  rw [Phi3_zero]; unfold Pipeline.ΦA
  iintro ⟨Hp, -, Hr⟩
  isplitl [Hr]; · iexact Hr
  iexact Hp

/-- After the last point the invariant gives them back: the two scratch rows' contents are forgotten. -/
theorem Phi3_out_A (c : Dev nD) : (dat3 V c).Φ (Fin.last cfg3.N) ⊢ Pipeline.ΦA spec3 c := by
  rw [Phi3_last, PhiA3_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out3 (c : Dev nD) :
    (dat3 V c).Φ (Fin.last cfg3.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec3 c) := by
  refine (Phi3_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7]
  rw [show (dat3 V c).Φ t.succ = PhiS3 V c (t.val + 1) t.isLt from rfl, PhiS3_succ, PhiS3_castSucc]
  have hN : t.val < 10 := lt_of_lt_of_eq t.isLt (show cfg3.N = 10 from N_3)
  by_cases hz : t.val = 0
  · rw [PhiS3_zero V c _ _ hz, PhiA3_eq, acc3_first V c t hz]
    unfold sumAt3 sqAt3
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_first c Set.univ (grid3.coords t) ((hcond3_0 t).mpr (by omega)) _ _ _ _ _ _ _ _ _ _ _ _ _ _ _ _ _ _ _ _
      (iblk3 V c 0 t) (iblk3 V c 1 t) (iblk3 V c 2 t) (iblk3 V c 3 t) (iblk3 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS3_pos V c _ _ hz, acc3_later V c t hz]
    unfold sumAt3 sqAt3
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_later' c Set.univ (grid3.coords t) (fun h => hz (by have h' := (hcond3_0 t).mp h; omega)) _ _ _ _ _ _ _ _ _ _ _ _ _ _ _ _ _ _ _ _
      (iblk3 V c 0 t) (iblk3 V c 1 t) (iblk3 V c 2 t) (iblk3 V c 3 t) (iblk3 V c 4 t) (rowBuf3 _) (rowBuf3 _) _ _ (ld_rowBuf3 _) (ld_rowBuf3 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Region4.lean ====
/- The proof data and the body obligation of the pipeline of custom_call 4, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or
    not (then the block index has not moved since the last fetch), for any proof data over these arrays whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or
    not (then the block index has not moved since the last fetch), for any proof data over these arrays whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether it was fetched there or
    not (then the block index has not moved since the last fetch), for any proof data over these arrays whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether it was fetched there or
    not (then the block index has not moved since the last fetch), for any proof data over these arrays whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether it was fetched there or
    not (then the block index has not moved since the last fetch), for any proof data over these arrays whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether it was fetched there or
    not (then the block index has not moved since the last fetch), for any proof data over these arrays whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store: the whole output block -/

abbrev r4_0 : Rect S10000x64 := Rect.unit (s := S10000x64) ![0, 0] S10000x64.size inb_S10000x64_S10000x64_0_0

/-- The output window's staging buffer after the body, from the input windows' blocks: the one store, of the
    payload of the loaded input blocks, over the whole rectangle. -/
def out4_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r4_0, k4_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover4_6 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

/-! ## The body's triple -/

set_option maxHeartbeats 1000000 in
/-- The kernel body on whole staging memrefs, the inputs' at contents x and the output's at anything, runs to the
    continuation holding the inputs' as they were and the output's at out4_6 of the inputs: the printed function
    is its skeleton, whose loads and one store are run one after the other. -/
theorem sound_kernel4 (c : Dev nD) (E : Set ℕ) (i : grid4.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5)) -∗ K ⟨⟩))
      ⊢ wp frame (wpE (defs₀ (F := F)) Variants.none c none) E (cc4__bn_resid_kernel i arg0 harg0 arg1 harg1 arg2 harg2 arg3 harg3 arg4 harg4 arg5 harg5 arg6 harg6) K := by
  simp only [cc4__bn_resid_kernel_eq_skeleton]; unfold cc4__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover4_6 _)

/-! ## The pipeline's proof data -/

/-- The proof data of the pipeline on core c: the arrays as the region finds them; after the body at point t each
    input's buffer at its block and the output's at out4_6 of the input blocks; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t: the invariant, the core's debt, and each window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen
-- ==== Proof.Region5.lean ====
/- The proof data and the body obligation of the pipeline of custom_call 5, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or
    not (then the block index has not moved since the last fetch), for any proof data over these arrays whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or
    not (then the block index has not moved since the last fetch), for any proof data over these arrays whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's one store: the whole output block -/

abbrev r5_0 : Rect S10000x64 := Rect.unit (s := S10000x64) ![0, 0] S10000x64.size inb_S10000x64_S10000x64_0_0

/-- The output window's staging buffer after the body, from the input windows' blocks: the one store, of the
    payload of the loaded input blocks, over the whole rectangle. -/
def out5_2 (x0 : Vec F S10000x64 .f32) (x1 : Vec F S10000x64 .f32) : Vec F S10000x64 .f32 :=
  View.canon [⟨r5_0, k5_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover5_2 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

/-! ## The body's triple -/

set_option maxHeartbeats 1000000 in
/-- The kernel body on whole staging memrefs, the inputs' at contents x and the output's at anything, runs to the
    continuation holding the inputs' as they were and the output's at out5_2 of the inputs: the printed function
    is its skeleton, whose loads and one store are run one after the other. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__msg_kernel i arg0 harg0 arg1 harg1 arg2 harg2) K := by
  simp only [cc5__msg_kernel_eq_skeleton]; unfold cc5__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover5_2 _)

/-! ## The pipeline's proof data -/

/-- The proof data of the pipeline on core c: the arrays as the region finds them; after the body at point t each
    input's buffer at its block and the output's at out5_2 of the input blocks; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t: the invariant, the core's debt, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen
-- ==== Proof.Region6.lean ====
/- The proof data and the body obligation of the pipeline of custom_call 6, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA6 : Rect S10000x64 := Rect.unit (s := S10000x64) ![0, 0] S10000x64.size inb_S10000x64_S10000x64_0_0
abbrev rW1_6 : Rect S64x128 := Rect.unit (s := S64x128) ![0, 0] S64x128.size inb_S64x128_S64x128_0_0
abbrev rB1_6 : Rect S1x128 := Rect.unit (s := S1x128) ![0, 0] S1x128.size inb_S1x128_S1x128_0_0
abbrev rW2_6 : Rect S128x64 := Rect.unit (s := S128x64) ![0, 0] S128x64.size inb_S128x64_S128x64_0_0
abbrev rR6 : Rect S1x64 := Rect.unit (s := S1x64) ![0, 0] S1x64.size inb_S1x64_S1x64_0_0

/-! ## The values the body stores -/

/-- The second matmul's result with its bias, from the five input blocks: what the body stores into the first output
    window's buffer and sums column by column. -/
def zraw6 (x1 : Vec F S10000x64 .f32) (x2 : Vec F S64x128 .f32) (x3 : Vec F S1x128 .f32) (x4 : Vec F S128x64 .f32) (x5 : Vec F S1x64 .f32) : Vec F S10000x64 .f32 :=
  k6_pay4 (View.ld x1 rA6) (View.ld x2 rW1_6) (View.ld x3 rB1_6) (View.ld x4 rW2_6) (View.ld x5 rR6)

/-- The running column sums after a point: the row `v` the sum scratch held, plus the column sums of the point's result. -/
def sumP6 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k6_pay5 (View.ld x1 rA6) (View.ld x2 rW1_6) (View.ld x3 rB1_6) (View.ld x4 rW2_6) (View.ld x5 rR6) v

/-- The running column sums of squares after a point: the row `v` the second scratch held, plus the column sums of the
    squares of the point's result. -/
def sqP6 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k6_pay1 (zraw6 x1 x2 x3 x4 x5) v

/-- The first output window's staging buffer after the body: its one store, over the whole buffer. -/
def out6_5 (x1 : Vec F S10000x64 .f32) (x2 : Vec F S64x128 .f32) (x3 : Vec F S1x128 .f32) (x4 : Vec F S128x64 .f32) (x5 : Vec F S1x64 .f32) : Vec F S10000x64 .f32 :=
  View.canon [⟨rA6, zraw6 x1 x2 x3 x4 x5⟩]

/-- A one-row buffer after a store of the row `p` over the whole of it. -/
def rowBuf6 (p : Vec F S1x64 .f32) : Vec F S1x64 .f32 :=
  View.canon [⟨rR6, p⟩]

/-- A whole-buffer store covers every index of the large block, -/
theorem coverA6 (p0 : Vec F S10000x64 .f32) (y : S10000x64.Idx) :
    ∃ pc ∈ ([⟨rA6, p0⟩] : List (View.Piece (Elt F) S10000x64 .f32)), y ∈ pc.1.set :=
  View.cover_of_tiled [⟨rA6, p0⟩] S10000x64.size (by rfl) y

/-- and of a one-row buffer, -/
theorem coverR6 (p0 : Vec F S1x64 .f32) (y : S1x64.Idx) :
    ∃ pc ∈ ([⟨rR6, p0⟩] : List (View.Piece (Elt F) S1x64 .f32)), y ∈ pc.1.set :=
  View.cover_of_tiled [⟨rR6, p0⟩] S1x64.size (by rfl) y

/-- whatever was stored before it. -/
theorem coverR6_cons (p0 : Vec F S1x64 .f32) (L : List (View.Piece (Elt F) S1x64 .f32)) (y : S1x64.Idx) :
    ∃ pc ∈ (⟨rR6, p0⟩ :: L : List (View.Piece (Elt F) S1x64 .f32)), y ∈ pc.1.set := by
  obtain ⟨pc, hm, hy⟩ := coverR6 p0 y
  exact ⟨pc, List.mem_cons.mpr (Or.inl (List.mem_singleton.mp hm)), hy⟩

/-- A whole-row store hides the stores before it: the buffer reads as the row alone. -/
theorem canon_rowBuf6 (p0 : Vec F S1x64 .f32) (L : List (View.Piece (Elt F) S1x64 .f32)) :
    View.canon (⟨rR6, p0⟩ :: L) = rowBuf6 p0 := by
  funext y
  obtain ⟨pc, hm, hy⟩ := coverR6 p0 y
  obtain rfl : pc = ⟨rR6, p0⟩ := List.mem_singleton.mp hm
  obtain ⟨x, rfl⟩ : ∃ x, (rR6).emb x = y := (rR6).exists_idx_of_mem hy
  unfold rowBuf6
  rw [View.canon_cons_emb, View.canon_cons_emb]

/-- A load of the whole of a one-row buffer after a whole-row store reads the row stored. -/
theorem ld_rowBuf6 (p0 : Vec F S1x64 .f32) : View.ld (rowBuf6 p0) rR6 = p0 := by
  funext x
  exact View.canon_cons_emb rR6 p0 [] x

/-! ## The branch on the grid coordinate -/

/-- The condition of the body's one conditional (the zero-fill of the two scratch rows), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 10 = 0 :=
  (by decide +kernel : ∀ t : Fin grid6.N, cond6_0 (grid6.coords t) ↔ t.val % 10 = 0)

/-- What any view of a one-row buffer reads after a whole-row store of `p`, whatever was stored before and whatever it held. -/
theorem read_rowStore6 (v : View sig .tc .vmem S1x64 .f32) (f : v.ty.Contents (Elt F)) (p0 : Vec F S1x64 .f32)
    (L : List (View.Piece (Elt F) S1x64 .f32)) :
    v.read (Elt F) (v.writes (Elt F) f (⟨rR6, p0⟩ :: L)) = rowBuf6 p0 :=
  (View.read_writes_eq_canon _ _ _ (coverR6_cons p0 L)).trans (canon_rowBuf6 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel6_first (c : Dev nD) (E : Set ℕ) (i : grid6.Coords) (hc : cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 (k6_pay2 (F := F))))
            ∗ owns (c : Thread nD τ) arg8 fullShare (rowBuf6 (sqP6 x1 x2 x3 x4 x5 (k6_pay3 (F := F))))
            ∗ owns (c : Thread nD τ) arg9 fullShare (rowBuf6 (sumP6 x1 x2 x3 x4 x5 (k6_pay2 (F := F))))
            ∗ owns (c : Thread nD τ) arg10 fullShare (rowBuf6 (sqP6 x1 x2 x3 x4 x5 (k6_pay3 (F := F))))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  simp only [cc6__mlp_stats_kernel_eq_skeleton]; unfold cc6__mlp_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA6 _)
  isplitl [H7]
  · iexists _; isplitr
    swap; · iexact H7
    ipureintro
    exact (read_rowStore6 _ _ _ _).trans (congrArg rowBuf6 ((View.readCov_cons_toLoadRect _ rR6 _ _).trans
      (congrArg (k6_pay5 _ _ _ _ _) (View.readCov_cons_toLoadRect _ rR6 _ _))))
  isplitl [H8]
  · iexists _; isplitr
    swap; · iexact H8
    ipureintro
    exact (read_rowStore6 _ _ _ _).trans (congrArg rowBuf6 ((View.readCov_cons_toLoadRect _ rR6 _ _).trans
      (congrArg (k6_pay1 _) (View.readCov_cons_toLoadRect _ rR6 _ _))))
  isplitl [H9]
  · iexists _; isplitr
    swap; · iexact H9
    ipureintro
    exact (read_rowStore6 _ _ _ _).trans (congrArg rowBuf6 (congrArg (k6_pay5 _ _ _ _ _) (View.readCov_cons_toLoadRect _ rR6 _ _)))
  · iexists _; isplitr
    swap; · iexact H10
    ipureintro
    exact (read_rowStore6 _ _ _ _).trans (congrArg rowBuf6 (congrArg (k6_pay1 _) (View.readCov_cons_toLoadRect _ rR6 _ _)))

set_option maxHeartbeats 4000000 in
/-- Where the condition fails: the two scratch rows at what they hold, `s9` and `s10`; the body stores the result block,
    adds its column sums (and those of its squares) to the rows and copies the two rows into the last two output
    windows' buffers. -/
theorem sound_kernel6_later (c : Dev nD) (E : Set ℕ) (i : grid6.Coords) (hc : ¬cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 (View.ld s9 rR6)))
            ∗ owns (c : Thread nD τ) arg8 fullShare (rowBuf6 (sqP6 x1 x2 x3 x4 x5 (View.ld s10 rR6)))
            ∗ owns (c : Thread nD τ) arg9 fullShare (rowBuf6 (sumP6 x1 x2 x3 x4 x5 (View.ld s9 rR6)))
            ∗ owns (c : Thread nD τ) arg10 fullShare (rowBuf6 (sqP6 x1 x2 x3 x4 x5 (View.ld s10 rR6)))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  simp only [cc6__mlp_stats_kernel_eq_skeleton]; unfold cc6__mlp_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA6 _)
  isplitl [H7]
  · iexists _; isplitr
    swap; · iexact H7
    ipureintro
    exact (read_rowStore6 _ _ _ _).trans (congrArg rowBuf6 (View.readCov_cons_toLoadRect _ rR6 _ _))
  isplitl [H8]
  · iexists _; isplitr
    swap; · iexact H8
    ipureintro
    exact (read_rowStore6 _ _ _ _).trans (congrArg rowBuf6 (View.readCov_cons_toLoadRect _ rR6 _ _))
  isplitl [H9]
  · iexists _; isplitr
    swap; · iexact H9
    ipureintro
    exact read_rowStore6 _ _ _ _
  · iexists _; isplitr
    swap; · iexact H10
    ipureintro
    exact read_rowStore6 _ _ _ _

/-- The same with the rows the two loads read named: `p9` and `p10` are what a load of the whole of each scratch row reads. -/
theorem sound_kernel6_later' (c : Dev nD) (E : Set ℕ) (i : grid6.Coords) (hc : ¬cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR6 = p9) (h10 : View.ld s10 rR6 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 p9))
            ∗ owns (c : Thread nD τ) arg8 fullShare (rowBuf6 (sqP6 x1 x2 x3 x4 x5 p10))
            ∗ owns (c : Thread nD τ) arg9 fullShare (rowBuf6 (sumP6 x1 x2 x3 x4 x5 p9))
            ∗ owns (c : Thread nD τ) arg10 fullShare (rowBuf6 (sqP6 x1 x2 x3 x4 x5 p10))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  subst h9 h10
  exact sound_kernel6_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or not (then its
    block index has not moved since the last fetch), for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether it was fetched there or not (then its
    block index has not moved since the last fetch), for any proof data over these arrays whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether it was fetched there or not (then its
    block index has not moved since the last fetch), for any proof data over these arrays whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether it was fetched there or not (then its
    block index has not moved since the last fetch), for any proof data over these arrays whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether it was fetched there or not (then its
    block index has not moved since the last fetch), for any proof data over these arrays whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The two scratch rows, point by point -/

/-- The running sums the point `t` leaves, from the rows `v` it finds. -/
def sumAt6 (c : Dev nD) (t : Fin cfg6.N) (v : Vec F S1x64 .f32) : Vec F S1x64 .f32 :=
  sumP6 (iblk6 V c 0 t) (iblk6 V c 1 t) (iblk6 V c 2 t) (iblk6 V c 3 t) (iblk6 V c 4 t) v
def sqAt6 (c : Dev nD) (t : Fin cfg6.N) (v : Vec F S1x64 .f32) : Vec F S1x64 .f32 :=
  sqP6 (iblk6 V c 0 t) (iblk6 V c 1 t) (iblk6 V c 2 t) (iblk6 V c 3 t) (iblk6 V c 4 t) v

/-- THE ACCUMULATION. The rows the body stores into the two scratch buffers (column sums; column sums of squares) at
    position `n`: at the first point over the zero rows the body has just filled in, afterwards over the rows the point
    before stored. -/
def acc6 (c : Dev nD) : (n : ℕ) → n < cfg6.N → Vec F S1x64 .f32 × Vec F S1x64 .f32
  | 0, hn => (sumAt6 V c ⟨0, hn⟩ (k6_pay2 (F := F)), sqAt6 V c ⟨0, hn⟩ (k6_pay3 (F := F)))
  | n + 1, hn => (sumAt6 V c ⟨n + 1, hn⟩ (acc6 c n (Nat.lt_of_succ_lt hn)).1, sqAt6 V c ⟨n + 1, hn⟩ (acc6 c n (Nat.lt_of_succ_lt hn)).2)

/-- At the first point: over the zero rows. -/
theorem acc6_first (c : Dev nD) (t : Fin cfg6.N) (hz : t.val = 0) :
    acc6 V c t.val t.isLt = (sumAt6 V c t (k6_pay2 (F := F)), sqAt6 V c t (k6_pay3 (F := F))) := by
  obtain ⟨n, hn⟩ := t
  cases n with
  | zero => rfl
  | succ n => exact absurd hz (Nat.succ_ne_zero n)

/-- At a later point: over what the point before stored. -/
theorem acc6_later (c : Dev nD) (t : Fin cfg6.N) (hz : t.val ≠ 0) :
    acc6 V c t.val t.isLt = (sumAt6 V c t (acc6 V c (t.val - 1) (Nat.lt_of_le_of_lt (Nat.sub_le _ _) t.isLt)).1,
      sqAt6 V c t (acc6 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM6_0 : Memref sig .tc .vmem S1x64 .f32 := Memref.whole cc6_scratch0
abbrev scM6_1 : Memref sig .tc .vmem S1x64 .f32 := Memref.whole cc6_scratch1

/-- The invariant before position `n`: before the first point the scoped buffers no window stages, each at anything, and
    the generator register at some state; afterwards the same with the two scratch rows at what the point before stored. -/
def PhiS6 (c : Dev nD) : (n : ℕ) → n ≤ cfg6.N → sProp 𝕄
  | 0, _ => Pipeline.ΦA spec6 c
  | n + 1, hn => iprop(iprop(iprop(owns (c : Thread nD τ) scM6_0 fullShare (rowBuf6 (acc6 V c n hn).1) ∗ owns (c : Thread nD τ) scM6_1 fullShare (rowBuf6 (acc6 V c n hn).2))
        ∗ Pipeline.scopedRestBut (Ix := Unit) (Name := ℕ) (U := UR sig nD τ) (Lvl := ℕ) (Val := Elt F) spec6 c [cc6_scratch0, cc6_scratch1])
      ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (rowBuf6 (acc6 V c n hn).1) ∗ owns (c : Thread nD τ) scM6_1 fullShare (rowBuf6 (acc6 V c n hn).2))
        ∗ Pipeline.scopedRestBut (Ix := Unit) (Name := ℕ) (U := UR sig nD τ) (Lvl := ℕ) (Val := Elt F) spec6 c [cc6_scratch0, cc6_scratch1])
      ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (rowBuf6 (acc6 V c (n - 1) (by omega)).1) ∗ owns (c : Thread nD τ) scM6_1 fullShare (rowBuf6 (acc6 V c (n - 1) (by omega)).2))
        ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-- The invariant before the first point with the two scratch operands as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1])
        ∗ (∃ r, prngReg c r)) := by
  unfold Pipeline.ΦA; rw [scopedRest6_split]; simp only [scM6_0, scM6_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => rowBuf6 (acc6 V c t.val t.isLt).1
    | ⟨7, _⟩ => rowBuf6 (acc6 V c t.val t.isLt).2
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- Before the first point the invariant is the scoped rest and the generator register; -/
theorem Phi6_zero (c : Dev nD) : (dat6 V c).Φ 0 = Pipeline.ΦA spec6 c := rfl

/-- after the last point it holds the two scratch rows at the totals over all ten points. -/
theorem Phi6_last (c : Dev nD) :
    (dat6 V c).Φ (Fin.last cfg6.N) = iprop(iprop(iprop(owns (c : Thread nD τ) scM6_0 fullShare (rowBuf6 (acc6 V c 9 (by rw [show cfg6.N = 10 from N_6]; decide)).1) ∗ owns (c : Thread nD τ) scM6_1 fullShare (rowBuf6 (acc6 V c 9 (by rw [show cfg6.N = 10 from N_6]; decide)).2))
        ∗ Pipeline.scopedRestBut (Ix := Unit) (Name := ℕ) (U := UR sig nD τ) (Lvl := ℕ) (Val := Elt F) spec6 c [cc6_scratch0, cc6_scratch1])
      ∗ (∃ r, prngReg c r)) := by
  rw [show (dat6 V c).Φ (Fin.last cfg6.N) = PhiS6 V c (Fin.last cfg6.N).val (Nat.le_of_lt_succ (Fin.last cfg6.N).isLt) from rfl]
  rw [PhiS6_pos V c _ _ (by rw [Fin.val_last]; have : cfg6.N = 10 := N_6; omega)]
  have hN : (Fin.last cfg6.N).val - 1 = 9 := by rw [Fin.val_last]; have : cfg6.N = 10 := N_6; omega
  simp only [hN]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) : (dat6 V c).after 6 t = rowBuf6 (acc6 V c t.val t.isLt).1 := by dsimp only [dat6]
theorem after6_7 (c : Dev nD) (t : Fin cfg6.N) : (dat6 V c).after 7 t = rowBuf6 (acc6 V c t.val t.isLt).2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The invariant against the launch's resources -/

/-- What the launch hands the region — the generator register, no prefetched table (anything beside them is dropped), the
    scoped buffers no window stages — is the invariant before the first point. -/
theorem phi_in6 (c : Dev nD) (P : sProp 𝕄) :
    iprop((∃ r, prngReg c r) ∗ P ∗ Pipeline.scopedRest (Ix := Unit) (Name := ℕ) (U := UR sig nD τ) (Lvl := ℕ) (Val := Elt F) spec6 c) ⊢ (dat6 V c).Φ 0 := by
  rw [Phi6_zero]; unfold Pipeline.ΦA
  iintro ⟨Hp, -, Hr⟩
  isplitl [Hr]; · iexact Hr
  iexact Hp

/-- After the last point the invariant gives them back: the two scratch rows' contents are forgotten. -/
theorem Phi6_out_A (c : Dev nD) : (dat6 V c).Φ (Fin.last cfg6.N) ⊢ Pipeline.ΦA spec6 c := by
  rw [Phi6_last, PhiA6_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out6 (c : Dev nD) :
    (dat6 V c).Φ (Fin.last cfg6.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec6 c) := by
  refine (Phi6_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl,
    after6_0, after6_1, after6_2, after6_3, after6_4, after6_5, after6_6, after6_7]
  rw [show (dat6 V c).Φ t.succ = PhiS6 V c (t.val + 1) t.isLt from rfl, PhiS6_succ, PhiS6_castSucc]
  have hN : t.val < 10 := lt_of_lt_of_eq t.isLt (show cfg6.N = 10 from N_6)
  by_cases hz : t.val = 0
  · rw [PhiS6_zero V c _ _ hz, PhiA6_eq, acc6_first V c t hz]
    unfold sumAt6 sqAt6
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_first c Set.univ (grid6.coords t) ((hcond6_0 t).mpr (by omega)) _ _ _ _ _ _ _ _ _ _ _ _ _ _ _ _ _ _ _ _
      (iblk6 V c 0 t) (iblk6 V c 1 t) (iblk6 V c 2 t) (iblk6 V c 3 t) (iblk6 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS6_pos V c _ _ hz, acc6_later V c t hz]
    unfold sumAt6 sqAt6
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_later' c Set.univ (grid6.coords t) (fun h => hz (by have h' := (hcond6_0 t).mp h; omega)) _ _ _ _ _ _ _ _ _ _ _ _ _ _ _ _ _ _ _ _
      (iblk6 V c 0 t) (iblk6 V c 1 t) (iblk6 V c 2 t) (iblk6 V c 3 t) (iblk6 V c 4 t) (rowBuf6 _) (rowBuf6 _) _ _ (ld_rowBuf6 _) (ld_rowBuf6 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.Region7.lean ====
/- The proof data and the body obligation of the pipeline of custom_call 7, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether it was fetched there or
    not (then the block index has not moved since the last fetch), for any proof data over these arrays whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether it was fetched there or
    not (then the block index has not moved since the last fetch), for any proof data over these arrays whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether it was fetched there or
    not (then the block index has not moved since the last fetch), for any proof data over these arrays whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether it was fetched there or
    not (then the block index has not moved since the last fetch), for any proof data over these arrays whose
    body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether it was fetched there or
    not (then the block index has not moved since the last fetch), for any proof data over these arrays whose
    body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether it was fetched there or
    not (then the block index has not moved since the last fetch), for any proof data over these arrays whose
    body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's one store: the whole output block -/

abbrev r7_0 : Rect S10000x64 := Rect.unit (s := S10000x64) ![0, 0] S10000x64.size inb_S10000x64_S10000x64_0_0

/-- The output window's staging buffer after the body, from the input windows' blocks: the one store, of the
    payload of the loaded input blocks, over the whole rectangle. -/
def out7_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r7_0, k7_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover7_6 (p0 : Vec F S10000x64 .f32) (y : S10000x64.Idx) :
    ∃ pc ∈ ([⟨r7_0, p0⟩] : List (View.Piece (Elt F) S10000x64 .f32)), y ∈ pc.1.set :=
  View.cover_of_tiled [⟨r7_0, p0⟩] S10000x64.size (by rfl) y

/-! ## The body's triple -/

set_option maxHeartbeats 1000000 in
/-- The kernel body on whole staging memrefs, the inputs' at contents x and the output's at anything, runs to the
    continuation holding the inputs' as they were and the output's at out7_6 of the inputs: the printed function
    is its skeleton, whose loads and one store are run one after the other. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__bn_resid_kernel i arg0 harg0 arg1 harg1 arg2 harg2 arg3 harg3 arg4 harg4 arg5 harg5 arg6 harg6) K := by
  simp only [cc7__bn_resid_kernel_eq_skeleton]; unfold cc7__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover7_6 _)

/-! ## The pipeline's proof data -/

/-- The proof data of the pipeline on core c: the arrays as the region finds them; after the body at point t each
    input's buffer at its block and the output's at out7_6 of the input blocks; the invariant is the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point t: the invariant, the core's debt, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen
-- ==== Proof.Region8.lean ====
/- The proof data and the body obligation of the pipeline of custom_call 8, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether it was fetched there or
    not (then the block index has not moved since the last fetch), for any proof data over these arrays whose
    body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether it was fetched there or
    not (then the block index has not moved since the last fetch), for any proof data over these arrays whose
    body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's one store: the whole output block -/

abbrev r8_0 : Rect S10000x64 := Rect.unit (s := S10000x64) ![0, 0] S10000x64.size inb_S10000x64_S10000x64_0_0

/-- The output window's staging buffer after the body, from the input windows' blocks: the one store, of the
    payload of the loaded input blocks, over the whole rectangle. -/
def out8_2 (x0 : Vec F S10000x64 .f32) (x1 : Vec F S10000x64 .f32) : Vec F S10000x64 .f32 :=
  View.canon [⟨r8_0, k8_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover8_2 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

/-! ## The body's triple -/

set_option maxHeartbeats 1000000 in
/-- The kernel body on whole staging memrefs, the inputs' at contents x and the output's at anything, runs to the
    continuation holding the inputs' as they were and the output's at out8_2 of the inputs: the printed function
    is its skeleton, whose loads and one store are run one after the other. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__msg_kernel i arg0 harg0 arg1 harg1 arg2 harg2) K := by
  simp only [cc8__msg_kernel_eq_skeleton]; unfold cc8__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover8_2 _)

/-! ## The pipeline's proof data -/

/-- The proof data of the pipeline on core c: the arrays as the region finds them; after the body at point t each
    input's buffer at its block and the output's at out8_2 of the input blocks; the invariant is the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point t: the invariant, the core's debt, and each window's current staging
    buffer at what the pipeline left there, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so the body's triple applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Gen
-- ==== Proof.Region9.lean ====
/- The proof data and the body obligation of the pipeline of custom_call 9, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA9 : Rect S10000x64 := Rect.unit (s := S10000x64) ![0, 0] S10000x64.size inb_S10000x64_S10000x64_0_0
abbrev rW1_9 : Rect S64x128 := Rect.unit (s := S64x128) ![0, 0] S64x128.size inb_S64x128_S64x128_0_0
abbrev rB1_9 : Rect S1x128 := Rect.unit (s := S1x128) ![0, 0] S1x128.size inb_S1x128_S1x128_0_0
abbrev rW2_9 : Rect S128x64 := Rect.unit (s := S128x64) ![0, 0] S128x64.size inb_S128x64_S128x64_0_0
abbrev rR9 : Rect S1x64 := Rect.unit (s := S1x64) ![0, 0] S1x64.size inb_S1x64_S1x64_0_0

/-! ## The values the body stores -/

/-- The second matmul's result with its bias, from the five input blocks: what the body stores into the first output
    window's buffer and sums column by column. -/
def zraw9 (x1 : Vec F S10000x64 .f32) (x2 : Vec F S64x128 .f32) (x3 : Vec F S1x128 .f32) (x4 : Vec F S128x64 .f32) (x5 : Vec F S1x64 .f32) : Vec F S10000x64 .f32 :=
  k9_pay4 (View.ld x1 rA9) (View.ld x2 rW1_9) (View.ld x3 rB1_9) (View.ld x4 rW2_9) (View.ld x5 rR9)

/-- The running column sums after a point: the row `v` the sum scratch held, plus the column sums of the point's result. -/
def sumP9 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k9_pay5 (View.ld x1 rA9) (View.ld x2 rW1_9) (View.ld x3 rB1_9) (View.ld x4 rW2_9) (View.ld x5 rR9) v

/-- The running column sums of squares after a point: the row `v` the second scratch held, plus the column sums of the
    squares of the point's result. -/
def sqP9 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k9_pay1 (zraw9 x1 x2 x3 x4 x5) v

/-- The first output window's staging buffer after the body: its one store, over the whole buffer. -/
def out9_5 (x1 : Vec F S10000x64 .f32) (x2 : Vec F S64x128 .f32) (x3 : Vec F S1x128 .f32) (x4 : Vec F S128x64 .f32) (x5 : Vec F S1x64 .f32) : Vec F S10000x64 .f32 :=
  View.canon [⟨rA9, zraw9 x1 x2 x3 x4 x5⟩]

/-- A one-row buffer after a store of the row `p` over the whole of it. -/
def rowBuf9 (p : Vec F S1x64 .f32) : Vec F S1x64 .f32 :=
  View.canon [⟨rR9, p⟩]

/-- A whole-buffer store covers every index of the large block, -/
theorem coverA9 (p0 : Vec F S10000x64 .f32) (y : S10000x64.Idx) :
    ∃ pc ∈ ([⟨rA9, p0⟩] : List (View.Piece (Elt F) S10000x64 .f32)), y ∈ pc.1.set :=
  View.cover_of_tiled [⟨rA9, p0⟩] S10000x64.size (by rfl) y

/-- and of a one-row buffer, -/
theorem coverR9 (p0 : Vec F S1x64 .f32) (y : S1x64.Idx) :
    ∃ pc ∈ ([⟨rR9, p0⟩] : List (View.Piece (Elt F) S1x64 .f32)), y ∈ pc.1.set :=
  View.cover_of_tiled [⟨rR9, p0⟩] S1x64.size (by rfl) y

/-- whatever was stored before it. -/
theorem coverR9_cons (p0 : Vec F S1x64 .f32) (L : List (View.Piece (Elt F) S1x64 .f32)) (y : S1x64.Idx) :
    ∃ pc ∈ (⟨rR9, p0⟩ :: L : List (View.Piece (Elt F) S1x64 .f32)), y ∈ pc.1.set := by
  obtain ⟨pc, hm, hy⟩ := coverR9 p0 y
  exact ⟨pc, List.mem_cons.mpr (Or.inl (List.mem_singleton.mp hm)), hy⟩

/-- A whole-row store hides the stores before it: the buffer reads as the row alone. -/
theorem canon_rowBuf9 (p0 : Vec F S1x64 .f32) (L : List (View.Piece (Elt F) S1x64 .f32)) :
    View.canon (⟨rR9, p0⟩ :: L) = rowBuf9 p0 := by
  funext y
  obtain ⟨pc, hm, hy⟩ := coverR9 p0 y
  obtain rfl : pc = ⟨rR9, p0⟩ := List.mem_singleton.mp hm
  obtain ⟨x, rfl⟩ : ∃ x, (rR9).emb x = y := (rR9).exists_idx_of_mem hy
  unfold rowBuf9
  rw [View.canon_cons_emb, View.canon_cons_emb]

/-- A load of the whole of a one-row buffer after a whole-row store reads the row stored. -/
theorem ld_rowBuf9 (p0 : Vec F S1x64 .f32) : View.ld (rowBuf9 p0) rR9 = p0 := by
  funext x
  exact View.canon_cons_emb rR9 p0 [] x

/-! ## The branch on the grid coordinate -/

/-- The condition of the body's one conditional (the zero-fill of the two scratch rows), from the grid coordinates. -/
abbrev cond9_0 (i : grid9.Coords) : Prop := (Scalar.cmpi .ne (Scalar.extui (Scalar.cmpi .eq (BitVec.ofNat 32 (i 0).val) 0#32)) 0#32) = 1#1
/-- It holds at the first point only — decided over the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-- What any view of a one-row buffer reads after a whole-row store of `p`, whatever was stored before and whatever it held. -/
theorem read_rowStore9 (v : View sig .tc .vmem S1x64 .f32) (f : v.ty.Contents (Elt F)) (p0 : Vec F S1x64 .f32)
    (L : List (View.Piece (Elt F) S1x64 .f32)) :
    v.read (Elt F) (v.writes (Elt F) f (⟨rR9, p0⟩ :: L)) = rowBuf9 p0 :=
  (View.read_writes_eq_canon _ _ _ (coverR9_cons p0 L)).trans (canon_rowBuf9 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel9_first (c : Dev nD) (E : Set ℕ) (i : grid9.Coords) (hc : cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 (k9_pay2 (F := F))))
            ∗ owns (c : Thread nD τ) arg8 fullShare (rowBuf9 (sqP9 x1 x2 x3 x4 x5 (k9_pay3 (F := F))))
            ∗ owns (c : Thread nD τ) arg9 fullShare (rowBuf9 (sumP9 x1 x2 x3 x4 x5 (k9_pay2 (F := F))))
            ∗ owns (c : Thread nD τ) arg10 fullShare (rowBuf9 (sqP9 x1 x2 x3 x4 x5 (k9_pay3 (F := F))))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  simp only [cc9__mlp_stats_kernel_eq_skeleton]; unfold cc9__mlp_stats_kernel_skel
  simp only [k9_part1_eq_skeleton]; unfold k9_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA9 _)
  isplitl [H7]
  · iexists _; isplitr
    swap; · iexact H7
    ipureintro
    exact (read_rowStore9 _ _ _ _).trans (congrArg rowBuf9 ((View.readCov_cons_toLoadRect _ rR9 _ _).trans
      (congrArg (k9_pay5 _ _ _ _ _) (View.readCov_cons_toLoadRect _ rR9 _ _))))
  isplitl [H8]
  · iexists _; isplitr
    swap; · iexact H8
    ipureintro
    exact (read_rowStore9 _ _ _ _).trans (congrArg rowBuf9 ((View.readCov_cons_toLoadRect _ rR9 _ _).trans
      (congrArg (k9_pay1 _) (View.readCov_cons_toLoadRect _ rR9 _ _))))
  isplitl [H9]
  · iexists _; isplitr
    swap; · iexact H9
    ipureintro
    exact (read_rowStore9 _ _ _ _).trans (congrArg rowBuf9 (congrArg (k9_pay5 _ _ _ _ _) (View.readCov_cons_toLoadRect _ rR9 _ _)))
  · iexists _; isplitr
    swap; · iexact H10
    ipureintro
    exact (read_rowStore9 _ _ _ _).trans (congrArg rowBuf9 (congrArg (k9_pay1 _) (View.readCov_cons_toLoadRect _ rR9 _ _)))

set_option maxHeartbeats 4000000 in
/-- Where the condition fails: the two scratch rows at what they hold, `s9` and `s10`; the body stores the result block,
    adds its column sums (and those of its squares) to the rows and copies the two rows into the last two output
    windows' buffers. -/
theorem sound_kernel9_later (c : Dev nD) (E : Set ℕ) (i : grid9.Coords) (hc : ¬cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 (View.ld s9 rR9)))
            ∗ owns (c : Thread nD τ) arg8 fullShare (rowBuf9 (sqP9 x1 x2 x3 x4 x5 (View.ld s10 rR9)))
            ∗ owns (c : Thread nD τ) arg9 fullShare (rowBuf9 (sumP9 x1 x2 x3 x4 x5 (View.ld s9 rR9)))
            ∗ owns (c : Thread nD τ) arg10 fullShare (rowBuf9 (sqP9 x1 x2 x3 x4 x5 (View.ld s10 rR9)))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  simp only [cc9__mlp_stats_kernel_eq_skeleton]; unfold cc9__mlp_stats_kernel_skel
  simp only [k9_part1_eq_skeleton]; unfold k9_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA9 _)
  isplitl [H7]
  · iexists _; isplitr
    swap; · iexact H7
    ipureintro
    exact (read_rowStore9 _ _ _ _).trans (congrArg rowBuf9 (View.readCov_cons_toLoadRect _ rR9 _ _))
  isplitl [H8]
  · iexists _; isplitr
    swap; · iexact H8
    ipureintro
    exact (read_rowStore9 _ _ _ _).trans (congrArg rowBuf9 (View.readCov_cons_toLoadRect _ rR9 _ _))
  isplitl [H9]
  · iexists _; isplitr
    swap; · iexact H9
    ipureintro
    exact read_rowStore9 _ _ _ _
  · iexists _; isplitr
    swap; · iexact H10
    ipureintro
    exact read_rowStore9 _ _ _ _

/-- The same with the rows the two loads read named: `p9` and `p10` are what a load of the whole of each scratch row reads. -/
theorem sound_kernel9_later' (c : Dev nD) (E : Set ℕ) (i : grid9.Coords) (hc : ¬cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR9 = p9) (h10 : View.ld s10 rR9 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 p9))
            ∗ owns (c : Thread nD τ) arg8 fullShare (rowBuf9 (sqP9 x1 x2 x3 x4 x5 p10))
            ∗ owns (c : Thread nD τ) arg9 fullShare (rowBuf9 (sumP9 x1 x2 x3 x4 x5 p9))
            ∗ owns (c : Thread nD τ) arg10 fullShare (rowBuf9 (sqP9 x1 x2 x3 x4 x5 p10))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  subst h9 h10
  exact sound_kernel9_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether it was fetched there or not (then its
    block index has not moved since the last fetch), for any proof data over these arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether it was fetched there or not (then its
    block index has not moved since the last fetch), for any proof data over these arrays whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether it was fetched there or not (then its
    block index has not moved since the last fetch), for any proof data over these arrays whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether it was fetched there or not (then its
    block index has not moved since the last fetch), for any proof data over these arrays whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether it was fetched there or not (then its
    block index has not moved since the last fetch), for any proof data over these arrays whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The two scratch rows, point by point -/

/-- The running sums the point `t` leaves, from the rows `v` it finds. -/
def sumAt9 (c : Dev nD) (t : Fin cfg9.N) (v : Vec F S1x64 .f32) : Vec F S1x64 .f32 :=
  sumP9 (iblk9 V c 0 t) (iblk9 V c 1 t) (iblk9 V c 2 t) (iblk9 V c 3 t) (iblk9 V c 4 t) v
def sqAt9 (c : Dev nD) (t : Fin cfg9.N) (v : Vec F S1x64 .f32) : Vec F S1x64 .f32 :=
  sqP9 (iblk9 V c 0 t) (iblk9 V c 1 t) (iblk9 V c 2 t) (iblk9 V c 3 t) (iblk9 V c 4 t) v

/-- THE ACCUMULATION. The rows the body stores into the two scratch buffers (column sums; column sums of squares) at
    position `n`: at the first point over the zero rows the body has just filled in, afterwards over the rows the point
    before stored. -/
def acc9 (c : Dev nD) : (n : ℕ) → n < cfg9.N → Vec F S1x64 .f32 × Vec F S1x64 .f32
  | 0, hn => (sumAt9 V c ⟨0, hn⟩ (k9_pay2 (F := F)), sqAt9 V c ⟨0, hn⟩ (k9_pay3 (F := F)))
  | n + 1, hn => (sumAt9 V c ⟨n + 1, hn⟩ (acc9 c n (Nat.lt_of_succ_lt hn)).1, sqAt9 V c ⟨n + 1, hn⟩ (acc9 c n (Nat.lt_of_succ_lt hn)).2)

/-- At the first point: over the zero rows. -/
theorem acc9_first (c : Dev nD) (t : Fin cfg9.N) (hz : t.val = 0) :
    acc9 V c t.val t.isLt = (sumAt9 V c t (k9_pay2 (F := F)), sqAt9 V c t (k9_pay3 (F := F))) := by
  obtain ⟨n, hn⟩ := t
  cases n with
  | zero => rfl
  | succ n => exact absurd hz (Nat.succ_ne_zero n)

/-- At a later point: over what the point before stored. -/
theorem acc9_later (c : Dev nD) (t : Fin cfg9.N) (hz : t.val ≠ 0) :
    acc9 V c t.val t.isLt = (sumAt9 V c t (acc9 V c (t.val - 1) (Nat.lt_of_le_of_lt (Nat.sub_le _ _) t.isLt)).1,
      sqAt9 V c t (acc9 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM9_0 : Memref sig .tc .vmem S1x64 .f32 := Memref.whole cc9_scratch0
abbrev scM9_1 : Memref sig .tc .vmem S1x64 .f32 := Memref.whole cc9_scratch1

/-- The invariant before position `n`: before the first point the scoped buffers no window stages, each at anything, and
    the generator register at some state; afterwards the same with the two scratch rows at what the point before stored. -/
def PhiS9 (c : Dev nD) : (n : ℕ) → n ≤ cfg9.N → sProp 𝕄
  | 0, _ => Pipeline.ΦA spec9 c
  | n + 1, hn => iprop(iprop(iprop(owns (c : Thread nD τ) scM9_0 fullShare (rowBuf9 (acc9 V c n hn).1) ∗ owns (c : Thread nD τ) scM9_1 fullShare (rowBuf9 (acc9 V c n hn).2))
        ∗ Pipeline.scopedRestBut (Ix := Unit) (Name := ℕ) (U := UR sig nD τ) (Lvl := ℕ) (Val := Elt F) spec9 c [cc9_scratch0, cc9_scratch1])
      ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (rowBuf9 (acc9 V c n hn).1) ∗ owns (c : Thread nD τ) scM9_1 fullShare (rowBuf9 (acc9 V c n hn).2))
        ∗ Pipeline.scopedRestBut (Ix := Unit) (Name := ℕ) (U := UR sig nD τ) (Lvl := ℕ) (Val := Elt F) spec9 c [cc9_scratch0, cc9_scratch1])
      ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare (rowBuf9 (acc9 V c (n - 1) (by omega)).1) ∗ owns (c : Thread nD τ) scM9_1 fullShare (rowBuf9 (acc9 V c (n - 1) (by omega)).2))
        ∗ Pipeline.scopedRestBut (Ix := Unit) (Name := ℕ) (U := UR sig nD τ) (Lvl := ℕ) (Val := Elt F) spec9 c [cc9_scratch0, cc9_scratch1])
      ∗ (∃ r, prngReg c r)) := by
  cases n with
  | zero => exact absurd rfl hz
  | succ n => rfl

/-- The invariant before the first point with the two scratch operands as memrefs owned at some contents. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1])
        ∗ (∃ r, prngReg c r)) := by
  unfold Pipeline.ΦA; rw [scopedRest9_split]; simp only [scM9_0, scM9_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
    | ⟨6, _⟩ => rowBuf9 (acc9 V c t.val t.isLt).1
    | ⟨7, _⟩ => rowBuf9 (acc9 V c t.val t.isLt).2
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at the point's position. -/
theorem PhiS9_castSucc (c : Dev nD) (t : Fin cfg9.N) :
    (dat9 V c).Φ t.castSucc = PhiS9 V c t.val (Nat.le_of_lt t.isLt) := by
  dsimp only [dat9]; simp only [Fin.coe_castSucc]

/-- Before the first point the invariant is the scoped rest and the generator register; -/
theorem Phi9_zero (c : Dev nD) : (dat9 V c).Φ 0 = Pipeline.ΦA spec9 c := rfl

/-- after the last point it holds the two scratch rows at the totals over all ten points. -/
theorem Phi9_last (c : Dev nD) :
    (dat9 V c).Φ (Fin.last cfg9.N) = iprop(iprop(iprop(owns (c : Thread nD τ) scM9_0 fullShare (rowBuf9 (acc9 V c 9 (by rw [show cfg9.N = 10 from N_9]; decide)).1) ∗ owns (c : Thread nD τ) scM9_1 fullShare (rowBuf9 (acc9 V c 9 (by rw [show cfg9.N = 10 from N_9]; decide)).2))
        ∗ Pipeline.scopedRestBut (Ix := Unit) (Name := ℕ) (U := UR sig nD τ) (Lvl := ℕ) (Val := Elt F) spec9 c [cc9_scratch0, cc9_scratch1])
      ∗ (∃ r, prngReg c r)) := by
  rw [show (dat9 V c).Φ (Fin.last cfg9.N) = PhiS9 V c (Fin.last cfg9.N).val (Nat.le_of_lt_succ (Fin.last cfg9.N).isLt) from rfl]
  rw [PhiS9_pos V c _ _ (by rw [Fin.val_last]; have : cfg9.N = 10 := N_9; omega)]
  have hN : (Fin.last cfg9.N).val - 1 = 9 := by rw [Fin.val_last]; have : cfg9.N = 10 := N_9; omega
  simp only [hN]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]
theorem after9_6 (c : Dev nD) (t : Fin cfg9.N) : (dat9 V c).after 6 t = rowBuf9 (acc9 V c t.val t.isLt).1 := by dsimp only [dat9]
theorem after9_7 (c : Dev nD) (t : Fin cfg9.N) : (dat9 V c).after 7 t = rowBuf9 (acc9 V c t.val t.isLt).2 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The invariant against the launch's resources -/

/-- What the launch hands the region — the generator register, no prefetched table (anything beside them is dropped), the
    scoped buffers no window stages — is the invariant before the first point. -/
theorem phi_in9 (c : Dev nD) (P : sProp 𝕄) :
    iprop((∃ r, prngReg c r) ∗ P ∗ Pipeline.scopedRest (Ix := Unit) (Name := ℕ) (U := UR sig nD τ) (Lvl := ℕ) (Val := Elt F) spec9 c) ⊢ (dat9 V c).Φ 0 := by
  rw [Phi9_zero]; unfold Pipeline.ΦA
  iintro ⟨Hp, -, Hr⟩
  isplitl [Hr]; · iexact Hr
  iexact Hp

/-- After the last point the invariant gives them back: the two scratch rows' contents are forgotten. -/
theorem Phi9_out_A (c : Dev nD) : (dat9 V c).Φ (Fin.last cfg9.N) ⊢ Pipeline.ΦA spec9 c := by
  rw [Phi9_last, PhiA9_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out9 (c : Dev nD) :
    (dat9 V c).Φ (Fin.last cfg9.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec9 c) := by
  refine (Phi9_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).owesAt () t.succ = (dat9 V c).owesAt () t.castSucc from rfl,
    after9_0, after9_1, after9_2, after9_3, after9_4, after9_5, after9_6, after9_7]
  rw [show (dat9 V c).Φ t.succ = PhiS9 V c (t.val + 1) t.isLt from rfl, PhiS9_succ, PhiS9_castSucc]
  have hN : t.val < 10 := lt_of_lt_of_eq t.isLt (show cfg9.N = 10 from N_9)
  by_cases hz : t.val = 0
  · rw [PhiS9_zero V c _ _ hz, PhiA9_eq, acc9_first V c t hz]
    unfold sumAt9 sqAt9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel9_first c Set.univ (grid9.coords t) ((hcond9_0 t).mpr (by omega)) _ _ _ _ _ _ _ _ _ _ _ _ _ _ _ _ _ _ _ _
      (iblk9 V c 0 t) (iblk9 V c 1 t) (iblk9 V c 2 t) (iblk9 V c 3 t) (iblk9 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS9_pos V c _ _ hz, acc9_later V c t hz]
    unfold sumAt9 sqAt9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel9_later' c Set.univ (grid9.coords t) (fun h => hz (by have h' := (hcond9_0 t).mp h; omega)) _ _ _ _ _ _ _ _ _ _ _ _ _ _ _ _ _ _ _ _
      (iblk9 V c 0 t) (iblk9 V c 1 t) (iblk9 V c 2 t) (iblk9 V c 3 t) (iblk9 V c 4 t) (rowBuf9 _) (rowBuf9 _) _ _ (ld_rowBuf9 _) (ld_rowBuf9 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.Region10.lean ====
/- The proof data and the body obligation of the pipeline of custom_call 10, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether it was fetched there or
    not (then the block index has not moved since the last fetch), for any proof data over these arrays whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, whether it was fetched there or
    not (then the block index has not moved since the last fetch), for any proof data over these arrays whose
    body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, whether it was fetched there or
    not (then the block index has not moved since the last fetch), for any proof data over these arrays whose
    body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, whether it was fetched there or
    not (then the block index has not moved since the last fetch), for any proof data over these arrays whose
    body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, whether it was fetched there or
    not (then the block index has not moved since the last fetch), for any proof data over these arrays whose
    body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, whether it was fetched there or
    not (then the block index has not moved since the last fetch), for any proof data over these arrays whose
    body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's one store: the whole output block -/

abbrev r10_0 : Rect S10000x64 := Rect.unit (s := S10000x64) ![0, 0] S10000x64.size inb_S10000x64_S10000x64_0_0

/-- The output window's staging buffer after the body, from the input windows' blocks: the one store, of the
    payload of the loaded input blocks, over the whole rectangle. -/
def out10_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r10_0, k10_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover10_6 (p0 : Vec F S10000x64 .f32) (y : S10000x64.Idx) :
    ∃ pc ∈ ([⟨r10_0, p0⟩] : List (View.Piece (Elt F) S10000x64 .f32)), y ∈ pc.1.set :=
  View.cover_of_tiled [⟨r10_0, p0⟩] S10000x64.size (by rfl) y

/-! ## The body's triple -/

set_option maxHeartbeats 1000000 in
/-- The kernel body on whole staging memrefs, the inputs' at contents x and the output's at anything, runs to the
    continuation holding the inputs' as they were and the output's at out10_6 of the inputs: the printed function
    is its skeleton, whose loads and one store are run one after the other. -/
theorem sound_kernel10 (c : Dev nD) (E : Set ℕ) (i : grid10.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out10_6 x0 x1 x2 x3 x4 x5)) -∗ K ⟨⟩))
      ⊢ wp frame (wpE (defs₀ (F := F)) Variants.none c none) E (cc10__bn_resid_kernel i arg0 harg0 arg1 harg1 arg2 harg2 arg3 harg3 arg4 harg4 arg5 harg5 arg6 harg6) K := by
  simp only [cc10__bn_resid_kernel_eq_skeleton]; unfold cc10__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover10_6 _)

/-! ## The pipeline's proof data -/

/-- The proof data of the pipeline on core c: the arrays as the region finds them; after the body at point t each
    input's buffer at its block and the output's at out10_6 of the input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point t: the invariant, the core's debt, and each window's current staging
    buffer at what the pipeline left there, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the body's triple applies; the invariant and
    the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Gen
-- ==== Proof.Region11.lean ====
/- The proof data and the body obligation of the pipeline of custom_call 11, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether it was fetched there or
    not (then the block index has not moved since the last fetch), for any proof data over these arrays whose
    body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, whether it was fetched there or
    not (then the block index has not moved since the last fetch), for any proof data over these arrays whose
    body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's one store: the whole output block -/

abbrev r11_0 : Rect S10000x64 := Rect.unit (s := S10000x64) ![0, 0] S10000x64.size inb_S10000x64_S10000x64_0_0

/-- The output window's staging buffer after the body, from the input windows' blocks: the one store, of the
    payload of the loaded input blocks, over the whole rectangle. -/
def out11_2 (x0 : Vec F S10000x64 .f32) (x1 : Vec F S10000x64 .f32) : Vec F S10000x64 .f32 :=
  View.canon [⟨r11_0, k11_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover11_2 (p0 : Vec F S10000x64 .f32) (y : S10000x64.Idx) :
    ∃ pc ∈ ([⟨r11_0, p0⟩] : List (View.Piece (Elt F) S10000x64 .f32)), y ∈ pc.1.set :=
  View.cover_of_tiled [⟨r11_0, p0⟩] S10000x64.size (by rfl) y

/-! ## The body's triple -/

set_option maxHeartbeats 1000000 in
/-- The kernel body on whole staging memrefs, the inputs' at contents x and the output's at anything, runs to the
    continuation holding the inputs' as they were and the output's at out11_2 of the inputs: the printed function
    is its skeleton, whose loads and one store are run one after the other. -/
theorem sound_kernel11 (c : Dev nD) (E : Set ℕ) (i : grid11.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__msg_kernel i arg0 harg0 arg1 harg1 arg2 harg2) K := by
  simp only [cc11__msg_kernel_eq_skeleton]; unfold cc11__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover11_2 _)

/-! ## The pipeline's proof data -/

/-- The proof data of the pipeline on core c: the arrays as the region finds them; after the body at point t each
    input's buffer at its block and the output's at out11_2 of the input blocks; the invariant is the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point t: the invariant, the core's debt, and each window's current staging
    buffer at what the pipeline left there, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and
    the core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Gen
-- ==== Proof.Region12.lean ====
/- The proof data and the body obligation of the pipeline of custom_call 12, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA12 : Rect S10000x64 := Rect.unit (s := S10000x64) ![0, 0] S10000x64.size inb_S10000x64_S10000x64_0_0
abbrev rW1_12 : Rect S64x128 := Rect.unit (s := S64x128) ![0, 0] S64x128.size inb_S64x128_S64x128_0_0
abbrev rB1_12 : Rect S1x128 := Rect.unit (s := S1x128) ![0, 0] S1x128.size inb_S1x128_S1x128_0_0
abbrev rW2_12 : Rect S128x64 := Rect.unit (s := S128x64) ![0, 0] S128x64.size inb_S128x64_S128x64_0_0
abbrev rR12 : Rect S1x64 := Rect.unit (s := S1x64) ![0, 0] S1x64.size inb_S1x64_S1x64_0_0

/-! ## The values the body stores -/

/-- The second matmul's result with its bias, from the five input blocks: what the body stores into the first output
    window's buffer and sums column by column. -/
def zraw12 (x1 : Vec F S10000x64 .f32) (x2 : Vec F S64x128 .f32) (x3 : Vec F S1x128 .f32) (x4 : Vec F S128x64 .f32) (x5 : Vec F S1x64 .f32) : Vec F S10000x64 .f32 :=
  k12_pay4 (View.ld x1 rA12) (View.ld x2 rW1_12) (View.ld x3 rB1_12) (View.ld x4 rW2_12) (View.ld x5 rR12)

/-- The running column sums after a point: the row `v` the sum scratch held, plus the column sums of the point's result. -/
def sumP12 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k12_pay5 (View.ld x1 rA12) (View.ld x2 rW1_12) (View.ld x3 rB1_12) (View.ld x4 rW2_12) (View.ld x5 rR12) v

/-- The running column sums of squares after a point: the row `v` the second scratch held, plus the column sums of the
    squares of the point's result. -/
def sqP12 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k12_pay1 (zraw12 x1 x2 x3 x4 x5) v

/-- The first output window's staging buffer after the body: its one store, over the whole buffer. -/
def out12_5 (x1 : Vec F S10000x64 .f32) (x2 : Vec F S64x128 .f32) (x3 : Vec F S1x128 .f32) (x4 : Vec F S128x64 .f32) (x5 : Vec F S1x64 .f32) : Vec F S10000x64 .f32 :=
  View.canon [⟨rA12, zraw12 x1 x2 x3 x4 x5⟩]

/-- A one-row buffer after a store of the row `p` over the whole of it. -/
def rowBuf12 (p : Vec F S1x64 .f32) : Vec F S1x64 .f32 :=
  View.canon [⟨rR12, p⟩]

/-- A whole-buffer store covers every index of the large block, -/
theorem coverA12 (p0 : Vec F S10000x64 .f32) (y : S10000x64.Idx) :
    ∃ pc ∈ ([⟨rA12, p0⟩] : List (View.Piece (Elt F) S10000x64 .f32)), y ∈ pc.1.set :=
  View.cover_of_tiled [⟨rA12, p0⟩] S10000x64.size (by rfl) y

/-- and of a one-row buffer, -/
theorem coverR12 (p0 : Vec F S1x64 .f32) (y : S1x64.Idx) :
    ∃ pc ∈ ([⟨rR12, p0⟩] : List (View.Piece (Elt F) S1x64 .f32)), y ∈ pc.1.set :=
  View.cover_of_tiled [⟨rR12, p0⟩] S1x64.size (by rfl) y

/-- whatever was stored before it. -/
theorem coverR12_cons (p0 : Vec F S1x64 .f32) (L : List (View.Piece (Elt F) S1x64 .f32)) (y : S1x64.Idx) :
    ∃ pc ∈ (⟨rR12, p0⟩ :: L : List (View.Piece (Elt F) S1x64 .f32)), y ∈ pc.1.set := by
  obtain ⟨pc, hm, hy⟩ := coverR12 p0 y
  exact ⟨pc, List.mem_cons.mpr (Or.inl (List.mem_singleton.mp hm)), hy⟩

/-- A whole-row store hides the stores before it: the buffer reads as the row alone. -/
theorem canon_rowBuf12 (p0 : Vec F S1x64 .f32) (L : List (View.Piece (Elt F) S1x64 .f32)) :
    View.canon (⟨rR12, p0⟩ :: L) = rowBuf12 p0 := by
  funext y
  obtain ⟨pc, hm, hy⟩ := coverR12 p0 y
  obtain rfl : pc = ⟨rR12, p0⟩ := List.mem_singleton.mp hm
  obtain ⟨x, rfl⟩ : ∃ x, (rR12).emb x = y := (rR12).exists_idx_of_mem hy
  unfold rowBuf12
  rw [View.canon_cons_emb, View.canon_cons_emb]

/-- A load of the whole of a one-row buffer after a whole-row store reads the row stored. -/
theorem ld_rowBuf12 (p0 : Vec F S1x64 .f32) : View.ld (rowBuf12 p0) rR12 = p0 := by
  funext x
  exact View.canon_cons_emb rR12 p0 [] x

/-! ## The branch on the grid coordinate -/

/-- The condition of the body's one conditional (the zero-fill of the two scratch rows), from the grid coordinates. -/
abbrev cond12_0 (i : grid12.Coords) : Prop := (Scalar.cmpi .ne (Scalar.extui (Scalar.cmpi .eq (BitVec.ofNat 32 (i 0).val) 0#32)) 0#32) = 1#1
/-- It holds at the first point only — decided over the grid. -/
theorem hcond12_0 : ∀ t : Fin cfg12.N, cond12_0 (grid12.coords t) ↔ t.val % 10 = 0 :=
  (by decide +kernel : ∀ t : Fin grid12.N, cond12_0 (grid12.coords t) ↔ t.val % 10 = 0)

/-- What any view of a one-row buffer reads after a whole-row store of `p`, whatever was stored before and whatever it held. -/
theorem read_rowStore12 (v : View sig .tc .vmem S1x64 .f32) (f : v.ty.Contents (Elt F)) (p0 : Vec F S1x64 .f32)
    (L : List (View.Piece (Elt F) S1x64 .f32)) :
    v.read (Elt F) (v.writes (Elt F) f (⟨rR12, p0⟩ :: L)) = rowBuf12 p0 :=
  (View.read_writes_eq_canon _ _ _ (coverR12_cons p0 L)).trans (canon_rowBuf12 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel12_first (c : Dev nD) (E : Set ℕ) (i : grid12.Coords) (hc : cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 (k12_pay2 (F := F))))
            ∗ owns (c : Thread nD τ) arg8 fullShare (rowBuf12 (sqP12 x1 x2 x3 x4 x5 (k12_pay3 (F := F))))
            ∗ owns (c : Thread nD τ) arg9 fullShare (rowBuf12 (sumP12 x1 x2 x3 x4 x5 (k12_pay2 (F := F))))
            ∗ owns (c : Thread nD τ) arg10 fullShare (rowBuf12 (sqP12 x1 x2 x3 x4 x5 (k12_pay3 (F := F))))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  simp only [cc12__mlp_stats_kernel_eq_skeleton]; unfold cc12__mlp_stats_kernel_skel
  simp only [k12_part1_eq_skeleton]; unfold k12_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA12 _)
  isplitl [H7]
  · iexists _; isplitr
    swap; · iexact H7
    ipureintro
    exact (read_rowStore12 _ _ _ _).trans (congrArg rowBuf12 ((View.readCov_cons_toLoadRect _ rR12 _ _).trans
      (congrArg (k12_pay5 _ _ _ _ _) (View.readCov_cons_toLoadRect _ rR12 _ _))))
  isplitl [H8]
  · iexists _; isplitr
    swap; · iexact H8
    ipureintro
    exact (read_rowStore12 _ _ _ _).trans (congrArg rowBuf12 ((View.readCov_cons_toLoadRect _ rR12 _ _).trans
      (congrArg (k12_pay1 _) (View.readCov_cons_toLoadRect _ rR12 _ _))))
  isplitl [H9]
  · iexists _; isplitr
    swap; · iexact H9
    ipureintro
    exact (read_rowStore12 _ _ _ _).trans (congrArg rowBuf12 (congrArg (k12_pay5 _ _ _ _ _) (View.readCov_cons_toLoadRect _ rR12 _ _)))
  · iexists _; isplitr
    swap; · iexact H10
    ipureintro
    exact (read_rowStore12 _ _ _ _).trans (congrArg rowBuf12 (congrArg (k12_pay1 _) (View.readCov_cons_toLoadRect _ rR12 _ _)))

set_option maxHeartbeats 4000000 in
/-- Where the condition fails: the two scratch rows at what they hold, `s9` and `s10`; the body stores the result block,
    adds its column sums (and those of its squares) to the rows and copies the two rows into the last two output
    windows' buffers. -/
theorem sound_kernel12_later (c : Dev nD) (E : Set ℕ) (i : grid12.Coords) (hc : ¬cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 (View.ld s9 rR12)))
            ∗ owns (c : Thread nD τ) arg8 fullShare (rowBuf12 (sqP12 x1 x2 x3 x4 x5 (View.ld s10 rR12)))
            ∗ owns (c : Thread nD τ) arg9 fullShare (rowBuf12 (sumP12 x1 x2 x3 x4 x5 (View.ld s9 rR12)))
            ∗ owns (c : Thread nD τ) arg10 fullShare (rowBuf12 (sqP12 x1 x2 x3 x4 x5 (View.ld s10 rR12)))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  simp only [cc12__mlp_stats_kernel_eq_skeleton]; unfold cc12__mlp_stats_kernel_skel
  simp only [k12_part1_eq_skeleton]; unfold k12_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA12 _)
  isplitl [H7]
  · iexists _; isplitr
    swap; · iexact H7
    ipureintro
    exact (read_rowStore12 _ _ _ _).trans (congrArg rowBuf12 (View.readCov_cons_toLoadRect _ rR12 _ _))
  isplitl [H8]
  · iexists _; isplitr
    swap; · iexact H8
    ipureintro
    exact (read_rowStore12 _ _ _ _).trans (congrArg rowBuf12 (View.readCov_cons_toLoadRect _ rR12 _ _))
  isplitl [H9]
  · iexists _; isplitr
    swap; · iexact H9
    ipureintro
    exact read_rowStore12 _ _ _ _
  · iexists _; isplitr
    swap; · iexact H10
    ipureintro
    exact read_rowStore12 _ _ _ _

/-- The same with the rows the two loads read named: `p9` and `p10` are what a load of the whole of each scratch row reads. -/
theorem sound_kernel12_later' (c : Dev nD) (E : Set ℕ) (i : grid12.Coords) (hc : ¬cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR12 = p9) (h10 : View.ld s10 rR12 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 p9))
            ∗ owns (c : Thread nD τ) arg8 fullShare (rowBuf12 (sqP12 x1 x2 x3 x4 x5 p10))
            ∗ owns (c : Thread nD τ) arg9 fullShare (rowBuf12 (sumP12 x1 x2 x3 x4 x5 p9))
            ∗ owns (c : Thread nD τ) arg10 fullShare (rowBuf12 (sqP12 x1 x2 x3 x4 x5 p10))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  subst h9 h10
  exact sound_kernel12_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, whether it was fetched there or not (then its
    block index has not moved since the last fetch), for any proof data over these arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, whether it was fetched there or not (then its
    block index has not moved since the last fetch), for any proof data over these arrays whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, whether it was fetched there or not (then its
    block index has not moved since the last fetch), for any proof data over these arrays whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, whether it was fetched there or not (then its
    block index has not moved since the last fetch), for any proof data over these arrays whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, whether it was fetched there or not (then its
    block index has not moved since the last fetch), for any proof data over these arrays whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The two scratch rows, point by point -/

/-- The running sums the point `t` leaves, from the rows `v` it finds. -/
def sumAt12 (c : Dev nD) (t : Fin cfg12.N) (v : Vec F S1x64 .f32) : Vec F S1x64 .f32 :=
  sumP12 (iblk12 V c 0 t) (iblk12 V c 1 t) (iblk12 V c 2 t) (iblk12 V c 3 t) (iblk12 V c 4 t) v
def sqAt12 (c : Dev nD) (t : Fin cfg12.N) (v : Vec F S1x64 .f32) : Vec F S1x64 .f32 :=
  sqP12 (iblk12 V c 0 t) (iblk12 V c 1 t) (iblk12 V c 2 t) (iblk12 V c 3 t) (iblk12 V c 4 t) v

/-- THE ACCUMULATION. The rows the body stores into the two scratch buffers (column sums; column sums of squares) at
    position `n`: at the first point over the zero rows the body has just filled in, afterwards over the rows the point
    before stored. -/
def acc12 (c : Dev nD) : (n : ℕ) → n < cfg12.N → Vec F S1x64 .f32 × Vec F S1x64 .f32
  | 0, hn => (sumAt12 V c ⟨0, hn⟩ (k12_pay2 (F := F)), sqAt12 V c ⟨0, hn⟩ (k12_pay3 (F := F)))
  | n + 1, hn => (sumAt12 V c ⟨n + 1, hn⟩ (acc12 c n (Nat.lt_of_succ_lt hn)).1, sqAt12 V c ⟨n + 1, hn⟩ (acc12 c n (Nat.lt_of_succ_lt hn)).2)

/-- At the first point: over the zero rows. -/
theorem acc12_first (c : Dev nD) (t : Fin cfg12.N) (hz : t.val = 0) :
    acc12 V c t.val t.isLt = (sumAt12 V c t (k12_pay2 (F := F)), sqAt12 V c t (k12_pay3 (F := F))) := by
  obtain ⟨n, hn⟩ := t
  cases n with
  | zero => rfl
  | succ n => exact absurd hz (Nat.succ_ne_zero n)

/-- At a later point: over what the point before stored. -/
theorem acc12_later (c : Dev nD) (t : Fin cfg12.N) (hz : t.val ≠ 0) :
    acc12 V c t.val t.isLt = (sumAt12 V c t (acc12 V c (t.val - 1) (Nat.lt_of_le_of_lt (Nat.sub_le _ _) t.isLt)).1,
      sqAt12 V c t (acc12 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM12_0 : Memref sig .tc .vmem S1x64 .f32 := Memref.whole cc12_scratch0
abbrev scM12_1 : Memref sig .tc .vmem S1x64 .f32 := Memref.whole cc12_scratch1

/-- The invariant before position `n`: before the first point the scoped buffers no window stages, each at anything, and
    the generator register at some state; afterwards the same with the two scratch rows at what the point before stored. -/
def PhiS12 (c : Dev nD) : (n : ℕ) → n ≤ cfg12.N → sProp 𝕄
  | 0, _ => Pipeline.ΦA spec12 c
  | n + 1, hn => iprop(iprop(iprop(owns (c : Thread nD τ) scM12_0 fullShare (rowBuf12 (acc12 V c n hn).1) ∗ owns (c : Thread nD τ) scM12_1 fullShare (rowBuf12 (acc12 V c n hn).2))
        ∗ Pipeline.scopedRestBut (Ix := Unit) (Name := ℕ) (U := UR sig nD τ) (Lvl := ℕ) (Val := Elt F) spec12 c [cc12_scratch0, cc12_scratch1])
      ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare (rowBuf12 (acc12 V c n hn).1) ∗ owns (c : Thread nD τ) scM12_1 fullShare (rowBuf12 (acc12 V c n hn).2))
        ∗ Pipeline.scopedRestBut (Ix := Unit) (Name := ℕ) (U := UR sig nD τ) (Lvl := ℕ) (Val := Elt F) spec12 c [cc12_scratch0, cc12_scratch1])
      ∗ (∃ r, prngReg c r)) := rfl

theorem PhiS12_pos (c : Dev nD) (n : ℕ) (h : n ≤ cfg12.N) (hz : n ≠ 0) :
    PhiS12 V c n h = iprop(iprop(iprop(owns (c : Thread nD τ) scM12_0 fullShare (rowBuf12 (acc12 V c (n - 1) (by omega)).1) ∗ owns (c : Thread nD τ) scM12_1 fullShare (rowBuf12 (acc12 V c (n - 1) (by omega)).2))
        ∗ Pipeline.scopedRestBut (Ix := Unit) (Name := ℕ) (U := UR sig nD τ) (Lvl := ℕ) (Val := Elt F) spec12 c [cc12_scratch0, cc12_scratch1])
      ∗ (∃ r, prngReg c r)) := by
  cases n with
  | zero => exact absurd rfl hz
  | succ n => rfl

/-- The invariant before the first point with the two scratch operands as memrefs owned at some contents. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d))
          ∗ Pipeline.scopedRestBut (Ix := Unit) (Name := ℕ) (U := UR sig nD τ) (Lvl := ℕ) (Val := Elt F) spec12 c [cc12_scratch0, cc12_scratch1])
        ∗ (∃ r, prngReg c r)) := by
  unfold Pipeline.ΦA; rw [scopedRest12_split]; simp only [scM12_0, scM12_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
    | ⟨6, _⟩ => rowBuf12 (acc12 V c t.val t.isLt).1
    | ⟨7, _⟩ => rowBuf12 (acc12 V c t.val t.isLt).2
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at the point's position. -/
theorem PhiS12_castSucc (c : Dev nD) (t : Fin cfg12.N) :
    (dat12 V c).Φ t.castSucc = PhiS12 V c t.val (Nat.le_of_lt t.isLt) := by
  dsimp only [dat12]; simp only [Fin.coe_castSucc]

/-- Before the first point the invariant is the scoped rest and the generator register; -/
theorem Phi12_zero (c : Dev nD) : (dat12 V c).Φ 0 = Pipeline.ΦA spec12 c := rfl

/-- after the last point it holds the two scratch rows at the totals over all ten points. -/
theorem Phi12_last (c : Dev nD) :
    (dat12 V c).Φ (Fin.last cfg12.N) = iprop(iprop(iprop(owns (c : Thread nD τ) scM12_0 fullShare (rowBuf12 (acc12 V c 9 (by rw [show cfg12.N = 10 from N_12]; decide)).1) ∗ owns (c : Thread nD τ) scM12_1 fullShare (rowBuf12 (acc12 V c 9 (by rw [show cfg12.N = 10 from N_12]; decide)).2))
        ∗ Pipeline.scopedRestBut (Ix := Unit) (Name := ℕ) (U := UR sig nD τ) (Lvl := ℕ) (Val := Elt F) spec12 c [cc12_scratch0, cc12_scratch1])
      ∗ (∃ r, prngReg c r)) := by
  rw [show (dat12 V c).Φ (Fin.last cfg12.N) = PhiS12 V c (Fin.last cfg12.N).val (Nat.le_of_lt_succ (Fin.last cfg12.N).isLt) from rfl]
  rw [PhiS12_pos V c _ _ (by rw [Fin.val_last]; have : cfg12.N = 10 := N_12; omega)]
  have hN : (Fin.last cfg12.N).val - 1 = 9 := by rw [Fin.val_last]; have : cfg12.N = 10 := N_12; omega
  simp only [hN]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]
theorem after12_6 (c : Dev nD) (t : Fin cfg12.N) : (dat12 V c).after 6 t = rowBuf12 (acc12 V c t.val t.isLt).1 := by dsimp only [dat12]
theorem after12_7 (c : Dev nD) (t : Fin cfg12.N) : (dat12 V c).after 7 t = rowBuf12 (acc12 V c t.val t.isLt).2 := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The invariant against the launch's resources -/

/-- What the launch hands the region — the generator register, no prefetched table (anything beside them is dropped), the
    scoped buffers no window stages — is the invariant before the first point. -/
theorem phi_in12 (c : Dev nD) (P : sProp 𝕄) :
    iprop((∃ r, prngReg c r) ∗ P ∗ Pipeline.scopedRest (Ix := Unit) (Name := ℕ) (U := UR sig nD τ) (Lvl := ℕ) (Val := Elt F) spec12 c) ⊢ (dat12 V c).Φ 0 := by
  rw [Phi12_zero]; unfold Pipeline.ΦA
  iintro ⟨Hp, -, Hr⟩
  isplitl [Hr]; · iexact Hr
  iexact Hp

/-- After the last point the invariant gives them back: the two scratch rows' contents are forgotten. -/
theorem Phi12_out_A (c : Dev nD) : (dat12 V c).Φ (Fin.last cfg12.N) ⊢ Pipeline.ΦA spec12 c := by
  rw [Phi12_last, PhiA12_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out12 (c : Dev nD) :
    (dat12 V c).Φ (Fin.last cfg12.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec12 c) := by
  refine (Phi12_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).owesAt () t.succ = (dat12 V c).owesAt () t.castSucc from rfl,
    after12_0, after12_1, after12_2, after12_3, after12_4, after12_5, after12_6, after12_7]
  rw [show (dat12 V c).Φ t.succ = PhiS12 V c (t.val + 1) t.isLt from rfl, PhiS12_succ, PhiS12_castSucc]
  have hN : t.val < 10 := lt_of_lt_of_eq t.isLt (show cfg12.N = 10 from N_12)
  by_cases hz : t.val = 0
  · rw [PhiS12_zero V c _ _ hz, PhiA12_eq, acc12_first V c t hz]
    unfold sumAt12 sqAt12
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel12_first c Set.univ (grid12.coords t) ((hcond12_0 t).mpr (by omega)) _ _ _ _ _ _ _ _ _ _ _ _ _ _ _ _ _ _ _ _
      (iblk12 V c 0 t) (iblk12 V c 1 t) (iblk12 V c 2 t) (iblk12 V c 3 t) (iblk12 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS12_pos V c _ _ hz, acc12_later V c t hz]
    unfold sumAt12 sqAt12
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel12_later' c Set.univ (grid12.coords t) (fun h => hz (by have h' := (hcond12_0 t).mp h; omega)) _ _ _ _ _ _ _ _ _ _ _ _ _ _ _ _ _ _ _ _
      (iblk12 V c 0 t) (iblk12 V c 1 t) (iblk12 V c 2 t) (iblk12 V c 3 t) (iblk12 V c 4 t) (rowBuf12 _) (rowBuf12 _) _ _ (ld_rowBuf12 _) (ld_rowBuf12 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Gen

end
-- ==== Proof.Region13.lean ====
/- The proof data and the body obligation of the pipeline of custom_call 13, at a parameter V (the TensorCore's buffer
   contents when the region is entered): every window's block at a grid point, the value the body leaves in each
   window's staging buffer, the body's triple on whole staging memrefs, and the obligation at every grid point. -/
import proofs.«127476_j62818191671466_2_alg».proof.Proof.Gen.KernelIdeal.Launch
import proofs.«127476_j62818191671466_2_alg».proof.Proof.Gen.KernelIdeal.Skeleton
import proofs.«127476_j62818191671466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, whether it was fetched there or
    not (then the block index has not moved since the last fetch), for any proof data over these arrays whose
    body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, whether it was fetched there or
    not (then the block index has not moved since the last fetch), for any proof data over these arrays whose
    body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, whether it was fetched there or
    not (then the block index has not moved since the last fetch), for any proof data over these arrays whose
    body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, whether it was fetched there or
    not (then the block index has not moved since the last fetch), for any proof data over these arrays whose
    body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, whether it was fetched there or
    not (then the block index has not moved since the last fetch), for any proof data over these arrays whose
    body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, whether it was fetched there or
    not (then the block index has not moved since the last fetch), for any proof data over these arrays whose
    body leaves the block in place. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's one store: the whole output block -/

abbrev r13_0 : Rect S10000x64 := Rect.unit (s := S10000x64) ![0, 0] S10000x64.size inb_S10000x64_S10000x64_0_0

/-- The output window's staging buffer after the body, from the input windows' blocks: the one store, of the
    payload of the loaded input blocks, over the whole rectangle. -/
def out13_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r13_0, k13_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover13_6 (p0 : Vec F S10000x64 .f32) (y : S10000x64.Idx) :
    ∃ pc ∈ ([⟨r13_0, p0⟩] : List (View.Piece (Elt F) S10000x64 .f32)), y ∈ pc.1.set :=
  View.cover_of_tiled [⟨r13_0, p0⟩] S10000x64.size (by rfl) y

/-! ## The body's triple -/

set_option maxHeartbeats 1000000 in
/-- The kernel body on whole staging memrefs, the inputs' at contents x and the output's at anything, runs to the
    continuation holding the inputs' as they were and the output's at out13_6 of the inputs: the printed function
    is its skeleton, whose loads and one store are run one after the other. -/
theorem sound_kernel13 (c : Dev nD) (E : Set ℕ) (i : grid13.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13_6 x0 x1 x2 x3 x4 x5)) -∗ K ⟨⟩))
      ⊢ wp frame (wpE (defs₀ (F := F)) Variants.none c none) E (cc13__bn_resid_kernel i arg0 harg0 arg1 harg1 arg2 harg2 arg3 harg3 arg4 harg4 arg5 harg5 arg6 harg6) K := by
  simp only [cc13__bn_resid_kernel_eq_skeleton]; unfold cc13__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover13_6 _)

/-! ## The pipeline's proof data -/

/-- The proof data of the pipeline on core c: the arrays as the region finds them; after the body at point t each
    input's buffer at its block and the output's at out13_6 of the input blocks; the invariant is the scoped rest and
    the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t: the invariant, the core's debt, and each window's current staging
    buffer at what the pipeline left there, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant and
    the core's debt pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Gen
-- ==== Proof.Boundaries.lean ====
/- The contents of a core's unscoped buffers at every boundary between two items of the main program: the launch
  memory, then alternately a stretch of host operations folded over what came before and a kernel region, after
  which each output array of the region holds what the pipeline's write-backs leave and every other buffer what it
  held when the region was entered. A region's input arrays are never written, so they leave as they entered; and no
  item writes an argument array, so each argument reads at the end as at the launch.
-/
import proofs.«127476_j62818191671466_2_alg».proof.Proof.Region0
import proofs.«127476_j62818191671466_2_alg».proof.Proof.Region1
import proofs.«127476_j62818191671466_2_alg».proof.Proof.Region2
import proofs.«127476_j62818191671466_2_alg».proof.Proof.Region3
import proofs.«127476_j62818191671466_2_alg».proof.Proof.Region4
import proofs.«127476_j62818191671466_2_alg».proof.Proof.Region5
import proofs.«127476_j62818191671466_2_alg».proof.Proof.Region6
import proofs.«127476_j62818191671466_2_alg».proof.Proof.Region7
import proofs.«127476_j62818191671466_2_alg».proof.Proof.Region8
import proofs.«127476_j62818191671466_2_alg».proof.Proof.Region9
import proofs.«127476_j62818191671466_2_alg».proof.Proof.Region10
import proofs.«127476_j62818191671466_2_alg».proof.Proof.Region11
import proofs.«127476_j62818191671466_2_alg».proof.Proof.Region12
import proofs.«127476_j62818191671466_2_alg».proof.Proof.Region13
import proofs.«127476_j62818191671466_2_alg».proof.Proof.Gen.KernelIdeal.Regions

set_option maxRecDepth 16384

noncomputable section

namespace Cert.KernelIdeal.Gen

open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core c's buffers at launch. -/
abbrev B0 (c : Dev nD) : Valuation τ sig (Elt F) := fun b => m (c, b)

/-- After the host stretch before region 0: what the region is entered from. -/
abbrev B1 (c : Dev nD) : Valuation τ sig (Elt F) := StableHlo.after hostOps0 (B0 m c)
/-- The same, read at the TensorCore's references. -/
abbrev E1 : (c : Dev nD) → (b : Ref sig .tc) → Buf (Elt F) ((c : Thread nD τ).loc b) := fun c b => B1 m c b
/-- At region 0's exit: each output array at what the write-backs leave, everything else as entered. -/
def B2 (c : Dev nD) : Valuation τ sig (Elt F) :=
  Function.update (B1 m c) main_v5 ((dat0 (E1 m) c).arrAt 3 cfg0.N)
abbrev E2 : (c : Dev nD) → (b : Ref sig .tc) → Buf (Elt F) ((c : Thread nD τ).loc b) := fun c b => B2 m c b
set_option maxHeartbeats 1000000 in
theorem hF0_0 (c : Dev nD) : (dat0 (E1 m) c).arrAt 0 cfg0.N = E2 m c main_arg0 :=
  ((dat0 (E1 m) c).arrAt_in 0 rfl _).trans ((A_eq0 (E1 m) c 0).trans (by
      show B1 m c main_arg0 = B2 m c main_arg0
      unfold B2; simp only [Function.update_of_ne (StableHlo.devRef_ne_of_ne (by decide) : (Proc.devRef .tc main_arg0 : DevRef τ sig) ≠ Proc.devRef .tc main_v5)]))
set_option maxHeartbeats 1000000 in
theorem hF0_1 (c : Dev nD) : (dat0 (E1 m) c).arrAt 1 cfg0.N = E2 m c main_arg4 :=
  ((dat0 (E1 m) c).arrAt_in 1 rfl _).trans ((A_eq0 (E1 m) c 1).trans (by
      show B1 m c main_arg4 = B2 m c main_arg4
      unfold B2; simp only [Function.update_of_ne (StableHlo.devRef_ne_of_ne (by decide) : (Proc.devRef .tc main_arg4 : DevRef τ sig) ≠ Proc.devRef .tc main_v5)]))
set_option maxHeartbeats 1000000 in
theorem hF0_2 (c : Dev nD) : (dat0 (E1 m) c).arrAt 2 cfg0.N = E2 m c main_v4 :=
  ((dat0 (E1 m) c).arrAt_in 2 rfl _).trans ((A_eq0 (E1 m) c 2).trans (by
      show B1 m c main_v4 = B2 m c main_v4
      unfold B2; simp only [Function.update_of_ne (StableHlo.devRef_ne_of_ne (by decide) : (Proc.devRef .tc main_v4 : DevRef τ sig) ≠ Proc.devRef .tc main_v5)]))
set_option maxHeartbeats 1000000 in
theorem hF0_3 (c : Dev nD) : (dat0 (E1 m) c).arrAt 3 cfg0.N = E2 m c main_v5 := by
  show (dat0 (E1 m) c).arrAt 3 cfg0.N = B2 m c main_v5
  unfold B2; simp only [Function.update_self]
set_option maxHeartbeats 1000000 in
theorem hF0 (c : Dev nD) : ∀ w : Fin cfg0.W, (dat0 (E1 m) c).arrAt w cfg0.N = E2 m c (Pipeline.arrRef spec0 w)
  | ⟨0, _⟩ => hF0_0 m c
  | ⟨1, _⟩ => hF0_1 m c
  | ⟨2, _⟩ => hF0_2 m c
  | ⟨3, _⟩ => hF0_3 m c
  | ⟨_ + 4, h⟩ => absurd h (Nat.not_lt.2 (Nat.le_add_left _ _))
theorem hrest0 (c : Dev nD) : ∀ b, b ∉ Finset.univ.image (Pipeline.arrRef spec0) → E2 m c b = E1 m c b := fun b hb => by
  show B2 m c b = B1 m c b
  unfold B2
  simp only [Function.update_of_ne (StableHlo.devRef_ne_of_ne (fun e => hb (Finset.mem_image.mpr ⟨3, Finset.mem_univ _, e.symm⟩)) : (Proc.devRef .tc b : DevRef τ sig) ≠ Proc.devRef .tc main_v5)]
/-- A buffer that is no output of region 0 leaves it as it entered. -/
theorem B2_of (c : Dev nD) (r : Ref sig .tc) (h : r ∉ ([main_v5] : List (Ref sig .tc))) : B2 m c r = B1 m c r := by
  unfold B2
  simp only [Function.update_of_ne (StableHlo.devRef_ne_of_ne (List.ne_of_not_mem_cons (h)) : (Proc.devRef .tc r : DevRef τ sig) ≠ Proc.devRef .tc main_v5)]
/-- A buffer the host stretch before region 0 does not write passes through it. -/
theorem B1_of (c : Dev nD) (r : Ref sig .tc) (h : r ∉ hostOps0_W) : B1 m c r = B0 m c r :=
  StableHlo.after_of_writes_sub hostOps0 _ hostOps0_writes h

/-- After the host stretch before region 1: what the region is entered from. -/
abbrev B3 (c : Dev nD) : Valuation τ sig (Elt F) := StableHlo.after hostOps1 (B2 m c)
/-- The same, read at the TensorCore's references. -/
abbrev E3 : (c : Dev nD) → (b : Ref sig .tc) → Buf (Elt F) ((c : Thread nD τ).loc b) := fun c b => B3 m c b
/-- At region 1's exit: each output array at what the write-backs leave, everything else as entered. -/
def B4 (c : Dev nD) : Valuation τ sig (Elt F) :=
  Function.update (B3 m c) main_v7 ((dat1 (E3 m) c).arrAt 3 cfg1.N)
abbrev E4 : (c : Dev nD) → (b : Ref sig .tc) → Buf (Elt F) ((c : Thread nD τ).loc b) := fun c b => B4 m c b
set_option maxHeartbeats 1000000 in
theorem hF1_0 (c : Dev nD) : (dat1 (E3 m) c).arrAt 0 cfg1.N = E4 m c main_arg1 :=
  ((dat1 (E3 m) c).arrAt_in 0 rfl _).trans ((A_eq1 (E3 m) c 0).trans (by
      show B3 m c main_arg1 = B4 m c main_arg1
      unfold B4; simp only [Function.update_of_ne (StableHlo.devRef_ne_of_ne (by decide) : (Proc.devRef .tc main_arg1 : DevRef τ sig) ≠ Proc.devRef .tc main_v7)]))
set_option maxHeartbeats 1000000 in
theorem hF1_1 (c : Dev nD) : (dat1 (E3 m) c).arrAt 1 cfg1.N = E4 m c main_arg6 :=
  ((dat1 (E3 m) c).arrAt_in 1 rfl _).trans ((A_eq1 (E3 m) c 1).trans (by
      show B3 m c main_arg6 = B4 m c main_arg6
      unfold B4; simp only [Function.update_of_ne (StableHlo.devRef_ne_of_ne (by decide) : (Proc.devRef .tc main_arg6 : DevRef τ sig) ≠ Proc.devRef .tc main_v7)]))
set_option maxHeartbeats 1000000 in
theorem hF1_2 (c : Dev nD) : (dat1 (E3 m) c).arrAt 2 cfg1.N = E4 m c main_v6 :=
  ((dat1 (E3 m) c).arrAt_in 2 rfl _).trans ((A_eq1 (E3 m) c 2).trans (by
      show B3 m c main_v6 = B4 m c main_v6
      unfold B4; simp only [Function.update_of_ne (StableHlo.devRef_ne_of_ne (by decide) : (Proc.devRef .tc main_v6 : DevRef τ sig) ≠ Proc.devRef .tc main_v7)]))
set_option maxHeartbeats 1000000 in
theorem hF1_3 (c : Dev nD) : (dat1 (E3 m) c).arrAt 3 cfg1.N = E4 m c main_v7 := by
  show (dat1 (E3 m) c).arrAt 3 cfg1.N = B4 m c main_v7
  unfold B4; simp only [Function.update_self]
set_option maxHeartbeats 1000000 in
theorem hF1 (c : Dev nD) : ∀ w : Fin cfg1.W, (dat1 (E3 m) c).arrAt w cfg1.N = E4 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left _ _))
theorem hrest1 (c : Dev nD) : ∀ b, b ∉ Finset.univ.image (Pipeline.arrRef spec1) → E4 m c b = E3 m c b := fun b hb => by
  show B4 m c b = B3 m c b
  unfold B4
  simp only [Function.update_of_ne (StableHlo.devRef_ne_of_ne (fun e => hb (Finset.mem_image.mpr ⟨3, Finset.mem_univ _, e.symm⟩)) : (Proc.devRef .tc b : DevRef τ sig) ≠ Proc.devRef .tc main_v7)]
/-- A buffer that is no output of region 1 leaves it as it entered. -/
theorem B4_of (c : Dev nD) (r : Ref sig .tc) (h : r ∉ ([main_v7] : List (Ref sig .tc))) : B4 m c r = B3 m c r := by
  unfold B4
  simp only [Function.update_of_ne (StableHlo.devRef_ne_of_ne (List.ne_of_not_mem_cons (h)) : (Proc.devRef .tc r : DevRef τ sig) ≠ Proc.devRef .tc main_v7)]
/-- A buffer the host stretch before region 1 does not write passes through it. -/
theorem B3_of (c : Dev nD) (r : Ref sig .tc) (h : r ∉ hostOps1_W) : B3 m c r = B2 m c r :=
  StableHlo.after_of_writes_sub hostOps1 _ hostOps1_writes h

/-- After the host stretch before region 2: what the region is entered from. -/
abbrev B5 (c : Dev nD) : Valuation τ sig (Elt F) := StableHlo.after hostOps2 (B4 m c)
/-- The same, read at the TensorCore's references. -/
abbrev E5 : (c : Dev nD) → (b : Ref sig .tc) → Buf (Elt F) ((c : Thread nD τ).loc b) := fun c b => B5 m c b
/-- At region 2's exit: each output array at what the write-backs leave, everything else as entered. -/
def B6 (c : Dev nD) : Valuation τ sig (Elt F) :=
  Function.update (B5 m c) main_v15 ((dat2 (E5 m) c).arrAt 2 cfg2.N)
abbrev E6 : (c : Dev nD) → (b : Ref sig .tc) → Buf (Elt F) ((c : Thread nD τ).loc b) := fun c b => B6 m c b
set_option maxHeartbeats 1000000 in
theorem hF2_0 (c : Dev nD) : (dat2 (E5 m) c).arrAt 0 cfg2.N = E6 m c main_v14 :=
  ((dat2 (E5 m) c).arrAt_in 0 rfl _).trans ((A_eq2 (E5 m) c 0).trans (by
      show B5 m c main_v14 = B6 m c main_v14
      unfold B6; simp only [Function.update_of_ne (StableHlo.devRef_ne_of_ne (by decide) : (Proc.devRef .tc main_v14 : DevRef τ sig) ≠ Proc.devRef .tc main_v15)]))
set_option maxHeartbeats 1000000 in
theorem hF2_1 (c : Dev nD) : (dat2 (E5 m) c).arrAt 1 cfg2.N = E6 m c main_v7 :=
  ((dat2 (E5 m) c).arrAt_in 1 rfl _).trans ((A_eq2 (E5 m) c 1).trans (by
      show B5 m c main_v7 = B6 m c main_v7
      unfold B6; simp only [Function.update_of_ne (StableHlo.devRef_ne_of_ne (by decide) : (Proc.devRef .tc main_v7 : DevRef τ sig) ≠ Proc.devRef .tc main_v15)]))
set_option maxHeartbeats 1000000 in
theorem hF2_2 (c : Dev nD) : (dat2 (E5 m) c).arrAt 2 cfg2.N = E6 m c main_v15 := by
  show (dat2 (E5 m) c).arrAt 2 cfg2.N = B6 m c main_v15
  unfold B6; simp only [Function.update_self]
set_option maxHeartbeats 1000000 in
theorem hF2 (c : Dev nD) : ∀ w : Fin cfg2.W, (dat2 (E5 m) c).arrAt w cfg2.N = E6 m c (Pipeline.arrRef spec2 w)
  | ⟨0, _⟩ => hF2_0 m c
  | ⟨1, _⟩ => hF2_1 m c
  | ⟨2, _⟩ => hF2_2 m c
  | ⟨_ + 3, h⟩ => absurd h (Nat.not_lt.2 (Nat.le_add_left _ _))
theorem hrest2 (c : Dev nD) : ∀ b, b ∉ Finset.univ.image (Pipeline.arrRef spec2) → E6 m c b = E5 m c b := fun b hb => by
  show B6 m c b = B5 m c b
  unfold B6
  simp only [Function.update_of_ne (StableHlo.devRef_ne_of_ne (fun e => hb (Finset.mem_image.mpr ⟨2, Finset.mem_univ _, e.symm⟩)) : (Proc.devRef .tc b : DevRef τ sig) ≠ Proc.devRef .tc main_v15)]
/-- A buffer that is no output of region 2 leaves it as it entered. -/
theorem B6_of (c : Dev nD) (r : Ref sig .tc) (h : r ∉ ([main_v15] : List (Ref sig .tc))) : B6 m c r = B5 m c r := by
  unfold B6
  simp only [Function.update_of_ne (StableHlo.devRef_ne_of_ne (List.ne_of_not_mem_cons (h)) : (Proc.devRef .tc r : DevRef τ sig) ≠ Proc.devRef .tc main_v15)]
/-- A buffer the host stretch before region 2 does not write passes through it. -/
theorem B5_of (c : Dev nD) (r : Ref sig .tc) (h : r ∉ hostOps2_W) : B5 m c r = B4 m c r :=
  StableHlo.after_of_writes_sub hostOps2 _ hostOps2_writes h

/-- After the host stretch before region 3: what the region is entered from. -/
abbrev B7 (c : Dev nD) : Valuation τ sig (Elt F) := StableHlo.after hostOps3 (B6 m c)
/-- The same, read at the TensorCore's references. -/
abbrev E7 : (c : Dev nD) → (b : Ref sig .tc) → Buf (Elt F) ((c : Thread nD τ).loc b) := fun c b => B7 m c b
/-- At region 3's exit: each output array at what the write-backs leave, everything else as entered. -/
def B8 (c : Dev nD) : Valuation τ sig (Elt F) :=
  Function.update (Function.update (Function.update (B7 m c) main_v35_0 ((dat3 (E7 m) c).arrAt 5 cfg3.N)) main_v35_1 ((dat3 (E7 m) c).arrAt 6 cfg3.N)) main_v35_2 ((dat3 (E7 m) c).arrAt 7 cfg3.N)
abbrev E8 : (c : Dev nD) → (b : Ref sig .tc) → Buf (Elt F) ((c : Thread nD τ).loc b) := fun c b => B8 m c b
set_option maxHeartbeats 1000000 in
theorem hF3_0 (c : Dev nD) : (dat3 (E7 m) c).arrAt 0 cfg3.N = E8 m c main_v24 :=
  ((dat3 (E7 m) c).arrAt_in 0 rfl _).trans ((A_eq3 (E7 m) c 0).trans (by
      show B7 m c main_v24 = B8 m c main_v24
      unfold B8; simp only [Function.update_of_ne (StableHlo.devRef_ne_of_ne (by decide) : (Proc.devRef .tc main_v24 : DevRef τ sig) ≠ Proc.devRef .tc main_v35_0), Function.update_of_ne (StableHlo.devRef_ne_of_ne (by decide) : (Proc.devRef .tc main_v24 : DevRef τ sig) ≠ Proc.devRef .tc main_v35_1), Function.update_of_ne (StableHlo.devRef_ne_of_ne (by decide) : (Proc.devRef .tc main_v24 : DevRef τ sig) ≠ Proc.devRef .tc main_v35_2)]))
set_option maxHeartbeats 1000000 in
theorem hF3_1 (c : Dev nD) : (dat3 (E7 m) c).arrAt 1 cfg3.N = E8 m c main_v26 :=
  ((dat3 (E7 m) c).arrAt_in 1 rfl _).trans ((A_eq3 (E7 m) c 1).trans (by
      show B7 m c main_v26 = B8 m c main_v26
      unfold B8; simp only [Function.update_of_ne (StableHlo.devRef_ne_of_ne (by decide) : (Proc.devRef .tc main_v26 : DevRef τ sig) ≠ Proc.devRef .tc main_v35_0), Function.update_of_ne (StableHlo.devRef_ne_of_ne (by decide) : (Proc.devRef .tc main_v26 : DevRef τ sig) ≠ Proc.devRef .tc main_v35_1), Function.update_of_ne (StableHlo.devRef_ne_of_ne (by decide) : (Proc.devRef .tc main_v26 : DevRef τ sig) ≠ Proc.devRef .tc main_v35_2)]))
set_option maxHeartbeats 1000000 in
theorem hF3_2 (c : Dev nD) : (dat3 (E7 m) c).arrAt 2 cfg3.N = E8 m c main_v33 :=
  ((dat3 (E7 m) c).arrAt_in 2 rfl _).trans ((A_eq3 (E7 m) c 2).trans (by
      show B7 m c main_v33 = B8 m c main_v33
      unfold B8; simp only [Function.update_of_ne (StableHlo.devRef_ne_of_ne (by decide) : (Proc.devRef .tc main_v33 : DevRef τ sig) ≠ Proc.devRef .tc main_v35_0), Function.update_of_ne (StableHlo.devRef_ne_of_ne (by decide) : (Proc.devRef .tc main_v33 : DevRef τ sig) ≠ Proc.devRef .tc main_v35_1), Function.update_of_ne (StableHlo.devRef_ne_of_ne (by decide) : (Proc.devRef .tc main_v33 : DevRef τ sig) ≠ Proc.devRef .tc main_v35_2)]))
set_option maxHeartbeats 1000000 in
theorem hF3_3 (c : Dev nD) : (dat3 (E7 m) c).arrAt 3 cfg3.N = E8 m c main_v30 :=
  ((dat3 (E7 m) c).arrAt_in 3 rfl _).trans ((A_eq3 (E7 m) c 3).trans (by
      show B7 m c main_v30 = B8 m c main_v30
      unfold B8; simp only [Function.update_of_ne (StableHlo.devRef_ne_of_ne (by decide) : (Proc.devRef .tc main_v30 : DevRef τ sig) ≠ Proc.devRef .tc main_v35_0), Function.update_of_ne (StableHlo.devRef_ne_of_ne (by decide) : (Proc.devRef .tc main_v30 : DevRef τ sig) ≠ Proc.devRef .tc main_v35_1), Function.update_of_ne (StableHlo.devRef_ne_of_ne (by decide) : (Proc.devRef .tc main_v30 : DevRef τ sig) ≠ Proc.devRef .tc main_v35_2)]))
set_option maxHeartbeats 1000000 in
theorem hF3_4 (c : Dev nD) : (dat3 (E7 m) c).arrAt 4 cfg3.N = E8 m c main_v34 :=
  ((dat3 (E7 m) c).arrAt_in 4 rfl _).trans ((A_eq3 (E7 m) c 4).trans (by
      show B7 m c main_v34 = B8 m c main_v34
      unfold B8; simp only [Function.update_of_ne (StableHlo.devRef_ne_of_ne (by decide) : (Proc.devRef .tc main_v34 : DevRef τ sig) ≠ Proc.devRef .tc main_v35_0), Function.update_of_ne (StableHlo.devRef_ne_of_ne (by decide) : (Proc.devRef .tc main_v34 : DevRef τ sig) ≠ Proc.devRef .tc main_v35_1), Function.update_of_ne (StableHlo.devRef_ne_of_ne (by decide) : (Proc.devRef .tc main_v34 : DevRef τ sig) ≠ Proc.devRef .tc main_v35_2)]))
set_option maxHeartbeats 1000000 in
theorem hF3_5 (c : Dev nD) : (dat3 (E7 m) c).arrAt 5 cfg3.N = E8 m c main_v35_0 := by
  show (dat3 (E7 m) c).arrAt 5 cfg3.N = B8 m c main_v35_0
  unfold B8; simp only [Function.update_of_ne (StableHlo.devRef_ne_of_ne (by decide) : (Proc.devRef .tc main_v35_0 : DevRef τ sig) ≠ Proc.devRef .tc main_v35_1), Function.update_of_ne (StableHlo.devRef_ne_of_ne (by decide) : (Proc.devRef .tc main_v35_0 : DevRef τ sig) ≠ Proc.devRef .tc main_v35_2), Function.update_self]
set_option maxHeartbeats 1000000 in
theorem hF3_6 (c : Dev nD) : (dat3 (E7 m) c).arrAt 6 cfg3.N = E8 m c main_v35_1 := by
  show (dat3 (E7 m) c).arrAt 6 cfg3.N = B8 m c main_v35_1
  unfold B8; simp only [Function.update_of_ne (StableHlo.devRef_ne_of_ne (by decide) : (Proc.devRef .tc main_v35_1 : DevRef τ sig) ≠ Proc.devRef .tc main_v35_2), Function.update_self]
set_option maxHeartbeats 1000000 in
theorem hF3_7 (c : Dev nD) : (dat3 (E7 m) c).arrAt 7 cfg3.N = E8 m c main_v35_2 := by
  show (dat3 (E7 m) c).arrAt 7 cfg3.N = B8 m c main_v35_2
  unfold B8; simp only [Function.update_self]
set_option maxHeartbeats 1000000 in
theorem hF3 (c : Dev nD) : ∀ w : Fin cfg3.W, (dat3 (E7 m) c).arrAt w cfg3.N = E8 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
  | ⟨_ + 8, h⟩ => absurd h (Nat.not_lt.2 (Nat.le_add_left _ _))
theorem hrest3 (c : Dev nD) : ∀ b, b ∉ Finset.univ.image (Pipeline.arrRef spec3) → E8 m c b = E7 m c b := fun b hb => by
  show B8 m c b = B7 m c b
  unfold B8
  simp only [Function.update_of_ne (StableHlo.devRef_ne_of_ne (fun e => hb (Finset.mem_image.mpr ⟨5, Finset.mem_univ _, e.symm⟩)) : (Proc.devRef .tc b : DevRef τ sig) ≠ Proc.devRef .tc main_v35_0), Function.update_of_ne (StableHlo.devRef_ne_of_ne (fun e => hb (Finset.mem_image.mpr ⟨6, Finset.mem_univ _, e.symm⟩)) : (Proc.devRef .tc b : DevRef τ sig) ≠ Proc.devRef .tc main_v35_1), Function.update_of_ne (StableHlo.devRef_ne_of_ne (fun e => hb (Finset.mem_image.mpr ⟨7, Finset.mem_univ _, e.symm⟩)) : (Proc.devRef .tc b : DevRef τ sig) ≠ Proc.devRef .tc main_v35_2)]
/-- A buffer that is no output of region 3 leaves it as it entered. -/
theorem B8_of (c : Dev nD) (r : Ref sig .tc) (h : r ∉ ([main_v35_0, main_v35_1, main_v35_2] : List (Ref sig .tc))) : B8 m c r = B7 m c r := by
  unfold B8
  simp only [Function.update_of_ne (StableHlo.devRef_ne_of_ne (List.ne_of_not_mem_cons (h)) : (Proc.devRef .tc r : DevRef τ sig) ≠ Proc.devRef .tc main_v35_0), Function.update_of_ne (StableHlo.devRef_ne_of_ne (List.ne_of_not_mem_cons (List.not_mem_of_not_mem_cons (h))) : (Proc.devRef .tc r : DevRef τ sig) ≠ Proc.devRef .tc main_v35_1), Function.update_of_ne (StableHlo.devRef_ne_of_ne (List.ne_of_not_mem_cons (List.not_mem_of_not_mem_cons (List.not_mem_of_not_mem_cons (h)))) : (Proc.devRef .tc r : DevRef τ sig) ≠ Proc.devRef .tc main_v35_2)]
/-- A buffer the host stretch before region 3 does not write passes through it. -/
theorem B7_of (c : Dev nD) (r : Ref sig .tc) (h : r ∉ hostOps3_W) : B7 m c r = B6 m c r :=
  StableHlo.after_of_writes_sub hostOps3 _ hostOps3_writes h

/-- After the host stretch before region 4: what the region is entered from. -/
abbrev B9 (c : Dev nD) : Valuation τ sig (Elt F) := StableHlo.after hostOps4 (B8 m c)
/-- The same, read at the TensorCore's references. -/
abbrev E9 : (c : Dev nD) → (b : Ref sig .tc) → Buf (Elt F) ((c : Thread nD τ).loc b) := fun c b => B9 m c b
/-- At region 4's exit: each output array at what the write-backs leave, everything else as entered. -/
def B10 (c : Dev nD) : Valuation τ sig (Elt F) :=
  Function.update (B9 m c) main_v50 ((dat4 (E9 m) c).arrAt 6 cfg4.N)
abbrev E10 : (c : Dev nD) → (b : Ref sig .tc) → Buf (Elt F) ((c : Thread nD τ).loc b) := fun c b => B10 m c b
set_option maxHeartbeats 1000000 in
theorem hF4_0 (c : Dev nD) : (dat4 (E9 m) c).arrAt 0 cfg4.N = E10 m c main_v35_0 :=
  ((dat4 (E9 m) c).arrAt_in 0 rfl _).trans ((A_eq4 (E9 m) c 0).trans (by
      show B9 m c main_v35_0 = B10 m c main_v35_0
      unfold B10; simp only [Function.update_of_ne (StableHlo.devRef_ne_of_ne (by decide) : (Proc.devRef .tc main_v35_0 : DevRef τ sig) ≠ Proc.devRef .tc main_v50)]))
set_option maxHeartbeats 1000000 in
theorem hF4_1 (c : Dev nD) : (dat4 (E9 m) c).arrAt 1 cfg4.N = E10 m c main_v5 :=
  ((dat4 (E9 m) c).arrAt_in 1 rfl _).trans ((A_eq4 (E9 m) c 1).trans (by
      show B9 m c main_v5 = B10 m c main_v5
      unfold B10; simp only [Function.update_of_ne (StableHlo.devRef_ne_of_ne (by decide) : (Proc.devRef .tc main_v5 : DevRef τ sig) ≠ Proc.devRef .tc main_v50)]))
set_option maxHeartbeats 1000000 in
theorem hF4_2 (c : Dev nD) : (dat4 (E9 m) c).arrAt 2 cfg4.N = E10 m c main_v37 :=
  ((dat4 (E9 m) c).arrAt_in 2 rfl _).trans ((A_eq4 (E9 m) c 2).trans (by
      show B9 m c main_v37 = B10 m c main_v37
      unfold B10; simp only [Function.update_of_ne (StableHlo.devRef_ne_of_ne (by decide) : (Proc.devRef .tc main_v37 : DevRef τ sig) ≠ Proc.devRef .tc main_v50)]))
set_option maxHeartbeats 1000000 in
theorem hF4_3 (c : Dev nD) : (dat4 (E9 m) c).arrAt 3 cfg4.N = E10 m c main_v43 :=
  ((dat4 (E9 m) c).arrAt_in 3 rfl _).trans ((A_eq4 (E9 m) c 3).trans (by
      show B9 m c main_v43 = B10 m c main_v43
      unfold B10; simp only [Function.update_of_ne (StableHlo.devRef_ne_of_ne (by decide) : (Proc.devRef .tc main_v43 : DevRef τ sig) ≠ Proc.devRef .tc main_v50)]))
set_option maxHeartbeats 1000000 in
theorem hF4_4 (c : Dev nD) : (dat4 (E9 m) c).arrAt 4 cfg4.N = E10 m c main_v46 :=
  ((dat4 (E9 m) c).arrAt_in 4 rfl _).trans ((A_eq4 (E9 m) c 4).trans (by
      show B9 m c main_v46 = B10 m c main_v46
      unfold B10; simp only [Function.update_of_ne (StableHlo.devRef_ne_of_ne (by decide) : (Proc.devRef .tc main_v46 : DevRef τ sig) ≠ Proc.devRef .tc main_v50)]))
set_option maxHeartbeats 1000000 in
theorem hF4_5 (c : Dev nD) : (dat4 (E9 m) c).arrAt 5 cfg4.N = E10 m c main_v49 :=
  ((dat4 (E9 m) c).arrAt_in 5 rfl _).trans ((A_eq4 (E9 m) c 5).trans (by
      show B9 m c main_v49 = B10 m c main_v49
      unfold B10; simp only [Function.update_of_ne (StableHlo.devRef_ne_of_ne (by decide) : (Proc.devRef .tc main_v49 : DevRef τ sig) ≠ Proc.devRef .tc main_v50)]))
set_option maxHeartbeats 1000000 in
theorem hF4_6 (c : Dev nD) : (dat4 (E9 m) c).arrAt 6 cfg4.N = E10 m c main_v50 := by
  show (dat4 (E9 m) c).arrAt 6 cfg4.N = B10 m c main_v50
  unfold B10; simp only [Function.update_self]
set_option maxHeartbeats 1000000 in
theorem hF4 (c : Dev nD) : ∀ w : Fin cfg4.W, (dat4 (E9 m) c).arrAt w cfg4.N = E10 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c
  | ⟨_ + 7, h⟩ => absurd h (Nat.not_lt.2 (Nat.le_add_left _ _))
theorem hrest4 (c : Dev nD) : ∀ b, b ∉ Finset.univ.image (Pipeline.arrRef spec4) → E10 m c b = E9 m c b := fun b hb => by
  show B10 m c b = B9 m c b
  unfold B10
  simp only [Function.update_of_ne (StableHlo.devRef_ne_of_ne (fun e => hb (Finset.mem_image.mpr ⟨6, Finset.mem_univ _, e.symm⟩)) : (Proc.devRef .tc b : DevRef τ sig) ≠ Proc.devRef .tc main_v50)]
/-- A buffer that is no output of region 4 leaves it as it entered. -/
theorem B10_of (c : Dev nD) (r : Ref sig .tc) (h : r ∉ ([main_v50] : List (Ref sig .tc))) : B10 m c r = B9 m c r := by
  unfold B10
  simp only [Function.update_of_ne (StableHlo.devRef_ne_of_ne (List.ne_of_not_mem_cons (h)) : (Proc.devRef .tc r : DevRef τ sig) ≠ Proc.devRef .tc main_v50)]
/-- A buffer the host stretch before region 4 does not write passes through it. -/
theorem B9_of (c : Dev nD) (r : Ref sig .tc) (h : r ∉ hostOps4_W) : B9 m c r = B8 m c r :=
  StableHlo.after_of_writes_sub hostOps4 _ hostOps4_writes h

/-- After the host stretch before region 5: what the region is entered from. -/
abbrev B11 (c : Dev nD) : Valuation τ sig (Elt F) := StableHlo.after hostOps5 (B10 m c)
/-- The same, read at the TensorCore's references. -/
abbrev E11 : (c : Dev nD) → (b : Ref sig .tc) → Buf (Elt F) ((c : Thread nD τ).loc b) := fun c b => B11 m c b
/-- At region 5's exit: each output array at what the write-backs leave, everything else as entered. -/
def B12 (c : Dev nD) : Valuation τ sig (Elt F) :=
  Function.update (B11 m c) main_v58 ((dat5 (E11 m) c).arrAt 2 cfg5.N)
abbrev E12 : (c : Dev nD) → (b : Ref sig .tc) → Buf (Elt F) ((c : Thread nD τ).loc b) := fun c b => B12 m c b
set_option maxHeartbeats 1000000 in
theorem hF5_0 (c : Dev nD) : (dat5 (E11 m) c).arrAt 0 cfg5.N = E12 m c main_v57 :=
  ((dat5 (E11 m) c).arrAt_in 0 rfl _).trans ((A_eq5 (E11 m) c 0).trans (by
      show B11 m c main_v57 = B12 m c main_v57
      unfold B12; simp only [Function.update_of_ne (StableHlo.devRef_ne_of_ne (by decide) : (Proc.devRef .tc main_v57 : DevRef τ sig) ≠ Proc.devRef .tc main_v58)]))
set_option maxHeartbeats 1000000 in
theorem hF5_1 (c : Dev nD) : (dat5 (E11 m) c).arrAt 1 cfg5.N = E12 m c main_v7 :=
  ((dat5 (E11 m) c).arrAt_in 1 rfl _).trans ((A_eq5 (E11 m) c 1).trans (by
      show B11 m c main_v7 = B12 m c main_v7
      unfold B12; simp only [Function.update_of_ne (StableHlo.devRef_ne_of_ne (by decide) : (Proc.devRef .tc main_v7 : DevRef τ sig) ≠ Proc.devRef .tc main_v58)]))
set_option maxHeartbeats 1000000 in
theorem hF5_2 (c : Dev nD) : (dat5 (E11 m) c).arrAt 2 cfg5.N = E12 m c main_v58 := by
  show (dat5 (E11 m) c).arrAt 2 cfg5.N = B12 m c main_v58
  unfold B12; simp only [Function.update_self]
set_option maxHeartbeats 1000000 in
theorem hF5 (c : Dev nD) : ∀ w : Fin cfg5.W, (dat5 (E11 m) c).arrAt w cfg5.N = E12 m c (Pipeline.arrRef spec5 w)
  | ⟨0, _⟩ => hF5_0 m c
  | ⟨1, _⟩ => hF5_1 m c
  | ⟨2, _⟩ => hF5_2 m c
  | ⟨_ + 3, h⟩ => absurd h (Nat.not_lt.2 (Nat.le_add_left _ _))
theorem hrest5 (c : Dev nD) : ∀ b, b ∉ Finset.univ.image (Pipeline.arrRef spec5) → E12 m c b = E11 m c b := fun b hb => by
  show B12 m c b = B11 m c b
  unfold B12
  simp only [Function.update_of_ne (StableHlo.devRef_ne_of_ne (fun e => hb (Finset.mem_image.mpr ⟨2, Finset.mem_univ _, e.symm⟩)) : (Proc.devRef .tc b : DevRef τ sig) ≠ Proc.devRef .tc main_v58)]
/-- A buffer that is no output of region 5 leaves it as it entered. -/
theorem B12_of (c : Dev nD) (r : Ref sig .tc) (h : r ∉ ([main_v58] : List (Ref sig .tc))) : B12 m c r = B11 m c r := by
  unfold B12
  simp only [Function.update_of_ne (StableHlo.devRef_ne_of_ne (List.ne_of_not_mem_cons (h)) : (Proc.devRef .tc r : DevRef τ sig) ≠ Proc.devRef .tc main_v58)]
/-- A buffer the host stretch before region 5 does not write passes through it. -/
theorem B11_of (c : Dev nD) (r : Ref sig .tc) (h : r ∉ hostOps5_W) : B11 m c r = B10 m c r :=
  StableHlo.after_of_writes_sub hostOps5 _ hostOps5_writes h

/-- After the host stretch before region 6: what the region is entered from. -/
abbrev B13 (c : Dev nD) : Valuation τ sig (Elt F) := StableHlo.after hostOps6 (B12 m c)
/-- The same, read at the TensorCore's references. -/
abbrev E13 : (c : Dev nD) → (b : Ref sig .tc) → Buf (Elt F) ((c : Thread nD τ).loc b) := fun c b => B13 m c b
/-- At region 6's exit: each output array at what the write-backs leave, everything else as entered. -/
def B14 (c : Dev nD) : Valuation τ sig (Elt F) :=
  Function.update (Function.update (Function.update (B13 m c) main_v78_0 ((dat6 (E13 m) c).arrAt 5 cfg6.N)) main_v78_1 ((dat6 (E13 m) c).arrAt 6 cfg6.N)) main_v78_2 ((dat6 (E13 m) c).arrAt 7 cfg6.N)
abbrev E14 : (c : Dev nD) → (b : Ref sig .tc) → Buf (Elt F) ((c : Thread nD τ).loc b) := fun c b => B14 m c b
set_option maxHeartbeats 1000000 in
theorem hF6_0 (c : Dev nD) : (dat6 (E13 m) c).arrAt 0 cfg6.N = E14 m c main_v67 :=
  ((dat6 (E13 m) c).arrAt_in 0 rfl _).trans ((A_eq6 (E13 m) c 0).trans (by
      show B13 m c main_v67 = B14 m c main_v67
      unfold B14; simp only [Function.update_of_ne (StableHlo.devRef_ne_of_ne (by decide) : (Proc.devRef .tc main_v67 : DevRef τ sig) ≠ Proc.devRef .tc main_v78_0), Function.update_of_ne (StableHlo.devRef_ne_of_ne (by decide) : (Proc.devRef .tc main_v67 : DevRef τ sig) ≠ Proc.devRef .tc main_v78_1), Function.update_of_ne (StableHlo.devRef_ne_of_ne (by decide) : (Proc.devRef .tc main_v67 : DevRef τ sig) ≠ Proc.devRef .tc main_v78_2)]))
set_option maxHeartbeats 1000000 in
theorem hF6_1 (c : Dev nD) : (dat6 (E13 m) c).arrAt 1 cfg6.N = E14 m c main_v69 :=
  ((dat6 (E13 m) c).arrAt_in 1 rfl _).trans ((A_eq6 (E13 m) c 1).trans (by
      show B13 m c main_v69 = B14 m c main_v69
      unfold B14; simp only [Function.update_of_ne (StableHlo.devRef_ne_of_ne (by decide) : (Proc.devRef .tc main_v69 : DevRef τ sig) ≠ Proc.devRef .tc main_v78_0), Function.update_of_ne (StableHlo.devRef_ne_of_ne (by decide) : (Proc.devRef .tc main_v69 : DevRef τ sig) ≠ Proc.devRef .tc main_v78_1), Function.update_of_ne (StableHlo.devRef_ne_of_ne (by decide) : (Proc.devRef .tc main_v69 : DevRef τ sig) ≠ Proc.devRef .tc main_v78_2)]))
set_option maxHeartbeats 1000000 in
theorem hF6_2 (c : Dev nD) : (dat6 (E13 m) c).arrAt 2 cfg6.N = E14 m c main_v76 :=
  ((dat6 (E13 m) c).arrAt_in 2 rfl _).trans ((A_eq6 (E13 m) c 2).trans (by
      show B13 m c main_v76 = B14 m c main_v76
      unfold B14; simp only [Function.update_of_ne (StableHlo.devRef_ne_of_ne (by decide) : (Proc.devRef .tc main_v76 : DevRef τ sig) ≠ Proc.devRef .tc main_v78_0), Function.update_of_ne (StableHlo.devRef_ne_of_ne (by decide) : (Proc.devRef .tc main_v76 : DevRef τ sig) ≠ Proc.devRef .tc main_v78_1), Function.update_of_ne (StableHlo.devRef_ne_of_ne (by decide) : (Proc.devRef .tc main_v76 : DevRef τ sig) ≠ Proc.devRef .tc main_v78_2)]))
set_option maxHeartbeats 1000000 in
theorem hF6_3 (c : Dev nD) : (dat6 (E13 m) c).arrAt 3 cfg6.N = E14 m c main_v73 :=
  ((dat6 (E13 m) c).arrAt_in 3 rfl _).trans ((A_eq6 (E13 m) c 3).trans (by
      show B13 m c main_v73 = B14 m c main_v73
      unfold B14; simp only [Function.update_of_ne (StableHlo.devRef_ne_of_ne (by decide) : (Proc.devRef .tc main_v73 : DevRef τ sig) ≠ Proc.devRef .tc main_v78_0), Function.update_of_ne (StableHlo.devRef_ne_of_ne (by decide) : (Proc.devRef .tc main_v73 : DevRef τ sig) ≠ Proc.devRef .tc main_v78_1), Function.update_of_ne (StableHlo.devRef_ne_of_ne (by decide) : (Proc.devRef .tc main_v73 : DevRef τ sig) ≠ Proc.devRef .tc main_v78_2)]))
set_option maxHeartbeats 1000000 in
theorem hF6_4 (c : Dev nD) : (dat6 (E13 m) c).arrAt 4 cfg6.N = E14 m c main_v77 :=
  ((dat6 (E13 m) c).arrAt_in 4 rfl _).trans ((A_eq6 (E13 m) c 4).trans (by
      show B13 m c main_v77 = B14 m c main_v77
      unfold B14; simp only [Function.update_of_ne (StableHlo.devRef_ne_of_ne (by decide) : (Proc.devRef .tc main_v77 : DevRef τ sig) ≠ Proc.devRef .tc main_v78_0), Function.update_of_ne (StableHlo.devRef_ne_of_ne (by decide) : (Proc.devRef .tc main_v77 : DevRef τ sig) ≠ Proc.devRef .tc main_v78_1), Function.update_of_ne (StableHlo.devRef_ne_of_ne (by decide) : (Proc.devRef .tc main_v77 : DevRef τ sig) ≠ Proc.devRef .tc main_v78_2)]))
set_option maxHeartbeats 1000000 in
theorem hF6_5 (c : Dev nD) : (dat6 (E13 m) c).arrAt 5 cfg6.N = E14 m c main_v78_0 := by
  show (dat6 (E13 m) c).arrAt 5 cfg6.N = B14 m c main_v78_0
  unfold B14; simp only [Function.update_of_ne (StableHlo.devRef_ne_of_ne (by decide) : (Proc.devRef .tc main_v78_0 : DevRef τ sig) ≠ Proc.devRef .tc main_v78_1), Function.update_of_ne (StableHlo.devRef_ne_of_ne (by decide) : (Proc.devRef .tc main_v78_0 : DevRef τ sig) ≠ Proc.devRef .tc main_v78_2), Function.update_self]
set_option maxHeartbeats 1000000 in
theorem hF6_6 (c : Dev nD) : (dat6 (E13 m) c).arrAt 6 cfg6.N = E14 m c main_v78_1 := by
  show (dat6 (E13 m) c).arrAt 6 cfg6.N = B14 m c main_v78_1
  unfold B14; simp only [Function.update_of_ne (StableHlo.devRef_ne_of_ne (by decide) : (Proc.devRef .tc main_v78_1 : DevRef τ sig) ≠ Proc.devRef .tc main_v78_2), Function.update_self]
set_option maxHeartbeats 1000000 in
theorem hF6_7 (c : Dev nD) : (dat6 (E13 m) c).arrAt 7 cfg6.N = E14 m c main_v78_2 := by
  show (dat6 (E13 m) c).arrAt 7 cfg6.N = B14 m c main_v78_2
  unfold B14; simp only [Function.update_self]
set_option maxHeartbeats 1000000 in
theorem hF6 (c : Dev nD) : ∀ w : Fin cfg6.W, (dat6 (E13 m) c).arrAt w cfg6.N = E14 m c (Pipeline.arrRef spec6 w)
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
  | ⟨7, _⟩ => hF6_7 m c
  | ⟨_ + 8, h⟩ => absurd h (Nat.not_lt.2 (Nat.le_add_left _ _))
theorem hrest6 (c : Dev nD) : ∀ b, b ∉ Finset.univ.image (Pipeline.arrRef spec6) → E14 m c b = E13 m c b := fun b hb => by
  show B14 m c b = B13 m c b
  unfold B14
  simp only [Function.update_of_ne (StableHlo.devRef_ne_of_ne (fun e => hb (Finset.mem_image.mpr ⟨5, Finset.mem_univ _, e.symm⟩)) : (Proc.devRef .tc b : DevRef τ sig) ≠ Proc.devRef .tc main_v78_0), Function.update_of_ne (StableHlo.devRef_ne_of_ne (fun e => hb (Finset.mem_image.mpr ⟨6, Finset.mem_univ _, e.symm⟩)) : (Proc.devRef .tc b : DevRef τ sig) ≠ Proc.devRef .tc main_v78_1), Function.update_of_ne (StableHlo.devRef_ne_of_ne (fun e => hb (Finset.mem_image.mpr ⟨7, Finset.mem_univ _, e.symm⟩)) : (Proc.devRef .tc b : DevRef τ sig) ≠ Proc.devRef .tc main_v78_2)]
/-- A buffer that is no output of region 6 leaves it as it entered. -/
theorem B14_of (c : Dev nD) (r : Ref sig .tc) (h : r ∉ ([main_v78_0, main_v78_1, main_v78_2] : List (Ref sig .tc))) : B14 m c r = B13 m c r := by
  unfold B14
  simp only [Function.update_of_ne (StableHlo.devRef_ne_of_ne (List.ne_of_not_mem_cons (h)) : (Proc.devRef .tc r : DevRef τ sig) ≠ Proc.devRef .tc main_v78_0), Function.update_of_ne (StableHlo.devRef_ne_of_ne (List.ne_of_not_mem_cons (List.not_mem_of_not_mem_cons (h))) : (Proc.devRef .tc r : DevRef τ sig) ≠ Proc.devRef .tc main_v78_1), Function.update_of_ne (StableHlo.devRef_ne_of_ne (List.ne_of_not_mem_cons (List.not_mem_of_not_mem_cons (List.not_mem_of_not_mem_cons (h)))) : (Proc.devRef .tc r : DevRef τ sig) ≠ Proc.devRef .tc main_v78_2)]
/-- A buffer the host stretch before region 6 does not write passes through it. -/
theorem B13_of (c : Dev nD) (r : Ref sig .tc) (h : r ∉ hostOps6_W) : B13 m c r = B12 m c r :=
  StableHlo.after_of_writes_sub hostOps6 _ hostOps6_writes h

/-- After the host stretch before region 7: what the region is entered from. -/
abbrev B15 (c : Dev nD) : Valuation τ sig (Elt F) := StableHlo.after hostOps7 (B14 m c)
/-- The same, read at the TensorCore's references. -/
abbrev E15 : (c : Dev nD) → (b : Ref sig .tc) → Buf (Elt F) ((c : Thread nD τ).loc b) := fun c b => B15 m c b
/-- At region 7's exit: each output array at what the write-backs leave, everything else as entered. -/
def B16 (c : Dev nD) : Valuation τ sig (Elt F) :=
  Function.update (B15 m c) main_v93 ((dat7 (E15 m) c).arrAt 6 cfg7.N)
abbrev E16 : (c : Dev nD) → (b : Ref sig .tc) → Buf (Elt F) ((c : Thread nD τ).loc b) := fun c b => B16 m c b
set_option maxHeartbeats 1000000 in
theorem hF7_0 (c : Dev nD) : (dat7 (E15 m) c).arrAt 0 cfg7.N = E16 m c main_v78_0 :=
  ((dat7 (E15 m) c).arrAt_in 0 rfl _).trans ((A_eq7 (E15 m) c 0).trans (by
      show B15 m c main_v78_0 = B16 m c main_v78_0
      unfold B16; simp only [Function.update_of_ne (StableHlo.devRef_ne_of_ne (by decide) : (Proc.devRef .tc main_v78_0 : DevRef τ sig) ≠ Proc.devRef .tc main_v93)]))
set_option maxHeartbeats 1000000 in
theorem hF7_1 (c : Dev nD) : (dat7 (E15 m) c).arrAt 1 cfg7.N = E16 m c main_v50 :=
  ((dat7 (E15 m) c).arrAt_in 1 rfl _).trans ((A_eq7 (E15 m) c 1).trans (by
      show B15 m c main_v50 = B16 m c main_v50
      unfold B16; simp only [Function.update_of_ne (StableHlo.devRef_ne_of_ne (by decide) : (Proc.devRef .tc main_v50 : DevRef τ sig) ≠ Proc.devRef .tc main_v93)]))
set_option maxHeartbeats 1000000 in
theorem hF7_2 (c : Dev nD) : (dat7 (E15 m) c).arrAt 2 cfg7.N = E16 m c main_v80 :=
  ((dat7 (E15 m) c).arrAt_in 2 rfl _).trans ((A_eq7 (E15 m) c 2).trans (by
      show B15 m c main_v80 = B16 m c main_v80
      unfold B16; simp only [Function.update_of_ne (StableHlo.devRef_ne_of_ne (by decide) : (Proc.devRef .tc main_v80 : DevRef τ sig) ≠ Proc.devRef .tc main_v93)]))
set_option maxHeartbeats 1000000 in
theorem hF7_3 (c : Dev nD) : (dat7 (E15 m) c).arrAt 3 cfg7.N = E16 m c main_v86 :=
  ((dat7 (E15 m) c).arrAt_in 3 rfl _).trans ((A_eq7 (E15 m) c 3).trans (by
      show B15 m c main_v86 = B16 m c main_v86
      unfold B16; simp only [Function.update_of_ne (StableHlo.devRef_ne_of_ne (by decide) : (Proc.devRef .tc main_v86 : DevRef τ sig) ≠ Proc.devRef .tc main_v93)]))
set_option maxHeartbeats 1000000 in
theorem hF7_4 (c : Dev nD) : (dat7 (E15 m) c).arrAt 4 cfg7.N = E16 m c main_v89 :=
  ((dat7 (E15 m) c).arrAt_in 4 rfl _).trans ((A_eq7 (E15 m) c 4).trans (by
      show B15 m c main_v89 = B16 m c main_v89
      unfold B16; simp only [Function.update_of_ne (StableHlo.devRef_ne_of_ne (by decide) : (Proc.devRef .tc main_v89 : DevRef τ sig) ≠ Proc.devRef .tc main_v93)]))
set_option maxHeartbeats 1000000 in
theorem hF7_5 (c : Dev nD) : (dat7 (E15 m) c).arrAt 5 cfg7.N = E16 m c main_v92 :=
  ((dat7 (E15 m) c).arrAt_in 5 rfl _).trans ((A_eq7 (E15 m) c 5).trans (by
      show B15 m c main_v92 = B16 m c main_v92
      unfold B16; simp only [Function.update_of_ne (StableHlo.devRef_ne_of_ne (by decide) : (Proc.devRef .tc main_v92 : DevRef τ sig) ≠ Proc.devRef .tc main_v93)]))
set_option maxHeartbeats 1000000 in
theorem hF7_6 (c : Dev nD) : (dat7 (E15 m) c).arrAt 6 cfg7.N = E16 m c main_v93 := by
  show (dat7 (E15 m) c).arrAt 6 cfg7.N = B16 m c main_v93
  unfold B16; simp only [Function.update_self]
set_option maxHeartbeats 1000000 in
theorem hF7 (c : Dev nD) : ∀ w : Fin cfg7.W, (dat7 (E15 m) c).arrAt w cfg7.N = E16 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c
  | ⟨_ + 7, h⟩ => absurd h (Nat.not_lt.2 (Nat.le_add_left _ _))
theorem hrest7 (c : Dev nD) : ∀ b, b ∉ Finset.univ.image (Pipeline.arrRef spec7) → E16 m c b = E15 m c b := fun b hb => by
  show B16 m c b = B15 m c b
  unfold B16
  simp only [Function.update_of_ne (StableHlo.devRef_ne_of_ne (fun e => hb (Finset.mem_image.mpr ⟨6, Finset.mem_univ _, e.symm⟩)) : (Proc.devRef .tc b : DevRef τ sig) ≠ Proc.devRef .tc main_v93)]
/-- A buffer that is no output of region 7 leaves it as it entered. -/
theorem B16_of (c : Dev nD) (r : Ref sig .tc) (h : r ∉ ([main_v93] : List (Ref sig .tc))) : B16 m c r = B15 m c r := by
  unfold B16
  simp only [Function.update_of_ne (StableHlo.devRef_ne_of_ne (List.ne_of_not_mem_cons (h)) : (Proc.devRef .tc r : DevRef τ sig) ≠ Proc.devRef .tc main_v93)]
/-- A buffer the host stretch before region 7 does not write passes through it. -/
theorem B15_of (c : Dev nD) (r : Ref sig .tc) (h : r ∉ hostOps7_W) : B15 m c r = B14 m c r :=
  StableHlo.after_of_writes_sub hostOps7 _ hostOps7_writes h

/-- After the host stretch before region 8: what the region is entered from. -/
abbrev B17 (c : Dev nD) : Valuation τ sig (Elt F) := StableHlo.after hostOps8 (B16 m c)
/-- The same, read at the TensorCore's references. -/
abbrev E17 : (c : Dev nD) → (b : Ref sig .tc) → Buf (Elt F) ((c : Thread nD τ).loc b) := fun c b => B17 m c b
/-- At region 8's exit: each output array at what the write-backs leave, everything else as entered. -/
def B18 (c : Dev nD) : Valuation τ sig (Elt F) :=
  Function.update (B17 m c) main_v101 ((dat8 (E17 m) c).arrAt 2 cfg8.N)
abbrev E18 : (c : Dev nD) → (b : Ref sig .tc) → Buf (Elt F) ((c : Thread nD τ).loc b) := fun c b => B18 m c b
set_option maxHeartbeats 1000000 in
theorem hF8_0 (c : Dev nD) : (dat8 (E17 m) c).arrAt 0 cfg8.N = E18 m c main_v100 :=
  ((dat8 (E17 m) c).arrAt_in 0 rfl _).trans ((A_eq8 (E17 m) c 0).trans (by
      show B17 m c main_v100 = B18 m c main_v100
      unfold B18; simp only [Function.update_of_ne (StableHlo.devRef_ne_of_ne (by decide) : (Proc.devRef .tc main_v100 : DevRef τ sig) ≠ Proc.devRef .tc main_v101)]))
set_option maxHeartbeats 1000000 in
theorem hF8_1 (c : Dev nD) : (dat8 (E17 m) c).arrAt 1 cfg8.N = E18 m c main_v7 :=
  ((dat8 (E17 m) c).arrAt_in 1 rfl _).trans ((A_eq8 (E17 m) c 1).trans (by
      show B17 m c main_v7 = B18 m c main_v7
      unfold B18; simp only [Function.update_of_ne (StableHlo.devRef_ne_of_ne (by decide) : (Proc.devRef .tc main_v7 : DevRef τ sig) ≠ Proc.devRef .tc main_v101)]))
set_option maxHeartbeats 1000000 in
theorem hF8_2 (c : Dev nD) : (dat8 (E17 m) c).arrAt 2 cfg8.N = E18 m c main_v101 := by
  show (dat8 (E17 m) c).arrAt 2 cfg8.N = B18 m c main_v101
  unfold B18; simp only [Function.update_self]
set_option maxHeartbeats 1000000 in
theorem hF8 (c : Dev nD) : ∀ w : Fin cfg8.W, (dat8 (E17 m) c).arrAt w cfg8.N = E18 m c (Pipeline.arrRef spec8 w)
  | ⟨0, _⟩ => hF8_0 m c
  | ⟨1, _⟩ => hF8_1 m c
  | ⟨2, _⟩ => hF8_2 m c
  | ⟨_ + 3, h⟩ => absurd h (Nat.not_lt.2 (Nat.le_add_left _ _))
theorem hrest8 (c : Dev nD) : ∀ b, b ∉ Finset.univ.image (Pipeline.arrRef spec8) → E18 m c b = E17 m c b := fun b hb => by
  show B18 m c b = B17 m c b
  unfold B18
  simp only [Function.update_of_ne (StableHlo.devRef_ne_of_ne (fun e => hb (Finset.mem_image.mpr ⟨2, Finset.mem_univ _, e.symm⟩)) : (Proc.devRef .tc b : DevRef τ sig) ≠ Proc.devRef .tc main_v101)]
/-- A buffer that is no output of region 8 leaves it as it entered. -/
theorem B18_of (c : Dev nD) (r : Ref sig .tc) (h : r ∉ ([main_v101] : List (Ref sig .tc))) : B18 m c r = B17 m c r := by
  unfold B18
  simp only [Function.update_of_ne (StableHlo.devRef_ne_of_ne (List.ne_of_not_mem_cons (h)) : (Proc.devRef .tc r : DevRef τ sig) ≠ Proc.devRef .tc main_v101)]
/-- A buffer the host stretch before region 8 does not write passes through it. -/
theorem B17_of (c : Dev nD) (r : Ref sig .tc) (h : r ∉ hostOps8_W) : B17 m c r = B16 m c r :=
  StableHlo.after_of_writes_sub hostOps8 _ hostOps8_writes h

/-- After the host stretch before region 9: what the region is entered from. -/
abbrev B19 (c : Dev nD) : Valuation τ sig (Elt F) := StableHlo.after hostOps9 (B18 m c)
/-- The same, read at the TensorCore's references. -/
abbrev E19 : (c : Dev nD) → (b : Ref sig .tc) → Buf (Elt F) ((c : Thread nD τ).loc b) := fun c b => B19 m c b
/-- At region 9's exit: each output array at what the write-backs leave, everything else as entered. -/
def B20 (c : Dev nD) : Valuation τ sig (Elt F) :=
  Function.update (Function.update (Function.update (B19 m c) main_v121_0 ((dat9 (E19 m) c).arrAt 5 cfg9.N)) main_v121_1 ((dat9 (E19 m) c).arrAt 6 cfg9.N)) main_v121_2 ((dat9 (E19 m) c).arrAt 7 cfg9.N)
abbrev E20 : (c : Dev nD) → (b : Ref sig .tc) → Buf (Elt F) ((c : Thread nD τ).loc b) := fun c b => B20 m c b
set_option maxHeartbeats 1000000 in
theorem hF9_0 (c : Dev nD) : (dat9 (E19 m) c).arrAt 0 cfg9.N = E20 m c main_v110 :=
  ((dat9 (E19 m) c).arrAt_in 0 rfl _).trans ((A_eq9 (E19 m) c 0).trans (by
      show B19 m c main_v110 = B20 m c main_v110
      unfold B20; simp only [Function.update_of_ne (StableHlo.devRef_ne_of_ne (by decide) : (Proc.devRef .tc main_v110 : DevRef τ sig) ≠ Proc.devRef .tc main_v121_0), Function.update_of_ne (StableHlo.devRef_ne_of_ne (by decide) : (Proc.devRef .tc main_v110 : DevRef τ sig) ≠ Proc.devRef .tc main_v121_1), Function.update_of_ne (StableHlo.devRef_ne_of_ne (by decide) : (Proc.devRef .tc main_v110 : DevRef τ sig) ≠ Proc.devRef .tc main_v121_2)]))
set_option maxHeartbeats 1000000 in
theorem hF9_1 (c : Dev nD) : (dat9 (E19 m) c).arrAt 1 cfg9.N = E20 m c main_v112 :=
  ((dat9 (E19 m) c).arrAt_in 1 rfl _).trans ((A_eq9 (E19 m) c 1).trans (by
      show B19 m c main_v112 = B20 m c main_v112
      unfold B20; simp only [Function.update_of_ne (StableHlo.devRef_ne_of_ne (by decide) : (Proc.devRef .tc main_v112 : DevRef τ sig) ≠ Proc.devRef .tc main_v121_0), Function.update_of_ne (StableHlo.devRef_ne_of_ne (by decide) : (Proc.devRef .tc main_v112 : DevRef τ sig) ≠ Proc.devRef .tc main_v121_1), Function.update_of_ne (StableHlo.devRef_ne_of_ne (by decide) : (Proc.devRef .tc main_v112 : DevRef τ sig) ≠ Proc.devRef .tc main_v121_2)]))
set_option maxHeartbeats 1000000 in
theorem hF9_2 (c : Dev nD) : (dat9 (E19 m) c).arrAt 2 cfg9.N = E20 m c main_v119 :=
  ((dat9 (E19 m) c).arrAt_in 2 rfl _).trans ((A_eq9 (E19 m) c 2).trans (by
      show B19 m c main_v119 = B20 m c main_v119
      unfold B20; simp only [Function.update_of_ne (StableHlo.devRef_ne_of_ne (by decide) : (Proc.devRef .tc main_v119 : DevRef τ sig) ≠ Proc.devRef .tc main_v121_0), Function.update_of_ne (StableHlo.devRef_ne_of_ne (by decide) : (Proc.devRef .tc main_v119 : DevRef τ sig) ≠ Proc.devRef .tc main_v121_1), Function.update_of_ne (StableHlo.devRef_ne_of_ne (by decide) : (Proc.devRef .tc main_v119 : DevRef τ sig) ≠ Proc.devRef .tc main_v121_2)]))
set_option maxHeartbeats 1000000 in
theorem hF9_3 (c : Dev nD) : (dat9 (E19 m) c).arrAt 3 cfg9.N = E20 m c main_v116 :=
  ((dat9 (E19 m) c).arrAt_in 3 rfl _).trans ((A_eq9 (E19 m) c 3).trans (by
      show B19 m c main_v116 = B20 m c main_v116
      unfold B20; simp only [Function.update_of_ne (StableHlo.devRef_ne_of_ne (by decide) : (Proc.devRef .tc main_v116 : DevRef τ sig) ≠ Proc.devRef .tc main_v121_0), Function.update_of_ne (StableHlo.devRef_ne_of_ne (by decide) : (Proc.devRef .tc main_v116 : DevRef τ sig) ≠ Proc.devRef .tc main_v121_1), Function.update_of_ne (StableHlo.devRef_ne_of_ne (by decide) : (Proc.devRef .tc main_v116 : DevRef τ sig) ≠ Proc.devRef .tc main_v121_2)]))
set_option maxHeartbeats 1000000 in
theorem hF9_4 (c : Dev nD) : (dat9 (E19 m) c).arrAt 4 cfg9.N = E20 m c main_v120 :=
  ((dat9 (E19 m) c).arrAt_in 4 rfl _).trans ((A_eq9 (E19 m) c 4).trans (by
      show B19 m c main_v120 = B20 m c main_v120
      unfold B20; simp only [Function.update_of_ne (StableHlo.devRef_ne_of_ne (by decide) : (Proc.devRef .tc main_v120 : DevRef τ sig) ≠ Proc.devRef .tc main_v121_0), Function.update_of_ne (StableHlo.devRef_ne_of_ne (by decide) : (Proc.devRef .tc main_v120 : DevRef τ sig) ≠ Proc.devRef .tc main_v121_1), Function.update_of_ne (StableHlo.devRef_ne_of_ne (by decide) : (Proc.devRef .tc main_v120 : DevRef τ sig) ≠ Proc.devRef .tc main_v121_2)]))
set_option maxHeartbeats 1000000 in
theorem hF9_5 (c : Dev nD) : (dat9 (E19 m) c).arrAt 5 cfg9.N = E20 m c main_v121_0 := by
  show (dat9 (E19 m) c).arrAt 5 cfg9.N = B20 m c main_v121_0
  unfold B20; simp only [Function.update_of_ne (StableHlo.devRef_ne_of_ne (by decide) : (Proc.devRef .tc main_v121_0 : DevRef τ sig) ≠ Proc.devRef .tc main_v121_1), Function.update_of_ne (StableHlo.devRef_ne_of_ne (by decide) : (Proc.devRef .tc main_v121_0 : DevRef τ sig) ≠ Proc.devRef .tc main_v121_2), Function.update_self]
set_option maxHeartbeats 1000000 in
theorem hF9_6 (c : Dev nD) : (dat9 (E19 m) c).arrAt 6 cfg9.N = E20 m c main_v121_1 := by
  show (dat9 (E19 m) c).arrAt 6 cfg9.N = B20 m c main_v121_1
  unfold B20; simp only [Function.update_of_ne (StableHlo.devRef_ne_of_ne (by decide) : (Proc.devRef .tc main_v121_1 : DevRef τ sig) ≠ Proc.devRef .tc main_v121_2), Function.update_self]
set_option maxHeartbeats 1000000 in
theorem hF9_7 (c : Dev nD) : (dat9 (E19 m) c).arrAt 7 cfg9.N = E20 m c main_v121_2 := by
  show (dat9 (E19 m) c).arrAt 7 cfg9.N = B20 m c main_v121_2
  unfold B20; simp only [Function.update_self]
set_option maxHeartbeats 1000000 in
theorem hF9 (c : Dev nD) : ∀ w : Fin cfg9.W, (dat9 (E19 m) c).arrAt w cfg9.N = E20 m c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨5, _⟩ => hF9_5 m c
  | ⟨6, _⟩ => hF9_6 m c
  | ⟨7, _⟩ => hF9_7 m c
  | ⟨_ + 8, h⟩ => absurd h (Nat.not_lt.2 (Nat.le_add_left _ _))
theorem hrest9 (c : Dev nD) : ∀ b, b ∉ Finset.univ.image (Pipeline.arrRef spec9) → E20 m c b = E19 m c b := fun b hb => by
  show B20 m c b = B19 m c b
  unfold B20
  simp only [Function.update_of_ne (StableHlo.devRef_ne_of_ne (fun e => hb (Finset.mem_image.mpr ⟨5, Finset.mem_univ _, e.symm⟩)) : (Proc.devRef .tc b : DevRef τ sig) ≠ Proc.devRef .tc main_v121_0), Function.update_of_ne (StableHlo.devRef_ne_of_ne (fun e => hb (Finset.mem_image.mpr ⟨6, Finset.mem_univ _, e.symm⟩)) : (Proc.devRef .tc b : DevRef τ sig) ≠ Proc.devRef .tc main_v121_1), Function.update_of_ne (StableHlo.devRef_ne_of_ne (fun e => hb (Finset.mem_image.mpr ⟨7, Finset.mem_univ _, e.symm⟩)) : (Proc.devRef .tc b : DevRef τ sig) ≠ Proc.devRef .tc main_v121_2)]
/-- A buffer that is no output of region 9 leaves it as it entered. -/
theorem B20_of (c : Dev nD) (r : Ref sig .tc) (h : r ∉ ([main_v121_0, main_v121_1, main_v121_2] : List (Ref sig .tc))) : B20 m c r = B19 m c r := by
  unfold B20
  simp only [Function.update_of_ne (StableHlo.devRef_ne_of_ne (List.ne_of_not_mem_cons (h)) : (Proc.devRef .tc r : DevRef τ sig) ≠ Proc.devRef .tc main_v121_0), Function.update_of_ne (StableHlo.devRef_ne_of_ne (List.ne_of_not_mem_cons (List.not_mem_of_not_mem_cons (h))) : (Proc.devRef .tc r : DevRef τ sig) ≠ Proc.devRef .tc main_v121_1), Function.update_of_ne (StableHlo.devRef_ne_of_ne (List.ne_of_not_mem_cons (List.not_mem_of_not_mem_cons (List.not_mem_of_not_mem_cons (h)))) : (Proc.devRef .tc r : DevRef τ sig) ≠ Proc.devRef .tc main_v121_2)]
/-- A buffer the host stretch before region 9 does not write passes through it. -/
theorem B19_of (c : Dev nD) (r : Ref sig .tc) (h : r ∉ hostOps9_W) : B19 m c r = B18 m c r :=
  StableHlo.after_of_writes_sub hostOps9 _ hostOps9_writes h

/-- After the host stretch before region 10: what the region is entered from. -/
abbrev B21 (c : Dev nD) : Valuation τ sig (Elt F) := StableHlo.after hostOps10 (B20 m c)
/-- The same, read at the TensorCore's references. -/
abbrev E21 : (c : Dev nD) → (b : Ref sig .tc) → Buf (Elt F) ((c : Thread nD τ).loc b) := fun c b => B21 m c b
/-- At region 10's exit: each output array at what the write-backs leave, everything else as entered. -/
def B22 (c : Dev nD) : Valuation τ sig (Elt F) :=
  Function.update (B21 m c) main_v136 ((dat10 (E21 m) c).arrAt 6 cfg10.N)
abbrev E22 : (c : Dev nD) → (b : Ref sig .tc) → Buf (Elt F) ((c : Thread nD τ).loc b) := fun c b => B22 m c b
set_option maxHeartbeats 1000000 in
theorem hF10_0 (c : Dev nD) : (dat10 (E21 m) c).arrAt 0 cfg10.N = E22 m c main_v121_0 :=
  ((dat10 (E21 m) c).arrAt_in 0 rfl _).trans ((A_eq10 (E21 m) c 0).trans (by
      show B21 m c main_v121_0 = B22 m c main_v121_0
      unfold B22; simp only [Function.update_of_ne (StableHlo.devRef_ne_of_ne (by decide) : (Proc.devRef .tc main_v121_0 : DevRef τ sig) ≠ Proc.devRef .tc main_v136)]))
set_option maxHeartbeats 1000000 in
theorem hF10_1 (c : Dev nD) : (dat10 (E21 m) c).arrAt 1 cfg10.N = E22 m c main_v93 :=
  ((dat10 (E21 m) c).arrAt_in 1 rfl _).trans ((A_eq10 (E21 m) c 1).trans (by
      show B21 m c main_v93 = B22 m c main_v93
      unfold B22; simp only [Function.update_of_ne (StableHlo.devRef_ne_of_ne (by decide) : (Proc.devRef .tc main_v93 : DevRef τ sig) ≠ Proc.devRef .tc main_v136)]))
set_option maxHeartbeats 1000000 in
theorem hF10_2 (c : Dev nD) : (dat10 (E21 m) c).arrAt 2 cfg10.N = E22 m c main_v123 :=
  ((dat10 (E21 m) c).arrAt_in 2 rfl _).trans ((A_eq10 (E21 m) c 2).trans (by
      show B21 m c main_v123 = B22 m c main_v123
      unfold B22; simp only [Function.update_of_ne (StableHlo.devRef_ne_of_ne (by decide) : (Proc.devRef .tc main_v123 : DevRef τ sig) ≠ Proc.devRef .tc main_v136)]))
set_option maxHeartbeats 1000000 in
theorem hF10_3 (c : Dev nD) : (dat10 (E21 m) c).arrAt 3 cfg10.N = E22 m c main_v129 :=
  ((dat10 (E21 m) c).arrAt_in 3 rfl _).trans ((A_eq10 (E21 m) c 3).trans (by
      show B21 m c main_v129 = B22 m c main_v129
      unfold B22; simp only [Function.update_of_ne (StableHlo.devRef_ne_of_ne (by decide) : (Proc.devRef .tc main_v129 : DevRef τ sig) ≠ Proc.devRef .tc main_v136)]))
set_option maxHeartbeats 1000000 in
theorem hF10_4 (c : Dev nD) : (dat10 (E21 m) c).arrAt 4 cfg10.N = E22 m c main_v132 :=
  ((dat10 (E21 m) c).arrAt_in 4 rfl _).trans ((A_eq10 (E21 m) c 4).trans (by
      show B21 m c main_v132 = B22 m c main_v132
      unfold B22; simp only [Function.update_of_ne (StableHlo.devRef_ne_of_ne (by decide) : (Proc.devRef .tc main_v132 : DevRef τ sig) ≠ Proc.devRef .tc main_v136)]))
set_option maxHeartbeats 1000000 in
theorem hF10_5 (c : Dev nD) : (dat10 (E21 m) c).arrAt 5 cfg10.N = E22 m c main_v135 :=
  ((dat10 (E21 m) c).arrAt_in 5 rfl _).trans ((A_eq10 (E21 m) c 5).trans (by
      show B21 m c main_v135 = B22 m c main_v135
      unfold B22; simp only [Function.update_of_ne (StableHlo.devRef_ne_of_ne (by decide) : (Proc.devRef .tc main_v135 : DevRef τ sig) ≠ Proc.devRef .tc main_v136)]))
set_option maxHeartbeats 1000000 in
theorem hF10_6 (c : Dev nD) : (dat10 (E21 m) c).arrAt 6 cfg10.N = E22 m c main_v136 := by
  show (dat10 (E21 m) c).arrAt 6 cfg10.N = B22 m c main_v136
  unfold B22; simp only [Function.update_self]
set_option maxHeartbeats 1000000 in
theorem hF10 (c : Dev nD) : ∀ w : Fin cfg10.W, (dat10 (E21 m) c).arrAt w cfg10.N = E22 m c (Pipeline.arrRef spec10 w)
  | ⟨0, _⟩ => hF10_0 m c
  | ⟨1, _⟩ => hF10_1 m c
  | ⟨2, _⟩ => hF10_2 m c
  | ⟨3, _⟩ => hF10_3 m c
  | ⟨4, _⟩ => hF10_4 m c
  | ⟨5, _⟩ => hF10_5 m c
  | ⟨6, _⟩ => hF10_6 m c
  | ⟨_ + 7, h⟩ => absurd h (Nat.not_lt.2 (Nat.le_add_left _ _))
theorem hrest10 (c : Dev nD) : ∀ b, b ∉ Finset.univ.image (Pipeline.arrRef spec10) → E22 m c b = E21 m c b := fun b hb => by
  show B22 m c b = B21 m c b
  unfold B22
  simp only [Function.update_of_ne (StableHlo.devRef_ne_of_ne (fun e => hb (Finset.mem_image.mpr ⟨6, Finset.mem_univ _, e.symm⟩)) : (Proc.devRef .tc b : DevRef τ sig) ≠ Proc.devRef .tc main_v136)]
/-- A buffer that is no output of region 10 leaves it as it entered. -/
theorem B22_of (c : Dev nD) (r : Ref sig .tc) (h : r ∉ ([main_v136] : List (Ref sig .tc))) : B22 m c r = B21 m c r := by
  unfold B22
  simp only [Function.update_of_ne (StableHlo.devRef_ne_of_ne (List.ne_of_not_mem_cons (h)) : (Proc.devRef .tc r : DevRef τ sig) ≠ Proc.devRef .tc main_v136)]
/-- A buffer the host stretch before region 10 does not write passes through it. -/
theorem B21_of (c : Dev nD) (r : Ref sig .tc) (h : r ∉ hostOps10_W) : B21 m c r = B20 m c r :=
  StableHlo.after_of_writes_sub hostOps10 _ hostOps10_writes h

/-- After the host stretch before region 11: what the region is entered from. -/
abbrev B23 (c : Dev nD) : Valuation τ sig (Elt F) := StableHlo.after hostOps11 (B22 m c)
/-- The same, read at the TensorCore's references. -/
abbrev E23 : (c : Dev nD) → (b : Ref sig .tc) → Buf (Elt F) ((c : Thread nD τ).loc b) := fun c b => B23 m c b
/-- At region 11's exit: each output array at what the write-backs leave, everything else as entered. -/
def B24 (c : Dev nD) : Valuation τ sig (Elt F) :=
  Function.update (B23 m c) main_v144 ((dat11 (E23 m) c).arrAt 2 cfg11.N)
abbrev E24 : (c : Dev nD) → (b : Ref sig .tc) → Buf (Elt F) ((c : Thread nD τ).loc b) := fun c b => B24 m c b
set_option maxHeartbeats 1000000 in
theorem hF11_0 (c : Dev nD) : (dat11 (E23 m) c).arrAt 0 cfg11.N = E24 m c main_v143 :=
  ((dat11 (E23 m) c).arrAt_in 0 rfl _).trans ((A_eq11 (E23 m) c 0).trans (by
      show B23 m c main_v143 = B24 m c main_v143
      unfold B24; simp only [Function.update_of_ne (StableHlo.devRef_ne_of_ne (by decide) : (Proc.devRef .tc main_v143 : DevRef τ sig) ≠ Proc.devRef .tc main_v144)]))
set_option maxHeartbeats 1000000 in
theorem hF11_1 (c : Dev nD) : (dat11 (E23 m) c).arrAt 1 cfg11.N = E24 m c main_v7 :=
  ((dat11 (E23 m) c).arrAt_in 1 rfl _).trans ((A_eq11 (E23 m) c 1).trans (by
      show B23 m c main_v7 = B24 m c main_v7
      unfold B24; simp only [Function.update_of_ne (StableHlo.devRef_ne_of_ne (by decide) : (Proc.devRef .tc main_v7 : DevRef τ sig) ≠ Proc.devRef .tc main_v144)]))
set_option maxHeartbeats 1000000 in
theorem hF11_2 (c : Dev nD) : (dat11 (E23 m) c).arrAt 2 cfg11.N = E24 m c main_v144 := by
  show (dat11 (E23 m) c).arrAt 2 cfg11.N = B24 m c main_v144
  unfold B24; simp only [Function.update_self]
set_option maxHeartbeats 1000000 in
theorem hF11 (c : Dev nD) : ∀ w : Fin cfg11.W, (dat11 (E23 m) c).arrAt w cfg11.N = E24 m c (Pipeline.arrRef spec11 w)
  | ⟨0, _⟩ => hF11_0 m c
  | ⟨1, _⟩ => hF11_1 m c
  | ⟨2, _⟩ => hF11_2 m c
  | ⟨_ + 3, h⟩ => absurd h (Nat.not_lt.2 (Nat.le_add_left _ _))
theorem hrest11 (c : Dev nD) : ∀ b, b ∉ Finset.univ.image (Pipeline.arrRef spec11) → E24 m c b = E23 m c b := fun b hb => by
  show B24 m c b = B23 m c b
  unfold B24
  simp only [Function.update_of_ne (StableHlo.devRef_ne_of_ne (fun e => hb (Finset.mem_image.mpr ⟨2, Finset.mem_univ _, e.symm⟩)) : (Proc.devRef .tc b : DevRef τ sig) ≠ Proc.devRef .tc main_v144)]
/-- A buffer that is no output of region 11 leaves it as it entered. -/
theorem B24_of (c : Dev nD) (r : Ref sig .tc) (h : r ∉ ([main_v144] : List (Ref sig .tc))) : B24 m c r = B23 m c r := by
  unfold B24
  simp only [Function.update_of_ne (StableHlo.devRef_ne_of_ne (List.ne_of_not_mem_cons (h)) : (Proc.devRef .tc r : DevRef τ sig) ≠ Proc.devRef .tc main_v144)]
/-- A buffer the host stretch before region 11 does not write passes through it. -/
theorem B23_of (c : Dev nD) (r : Ref sig .tc) (h : r ∉ hostOps11_W) : B23 m c r = B22 m c r :=
  StableHlo.after_of_writes_sub hostOps11 _ hostOps11_writes h

/-- After the host stretch before region 12: what the region is entered from. -/
abbrev B25 (c : Dev nD) : Valuation τ sig (Elt F) := StableHlo.after hostOps12 (B24 m c)
/-- The same, read at the TensorCore's references. -/
abbrev E25 : (c : Dev nD) → (b : Ref sig .tc) → Buf (Elt F) ((c : Thread nD τ).loc b) := fun c b => B25 m c b
/-- At region 12's exit: each output array at what the write-backs leave, everything else as entered. -/
def B26 (c : Dev nD) : Valuation τ sig (Elt F) :=
  Function.update (Function.update (Function.update (B25 m c) main_v164_0 ((dat12 (E25 m) c).arrAt 5 cfg12.N)) main_v164_1 ((dat12 (E25 m) c).arrAt 6 cfg12.N)) main_v164_2 ((dat12 (E25 m) c).arrAt 7 cfg12.N)
abbrev E26 : (c : Dev nD) → (b : Ref sig .tc) → Buf (Elt F) ((c : Thread nD τ).loc b) := fun c b => B26 m c b
set_option maxHeartbeats 1000000 in
theorem hF12_0 (c : Dev nD) : (dat12 (E25 m) c).arrAt 0 cfg12.N = E26 m c main_v153 :=
  ((dat12 (E25 m) c).arrAt_in 0 rfl _).trans ((A_eq12 (E25 m) c 0).trans (by
      show B25 m c main_v153 = B26 m c main_v153
      unfold B26; simp only [Function.update_of_ne (StableHlo.devRef_ne_of_ne (by decide) : (Proc.devRef .tc main_v153 : DevRef τ sig) ≠ Proc.devRef .tc main_v164_0), Function.update_of_ne (StableHlo.devRef_ne_of_ne (by decide) : (Proc.devRef .tc main_v153 : DevRef τ sig) ≠ Proc.devRef .tc main_v164_1), Function.update_of_ne (StableHlo.devRef_ne_of_ne (by decide) : (Proc.devRef .tc main_v153 : DevRef τ sig) ≠ Proc.devRef .tc main_v164_2)]))
set_option maxHeartbeats 1000000 in
theorem hF12_1 (c : Dev nD) : (dat12 (E25 m) c).arrAt 1 cfg12.N = E26 m c main_v155 :=
  ((dat12 (E25 m) c).arrAt_in 1 rfl _).trans ((A_eq12 (E25 m) c 1).trans (by
      show B25 m c main_v155 = B26 m c main_v155
      unfold B26; simp only [Function.update_of_ne (StableHlo.devRef_ne_of_ne (by decide) : (Proc.devRef .tc main_v155 : DevRef τ sig) ≠ Proc.devRef .tc main_v164_0), Function.update_of_ne (StableHlo.devRef_ne_of_ne (by decide) : (Proc.devRef .tc main_v155 : DevRef τ sig) ≠ Proc.devRef .tc main_v164_1), Function.update_of_ne (StableHlo.devRef_ne_of_ne (by decide) : (Proc.devRef .tc main_v155 : DevRef τ sig) ≠ Proc.devRef .tc main_v164_2)]))
set_option maxHeartbeats 1000000 in
theorem hF12_2 (c : Dev nD) : (dat12 (E25 m) c).arrAt 2 cfg12.N = E26 m c main_v162 :=
  ((dat12 (E25 m) c).arrAt_in 2 rfl _).trans ((A_eq12 (E25 m) c 2).trans (by
      show B25 m c main_v162 = B26 m c main_v162
      unfold B26; simp only [Function.update_of_ne (StableHlo.devRef_ne_of_ne (by decide) : (Proc.devRef .tc main_v162 : DevRef τ sig) ≠ Proc.devRef .tc main_v164_0), Function.update_of_ne (StableHlo.devRef_ne_of_ne (by decide) : (Proc.devRef .tc main_v162 : DevRef τ sig) ≠ Proc.devRef .tc main_v164_1), Function.update_of_ne (StableHlo.devRef_ne_of_ne (by decide) : (Proc.devRef .tc main_v162 : DevRef τ sig) ≠ Proc.devRef .tc main_v164_2)]))
set_option maxHeartbeats 1000000 in
theorem hF12_3 (c : Dev nD) : (dat12 (E25 m) c).arrAt 3 cfg12.N = E26 m c main_v159 :=
  ((dat12 (E25 m) c).arrAt_in 3 rfl _).trans ((A_eq12 (E25 m) c 3).trans (by
      show B25 m c main_v159 = B26 m c main_v159
      unfold B26; simp only [Function.update_of_ne (StableHlo.devRef_ne_of_ne (by decide) : (Proc.devRef .tc main_v159 : DevRef τ sig) ≠ Proc.devRef .tc main_v164_0), Function.update_of_ne (StableHlo.devRef_ne_of_ne (by decide) : (Proc.devRef .tc main_v159 : DevRef τ sig) ≠ Proc.devRef .tc main_v164_1), Function.update_of_ne (StableHlo.devRef_ne_of_ne (by decide) : (Proc.devRef .tc main_v159 : DevRef τ sig) ≠ Proc.devRef .tc main_v164_2)]))
set_option maxHeartbeats 1000000 in
theorem hF12_4 (c : Dev nD) : (dat12 (E25 m) c).arrAt 4 cfg12.N = E26 m c main_v163 :=
  ((dat12 (E25 m) c).arrAt_in 4 rfl _).trans ((A_eq12 (E25 m) c 4).trans (by
      show B25 m c main_v163 = B26 m c main_v163
      unfold B26; simp only [Function.update_of_ne (StableHlo.devRef_ne_of_ne (by decide) : (Proc.devRef .tc main_v163 : DevRef τ sig) ≠ Proc.devRef .tc main_v164_0), Function.update_of_ne (StableHlo.devRef_ne_of_ne (by decide) : (Proc.devRef .tc main_v163 : DevRef τ sig) ≠ Proc.devRef .tc main_v164_1), Function.update_of_ne (StableHlo.devRef_ne_of_ne (by decide) : (Proc.devRef .tc main_v163 : DevRef τ sig) ≠ Proc.devRef .tc main_v164_2)]))
set_option maxHeartbeats 1000000 in
theorem hF12_5 (c : Dev nD) : (dat12 (E25 m) c).arrAt 5 cfg12.N = E26 m c main_v164_0 := by
  show (dat12 (E25 m) c).arrAt 5 cfg12.N = B26 m c main_v164_0
  unfold B26; simp only [Function.update_of_ne (StableHlo.devRef_ne_of_ne (by decide) : (Proc.devRef .tc main_v164_0 : DevRef τ sig) ≠ Proc.devRef .tc main_v164_1), Function.update_of_ne (StableHlo.devRef_ne_of_ne (by decide) : (Proc.devRef .tc main_v164_0 : DevRef τ sig) ≠ Proc.devRef .tc main_v164_2), Function.update_self]
set_option maxHeartbeats 1000000 in
theorem hF12_6 (c : Dev nD) : (dat12 (E25 m) c).arrAt 6 cfg12.N = E26 m c main_v164_1 := by
  show (dat12 (E25 m) c).arrAt 6 cfg12.N = B26 m c main_v164_1
  unfold B26; simp only [Function.update_of_ne (StableHlo.devRef_ne_of_ne (by decide) : (Proc.devRef .tc main_v164_1 : DevRef τ sig) ≠ Proc.devRef .tc main_v164_2), Function.update_self]
set_option maxHeartbeats 1000000 in
theorem hF12_7 (c : Dev nD) : (dat12 (E25 m) c).arrAt 7 cfg12.N = E26 m c main_v164_2 := by
  show (dat12 (E25 m) c).arrAt 7 cfg12.N = B26 m c main_v164_2
  unfold B26; simp only [Function.update_self]
set_option maxHeartbeats 1000000 in
theorem hF12 (c : Dev nD) : ∀ w : Fin cfg12.W, (dat12 (E25 m) c).arrAt w cfg12.N = E26 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨5, _⟩ => hF12_5 m c
  | ⟨6, _⟩ => hF12_6 m c
  | ⟨7, _⟩ => hF12_7 m c
  | ⟨_ + 8, h⟩ => absurd h (Nat.not_lt.2 (Nat.le_add_left _ _))
theorem hrest12 (c : Dev nD) : ∀ b, b ∉ Finset.univ.image (Pipeline.arrRef spec12) → E26 m c b = E25 m c b := fun b hb => by
  show B26 m c b = B25 m c b
  unfold B26
  simp only [Function.update_of_ne (StableHlo.devRef_ne_of_ne (fun e => hb (Finset.mem_image.mpr ⟨5, Finset.mem_univ _, e.symm⟩)) : (Proc.devRef .tc b : DevRef τ sig) ≠ Proc.devRef .tc main_v164_0), Function.update_of_ne (StableHlo.devRef_ne_of_ne (fun e => hb (Finset.mem_image.mpr ⟨6, Finset.mem_univ _, e.symm⟩)) : (Proc.devRef .tc b : DevRef τ sig) ≠ Proc.devRef .tc main_v164_1), Function.update_of_ne (StableHlo.devRef_ne_of_ne (fun e => hb (Finset.mem_image.mpr ⟨7, Finset.mem_univ _, e.symm⟩)) : (Proc.devRef .tc b : DevRef τ sig) ≠ Proc.devRef .tc main_v164_2)]
/-- A buffer that is no output of region 12 leaves it as it entered. -/
theorem B26_of (c : Dev nD) (r : Ref sig .tc) (h : r ∉ ([main_v164_0, main_v164_1, main_v164_2] : List (Ref sig .tc))) : B26 m c r = B25 m c r := by
  unfold B26
  simp only [Function.update_of_ne (StableHlo.devRef_ne_of_ne (List.ne_of_not_mem_cons (h)) : (Proc.devRef .tc r : DevRef τ sig) ≠ Proc.devRef .tc main_v164_0), Function.update_of_ne (StableHlo.devRef_ne_of_ne (List.ne_of_not_mem_cons (List.not_mem_of_not_mem_cons (h))) : (Proc.devRef .tc r : DevRef τ sig) ≠ Proc.devRef .tc main_v164_1), Function.update_of_ne (StableHlo.devRef_ne_of_ne (List.ne_of_not_mem_cons (List.not_mem_of_not_mem_cons (List.not_mem_of_not_mem_cons (h)))) : (Proc.devRef .tc r : DevRef τ sig) ≠ Proc.devRef .tc main_v164_2)]
/-- A buffer the host stretch before region 12 does not write passes through it. -/
theorem B25_of (c : Dev nD) (r : Ref sig .tc) (h : r ∉ hostOps12_W) : B25 m c r = B24 m c r :=
  StableHlo.after_of_writes_sub hostOps12 _ hostOps12_writes h

/-- After the host stretch before region 13: what the region is entered from. -/
abbrev B27 (c : Dev nD) : Valuation τ sig (Elt F) := StableHlo.after hostOps13 (B26 m c)
/-- The same, read at the TensorCore's references. -/
abbrev E27 : (c : Dev nD) → (b : Ref sig .tc) → Buf (Elt F) ((c : Thread nD τ).loc b) := fun c b => B27 m c b
/-- At region 13's exit: each output array at what the write-backs leave, everything else as entered. -/
def B28 (c : Dev nD) : Valuation τ sig (Elt F) :=
  Function.update (B27 m c) main_v179 ((dat13 (E27 m) c).arrAt 6 cfg13.N)
abbrev E28 : (c : Dev nD) → (b : Ref sig .tc) → Buf (Elt F) ((c : Thread nD τ).loc b) := fun c b => B28 m c b
set_option maxHeartbeats 1000000 in
theorem hF13_0 (c : Dev nD) : (dat13 (E27 m) c).arrAt 0 cfg13.N = E28 m c main_v164_0 :=
  ((dat13 (E27 m) c).arrAt_in 0 rfl _).trans ((A_eq13 (E27 m) c 0).trans (by
      show B27 m c main_v164_0 = B28 m c main_v164_0
      unfold B28; simp only [Function.update_of_ne (StableHlo.devRef_ne_of_ne (by decide) : (Proc.devRef .tc main_v164_0 : DevRef τ sig) ≠ Proc.devRef .tc main_v179)]))
set_option maxHeartbeats 1000000 in
theorem hF13_1 (c : Dev nD) : (dat13 (E27 m) c).arrAt 1 cfg13.N = E28 m c main_v136 :=
  ((dat13 (E27 m) c).arrAt_in 1 rfl _).trans ((A_eq13 (E27 m) c 1).trans (by
      show B27 m c main_v136 = B28 m c main_v136
      unfold B28; simp only [Function.update_of_ne (StableHlo.devRef_ne_of_ne (by decide) : (Proc.devRef .tc main_v136 : DevRef τ sig) ≠ Proc.devRef .tc main_v179)]))
set_option maxHeartbeats 1000000 in
theorem hF13_2 (c : Dev nD) : (dat13 (E27 m) c).arrAt 2 cfg13.N = E28 m c main_v166 :=
  ((dat13 (E27 m) c).arrAt_in 2 rfl _).trans ((A_eq13 (E27 m) c 2).trans (by
      show B27 m c main_v166 = B28 m c main_v166
      unfold B28; simp only [Function.update_of_ne (StableHlo.devRef_ne_of_ne (by decide) : (Proc.devRef .tc main_v166 : DevRef τ sig) ≠ Proc.devRef .tc main_v179)]))
set_option maxHeartbeats 1000000 in
theorem hF13_3 (c : Dev nD) : (dat13 (E27 m) c).arrAt 3 cfg13.N = E28 m c main_v172 :=
  ((dat13 (E27 m) c).arrAt_in 3 rfl _).trans ((A_eq13 (E27 m) c 3).trans (by
      show B27 m c main_v172 = B28 m c main_v172
      unfold B28; simp only [Function.update_of_ne (StableHlo.devRef_ne_of_ne (by decide) : (Proc.devRef .tc main_v172 : DevRef τ sig) ≠ Proc.devRef .tc main_v179)]))
set_option maxHeartbeats 1000000 in
theorem hF13_4 (c : Dev nD) : (dat13 (E27 m) c).arrAt 4 cfg13.N = E28 m c main_v175 :=
  ((dat13 (E27 m) c).arrAt_in 4 rfl _).trans ((A_eq13 (E27 m) c 4).trans (by
      show B27 m c main_v175 = B28 m c main_v175
      unfold B28; simp only [Function.update_of_ne (StableHlo.devRef_ne_of_ne (by decide) : (Proc.devRef .tc main_v175 : DevRef τ sig) ≠ Proc.devRef .tc main_v179)]))
set_option maxHeartbeats 1000000 in
theorem hF13_5 (c : Dev nD) : (dat13 (E27 m) c).arrAt 5 cfg13.N = E28 m c main_v178 :=
  ((dat13 (E27 m) c).arrAt_in 5 rfl _).trans ((A_eq13 (E27 m) c 5).trans (by
      show B27 m c main_v178 = B28 m c main_v178
      unfold B28; simp only [Function.update_of_ne (StableHlo.devRef_ne_of_ne (by decide) : (Proc.devRef .tc main_v178 : DevRef τ sig) ≠ Proc.devRef .tc main_v179)]))
set_option maxHeartbeats 1000000 in
theorem hF13_6 (c : Dev nD) : (dat13 (E27 m) c).arrAt 6 cfg13.N = E28 m c main_v179 := by
  show (dat13 (E27 m) c).arrAt 6 cfg13.N = B28 m c main_v179
  unfold B28; simp only [Function.update_self]
set_option maxHeartbeats 1000000 in
theorem hF13 (c : Dev nD) : ∀ w : Fin cfg13.W, (dat13 (E27 m) c).arrAt w cfg13.N = E28 m c (Pipeline.arrRef spec13 w)
  | ⟨0, _⟩ => hF13_0 m c
  | ⟨1, _⟩ => hF13_1 m c
  | ⟨2, _⟩ => hF13_2 m c
  | ⟨3, _⟩ => hF13_3 m c
  | ⟨4, _⟩ => hF13_4 m c
  | ⟨5, _⟩ => hF13_5 m c
  | ⟨6, _⟩ => hF13_6 m c
  | ⟨_ + 7, h⟩ => absurd h (Nat.not_lt.2 (Nat.le_add_left _ _))
theorem hrest13 (c : Dev nD) : ∀ b, b ∉ Finset.univ.image (Pipeline.arrRef spec13) → E28 m c b = E27 m c b := fun b hb => by
  show B28 m c b = B27 m c b
  unfold B28
  simp only [Function.update_of_ne (StableHlo.devRef_ne_of_ne (fun e => hb (Finset.mem_image.mpr ⟨6, Finset.mem_univ _, e.symm⟩)) : (Proc.devRef .tc b : DevRef τ sig) ≠ Proc.devRef .tc main_v179)]
/-- A buffer that is no output of region 13 leaves it as it entered. -/
theorem B28_of (c : Dev nD) (r : Ref sig .tc) (h : r ∉ ([main_v179] : List (Ref sig .tc))) : B28 m c r = B27 m c r := by
  unfold B28
  simp only [Function.update_of_ne (StableHlo.devRef_ne_of_ne (List.ne_of_not_mem_cons (h)) : (Proc.devRef .tc r : DevRef τ sig) ≠ Proc.devRef .tc main_v179)]
/-- A buffer the host stretch before region 13 does not write passes through it. -/
theorem B27_of (c : Dev nD) (r : Ref sig .tc) (h : r ∉ hostOps13_W) : B27 m c r = B26 m c r :=
  StableHlo.after_of_writes_sub hostOps13 _ hostOps13_writes h

/-- After the three host stretches that follow the last region: the end. -/
abbrev B29 (c : Dev nD) : Valuation τ sig (Elt F) := StableHlo.after hostOps14 (B28 m c)
abbrev B30 (c : Dev nD) : Valuation τ sig (Elt F) := StableHlo.after hostOps14_1 (B29 m c)
abbrev B31 (c : Dev nD) : Valuation τ sig (Elt F) := StableHlo.after hostOps14_2 (B30 m c)
theorem B29_of (c : Dev nD) (r : Ref sig .tc) (h : r ∉ hostOps14_W) : B29 m c r = B28 m c r :=
  StableHlo.after_of_writes_sub hostOps14 _ hostOps14_writes h
theorem B30_of (c : Dev nD) (r : Ref sig .tc) (h : r ∉ hostOps14_1_W) : B30 m c r = B29 m c r :=
  StableHlo.after_of_writes_sub hostOps14_1 _ hostOps14_1_writes h
theorem B31_of (c : Dev nD) (r : Ref sig .tc) (h : r ∉ hostOps14_2_W) : B31 m c r = B30 m c r :=
  StableHlo.after_of_writes_sub hostOps14_2 _ hostOps14_2_writes h

/-! ## No item writes an argument -/
theorem B31_main_arg0 (c : Dev nD) : B31 m c main_arg0 = m ((c : Thread nD τ).loc main_arg0) :=
  (B31_of m c main_arg0 (by decide)).trans <| (B30_of m c main_arg0 (by decide)).trans <| (B29_of m c main_arg0 (by decide)).trans <| (B28_of m c main_arg0 (by decide)).trans <| (B27_of m c main_arg0 (by decide)).trans <| (B26_of m c main_arg0 (by decide)).trans <| (B25_of m c main_arg0 (by decide)).trans <| (B24_of m c main_arg0 (by decide)).trans <| (B23_of m c main_arg0 (by decide)).trans <| (B22_of m c main_arg0 (by decide)).trans <| (B21_of m c main_arg0 (by decide)).trans <| (B20_of m c main_arg0 (by decide)).trans <| (B19_of m c main_arg0 (by decide)).trans <| (B18_of m c main_arg0 (by decide)).trans <| (B17_of m c main_arg0 (by decide)).trans <| (B16_of m c main_arg0 (by decide)).trans <| (B15_of m c main_arg0 (by decide)).trans <| (B14_of m c main_arg0 (by decide)).trans <| (B13_of m c main_arg0 (by decide)).trans <| (B12_of m c main_arg0 (by decide)).trans <| (B11_of m c main_arg0 (by decide)).trans <| (B10_of m c main_arg0 (by decide)).trans <| (B9_of m c main_arg0 (by decide)).trans <| (B8_of m c main_arg0 (by decide)).trans <| (B7_of m c main_arg0 (by decide)).trans <| (B6_of m c main_arg0 (by decide)).trans <| (B5_of m c main_arg0 (by decide)).trans <| (B4_of m c main_arg0 (by decide)).trans <| (B3_of m c main_arg0 (by decide)).trans <| (B2_of m c main_arg0 (by decide)).trans <| (B1_of m c main_arg0 (by decide))
theorem B31_main_arg1 (c : Dev nD) : B31 m c main_arg1 = m ((c : Thread nD τ).loc main_arg1) :=
  (B31_of m c main_arg1 (by decide)).trans <| (B30_of m c main_arg1 (by decide)).trans <| (B29_of m c main_arg1 (by decide)).trans <| (B28_of m c main_arg1 (by decide)).trans <| (B27_of m c main_arg1 (by decide)).trans <| (B26_of m c main_arg1 (by decide)).trans <| (B25_of m c main_arg1 (by decide)).trans <| (B24_of m c main_arg1 (by decide)).trans <| (B23_of m c main_arg1 (by decide)).trans <| (B22_of m c main_arg1 (by decide)).trans <| (B21_of m c main_arg1 (by decide)).trans <| (B20_of m c main_arg1 (by decide)).trans <| (B19_of m c main_arg1 (by decide)).trans <| (B18_of m c main_arg1 (by decide)).trans <| (B17_of m c main_arg1 (by decide)).trans <| (B16_of m c main_arg1 (by decide)).trans <| (B15_of m c main_arg1 (by decide)).trans <| (B14_of m c main_arg1 (by decide)).trans <| (B13_of m c main_arg1 (by decide)).trans <| (B12_of m c main_arg1 (by decide)).trans <| (B11_of m c main_arg1 (by decide)).trans <| (B10_of m c main_arg1 (by decide)).trans <| (B9_of m c main_arg1 (by decide)).trans <| (B8_of m c main_arg1 (by decide)).trans <| (B7_of m c main_arg1 (by decide)).trans <| (B6_of m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide))
theorem B31_main_arg2 (c : Dev nD) : B31 m c main_arg2 = m ((c : Thread nD τ).loc main_arg2) :=
  (B31_of m c main_arg2 (by decide)).trans <| (B30_of m c main_arg2 (by decide)).trans <| (B29_of m c main_arg2 (by decide)).trans <| (B28_of m c main_arg2 (by decide)).trans <| (B27_of m c main_arg2 (by decide)).trans <| (B26_of m c main_arg2 (by decide)).trans <| (B25_of m c main_arg2 (by decide)).trans <| (B24_of m c main_arg2 (by decide)).trans <| (B23_of m c main_arg2 (by decide)).trans <| (B22_of m c main_arg2 (by decide)).trans <| (B21_of m c main_arg2 (by decide)).trans <| (B20_of m c main_arg2 (by decide)).trans <| (B19_of m c main_arg2 (by decide)).trans <| (B18_of m c main_arg2 (by decide)).trans <| (B17_of m c main_arg2 (by decide)).trans <| (B16_of m c main_arg2 (by decide)).trans <| (B15_of m c main_arg2 (by decide)).trans <| (B14_of m c main_arg2 (by decide)).trans <| (B13_of m c main_arg2 (by decide)).trans <| (B12_of m c main_arg2 (by decide)).trans <| (B11_of m c main_arg2 (by decide)).trans <| (B10_of m c main_arg2 (by decide)).trans <| (B9_of m c main_arg2 (by decide)).trans <| (B8_of m c main_arg2 (by decide)).trans <| (B7_of m c main_arg2 (by decide)).trans <| (B6_of m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide))
theorem B31_main_arg3 (c : Dev nD) : B31 m c main_arg3 = m ((c : Thread nD τ).loc main_arg3) :=
  (B31_of m c main_arg3 (by decide)).trans <| (B30_of m c main_arg3 (by decide)).trans <| (B29_of m c main_arg3 (by decide)).trans <| (B28_of m c main_arg3 (by decide)).trans <| (B27_of m c main_arg3 (by decide)).trans <| (B26_of m c main_arg3 (by decide)).trans <| (B25_of m c main_arg3 (by decide)).trans <| (B24_of m c main_arg3 (by decide)).trans <| (B23_of m c main_arg3 (by decide)).trans <| (B22_of m c main_arg3 (by decide)).trans <| (B21_of m c main_arg3 (by decide)).trans <| (B20_of m c main_arg3 (by decide)).trans <| (B19_of m c main_arg3 (by decide)).trans <| (B18_of m c main_arg3 (by decide)).trans <| (B17_of m c main_arg3 (by decide)).trans <| (B16_of m c main_arg3 (by decide)).trans <| (B15_of m c main_arg3 (by decide)).trans <| (B14_of m c main_arg3 (by decide)).trans <| (B13_of m c main_arg3 (by decide)).trans <| (B12_of m c main_arg3 (by decide)).trans <| (B11_of m c main_arg3 (by decide)).trans <| (B10_of m c main_arg3 (by decide)).trans <| (B9_of m c main_arg3 (by decide)).trans <| (B8_of m c main_arg3 (by decide)).trans <| (B7_of m c main_arg3 (by decide)).trans <| (B6_of m c main_arg3 (by decide)).trans <| (B5_of m c main_arg3 (by decide)).trans <| (B4_of m c main_arg3 (by decide)).trans <| (B3_of m c main_arg3 (by decide)).trans <| (B2_of m c main_arg3 (by decide)).trans <| (B1_of m c main_arg3 (by decide))
theorem B31_main_arg4 (c : Dev nD) : B31 m c main_arg4 = m ((c : Thread nD τ).loc main_arg4) :=
  (B31_of m c main_arg4 (by decide)).trans <| (B30_of m c main_arg4 (by decide)).trans <| (B29_of m c main_arg4 (by decide)).trans <| (B28_of m c main_arg4 (by decide)).trans <| (B27_of m c main_arg4 (by decide)).trans <| (B26_of m c main_arg4 (by decide)).trans <| (B25_of m c main_arg4 (by decide)).trans <| (B24_of m c main_arg4 (by decide)).trans <| (B23_of m c main_arg4 (by decide)).trans <| (B22_of m c main_arg4 (by decide)).trans <| (B21_of m c main_arg4 (by decide)).trans <| (B20_of m c main_arg4 (by decide)).trans <| (B19_of m c main_arg4 (by decide)).trans <| (B18_of m c main_arg4 (by decide)).trans <| (B17_of m c main_arg4 (by decide)).trans <| (B16_of m c main_arg4 (by decide)).trans <| (B15_of m c main_arg4 (by decide)).trans <| (B14_of m c main_arg4 (by decide)).trans <| (B13_of m c main_arg4 (by decide)).trans <| (B12_of m c main_arg4 (by decide)).trans <| (B11_of m c main_arg4 (by decide)).trans <| (B10_of m c main_arg4 (by decide)).trans <| (B9_of m c main_arg4 (by decide)).trans <| (B8_of m c main_arg4 (by decide)).trans <| (B7_of m c main_arg4 (by decide)).trans <| (B6_of m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide))
theorem B31_main_arg5 (c : Dev nD) : B31 m c main_arg5 = m ((c : Thread nD τ).loc main_arg5) :=
  (B31_of m c main_arg5 (by decide)).trans <| (B30_of m c main_arg5 (by decide)).trans <| (B29_of m c main_arg5 (by decide)).trans <| (B28_of m c main_arg5 (by decide)).trans <| (B27_of m c main_arg5 (by decide)).trans <| (B26_of m c main_arg5 (by decide)).trans <| (B25_of m c main_arg5 (by decide)).trans <| (B24_of m c main_arg5 (by decide)).trans <| (B23_of m c main_arg5 (by decide)).trans <| (B22_of m c main_arg5 (by decide)).trans <| (B21_of m c main_arg5 (by decide)).trans <| (B20_of m c main_arg5 (by decide)).trans <| (B19_of m c main_arg5 (by decide)).trans <| (B18_of m c main_arg5 (by decide)).trans <| (B17_of m c main_arg5 (by decide)).trans <| (B16_of m c main_arg5 (by decide)).trans <| (B15_of m c main_arg5 (by decide)).trans <| (B14_of m c main_arg5 (by decide)).trans <| (B13_of m c main_arg5 (by decide)).trans <| (B12_of m c main_arg5 (by decide)).trans <| (B11_of m c main_arg5 (by decide)).trans <| (B10_of m c main_arg5 (by decide)).trans <| (B9_of m c main_arg5 (by decide)).trans <| (B8_of m c main_arg5 (by decide)).trans <| (B7_of m c main_arg5 (by decide)).trans <| (B6_of m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide))
theorem B31_main_arg6 (c : Dev nD) : B31 m c main_arg6 = m ((c : Thread nD τ).loc main_arg6) :=
  (B31_of m c main_arg6 (by decide)).trans <| (B30_of m c main_arg6 (by decide)).trans <| (B29_of m c main_arg6 (by decide)).trans <| (B28_of m c main_arg6 (by decide)).trans <| (B27_of m c main_arg6 (by decide)).trans <| (B26_of m c main_arg6 (by decide)).trans <| (B25_of m c main_arg6 (by decide)).trans <| (B24_of m c main_arg6 (by decide)).trans <| (B23_of m c main_arg6 (by decide)).trans <| (B22_of m c main_arg6 (by decide)).trans <| (B21_of m c main_arg6 (by decide)).trans <| (B20_of m c main_arg6 (by decide)).trans <| (B19_of m c main_arg6 (by decide)).trans <| (B18_of m c main_arg6 (by decide)).trans <| (B17_of m c main_arg6 (by decide)).trans <| (B16_of m c main_arg6 (by decide)).trans <| (B15_of m c main_arg6 (by decide)).trans <| (B14_of m c main_arg6 (by decide)).trans <| (B13_of m c main_arg6 (by decide)).trans <| (B12_of m c main_arg6 (by decide)).trans <| (B11_of m c main_arg6 (by decide)).trans <| (B10_of m c main_arg6 (by decide)).trans <| (B9_of m c main_arg6 (by decide)).trans <| (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide))
theorem B31_main_arg7 (c : Dev nD) : B31 m c main_arg7 = m ((c : Thread nD τ).loc main_arg7) :=
  (B31_of m c main_arg7 (by decide)).trans <| (B30_of m c main_arg7 (by decide)).trans <| (B29_of m c main_arg7 (by decide)).trans <| (B28_of m c main_arg7 (by decide)).trans <| (B27_of m c main_arg7 (by decide)).trans <| (B26_of m c main_arg7 (by decide)).trans <| (B25_of m c main_arg7 (by decide)).trans <| (B24_of m c main_arg7 (by decide)).trans <| (B23_of m c main_arg7 (by decide)).trans <| (B22_of m c main_arg7 (by decide)).trans <| (B21_of m c main_arg7 (by decide)).trans <| (B20_of m c main_arg7 (by decide)).trans <| (B19_of m c main_arg7 (by decide)).trans <| (B18_of m c main_arg7 (by decide)).trans <| (B17_of m c main_arg7 (by decide)).trans <| (B16_of m c main_arg7 (by decide)).trans <| (B15_of m c main_arg7 (by decide)).trans <| (B14_of m c main_arg7 (by decide)).trans <| (B13_of m c main_arg7 (by decide)).trans <| (B12_of m c main_arg7 (by decide)).trans <| (B11_of m c main_arg7 (by decide)).trans <| (B10_of m c main_arg7 (by decide)).trans <| (B9_of m c main_arg7 (by decide)).trans <| (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide))
theorem B31_main_arg8 (c : Dev nD) : B31 m c main_arg8 = m ((c : Thread nD τ).loc main_arg8) :=
  (B31_of m c main_arg8 (by decide)).trans <| (B30_of m c main_arg8 (by decide)).trans <| (B29_of m c main_arg8 (by decide)).trans <| (B28_of m c main_arg8 (by decide)).trans <| (B27_of m c main_arg8 (by decide)).trans <| (B26_of m c main_arg8 (by decide)).trans <| (B25_of m c main_arg8 (by decide)).trans <| (B24_of m c main_arg8 (by decide)).trans <| (B23_of m c main_arg8 (by decide)).trans <| (B22_of m c main_arg8 (by decide)).trans <| (B21_of m c main_arg8 (by decide)).trans <| (B20_of m c main_arg8 (by decide)).trans <| (B19_of m c main_arg8 (by decide)).trans <| (B18_of m c main_arg8 (by decide)).trans <| (B17_of m c main_arg8 (by decide)).trans <| (B16_of m c main_arg8 (by decide)).trans <| (B15_of m c main_arg8 (by decide)).trans <| (B14_of m c main_arg8 (by decide)).trans <| (B13_of m c main_arg8 (by decide)).trans <| (B12_of m c main_arg8 (by decide)).trans <| (B11_of m c main_arg8 (by decide)).trans <| (B10_of m c main_arg8 (by decide)).trans <| (B9_of m c main_arg8 (by decide)).trans <| (B8_of m c main_arg8 (by decide)).trans <| (B7_of m c main_arg8 (by decide)).trans <| (B6_of m c main_arg8 (by decide)).trans <| (B5_of m c main_arg8 (by decide)).trans <| (B4_of m c main_arg8 (by decide)).trans <| (B3_of m c main_arg8 (by decide)).trans <| (B2_of m c main_arg8 (by decide)).trans <| (B1_of m c main_arg8 (by decide))
theorem B31_main_arg9 (c : Dev nD) : B31 m c main_arg9 = m ((c : Thread nD τ).loc main_arg9) :=
  (B31_of m c main_arg9 (by decide)).trans <| (B30_of m c main_arg9 (by decide)).trans <| (B29_of m c main_arg9 (by decide)).trans <| (B28_of m c main_arg9 (by decide)).trans <| (B27_of m c main_arg9 (by decide)).trans <| (B26_of m c main_arg9 (by decide)).trans <| (B25_of m c main_arg9 (by decide)).trans <| (B24_of m c main_arg9 (by decide)).trans <| (B23_of m c main_arg9 (by decide)).trans <| (B22_of m c main_arg9 (by decide)).trans <| (B21_of m c main_arg9 (by decide)).trans <| (B20_of m c main_arg9 (by decide)).trans <| (B19_of m c main_arg9 (by decide)).trans <| (B18_of m c main_arg9 (by decide)).trans <| (B17_of m c main_arg9 (by decide)).trans <| (B16_of m c main_arg9 (by decide)).trans <| (B15_of m c main_arg9 (by decide)).trans <| (B14_of m c main_arg9 (by decide)).trans <| (B13_of m c main_arg9 (by decide)).trans <| (B12_of m c main_arg9 (by decide)).trans <| (B11_of m c main_arg9 (by decide)).trans <| (B10_of m c main_arg9 (by decide)).trans <| (B9_of m c main_arg9 (by decide)).trans <| (B8_of m c main_arg9 (by decide)).trans <| (B7_of m c main_arg9 (by decide)).trans <| (B6_of m c main_arg9 (by decide)).trans <| (B5_of m c main_arg9 (by decide)).trans <| (B4_of m c main_arg9 (by decide)).trans <| (B3_of m c main_arg9 (by decide)).trans <| (B2_of m c main_arg9 (by decide)).trans <| (B1_of m c main_arg9 (by decide))
theorem B31_main_arg10 (c : Dev nD) : B31 m c main_arg10 = m ((c : Thread nD τ).loc main_arg10) :=
  (B31_of m c main_arg10 (by decide)).trans <| (B30_of m c main_arg10 (by decide)).trans <| (B29_of m c main_arg10 (by decide)).trans <| (B28_of m c main_arg10 (by decide)).trans <| (B27_of m c main_arg10 (by decide)).trans <| (B26_of m c main_arg10 (by decide)).trans <| (B25_of m c main_arg10 (by decide)).trans <| (B24_of m c main_arg10 (by decide)).trans <| (B23_of m c main_arg10 (by decide)).trans <| (B22_of m c main_arg10 (by decide)).trans <| (B21_of m c main_arg10 (by decide)).trans <| (B20_of m c main_arg10 (by decide)).trans <| (B19_of m c main_arg10 (by decide)).trans <| (B18_of m c main_arg10 (by decide)).trans <| (B17_of m c main_arg10 (by decide)).trans <| (B16_of m c main_arg10 (by decide)).trans <| (B15_of m c main_arg10 (by decide)).trans <| (B14_of m c main_arg10 (by decide)).trans <| (B13_of m c main_arg10 (by decide)).trans <| (B12_of m c main_arg10 (by decide)).trans <| (B11_of m c main_arg10 (by decide)).trans <| (B10_of m c main_arg10 (by decide)).trans <| (B9_of m c main_arg10 (by decide)).trans <| (B8_of m c main_arg10 (by decide)).trans <| (B7_of m c main_arg10 (by decide)).trans <| (B6_of m c main_arg10 (by decide)).trans <| (B5_of m c main_arg10 (by decide)).trans <| (B4_of m c main_arg10 (by decide)).trans <| (B3_of m c main_arg10 (by decide)).trans <| (B2_of m c main_arg10 (by decide)).trans <| (B1_of m c main_arg10 (by decide))
theorem B31_main_arg11 (c : Dev nD) : B31 m c main_arg11 = m ((c : Thread nD τ).loc main_arg11) :=
  (B31_of m c main_arg11 (by decide)).trans <| (B30_of m c main_arg11 (by decide)).trans <| (B29_of m c main_arg11 (by decide)).trans <| (B28_of m c main_arg11 (by decide)).trans <| (B27_of m c main_arg11 (by decide)).trans <| (B26_of m c main_arg11 (by decide)).trans <| (B25_of m c main_arg11 (by decide)).trans <| (B24_of m c main_arg11 (by decide)).trans <| (B23_of m c main_arg11 (by decide)).trans <| (B22_of m c main_arg11 (by decide)).trans <| (B21_of m c main_arg11 (by decide)).trans <| (B20_of m c main_arg11 (by decide)).trans <| (B19_of m c main_arg11 (by decide)).trans <| (B18_of m c main_arg11 (by decide)).trans <| (B17_of m c main_arg11 (by decide)).trans <| (B16_of m c main_arg11 (by decide)).trans <| (B15_of m c main_arg11 (by decide)).trans <| (B14_of m c main_arg11 (by decide)).trans <| (B13_of m c main_arg11 (by decide)).trans <| (B12_of m c main_arg11 (by decide)).trans <| (B11_of m c main_arg11 (by decide)).trans <| (B10_of m c main_arg11 (by decide)).trans <| (B9_of m c main_arg11 (by decide)).trans <| (B8_of m c main_arg11 (by decide)).trans <| (B7_of m c main_arg11 (by decide)).trans <| (B6_of m c main_arg11 (by decide)).trans <| (B5_of m c main_arg11 (by decide)).trans <| (B4_of m c main_arg11 (by decide)).trans <| (B3_of m c main_arg11 (by decide)).trans <| (B2_of m c main_arg11 (by decide)).trans <| (B1_of m c main_arg11 (by decide))
theorem B31_main_arg12 (c : Dev nD) : B31 m c main_arg12 = m ((c : Thread nD τ).loc main_arg12) :=
  (B31_of m c main_arg12 (by decide)).trans <| (B30_of m c main_arg12 (by decide)).trans <| (B29_of m c main_arg12 (by decide)).trans <| (B28_of m c main_arg12 (by decide)).trans <| (B27_of m c main_arg12 (by decide)).trans <| (B26_of m c main_arg12 (by decide)).trans <| (B25_of m c main_arg12 (by decide)).trans <| (B24_of m c main_arg12 (by decide)).trans <| (B23_of m c main_arg12 (by decide)).trans <| (B22_of m c main_arg12 (by decide)).trans <| (B21_of m c main_arg12 (by decide)).trans <| (B20_of m c main_arg12 (by decide)).trans <| (B19_of m c main_arg12 (by decide)).trans <| (B18_of m c main_arg12 (by decide)).trans <| (B17_of m c main_arg12 (by decide)).trans <| (B16_of m c main_arg12 (by decide)).trans <| (B15_of m c main_arg12 (by decide)).trans <| (B14_of m c main_arg12 (by decide)).trans <| (B13_of m c main_arg12 (by decide)).trans <| (B12_of m c main_arg12 (by decide)).trans <| (B11_of m c main_arg12 (by decide)).trans <| (B10_of m c main_arg12 (by decide)).trans <| (B9_of m c main_arg12 (by decide)).trans <| (B8_of m c main_arg12 (by decide)).trans <| (B7_of m c main_arg12 (by decide)).trans <| (B6_of m c main_arg12 (by decide)).trans <| (B5_of m c main_arg12 (by decide)).trans <| (B4_of m c main_arg12 (by decide)).trans <| (B3_of m c main_arg12 (by decide)).trans <| (B2_of m c main_arg12 (by decide)).trans <| (B1_of m c main_arg12 (by decide))
theorem B31_main_arg13 (c : Dev nD) : B31 m c main_arg13 = m ((c : Thread nD τ).loc main_arg13) :=
  (B31_of m c main_arg13 (by decide)).trans <| (B30_of m c main_arg13 (by decide)).trans <| (B29_of m c main_arg13 (by decide)).trans <| (B28_of m c main_arg13 (by decide)).trans <| (B27_of m c main_arg13 (by decide)).trans <| (B26_of m c main_arg13 (by decide)).trans <| (B25_of m c main_arg13 (by decide)).trans <| (B24_of m c main_arg13 (by decide)).trans <| (B23_of m c main_arg13 (by decide)).trans <| (B22_of m c main_arg13 (by decide)).trans <| (B21_of m c main_arg13 (by decide)).trans <| (B20_of m c main_arg13 (by decide)).trans <| (B19_of m c main_arg13 (by decide)).trans <| (B18_of m c main_arg13 (by decide)).trans <| (B17_of m c main_arg13 (by decide)).trans <| (B16_of m c main_arg13 (by decide)).trans <| (B15_of m c main_arg13 (by decide)).trans <| (B14_of m c main_arg13 (by decide)).trans <| (B13_of m c main_arg13 (by decide)).trans <| (B12_of m c main_arg13 (by decide)).trans <| (B11_of m c main_arg13 (by decide)).trans <| (B10_of m c main_arg13 (by decide)).trans <| (B9_of m c main_arg13 (by decide)).trans <| (B8_of m c main_arg13 (by decide)).trans <| (B7_of m c main_arg13 (by decide)).trans <| (B6_of m c main_arg13 (by decide)).trans <| (B5_of m c main_arg13 (by decide)).trans <| (B4_of m c main_arg13 (by decide)).trans <| (B3_of m c main_arg13 (by decide)).trans <| (B2_of m c main_arg13 (by decide)).trans <| (B1_of m c main_arg13 (by decide))
theorem B31_main_arg14 (c : Dev nD) : B31 m c main_arg14 = m ((c : Thread nD τ).loc main_arg14) :=
  (B31_of m c main_arg14 (by decide)).trans <| (B30_of m c main_arg14 (by decide)).trans <| (B29_of m c main_arg14 (by decide)).trans <| (B28_of m c main_arg14 (by decide)).trans <| (B27_of m c main_arg14 (by decide)).trans <| (B26_of m c main_arg14 (by decide)).trans <| (B25_of m c main_arg14 (by decide)).trans <| (B24_of m c main_arg14 (by decide)).trans <| (B23_of m c main_arg14 (by decide)).trans <| (B22_of m c main_arg14 (by decide)).trans <| (B21_of m c main_arg14 (by decide)).trans <| (B20_of m c main_arg14 (by decide)).trans <| (B19_of m c main_arg14 (by decide)).trans <| (B18_of m c main_arg14 (by decide)).trans <| (B17_of m c main_arg14 (by decide)).trans <| (B16_of m c main_arg14 (by decide)).trans <| (B15_of m c main_arg14 (by decide)).trans <| (B14_of m c main_arg14 (by decide)).trans <| (B13_of m c main_arg14 (by decide)).trans <| (B12_of m c main_arg14 (by decide)).trans <| (B11_of m c main_arg14 (by decide)).trans <| (B10_of m c main_arg14 (by decide)).trans <| (B9_of m c main_arg14 (by decide)).trans <| (B8_of m c main_arg14 (by decide)).trans <| (B7_of m c main_arg14 (by decide)).trans <| (B6_of m c main_arg14 (by decide)).trans <| (B5_of m c main_arg14 (by decide)).trans <| (B4_of m c main_arg14 (by decide)).trans <| (B3_of m c main_arg14 (by decide)).trans <| (B2_of m c main_arg14 (by decide)).trans <| (B1_of m c main_arg14 (by decide))
theorem B31_main_arg15 (c : Dev nD) : B31 m c main_arg15 = m ((c : Thread nD τ).loc main_arg15) :=
  (B31_of m c main_arg15 (by decide)).trans <| (B30_of m c main_arg15 (by decide)).trans <| (B29_of m c main_arg15 (by decide)).trans <| (B28_of m c main_arg15 (by decide)).trans <| (B27_of m c main_arg15 (by decide)).trans <| (B26_of m c main_arg15 (by decide)).trans <| (B25_of m c main_arg15 (by decide)).trans <| (B24_of m c main_arg15 (by decide)).trans <| (B23_of m c main_arg15 (by decide)).trans <| (B22_of m c main_arg15 (by decide)).trans <| (B21_of m c main_arg15 (by decide)).trans <| (B20_of m c main_arg15 (by decide)).trans <| (B19_of m c main_arg15 (by decide)).trans <| (B18_of m c main_arg15 (by decide)).trans <| (B17_of m c main_arg15 (by decide)).trans <| (B16_of m c main_arg15 (by decide)).trans <| (B15_of m c main_arg15 (by decide)).trans <| (B14_of m c main_arg15 (by decide)).trans <| (B13_of m c main_arg15 (by decide)).trans <| (B12_of m c main_arg15 (by decide)).trans <| (B11_of m c main_arg15 (by decide)).trans <| (B10_of m c main_arg15 (by decide)).trans <| (B9_of m c main_arg15 (by decide)).trans <| (B8_of m c main_arg15 (by decide)).trans <| (B7_of m c main_arg15 (by decide)).trans <| (B6_of m c main_arg15 (by decide)).trans <| (B5_of m c main_arg15 (by decide)).trans <| (B4_of m c main_arg15 (by decide)).trans <| (B3_of m c main_arg15 (by decide)).trans <| (B2_of m c main_arg15 (by decide)).trans <| (B1_of m c main_arg15 (by decide))
theorem B31_main_arg16 (c : Dev nD) : B31 m c main_arg16 = m ((c : Thread nD τ).loc main_arg16) :=
  (B31_of m c main_arg16 (by decide)).trans <| (B30_of m c main_arg16 (by decide)).trans <| (B29_of m c main_arg16 (by decide)).trans <| (B28_of m c main_arg16 (by decide)).trans <| (B27_of m c main_arg16 (by decide)).trans <| (B26_of m c main_arg16 (by decide)).trans <| (B25_of m c main_arg16 (by decide)).trans <| (B24_of m c main_arg16 (by decide)).trans <| (B23_of m c main_arg16 (by decide)).trans <| (B22_of m c main_arg16 (by decide)).trans <| (B21_of m c main_arg16 (by decide)).trans <| (B20_of m c main_arg16 (by decide)).trans <| (B19_of m c main_arg16 (by decide)).trans <| (B18_of m c main_arg16 (by decide)).trans <| (B17_of m c main_arg16 (by decide)).trans <| (B16_of m c main_arg16 (by decide)).trans <| (B15_of m c main_arg16 (by decide)).trans <| (B14_of m c main_arg16 (by decide)).trans <| (B13_of m c main_arg16 (by decide)).trans <| (B12_of m c main_arg16 (by decide)).trans <| (B11_of m c main_arg16 (by decide)).trans <| (B10_of m c main_arg16 (by decide)).trans <| (B9_of m c main_arg16 (by decide)).trans <| (B8_of m c main_arg16 (by decide)).trans <| (B7_of m c main_arg16 (by decide)).trans <| (B6_of m c main_arg16 (by decide)).trans <| (B5_of m c main_arg16 (by decide)).trans <| (B4_of m c main_arg16 (by decide)).trans <| (B3_of m c main_arg16 (by decide)).trans <| (B2_of m c main_arg16 (by decide)).trans <| (B1_of m c main_arg16 (by decide))
theorem B31_main_arg17 (c : Dev nD) : B31 m c main_arg17 = m ((c : Thread nD τ).loc main_arg17) :=
  (B31_of m c main_arg17 (by decide)).trans <| (B30_of m c main_arg17 (by decide)).trans <| (B29_of m c main_arg17 (by decide)).trans <| (B28_of m c main_arg17 (by decide)).trans <| (B27_of m c main_arg17 (by decide)).trans <| (B26_of m c main_arg17 (by decide)).trans <| (B25_of m c main_arg17 (by decide)).trans <| (B24_of m c main_arg17 (by decide)).trans <| (B23_of m c main_arg17 (by decide)).trans <| (B22_of m c main_arg17 (by decide)).trans <| (B21_of m c main_arg17 (by decide)).trans <| (B20_of m c main_arg17 (by decide)).trans <| (B19_of m c main_arg17 (by decide)).trans <| (B18_of m c main_arg17 (by decide)).trans <| (B17_of m c main_arg17 (by decide)).trans <| (B16_of m c main_arg17 (by decide)).trans <| (B15_of m c main_arg17 (by decide)).trans <| (B14_of m c main_arg17 (by decide)).trans <| (B13_of m c main_arg17 (by decide)).trans <| (B12_of m c main_arg17 (by decide)).trans <| (B11_of m c main_arg17 (by decide)).trans <| (B10_of m c main_arg17 (by decide)).trans <| (B9_of m c main_arg17 (by decide)).trans <| (B8_of m c main_arg17 (by decide)).trans <| (B7_of m c main_arg17 (by decide)).trans <| (B6_of m c main_arg17 (by decide)).trans <| (B5_of m c main_arg17 (by decide)).trans <| (B4_of m c main_arg17 (by decide)).trans <| (B3_of m c main_arg17 (by decide)).trans <| (B2_of m c main_arg17 (by decide)).trans <| (B1_of m c main_arg17 (by decide))
theorem B31_main_arg18 (c : Dev nD) : B31 m c main_arg18 = m ((c : Thread nD τ).loc main_arg18) :=
  (B31_of m c main_arg18 (by decide)).trans <| (B30_of m c main_arg18 (by decide)).trans <| (B29_of m c main_arg18 (by decide)).trans <| (B28_of m c main_arg18 (by decide)).trans <| (B27_of m c main_arg18 (by decide)).trans <| (B26_of m c main_arg18 (by decide)).trans <| (B25_of m c main_arg18 (by decide)).trans <| (B24_of m c main_arg18 (by decide)).trans <| (B23_of m c main_arg18 (by decide)).trans <| (B22_of m c main_arg18 (by decide)).trans <| (B21_of m c main_arg18 (by decide)).trans <| (B20_of m c main_arg18 (by decide)).trans <| (B19_of m c main_arg18 (by decide)).trans <| (B18_of m c main_arg18 (by decide)).trans <| (B17_of m c main_arg18 (by decide)).trans <| (B16_of m c main_arg18 (by decide)).trans <| (B15_of m c main_arg18 (by decide)).trans <| (B14_of m c main_arg18 (by decide)).trans <| (B13_of m c main_arg18 (by decide)).trans <| (B12_of m c main_arg18 (by decide)).trans <| (B11_of m c main_arg18 (by decide)).trans <| (B10_of m c main_arg18 (by decide)).trans <| (B9_of m c main_arg18 (by decide)).trans <| (B8_of m c main_arg18 (by decide)).trans <| (B7_of m c main_arg18 (by decide)).trans <| (B6_of m c main_arg18 (by decide)).trans <| (B5_of m c main_arg18 (by decide)).trans <| (B4_of m c main_arg18 (by decide)).trans <| (B3_of m c main_arg18 (by decide)).trans <| (B2_of m c main_arg18 (by decide)).trans <| (B1_of m c main_arg18 (by decide))

end Cert.KernelIdeal.Gen

end
-- ==== Proof.Pdats.lean ====
/- Every pipeline's proof data, each taken at the contents its region is entered from, and what rides beside the
  buffers through every item of the main program: the core's generator register at some state, and nothing owed.
-/
import proofs.«127476_j62818191671466_2_alg».proof.Proof.Boundaries

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data at its region's entry contents. -/
def pdats : (p : Fin 14) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c
  | ⟨13, _⟩ => fun c => dat13 (E27 m) c
/-- No variant, no level, no pair of cores that owe each other: the cores never signal one another. -/
abbrev vr0 : Variants := Variants.none
abbrev pairs0 : GSem nD τ sig → Finset Unit := fun _ => ∅
abbrev lvl0 : GSem nD τ sig → Unit → ℕ := fun _ _ => 0
/-- What rides beside the buffers: the generator register at some state, and the core owing nothing. -/
abbrev Rc (c : Dev nD) : sProp 𝕄 := iprop((∃ r, prngReg c r) ∗ ∃ W, owes (c : Thread nD τ) (0 : CellTallies nD τ sig Unit) W)

end Cert.KernelIdeal.Gen

end
-- ==== Proof.Rec0.lean ====
/- Region 0 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ vr0 pairs0 lvl0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ pairs0 lvl0 0 fun _ _ => rfl
  pre c := iprop(StableHlo.held (c : Thread nD τ) (Pipeline.ucRefs τ sig) (B1 m c) ∗ Rc c)
  post c := iprop(StableHlo.held (c : Thread nD τ) (Pipeline.ucRefs τ sig) (B2 m c) ∗ Rc c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec1.lean ====
/- Region 1 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ vr0 pairs0 lvl0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ pairs0 lvl0 1 fun _ _ => rfl
  pre c := iprop(StableHlo.held (c : Thread nD τ) (Pipeline.ucRefs τ sig) (B3 m c) ∗ Rc c)
  post c := iprop(StableHlo.held (c : Thread nD τ) (Pipeline.ucRefs τ sig) (B4 m c) ∗ Rc c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec2.lean ====
/- Region 2 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ vr0 pairs0 lvl0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ pairs0 lvl0 2 fun _ _ => rfl
  pre c := iprop(StableHlo.held (c : Thread nD τ) (Pipeline.ucRefs τ sig) (B5 m c) ∗ Rc c)
  post c := iprop(StableHlo.held (c : Thread nD τ) (Pipeline.ucRefs τ sig) (B6 m c) ∗ Rc c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec3.lean ====
/- Region 3 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ vr0 pairs0 lvl0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ pairs0 lvl0 3 fun _ _ => rfl
  pre c := iprop(StableHlo.held (c : Thread nD τ) (Pipeline.ucRefs τ sig) (B7 m c) ∗ Rc c)
  post c := iprop(StableHlo.held (c : Thread nD τ) (Pipeline.ucRefs τ sig) (B8 m c) ∗ Rc c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in3 (E7 m) c _
  hout c := phi_out3 (E7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec4.lean ====
/- Region 4 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ vr0 pairs0 lvl0 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ pairs0 lvl0 4 fun _ _ => rfl
  pre c := iprop(StableHlo.held (c : Thread nD τ) (Pipeline.ucRefs τ sig) (B9 m c) ∗ Rc c)
  post c := iprop(StableHlo.held (c : Thread nD τ) (Pipeline.ucRefs τ sig) (B10 m c) ∗ Rc c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec5.lean ====
/- Region 5 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ vr0 pairs0 lvl0 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ pairs0 lvl0 5 fun _ _ => rfl
  pre c := iprop(StableHlo.held (c : Thread nD τ) (Pipeline.ucRefs τ sig) (B11 m c) ∗ Rc c)
  post c := iprop(StableHlo.held (c : Thread nD τ) (Pipeline.ucRefs τ sig) (B12 m c) ∗ Rc c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec6.lean ====
/- Region 6 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ vr0 pairs0 lvl0 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ pairs0 lvl0 6 fun _ _ => rfl
  pre c := iprop(StableHlo.held (c : Thread nD τ) (Pipeline.ucRefs τ sig) (B13 m c) ∗ Rc c)
  post c := iprop(StableHlo.held (c : Thread nD τ) (Pipeline.ucRefs τ sig) (B14 m c) ∗ Rc c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in6 (E13 m) c _
  hout c := phi_out6 (E13 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec7.lean ====
/- Region 7 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ vr0 pairs0 lvl0 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ pairs0 lvl0 7 fun _ _ => rfl
  pre c := iprop(StableHlo.held (c : Thread nD τ) (Pipeline.ucRefs τ sig) (B15 m c) ∗ Rc c)
  post c := iprop(StableHlo.held (c : Thread nD τ) (Pipeline.ucRefs τ sig) (B16 m c) ∗ Rc c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec8.lean ====
/- Region 8 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ vr0 pairs0 lvl0 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ pairs0 lvl0 8 fun _ _ => rfl
  pre c := iprop(StableHlo.held (c : Thread nD τ) (Pipeline.ucRefs τ sig) (B17 m c) ∗ Rc c)
  post c := iprop(StableHlo.held (c : Thread nD τ) (Pipeline.ucRefs τ sig) (B18 m c) ∗ Rc c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec9.lean ====
/- Region 9 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ vr0 pairs0 lvl0 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ pairs0 lvl0 9 fun _ _ => rfl
  pre c := iprop(StableHlo.held (c : Thread nD τ) (Pipeline.ucRefs τ sig) (B19 m c) ∗ Rc c)
  post c := iprop(StableHlo.held (c : Thread nD τ) (Pipeline.ucRefs τ sig) (B20 m c) ∗ Rc c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in9 (E19 m) c _
  hout c := phi_out9 (E19 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec10.lean ====
/- Region 10 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg10 : Pipeline.RegionSeg (pcfgs (F := F)) adm (pdats m) () defs₀ vr0 pairs0 lvl0 10 where
  win := launch10.win.to₀
  block_pos := launch10.block_pos
  stage_whole := launch10.stage_whole
  K := PEmpty
  osem k := k.elim
  ho := Pipeline.OwnSemFacts.none _
  hbody c := (body_obligation10 (E21 m) c).loose
  hwaits := Pipeline.hwaits_of_owed_zero _ _ _ _ pairs0 lvl0 10 fun _ _ => rfl
  pre c := iprop(StableHlo.held (c : Thread nD τ) (Pipeline.ucRefs τ sig) (B21 m c) ∗ Rc c)
  post c := iprop(StableHlo.held (c : Thread nD τ) (Pipeline.ucRefs τ sig) (B22 m c) ∗ Rc c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec11.lean ====
/- Region 11 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg11 : Pipeline.RegionSeg (pcfgs (F := F)) adm (pdats m) () defs₀ vr0 pairs0 lvl0 11 where
  win := launch11.win.to₀
  block_pos := launch11.block_pos
  stage_whole := launch11.stage_whole
  K := PEmpty
  osem k := k.elim
  ho := Pipeline.OwnSemFacts.none _
  hbody c := (body_obligation11 (E23 m) c).loose
  hwaits := Pipeline.hwaits_of_owed_zero _ _ _ _ pairs0 lvl0 11 fun _ _ => rfl
  pre c := iprop(StableHlo.held (c : Thread nD τ) (Pipeline.ucRefs τ sig) (B23 m c) ∗ Rc c)
  post c := iprop(StableHlo.held (c : Thread nD τ) (Pipeline.ucRefs τ sig) (B24 m c) ∗ Rc c)
  X c := iprop(∃ r, prngReg c r)
  Y c := iprop(∃ r, prngReg c r)
  Z c := Pipeline.unscopedRest (Ix := Unit) (Name := ℕ) (U := UR sig nD τ) (Lvl := ℕ) spec11 c (E23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m c) (E24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec12.lean ====
/- Region 12 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg12 : Pipeline.RegionSeg (pcfgs (F := F)) adm (pdats m) () defs₀ vr0 pairs0 lvl0 12 where
  win := launch12.win.to₀
  block_pos := launch12.block_pos
  stage_whole := launch12.stage_whole
  K := PEmpty
  osem k := k.elim
  ho := Pipeline.OwnSemFacts.none _
  hbody c := (body_obligation12 (E25 m) c).loose
  hwaits := Pipeline.hwaits_of_owed_zero _ _ _ _ pairs0 lvl0 12 fun _ _ => rfl
  pre c := iprop(StableHlo.held (c : Thread nD τ) (Pipeline.ucRefs τ sig) (B25 m c) ∗ Rc c)
  post c := iprop(StableHlo.held (c : Thread nD τ) (Pipeline.ucRefs τ sig) (B26 m c) ∗ Rc c)
  X c := iprop(∃ r, prngReg c r)
  Y c := iprop(∃ r, prngReg c r)
  Z c := Pipeline.unscopedRest (Ix := Unit) (Name := ℕ) (U := UR sig nD τ) (Lvl := ℕ) spec12 c (E25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in12 (E25 m) c _
  hout c := phi_out12 (E25 m) c
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m c) (E26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Rec13.lean ====
/- Region 13 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.Pdats

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg13 : Pipeline.RegionSeg (pcfgs (F := F)) adm (pdats m) () defs₀ vr0 pairs0 lvl0 13 where
  win := launch13.win.to₀
  block_pos := launch13.block_pos
  stage_whole := launch13.stage_whole
  K := PEmpty
  osem k := k.elim
  ho := Pipeline.OwnSemFacts.none _
  hbody c := (body_obligation13 (E27 m) c).loose
  hwaits := Pipeline.hwaits_of_owed_zero _ _ _ _ pairs0 lvl0 13 fun _ _ => rfl
  pre c := iprop(StableHlo.held (c : Thread nD τ) (Pipeline.ucRefs τ sig) (B27 m c) ∗ Rc c)
  post c := iprop(StableHlo.held (c : Thread nD τ) (Pipeline.ucRefs τ sig) (B28 m c) ∗ Rc c)
  X c := iprop(∃ r, prngReg c r)
  Y c := iprop(∃ r, prngReg c r)
  Z c := Pipeline.unscopedRest (Ix := Unit) (Name := ℕ) (U := UR sig nD τ) (Lvl := ℕ) spec13 c (E27 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (E27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E27 m c) (E28 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.lean ====
/- The main program as a list of items: each stretch of host operations entered from the contents the item before it
  leaves, each kernel region by its record. Every weakly fair execution then terminates without a fault and ends with
  every unscoped buffer at the last boundary's contents; in particular every argument array as launched.
-/
import proofs.«127476_j62818191671466_2_alg».proof.Proof.Rec0
import proofs.«127476_j62818191671466_2_alg».proof.Proof.Rec1
import proofs.«127476_j62818191671466_2_alg».proof.Proof.Rec2
import proofs.«127476_j62818191671466_2_alg».proof.Proof.Rec3
import proofs.«127476_j62818191671466_2_alg».proof.Proof.Rec4
import proofs.«127476_j62818191671466_2_alg».proof.Proof.Rec5
import proofs.«127476_j62818191671466_2_alg».proof.Proof.Rec6
import proofs.«127476_j62818191671466_2_alg».proof.Proof.Rec7
import proofs.«127476_j62818191671466_2_alg».proof.Proof.Rec8
import proofs.«127476_j62818191671466_2_alg».proof.Proof.Rec9
import proofs.«127476_j62818191671466_2_alg».proof.Proof.Rec10
import proofs.«127476_j62818191671466_2_alg».proof.Proof.Rec11
import proofs.«127476_j62818191671466_2_alg».proof.Proof.Rec12
import proofs.«127476_j62818191671466_2_alg».proof.Proof.Rec13

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A stretch of host operations as an item: over the unscoped buffers from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 pairs0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The main program's 31 items in order. -/
abbrev items : List (Pipeline.Seg (pcfgs (F := F)) adm (pdats m) () defs₀ vr0 pairs0 lvl0) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)),
    .region (reg6 m),
    .host (hseg hostOps7 hostOps7_sub hostOps7_fresh (B14 m)),
    .region (reg7 m),
    .host (hseg hostOps8 hostOps8_sub hostOps8_fresh (B16 m)),
    .region (reg8 m),
    .host (hseg hostOps9 hostOps9_sub hostOps9_fresh (B18 m)),
    .region (reg9 m),
    .host (hseg hostOps10 hostOps10_sub hostOps10_fresh (B20 m)),
    .region (reg10 m),
    .host (hseg hostOps11 hostOps11_sub hostOps11_fresh (B22 m)),
    .region (reg11 m),
    .host (hseg hostOps12 hostOps12_sub hostOps12_fresh (B24 m)),
    .region (reg12 m),
    .host (hseg hostOps13 hostOps13_sub hostOps13_fresh (B26 m)),
    .region (reg13 m),
    .host (hseg hostOps14 hostOps14_sub hostOps14_fresh (B28 m)),
    .host (hseg hostOps14_1 hostOps14_1_sub hostOps14_1_fresh (B29 m)),
    .host (hseg hostOps14_2 hostOps14_2_sub hostOps14_2_fresh (B30 m)) ]

set_option backward.isDefEq.respectTransparency.types false in
/-- Every weakly fair execution of the main program terminates, nothing faulting, and ends with every unscoped buffer
    of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B31 m c b) :=
  Pipeline.θ_run_regions_kit (pcfgs (F := F)) adm (pdats m) () cellOf_inj emb₁ defs₀ vr0 pairs0 lvl0 m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          StableHlo.seq hostOps14_1,
          StableHlo.seq hostOps14_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rc c))
    (Tₙ := fun c => iprop(StableHlo.held (c : Thread nD τ) (Pipeline.ucRefs τ sig) (B31 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B31 m c) ∗ Rc c) ⊢ _
        iintro ⟨Hh, Hp, HO⟩
        isplitl [Hh Hp]
        · isplitl [Hh]; · iexact Hh
          iexact Hp
        iexact HO⟩)
    (hinit := by
      refine Pipeline.initEach pairs0 lvl0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B31 m c b)
    (hfin := fun c s' => by
      iintro ⟨⟨Hh, -⟩, HSI⟩
      unfold StableHlo.held
      imodintro
      iapply (pointsTo_read_all (Pipeline.ucRefs τ sig) (fun b => (((c : Thread nD τ)).1, b)) (B31 m c) s')
      isplitl [Hh] <;> iassumption)
    (hQ := fun s h c => h c)

/-- The frame claim at any float instance: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (B31_main_arg0 m c),
    (h c _ (mem_uc main_arg1 (by decide))).trans (B31_main_arg1 m c),
    (h c _ (mem_uc main_arg2 (by decide))).trans (B31_main_arg2 m c),
    (h c _ (mem_uc main_arg3 (by decide))).trans (B31_main_arg3 m c),
    (h c _ (mem_uc main_arg4 (by decide))).trans (B31_main_arg4 m c),
    (h c _ (mem_uc main_arg5 (by decide))).trans (B31_main_arg5 m c),
    (h c _ (mem_uc main_arg6 (by decide))).trans (B31_main_arg6 m c),
    (h c _ (mem_uc main_arg7 (by decide))).trans (B31_main_arg7 m c),
    (h c _ (mem_uc main_arg8 (by decide))).trans (B31_main_arg8 m c),
    (h c _ (mem_uc main_arg9 (by decide))).trans (B31_main_arg9 m c),
    (h c _ (mem_uc main_arg10 (by decide))).trans (B31_main_arg10 m c),
    (h c _ (mem_uc main_arg11 (by decide))).trans (B31_main_arg11 m c),
    (h c _ (mem_uc main_arg12 (by decide))).trans (B31_main_arg12 m c),
    (h c _ (mem_uc main_arg13 (by decide))).trans (B31_main_arg13 m c),
    (h c _ (mem_uc main_arg14 (by decide))).trans (B31_main_arg14 m c),
    (h c _ (mem_uc main_arg15 (by decide))).trans (B31_main_arg15 m c),
    (h c _ (mem_uc main_arg16 (by decide))).trans (B31_main_arg16 m c),
    (h c _ (mem_uc main_arg17 (by decide))).trans (B31_main_arg17 m c),
    (h c _ (mem_uc main_arg18 (by decide))).trans (B31_main_arg18 m c)⟩) (run_all m ρ)

end Cert.KernelIdeal.Gen

end
-- ==== Proof.KRegion0.lean ====
/-
  Region 0, the node encoder: at grid point t the body reads a block of 10000 rows of x (window 0), the whole
  weight matrix (window 1) and the bias row (window 2), and stores one whole 10000 x 64 block of
  relu(x · w + b) into the output window (window 3). The body keeps nothing between points, so what each
  staging buffer holds after the body is a function of the three input blocks alone; this module states that
  function, proves the body's triple, and derives the pipeline's body obligation at every point, for any
  contents V of the buffers when the region is entered, at any float instance.
-/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole block -/

abbrev rx0 : Rect S10000x32 := Rect.unit (s := S10000x32) ![0, 0] S10000x32.size inb_S10000x32_S10000x32_0_0
abbrev rw0 : Rect S32x64 := Rect.unit (s := S32x64) ![0, 0] S32x64.size inb_S32x64_S32x64_0_0
abbrev rb0 : Rect S1x64 := Rect.unit (s := S1x64) ![0, 0] S1x64.size inb_S1x64_S1x64_0_0
abbrev ro0 : Rect S10000x64 := Rect.unit (s := S10000x64) ![0, 0] S10000x64.size inb_S10000x64_S10000x64_0_0

/-- The output window's staging buffer after the body, from the three input blocks: its one store. -/
def out0_3 (x0 : Vec F S10000x32 .f32) (x1 : Vec F S32x64 .f32) (x2 : Vec F S1x64 .f32) : Vec F S10000x64 .f32 :=
  View.canon [⟨ro0, k0_pay1 (View.ld x0 rx0) (View.ld x1 rw0) (View.ld x2 rb0)⟩]

/-- The one store covers the block. -/
theorem cover0_3 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

/-! ## The body's triple -/

set_option maxHeartbeats 1000000 in
/-- On whole staging memrefs, the inputs' at contents x0, x1, x2 and the output's at anything, the body runs to a
    state holding the inputs as they were and the output at out0_3 of them. -/
theorem sound_kernel0 (c : Dev nD) (E : Set ℕ) (i : grid0.Coords)
    (arg1 : Memref sig .tc .vmem S10000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x32 .f32) (x1 : Vec F S32x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_enc_kernel i arg1 harg1 arg2 harg2 arg3 harg3 arg4 harg4) K := by
  simp only [cc0__node_enc_kernel_eq_skeleton]; unfold cc0__node_enc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each input's
    buffer still at its block and the output's at out0_3 of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KRegion1.lean ====
/- The proof data and the body obligation of the pipeline of custom_call 1, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or
    not (then the block index has not moved since the last fetch), for any proof data over these arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or
    not (then the block index has not moved since the last fetch), for any proof data over these arrays whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or
    not (then the block index has not moved since the last fetch), for any proof data over these arrays whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store: the whole output block -/

abbrev r1_0 : Rect S10000x64 := Rect.unit (s := S10000x64) ![0, 0] S10000x64.size inb_S10000x64_S10000x64_0_0

/-- The output window's staging buffer after the body, from the input windows' blocks: the one store, of the
    payload of the loaded input blocks, over the whole rectangle. -/
def out1_3 (x0 : Vec F S10000x16 .f32) (x1 : Vec F S16x64 .f32) (x2 : Vec F S1x64 .f32) : Vec F S10000x64 .f32 :=
  View.canon [⟨r1_0, k1_pay1 (View.ld x0 (Rect.unit (s := S10000x16) ![0, 0] S10000x16.size inb_S10000x16_S10000x16_0_0)) (View.ld x1 (Rect.unit (s := S16x64) ![0, 0] S16x64.size inb_S16x64_S16x64_0_0)) (View.ld x2 (Rect.unit (s := S1x64) ![0, 0] S1x64.size inb_S1x64_S1x64_0_0))⟩]

/-- The store's rectangle is the whole buffer, so it covers every index. -/
theorem cover1_3 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

/-! ## The body's triple -/

set_option maxHeartbeats 1000000 in
/-- The kernel body on whole staging memrefs, the inputs' at contents x and the output's at anything, runs to the
    continuation holding the inputs' as they were and the output's at out1_3 of the inputs: the printed function
    is its skeleton, whose loads and one store are run one after the other. -/
theorem sound_kernel1 (c : Dev nD) (E : Set ℕ) (i : grid1.Coords) (arg0 : Memref sig .tc .vmem S10000x16 .f32) (harg0 : arg0.IsWhole) (arg1 : Memref sig .tc .vmem S16x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x16 .f32) (x1 : Vec F S16x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__edge_enc_kernel i arg0 harg0 arg1 harg1 arg2 harg2 arg3 harg3) K := by
  simp only [cc1__edge_enc_kernel_eq_skeleton]; unfold cc1__edge_enc_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    exact View.read_writes_eq_canon _ _ _ (cover1_3 _)

/-! ## The pipeline's proof data -/

/-- The proof data of the pipeline on core c: the arrays as the region finds them; after the body at point t each
    input's buffer at its block and the output's at out1_3 of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, the core's debt, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen
-- ==== Proof.KRegion2.lean ====
/- The proof data and the body obligation of the pipeline of custom_call 2, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or
    not (then the block index has not moved since the last fetch), for any proof data over these arrays whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or
    not (then the block index has not moved since the last fetch), for any proof data over these arrays whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store: the whole output block -/

abbrev r2_0 : Rect S10000x64 := Rect.unit (s := S10000x64) ![0, 0] S10000x64.size inb_S10000x64_S10000x64_0_0

/-- The output window's staging buffer after the body, from the input windows' blocks: the one store, of the
    payload of the loaded input blocks, over the whole rectangle. -/
def out2_2 (x0 : Vec F S10000x64 .f32) (x1 : Vec F S10000x64 .f32) : Vec F S10000x64 .f32 :=
  View.canon [⟨r2_0, k2_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover2_2 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

/-! ## The body's triple -/

set_option maxHeartbeats 1000000 in
/-- The kernel body on whole staging memrefs, the inputs' at contents x and the output's at anything, runs to the
    continuation holding the inputs' as they were and the output's at out2_2 of the inputs: the printed function
    is its skeleton, whose loads and one store are run one after the other. -/
theorem sound_kernel2 (c : Dev nD) (E : Set ℕ) (i : grid2.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__msg_kernel i arg0 harg0 arg1 harg1 arg2 harg2) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover2_2 _)

/-! ## The pipeline's proof data -/

/-- The proof data of the pipeline on core c: the arrays as the region finds them; after the body at point t each
    input's buffer at its block and the output's at out2_2 of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t: the invariant, the core's debt, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen
-- ==== Proof.KRegion3.lean ====
/- The proof data and the body obligation of the pipeline of custom_call 3, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA3 : Rect S10000x64 := Rect.unit (s := S10000x64) ![0, 0] S10000x64.size inb_S10000x64_S10000x64_0_0
abbrev rW1_3 : Rect S64x128 := Rect.unit (s := S64x128) ![0, 0] S64x128.size inb_S64x128_S64x128_0_0
abbrev rB1_3 : Rect S1x128 := Rect.unit (s := S1x128) ![0, 0] S1x128.size inb_S1x128_S1x128_0_0
abbrev rW2_3 : Rect S128x64 := Rect.unit (s := S128x64) ![0, 0] S128x64.size inb_S128x64_S128x64_0_0
abbrev rR3 : Rect S1x64 := Rect.unit (s := S1x64) ![0, 0] S1x64.size inb_S1x64_S1x64_0_0

/-! ## The values the body stores -/

/-- The second matmul's result with its bias, from the five input blocks: what the body stores into the first output
    window's buffer and sums column by column. -/
def zraw3 (x1 : Vec F S10000x64 .f32) (x2 : Vec F S64x128 .f32) (x3 : Vec F S1x128 .f32) (x4 : Vec F S128x64 .f32) (x5 : Vec F S1x64 .f32) : Vec F S10000x64 .f32 :=
  k3_pay4 (View.ld x1 rA3) (View.ld x2 rW1_3) (View.ld x3 rB1_3) (View.ld x4 rW2_3) (View.ld x5 rR3)

/-- The running column sums after a point: the row `v` the sum scratch held, plus the column sums of the point's result. -/
def sumP3 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k3_pay5 (View.ld x1 rA3) (View.ld x2 rW1_3) (View.ld x3 rB1_3) (View.ld x4 rW2_3) (View.ld x5 rR3) v

/-- The running column sums of squares after a point: the row `v` the second scratch held, plus the column sums of the
    squares of the point's result. -/
def sqP3 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k3_pay1 (zraw3 x1 x2 x3 x4 x5) v

/-- The first output window's staging buffer after the body: its one store, over the whole buffer. -/
def out3_5 (x1 : Vec F S10000x64 .f32) (x2 : Vec F S64x128 .f32) (x3 : Vec F S1x128 .f32) (x4 : Vec F S128x64 .f32) (x5 : Vec F S1x64 .f32) : Vec F S10000x64 .f32 :=
  View.canon [⟨rA3, zraw3 x1 x2 x3 x4 x5⟩]

/-- A one-row buffer after a store of the row `p` over the whole of it. -/
def rowBuf3 (p : Vec F S1x64 .f32) : Vec F S1x64 .f32 :=
  View.canon [⟨rR3, p⟩]

/-- A whole-buffer store covers every index of the large block, -/
theorem coverA3 (p0 : Vec F S10000x64 .f32) (y : S10000x64.Idx) :
    ∃ pc ∈ ([⟨rA3, p0⟩] : List (View.Piece (Elt F) S10000x64 .f32)), y ∈ pc.1.set :=
  View.cover_of_tiled [⟨rA3, p0⟩] S10000x64.size (by rfl) y

/-- and of a one-row buffer, -/
theorem coverR3 (p0 : Vec F S1x64 .f32) (y : S1x64.Idx) :
    ∃ pc ∈ ([⟨rR3, p0⟩] : List (View.Piece (Elt F) S1x64 .f32)), y ∈ pc.1.set :=
  View.cover_of_tiled [⟨rR3, p0⟩] S1x64.size (by rfl) y

/-- whatever was stored before it. -/
theorem coverR3_cons (p0 : Vec F S1x64 .f32) (L : List (View.Piece (Elt F) S1x64 .f32)) (y : S1x64.Idx) :
    ∃ pc ∈ (⟨rR3, p0⟩ :: L : List (View.Piece (Elt F) S1x64 .f32)), y ∈ pc.1.set := by
  obtain ⟨pc, hm, hy⟩ := coverR3 p0 y
  exact ⟨pc, List.mem_cons.mpr (Or.inl (List.mem_singleton.mp hm)), hy⟩

/-- A whole-row store hides the stores before it: the buffer reads as the row alone. -/
theorem canon_rowBuf3 (p0 : Vec F S1x64 .f32) (L : List (View.Piece (Elt F) S1x64 .f32)) :
    View.canon (⟨rR3, p0⟩ :: L) = rowBuf3 p0 := by
  funext y
  obtain ⟨pc, hm, hy⟩ := coverR3 p0 y
  obtain rfl : pc = ⟨rR3, p0⟩ := List.mem_singleton.mp hm
  obtain ⟨x, rfl⟩ : ∃ x, (rR3).emb x = y := (rR3).exists_idx_of_mem hy
  unfold rowBuf3
  rw [View.canon_cons_emb, View.canon_cons_emb]

/-- A load of the whole of a one-row buffer after a whole-row store reads the row stored. -/
theorem ld_rowBuf3 (p0 : Vec F S1x64 .f32) : View.ld (rowBuf3 p0) rR3 = p0 := by
  funext x
  exact View.canon_cons_emb rR3 p0 [] x

/-! ## The branch on the grid coordinate -/

/-- The condition of the body's one conditional (the zero-fill of the two scratch rows), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-- What any view of a one-row buffer reads after a whole-row store of `p`, whatever was stored before and whatever it held. -/
theorem read_rowStore3 (v : View sig .tc .vmem S1x64 .f32) (f : v.ty.Contents (Elt F)) (p0 : Vec F S1x64 .f32)
    (L : List (View.Piece (Elt F) S1x64 .f32)) :
    v.read (Elt F) (v.writes (Elt F) f (⟨rR3, p0⟩ :: L)) = rowBuf3 p0 :=
  (View.read_writes_eq_canon _ _ _ (coverR3_cons p0 L)).trans (canon_rowBuf3 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel3_first (c : Dev nD) (E : Set ℕ) (i : grid3.Coords) (hc : cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 (k3_pay2 (F := F))))
            ∗ owns (c : Thread nD τ) arg8 fullShare (rowBuf3 (sqP3 x1 x2 x3 x4 x5 (k3_pay3 (F := F))))
            ∗ owns (c : Thread nD τ) arg9 fullShare (rowBuf3 (sumP3 x1 x2 x3 x4 x5 (k3_pay2 (F := F))))
            ∗ owns (c : Thread nD τ) arg10 fullShare (rowBuf3 (sqP3 x1 x2 x3 x4 x5 (k3_pay3 (F := F))))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  simp only [cc3__mlp_stats_kernel_eq_skeleton]; unfold cc3__mlp_stats_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA3 _)
  isplitl [H7]
  · iexists _; isplitr
    swap; · iexact H7
    ipureintro
    exact (read_rowStore3 _ _ _ _).trans (congrArg rowBuf3 ((View.readCov_cons_toLoadRect _ rR3 _ _).trans
      (congrArg (k3_pay5 _ _ _ _ _) (View.readCov_cons_toLoadRect _ rR3 _ _))))
  isplitl [H8]
  · iexists _; isplitr
    swap; · iexact H8
    ipureintro
    exact (read_rowStore3 _ _ _ _).trans (congrArg rowBuf3 ((View.readCov_cons_toLoadRect _ rR3 _ _).trans
      (congrArg (k3_pay1 _) (View.readCov_cons_toLoadRect _ rR3 _ _))))
  isplitl [H9]
  · iexists _; isplitr
    swap; · iexact H9
    ipureintro
    exact (read_rowStore3 _ _ _ _).trans (congrArg rowBuf3 (congrArg (k3_pay5 _ _ _ _ _) (View.readCov_cons_toLoadRect _ rR3 _ _)))
  · iexists _; isplitr
    swap; · iexact H10
    ipureintro
    exact (read_rowStore3 _ _ _ _).trans (congrArg rowBuf3 (congrArg (k3_pay1 _) (View.readCov_cons_toLoadRect _ rR3 _ _)))

set_option maxHeartbeats 4000000 in
/-- Where the condition fails: the two scratch rows at what they hold, `s9` and `s10`; the body stores the result block,
    adds its column sums (and those of its squares) to the rows and copies the two rows into the last two output
    windows' buffers. -/
theorem sound_kernel3_later (c : Dev nD) (E : Set ℕ) (i : grid3.Coords) (hc : ¬cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 (View.ld s9 rR3)))
            ∗ owns (c : Thread nD τ) arg8 fullShare (rowBuf3 (sqP3 x1 x2 x3 x4 x5 (View.ld s10 rR3)))
            ∗ owns (c : Thread nD τ) arg9 fullShare (rowBuf3 (sumP3 x1 x2 x3 x4 x5 (View.ld s9 rR3)))
            ∗ owns (c : Thread nD τ) arg10 fullShare (rowBuf3 (sqP3 x1 x2 x3 x4 x5 (View.ld s10 rR3)))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  simp only [cc3__mlp_stats_kernel_eq_skeleton]; unfold cc3__mlp_stats_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA3 _)
  isplitl [H7]
  · iexists _; isplitr
    swap; · iexact H7
    ipureintro
    exact (read_rowStore3 _ _ _ _).trans (congrArg rowBuf3 (View.readCov_cons_toLoadRect _ rR3 _ _))
  isplitl [H8]
  · iexists _; isplitr
    swap; · iexact H8
    ipureintro
    exact (read_rowStore3 _ _ _ _).trans (congrArg rowBuf3 (View.readCov_cons_toLoadRect _ rR3 _ _))
  isplitl [H9]
  · iexists _; isplitr
    swap; · iexact H9
    ipureintro
    exact read_rowStore3 _ _ _ _
  · iexists _; isplitr
    swap; · iexact H10
    ipureintro
    exact read_rowStore3 _ _ _ _

/-- The same with the rows the two loads read named: `p9` and `p10` are what a load of the whole of each scratch row reads. -/
theorem sound_kernel3_later' (c : Dev nD) (E : Set ℕ) (i : grid3.Coords) (hc : ¬cond3_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR3 = p9) (h10 : View.ld s10 rR3 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_5 x1 x2 x3 x4 x5)
            ∗ owns (c : Thread nD τ) arg7 fullShare (rowBuf3 (sumP3 x1 x2 x3 x4 x5 p9))
            ∗ owns (c : Thread nD τ) arg8 fullShare (rowBuf3 (sqP3 x1 x2 x3 x4 x5 p10))
            ∗ owns (c : Thread nD τ) arg9 fullShare (rowBuf3 (sumP3 x1 x2 x3 x4 x5 p9))
            ∗ owns (c : Thread nD τ) arg10 fullShare (rowBuf3 (sqP3 x1 x2 x3 x4 x5 p10))) -∗ K ⟨⟩))
      ⊢ wp frame (wpE (defs₀ (F := F)) Variants.none c none) E (cc3__mlp_stats_kernel i arg1 harg1 arg2 harg2 arg3 harg3 arg4 harg4 arg5 harg5 arg6 harg6 arg7 harg7 arg8 harg8 arg9 harg9 arg10 harg10) K := by
  subst h9 h10
  exact sound_kernel3_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or not (then its
    block index has not moved since the last fetch), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or not (then its
    block index has not moved since the last fetch), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or not (then its
    block index has not moved since the last fetch), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether it was fetched there or not (then its
    block index has not moved since the last fetch), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether it was fetched there or not (then its
    block index has not moved since the last fetch), for any proof data over these arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The two scratch rows, point by point -/

/-- The running sums the point `t` leaves, from the rows `v` it finds. -/
def sumAt3 (c : Dev nD) (t : Fin cfg3.N) (v : Vec F S1x64 .f32) : Vec F S1x64 .f32 :=
  sumP3 (iblk3 V c 0 t) (iblk3 V c 1 t) (iblk3 V c 2 t) (iblk3 V c 3 t) (iblk3 V c 4 t) v
def sqAt3 (c : Dev nD) (t : Fin cfg3.N) (v : Vec F S1x64 .f32) : Vec F S1x64 .f32 :=
  sqP3 (iblk3 V c 0 t) (iblk3 V c 1 t) (iblk3 V c 2 t) (iblk3 V c 3 t) (iblk3 V c 4 t) v

/-- THE ACCUMULATION. The rows the body stores into the two scratch buffers (column sums; column sums of squares) at
    position `n`: at the first point over the zero rows the body has just filled in, afterwards over the rows the point
    before stored. -/
def acc3 (c : Dev nD) : (n : ℕ) → n < cfg3.N → Vec F S1x64 .f32 × Vec F S1x64 .f32
  | 0, hn => (sumAt3 V c ⟨0, hn⟩ (k3_pay2 (F := F)), sqAt3 V c ⟨0, hn⟩ (k3_pay3 (F := F)))
  | n + 1, hn => (sumAt3 V c ⟨n + 1, hn⟩ (acc3 c n (Nat.lt_of_succ_lt hn)).1, sqAt3 V c ⟨n + 1, hn⟩ (acc3 c n (Nat.lt_of_succ_lt hn)).2)

/-- At the first point: over the zero rows. -/
theorem acc3_first (c : Dev nD) (t : Fin cfg3.N) (hz : t.val = 0) :
    acc3 V c t.val t.isLt = (sumAt3 V c t (k3_pay2 (F := F)), sqAt3 V c t (k3_pay3 (F := F))) := by
  obtain ⟨n, hn⟩ := t
  cases n with
  | zero => rfl
  | succ n => exact absurd hz (Nat.succ_ne_zero n)

/-- At a later point: over what the point before stored. -/
theorem acc3_later (c : Dev nD) (t : Fin cfg3.N) (hz : t.val ≠ 0) :
    acc3 V c t.val t.isLt = (sumAt3 V c t (acc3 V c (t.val - 1) (Nat.lt_of_le_of_lt (Nat.sub_le _ _) t.isLt)).1,
      sqAt3 V c t (acc3 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM3_0 : Memref sig .tc .vmem S1x64 .f32 := Memref.whole cc3_scratch0
abbrev scM3_1 : Memref sig .tc .vmem S1x64 .f32 := Memref.whole cc3_scratch1

/-- The invariant before position `n`: before the first point the scoped buffers no window stages, each at anything, and
    the generator register at some state; afterwards the same with the two scratch rows at what the point before stored. -/
def PhiS3 (c : Dev nD) : (n : ℕ) → n ≤ cfg3.N → sProp 𝕄
  | 0, _ => Pipeline.ΦA spec3 c
  | n + 1, hn => iprop(iprop(iprop(owns (c : Thread nD τ) scM3_0 fullShare (rowBuf3 (acc3 V c n hn).1) ∗ owns (c : Thread nD τ) scM3_1 fullShare (rowBuf3 (acc3 V c n hn).2))
        ∗ Pipeline.scopedRestBut (Ix := Unit) (Name := ℕ) (U := UR sig nD τ) (Lvl := ℕ) (Val := Elt F) spec3 c [cc3_scratch0, cc3_scratch1])
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (rowBuf3 (acc3 V c n hn).1) ∗ owns (c : Thread nD τ) scM3_1 fullShare (rowBuf3 (acc3 V c n hn).2))
        ∗ Pipeline.scopedRestBut (Ix := Unit) (Name := ℕ) (U := UR sig nD τ) (Lvl := ℕ) (Val := Elt F) spec3 c [cc3_scratch0, cc3_scratch1])
      ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (rowBuf3 (acc3 V c (n - 1) (by omega)).1) ∗ owns (c : Thread nD τ) scM3_1 fullShare (rowBuf3 (acc3 V c (n - 1) (by omega)).2))
        ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-- The invariant before the first point with the two scratch operands as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => rowBuf3 (acc3 V c t.val t.isLt).1
    | ⟨7, _⟩ => rowBuf3 (acc3 V c t.val t.isLt).2
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- Before the first point the invariant is the scoped rest and the generator register; -/
theorem Phi3_zero (c : Dev nD) : (dat3 V c).Φ 0 = Pipeline.ΦA spec3 c := rfl

/-- after the last point it holds the two scratch rows at the totals over all ten points. -/
theorem Phi3_last (c : Dev nD) :
    (dat3 V c).Φ (Fin.last cfg3.N) = iprop(iprop(iprop(owns (c : Thread nD τ) scM3_0 fullShare (rowBuf3 (acc3 V c 9 (by rw [show cfg3.N = 10 from N_3]; decide)).1) ∗ owns (c : Thread nD τ) scM3_1 fullShare (rowBuf3 (acc3 V c 9 (by rw [show cfg3.N = 10 from N_3]; decide)).2))
        ∗ Pipeline.scopedRestBut (Ix := Unit) (Name := ℕ) (U := UR sig nD τ) (Lvl := ℕ) (Val := Elt F) spec3 c [cc3_scratch0, cc3_scratch1])
      ∗ (∃ r, prngReg c r)) := by
  rw [show (dat3 V c).Φ (Fin.last cfg3.N) = PhiS3 V c (Fin.last cfg3.N).val (Nat.le_of_lt_succ (Fin.last cfg3.N).isLt) from rfl]
  rw [PhiS3_pos V c _ _ (by rw [Fin.val_last]; have : cfg3.N = 10 := N_3; omega)]
  have hN : (Fin.last cfg3.N).val - 1 = 9 := by rw [Fin.val_last]; have : cfg3.N = 10 := N_3; omega
  simp only [hN]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = rowBuf3 (acc3 V c t.val t.isLt).1 := by dsimp only [dat3]
theorem after3_7 (c : Dev nD) (t : Fin cfg3.N) : (dat3 V c).after 7 t = rowBuf3 (acc3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The invariant against the launch's resources -/

/-- What the launch hands the region — the generator register, no prefetched table (anything beside them is dropped), the
    scoped buffers no window stages — is the invariant before the first point. -/
theorem phi_in3 (c : Dev nD) (P : sProp 𝕄) :
    iprop((∃ r, prngReg c r) ∗ P ∗ Pipeline.scopedRest (Ix := Unit) (Name := ℕ) (U := UR sig nD τ) (Lvl := ℕ) (Val := Elt F) spec3 c) ⊢ (dat3 V c).Φ 0 := by
  rw [Phi3_zero]; unfold Pipeline.ΦA
  iintro ⟨Hp, -, Hr⟩
  isplitl [Hr]; · iexact Hr
  iexact Hp

/-- After the last point the invariant gives them back: the two scratch rows' contents are forgotten. -/
theorem Phi3_out_A (c : Dev nD) : (dat3 V c).Φ (Fin.last cfg3.N) ⊢ Pipeline.ΦA spec3 c := by
  rw [Phi3_last, PhiA3_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out3 (c : Dev nD) :
    (dat3 V c).Φ (Fin.last cfg3.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec3 c) := by
  refine (Phi3_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7]
  rw [show (dat3 V c).Φ t.succ = PhiS3 V c (t.val + 1) t.isLt from rfl, PhiS3_succ, PhiS3_castSucc]
  have hN : t.val < 10 := lt_of_lt_of_eq t.isLt (show cfg3.N = 10 from N_3)
  by_cases hz : t.val = 0
  · rw [PhiS3_zero V c _ _ hz, PhiA3_eq, acc3_first V c t hz]
    unfold sumAt3 sqAt3
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_first c Set.univ (grid3.coords t) ((hcond3_0 t).mpr (by omega)) _ _ _ _ _ _ _ _ _ _ _ _ _ _ _ _ _ _ _ _
      (iblk3 V c 0 t) (iblk3 V c 1 t) (iblk3 V c 2 t) (iblk3 V c 3 t) (iblk3 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS3_pos V c _ _ hz, acc3_later V c t hz]
    unfold sumAt3 sqAt3
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_later' c Set.univ (grid3.coords t) (fun h => hz (by have h' := (hcond3_0 t).mp h; omega)) _ _ _ _ _ _ _ _ _ _ _ _ _ _ _ _ _ _ _ _
      (iblk3 V c 0 t) (iblk3 V c 1 t) (iblk3 V c 2 t) (iblk3 V c 3 t) (iblk3 V c 4 t) (rowBuf3 _) (rowBuf3 _) _ _ (ld_rowBuf3 _) (ld_rowBuf3 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KRegion4.lean ====
/- The proof data and the body obligation of the pipeline of custom_call 4, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or
    not (then the block index has not moved since the last fetch), for any proof data over these arrays whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or
    not (then the block index has not moved since the last fetch), for any proof data over these arrays whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether it was fetched there or
    not (then the block index has not moved since the last fetch), for any proof data over these arrays whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether it was fetched there or
    not (then the block index has not moved since the last fetch), for any proof data over these arrays whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether it was fetched there or
    not (then the block index has not moved since the last fetch), for any proof data over these arrays whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether it was fetched there or
    not (then the block index has not moved since the last fetch), for any proof data over these arrays whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store: the whole output block -/

abbrev r4_0 : Rect S10000x64 := Rect.unit (s := S10000x64) ![0, 0] S10000x64.size inb_S10000x64_S10000x64_0_0

/-- The output window's staging buffer after the body, from the input windows' blocks: the one store, of the
    payload of the loaded input blocks, over the whole rectangle. -/
def out4_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r4_0, k4_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover4_6 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

/-! ## The body's triple -/

set_option maxHeartbeats 1000000 in
/-- The kernel body on whole staging memrefs, the inputs' at contents x and the output's at anything, runs to the
    continuation holding the inputs' as they were and the output's at out4_6 of the inputs: the printed function
    is its skeleton, whose loads and one store are run one after the other. -/
theorem sound_kernel4 (c : Dev nD) (E : Set ℕ) (i : grid4.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out4_6 x0 x1 x2 x3 x4 x5)) -∗ K ⟨⟩))
      ⊢ wp frame (wpE (defs₀ (F := F)) Variants.none c none) E (cc4__bn_resid_kernel i arg0 harg0 arg1 harg1 arg2 harg2 arg3 harg3 arg4 harg4 arg5 harg5 arg6 harg6) K := by
  simp only [cc4__bn_resid_kernel_eq_skeleton]; unfold cc4__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover4_6 _)

/-! ## The pipeline's proof data -/

/-- The proof data of the pipeline on core c: the arrays as the region finds them; after the body at point t each
    input's buffer at its block and the output's at out4_6 of the input blocks; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t: the invariant, the core's debt, and each window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen
-- ==== Proof.KRegion5.lean ====
/- The proof data and the body obligation of the pipeline of custom_call 5, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or
    not (then the block index has not moved since the last fetch), for any proof data over these arrays whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or
    not (then the block index has not moved since the last fetch), for any proof data over these arrays whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's one store: the whole output block -/

abbrev r5_0 : Rect S10000x64 := Rect.unit (s := S10000x64) ![0, 0] S10000x64.size inb_S10000x64_S10000x64_0_0

/-- The output window's staging buffer after the body, from the input windows' blocks: the one store, of the
    payload of the loaded input blocks, over the whole rectangle. -/
def out5_2 (x0 : Vec F S10000x64 .f32) (x1 : Vec F S10000x64 .f32) : Vec F S10000x64 .f32 :=
  View.canon [⟨r5_0, k5_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover5_2 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

/-! ## The body's triple -/

set_option maxHeartbeats 1000000 in
/-- The kernel body on whole staging memrefs, the inputs' at contents x and the output's at anything, runs to the
    continuation holding the inputs' as they were and the output's at out5_2 of the inputs: the printed function
    is its skeleton, whose loads and one store are run one after the other. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__msg_kernel i arg0 harg0 arg1 harg1 arg2 harg2) K := by
  simp only [cc5__msg_kernel_eq_skeleton]; unfold cc5__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover5_2 _)

/-! ## The pipeline's proof data -/

/-- The proof data of the pipeline on core c: the arrays as the region finds them; after the body at point t each
    input's buffer at its block and the output's at out5_2 of the input blocks; the invariant is the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t: the invariant, the core's debt, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen
-- ==== Proof.KRegion6.lean ====
/- The proof data and the body obligation of the pipeline of custom_call 6, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA6 : Rect S10000x64 := Rect.unit (s := S10000x64) ![0, 0] S10000x64.size inb_S10000x64_S10000x64_0_0
abbrev rW1_6 : Rect S64x128 := Rect.unit (s := S64x128) ![0, 0] S64x128.size inb_S64x128_S64x128_0_0
abbrev rB1_6 : Rect S1x128 := Rect.unit (s := S1x128) ![0, 0] S1x128.size inb_S1x128_S1x128_0_0
abbrev rW2_6 : Rect S128x64 := Rect.unit (s := S128x64) ![0, 0] S128x64.size inb_S128x64_S128x64_0_0
abbrev rR6 : Rect S1x64 := Rect.unit (s := S1x64) ![0, 0] S1x64.size inb_S1x64_S1x64_0_0

/-! ## The values the body stores -/

/-- The second matmul's result with its bias, from the five input blocks: what the body stores into the first output
    window's buffer and sums column by column. -/
def zraw6 (x1 : Vec F S10000x64 .f32) (x2 : Vec F S64x128 .f32) (x3 : Vec F S1x128 .f32) (x4 : Vec F S128x64 .f32) (x5 : Vec F S1x64 .f32) : Vec F S10000x64 .f32 :=
  k6_pay4 (View.ld x1 rA6) (View.ld x2 rW1_6) (View.ld x3 rB1_6) (View.ld x4 rW2_6) (View.ld x5 rR6)

/-- The running column sums after a point: the row `v` the sum scratch held, plus the column sums of the point's result. -/
def sumP6 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k6_pay5 (View.ld x1 rA6) (View.ld x2 rW1_6) (View.ld x3 rB1_6) (View.ld x4 rW2_6) (View.ld x5 rR6) v

/-- The running column sums of squares after a point: the row `v` the second scratch held, plus the column sums of the
    squares of the point's result. -/
def sqP6 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k6_pay1 (zraw6 x1 x2 x3 x4 x5) v

/-- The first output window's staging buffer after the body: its one store, over the whole buffer. -/
def out6_5 (x1 : Vec F S10000x64 .f32) (x2 : Vec F S64x128 .f32) (x3 : Vec F S1x128 .f32) (x4 : Vec F S128x64 .f32) (x5 : Vec F S1x64 .f32) : Vec F S10000x64 .f32 :=
  View.canon [⟨rA6, zraw6 x1 x2 x3 x4 x5⟩]

/-- A one-row buffer after a store of the row `p` over the whole of it. -/
def rowBuf6 (p : Vec F S1x64 .f32) : Vec F S1x64 .f32 :=
  View.canon [⟨rR6, p⟩]

/-- A whole-buffer store covers every index of the large block, -/
theorem coverA6 (p0 : Vec F S10000x64 .f32) (y : S10000x64.Idx) :
    ∃ pc ∈ ([⟨rA6, p0⟩] : List (View.Piece (Elt F) S10000x64 .f32)), y ∈ pc.1.set :=
  View.cover_of_tiled [⟨rA6, p0⟩] S10000x64.size (by rfl) y

/-- and of a one-row buffer, -/
theorem coverR6 (p0 : Vec F S1x64 .f32) (y : S1x64.Idx) :
    ∃ pc ∈ ([⟨rR6, p0⟩] : List (View.Piece (Elt F) S1x64 .f32)), y ∈ pc.1.set :=
  View.cover_of_tiled [⟨rR6, p0⟩] S1x64.size (by rfl) y

/-- whatever was stored before it. -/
theorem coverR6_cons (p0 : Vec F S1x64 .f32) (L : List (View.Piece (Elt F) S1x64 .f32)) (y : S1x64.Idx) :
    ∃ pc ∈ (⟨rR6, p0⟩ :: L : List (View.Piece (Elt F) S1x64 .f32)), y ∈ pc.1.set := by
  obtain ⟨pc, hm, hy⟩ := coverR6 p0 y
  exact ⟨pc, List.mem_cons.mpr (Or.inl (List.mem_singleton.mp hm)), hy⟩

/-- A whole-row store hides the stores before it: the buffer reads as the row alone. -/
theorem canon_rowBuf6 (p0 : Vec F S1x64 .f32) (L : List (View.Piece (Elt F) S1x64 .f32)) :
    View.canon (⟨rR6, p0⟩ :: L) = rowBuf6 p0 := by
  funext y
  obtain ⟨pc, hm, hy⟩ := coverR6 p0 y
  obtain rfl : pc = ⟨rR6, p0⟩ := List.mem_singleton.mp hm
  obtain ⟨x, rfl⟩ : ∃ x, (rR6).emb x = y := (rR6).exists_idx_of_mem hy
  unfold rowBuf6
  rw [View.canon_cons_emb, View.canon_cons_emb]

/-- A load of the whole of a one-row buffer after a whole-row store reads the row stored. -/
theorem ld_rowBuf6 (p0 : Vec F S1x64 .f32) : View.ld (rowBuf6 p0) rR6 = p0 := by
  funext x
  exact View.canon_cons_emb rR6 p0 [] x

/-! ## The branch on the grid coordinate -/

/-- The condition of the body's one conditional (the zero-fill of the two scratch rows), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 10 = 0 :=
  (by decide +kernel : ∀ t : Fin grid6.N, cond6_0 (grid6.coords t) ↔ t.val % 10 = 0)

/-- What any view of a one-row buffer reads after a whole-row store of `p`, whatever was stored before and whatever it held. -/
theorem read_rowStore6 (v : View sig .tc .vmem S1x64 .f32) (f : v.ty.Contents (Elt F)) (p0 : Vec F S1x64 .f32)
    (L : List (View.Piece (Elt F) S1x64 .f32)) :
    v.read (Elt F) (v.writes (Elt F) f (⟨rR6, p0⟩ :: L)) = rowBuf6 p0 :=
  (View.read_writes_eq_canon _ _ _ (coverR6_cons p0 L)).trans (canon_rowBuf6 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel6_first (c : Dev nD) (E : Set ℕ) (i : grid6.Coords) (hc : cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 (k6_pay2 (F := F))))
            ∗ owns (c : Thread nD τ) arg8 fullShare (rowBuf6 (sqP6 x1 x2 x3 x4 x5 (k6_pay3 (F := F))))
            ∗ owns (c : Thread nD τ) arg9 fullShare (rowBuf6 (sumP6 x1 x2 x3 x4 x5 (k6_pay2 (F := F))))
            ∗ owns (c : Thread nD τ) arg10 fullShare (rowBuf6 (sqP6 x1 x2 x3 x4 x5 (k6_pay3 (F := F))))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  simp only [cc6__mlp_stats_kernel_eq_skeleton]; unfold cc6__mlp_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA6 _)
  isplitl [H7]
  · iexists _; isplitr
    swap; · iexact H7
    ipureintro
    exact (read_rowStore6 _ _ _ _).trans (congrArg rowBuf6 ((View.readCov_cons_toLoadRect _ rR6 _ _).trans
      (congrArg (k6_pay5 _ _ _ _ _) (View.readCov_cons_toLoadRect _ rR6 _ _))))
  isplitl [H8]
  · iexists _; isplitr
    swap; · iexact H8
    ipureintro
    exact (read_rowStore6 _ _ _ _).trans (congrArg rowBuf6 ((View.readCov_cons_toLoadRect _ rR6 _ _).trans
      (congrArg (k6_pay1 _) (View.readCov_cons_toLoadRect _ rR6 _ _))))
  isplitl [H9]
  · iexists _; isplitr
    swap; · iexact H9
    ipureintro
    exact (read_rowStore6 _ _ _ _).trans (congrArg rowBuf6 (congrArg (k6_pay5 _ _ _ _ _) (View.readCov_cons_toLoadRect _ rR6 _ _)))
  · iexists _; isplitr
    swap; · iexact H10
    ipureintro
    exact (read_rowStore6 _ _ _ _).trans (congrArg rowBuf6 (congrArg (k6_pay1 _) (View.readCov_cons_toLoadRect _ rR6 _ _)))

set_option maxHeartbeats 4000000 in
/-- Where the condition fails: the two scratch rows at what they hold, `s9` and `s10`; the body stores the result block,
    adds its column sums (and those of its squares) to the rows and copies the two rows into the last two output
    windows' buffers. -/
theorem sound_kernel6_later (c : Dev nD) (E : Set ℕ) (i : grid6.Coords) (hc : ¬cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 (View.ld s9 rR6)))
            ∗ owns (c : Thread nD τ) arg8 fullShare (rowBuf6 (sqP6 x1 x2 x3 x4 x5 (View.ld s10 rR6)))
            ∗ owns (c : Thread nD τ) arg9 fullShare (rowBuf6 (sumP6 x1 x2 x3 x4 x5 (View.ld s9 rR6)))
            ∗ owns (c : Thread nD τ) arg10 fullShare (rowBuf6 (sqP6 x1 x2 x3 x4 x5 (View.ld s10 rR6)))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  simp only [cc6__mlp_stats_kernel_eq_skeleton]; unfold cc6__mlp_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA6 _)
  isplitl [H7]
  · iexists _; isplitr
    swap; · iexact H7
    ipureintro
    exact (read_rowStore6 _ _ _ _).trans (congrArg rowBuf6 (View.readCov_cons_toLoadRect _ rR6 _ _))
  isplitl [H8]
  · iexists _; isplitr
    swap; · iexact H8
    ipureintro
    exact (read_rowStore6 _ _ _ _).trans (congrArg rowBuf6 (View.readCov_cons_toLoadRect _ rR6 _ _))
  isplitl [H9]
  · iexists _; isplitr
    swap; · iexact H9
    ipureintro
    exact read_rowStore6 _ _ _ _
  · iexists _; isplitr
    swap; · iexact H10
    ipureintro
    exact read_rowStore6 _ _ _ _

/-- The same with the rows the two loads read named: `p9` and `p10` are what a load of the whole of each scratch row reads. -/
theorem sound_kernel6_later' (c : Dev nD) (E : Set ℕ) (i : grid6.Coords) (hc : ¬cond6_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR6 = p9) (h10 : View.ld s10 rR6 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_5 x1 x2 x3 x4 x5)
            ∗ owns (c : Thread nD τ) arg7 fullShare (rowBuf6 (sumP6 x1 x2 x3 x4 x5 p9))
            ∗ owns (c : Thread nD τ) arg8 fullShare (rowBuf6 (sqP6 x1 x2 x3 x4 x5 p10))
            ∗ owns (c : Thread nD τ) arg9 fullShare (rowBuf6 (sumP6 x1 x2 x3 x4 x5 p9))
            ∗ owns (c : Thread nD τ) arg10 fullShare (rowBuf6 (sqP6 x1 x2 x3 x4 x5 p10))) -∗ K ⟨⟩))
      ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10) K := by
  subst h9 h10
  exact sound_kernel6_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or not (then its
    block index has not moved since the last fetch), for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether it was fetched there or not (then its
    block index has not moved since the last fetch), for any proof data over these arrays whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether it was fetched there or not (then its
    block index has not moved since the last fetch), for any proof data over these arrays whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether it was fetched there or not (then its
    block index has not moved since the last fetch), for any proof data over these arrays whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether it was fetched there or not (then its
    block index has not moved since the last fetch), for any proof data over these arrays whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The two scratch rows, point by point -/

/-- The running sums the point `t` leaves, from the rows `v` it finds. -/
def sumAt6 (c : Dev nD) (t : Fin cfg6.N) (v : Vec F S1x64 .f32) : Vec F S1x64 .f32 :=
  sumP6 (iblk6 V c 0 t) (iblk6 V c 1 t) (iblk6 V c 2 t) (iblk6 V c 3 t) (iblk6 V c 4 t) v
def sqAt6 (c : Dev nD) (t : Fin cfg6.N) (v : Vec F S1x64 .f32) : Vec F S1x64 .f32 :=
  sqP6 (iblk6 V c 0 t) (iblk6 V c 1 t) (iblk6 V c 2 t) (iblk6 V c 3 t) (iblk6 V c 4 t) v

/-- THE ACCUMULATION. The rows the body stores into the two scratch buffers (column sums; column sums of squares) at
    position `n`: at the first point over the zero rows the body has just filled in, afterwards over the rows the point
    before stored. -/
def acc6 (c : Dev nD) : (n : ℕ) → n < cfg6.N → Vec F S1x64 .f32 × Vec F S1x64 .f32
  | 0, hn => (sumAt6 V c ⟨0, hn⟩ (k6_pay2 (F := F)), sqAt6 V c ⟨0, hn⟩ (k6_pay3 (F := F)))
  | n + 1, hn => (sumAt6 V c ⟨n + 1, hn⟩ (acc6 c n (Nat.lt_of_succ_lt hn)).1, sqAt6 V c ⟨n + 1, hn⟩ (acc6 c n (Nat.lt_of_succ_lt hn)).2)

/-- At the first point: over the zero rows. -/
theorem acc6_first (c : Dev nD) (t : Fin cfg6.N) (hz : t.val = 0) :
    acc6 V c t.val t.isLt = (sumAt6 V c t (k6_pay2 (F := F)), sqAt6 V c t (k6_pay3 (F := F))) := by
  obtain ⟨n, hn⟩ := t
  cases n with
  | zero => rfl
  | succ n => exact absurd hz (Nat.succ_ne_zero n)

/-- At a later point: over what the point before stored. -/
theorem acc6_later (c : Dev nD) (t : Fin cfg6.N) (hz : t.val ≠ 0) :
    acc6 V c t.val t.isLt = (sumAt6 V c t (acc6 V c (t.val - 1) (Nat.lt_of_le_of_lt (Nat.sub_le _ _) t.isLt)).1,
      sqAt6 V c t (acc6 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM6_0 : Memref sig .tc .vmem S1x64 .f32 := Memref.whole cc6_scratch0
abbrev scM6_1 : Memref sig .tc .vmem S1x64 .f32 := Memref.whole cc6_scratch1

/-- The invariant before position `n`: before the first point the scoped buffers no window stages, each at anything, and
    the generator register at some state; afterwards the same with the two scratch rows at what the point before stored. -/
def PhiS6 (c : Dev nD) : (n : ℕ) → n ≤ cfg6.N → sProp 𝕄
  | 0, _ => Pipeline.ΦA spec6 c
  | n + 1, hn => iprop(iprop(iprop(owns (c : Thread nD τ) scM6_0 fullShare (rowBuf6 (acc6 V c n hn).1) ∗ owns (c : Thread nD τ) scM6_1 fullShare (rowBuf6 (acc6 V c n hn).2))
        ∗ Pipeline.scopedRestBut (Ix := Unit) (Name := ℕ) (U := UR sig nD τ) (Lvl := ℕ) (Val := Elt F) spec6 c [cc6_scratch0, cc6_scratch1])
      ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (rowBuf6 (acc6 V c n hn).1) ∗ owns (c : Thread nD τ) scM6_1 fullShare (rowBuf6 (acc6 V c n hn).2))
        ∗ Pipeline.scopedRestBut (Ix := Unit) (Name := ℕ) (U := UR sig nD τ) (Lvl := ℕ) (Val := Elt F) spec6 c [cc6_scratch0, cc6_scratch1])
      ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (rowBuf6 (acc6 V c (n - 1) (by omega)).1) ∗ owns (c : Thread nD τ) scM6_1 fullShare (rowBuf6 (acc6 V c (n - 1) (by omega)).2))
        ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-- The invariant before the first point with the two scratch operands as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1])
        ∗ (∃ r, prngReg c r)) := by
  unfold Pipeline.ΦA; rw [scopedRest6_split]; simp only [scM6_0, scM6_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
    | ⟨6, _⟩ => rowBuf6 (acc6 V c t.val t.isLt).1
    | ⟨7, _⟩ => rowBuf6 (acc6 V c t.val t.isLt).2
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- Before the first point the invariant is the scoped rest and the generator register; -/
theorem Phi6_zero (c : Dev nD) : (dat6 V c).Φ 0 = Pipeline.ΦA spec6 c := rfl

/-- after the last point it holds the two scratch rows at the totals over all ten points. -/
theorem Phi6_last (c : Dev nD) :
    (dat6 V c).Φ (Fin.last cfg6.N) = iprop(iprop(iprop(owns (c : Thread nD τ) scM6_0 fullShare (rowBuf6 (acc6 V c 9 (by rw [show cfg6.N = 10 from N_6]; decide)).1) ∗ owns (c : Thread nD τ) scM6_1 fullShare (rowBuf6 (acc6 V c 9 (by rw [show cfg6.N = 10 from N_6]; decide)).2))
        ∗ Pipeline.scopedRestBut (Ix := Unit) (Name := ℕ) (U := UR sig nD τ) (Lvl := ℕ) (Val := Elt F) spec6 c [cc6_scratch0, cc6_scratch1])
      ∗ (∃ r, prngReg c r)) := by
  rw [show (dat6 V c).Φ (Fin.last cfg6.N) = PhiS6 V c (Fin.last cfg6.N).val (Nat.le_of_lt_succ (Fin.last cfg6.N).isLt) from rfl]
  rw [PhiS6_pos V c _ _ (by rw [Fin.val_last]; have : cfg6.N = 10 := N_6; omega)]
  have hN : (Fin.last cfg6.N).val - 1 = 9 := by rw [Fin.val_last]; have : cfg6.N = 10 := N_6; omega
  simp only [hN]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]
theorem after6_6 (c : Dev nD) (t : Fin cfg6.N) : (dat6 V c).after 6 t = rowBuf6 (acc6 V c t.val t.isLt).1 := by dsimp only [dat6]
theorem after6_7 (c : Dev nD) (t : Fin cfg6.N) : (dat6 V c).after 7 t = rowBuf6 (acc6 V c t.val t.isLt).2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The invariant against the launch's resources -/

/-- What the launch hands the region — the generator register, no prefetched table (anything beside them is dropped), the
    scoped buffers no window stages — is the invariant before the first point. -/
theorem phi_in6 (c : Dev nD) (P : sProp 𝕄) :
    iprop((∃ r, prngReg c r) ∗ P ∗ Pipeline.scopedRest (Ix := Unit) (Name := ℕ) (U := UR sig nD τ) (Lvl := ℕ) (Val := Elt F) spec6 c) ⊢ (dat6 V c).Φ 0 := by
  rw [Phi6_zero]; unfold Pipeline.ΦA
  iintro ⟨Hp, -, Hr⟩
  isplitl [Hr]; · iexact Hr
  iexact Hp

/-- After the last point the invariant gives them back: the two scratch rows' contents are forgotten. -/
theorem Phi6_out_A (c : Dev nD) : (dat6 V c).Φ (Fin.last cfg6.N) ⊢ Pipeline.ΦA spec6 c := by
  rw [Phi6_last, PhiA6_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out6 (c : Dev nD) :
    (dat6 V c).Φ (Fin.last cfg6.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec6 c) := by
  refine (Phi6_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl,
    after6_0, after6_1, after6_2, after6_3, after6_4, after6_5, after6_6, after6_7]
  rw [show (dat6 V c).Φ t.succ = PhiS6 V c (t.val + 1) t.isLt from rfl, PhiS6_succ, PhiS6_castSucc]
  have hN : t.val < 10 := lt_of_lt_of_eq t.isLt (show cfg6.N = 10 from N_6)
  by_cases hz : t.val = 0
  · rw [PhiS6_zero V c _ _ hz, PhiA6_eq, acc6_first V c t hz]
    unfold sumAt6 sqAt6
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_first c Set.univ (grid6.coords t) ((hcond6_0 t).mpr (by omega)) _ _ _ _ _ _ _ _ _ _ _ _ _ _ _ _ _ _ _ _
      (iblk6 V c 0 t) (iblk6 V c 1 t) (iblk6 V c 2 t) (iblk6 V c 3 t) (iblk6 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS6_pos V c _ _ hz, acc6_later V c t hz]
    unfold sumAt6 sqAt6
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel6_later' c Set.univ (grid6.coords t) (fun h => hz (by have h' := (hcond6_0 t).mp h; omega)) _ _ _ _ _ _ _ _ _ _ _ _ _ _ _ _ _ _ _ _
      (iblk6 V c 0 t) (iblk6 V c 1 t) (iblk6 V c 2 t) (iblk6 V c 3 t) (iblk6 V c 4 t) (rowBuf6 _) (rowBuf6 _) _ _ (ld_rowBuf6 _) (ld_rowBuf6 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.KRegion7.lean ====
/- The proof data and the body obligation of the pipeline of custom_call 7, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether it was fetched there or
    not (then the block index has not moved since the last fetch), for any proof data over these arrays whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether it was fetched there or
    not (then the block index has not moved since the last fetch), for any proof data over these arrays whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether it was fetched there or
    not (then the block index has not moved since the last fetch), for any proof data over these arrays whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether it was fetched there or
    not (then the block index has not moved since the last fetch), for any proof data over these arrays whose
    body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether it was fetched there or
    not (then the block index has not moved since the last fetch), for any proof data over these arrays whose
    body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether it was fetched there or
    not (then the block index has not moved since the last fetch), for any proof data over these arrays whose
    body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's one store: the whole output block -/

abbrev r7_0 : Rect S10000x64 := Rect.unit (s := S10000x64) ![0, 0] S10000x64.size inb_S10000x64_S10000x64_0_0

/-- The output window's staging buffer after the body, from the input windows' blocks: the one store, of the
    payload of the loaded input blocks, over the whole rectangle. -/
def out7_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r7_0, k7_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover7_6 (p0 : Vec F S10000x64 .f32) (y : S10000x64.Idx) :
    ∃ pc ∈ ([⟨r7_0, p0⟩] : List (View.Piece (Elt F) S10000x64 .f32)), y ∈ pc.1.set :=
  View.cover_of_tiled [⟨r7_0, p0⟩] S10000x64.size (by rfl) y

/-! ## The body's triple -/

set_option maxHeartbeats 1000000 in
/-- The kernel body on whole staging memrefs, the inputs' at contents x and the output's at anything, runs to the
    continuation holding the inputs' as they were and the output's at out7_6 of the inputs: the printed function
    is its skeleton, whose loads and one store are run one after the other. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__bn_resid_kernel i arg0 harg0 arg1 harg1 arg2 harg2 arg3 harg3 arg4 harg4 arg5 harg5 arg6 harg6) K := by
  simp only [cc7__bn_resid_kernel_eq_skeleton]; unfold cc7__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover7_6 _)

/-! ## The pipeline's proof data -/

/-- The proof data of the pipeline on core c: the arrays as the region finds them; after the body at point t each
    input's buffer at its block and the output's at out7_6 of the input blocks; the invariant is the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point t: the invariant, the core's debt, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen
-- ==== Proof.KRegion8.lean ====
/- The proof data and the body obligation of the pipeline of custom_call 8, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether it was fetched there or
    not (then the block index has not moved since the last fetch), for any proof data over these arrays whose
    body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether it was fetched there or
    not (then the block index has not moved since the last fetch), for any proof data over these arrays whose
    body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's one store: the whole output block -/

abbrev r8_0 : Rect S10000x64 := Rect.unit (s := S10000x64) ![0, 0] S10000x64.size inb_S10000x64_S10000x64_0_0

/-- The output window's staging buffer after the body, from the input windows' blocks: the one store, of the
    payload of the loaded input blocks, over the whole rectangle. -/
def out8_2 (x0 : Vec F S10000x64 .f32) (x1 : Vec F S10000x64 .f32) : Vec F S10000x64 .f32 :=
  View.canon [⟨r8_0, k8_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover8_2 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

/-! ## The body's triple -/

set_option maxHeartbeats 1000000 in
/-- The kernel body on whole staging memrefs, the inputs' at contents x and the output's at anything, runs to the
    continuation holding the inputs' as they were and the output's at out8_2 of the inputs: the printed function
    is its skeleton, whose loads and one store are run one after the other. -/
theorem sound_kernel8 (c : Dev nD) (E : Set ℕ) (i : grid8.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__msg_kernel i arg0 harg0 arg1 harg1 arg2 harg2) K := by
  simp only [cc8__msg_kernel_eq_skeleton]; unfold cc8__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover8_2 _)

/-! ## The pipeline's proof data -/

/-- The proof data of the pipeline on core c: the arrays as the region finds them; after the body at point t each
    input's buffer at its block and the output's at out8_2 of the input blocks; the invariant is the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point t: the invariant, the core's debt, and each window's current staging
    buffer at what the pipeline left there, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so the body's triple applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Gen
-- ==== Proof.KRegion9.lean ====
/- The proof data and the body obligation of the pipeline of custom_call 9, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA9 : Rect S10000x64 := Rect.unit (s := S10000x64) ![0, 0] S10000x64.size inb_S10000x64_S10000x64_0_0
abbrev rW1_9 : Rect S64x128 := Rect.unit (s := S64x128) ![0, 0] S64x128.size inb_S64x128_S64x128_0_0
abbrev rB1_9 : Rect S1x128 := Rect.unit (s := S1x128) ![0, 0] S1x128.size inb_S1x128_S1x128_0_0
abbrev rW2_9 : Rect S128x64 := Rect.unit (s := S128x64) ![0, 0] S128x64.size inb_S128x64_S128x64_0_0
abbrev rR9 : Rect S1x64 := Rect.unit (s := S1x64) ![0, 0] S1x64.size inb_S1x64_S1x64_0_0

/-! ## The values the body stores -/

/-- The second matmul's result with its bias, from the five input blocks: what the body stores into the first output
    window's buffer and sums column by column. -/
def zraw9 (x1 : Vec F S10000x64 .f32) (x2 : Vec F S64x128 .f32) (x3 : Vec F S1x128 .f32) (x4 : Vec F S128x64 .f32) (x5 : Vec F S1x64 .f32) : Vec F S10000x64 .f32 :=
  k9_pay4 (View.ld x1 rA9) (View.ld x2 rW1_9) (View.ld x3 rB1_9) (View.ld x4 rW2_9) (View.ld x5 rR9)

/-- The running column sums after a point: the row `v` the sum scratch held, plus the column sums of the point's result. -/
def sumP9 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k9_pay5 (View.ld x1 rA9) (View.ld x2 rW1_9) (View.ld x3 rB1_9) (View.ld x4 rW2_9) (View.ld x5 rR9) v

/-- The running column sums of squares after a point: the row `v` the second scratch held, plus the column sums of the
    squares of the point's result. -/
def sqP9 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k9_pay1 (zraw9 x1 x2 x3 x4 x5) v

/-- The first output window's staging buffer after the body: its one store, over the whole buffer. -/
def out9_5 (x1 : Vec F S10000x64 .f32) (x2 : Vec F S64x128 .f32) (x3 : Vec F S1x128 .f32) (x4 : Vec F S128x64 .f32) (x5 : Vec F S1x64 .f32) : Vec F S10000x64 .f32 :=
  View.canon [⟨rA9, zraw9 x1 x2 x3 x4 x5⟩]

/-- A one-row buffer after a store of the row `p` over the whole of it. -/
def rowBuf9 (p : Vec F S1x64 .f32) : Vec F S1x64 .f32 :=
  View.canon [⟨rR9, p⟩]

/-- A whole-buffer store covers every index of the large block, -/
theorem coverA9 (p0 : Vec F S10000x64 .f32) (y : S10000x64.Idx) :
    ∃ pc ∈ ([⟨rA9, p0⟩] : List (View.Piece (Elt F) S10000x64 .f32)), y ∈ pc.1.set :=
  View.cover_of_tiled [⟨rA9, p0⟩] S10000x64.size (by rfl) y

/-- and of a one-row buffer, -/
theorem coverR9 (p0 : Vec F S1x64 .f32) (y : S1x64.Idx) :
    ∃ pc ∈ ([⟨rR9, p0⟩] : List (View.Piece (Elt F) S1x64 .f32)), y ∈ pc.1.set :=
  View.cover_of_tiled [⟨rR9, p0⟩] S1x64.size (by rfl) y

/-- whatever was stored before it. -/
theorem coverR9_cons (p0 : Vec F S1x64 .f32) (L : List (View.Piece (Elt F) S1x64 .f32)) (y : S1x64.Idx) :
    ∃ pc ∈ (⟨rR9, p0⟩ :: L : List (View.Piece (Elt F) S1x64 .f32)), y ∈ pc.1.set := by
  obtain ⟨pc, hm, hy⟩ := coverR9 p0 y
  exact ⟨pc, List.mem_cons.mpr (Or.inl (List.mem_singleton.mp hm)), hy⟩

/-- A whole-row store hides the stores before it: the buffer reads as the row alone. -/
theorem canon_rowBuf9 (p0 : Vec F S1x64 .f32) (L : List (View.Piece (Elt F) S1x64 .f32)) :
    View.canon (⟨rR9, p0⟩ :: L) = rowBuf9 p0 := by
  funext y
  obtain ⟨pc, hm, hy⟩ := coverR9 p0 y
  obtain rfl : pc = ⟨rR9, p0⟩ := List.mem_singleton.mp hm
  obtain ⟨x, rfl⟩ : ∃ x, (rR9).emb x = y := (rR9).exists_idx_of_mem hy
  unfold rowBuf9
  rw [View.canon_cons_emb, View.canon_cons_emb]

/-- A load of the whole of a one-row buffer after a whole-row store reads the row stored. -/
theorem ld_rowBuf9 (p0 : Vec F S1x64 .f32) : View.ld (rowBuf9 p0) rR9 = p0 := by
  funext x
  exact View.canon_cons_emb rR9 p0 [] x

/-! ## The branch on the grid coordinate -/

/-- The condition of the body's one conditional (the zero-fill of the two scratch rows), from the grid coordinates. -/
abbrev cond9_0 (i : grid9.Coords) : Prop := (Scalar.cmpi .ne (Scalar.extui (Scalar.cmpi .eq (BitVec.ofNat 32 (i 0).val) 0#32)) 0#32) = 1#1
/-- It holds at the first point only — decided over the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-- What any view of a one-row buffer reads after a whole-row store of `p`, whatever was stored before and whatever it held. -/
theorem read_rowStore9 (v : View sig .tc .vmem S1x64 .f32) (f : v.ty.Contents (Elt F)) (p0 : Vec F S1x64 .f32)
    (L : List (View.Piece (Elt F) S1x64 .f32)) :
    v.read (Elt F) (v.writes (Elt F) f (⟨rR9, p0⟩ :: L)) = rowBuf9 p0 :=
  (View.read_writes_eq_canon _ _ _ (coverR9_cons p0 L)).trans (canon_rowBuf9 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel9_first (c : Dev nD) (E : Set ℕ) (i : grid9.Coords) (hc : cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 (k9_pay2 (F := F))))
            ∗ owns (c : Thread nD τ) arg8 fullShare (rowBuf9 (sqP9 x1 x2 x3 x4 x5 (k9_pay3 (F := F))))
            ∗ owns (c : Thread nD τ) arg9 fullShare (rowBuf9 (sumP9 x1 x2 x3 x4 x5 (k9_pay2 (F := F))))
            ∗ owns (c : Thread nD τ) arg10 fullShare (rowBuf9 (sqP9 x1 x2 x3 x4 x5 (k9_pay3 (F := F))))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  simp only [cc9__mlp_stats_kernel_eq_skeleton]; unfold cc9__mlp_stats_kernel_skel
  simp only [k9_part1_eq_skeleton]; unfold k9_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA9 _)
  isplitl [H7]
  · iexists _; isplitr
    swap; · iexact H7
    ipureintro
    exact (read_rowStore9 _ _ _ _).trans (congrArg rowBuf9 ((View.readCov_cons_toLoadRect _ rR9 _ _).trans
      (congrArg (k9_pay5 _ _ _ _ _) (View.readCov_cons_toLoadRect _ rR9 _ _))))
  isplitl [H8]
  · iexists _; isplitr
    swap; · iexact H8
    ipureintro
    exact (read_rowStore9 _ _ _ _).trans (congrArg rowBuf9 ((View.readCov_cons_toLoadRect _ rR9 _ _).trans
      (congrArg (k9_pay1 _) (View.readCov_cons_toLoadRect _ rR9 _ _))))
  isplitl [H9]
  · iexists _; isplitr
    swap; · iexact H9
    ipureintro
    exact (read_rowStore9 _ _ _ _).trans (congrArg rowBuf9 (congrArg (k9_pay5 _ _ _ _ _) (View.readCov_cons_toLoadRect _ rR9 _ _)))
  · iexists _; isplitr
    swap; · iexact H10
    ipureintro
    exact (read_rowStore9 _ _ _ _).trans (congrArg rowBuf9 (congrArg (k9_pay1 _) (View.readCov_cons_toLoadRect _ rR9 _ _)))

set_option maxHeartbeats 4000000 in
/-- Where the condition fails: the two scratch rows at what they hold, `s9` and `s10`; the body stores the result block,
    adds its column sums (and those of its squares) to the rows and copies the two rows into the last two output
    windows' buffers. -/
theorem sound_kernel9_later (c : Dev nD) (E : Set ℕ) (i : grid9.Coords) (hc : ¬cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 (View.ld s9 rR9)))
            ∗ owns (c : Thread nD τ) arg8 fullShare (rowBuf9 (sqP9 x1 x2 x3 x4 x5 (View.ld s10 rR9)))
            ∗ owns (c : Thread nD τ) arg9 fullShare (rowBuf9 (sumP9 x1 x2 x3 x4 x5 (View.ld s9 rR9)))
            ∗ owns (c : Thread nD τ) arg10 fullShare (rowBuf9 (sqP9 x1 x2 x3 x4 x5 (View.ld s10 rR9)))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  simp only [cc9__mlp_stats_kernel_eq_skeleton]; unfold cc9__mlp_stats_kernel_skel
  simp only [k9_part1_eq_skeleton]; unfold k9_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA9 _)
  isplitl [H7]
  · iexists _; isplitr
    swap; · iexact H7
    ipureintro
    exact (read_rowStore9 _ _ _ _).trans (congrArg rowBuf9 (View.readCov_cons_toLoadRect _ rR9 _ _))
  isplitl [H8]
  · iexists _; isplitr
    swap; · iexact H8
    ipureintro
    exact (read_rowStore9 _ _ _ _).trans (congrArg rowBuf9 (View.readCov_cons_toLoadRect _ rR9 _ _))
  isplitl [H9]
  · iexists _; isplitr
    swap; · iexact H9
    ipureintro
    exact read_rowStore9 _ _ _ _
  · iexists _; isplitr
    swap; · iexact H10
    ipureintro
    exact read_rowStore9 _ _ _ _

/-- The same with the rows the two loads read named: `p9` and `p10` are what a load of the whole of each scratch row reads. -/
theorem sound_kernel9_later' (c : Dev nD) (E : Set ℕ) (i : grid9.Coords) (hc : ¬cond9_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR9 = p9) (h10 : View.ld s10 rR9 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out9_5 x1 x2 x3 x4 x5)
            ∗ owns (c : Thread nD τ) arg7 fullShare (rowBuf9 (sumP9 x1 x2 x3 x4 x5 p9))
            ∗ owns (c : Thread nD τ) arg8 fullShare (rowBuf9 (sqP9 x1 x2 x3 x4 x5 p10))
            ∗ owns (c : Thread nD τ) arg9 fullShare (rowBuf9 (sumP9 x1 x2 x3 x4 x5 p9))
            ∗ owns (c : Thread nD τ) arg10 fullShare (rowBuf9 (sqP9 x1 x2 x3 x4 x5 p10))) -∗ K ⟨⟩))
      ⊢ wp frame (wpE (defs₀ (F := F)) Variants.none c none) E (cc9__mlp_stats_kernel i arg1 harg1 arg2 harg2 arg3 harg3 arg4 harg4 arg5 harg5 arg6 harg6 arg7 harg7 arg8 harg8 arg9 harg9 arg10 harg10) K := by
  subst h9 h10
  exact sound_kernel9_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether it was fetched there or not (then its
    block index has not moved since the last fetch), for any proof data over these arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether it was fetched there or not (then its
    block index has not moved since the last fetch), for any proof data over these arrays whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether it was fetched there or not (then its
    block index has not moved since the last fetch), for any proof data over these arrays whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether it was fetched there or not (then its
    block index has not moved since the last fetch), for any proof data over these arrays whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether it was fetched there or not (then its
    block index has not moved since the last fetch), for any proof data over these arrays whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The two scratch rows, point by point -/

/-- The running sums the point `t` leaves, from the rows `v` it finds. -/
def sumAt9 (c : Dev nD) (t : Fin cfg9.N) (v : Vec F S1x64 .f32) : Vec F S1x64 .f32 :=
  sumP9 (iblk9 V c 0 t) (iblk9 V c 1 t) (iblk9 V c 2 t) (iblk9 V c 3 t) (iblk9 V c 4 t) v
def sqAt9 (c : Dev nD) (t : Fin cfg9.N) (v : Vec F S1x64 .f32) : Vec F S1x64 .f32 :=
  sqP9 (iblk9 V c 0 t) (iblk9 V c 1 t) (iblk9 V c 2 t) (iblk9 V c 3 t) (iblk9 V c 4 t) v

/-- THE ACCUMULATION. The rows the body stores into the two scratch buffers (column sums; column sums of squares) at
    position `n`: at the first point over the zero rows the body has just filled in, afterwards over the rows the point
    before stored. -/
def acc9 (c : Dev nD) : (n : ℕ) → n < cfg9.N → Vec F S1x64 .f32 × Vec F S1x64 .f32
  | 0, hn => (sumAt9 V c ⟨0, hn⟩ (k9_pay2 (F := F)), sqAt9 V c ⟨0, hn⟩ (k9_pay3 (F := F)))
  | n + 1, hn => (sumAt9 V c ⟨n + 1, hn⟩ (acc9 c n (Nat.lt_of_succ_lt hn)).1, sqAt9 V c ⟨n + 1, hn⟩ (acc9 c n (Nat.lt_of_succ_lt hn)).2)

/-- At the first point: over the zero rows. -/
theorem acc9_first (c : Dev nD) (t : Fin cfg9.N) (hz : t.val = 0) :
    acc9 V c t.val t.isLt = (sumAt9 V c t (k9_pay2 (F := F)), sqAt9 V c t (k9_pay3 (F := F))) := by
  obtain ⟨n, hn⟩ := t
  cases n with
  | zero => rfl
  | succ n => exact absurd hz (Nat.succ_ne_zero n)

/-- At a later point: over what the point before stored. -/
theorem acc9_later (c : Dev nD) (t : Fin cfg9.N) (hz : t.val ≠ 0) :
    acc9 V c t.val t.isLt = (sumAt9 V c t (acc9 V c (t.val - 1) (Nat.lt_of_le_of_lt (Nat.sub_le _ _) t.isLt)).1,
      sqAt9 V c t (acc9 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM9_0 : Memref sig .tc .vmem S1x64 .f32 := Memref.whole cc9_scratch0
abbrev scM9_1 : Memref sig .tc .vmem S1x64 .f32 := Memref.whole cc9_scratch1

/-- The invariant before position `n`: before the first point the scoped buffers no window stages, each at anything, and
    the generator register at some state; afterwards the same with the two scratch rows at what the point before stored. -/
def PhiS9 (c : Dev nD) : (n : ℕ) → n ≤ cfg9.N → sProp 𝕄
  | 0, _ => Pipeline.ΦA spec9 c
  | n + 1, hn => iprop(iprop(iprop(owns (c : Thread nD τ) scM9_0 fullShare (rowBuf9 (acc9 V c n hn).1) ∗ owns (c : Thread nD τ) scM9_1 fullShare (rowBuf9 (acc9 V c n hn).2))
        ∗ Pipeline.scopedRestBut (Ix := Unit) (Name := ℕ) (U := UR sig nD τ) (Lvl := ℕ) (Val := Elt F) spec9 c [cc9_scratch0, cc9_scratch1])
      ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (rowBuf9 (acc9 V c n hn).1) ∗ owns (c : Thread nD τ) scM9_1 fullShare (rowBuf9 (acc9 V c n hn).2))
        ∗ Pipeline.scopedRestBut (Ix := Unit) (Name := ℕ) (U := UR sig nD τ) (Lvl := ℕ) (Val := Elt F) spec9 c [cc9_scratch0, cc9_scratch1])
      ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare (rowBuf9 (acc9 V c (n - 1) (by omega)).1) ∗ owns (c : Thread nD τ) scM9_1 fullShare (rowBuf9 (acc9 V c (n - 1) (by omega)).2))
        ∗ Pipeline.scopedRestBut (Ix := Unit) (Name := ℕ) (U := UR sig nD τ) (Lvl := ℕ) (Val := Elt F) spec9 c [cc9_scratch0, cc9_scratch1])
      ∗ (∃ r, prngReg c r)) := by
  cases n with
  | zero => exact absurd rfl hz
  | succ n => rfl

/-- The invariant before the first point with the two scratch operands as memrefs owned at some contents. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1])
        ∗ (∃ r, prngReg c r)) := by
  unfold Pipeline.ΦA; rw [scopedRest9_split]; simp only [scM9_0, scM9_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
    | ⟨6, _⟩ => rowBuf9 (acc9 V c t.val t.isLt).1
    | ⟨7, _⟩ => rowBuf9 (acc9 V c t.val t.isLt).2
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at the point's position. -/
theorem PhiS9_castSucc (c : Dev nD) (t : Fin cfg9.N) :
    (dat9 V c).Φ t.castSucc = PhiS9 V c t.val (Nat.le_of_lt t.isLt) := by
  dsimp only [dat9]; simp only [Fin.coe_castSucc]

/-- Before the first point the invariant is the scoped rest and the generator register; -/
theorem Phi9_zero (c : Dev nD) : (dat9 V c).Φ 0 = Pipeline.ΦA spec9 c := rfl

/-- after the last point it holds the two scratch rows at the totals over all ten points. -/
theorem Phi9_last (c : Dev nD) :
    (dat9 V c).Φ (Fin.last cfg9.N) = iprop(iprop(iprop(owns (c : Thread nD τ) scM9_0 fullShare (rowBuf9 (acc9 V c 9 (by rw [show cfg9.N = 10 from N_9]; decide)).1) ∗ owns (c : Thread nD τ) scM9_1 fullShare (rowBuf9 (acc9 V c 9 (by rw [show cfg9.N = 10 from N_9]; decide)).2))
        ∗ Pipeline.scopedRestBut (Ix := Unit) (Name := ℕ) (U := UR sig nD τ) (Lvl := ℕ) (Val := Elt F) spec9 c [cc9_scratch0, cc9_scratch1])
      ∗ (∃ r, prngReg c r)) := by
  rw [show (dat9 V c).Φ (Fin.last cfg9.N) = PhiS9 V c (Fin.last cfg9.N).val (Nat.le_of_lt_succ (Fin.last cfg9.N).isLt) from rfl]
  rw [PhiS9_pos V c _ _ (by rw [Fin.val_last]; have : cfg9.N = 10 := N_9; omega)]
  have hN : (Fin.last cfg9.N).val - 1 = 9 := by rw [Fin.val_last]; have : cfg9.N = 10 := N_9; omega
  simp only [hN]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]
theorem after9_6 (c : Dev nD) (t : Fin cfg9.N) : (dat9 V c).after 6 t = rowBuf9 (acc9 V c t.val t.isLt).1 := by dsimp only [dat9]
theorem after9_7 (c : Dev nD) (t : Fin cfg9.N) : (dat9 V c).after 7 t = rowBuf9 (acc9 V c t.val t.isLt).2 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The invariant against the launch's resources -/

/-- What the launch hands the region — the generator register, no prefetched table (anything beside them is dropped), the
    scoped buffers no window stages — is the invariant before the first point. -/
theorem phi_in9 (c : Dev nD) (P : sProp 𝕄) :
    iprop((∃ r, prngReg c r) ∗ P ∗ Pipeline.scopedRest (Ix := Unit) (Name := ℕ) (U := UR sig nD τ) (Lvl := ℕ) (Val := Elt F) spec9 c) ⊢ (dat9 V c).Φ 0 := by
  rw [Phi9_zero]; unfold Pipeline.ΦA
  iintro ⟨Hp, -, Hr⟩
  isplitl [Hr]; · iexact Hr
  iexact Hp

/-- After the last point the invariant gives them back: the two scratch rows' contents are forgotten. -/
theorem Phi9_out_A (c : Dev nD) : (dat9 V c).Φ (Fin.last cfg9.N) ⊢ Pipeline.ΦA spec9 c := by
  rw [Phi9_last, PhiA9_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out9 (c : Dev nD) :
    (dat9 V c).Φ (Fin.last cfg9.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec9 c) := by
  refine (Phi9_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).owesAt () t.succ = (dat9 V c).owesAt () t.castSucc from rfl,
    after9_0, after9_1, after9_2, after9_3, after9_4, after9_5, after9_6, after9_7]
  rw [show (dat9 V c).Φ t.succ = PhiS9 V c (t.val + 1) t.isLt from rfl, PhiS9_succ, PhiS9_castSucc]
  have hN : t.val < 10 := lt_of_lt_of_eq t.isLt (show cfg9.N = 10 from N_9)
  by_cases hz : t.val = 0
  · rw [PhiS9_zero V c _ _ hz, PhiA9_eq, acc9_first V c t hz]
    unfold sumAt9 sqAt9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel9_first c Set.univ (grid9.coords t) ((hcond9_0 t).mpr (by omega)) _ _ _ _ _ _ _ _ _ _ _ _ _ _ _ _ _ _ _ _
      (iblk9 V c 0 t) (iblk9 V c 1 t) (iblk9 V c 2 t) (iblk9 V c 3 t) (iblk9 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS9_pos V c _ _ hz, acc9_later V c t hz]
    unfold sumAt9 sqAt9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel9_later' c Set.univ (grid9.coords t) (fun h => hz (by have h' := (hcond9_0 t).mp h; omega)) _ _ _ _ _ _ _ _ _ _ _ _ _ _ _ _ _ _ _ _
      (iblk9 V c 0 t) (iblk9 V c 1 t) (iblk9 V c 2 t) (iblk9 V c 3 t) (iblk9 V c 4 t) (rowBuf9 _) (rowBuf9 _) _ _ (ld_rowBuf9 _) (ld_rowBuf9 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.KRegion10.lean ====
/- The proof data and the body obligation of the pipeline of custom_call 10, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether it was fetched there or
    not (then the block index has not moved since the last fetch), for any proof data over these arrays whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, whether it was fetched there or
    not (then the block index has not moved since the last fetch), for any proof data over these arrays whose
    body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, whether it was fetched there or
    not (then the block index has not moved since the last fetch), for any proof data over these arrays whose
    body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, whether it was fetched there or
    not (then the block index has not moved since the last fetch), for any proof data over these arrays whose
    body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, whether it was fetched there or
    not (then the block index has not moved since the last fetch), for any proof data over these arrays whose
    body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, whether it was fetched there or
    not (then the block index has not moved since the last fetch), for any proof data over these arrays whose
    body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's one store: the whole output block -/

abbrev r10_0 : Rect S10000x64 := Rect.unit (s := S10000x64) ![0, 0] S10000x64.size inb_S10000x64_S10000x64_0_0

/-- The output window's staging buffer after the body, from the input windows' blocks: the one store, of the
    payload of the loaded input blocks, over the whole rectangle. -/
def out10_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r10_0, k10_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover10_6 (p0 : Vec F S10000x64 .f32) (y : S10000x64.Idx) :
    ∃ pc ∈ ([⟨r10_0, p0⟩] : List (View.Piece (Elt F) S10000x64 .f32)), y ∈ pc.1.set :=
  View.cover_of_tiled [⟨r10_0, p0⟩] S10000x64.size (by rfl) y

/-! ## The body's triple -/

set_option maxHeartbeats 1000000 in
/-- The kernel body on whole staging memrefs, the inputs' at contents x and the output's at anything, runs to the
    continuation holding the inputs' as they were and the output's at out10_6 of the inputs: the printed function
    is its skeleton, whose loads and one store are run one after the other. -/
theorem sound_kernel10 (c : Dev nD) (E : Set ℕ) (i : grid10.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out10_6 x0 x1 x2 x3 x4 x5)) -∗ K ⟨⟩))
      ⊢ wp frame (wpE (defs₀ (F := F)) Variants.none c none) E (cc10__bn_resid_kernel i arg0 harg0 arg1 harg1 arg2 harg2 arg3 harg3 arg4 harg4 arg5 harg5 arg6 harg6) K := by
  simp only [cc10__bn_resid_kernel_eq_skeleton]; unfold cc10__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover10_6 _)

/-! ## The pipeline's proof data -/

/-- The proof data of the pipeline on core c: the arrays as the region finds them; after the body at point t each
    input's buffer at its block and the output's at out10_6 of the input blocks; the invariant is the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point t: the invariant, the core's debt, and each window's current staging
    buffer at what the pipeline left there, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the body's triple applies; the invariant and
    the core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Gen
-- ==== Proof.KRegion11.lean ====
/- The proof data and the body obligation of the pipeline of custom_call 11, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether it was fetched there or
    not (then the block index has not moved since the last fetch), for any proof data over these arrays whose
    body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, whether it was fetched there or
    not (then the block index has not moved since the last fetch), for any proof data over these arrays whose
    body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's one store: the whole output block -/

abbrev r11_0 : Rect S10000x64 := Rect.unit (s := S10000x64) ![0, 0] S10000x64.size inb_S10000x64_S10000x64_0_0

/-- The output window's staging buffer after the body, from the input windows' blocks: the one store, of the
    payload of the loaded input blocks, over the whole rectangle. -/
def out11_2 (x0 : Vec F S10000x64 .f32) (x1 : Vec F S10000x64 .f32) : Vec F S10000x64 .f32 :=
  View.canon [⟨r11_0, k11_pay1 (View.ld x0 (Rect.unit (s := S10000x64) ![0, 0] S10000x64.size inb_S10000x64_S10000x64_0_0)) (View.ld x1 (Rect.unit (s := S10000x64) ![0, 0] S10000x64.size inb_S10000x64_S10000x64_0_0))⟩]

/-- The store's rectangle is the whole buffer, so it covers every index. -/
theorem cover11_2 (p0 : Vec F S10000x64 .f32) (y : S10000x64.Idx) :
    ∃ pc ∈ ([⟨r11_0, p0⟩] : List (View.Piece (Elt F) S10000x64 .f32)), y ∈ pc.1.set :=
  View.cover_of_tiled [⟨r11_0, p0⟩] S10000x64.size (by rfl) y

/-! ## The body's triple -/

set_option maxHeartbeats 1000000 in
/-- The kernel body on whole staging memrefs, the inputs' at contents x and the output's at anything, runs to the
    continuation holding the inputs' as they were and the output's at out11_2 of the inputs: the printed function
    is its skeleton, whose loads and one store are run one after the other. -/
theorem sound_kernel11 (c : Dev nD) (E : Set ℕ) (i : grid11.Coords) (arg0 : Memref sig .tc .vmem S10000x64 .f32) (harg0 : arg0.IsWhole) (arg1 : Memref sig .tc .vmem S10000x64 .f32) (harg1 : arg1.IsWhole) (arg2 : Memref sig .tc .vmem S10000x64 .f32) (harg2 : arg2.IsWhole)
    (x0 : Vec F S10000x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__msg_kernel i arg0 harg0 arg1 harg1 arg2 harg2) K := by
  simp only [cc11__msg_kernel_eq_skeleton]; unfold cc11__msg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover11_2 _)

/-! ## The pipeline's proof data -/

/-- The proof data of the pipeline on core c: the arrays as the region finds them; after the body at point t each
    input's buffer at its block and the output's at out11_2 of the input blocks; the invariant is the scoped rest and
    the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point t: the invariant, the core's debt, and each window's current staging
    buffer at what the pipeline left there, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and
    the core's debt pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Gen
-- ==== Proof.KRegion12.lean ====
/- The proof data and the body obligation of the pipeline of custom_call 12, at a parameter V (the TensorCore's buffer
   contents when the region is entered). The body keeps two one-row scratch buffers from grid point to grid point: it
   zero-fills them at the first point, adds the column sums of the point's result (and of its squares) to them at every
   point, and copies them into the last two output windows' buffers. So the region invariant carries the two rows: before
   the first point they hold anything, after point n the sums over the points 0..n. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and every store is of a whole staging buffer -/

abbrev rA12 : Rect S10000x64 := Rect.unit (s := S10000x64) ![0, 0] S10000x64.size inb_S10000x64_S10000x64_0_0
abbrev rW1_12 : Rect S64x128 := Rect.unit (s := S64x128) ![0, 0] S64x128.size inb_S64x128_S64x128_0_0
abbrev rB1_12 : Rect S1x128 := Rect.unit (s := S1x128) ![0, 0] S1x128.size inb_S1x128_S1x128_0_0
abbrev rW2_12 : Rect S128x64 := Rect.unit (s := S128x64) ![0, 0] S128x64.size inb_S128x64_S128x64_0_0
abbrev rR12 : Rect S1x64 := Rect.unit (s := S1x64) ![0, 0] S1x64.size inb_S1x64_S1x64_0_0

/-! ## The values the body stores -/

/-- The second matmul's result with its bias, from the five input blocks: what the body stores into the first output
    window's buffer and sums column by column. -/
def zraw12 (x1 : Vec F S10000x64 .f32) (x2 : Vec F S64x128 .f32) (x3 : Vec F S1x128 .f32) (x4 : Vec F S128x64 .f32) (x5 : Vec F S1x64 .f32) : Vec F S10000x64 .f32 :=
  k12_pay4 (View.ld x1 rA12) (View.ld x2 rW1_12) (View.ld x3 rB1_12) (View.ld x4 rW2_12) (View.ld x5 rR12)

/-- The running column sums after a point: the row `v` the sum scratch held, plus the column sums of the point's result. -/
def sumP12 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k12_pay5 (View.ld x1 rA12) (View.ld x2 rW1_12) (View.ld x3 rB1_12) (View.ld x4 rW2_12) (View.ld x5 rR12) v

/-- The running column sums of squares after a point: the row `v` the second scratch held, plus the column sums of the
    squares of the point's result. -/
def sqP12 (x1 : Vec F S10000x64 .f32) (x2 : Vec F S64x128 .f32) (x3 : Vec F S1x128 .f32) (x4 : Vec F S128x64 .f32) (x5 : Vec F S1x64 .f32) (v : Vec F S1x64 .f32) : Vec F S1x64 .f32 :=
  k12_pay1 (zraw12 x1 x2 x3 x4 x5) v

/-- The first output window's staging buffer after the body: its one store, over the whole buffer. -/
def out12_5 (x1 : Vec F S10000x64 .f32) (x2 : Vec F S64x128 .f32) (x3 : Vec F S1x128 .f32) (x4 : Vec F S128x64 .f32) (x5 : Vec F S1x64 .f32) : Vec F S10000x64 .f32 :=
  View.canon [⟨rA12, zraw12 x1 x2 x3 x4 x5⟩]

/-- A one-row buffer after a store of the row `p` over the whole of it. -/
def rowBuf12 (p : Vec F S1x64 .f32) : Vec F S1x64 .f32 :=
  View.canon [⟨rR12, p⟩]

/-- A whole-buffer store covers every index of the large block, -/
theorem coverA12 (p0 : Vec F S10000x64 .f32) (y : S10000x64.Idx) :
    ∃ pc ∈ ([⟨rA12, p0⟩] : List (View.Piece (Elt F) S10000x64 .f32)), y ∈ pc.1.set :=
  View.cover_of_tiled [⟨rA12, p0⟩] S10000x64.size (by rfl) y

/-- and of a one-row buffer, -/
theorem coverR12 (p0 : Vec F S1x64 .f32) (y : S1x64.Idx) :
    ∃ pc ∈ ([⟨rR12, p0⟩] : List (View.Piece (Elt F) S1x64 .f32)), y ∈ pc.1.set :=
  View.cover_of_tiled [⟨rR12, p0⟩] S1x64.size (by rfl) y

/-- whatever was stored before it. -/
theorem coverR12_cons (p0 : Vec F S1x64 .f32) (L : List (View.Piece (Elt F) S1x64 .f32)) (y : S1x64.Idx) :
    ∃ pc ∈ (⟨rR12, p0⟩ :: L : List (View.Piece (Elt F) S1x64 .f32)), y ∈ pc.1.set := by
  obtain ⟨pc, hm, hy⟩ := coverR12 p0 y
  exact ⟨pc, List.mem_cons.mpr (Or.inl (List.mem_singleton.mp hm)), hy⟩

/-- A whole-row store hides the stores before it: the buffer reads as the row alone. -/
theorem canon_rowBuf12 (p0 : Vec F S1x64 .f32) (L : List (View.Piece (Elt F) S1x64 .f32)) :
    View.canon (⟨rR12, p0⟩ :: L) = rowBuf12 p0 := by
  funext y
  obtain ⟨pc, hm, hy⟩ := coverR12 p0 y
  obtain rfl : pc = ⟨rR12, p0⟩ := List.mem_singleton.mp hm
  obtain ⟨x, rfl⟩ : ∃ x, (rR12).emb x = y := (rR12).exists_idx_of_mem hy
  unfold rowBuf12
  rw [View.canon_cons_emb, View.canon_cons_emb]

/-- A load of the whole of a one-row buffer after a whole-row store reads the row stored. -/
theorem ld_rowBuf12 (p0 : Vec F S1x64 .f32) : View.ld (rowBuf12 p0) rR12 = p0 := by
  funext x
  exact View.canon_cons_emb rR12 p0 [] x

/-! ## The branch on the grid coordinate -/

/-- The condition of the body's one conditional (the zero-fill of the two scratch rows), from the grid coordinates. -/
abbrev cond12_0 (i : grid12.Coords) : Prop := (Scalar.cmpi .ne (Scalar.extui (Scalar.cmpi .eq (BitVec.ofNat 32 (i 0).val) 0#32)) 0#32) = 1#1
/-- It holds at the first point only — decided over the grid. -/
theorem hcond12_0 : ∀ t : Fin cfg12.N, cond12_0 (grid12.coords t) ↔ t.val % 10 = 0 :=
  (by decide +kernel : ∀ t : Fin grid12.N, cond12_0 (grid12.coords t) ↔ t.val % 10 = 0)

/-- What any view of a one-row buffer reads after a whole-row store of `p`, whatever was stored before and whatever it held. -/
theorem read_rowStore12 (v : View sig .tc .vmem S1x64 .f32) (f : v.ty.Contents (Elt F)) (p0 : Vec F S1x64 .f32)
    (L : List (View.Piece (Elt F) S1x64 .f32)) :
    v.read (Elt F) (v.writes (Elt F) f (⟨rR12, p0⟩ :: L)) = rowBuf12 p0 :=
  (View.read_writes_eq_canon _ _ _ (coverR12_cons p0 L)).trans (canon_rowBuf12 p0 L)

/-! ## The body's triple, at the first point and at a later one -/

set_option maxHeartbeats 4000000 in
/-- Where the condition holds: the two scratch rows at anything; the body zero-fills them, stores the result block, adds
    its column sums (and those of its squares) to the zero rows and copies the two rows into the last two output windows'
    buffers. The kernel function equals its skeleton of memory operations, whose loads and stores are run one after the other. -/
theorem sound_kernel12_first (c : Dev nD) (E : Set ℕ) (i : grid12.Coords) (hc : cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 (k12_pay2 (F := F))))
            ∗ owns (c : Thread nD τ) arg8 fullShare (rowBuf12 (sqP12 x1 x2 x3 x4 x5 (k12_pay3 (F := F))))
            ∗ owns (c : Thread nD τ) arg9 fullShare (rowBuf12 (sumP12 x1 x2 x3 x4 x5 (k12_pay2 (F := F))))
            ∗ owns (c : Thread nD τ) arg10 fullShare (rowBuf12 (sqP12 x1 x2 x3 x4 x5 (k12_pay3 (F := F))))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  simp only [cc12__mlp_stats_kernel_eq_skeleton]; unfold cc12__mlp_stats_kernel_skel
  simp only [k12_part1_eq_skeleton]; unfold k12_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf1 hf2 hf3 hf4 hf5
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA12 _)
  isplitl [H7]
  · iexists _; isplitr
    swap; · iexact H7
    ipureintro
    exact (read_rowStore12 _ _ _ _).trans (congrArg rowBuf12 ((View.readCov_cons_toLoadRect _ rR12 _ _).trans
      (congrArg (k12_pay5 _ _ _ _ _) (View.readCov_cons_toLoadRect _ rR12 _ _))))
  isplitl [H8]
  · iexists _; isplitr
    swap; · iexact H8
    ipureintro
    exact (read_rowStore12 _ _ _ _).trans (congrArg rowBuf12 ((View.readCov_cons_toLoadRect _ rR12 _ _).trans
      (congrArg (k12_pay1 _) (View.readCov_cons_toLoadRect _ rR12 _ _))))
  isplitl [H9]
  · iexists _; isplitr
    swap; · iexact H9
    ipureintro
    exact (read_rowStore12 _ _ _ _).trans (congrArg rowBuf12 (congrArg (k12_pay5 _ _ _ _ _) (View.readCov_cons_toLoadRect _ rR12 _ _)))
  · iexists _; isplitr
    swap; · iexact H10
    ipureintro
    exact (read_rowStore12 _ _ _ _).trans (congrArg rowBuf12 (congrArg (k12_pay1 _) (View.readCov_cons_toLoadRect _ rR12 _ _)))

set_option maxHeartbeats 4000000 in
/-- Where the condition fails: the two scratch rows at what they hold, `s9` and `s10`; the body stores the result block,
    adds its column sums (and those of its squares) to the rows and copies the two rows into the last two output
    windows' buffers. -/
theorem sound_kernel12_later (c : Dev nD) (E : Set ℕ) (i : grid12.Coords) (hc : ¬cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 (View.ld s9 rR12)))
            ∗ owns (c : Thread nD τ) arg8 fullShare (rowBuf12 (sqP12 x1 x2 x3 x4 x5 (View.ld s10 rR12)))
            ∗ owns (c : Thread nD τ) arg9 fullShare (rowBuf12 (sumP12 x1 x2 x3 x4 x5 (View.ld s9 rR12)))
            ∗ owns (c : Thread nD τ) arg10 fullShare (rowBuf12 (sqP12 x1 x2 x3 x4 x5 (View.ld s10 rR12)))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  simp only [cc12__mlp_stats_kernel_eq_skeleton]; unfold cc12__mlp_stats_kernel_skel
  simp only [k12_part1_eq_skeleton]; unfold k12_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1 hf2 hf3 hf4 hf5 hf9 hf10
  sl_exec (disch := exact hc)
  sl_step
  sl_unfold_run_names
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverA12 _)
  isplitl [H7]
  · iexists _; isplitr
    swap; · iexact H7
    ipureintro
    exact (read_rowStore12 _ _ _ _).trans (congrArg rowBuf12 (View.readCov_cons_toLoadRect _ rR12 _ _))
  isplitl [H8]
  · iexists _; isplitr
    swap; · iexact H8
    ipureintro
    exact (read_rowStore12 _ _ _ _).trans (congrArg rowBuf12 (View.readCov_cons_toLoadRect _ rR12 _ _))
  isplitl [H9]
  · iexists _; isplitr
    swap; · iexact H9
    ipureintro
    exact read_rowStore12 _ _ _ _
  · iexists _; isplitr
    swap; · iexact H10
    ipureintro
    exact read_rowStore12 _ _ _ _

/-- The same with the rows the two loads read named: `p9` and `p10` are what a load of the whole of each scratch row reads. -/
theorem sound_kernel12_later' (c : Dev nD) (E : Set ℕ) (i : grid12.Coords) (hc : ¬cond12_0 i)
    (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (x1 : Vec F S10000x64 .f32) (x2 : Vec F S64x128 .f32) (x3 : Vec F S1x128 .f32) (x4 : Vec F S128x64 .f32) (x5 : Vec F S1x64 .f32) (s9 : Vec F S1x64 .f32) (s10 : Vec F S1x64 .f32) (p9 : Vec F S1x64 .f32) (p10 : Vec F S1x64 .f32)
    (h9 : View.ld s9 rR12 = p9) (h10 : View.ld s10 rR12 = p10) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s9 ∗ owns (c : Thread nD τ) arg10 fullShare s10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out12_5 x1 x2 x3 x4 x5)
            ∗ owns (c : Thread nD τ) arg7 fullShare (rowBuf12 (sumP12 x1 x2 x3 x4 x5 p9))
            ∗ owns (c : Thread nD τ) arg8 fullShare (rowBuf12 (sqP12 x1 x2 x3 x4 x5 p10))
            ∗ owns (c : Thread nD τ) arg9 fullShare (rowBuf12 (sumP12 x1 x2 x3 x4 x5 p9))
            ∗ owns (c : Thread nD τ) arg10 fullShare (rowBuf12 (sqP12 x1 x2 x3 x4 x5 p10))) -∗ K ⟨⟩))
      ⊢ wp frame (wpE (defs₀ (F := F)) Variants.none c none) E (cc12__mlp_stats_kernel i arg1 harg1 arg2 harg2 arg3 harg3 arg4 harg4 arg5 harg5 arg6 harg6 arg7 harg7 arg8 harg8 arg9 harg9 arg10 harg10) K := by
  subst h9 h10
  exact sound_kernel12_later c E i hc arg1 harg1 arg2 harg2 arg3 harg3 arg4 harg4 arg5 harg5 arg6 harg6 arg7 harg7 arg8 harg8 arg9 harg9 arg10 harg10 x1 x2 x3 x4 x5 s9 s10 K

-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, whether it was fetched there or not (then its
    block index has not moved since the last fetch), for any proof data over these arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, whether it was fetched there or not (then its
    block index has not moved since the last fetch), for any proof data over these arrays whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, whether it was fetched there or not (then its
    block index has not moved since the last fetch), for any proof data over these arrays whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, whether it was fetched there or not (then its
    block index has not moved since the last fetch), for any proof data over these arrays whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, whether it was fetched there or not (then its
    block index has not moved since the last fetch), for any proof data over these arrays whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The two scratch rows, point by point -/

/-- The running sums the point `t` leaves, from the rows `v` it finds. -/
def sumAt12 (c : Dev nD) (t : Fin cfg12.N) (v : Vec F S1x64 .f32) : Vec F S1x64 .f32 :=
  sumP12 (iblk12 V c 0 t) (iblk12 V c 1 t) (iblk12 V c 2 t) (iblk12 V c 3 t) (iblk12 V c 4 t) v
def sqAt12 (c : Dev nD) (t : Fin cfg12.N) (v : Vec F S1x64 .f32) : Vec F S1x64 .f32 :=
  sqP12 (iblk12 V c 0 t) (iblk12 V c 1 t) (iblk12 V c 2 t) (iblk12 V c 3 t) (iblk12 V c 4 t) v

/-- THE ACCUMULATION. The rows the body stores into the two scratch buffers (column sums; column sums of squares) at
    position `n`: at the first point over the zero rows the body has just filled in, afterwards over the rows the point
    before stored. -/
def acc12 (c : Dev nD) : (n : ℕ) → n < cfg12.N → Vec F S1x64 .f32 × Vec F S1x64 .f32
  | 0, hn => (sumAt12 V c ⟨0, hn⟩ (k12_pay2 (F := F)), sqAt12 V c ⟨0, hn⟩ (k12_pay3 (F := F)))
  | n + 1, hn => (sumAt12 V c ⟨n + 1, hn⟩ (acc12 c n (Nat.lt_of_succ_lt hn)).1, sqAt12 V c ⟨n + 1, hn⟩ (acc12 c n (Nat.lt_of_succ_lt hn)).2)

/-- At the first point: over the zero rows. -/
theorem acc12_first (c : Dev nD) (t : Fin cfg12.N) (hz : t.val = 0) :
    acc12 V c t.val t.isLt = (sumAt12 V c t (k12_pay2 (F := F)), sqAt12 V c t (k12_pay3 (F := F))) := by
  obtain ⟨n, hn⟩ := t
  cases n with
  | zero => rfl
  | succ n => exact absurd hz (Nat.succ_ne_zero n)

/-- At a later point: over what the point before stored. -/
theorem acc12_later (c : Dev nD) (t : Fin cfg12.N) (hz : t.val ≠ 0) :
    acc12 V c t.val t.isLt = (sumAt12 V c t (acc12 V c (t.val - 1) (Nat.lt_of_le_of_lt (Nat.sub_le _ _) t.isLt)).1,
      sqAt12 V c t (acc12 V c (t.val - 1) (Nat.lt_of_le_of_lt (Nat.sub_le _ _) t.isLt)).2) := by
  obtain ⟨n, hn⟩ := t
  cases n with
  | zero => exact absurd rfl hz
  | succ n => rfl

/-! ## The region invariant: it carries the two scratch rows between points -/

/-- The two scratch operands: whole scoped buffers of the kernel's own, passed beside the windows. -/
abbrev scM12_0 : Memref sig .tc .vmem S1x64 .f32 := Memref.whole cc12_scratch0
abbrev scM12_1 : Memref sig .tc .vmem S1x64 .f32 := Memref.whole cc12_scratch1

/-- The invariant before position `n`: before the first point the scoped buffers no window stages, each at anything, and
    the generator register at some state; afterwards the same with the two scratch rows at what the point before stored. -/
def PhiS12 (c : Dev nD) : (n : ℕ) → n ≤ cfg12.N → sProp 𝕄
  | 0, _ => Pipeline.ΦA spec12 c
  | n + 1, hn => iprop(iprop(iprop(owns (c : Thread nD τ) scM12_0 fullShare (rowBuf12 (acc12 V c n hn).1) ∗ owns (c : Thread nD τ) scM12_1 fullShare (rowBuf12 (acc12 V c n hn).2))
        ∗ Pipeline.scopedRestBut (Ix := Unit) (Name := ℕ) (U := UR sig nD τ) (Lvl := ℕ) (Val := Elt F) spec12 c [cc12_scratch0, cc12_scratch1])
      ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare (rowBuf12 (acc12 V c n hn).1) ∗ owns (c : Thread nD τ) scM12_1 fullShare (rowBuf12 (acc12 V c n hn).2))
        ∗ Pipeline.scopedRestBut (Ix := Unit) (Name := ℕ) (U := UR sig nD τ) (Lvl := ℕ) (Val := Elt F) spec12 c [cc12_scratch0, cc12_scratch1])
      ∗ (∃ r, prngReg c r)) := rfl

theorem PhiS12_pos (c : Dev nD) (n : ℕ) (h : n ≤ cfg12.N) (hz : n ≠ 0) :
    PhiS12 V c n h = iprop(iprop(iprop(owns (c : Thread nD τ) scM12_0 fullShare (rowBuf12 (acc12 V c (n - 1) (by omega)).1) ∗ owns (c : Thread nD τ) scM12_1 fullShare (rowBuf12 (acc12 V c (n - 1) (by omega)).2))
        ∗ Pipeline.scopedRestBut (Ix := Unit) (Name := ℕ) (U := UR sig nD τ) (Lvl := ℕ) (Val := Elt F) spec12 c [cc12_scratch0, cc12_scratch1])
      ∗ (∃ r, prngReg c r)) := by
  cases n with
  | zero => exact absurd rfl hz
  | succ n => rfl

/-- The invariant before the first point with the two scratch operands as memrefs owned at some contents. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d))
          ∗ Pipeline.scopedRestBut (Ix := Unit) (Name := ℕ) (U := UR sig nD τ) (Lvl := ℕ) (Val := Elt F) spec12 c [cc12_scratch0, cc12_scratch1])
        ∗ (∃ r, prngReg c r)) := by
  unfold Pipeline.ΦA; rw [scopedRest12_split]; simp only [scM12_0, scM12_1, owns_whole]; try rfl

/-! ## The pipeline's proof data -/

/-- The proof data of the pipeline on core c: the arrays as the region finds them; after the body at point t each input's
    buffer at its block, the first output's at the result block, the last two outputs' at the two running rows; the invariant
    carries the scratch rows; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
    | ⟨6, _⟩ => rowBuf12 (acc12 V c t.val t.isLt).1
    | ⟨7, _⟩ => rowBuf12 (acc12 V c t.val t.isLt).2
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at the point's position. -/
theorem PhiS12_castSucc (c : Dev nD) (t : Fin cfg12.N) :
    (dat12 V c).Φ t.castSucc = PhiS12 V c t.val (Nat.le_of_lt t.isLt) := by
  dsimp only [dat12]; simp only [Fin.coe_castSucc]

/-- Before the first point the invariant is the scoped rest and the generator register; -/
theorem Phi12_zero (c : Dev nD) : (dat12 V c).Φ 0 = Pipeline.ΦA spec12 c := rfl

/-- after the last point it holds the two scratch rows at the totals over all ten points. -/
theorem Phi12_last (c : Dev nD) :
    (dat12 V c).Φ (Fin.last cfg12.N) = iprop(iprop(iprop(owns (c : Thread nD τ) scM12_0 fullShare (rowBuf12 (acc12 V c 9 (by rw [show cfg12.N = 10 from N_12]; decide)).1) ∗ owns (c : Thread nD τ) scM12_1 fullShare (rowBuf12 (acc12 V c 9 (by rw [show cfg12.N = 10 from N_12]; decide)).2))
        ∗ Pipeline.scopedRestBut (Ix := Unit) (Name := ℕ) (U := UR sig nD τ) (Lvl := ℕ) (Val := Elt F) spec12 c [cc12_scratch0, cc12_scratch1])
      ∗ (∃ r, prngReg c r)) := by
  rw [show (dat12 V c).Φ (Fin.last cfg12.N) = PhiS12 V c (Fin.last cfg12.N).val (Nat.le_of_lt_succ (Fin.last cfg12.N).isLt) from rfl]
  rw [PhiS12_pos V c _ _ (by rw [Fin.val_last]; have : cfg12.N = 10 := N_12; omega)]
  have hN : (Fin.last cfg12.N).val - 1 = 9 := by rw [Fin.val_last]; have : cfg12.N = 10 := N_12; omega
  simp only [hN]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]
theorem after12_6 (c : Dev nD) (t : Fin cfg12.N) : (dat12 V c).after 6 t = rowBuf12 (acc12 V c t.val t.isLt).1 := by dsimp only [dat12]
theorem after12_7 (c : Dev nD) (t : Fin cfg12.N) : (dat12 V c).after 7 t = rowBuf12 (acc12 V c t.val t.isLt).2 := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The invariant against the launch's resources -/

/-- What the launch hands the region — the generator register, no prefetched table (anything beside them is dropped), the
    scoped buffers no window stages — is the invariant before the first point. -/
theorem phi_in12 (c : Dev nD) (P : sProp 𝕄) :
    iprop((∃ r, prngReg c r) ∗ P ∗ Pipeline.scopedRest (Ix := Unit) (Name := ℕ) (U := UR sig nD τ) (Lvl := ℕ) (Val := Elt F) spec12 c) ⊢ (dat12 V c).Φ 0 := by
  rw [Phi12_zero]; unfold Pipeline.ΦA
  iintro ⟨Hp, -, Hr⟩
  isplitl [Hr]; · iexact Hr
  iexact Hp

/-- After the last point the invariant gives them back: the two scratch rows' contents are forgotten. -/
theorem Phi12_out_A (c : Dev nD) : (dat12 V c).Φ (Fin.last cfg12.N) ⊢ Pipeline.ΦA spec12 c := by
  rw [Phi12_last, PhiA12_eq]
  iintro ⟨⟨⟨HS0, HS1⟩, Hrest⟩, Hg⟩
  isplitr [Hg]
  · isplitr [Hrest]
    · isplitl [HS0]
      · iexists _; iexact HS0
      · iexists _; iexact HS1
    · iexact Hrest
  · iexact Hg

/-- After the last point the invariant gives the launch's resources back (the kernel has no semaphore of its own): the
    two scratch rows' contents are forgotten. -/
theorem phi_out12 (c : Dev nD) :
    (dat12 V c).Φ (Fin.last cfg12.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec12 c) := by
  refine (Phi12_out_A V c).trans ?_
  rw [Pipeline.ownSems0_none]; unfold Pipeline.ΦA
  iintro ⟨Hr, Hp⟩
  isplitl [Hp]; · iexact Hp
  isplitr; · iempintro
  iexact Hr

/-! ## The body obligation, at a generic point -/

/-- What the body is called with at point t: the invariant, the core's debt, and each window's current staging buffer at
    what the pipeline left there, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

set_option maxHeartbeats 4000000 in
/-- The body at any point: the inputs' memrefs hold their blocks; at the first point the invariant hands the body the two
    scratch rows at anything and the condition holds, at a later point it hands them at what the point before stored and
    the condition fails; either way the body's triple applies, and the invariant takes the two rows back at this point's
    sums; the rest of the scoped buffers, the generator register and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).owesAt () t.succ = (dat12 V c).owesAt () t.castSucc from rfl,
    after12_0, after12_1, after12_2, after12_3, after12_4, after12_5, after12_6, after12_7]
  rw [show (dat12 V c).Φ t.succ = PhiS12 V c (t.val + 1) t.isLt from rfl, PhiS12_succ, PhiS12_castSucc]
  have hN : t.val < 10 := lt_of_lt_of_eq t.isLt (show cfg12.N = 10 from N_12)
  by_cases hz : t.val = 0
  · rw [PhiS12_zero V c _ _ hz, PhiA12_eq, acc12_first V c t hz]
    unfold sumAt12 sqAt12
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel12_first c Set.univ (grid12.coords t) ((hcond12_0 t).mpr (by omega)) _ _ _ _ _ _ _ _ _ _ _ _ _ _ _ _ _ _ _ _
      (iblk12 V c 0 t) (iblk12 V c 1 t) (iblk12 V c 2 t) (iblk12 V c 3 t) (iblk12 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS12_pos V c _ _ hz, acc12_later V c t hz]
    unfold sumAt12 sqAt12
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel12_later' c Set.univ (grid12.coords t) (fun h => hz (by have h' := (hcond12_0 t).mp h; omega)) _ _ _ _ _ _ _ _ _ _ _ _ _ _ _ _ _ _ _ _
      (iblk12 V c 0 t) (iblk12 V c 1 t) (iblk12 V c 2 t) (iblk12 V c 3 t) (iblk12 V c 4 t) (rowBuf12 _) (rowBuf12 _) _ _ (ld_rowBuf12 _) (ld_rowBuf12 _) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Gen

end
-- ==== Proof.KRegion13.lean ====
/- The proof data and the body obligation of the pipeline of custom_call 13, at a parameter V (the TensorCore's buffer
   contents when the region is entered): every window's block at a grid point, the value the body leaves in each
   window's staging buffer, the body's triple on whole staging memrefs, and the obligation at every grid point. -/
import proofs.«127476_j62818191671466_2_alg».proof.Proof.Gen.Kernel.Launch
import proofs.«127476_j62818191671466_2_alg».proof.Proof.Gen.Kernel.Skeleton
import proofs.«127476_j62818191671466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 10000 rows recurses once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, whether it was fetched there or
    not (then the block index has not moved since the last fetch), for any proof data over these arrays whose
    body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, whether it was fetched there or
    not (then the block index has not moved since the last fetch), for any proof data over these arrays whose
    body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, whether it was fetched there or
    not (then the block index has not moved since the last fetch), for any proof data over these arrays whose
    body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, whether it was fetched there or
    not (then the block index has not moved since the last fetch), for any proof data over these arrays whose
    body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, whether it was fetched there or
    not (then the block index has not moved since the last fetch), for any proof data over these arrays whose
    body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, whether it was fetched there or
    not (then the block index has not moved since the last fetch), for any proof data over these arrays whose
    body leaves the block in place. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's one store: the whole output block -/

abbrev r13_0 : Rect S10000x64 := Rect.unit (s := S10000x64) ![0, 0] S10000x64.size inb_S10000x64_S10000x64_0_0

/-- The output window's staging buffer after the body, from the input windows' blocks: the one store, of the
    payload of the loaded input blocks, over the whole rectangle. -/
def out13_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r13_0, k13_pay1 (View.ld x3 (Rect.unit (s := S1x64) ![0, 0] S1x64.size inb_S1x64_S1x64_0_0)) (View.ld x0 (Rect.unit (s := S10000x64) ![0, 0] S10000x64.size inb_S10000x64_S10000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S10000x64) ![0, 0] S10000x64.size inb_S10000x64_S10000x64_0_0))⟩]

/-- The store's rectangle is the whole buffer, so it covers every index. -/
theorem cover13_6 (p0 : Vec F S10000x64 .f32) (y : S10000x64.Idx) :
    ∃ pc ∈ ([⟨r13_0, p0⟩] : List (View.Piece (Elt F) S10000x64 .f32)), y ∈ pc.1.set :=
  View.cover_of_tiled [⟨r13_0, p0⟩] S10000x64.size (by rfl) y

/-! ## The body's triple -/

set_option maxHeartbeats 1000000 in
/-- The kernel body on whole staging memrefs, the inputs' at contents x and the output's at anything, runs to the
    continuation holding the inputs' as they were and the output's at out13_6 of the inputs: the printed function
    is its skeleton, whose loads and one store are run one after the other. -/
theorem sound_kernel13 (c : Dev nD) (E : Set ℕ) (i : grid13.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13_6 x0 x1 x2 x3 x4 x5)) -∗ K ⟨⟩))
      ⊢ wp frame (wpE (defs₀ (F := F)) Variants.none c none) E (cc13__bn_resid_kernel i arg0 harg0 arg1 harg1 arg2 harg2 arg3 harg3 arg4 harg4 arg5 harg5 arg6 harg6) K := by
  simp only [cc13__bn_resid_kernel_eq_skeleton]; unfold cc13__bn_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  · iexists _; isplitr
    swap; · iexact H6
    ipureintro
    exact View.read_writes_eq_canon _ _ _ (cover13_6 _)

/-! ## The pipeline's proof data -/

/-- The proof data of the pipeline on core c: the arrays as the region finds them; after the body at point t each
    input's buffer at its block and the output's at out13_6 of the input blocks; the invariant is the scoped rest and
    the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t: the invariant, the core's debt, and each window's current staging
    buffer at what the pipeline left there, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant and
    the core's debt pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Gen
-- ==== Proof.KBoundaries.lean ====
/- The contents of a core's unscoped buffers at every boundary between two items of the main program: the launch
  memory, then alternately a stretch of host operations folded over what came before and a kernel region, after
  which each output array of the region holds what the pipeline's write-backs leave and every other buffer what it
  held when the region was entered. A region's input arrays are never written, so they leave as they entered; and no
  item writes an argument array, so each argument reads at the end as at the launch.
-/
import proofs.«127476_j62818191671466_2_alg».proof.Proof.KRegion0
import proofs.«127476_j62818191671466_2_alg».proof.Proof.KRegion1
import proofs.«127476_j62818191671466_2_alg».proof.Proof.KRegion2
import proofs.«127476_j62818191671466_2_alg».proof.Proof.KRegion3
import proofs.«127476_j62818191671466_2_alg».proof.Proof.KRegion4
import proofs.«127476_j62818191671466_2_alg».proof.Proof.KRegion5
import proofs.«127476_j62818191671466_2_alg».proof.Proof.KRegion6
import proofs.«127476_j62818191671466_2_alg».proof.Proof.KRegion7
import proofs.«127476_j62818191671466_2_alg».proof.Proof.KRegion8
import proofs.«127476_j62818191671466_2_alg».proof.Proof.KRegion9
import proofs.«127476_j62818191671466_2_alg».proof.Proof.KRegion10
import proofs.«127476_j62818191671466_2_alg».proof.Proof.KRegion11
import proofs.«127476_j62818191671466_2_alg».proof.Proof.KRegion12
import proofs.«127476_j62818191671466_2_alg».proof.Proof.KRegion13
import proofs.«127476_j62818191671466_2_alg».proof.Proof.Gen.Kernel.Regions

set_option maxRecDepth 16384

noncomputable section

namespace Cert.Kernel.Gen

open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core c's buffers at launch. -/
abbrev B0 (c : Dev nD) : Valuation τ sig (Elt F) := fun b => m (c, b)

/-- After the host stretch before region 0: what the region is entered from. -/
abbrev B1 (c : Dev nD) : Valuation τ sig (Elt F) := StableHlo.after hostOps0 (B0 m c)
/-- The same, read at the TensorCore's references. -/
abbrev E1 : (c : Dev nD) → (b : Ref sig .tc) → Buf (Elt F) ((c : Thread nD τ).loc b) := fun c b => B1 m c b
/-- At region 0's exit: each output array at what the write-backs leave, everything else as entered. -/
def B2 (c : Dev nD) : Valuation τ sig (Elt F) :=
  Function.update (B1 m c) main_v5 ((dat0 (E1 m) c).arrAt 3 cfg0.N)
abbrev E2 : (c : Dev nD) → (b : Ref sig .tc) → Buf (Elt F) ((c : Thread nD τ).loc b) := fun c b => B2 m c b
set_option maxHeartbeats 1000000 in
theorem hF0_0 (c : Dev nD) : (dat0 (E1 m) c).arrAt 0 cfg0.N = E2 m c main_arg0 :=
  ((dat0 (E1 m) c).arrAt_in 0 rfl _).trans ((A_eq0 (E1 m) c 0).trans (by
      show B1 m c main_arg0 = B2 m c main_arg0
      unfold B2; simp only [Function.update_of_ne (StableHlo.devRef_ne_of_ne (by decide) : (Proc.devRef .tc main_arg0 : DevRef τ sig) ≠ Proc.devRef .tc main_v5)]))
set_option maxHeartbeats 1000000 in
theorem hF0_1 (c : Dev nD) : (dat0 (E1 m) c).arrAt 1 cfg0.N = E2 m c main_arg4 :=
  ((dat0 (E1 m) c).arrAt_in 1 rfl _).trans ((A_eq0 (E1 m) c 1).trans (by
      show B1 m c main_arg4 = B2 m c main_arg4
      unfold B2; simp only [Function.update_of_ne (StableHlo.devRef_ne_of_ne (by decide) : (Proc.devRef .tc main_arg4 : DevRef τ sig) ≠ Proc.devRef .tc main_v5)]))
set_option maxHeartbeats 1000000 in
theorem hF0_2 (c : Dev nD) : (dat0 (E1 m) c).arrAt 2 cfg0.N = E2 m c main_v4 :=
  ((dat0 (E1 m) c).arrAt_in 2 rfl _).trans ((A_eq0 (E1 m) c 2).trans (by
      show B1 m c main_v4 = B2 m c main_v4
      unfold B2; simp only [Function.update_of_ne (StableHlo.devRef_ne_of_ne (by decide) : (Proc.devRef .tc main_v4 : DevRef τ sig) ≠ Proc.devRef .tc main_v5)]))
set_option maxHeartbeats 1000000 in
theorem hF0_3 (c : Dev nD) : (dat0 (E1 m) c).arrAt 3 cfg0.N = E2 m c main_v5 := by
  show (dat0 (E1 m) c).arrAt 3 cfg0.N = B2 m c main_v5
  unfold B2; simp only [Function.update_self]
set_option maxHeartbeats 1000000 in
theorem hF0 (c : Dev nD) : ∀ w : Fin cfg0.W, (dat0 (E1 m) c).arrAt w cfg0.N = E2 m c (Pipeline.arrRef spec0 w)
  | ⟨0, _⟩ => hF0_0 m c
  | ⟨1, _⟩ => hF0_1 m c
  | ⟨2, _⟩ => hF0_2 m c
  | ⟨3, _⟩ => hF0_3 m c
  | ⟨_ + 4, h⟩ => absurd h (Nat.not_lt.2 (Nat.le_add_left _ _))
theorem hrest0 (c : Dev nD) : ∀ b, b ∉ Finset.univ.image (Pipeline.arrRef spec0) → E2 m c b = E1 m c b := fun b hb => by
  show B2 m c b = B1 m c b
  unfold B2
  simp only [Function.update_of_ne (StableHlo.devRef_ne_of_ne (fun e => hb (Finset.mem_image.mpr ⟨3, Finset.mem_univ _, e.symm⟩)) : (Proc.devRef .tc b : DevRef τ sig) ≠ Proc.devRef .tc main_v5)]
/-- A buffer that is no output of region 0 leaves it as it entered. -/
theorem B2_of (c : Dev nD) (r : Ref sig .tc) (h : r ∉ ([main_v5] : List (Ref sig .tc))) : B2 m c r = B1 m c r := by
  unfold B2
  simp only [Function.update_of_ne (StableHlo.devRef_ne_of_ne (List.ne_of_not_mem_cons (h)) : (Proc.devRef .tc r : DevRef τ sig) ≠ Proc.devRef .tc main_v5)]
/-- A buffer the host stretch before region 0 does not write passes through it. -/
theorem B1_of (c : Dev nD) (r : Ref sig .tc) (h : r ∉ hostOps0_W) : B1 m c r = B0 m c r :=
  StableHlo.after_of_writes_sub hostOps0 _ hostOps0_writes h

/-- After the host stretch before region 1: what the region is entered from. -/
abbrev B3 (c : Dev nD) : Valuation τ sig (Elt F) := StableHlo.after hostOps1 (B2 m c)
/-- The same, read at the TensorCore's references. -/
abbrev E3 : (c : Dev nD) → (b : Ref sig .tc) → Buf (Elt F) ((c : Thread nD τ).loc b) := fun c b => B3 m c b
/-- At region 1's exit: each output array at what the write-backs leave, everything else as entered. -/
def B4 (c : Dev nD) : Valuation τ sig (Elt F) :=
  Function.update (B3 m c) main_v7 ((dat1 (E3 m) c).arrAt 3 cfg1.N)
abbrev E4 : (c : Dev nD) → (b : Ref sig .tc) → Buf (Elt F) ((c : Thread nD τ).loc b) := fun c b => B4 m c b
set_option maxHeartbeats 1000000 in
theorem hF1_0 (c : Dev nD) : (dat1 (E3 m) c).arrAt 0 cfg1.N = E4 m c main_arg1 :=
  ((dat1 (E3 m) c).arrAt_in 0 rfl _).trans ((A_eq1 (E3 m) c 0).trans (by
      show B3 m c main_arg1 = B4 m c main_arg1
      unfold B4; simp only [Function.update_of_ne (StableHlo.devRef_ne_of_ne (by decide) : (Proc.devRef .tc main_arg1 : DevRef τ sig) ≠ Proc.devRef .tc main_v7)]))
set_option maxHeartbeats 1000000 in
theorem hF1_1 (c : Dev nD) : (dat1 (E3 m) c).arrAt 1 cfg1.N = E4 m c main_arg6 :=
  ((dat1 (E3 m) c).arrAt_in 1 rfl _).trans ((A_eq1 (E3 m) c 1).trans (by
      show B3 m c main_arg6 = B4 m c main_arg6
      unfold B4; simp only [Function.update_of_ne (StableHlo.devRef_ne_of_ne (by decide) : (Proc.devRef .tc main_arg6 : DevRef τ sig) ≠ Proc.devRef .tc main_v7)]))
set_option maxHeartbeats 1000000 in
theorem hF1_2 (c : Dev nD) : (dat1 (E3 m) c).arrAt 2 cfg1.N = E4 m c main_v6 :=
  ((dat1 (E3 m) c).arrAt_in 2 rfl _).trans ((A_eq1 (E3 m) c 2).trans (by
      show B3 m c main_v6 = B4 m c main_v6
      unfold B4; simp only [Function.update_of_ne (StableHlo.devRef_ne_of_ne (by decide) : (Proc.devRef .tc main_v6 : DevRef τ sig) ≠ Proc.devRef .tc main_v7)]))
set_option maxHeartbeats 1000000 in
theorem hF1_3 (c : Dev nD) : (dat1 (E3 m) c).arrAt 3 cfg1.N = E4 m c main_v7 := by
  show (dat1 (E3 m) c).arrAt 3 cfg1.N = B4 m c main_v7
  unfold B4; simp only [Function.update_self]
set_option maxHeartbeats 1000000 in
theorem hF1 (c : Dev nD) : ∀ w : Fin cfg1.W, (dat1 (E3 m) c).arrAt w cfg1.N = E4 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left _ _))
theorem hrest1 (c : Dev nD) : ∀ b, b ∉ Finset.univ.image (Pipeline.arrRef spec1) → E4 m c b = E3 m c b := fun b hb => by
  show B4 m c b = B3 m c b
  unfold B4
  simp only [Function.update_of_ne (StableHlo.devRef_ne_of_ne (fun e => hb (Finset.mem_image.mpr ⟨3, Finset.mem_univ _, e.symm⟩)) : (Proc.devRef .tc b : DevRef τ sig) ≠ Proc.devRef .tc main_v7)]
/-- A buffer that is no output of region 1 leaves it as it entered. -/
theorem B4_of (c : Dev nD) (r : Ref sig .tc) (h : r ∉ ([main_v7] : List (Ref sig .tc))) : B4 m c r = B3 m c r := by
  unfold B4
  simp only [Function.update_of_ne (StableHlo.devRef_ne_of_ne (List.ne_of_not_mem_cons (h)) : (Proc.devRef .tc r : DevRef τ sig) ≠ Proc.devRef .tc main_v7)]
/-- A buffer the host stretch before region 1 does not write passes through it. -/
theorem B3_of (c : Dev nD) (r : Ref sig .tc) (h : r ∉ hostOps1_W) : B3 m c r = B2 m c r :=
  StableHlo.after_of_writes_sub hostOps1 _ hostOps1_writes h

/-- After the host stretch before region 2: what the region is entered from. -/
abbrev B5 (c : Dev nD) : Valuation τ sig (Elt F) := StableHlo.after hostOps2 (B4 m c)
/-- The same, read at the TensorCore's references. -/
abbrev E5 : (c : Dev nD) → (b : Ref sig .tc) → Buf (Elt F) ((c : Thread nD τ).loc b) := fun c b => B5 m c b
/-- At region 2's exit: each output array at what the write-backs leave, everything else as entered. -/
def B6 (c : Dev nD) : Valuation τ sig (Elt F) :=
  Function.update (B5 m c) main_v15 ((dat2 (E5 m) c).arrAt 2 cfg2.N)
abbrev E6 : (c : Dev nD) → (b : Ref sig .tc) → Buf (Elt F) ((c : Thread nD τ).loc b) := fun c b => B6 m c b
set_option maxHeartbeats 1000000 in
theorem hF2_0 (c : Dev nD) : (dat2 (E5 m) c).arrAt 0 cfg2.N = E6 m c main_v14 :=
  ((dat2 (E5 m) c).arrAt_in 0 rfl _).trans ((A_eq2 (E5 m) c 0).trans (by
      show B5 m c main_v14 = B6 m c main_v14
      unfold B6; simp only [Function.update_of_ne (StableHlo.devRef_ne_of_ne (by decide) : (Proc.devRef .tc main_v14 : DevRef τ sig) ≠ Proc.devRef .tc main_v15)]))
set_option maxHeartbeats 1000000 in
theorem hF2_1 (c : Dev nD) : (dat2 (E5 m) c).arrAt 1 cfg2.N = E6 m c main_v7 :=
  ((dat2 (E5 m) c).arrAt_in 1 rfl _).trans ((A_eq2 (E5 m) c 1).trans (by
      show B5 m c main_v7 = B6 m c main_v7
      unfold B6; simp only [Function.update_of_ne (StableHlo.devRef_ne_of_ne (by decide) : (Proc.devRef .tc main_v7 : DevRef τ sig) ≠ Proc.devRef .tc main_v15)]))
set_option maxHeartbeats 1000000 in
theorem hF2_2 (c : Dev nD) : (dat2 (E5 m) c).arrAt 2 cfg2.N = E6 m c main_v15 := by
  show (dat2 (E5 m) c).arrAt 2 cfg2.N = B6 m c main_v15
  unfold B6; simp only [Function.update_self]
set_option maxHeartbeats 1000000 in
theorem hF2 (c : Dev nD) : ∀ w : Fin cfg2.W, (dat2 (E5 m) c).arrAt w cfg2.N = E6 m c (Pipeline.arrRef spec2 w)
  | ⟨0, _⟩ => hF2_0 m c
  | ⟨1, _⟩ => hF2_1 m c
  | ⟨2, _⟩ => hF2_2 m c
  | ⟨_ + 3, h⟩ => absurd h (Nat.not_lt.2 (Nat.le_add_left _ _))
theorem hrest2 (c : Dev nD) : ∀ b, b ∉ Finset.univ.image (Pipeline.arrRef spec2) → E6 m c b = E5 m c b := fun b hb => by
  show B6 m c b = B5 m c b
  unfold B6
  simp only [Function.update_of_ne (StableHlo.devRef_ne_of_ne (fun e => hb (Finset.mem_image.mpr ⟨2, Finset.mem_univ _, e.symm⟩)) : (Proc.devRef .tc b : DevRef τ sig) ≠ Proc.devRef .tc main_v15)]
/-- A buffer that is no output of region 2 leaves it as it entered. -/
theorem B6_of (c : Dev nD) (r : Ref sig .tc) (h : r ∉ ([main_v15] : List (Ref sig .tc))) : B6 m c r = B5 m c r := by
  unfold B6
  simp only [Function.update_of_ne (StableHlo.devRef_ne_of_ne (List.ne_of_not_mem_cons (h)) : (Proc.devRef .tc r : DevRef τ sig) ≠ Proc.devRef .tc main_v15)]
/-- A buffer the host stretch before region 2 does not write passes through it. -/
theorem B5_of (c : Dev nD) (r : Ref sig .tc) (h : r ∉ hostOps2_W) : B5 m c r = B4 m c r :=
  StableHlo.after_of_writes_sub hostOps2 _ hostOps2_writes h

/-- After the host stretch before region 3: what the region is entered from. -/
abbrev B7 (c : Dev nD) : Valuation τ sig (Elt F) := StableHlo.after hostOps3 (B6 m c)
/-- The same, read at the TensorCore's references. -/
abbrev E7 : (c : Dev nD) → (b : Ref sig .tc) → Buf (Elt F) ((c : Thread nD τ).loc b) := fun c b => B7 m c b
/-- At region 3's exit: each output array at what the write-backs leave, everything else as entered. -/
def B8 (c : Dev nD) : Valuation τ sig (Elt F) :=
  Function.update (Function.update (Function.update (B7 m c) main_v35_0 ((dat3 (E7 m) c).arrAt 5 cfg3.N)) main_v35_1 ((dat3 (E7 m) c).arrAt 6 cfg3.N)) main_v35_2 ((dat3 (E7 m) c).arrAt 7 cfg3.N)
abbrev E8 : (c : Dev nD) → (b : Ref sig .tc) → Buf (Elt F) ((c : Thread nD τ).loc b) := fun c b => B8 m c b
set_option maxHeartbeats 1000000 in
theorem hF3_0 (c : Dev nD) : (dat3 (E7 m) c).arrAt 0 cfg3.N = E8 m c main_v24 :=
  ((dat3 (E7 m) c).arrAt_in 0 rfl _).trans ((A_eq3 (E7 m) c 0).trans (by
      show B7 m c main_v24 = B8 m c main_v24
      unfold B8; simp only [Function.update_of_ne (StableHlo.devRef_ne_of_ne (by decide) : (Proc.devRef .tc main_v24 : DevRef τ sig) ≠ Proc.devRef .tc main_v35_0), Function.update_of_ne (StableHlo.devRef_ne_of_ne (by decide) : (Proc.devRef .tc main_v24 : DevRef τ sig) ≠ Proc.devRef .tc main_v35_1), Function.update_of_ne (StableHlo.devRef_ne_of_ne (by decide) : (Proc.devRef .tc main_v24 : DevRef τ sig) ≠ Proc.devRef .tc main_v35_2)]))
set_option maxHeartbeats 1000000 in
theorem hF3_1 (c : Dev nD) : (dat3 (E7 m) c).arrAt 1 cfg3.N = E8 m c main_v26 :=
  ((dat3 (E7 m) c).arrAt_in 1 rfl _).trans ((A_eq3 (E7 m) c 1).trans (by
      show B7 m c main_v26 = B8 m c main_v26
      unfold B8; simp only [Function.update_of_ne (StableHlo.devRef_ne_of_ne (by decide) : (Proc.devRef .tc main_v26 : DevRef τ sig) ≠ Proc.devRef .tc main_v35_0), Function.update_of_ne (StableHlo.devRef_ne_of_ne (by decide) : (Proc.devRef .tc main_v26 : DevRef τ sig) ≠ Proc.devRef .tc main_v35_1), Function.update_of_ne (StableHlo.devRef_ne_of_ne (by decide) : (Proc.devRef .tc main_v26 : DevRef τ sig) ≠ Proc.devRef .tc main_v35_2)]))
set_option maxHeartbeats 1000000 in
theorem hF3_2 (c : Dev nD) : (dat3 (E7 m) c).arrAt 2 cfg3.N = E8 m c main_v33 :=
  ((dat3 (E7 m) c).arrAt_in 2 rfl _).trans ((A_eq3 (E7 m) c 2).trans (by
      show B7 m c main_v33 = B8 m c main_v33
      unfold B8; simp only [Function.update_of_ne (StableHlo.devRef_ne_of_ne (by decide) : (Proc.devRef .tc main_v33 : DevRef τ sig) ≠ Proc.devRef .tc main_v35_0), Function.update_of_ne (StableHlo.devRef_ne_of_ne (by decide) : (Proc.devRef .tc main_v33 : DevRef τ sig) ≠ Proc.devRef .tc main_v35_1), Function.update_of_ne (StableHlo.devRef_ne_of_ne (by decide) : (Proc.devRef .tc main_v33 : DevRef τ sig) ≠ Proc.devRef .tc main_v35_2)]))
set_option maxHeartbeats 1000000 in
theorem hF3_3 (c : Dev nD) : (dat3 (E7 m) c).arrAt 3 cfg3.N = E8 m c main_v30 :=
  ((dat3 (E7 m) c).arrAt_in 3 rfl _).trans ((A_eq3 (E7 m) c 3).trans (by
      show B7 m c main_v30 = B8 m c main_v30
      unfold B8; simp only [Function.update_of_ne (StableHlo.devRef_ne_of_ne (by decide) : (Proc.devRef .tc main_v30 : DevRef τ sig) ≠ Proc.devRef .tc main_v35_0), Function.update_of_ne (StableHlo.devRef_ne_of_ne (by decide) : (Proc.devRef .tc main_v30 : DevRef τ sig) ≠ Proc.devRef .tc main_v35_1), Function.update_of_ne (StableHlo.devRef_ne_of_ne (by decide) : (Proc.devRef .tc main_v30 : DevRef τ sig) ≠ Proc.devRef .tc main_v35_2)]))
set_option maxHeartbeats 1000000 in
theorem hF3_4 (c : Dev nD) : (dat3 (E7 m) c).arrAt 4 cfg3.N = E8 m c main_v34 :=
  ((dat3 (E7 m) c).arrAt_in 4 rfl _).trans ((A_eq3 (E7 m) c 4).trans (by
      show B7 m c main_v34 = B8 m c main_v34
      unfold B8; simp only [Function.update_of_ne (StableHlo.devRef_ne_of_ne (by decide) : (Proc.devRef .tc main_v34 : DevRef τ sig) ≠ Proc.devRef .tc main_v35_0), Function.update_of_ne (StableHlo.devRef_ne_of_ne (by decide) : (Proc.devRef .tc main_v34 : DevRef τ sig) ≠ Proc.devRef .tc main_v35_1), Function.update_of_ne (StableHlo.devRef_ne_of_ne (by decide) : (Proc.devRef .tc main_v34 : DevRef τ sig) ≠ Proc.devRef .tc main_v35_2)]))
set_option maxHeartbeats 1000000 in
theorem hF3_5 (c : Dev nD) : (dat3 (E7 m) c).arrAt 5 cfg3.N = E8 m c main_v35_0 := by
  show (dat3 (E7 m) c).arrAt 5 cfg3.N = B8 m c main_v35_0
  unfold B8; simp only [Function.update_of_ne (StableHlo.devRef_ne_of_ne (by decide) : (Proc.devRef .tc main_v35_0 : DevRef τ sig) ≠ Proc.devRef .tc main_v35_1), Function.update_of_ne (StableHlo.devRef_ne_of_ne (by decide) : (Proc.devRef .tc main_v35_0 : DevRef τ sig) ≠ Proc.devRef .tc main_v35_2), Function.update_self]
set_option maxHeartbeats 1000000 in
theorem hF3_6 (c : Dev nD) : (dat3 (E7 m) c).arrAt 6 cfg3.N = E8 m c main_v35_1 := by
  show (dat3 (E7 m) c).arrAt 6 cfg3.N = B8 m c main_v35_1
  unfold B8; simp only [Function.update_of_ne (StableHlo.devRef_ne_of_ne (by decide) : (Proc.devRef .tc main_v35_1 : DevRef τ sig) ≠ Proc.devRef .tc main_v35_2), Function.update_self]
set_option maxHeartbeats 1000000 in
theorem hF3_7 (c : Dev nD) : (dat3 (E7 m) c).arrAt 7 cfg3.N = E8 m c main_v35_2 := by
  show (dat3 (E7 m) c).arrAt 7 cfg3.N = B8 m c main_v35_2
  unfold B8; simp only [Function.update_self]
set_option maxHeartbeats 1000000 in
theorem hF3 (c : Dev nD) : ∀ w : Fin cfg3.W, (dat3 (E7 m) c).arrAt w cfg3.N = E8 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
  | ⟨_ + 8, h⟩ => absurd h (Nat.not_lt.2 (Nat.le_add_left _ _))
theorem hrest3 (c : Dev nD) : ∀ b, b ∉ Finset.univ.image (Pipeline.arrRef spec3) → E8 m c b = E7 m c b := fun b hb => by
  show B8 m c b = B7 m c b
  unfold B8
  simp only [Function.update_of_ne (StableHlo.devRef_ne_of_ne (fun e => hb (Finset.mem_image.mpr ⟨5, Finset.mem_univ _, e.symm⟩)) : (Proc.devRef .tc b : DevRef τ sig) ≠ Proc.devRef .tc main_v35_0), Function.update_of_ne (StableHlo.devRef_ne_of_ne (fun e => hb (Finset.mem_image.mpr ⟨6, Finset.mem_univ _, e.symm⟩)) : (Proc.devRef .tc b : DevRef τ sig) ≠ Proc.devRef .tc main_v35_1), Function.update_of_ne (StableHlo.devRef_ne_of_ne (fun e => hb (Finset.mem_image.mpr ⟨7, Finset.mem_univ _, e.symm⟩)) : (Proc.devRef .tc b : DevRef τ sig) ≠ Proc.devRef .tc main_v35_2)]
/-- A buffer that is no output of region 3 leaves it as it entered. -/
theorem B8_of (c : Dev nD) (r : Ref sig .tc) (h : r ∉ ([main_v35_0, main_v35_1, main_v35_2] : List (Ref sig .tc))) : B8 m c r = B7 m c r := by
  unfold B8
  simp only [Function.update_of_ne (StableHlo.devRef_ne_of_ne (List.ne_of_not_mem_cons (h)) : (Proc.devRef .tc r : DevRef τ sig) ≠ Proc.devRef .tc main_v35_0), Function.update_of_ne (StableHlo.devRef_ne_of_ne (List.ne_of_not_mem_cons (List.not_mem_of_not_mem_cons (h))) : (Proc.devRef .tc r : DevRef τ sig) ≠ Proc.devRef .tc main_v35_1), Function.update_of_ne (StableHlo.devRef_ne_of_ne (List.ne_of_not_mem_cons (List.not_mem_of_not_mem_cons (List.not_mem_of_not_mem_cons (h)))) : (Proc.devRef .tc r : DevRef τ sig) ≠ Proc.devRef .tc main_v35_2)]
/-- A buffer the host stretch before region 3 does not write passes through it. -/
theorem B7_of (c : Dev nD) (r : Ref sig .tc) (h : r ∉ hostOps3_W) : B7 m c r = B6 m c r :=
  StableHlo.after_of_writes_sub hostOps3 _ hostOps3_writes h

/-- After the host stretch before region 4: what the region is entered from. -/
abbrev B9 (c : Dev nD) : Valuation τ sig (Elt F) := StableHlo.after hostOps4 (B8 m c)
/-- The same, read at the TensorCore's references. -/
abbrev E9 : (c : Dev nD) → (b : Ref sig .tc) → Buf (Elt F) ((c : Thread nD τ).loc b) := fun c b => B9 m c b
/-- At region 4's exit: each output array at what the write-backs leave, everything else as entered. -/
def B10 (c : Dev nD) : Valuation τ sig (Elt F) :=
  Function.update (B9 m c) main_v50 ((dat4 (E9 m) c).arrAt 6 cfg4.N)
abbrev E10 : (c : Dev nD) → (b : Ref sig .tc) → Buf (Elt F) ((c : Thread nD τ).loc b) := fun c b => B10 m c b
set_option maxHeartbeats 1000000 in
theorem hF4_0 (c : Dev nD) : (dat4 (E9 m) c).arrAt 0 cfg4.N = E10 m c main_v35_0 :=
  ((dat4 (E9 m) c).arrAt_in 0 rfl _).trans ((A_eq4 (E9 m) c 0).trans (by
      show B9 m c main_v35_0 = B10 m c main_v35_0
      unfold B10; simp only [Function.update_of_ne (StableHlo.devRef_ne_of_ne (by decide) : (Proc.devRef .tc main_v35_0 : DevRef τ sig) ≠ Proc.devRef .tc main_v50)]))
set_option maxHeartbeats 1000000 in
theorem hF4_1 (c : Dev nD) : (dat4 (E9 m) c).arrAt 1 cfg4.N = E10 m c main_v5 :=
  ((dat4 (E9 m) c).arrAt_in 1 rfl _).trans ((A_eq4 (E9 m) c 1).trans (by
      show B9 m c main_v5 = B10 m c main_v5
      unfold B10; simp only [Function.update_of_ne (StableHlo.devRef_ne_of_ne (by decide) : (Proc.devRef .tc main_v5 : DevRef τ sig) ≠ Proc.devRef .tc main_v50)]))
set_option maxHeartbeats 1000000 in
theorem hF4_2 (c : Dev nD) : (dat4 (E9 m) c).arrAt 2 cfg4.N = E10 m c main_v37 :=
  ((dat4 (E9 m) c).arrAt_in 2 rfl _).trans ((A_eq4 (E9 m) c 2).trans (by
      show B9 m c main_v37 = B10 m c main_v37
      unfold B10; simp only [Function.update_of_ne (StableHlo.devRef_ne_of_ne (by decide) : (Proc.devRef .tc main_v37 : DevRef τ sig) ≠ Proc.devRef .tc main_v50)]))
set_option maxHeartbeats 1000000 in
theorem hF4_3 (c : Dev nD) : (dat4 (E9 m) c).arrAt 3 cfg4.N = E10 m c main_v43 :=
  ((dat4 (E9 m) c).arrAt_in 3 rfl _).trans ((A_eq4 (E9 m) c 3).trans (by
      show B9 m c main_v43 = B10 m c main_v43
      unfold B10; simp only [Function.update_of_ne (StableHlo.devRef_ne_of_ne (by decide) : (Proc.devRef .tc main_v43 : DevRef τ sig) ≠ Proc.devRef .tc main_v50)]))
set_option maxHeartbeats 1000000 in
theorem hF4_4 (c : Dev nD) : (dat4 (E9 m) c).arrAt 4 cfg4.N = E10 m c main_v46 :=
  ((dat4 (E9 m) c).arrAt_in 4 rfl _).trans ((A_eq4 (E9 m) c 4).trans (by
      show B9 m c main_v46 = B10 m c main_v46
      unfold B10; simp only [Function.update_of_ne (StableHlo.devRef_ne_of_ne (by decide) : (Proc.devRef .tc main_v46 : DevRef τ sig) ≠ Proc.devRef .tc main_v50)]))
set_option maxHeartbeats 1000000 in
theorem hF4_5 (c : Dev nD) : (dat4 (E9 m) c).arrAt 5 cfg4.N = E10 m c main_v49 :=
  ((dat4 (E9 m) c).arrAt_in 5 rfl _).trans ((A_eq4 (E9 m) c 5).trans (by
      show B9 m c main_v49 = B10 m c main_v49
      unfold B10; simp only [Function.update_of_ne (StableHlo.devRef_ne_of_ne (by decide) : (Proc.devRef .tc main_v49 : DevRef τ sig) ≠ Proc.devRef .tc main_v50)]))
set_option maxHeartbeats 1000000 in
theorem hF4_6 (c : Dev nD) : (dat4 (E9 m) c).arrAt 6 cfg4.N = E10 m c main_v50 := by
  show (dat4 (E9 m) c).arrAt 6 cfg4.N = B10 m c main_v50
  unfold B10; simp only [Function.update_self]
set_option maxHeartbeats 1000000 in
theorem hF4 (c : Dev nD) : ∀ w : Fin cfg4.W, (dat4 (E9 m) c).arrAt w cfg4.N = E10 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c
  | ⟨_ + 7, h⟩ => absurd h (Nat.not_lt.2 (Nat.le_add_left _ _))
theorem hrest4 (c : Dev nD) : ∀ b, b ∉ Finset.univ.image (Pipeline.arrRef spec4) → E10 m c b = E9 m c b := fun b hb => by
  show B10 m c b = B9 m c b
  unfold B10
  simp only [Function.update_of_ne (StableHlo.devRef_ne_of_ne (fun e => hb (Finset.mem_image.mpr ⟨6, Finset.mem_univ _, e.symm⟩)) : (Proc.devRef .tc b : DevRef τ sig) ≠ Proc.devRef .tc main_v50)]
/-- A buffer that is no output of region 4 leaves it as it entered. -/
theorem B10_of (c : Dev nD) (r : Ref sig .tc) (h : r ∉ ([main_v50] : List (Ref sig .tc))) : B10 m c r = B9 m c r := by
  unfold B10
  simp only [Function.update_of_ne (StableHlo.devRef_ne_of_ne (List.ne_of_not_mem_cons (h)) : (Proc.devRef .tc r : DevRef τ sig) ≠ Proc.devRef .tc main_v50)]
/-- A buffer the host stretch before region 4 does not write passes through it. -/
theorem B9_of (c : Dev nD) (r : Ref sig .tc) (h : r ∉ hostOps4_W) : B9 m c r = B8 m c r :=
  StableHlo.after_of_writes_sub hostOps4 _ hostOps4_writes h

/-- After the host stretch before region 5: what the region is entered from. -/
abbrev B11 (c : Dev nD) : Valuation τ sig (Elt F) := StableHlo.after hostOps5 (B10 m c)
/-- The same, read at the TensorCore's references. -/
abbrev E11 : (c : Dev nD) → (b : Ref sig .tc) → Buf (Elt F) ((c : Thread nD τ).loc b) := fun c b => B11 m c b
/-- At region 5's exit: each output array at what the write-backs leave, everything else as entered. -/
def B12 (c : Dev nD) : Valuation τ sig (Elt F) :=
  Function.update (B11 m c) main_v58 ((dat5 (E11 m) c).arrAt 2 cfg5.N)
abbrev E12 : (c : Dev nD) → (b : Ref sig .tc) → Buf (Elt F) ((c : Thread nD τ).loc b) := fun c b => B12 m c b
set_option maxHeartbeats 1000000 in
theorem hF5_0 (c : Dev nD) : (dat5 (E11 m) c).arrAt 0 cfg5.N = E12 m c main_v57 :=
  ((dat5 (E11 m) c).arrAt_in 0 rfl _).trans ((A_eq5 (E11 m) c 0).trans (by
      show B11 m c main_v57 = B12 m c main_v57
      unfold B12; simp only [Function.update_of_ne (StableHlo.devRef_ne_of_ne (by decide) : (Proc.devRef .tc main_v57 : DevRef τ sig) ≠ Proc.devRef .tc main_v58)]))
set_option maxHeartbeats 1000000 in
theorem hF5_1 (c : Dev nD) : (dat5 (E11 m) c).arrAt 1 cfg5.N = E12 m c main_v7 :=
  ((dat5 (E11 m) c).arrAt_in 1 rfl _).trans ((A_eq5 (E11 m) c 1).trans (by
      show B11 m c main_v7 = B12 m c main_v7
      unfold B12; simp only [Function.update_of_ne (StableHlo.devRef_ne_of_ne (by decide) : (Proc.devRef .tc main_v7 : DevRef τ sig) ≠ Proc.devRef .tc main_v58)]))
set_option maxHeartbeats 1000000 in
theorem hF5_2 (c : Dev nD) : (dat5 (E11 m) c).arrAt 2 cfg5.N = E12 m c main_v58 := by
  show (dat5 (E11 m) c).arrAt 2 cfg5.N = B12 m c main_v58
  unfold B12; simp only [Function.update_self]
set_option maxHeartbeats 1000000 in
theorem hF5 (c : Dev nD) : ∀ w : Fin cfg5.W, (dat5 (E11 m) c).arrAt w cfg5.N = E12 m c (Pipeline.arrRef spec5 w)
  | ⟨0, _⟩ => hF5_0 m c
  | ⟨1, _⟩ => hF5_1 m c
  | ⟨2, _⟩ => hF5_2 m c
  | ⟨_ + 3, h⟩ => absurd h (Nat.not_lt.2 (Nat.le_add_left _ _))
theorem hrest5 (c : Dev nD) : ∀ b, b ∉ Finset.univ.image (Pipeline.arrRef spec5) → E12 m c b = E11 m c b := fun b hb => by
  show B12 m c b = B11 m c b
  unfold B12
  simp only [Function.update_of_ne (StableHlo.devRef_ne_of_ne (fun e => hb (Finset.mem_image.mpr ⟨2, Finset.mem_univ _, e.symm⟩)) : (Proc.devRef .tc b : DevRef τ sig) ≠ Proc.devRef .tc main_v58)]
/-- A buffer that is no output of region 5 leaves it as it entered. -/
theorem B12_of (c : Dev nD) (r : Ref sig .tc) (h : r ∉ ([main_v58] : List (Ref sig .tc))) : B12 m c r = B11 m c r := by
  unfold B12
  simp only [Function.update_of_ne (StableHlo.devRef_ne_of_ne (List.ne_of_not_mem_cons (h)) : (Proc.devRef .tc r : DevRef τ sig) ≠ Proc.devRef .tc main_v58)]
/-- A buffer the host stretch before region 5 does not write passes through it. -/
theorem B11_of (c : Dev nD) (r : Ref sig .tc) (h : r ∉ hostOps5_W) : B11 m c r = B10 m c r :=
  StableHlo.after_of_writes_sub hostOps5 _ hostOps5_writes h

/-- After the host stretch before region 6: what the region is entered from. -/
abbrev B13 (c : Dev nD) : Valuation τ sig (Elt F) := StableHlo.after hostOps6 (B12 m c)
/-- The same, read at the TensorCore's references. -/
abbrev E13 : (c : Dev nD) → (b : Ref sig .tc) → Buf (Elt F) ((c : Thread nD τ).loc b) := fun c b => B13 m c b
/-- At region 6's exit: each output array at what the write-backs leave, everything else as entered. -/
def B14 (c : Dev nD) : Valuation τ sig (Elt F) :=
  Function.update (Function.update (Function.update (B13 m c) main_v78_0 ((dat6 (E13 m) c).arrAt 5 cfg6.N)) main_v78_1 ((dat6 (E13 m) c).arrAt 6 cfg6.N)) main_v78_2 ((dat6 (E13 m) c).arrAt 7 cfg6.N)
abbrev E14 : (c : Dev nD) → (b : Ref sig .tc) → Buf (Elt F) ((c : Thread nD τ).loc b) := fun c b => B14 m c b
set_option maxHeartbeats 1000000 in
theorem hF6_0 (c : Dev nD) : (dat6 (E13 m) c).arrAt 0 cfg6.N = E14 m c main_v67 :=
  ((dat6 (E13 m) c).arrAt_in 0 rfl _).trans ((A_eq6 (E13 m) c 0).trans (by
      show B13 m c main_v67 = B14 m c main_v67
      unfold B14; simp only [Function.update_of_ne (StableHlo.devRef_ne_of_ne (by decide) : (Proc.devRef .tc main_v67 : DevRef τ sig) ≠ Proc.devRef .tc main_v78_0), Function.update_of_ne (StableHlo.devRef_ne_of_ne (by decide) : (Proc.devRef .tc main_v67 : DevRef τ sig) ≠ Proc.devRef .tc main_v78_1), Function.update_of_ne (StableHlo.devRef_ne_of_ne (by decide) : (Proc.devRef .tc main_v67 : DevRef τ sig) ≠ Proc.devRef .tc main_v78_2)]))
set_option maxHeartbeats 1000000 in
theorem hF6_1 (c : Dev nD) : (dat6 (E13 m) c).arrAt 1 cfg6.N = E14 m c main_v69 :=
  ((dat6 (E13 m) c).arrAt_in 1 rfl _).trans ((A_eq6 (E13 m) c 1).trans (by
      show B13 m c main_v69 = B14 m c main_v69
      unfold B14; simp only [Function.update_of_ne (StableHlo.devRef_ne_of_ne (by decide) : (Proc.devRef .tc main_v69 : DevRef τ sig) ≠ Proc.devRef .tc main_v78_0), Function.update_of_ne (StableHlo.devRef_ne_of_ne (by decide) : (Proc.devRef .tc main_v69 : DevRef τ sig) ≠ Proc.devRef .tc main_v78_1), Function.update_of_ne (StableHlo.devRef_ne_of_ne (by decide) : (Proc.devRef .tc main_v69 : DevRef τ sig) ≠ Proc.devRef .tc main_v78_2)]))
set_option maxHeartbeats 1000000 in
theorem hF6_2 (c : Dev nD) : (dat6 (E13 m) c).arrAt 2 cfg6.N = E14 m c main_v76 :=
  ((dat6 (E13 m) c).arrAt_in 2 rfl _).trans ((A_eq6 (E13 m) c 2).trans (by
      show B13 m c main_v76 = B14 m c main_v76
      unfold B14; simp only [Function.update_of_ne (StableHlo.devRef_ne_of_ne (by decide) : (Proc.devRef .tc main_v76 : DevRef τ sig) ≠ Proc.devRef .tc main_v78_0), Function.update_of_ne (StableHlo.devRef_ne_of_ne (by decide) : (Proc.devRef .tc main_v76 : DevRef τ sig) ≠ Proc.devRef .tc main_v78_1), Function.update_of_ne (StableHlo.devRef_ne_of_ne (by decide) : (Proc.devRef .tc main_v76 : DevRef τ sig) ≠ Proc.devRef .tc main_v78_2)]))
set_option maxHeartbeats 1000000 in
theorem hF6_3 (c : Dev nD) : (dat6 (E13 m) c).arrAt 3 cfg6.N = E14 m c main_v73 :=
  ((dat6 (E13 m) c).arrAt_in 3 rfl _).trans ((A_eq6 (E13 m) c 3).trans (by
      show B13 m c main_v73 = B14 m c main_v73
      unfold B14; simp only [Function.update_of_ne (StableHlo.devRef_ne_of_ne (by decide) : (Proc.devRef .tc main_v73 : DevRef τ sig) ≠ Proc.devRef .tc main_v78_0), Function.update_of_ne (StableHlo.devRef_ne_of_ne (by decide) : (Proc.devRef .tc main_v73 : DevRef τ sig) ≠ Proc.devRef .tc main_v78_1), Function.update_of_ne (StableHlo.devRef_ne_of_ne (by decide) : (Proc.devRef .tc main_v73 : DevRef τ sig) ≠ Proc.devRef .tc main_v78_2)]))
set_option maxHeartbeats 1000000 in
theorem hF6_4 (c : Dev nD) : (dat6 (E13 m) c).arrAt 4 cfg6.N = E14 m c main_v77 :=
  ((dat6 (E13 m) c).arrAt_in 4 rfl _).trans ((A_eq6 (E13 m) c 4).trans (by
      show B13 m c main_v77 = B14 m c main_v77
      unfold B14; simp only [Function.update_of_ne (StableHlo.devRef_ne_of_ne (by decide) : (Proc.devRef .tc main_v77 : DevRef τ sig) ≠ Proc.devRef .tc main_v78_0), Function.update_of_ne (StableHlo.devRef_ne_of_ne (by decide) : (Proc.devRef .tc main_v77 : DevRef τ sig) ≠ Proc.devRef .tc main_v78_1), Function.update_of_ne (StableHlo.devRef_ne_of_ne (by decide) : (Proc.devRef .tc main_v77 : DevRef τ sig) ≠ Proc.devRef .tc main_v78_2)]))
set_option maxHeartbeats 1000000 in
theorem hF6_5 (c : Dev nD) : (dat6 (E13 m) c).arrAt 5 cfg6.N = E14 m c main_v78_0 := by
  show (dat6 (E13 m) c).arrAt 5 cfg6.N = B14 m c main_v78_0
  unfold B14; simp only [Function.update_of_ne (StableHlo.devRef_ne_of_ne (by decide) : (Proc.devRef .tc main_v78_0 : DevRef τ sig) ≠ Proc.devRef .tc main_v78_1), Function.update_of_ne (StableHlo.devRef_ne_of_ne (by decide) : (Proc.devRef .tc main_v78_0 : DevRef τ sig) ≠ Proc.devRef .tc main_v78_2), Function.update_self]
set_option maxHeartbeats 1000000 in
theorem hF6_6 (c : Dev nD) : (dat6 (E13 m) c).arrAt 6 cfg6.N = E14 m c main_v78_1 := by
  show (dat6 (E13 m) c).arrAt 6 cfg6.N = B14 m c main_v78_1
  unfold B14; simp only [Function.update_of_ne (StableHlo.devRef_ne_of_ne (by decide) : (Proc.devRef .tc main_v78_1 : DevRef τ sig) ≠ Proc.devRef .tc main_v78_2), Function.update_self]
set_option maxHeartbeats 1000000 in
theorem hF6_7 (c : Dev nD) : (dat6 (E13 m) c).arrAt 7 cfg6.N = E14 m c main_v78_2 := by
  show (dat6 (E13 m) c).arrAt 7 cfg6.N = B14 m c main_v78_2
  unfold B14; simp only [Function.update_self]
set_option maxHeartbeats 1000000 in
theorem hF6 (c : Dev nD) : ∀ w : Fin cfg6.W, (dat6 (E13 m) c).arrAt w cfg6.N = E14 m c (Pipeline.arrRef spec6 w)
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
  | ⟨7, _⟩ => hF6_7 m c
  | ⟨_ + 8, h⟩ => absurd h (Nat.not_lt.2 (Nat.le_add_left _ _))
theorem hrest6 (c : Dev nD) : ∀ b, b ∉ Finset.univ.image (Pipeline.arrRef spec6) → E14 m c b = E13 m c b := fun b hb => by
  show B14 m c b = B13 m c b
  unfold B14
  simp only [Function.update_of_ne (StableHlo.devRef_ne_of_ne (fun e => hb (Finset.mem_image.mpr ⟨5, Finset.mem_univ _, e.symm⟩)) : (Proc.devRef .tc b : DevRef τ sig) ≠ Proc.devRef .tc main_v78_0), Function.update_of_ne (StableHlo.devRef_ne_of_ne (fun e => hb (Finset.mem_image.mpr ⟨6, Finset.mem_univ _, e.symm⟩)) : (Proc.devRef .tc b : DevRef τ sig) ≠ Proc.devRef .tc main_v78_1), Function.update_of_ne (StableHlo.devRef_ne_of_ne (fun e => hb (Finset.mem_image.mpr ⟨7, Finset.mem_univ _, e.symm⟩)) : (Proc.devRef .tc b : DevRef τ sig) ≠ Proc.devRef .tc main_v78_2)]
/-- A buffer that is no output of region 6 leaves it as it entered. -/
theorem B14_of (c : Dev nD) (r : Ref sig .tc) (h : r ∉ ([main_v78_0, main_v78_1, main_v78_2] : List (Ref sig .tc))) : B14 m c r = B13 m c r := by
  unfold B14
  simp only [Function.update_of_ne (StableHlo.devRef_ne_of_ne (List.ne_of_not_mem_cons (h)) : (Proc.devRef .tc r : DevRef τ sig) ≠ Proc.devRef .tc main_v78_0), Function.update_of_ne (StableHlo.devRef_ne_of_ne (List.ne_of_not_mem_cons (List.not_mem_of_not_mem_cons (h))) : (Proc.devRef .tc r : DevRef τ sig) ≠ Proc.devRef .tc main_v78_1), Function.update_of_ne (StableHlo.devRef_ne_of_ne (List.ne_of_not_mem_cons (List.not_mem_of_not_mem_cons (List.not_mem_of_not_mem_cons (h)))) : (Proc.devRef .tc r : DevRef τ sig) ≠ Proc.devRef .tc main_v78_2)]
/-- A buffer the host stretch before region 6 does not write passes through it. -/
theorem B13_of (c : Dev nD) (r : Ref sig .tc) (h : r ∉ hostOps6_W) : B13 m c r = B12 m c r :=
  StableHlo.after_of_writes_sub hostOps6 _ hostOps6_writes h

/-- After the host stretch before region 7: what the region is entered from. -/
abbrev B15 (c : Dev nD) : Valuation τ sig (Elt F) := StableHlo.after hostOps7 (B14 m c)
/-- The same, read at the TensorCore's references. -/
abbrev E15 : (c : Dev nD) → (b : Ref sig .tc) → Buf (Elt F) ((c : Thread nD τ).loc b) := fun c b => B15 m c b
/-- At region 7's exit: each output array at what the write-backs leave, everything else as entered. -/
def B16 (c : Dev nD) : Valuation τ sig (Elt F) :=
  Function.update (B15 m c) main_v93 ((dat7 (E15 m) c).arrAt 6 cfg7.N)
abbrev E16 : (c : Dev nD) → (b : Ref sig .tc) → Buf (Elt F) ((c : Thread nD τ).loc b) := fun c b => B16 m c b
set_option maxHeartbeats 1000000 in
theorem hF7_0 (c : Dev nD) : (dat7 (E15 m) c).arrAt 0 cfg7.N = E16 m c main_v78_0 :=
  ((dat7 (E15 m) c).arrAt_in 0 rfl _).trans ((A_eq7 (E15 m) c 0).trans (by
      show B15 m c main_v78_0 = B16 m c main_v78_0
      unfold B16; simp only [Function.update_of_ne (StableHlo.devRef_ne_of_ne (by decide) : (Proc.devRef .tc main_v78_0 : DevRef τ sig) ≠ Proc.devRef .tc main_v93)]))
set_option maxHeartbeats 1000000 in
theorem hF7_1 (c : Dev nD) : (dat7 (E15 m) c).arrAt 1 cfg7.N = E16 m c main_v50 :=
  ((dat7 (E15 m) c).arrAt_in 1 rfl _).trans ((A_eq7 (E15 m) c 1).trans (by
      show B15 m c main_v50 = B16 m c main_v50
      unfold B16; simp only [Function.update_of_ne (StableHlo.devRef_ne_of_ne (by decide) : (Proc.devRef .tc main_v50 : DevRef τ sig) ≠ Proc.devRef .tc main_v93)]))
set_option maxHeartbeats 1000000 in
theorem hF7_2 (c : Dev nD) : (dat7 (E15 m) c).arrAt 2 cfg7.N = E16 m c main_v80 :=
  ((dat7 (E15 m) c).arrAt_in 2 rfl _).trans ((A_eq7 (E15 m) c 2).trans (by
      show B15 m c main_v80 = B16 m c main_v80
      unfold B16; simp only [Function.update_of_ne (StableHlo.devRef_ne_of_ne (by decide) : (Proc.devRef .tc main_v80 : DevRef τ sig) ≠ Proc.devRef .tc main_v93)]))
set_option maxHeartbeats 1000000 in
theorem hF7_3 (c : Dev nD) : (dat7 (E15 m) c).arrAt 3 cfg7.N = E16 m c main_v86 :=
  ((dat7 (E15 m) c).arrAt_in 3 rfl _).trans ((A_eq7 (E15 m) c 3).trans (by
      show B15 m c main_v86 = B16 m c main_v86
      unfold B16; simp only [Function.update_of_ne (StableHlo.devRef_ne_of_ne (by decide) : (Proc.devRef .tc main_v86 : DevRef τ sig) ≠ Proc.devRef .tc main_v93)]))
set_option maxHeartbeats 1000000 in
theorem hF7_4 (c : Dev nD) : (dat7 (E15 m) c).arrAt 4 cfg7.N = E16 m c main_v89 :=
  ((dat7 (E15 m) c).arrAt_in 4 rfl _).trans ((A_eq7 (E15 m) c 4).trans (by
      show B15 m c main_v89 = B16 m c main_v89
      unfold B16; simp only [Function.update_of_ne (StableHlo.devRef_ne_of_ne (by decide) : (Proc.devRef .tc main_v89 : DevRef τ sig) ≠ Proc.devRef .tc main_v93)]))
set_option maxHeartbeats 1000000 in
theorem hF7_5 (c : Dev nD) : (dat7 (E15 m) c).arrAt 5 cfg7.N = E16 m c main_v92 :=
  ((dat7 (E15 m) c).arrAt_in 5 rfl _).trans ((A_eq7 (E15 m) c 5).trans (by
      show B15 m c main_v92 = B16 m c main_v92
      unfold B16; simp only [Function.update_of_ne (StableHlo.devRef_ne_of_ne (by decide) : (Proc.devRef .tc main_v92 : DevRef τ sig) ≠ Proc.devRef .tc main_v93)]))
set_option maxHeartbeats 1000000 in
theorem hF7_6 (c : Dev nD) : (dat7 (E15 m) c).arrAt 6 cfg7.N = E16 m c main_v93 := by
  show (dat7 (E15 m) c).arrAt 6 cfg7.N = B16 m c main_v93
  unfold B16; simp only [Function.update_self]
set_option maxHeartbeats 1000000 in
theorem hF7 (c : Dev nD) : ∀ w : Fin cfg7.W, (dat7 (E15 m) c).arrAt w cfg7.N = E16 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c
  | ⟨_ + 7, h⟩ => absurd h (Nat.not_lt.2 (Nat.le_add_left _ _))
theorem hrest7 (c : Dev nD) : ∀ b, b ∉ Finset.univ.image (Pipeline.arrRef spec7) → E16 m c b = E15 m c b := fun b hb => by
  show B16 m c b = B15 m c b
  unfold B16
  simp only [Function.update_of_ne (StableHlo.devRef_ne_of_ne (fun e => hb (Finset.mem_image.mpr ⟨6, Finset.mem_univ _, e.symm⟩)) : (Proc.devRef .tc b : DevRef τ sig) ≠ Proc.devRef .tc main_v93)]
/-- A buffer that is no output of region 7 leaves it as it entered. -/
theorem B16_of (c : Dev nD) (r : Ref sig .tc) (h : r ∉ ([main_v93] : List (Ref sig .tc))) : B16 m c r = B15 m c r := by
  unfold B16
  simp only [Function.update_of_ne (StableHlo.devRef_ne_of_ne (List.ne_of_not_mem_cons (h)) : (Proc.devRef .tc r : DevRef τ sig) ≠ Proc.devRef .tc main_v93)]
/-- A buffer the host stretch before region 7 does not write passes through it. -/
theorem B15_of (c : Dev nD) (r : Ref sig .tc) (h : r ∉ hostOps7_W) : B15 m c r = B14 m c r :=
  StableHlo.after_of_writes_sub hostOps7 _ hostOps7_writes h

/-- After the host stretch before region 8: what the region is entered from. -/
abbrev B17 (c : Dev nD) : Valuation τ sig (Elt F) := StableHlo.after hostOps8 (B16 m c)
/-- The same, read at the TensorCore's references. -/
abbrev E17 : (c : Dev nD) → (b : Ref sig .tc) → Buf (Elt F) ((c : Thread nD τ).loc b) := fun c b => B17 m c b
/-- At region 8's exit: each output array at what the write-backs leave, everything else as entered. -/
def B18 (c : Dev nD) : Valuation τ sig (Elt F) :=
  Function.update (B17 m c) main_v101 ((dat8 (E17 m) c).arrAt 2 cfg8.N)
abbrev E18 : (c : Dev nD) → (b : Ref sig .tc) → Buf (Elt F) ((c : Thread nD τ).loc b) := fun c b => B18 m c b
set_option maxHeartbeats 1000000 in
theorem hF8_0 (c : Dev nD) : (dat8 (E17 m) c).arrAt 0 cfg8.N = E18 m c main_v100 :=
  ((dat8 (E17 m) c).arrAt_in 0 rfl _).trans ((A_eq8 (E17 m) c 0).trans (by
      show B17 m c main_v100 = B18 m c main_v100
      unfold B18; simp only [Function.update_of_ne (StableHlo.devRef_ne_of_ne (by decide) : (Proc.devRef .tc main_v100 : DevRef τ sig) ≠ Proc.devRef .tc main_v101)]))
set_option maxHeartbeats 1000000 in
theorem hF8_1 (c : Dev nD) : (dat8 (E17 m) c).arrAt 1 cfg8.N = E18 m c main_v7 :=
  ((dat8 (E17 m) c).arrAt_in 1 rfl _).trans ((A_eq8 (E17 m) c 1).trans (by
      show B17 m c main_v7 = B18 m c main_v7
      unfold B18; simp only [Function.update_of_ne (StableHlo.devRef_ne_of_ne (by decide) : (Proc.devRef .tc main_v7 : DevRef τ sig) ≠ Proc.devRef .tc main_v101)]))
set_option maxHeartbeats 1000000 in
theorem hF8_2 (c : Dev nD) : (dat8 (E17 m) c).arrAt 2 cfg8.N = E18 m c main_v101 := by
  show (dat8 (E17 m) c).arrAt 2 cfg8.N = B18 m c main_v101
  unfold B18; simp only [Function.update_self]
set_option maxHeartbeats 1000000 in
theorem hF8 (c : Dev nD) : ∀ w : Fin cfg8.W, (dat8 (E17 m) c).arrAt w cfg8.N = E18 m c (Pipeline.arrRef spec8 w)
  | ⟨0, _⟩ => hF8_0 m c
  | ⟨1, _⟩ => hF8_1 m c
  | ⟨2, _⟩ => hF8_2 m c
  | ⟨_ + 3, h⟩ => absurd h (Nat.not_lt.2 (Nat.le_add_left _ _))
theorem hrest8 (c : Dev nD) : ∀ b, b ∉ Finset.univ.image (Pipeline.arrRef spec8) → E18 m c b = E17 m c b := fun b hb => by
  show B18 m c b = B17 m c b
  unfold B18
  simp only [Function.update_of_ne (StableHlo.devRef_ne_of_ne (fun e => hb (Finset.mem_image.mpr ⟨2, Finset.mem_univ _, e.symm⟩)) : (Proc.devRef .tc b : DevRef τ sig) ≠ Proc.devRef .tc main_v101)]
/-- A buffer that is no output of region 8 leaves it as it entered. -/
theorem B18_of (c : Dev nD) (r : Ref sig .tc) (h : r ∉ ([main_v101] : List (Ref sig .tc))) : B18 m c r = B17 m c r := by
  unfold B18
  simp only [Function.update_of_ne (StableHlo.devRef_ne_of_ne (List.ne_of_not_mem_cons (h)) : (Proc.devRef .tc r : DevRef τ sig) ≠ Proc.devRef .tc main_v101)]
/-- A buffer the host stretch before region 8 does not write passes through it. -/
theorem B17_of (c : Dev nD) (r : Ref sig .tc) (h : r ∉ hostOps8_W) : B17 m c r = B16 m c r :=
  StableHlo.after_of_writes_sub hostOps8 _ hostOps8_writes h

/-- After the host stretch before region 9: what the region is entered from. -/
abbrev B19 (c : Dev nD) : Valuation τ sig (Elt F) := StableHlo.after hostOps9 (B18 m c)
/-- The same, read at the TensorCore's references. -/
abbrev E19 : (c : Dev nD) → (b : Ref sig .tc) → Buf (Elt F) ((c : Thread nD τ).loc b) := fun c b => B19 m c b
/-- At region 9's exit: each output array at what the write-backs leave, everything else as entered. -/
def B20 (c : Dev nD) : Valuation τ sig (Elt F) :=
  Function.update (Function.update (Function.update (B19 m c) main_v121_0 ((dat9 (E19 m) c).arrAt 5 cfg9.N)) main_v121_1 ((dat9 (E19 m) c).arrAt 6 cfg9.N)) main_v121_2 ((dat9 (E19 m) c).arrAt 7 cfg9.N)
abbrev E20 : (c : Dev nD) → (b : Ref sig .tc) → Buf (Elt F) ((c : Thread nD τ).loc b) := fun c b => B20 m c b
set_option maxHeartbeats 1000000 in
theorem hF9_0 (c : Dev nD) : (dat9 (E19 m) c).arrAt 0 cfg9.N = E20 m c main_v110 :=
  ((dat9 (E19 m) c).arrAt_in 0 rfl _).trans ((A_eq9 (E19 m) c 0).trans (by
      show B19 m c main_v110 = B20 m c main_v110
      unfold B20; simp only [Function.update_of_ne (StableHlo.devRef_ne_of_ne (by decide) : (Proc.devRef .tc main_v110 : DevRef τ sig) ≠ Proc.devRef .tc main_v121_0), Function.update_of_ne (StableHlo.devRef_ne_of_ne (by decide) : (Proc.devRef .tc main_v110 : DevRef τ sig) ≠ Proc.devRef .tc main_v121_1), Function.update_of_ne (StableHlo.devRef_ne_of_ne (by decide) : (Proc.devRef .tc main_v110 : DevRef τ sig) ≠ Proc.devRef .tc main_v121_2)]))
set_option maxHeartbeats 1000000 in
theorem hF9_1 (c : Dev nD) : (dat9 (E19 m) c).arrAt 1 cfg9.N = E20 m c main_v112 :=
  ((dat9 (E19 m) c).arrAt_in 1 rfl _).trans ((A_eq9 (E19 m) c 1).trans (by
      show B19 m c main_v112 = B20 m c main_v112
      unfold B20; simp only [Function.update_of_ne (StableHlo.devRef_ne_of_ne (by decide) : (Proc.devRef .tc main_v112 : DevRef τ sig) ≠ Proc.devRef .tc main_v121_0), Function.update_of_ne (StableHlo.devRef_ne_of_ne (by decide) : (Proc.devRef .tc main_v112 : DevRef τ sig) ≠ Proc.devRef .tc main_v121_1), Function.update_of_ne (StableHlo.devRef_ne_of_ne (by decide) : (Proc.devRef .tc main_v112 : DevRef τ sig) ≠ Proc.devRef .tc main_v121_2)]))
set_option maxHeartbeats 1000000 in
theorem hF9_2 (c : Dev nD) : (dat9 (E19 m) c).arrAt 2 cfg9.N = E20 m c main_v119 :=
  ((dat9 (E19 m) c).arrAt_in 2 rfl _).trans ((A_eq9 (E19 m) c 2).trans (by
      show B19 m c main_v119 = B20 m c main_v119
      unfold B20; simp only [Function.update_of_ne (StableHlo.devRef_ne_of_ne (by decide) : (Proc.devRef .tc main_v119 : DevRef τ sig) ≠ Proc.devRef .tc main_v121_0), Function.update_of_ne (StableHlo.devRef_ne_of_ne (by decide) : (Proc.devRef .tc main_v119 : DevRef τ sig) ≠ Proc.devRef .tc main_v121_1), Function.update_of_ne (StableHlo.devRef_ne_of_ne (by decide) : (Proc.devRef .tc main_v119 : DevRef τ sig) ≠ Proc.devRef .tc main_v121_2)]))
set_option maxHeartbeats 1000000 in
theorem hF9_3 (c : Dev nD) : (dat9 (E19 m) c).arrAt 3 cfg9.N = E20 m c main_v116 :=
  ((dat9 (E19 m) c).arrAt_in 3 rfl _).trans ((A_eq9 (E19 m) c 3).trans (by
      show B19 m c main_v116 = B20 m c main_v116
      unfold B20; simp only [Function.update_of_ne (StableHlo.devRef_ne_of_ne (by decide) : (Proc.devRef .tc main_v116 : DevRef τ sig) ≠ Proc.devRef .tc main_v121_0), Function.update_of_ne (StableHlo.devRef_ne_of_ne (by decide) : (Proc.devRef .tc main_v116 : DevRef τ sig) ≠ Proc.devRef .tc main_v121_1), Function.update_of_ne (StableHlo.devRef_ne_of_ne (by decide) : (Proc.devRef .tc main_v116 : DevRef τ sig) ≠ Proc.devRef .tc main_v121_2)]))
set_option maxHeartbeats 1000000 in
theorem hF9_4 (c : Dev nD) : (dat9 (E19 m) c).arrAt 4 cfg9.N = E20 m c main_v120 :=
  ((dat9 (E19 m) c).arrAt_in 4 rfl _).trans ((A_eq9 (E19 m) c 4).trans (by
      show B19 m c main_v120 = B20 m c main_v120
      unfold B20; simp only [Function.update_of_ne (StableHlo.devRef_ne_of_ne (by decide) : (Proc.devRef .tc main_v120 : DevRef τ sig) ≠ Proc.devRef .tc main_v121_0), Function.update_of_ne (StableHlo.devRef_ne_of_ne (by decide) : (Proc.devRef .tc main_v120 : DevRef τ sig) ≠ Proc.devRef .tc main_v121_1), Function.update_of_ne (StableHlo.devRef_ne_of_ne (by decide) : (Proc.devRef .tc main_v120 : DevRef τ sig) ≠ Proc.devRef .tc main_v121_2)]))
set_option maxHeartbeats 1000000 in
theorem hF9_5 (c : Dev nD) : (dat9 (E19 m) c).arrAt 5 cfg9.N = E20 m c main_v121_0 := by
  show (dat9 (E19 m) c).arrAt 5 cfg9.N = B20 m c main_v121_0
  unfold B20; simp only [Function.update_of_ne (StableHlo.devRef_ne_of_ne (by decide) : (Proc.devRef .tc main_v121_0 : DevRef τ sig) ≠ Proc.devRef .tc main_v121_1), Function.update_of_ne (StableHlo.devRef_ne_of_ne (by decide) : (Proc.devRef .tc main_v121_0 : DevRef τ sig) ≠ Proc.devRef .tc main_v121_2), Function.update_self]
set_option maxHeartbeats 1000000 in
theorem hF9_6 (c : Dev nD) : (dat9 (E19 m) c).arrAt 6 cfg9.N = E20 m c main_v121_1 := by
  show (dat9 (E19 m) c).arrAt 6 cfg9.N = B20 m c main_v121_1
  unfold B20; simp only [Function.update_of_ne (StableHlo.devRef_ne_of_ne (by decide) : (Proc.devRef .tc main_v121_1 : DevRef τ sig) ≠ Proc.devRef .tc main_v121_2), Function.update_self]
set_option maxHeartbeats 1000000 in
theorem hF9_7 (c : Dev nD) : (dat9 (E19 m) c).arrAt 7 cfg9.N = E20 m c main_v121_2 := by
  show (dat9 (E19 m) c).arrAt 7 cfg9.N = B20 m c main_v121_2
  unfold B20; simp only [Function.update_self]
set_option maxHeartbeats 1000000 in
theorem hF9 (c : Dev nD) : ∀ w : Fin cfg9.W, (dat9 (E19 m) c).arrAt w cfg9.N = E20 m c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨5, _⟩ => hF9_5 m c
  | ⟨6, _⟩ => hF9_6 m c
  | ⟨7, _⟩ => hF9_7 m c
  | ⟨_ + 8, h⟩ => absurd h (Nat.not_lt.2 (Nat.le_add_left _ _))
theorem hrest9 (c : Dev nD) : ∀ b, b ∉ Finset.univ.image (Pipeline.arrRef spec9) → E20 m c b = E19 m c b := fun b hb => by
  show B20 m c b = B19 m c b
  unfold B20
  simp only [Function.update_of_ne (StableHlo.devRef_ne_of_ne (fun e => hb (Finset.mem_image.mpr ⟨5, Finset.mem_univ _, e.symm⟩)) : (Proc.devRef .tc b : DevRef τ sig) ≠ Proc.devRef .tc main_v121_0), Function.update_of_ne (StableHlo.devRef_ne_of_ne (fun e => hb (Finset.mem_image.mpr ⟨6, Finset.mem_univ _, e.symm⟩)) : (Proc.devRef .tc b : DevRef τ sig) ≠ Proc.devRef .tc main_v121_1), Function.update_of_ne (StableHlo.devRef_ne_of_ne (fun e => hb (Finset.mem_image.mpr ⟨7, Finset.mem_univ _, e.symm⟩)) : (Proc.devRef .tc b : DevRef τ sig) ≠ Proc.devRef .tc main_v121_2)]
/-- A buffer that is no output of region 9 leaves it as it entered. -/
theorem B20_of (c : Dev nD) (r : Ref sig .tc) (h : r ∉ ([main_v121_0, main_v121_1, main_v121_2] : List (Ref sig .tc))) : B20 m c r = B19 m c r := by
  unfold B20
  simp only [Function.update_of_ne (StableHlo.devRef_ne_of_ne (List.ne_of_not_mem_cons (h)) : (Proc.devRef .tc r : DevRef τ sig) ≠ Proc.devRef .tc main_v121_0), Function.update_of_ne (StableHlo.devRef_ne_of_ne (List.ne_of_not_mem_cons (List.not_mem_of_not_mem_cons (h))) : (Proc.devRef .tc r : DevRef τ sig) ≠ Proc.devRef .tc main_v121_1), Function.update_of_ne (StableHlo.devRef_ne_of_ne (List.ne_of_not_mem_cons (List.not_mem_of_not_mem_cons (List.not_mem_of_not_mem_cons (h)))) : (Proc.devRef .tc r : DevRef τ sig) ≠ Proc.devRef .tc main_v121_2)]
/-- A buffer the host stretch before region 9 does not write passes through it. -/
theorem B19_of (c : Dev nD) (r : Ref sig .tc) (h : r ∉ hostOps9_W) : B19 m c r = B18 m c r :=
  StableHlo.after_of_writes_sub hostOps9 _ hostOps9_writes h

/-- After the host stretch before region 10: what the region is entered from. -/
abbrev B21 (c : Dev nD) : Valuation τ sig (Elt F) := StableHlo.after hostOps10 (B20 m c)
/-- The same, read at the TensorCore's references. -/
abbrev E21 : (c : Dev nD) → (b : Ref sig .tc) → Buf (Elt F) ((c : Thread nD τ).loc b) := fun c b => B21 m c b
/-- At region 10's exit: each output array at what the write-backs leave, everything else as entered. -/
def B22 (c : Dev nD) : Valuation τ sig (Elt F) :=
  Function.update (B21 m c) main_v136 ((dat10 (E21 m) c).arrAt 6 cfg10.N)
abbrev E22 : (c : Dev nD) → (b : Ref sig .tc) → Buf (Elt F) ((c : Thread nD τ).loc b) := fun c b => B22 m c b
set_option maxHeartbeats 1000000 in
theorem hF10_0 (c : Dev nD) : (dat10 (E21 m) c).arrAt 0 cfg10.N = E22 m c main_v121_0 :=
  ((dat10 (E21 m) c).arrAt_in 0 rfl _).trans ((A_eq10 (E21 m) c 0).trans (by
      show B21 m c main_v121_0 = B22 m c main_v121_0
      unfold B22; simp only [Function.update_of_ne (StableHlo.devRef_ne_of_ne (by decide) : (Proc.devRef .tc main_v121_0 : DevRef τ sig) ≠ Proc.devRef .tc main_v136)]))
set_option maxHeartbeats 1000000 in
theorem hF10_1 (c : Dev nD) : (dat10 (E21 m) c).arrAt 1 cfg10.N = E22 m c main_v93 :=
  ((dat10 (E21 m) c).arrAt_in 1 rfl _).trans ((A_eq10 (E21 m) c 1).trans (by
      show B21 m c main_v93 = B22 m c main_v93
      unfold B22; simp only [Function.update_of_ne (StableHlo.devRef_ne_of_ne (by decide) : (Proc.devRef .tc main_v93 : DevRef τ sig) ≠ Proc.devRef .tc main_v136)]))
set_option maxHeartbeats 1000000 in
theorem hF10_2 (c : Dev nD) : (dat10 (E21 m) c).arrAt 2 cfg10.N = E22 m c main_v123 :=
  ((dat10 (E21 m) c).arrAt_in 2 rfl _).trans ((A_eq10 (E21 m) c 2).trans (by
      show B21 m c main_v123 = B22 m c main_v123
      unfold B22; simp only [Function.update_of_ne (StableHlo.devRef_ne_of_ne (by decide) : (Proc.devRef .tc main_v123 : DevRef τ sig) ≠ Proc.devRef .tc main_v136)]))
set_option maxHeartbeats 1000000 in
theorem hF10_3 (c : Dev nD) : (dat10 (E21 m) c).arrAt 3 cfg10.N = E22 m c main_v129 :=
  ((dat10 (E21 m) c).arrAt_in 3 rfl _).trans ((A_eq10 (E21 m) c 3).trans (by
      show B21 m c main_v129 = B22 m c main_v129
      unfold B22; simp only [Function.update_of_ne (StableHlo.devRef_ne_of_ne (by decide) : (Proc.devRef .tc main_v129 : DevRef τ sig) ≠ Proc.devRef .tc main_v136)]))
set_option maxHeartbeats 1000000 in
theorem hF10_4 (c : Dev nD) : (dat10 (E21 m) c).arrAt 4 cfg10.N = E22 m c main_v132 :=
  ((dat10 (E21 m) c).arrAt_in 4 rfl _).trans ((A_eq10 (E21 m) c 4).trans (by
      show B21 m c main_v132 = B22 m c main_v132
      unfold B22; simp only [Function.update_of_ne (StableHlo.devRef_ne_of_ne (by decide) : (Proc.devRef .tc main_v132 : DevRef τ sig) ≠ Proc.devRef .tc main_v136)]))
set_option maxHeartbeats 1000000 in
theorem hF10_5 (c : Dev nD) : (dat10 (E21 m) c).arrAt 5 cfg10.N = E22 m c main_v135 :=
  ((dat10 (E21 m) c).arrAt_in 5 rfl _).trans ((A_eq10 (E21 m) c 5).trans (by
      show B21 m c main_v135 = B22 m c main_v135
      unfold B22; simp only [Function.update_of_ne (StableHlo.devRef_ne_of_ne (by decide) : (Proc.devRef .tc main_v135 : DevRef τ sig) ≠ Proc.devRef .tc main_v136)]))
set_option maxHeartbeats 1000000 in
theorem hF10_6 (c : Dev nD) : (dat10 (E21 m) c).arrAt 6 cfg10.N = E22 m c main_v136 := by
  show (dat10 (E21 m) c).arrAt 6 cfg10.N = B22 m c main_v136
  unfold B22; simp only [Function.update_self]
set_option maxHeartbeats 1000000 in
theorem hF10 (c : Dev nD) : ∀ w : Fin cfg10.W, (dat10 (E21 m) c).arrAt w cfg10.N = E22 m c (Pipeline.arrRef spec10 w)
  | ⟨0, _⟩ => hF10_0 m c
  | ⟨1, _⟩ => hF10_1 m c
  | ⟨2, _⟩ => hF10_2 m c
  | ⟨3, _⟩ => hF10_3 m c
  | ⟨4, _⟩ => hF10_4 m c
  | ⟨5, _⟩ => hF10_5 m c
  | ⟨6, _⟩ => hF10_6 m c
  | ⟨_ + 7, h⟩ => absurd h (Nat.not_lt.2 (Nat.le_add_left _ _))
theorem hrest10 (c : Dev nD) : ∀ b, b ∉ Finset.univ.image (Pipeline.arrRef spec10) → E22 m c b = E21 m c b := fun b hb => by
  show B22 m c b = B21 m c b
  unfold B22
  simp only [Function.update_of_ne (StableHlo.devRef_ne_of_ne (fun e => hb (Finset.mem_image.mpr ⟨6, Finset.mem_univ _, e.symm⟩)) : (Proc.devRef .tc b : DevRef τ sig) ≠ Proc.devRef .tc main_v136)]
/-- A buffer that is no output of region 10 leaves it as it entered. -/
theorem B22_of (c : Dev nD) (r : Ref sig .tc) (h : r ∉ ([main_v136] : List (Ref sig .tc))) : B22 m c r = B21 m c r := by
  unfold B22
  simp only [Function.update_of_ne (StableHlo.devRef_ne_of_ne (List.ne_of_not_mem_cons (h)) : (Proc.devRef .tc r : DevRef τ sig) ≠ Proc.devRef .tc main_v136)]
/-- A buffer the host stretch before region 10 does not write passes through it. -/
theorem B21_of (c : Dev nD) (r : Ref sig .tc) (h : r ∉ hostOps10_W) : B21 m c r = B20 m c r :=
  StableHlo.after_of_writes_sub hostOps10 _ hostOps10_writes h

/-- After the host stretch before region 11: what the region is entered from. -/
abbrev B23 (c : Dev nD) : Valuation τ sig (Elt F) := StableHlo.after hostOps11 (B22 m c)
/-- The same, read at the TensorCore's references. -/
abbrev E23 : (c : Dev nD) → (b : Ref sig .tc) → Buf (Elt F) ((c : Thread nD τ).loc b) := fun c b => B23 m c b
/-- At region 11's exit: each output array at what the write-backs leave, everything else as entered. -/
def B24 (c : Dev nD) : Valuation τ sig (Elt F) :=
  Function.update (B23 m c) main_v144 ((dat11 (E23 m) c).arrAt 2 cfg11.N)
abbrev E24 : (c : Dev nD) → (b : Ref sig .tc) → Buf (Elt F) ((c : Thread nD τ).loc b) := fun c b => B24 m c b
set_option maxHeartbeats 1000000 in
theorem hF11_0 (c : Dev nD) : (dat11 (E23 m) c).arrAt 0 cfg11.N = E24 m c main_v143 :=
  ((dat11 (E23 m) c).arrAt_in 0 rfl _).trans ((A_eq11 (E23 m) c 0).trans (by
      show B23 m c main_v143 = B24 m c main_v143
      unfold B24; simp only [Function.update_of_ne (StableHlo.devRef_ne_of_ne (by decide) : (Proc.devRef .tc main_v143 : DevRef τ sig) ≠ Proc.devRef .tc main_v144)]))
set_option maxHeartbeats 1000000 in
theorem hF11_1 (c : Dev nD) : (dat11 (E23 m) c).arrAt 1 cfg11.N = E24 m c main_v7 :=
  ((dat11 (E23 m) c).arrAt_in 1 rfl _).trans ((A_eq11 (E23 m) c 1).trans (by
      show B23 m c main_v7 = B24 m c main_v7
      unfold B24; simp only [Function.update_of_ne (StableHlo.devRef_ne_of_ne (by decide) : (Proc.devRef .tc main_v7 : DevRef τ sig) ≠ Proc.devRef .tc main_v144)]))
set_option maxHeartbeats 1000000 in
theorem hF11_2 (c : Dev nD) : (dat11 (E23 m) c).arrAt 2 cfg11.N = E24 m c main_v144 := by
  show (dat11 (E23 m) c).arrAt 2 cfg11.N = B24 m c main_v144
  unfold B24; simp only [Function.update_self]
set_option maxHeartbeats 1000000 in
theorem hF11 (c : Dev nD) : ∀ w : Fin cfg11.W, (dat11 (E23 m) c).arrAt w cfg11.N = E24 m c (Pipeline.arrRef spec11 w)
  | ⟨0, _⟩ => hF11_0 m c
  | ⟨1, _⟩ => hF11_1 m c
  | ⟨2, _⟩ => hF11_2 m c
  | ⟨_ + 3, h⟩ => absurd h (Nat.not_lt.2 (Nat.le_add_left _ _))
theorem hrest11 (c : Dev nD) : ∀ b, b ∉ Finset.univ.image (Pipeline.arrRef spec11) → E24 m c b = E23 m c b := fun b hb => by
  show B24 m c b = B23 m c b
  unfold B24
  simp only [Function.update_of_ne (StableHlo.devRef_ne_of_ne (fun e => hb (Finset.mem_image.mpr ⟨2, Finset.mem_univ _, e.symm⟩)) : (Proc.devRef .tc b : DevRef τ sig) ≠ Proc.devRef .tc main_v144)]
/-- A buffer that is no output of region 11 leaves it as it entered. -/
theorem B24_of (c : Dev nD) (r : Ref sig .tc) (h : r ∉ ([main_v144] : List (Ref sig .tc))) : B24 m c r = B23 m c r := by
  unfold B24
  simp only [Function.update_of_ne (StableHlo.devRef_ne_of_ne (List.ne_of_not_mem_cons (h)) : (Proc.devRef .tc r : DevRef τ sig) ≠ Proc.devRef .tc main_v144)]
/-- A buffer the host stretch before region 11 does not write passes through it. -/
theorem B23_of (c : Dev nD) (r : Ref sig .tc) (h : r ∉ hostOps11_W) : B23 m c r = B22 m c r :=
  StableHlo.after_of_writes_sub hostOps11 _ hostOps11_writes h

/-- After the host stretch before region 12: what the region is entered from. -/
abbrev B25 (c : Dev nD) : Valuation τ sig (Elt F) := StableHlo.after hostOps12 (B24 m c)
/-- The same, read at the TensorCore's references. -/
abbrev E25 : (c : Dev nD) → (b : Ref sig .tc) → Buf (Elt F) ((c : Thread nD τ).loc b) := fun c b => B25 m c b
/-- At region 12's exit: each output array at what the write-backs leave, everything else as entered. -/
def B26 (c : Dev nD) : Valuation τ sig (Elt F) :=
  Function.update (Function.update (Function.update (B25 m c) main_v164_0 ((dat12 (E25 m) c).arrAt 5 cfg12.N)) main_v164_1 ((dat12 (E25 m) c).arrAt 6 cfg12.N)) main_v164_2 ((dat12 (E25 m) c).arrAt 7 cfg12.N)
abbrev E26 : (c : Dev nD) → (b : Ref sig .tc) → Buf (Elt F) ((c : Thread nD τ).loc b) := fun c b => B26 m c b
set_option maxHeartbeats 1000000 in
theorem hF12_0 (c : Dev nD) : (dat12 (E25 m) c).arrAt 0 cfg12.N = E26 m c main_v153 :=
  ((dat12 (E25 m) c).arrAt_in 0 rfl _).trans ((A_eq12 (E25 m) c 0).trans (by
      show B25 m c main_v153 = B26 m c main_v153
      unfold B26; simp only [Function.update_of_ne (StableHlo.devRef_ne_of_ne (by decide) : (Proc.devRef .tc main_v153 : DevRef τ sig) ≠ Proc.devRef .tc main_v164_0), Function.update_of_ne (StableHlo.devRef_ne_of_ne (by decide) : (Proc.devRef .tc main_v153 : DevRef τ sig) ≠ Proc.devRef .tc main_v164_1), Function.update_of_ne (StableHlo.devRef_ne_of_ne (by decide) : (Proc.devRef .tc main_v153 : DevRef τ sig) ≠ Proc.devRef .tc main_v164_2)]))
set_option maxHeartbeats 1000000 in
theorem hF12_1 (c : Dev nD) : (dat12 (E25 m) c).arrAt 1 cfg12.N = E26 m c main_v155 :=
  ((dat12 (E25 m) c).arrAt_in 1 rfl _).trans ((A_eq12 (E25 m) c 1).trans (by
      show B25 m c main_v155 = B26 m c main_v155
      unfold B26; simp only [Function.update_of_ne (StableHlo.devRef_ne_of_ne (by decide) : (Proc.devRef .tc main_v155 : DevRef τ sig) ≠ Proc.devRef .tc main_v164_0), Function.update_of_ne (StableHlo.devRef_ne_of_ne (by decide) : (Proc.devRef .tc main_v155 : DevRef τ sig) ≠ Proc.devRef .tc main_v164_1), Function.update_of_ne (StableHlo.devRef_ne_of_ne (by decide) : (Proc.devRef .tc main_v155 : DevRef τ sig) ≠ Proc.devRef .tc main_v164_2)]))
set_option maxHeartbeats 1000000 in
theorem hF12_2 (c : Dev nD) : (dat12 (E25 m) c).arrAt 2 cfg12.N = E26 m c main_v162 :=
  ((dat12 (E25 m) c).arrAt_in 2 rfl _).trans ((A_eq12 (E25 m) c 2).trans (by
      show B25 m c main_v162 = B26 m c main_v162
      unfold B26; simp only [Function.update_of_ne (StableHlo.devRef_ne_of_ne (by decide) : (Proc.devRef .tc main_v162 : DevRef τ sig) ≠ Proc.devRef .tc main_v164_0), Function.update_of_ne (StableHlo.devRef_ne_of_ne (by decide) : (Proc.devRef .tc main_v162 : DevRef τ sig) ≠ Proc.devRef .tc main_v164_1), Function.update_of_ne (StableHlo.devRef_ne_of_ne (by decide) : (Proc.devRef .tc main_v162 : DevRef τ sig) ≠ Proc.devRef .tc main_v164_2)]))
set_option maxHeartbeats 1000000 in
theorem hF12_3 (c : Dev nD) : (dat12 (E25 m) c).arrAt 3 cfg12.N = E26 m c main_v159 :=
  ((dat12 (E25 m) c).arrAt_in 3 rfl _).trans ((A_eq12 (E25 m) c 3).trans (by
      show B25 m c main_v159 = B26 m c main_v159
      unfold B26; simp only [Function.update_of_ne (StableHlo.devRef_ne_of_ne (by decide) : (Proc.devRef .tc main_v159 : DevRef τ sig) ≠ Proc.devRef .tc main_v164_0), Function.update_of_ne (StableHlo.devRef_ne_of_ne (by decide) : (Proc.devRef .tc main_v159 : DevRef τ sig) ≠ Proc.devRef .tc main_v164_1), Function.update_of_ne (StableHlo.devRef_ne_of_ne (by decide) : (Proc.devRef .tc main_v159 : DevRef τ sig) ≠ Proc.devRef .tc main_v164_2)]))
set_option maxHeartbeats 1000000 in
theorem hF12_4 (c : Dev nD) : (dat12 (E25 m) c).arrAt 4 cfg12.N = E26 m c main_v163 :=
  ((dat12 (E25 m) c).arrAt_in 4 rfl _).trans ((A_eq12 (E25 m) c 4).trans (by
      show B25 m c main_v163 = B26 m c main_v163
      unfold B26; simp only [Function.update_of_ne (StableHlo.devRef_ne_of_ne (by decide) : (Proc.devRef .tc main_v163 : DevRef τ sig) ≠ Proc.devRef .tc main_v164_0), Function.update_of_ne (StableHlo.devRef_ne_of_ne (by decide) : (Proc.devRef .tc main_v163 : DevRef τ sig) ≠ Proc.devRef .tc main_v164_1), Function.update_of_ne (StableHlo.devRef_ne_of_ne (by decide) : (Proc.devRef .tc main_v163 : DevRef τ sig) ≠ Proc.devRef .tc main_v164_2)]))
set_option maxHeartbeats 1000000 in
theorem hF12_5 (c : Dev nD) : (dat12 (E25 m) c).arrAt 5 cfg12.N = E26 m c main_v164_0 := by
  show (dat12 (E25 m) c).arrAt 5 cfg12.N = B26 m c main_v164_0
  unfold B26; simp only [Function.update_of_ne (StableHlo.devRef_ne_of_ne (by decide) : (Proc.devRef .tc main_v164_0 : DevRef τ sig) ≠ Proc.devRef .tc main_v164_1), Function.update_of_ne (StableHlo.devRef_ne_of_ne (by decide) : (Proc.devRef .tc main_v164_0 : DevRef τ sig) ≠ Proc.devRef .tc main_v164_2), Function.update_self]
set_option maxHeartbeats 1000000 in
theorem hF12_6 (c : Dev nD) : (dat12 (E25 m) c).arrAt 6 cfg12.N = E26 m c main_v164_1 := by
  show (dat12 (E25 m) c).arrAt 6 cfg12.N = B26 m c main_v164_1
  unfold B26; simp only [Function.update_of_ne (StableHlo.devRef_ne_of_ne (by decide) : (Proc.devRef .tc main_v164_1 : DevRef τ sig) ≠ Proc.devRef .tc main_v164_2), Function.update_self]
set_option maxHeartbeats 1000000 in
theorem hF12_7 (c : Dev nD) : (dat12 (E25 m) c).arrAt 7 cfg12.N = E26 m c main_v164_2 := by
  show (dat12 (E25 m) c).arrAt 7 cfg12.N = B26 m c main_v164_2
  unfold B26; simp only [Function.update_self]
set_option maxHeartbeats 1000000 in
theorem hF12 (c : Dev nD) : ∀ w : Fin cfg12.W, (dat12 (E25 m) c).arrAt w cfg12.N = E26 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨5, _⟩ => hF12_5 m c
  | ⟨6, _⟩ => hF12_6 m c
  | ⟨7, _⟩ => hF12_7 m c
  | ⟨_ + 8, h⟩ => absurd h (Nat.not_lt.2 (Nat.le_add_left _ _))
theorem hrest12 (c : Dev nD) : ∀ b, b ∉ Finset.univ.image (Pipeline.arrRef spec12) → E26 m c b = E25 m c b := fun b hb => by
  show B26 m c b = B25 m c b
  unfold B26
  simp only [Function.update_of_ne (StableHlo.devRef_ne_of_ne (fun e => hb (Finset.mem_image.mpr ⟨5, Finset.mem_univ _, e.symm⟩)) : (Proc.devRef .tc b : DevRef τ sig) ≠ Proc.devRef .tc main_v164_0), Function.update_of_ne (StableHlo.devRef_ne_of_ne (fun e => hb (Finset.mem_image.mpr ⟨6, Finset.mem_univ _, e.symm⟩)) : (Proc.devRef .tc b : DevRef τ sig) ≠ Proc.devRef .tc main_v164_1), Function.update_of_ne (StableHlo.devRef_ne_of_ne (fun e => hb (Finset.mem_image.mpr ⟨7, Finset.mem_univ _, e.symm⟩)) : (Proc.devRef .tc b : DevRef τ sig) ≠ Proc.devRef .tc main_v164_2)]
/-- A buffer that is no output of region 12 leaves it as it entered. -/
theorem B26_of (c : Dev nD) (r : Ref sig .tc) (h : r ∉ ([main_v164_0, main_v164_1, main_v164_2] : List (Ref sig .tc))) : B26 m c r = B25 m c r := by
  unfold B26
  simp only [Function.update_of_ne (StableHlo.devRef_ne_of_ne (List.ne_of_not_mem_cons (h)) : (Proc.devRef .tc r : DevRef τ sig) ≠ Proc.devRef .tc main_v164_0), Function.update_of_ne (StableHlo.devRef_ne_of_ne (List.ne_of_not_mem_cons (List.not_mem_of_not_mem_cons (h))) : (Proc.devRef .tc r : DevRef τ sig) ≠ Proc.devRef .tc main_v164_1), Function.update_of_ne (StableHlo.devRef_ne_of_ne (List.ne_of_not_mem_cons (List.not_mem_of_not_mem_cons (List.not_mem_of_not_mem_cons (h)))) : (Proc.devRef .tc r : DevRef τ sig) ≠ Proc.devRef .tc main_v164_2)]
/-- A buffer the host stretch before region 12 does not write passes through it. -/
theorem B25_of (c : Dev nD) (r : Ref sig .tc) (h : r ∉ hostOps12_W) : B25 m c r = B24 m c r :=
  StableHlo.after_of_writes_sub hostOps12 _ hostOps12_writes h

/-- After the host stretch before region 13: what the region is entered from. -/
abbrev B27 (c : Dev nD) : Valuation τ sig (Elt F) := StableHlo.after hostOps13 (B26 m c)
/-- The same, read at the TensorCore's references. -/
abbrev E27 : (c : Dev nD) → (b : Ref sig .tc) → Buf (Elt F) ((c : Thread nD τ).loc b) := fun c b => B27 m c b
/-- At region 13's exit: each output array at what the write-backs leave, everything else as entered. -/
def B28 (c : Dev nD) : Valuation τ sig (Elt F) :=
  Function.update (B27 m c) main_v179 ((dat13 (E27 m) c).arrAt 6 cfg13.N)
abbrev E28 : (c : Dev nD) → (b : Ref sig .tc) → Buf (Elt F) ((c : Thread nD τ).loc b) := fun c b => B28 m c b
set_option maxHeartbeats 1000000 in
theorem hF13_0 (c : Dev nD) : (dat13 (E27 m) c).arrAt 0 cfg13.N = E28 m c main_v164_0 :=
  ((dat13 (E27 m) c).arrAt_in 0 rfl _).trans ((A_eq13 (E27 m) c 0).trans (by
      show B27 m c main_v164_0 = B28 m c main_v164_0
      unfold B28; simp only [Function.update_of_ne (StableHlo.devRef_ne_of_ne (by decide) : (Proc.devRef .tc main_v164_0 : DevRef τ sig) ≠ Proc.devRef .tc main_v179)]))
set_option maxHeartbeats 1000000 in
theorem hF13_1 (c : Dev nD) : (dat13 (E27 m) c).arrAt 1 cfg13.N = E28 m c main_v136 :=
  ((dat13 (E27 m) c).arrAt_in 1 rfl _).trans ((A_eq13 (E27 m) c 1).trans (by
      show B27 m c main_v136 = B28 m c main_v136
      unfold B28; simp only [Function.update_of_ne (StableHlo.devRef_ne_of_ne (by decide) : (Proc.devRef .tc main_v136 : DevRef τ sig) ≠ Proc.devRef .tc main_v179)]))
set_option maxHeartbeats 1000000 in
theorem hF13_2 (c : Dev nD) : (dat13 (E27 m) c).arrAt 2 cfg13.N = E28 m c main_v166 :=
  ((dat13 (E27 m) c).arrAt_in 2 rfl _).trans ((A_eq13 (E27 m) c 2).trans (by
      show B27 m c main_v166 = B28 m c main_v166
      unfold B28; simp only [Function.update_of_ne (StableHlo.devRef_ne_of_ne (by decide) : (Proc.devRef .tc main_v166 : DevRef τ sig) ≠ Proc.devRef .tc main_v179)]))
set_option maxHeartbeats 1000000 in
theorem hF13_3 (c : Dev nD) : (dat13 (E27 m) c).arrAt 3 cfg13.N = E28 m c main_v172 :=
  ((dat13 (E27 m) c).arrAt_in 3 rfl _).trans ((A_eq13 (E27 m) c 3).trans (by
      show B27 m c main_v172 = B28 m c main_v172
      unfold B28; simp only [Function.update_of_ne (StableHlo.devRef_ne_of_ne (by decide) : (Proc.devRef .tc main_v172 : DevRef τ sig) ≠ Proc.devRef .tc main_v179)]))
set_option maxHeartbeats 1000000 in
theorem hF13_4 (c : Dev nD) : (dat13 (E27 m) c).arrAt 4 cfg13.N = E28 m c main_v175 :=
  ((dat13 (E27 m) c).arrAt_in 4 rfl _).trans ((A_eq13 (E27 m) c 4).trans (by
      show B27 m c main_v175 = B28 m c main_v175
      unfold B28; simp only [Function.update_of_ne (StableHlo.devRef_ne_of_ne (by decide) : (Proc.devRef .tc main_v175 : DevRef τ sig) ≠ Proc.devRef .tc main_v179)]))
set_option maxHeartbeats 1000000 in
theorem hF13_5 (c : Dev nD) : (dat13 (E27 m) c).arrAt 5 cfg13.N = E28 m c main_v178 :=
  ((dat13 (E27 m) c).arrAt_in 5 rfl _).trans ((A_eq13 (E27 m) c 5).trans (by
      show B27 m c main_v178 = B28 m c main_v178
      unfold B28; simp only [Function.update_of_ne (StableHlo.devRef_ne_of_ne (by decide) : (Proc.devRef .tc main_v178 : DevRef τ sig) ≠ Proc.devRef .tc main_v179)]))
set_option maxHeartbeats 1000000 in
theorem hF13_6 (c : Dev nD) : (dat13 (E27 m) c).arrAt 6 cfg13.N = E28 m c main_v179 := by
  show (dat13 (E27 m) c).arrAt 6 cfg13.N = B28 m c main_v179
  unfold B28; simp only [Function.update_self]
set_option maxHeartbeats 1000000 in
theorem hF13 (c : Dev nD) : ∀ w : Fin cfg13.W, (dat13 (E27 m) c).arrAt w cfg13.N = E28 m c (Pipeline.arrRef spec13 w)
  | ⟨0, _⟩ => hF13_0 m c
  | ⟨1, _⟩ => hF13_1 m c
  | ⟨2, _⟩ => hF13_2 m c
  | ⟨3, _⟩ => hF13_3 m c
  | ⟨4, _⟩ => hF13_4 m c
  | ⟨5, _⟩ => hF13_5 m c
  | ⟨6, _⟩ => hF13_6 m c
  | ⟨_ + 7, h⟩ => absurd h (Nat.not_lt.2 (Nat.le_add_left _ _))
theorem hrest13 (c : Dev nD) : ∀ b, b ∉ Finset.univ.image (Pipeline.arrRef spec13) → E28 m c b = E27 m c b := fun b hb => by
  show B28 m c b = B27 m c b
  unfold B28
  simp only [Function.update_of_ne (StableHlo.devRef_ne_of_ne (fun e => hb (Finset.mem_image.mpr ⟨6, Finset.mem_univ _, e.symm⟩)) : (Proc.devRef .tc b : DevRef τ sig) ≠ Proc.devRef .tc main_v179)]
/-- A buffer that is no output of region 13 leaves it as it entered. -/
theorem B28_of (c : Dev nD) (r : Ref sig .tc) (h : r ∉ ([main_v179] : List (Ref sig .tc))) : B28 m c r = B27 m c r := by
  unfold B28
  simp only [Function.update_of_ne (StableHlo.devRef_ne_of_ne (List.ne_of_not_mem_cons (h)) : (Proc.devRef .tc r : DevRef τ sig) ≠ Proc.devRef .tc main_v179)]
/-- A buffer the host stretch before region 13 does not write passes through it. -/
theorem B27_of (c : Dev nD) (r : Ref sig .tc) (h : r ∉ hostOps13_W) : B27 m c r = B26 m c r :=
  StableHlo.after_of_writes_sub hostOps13 _ hostOps13_writes h

/-- After the three host stretches that follow the last region: the end. -/
abbrev B29 (c : Dev nD) : Valuation τ sig (Elt F) := StableHlo.after hostOps14 (B28 m c)
abbrev B30 (c : Dev nD) : Valuation τ sig (Elt F) := StableHlo.after hostOps14_1 (B29 m c)
abbrev B31 (c : Dev nD) : Valuation τ sig (Elt F) := StableHlo.after hostOps14_2 (B30 m c)
theorem B29_of (c : Dev nD) (r : Ref sig .tc) (h : r ∉ hostOps14_W) : B29 m c r = B28 m c r :=
  StableHlo.after_of_writes_sub hostOps14 _ hostOps14_writes h
theorem B30_of (c : Dev nD) (r : Ref sig .tc) (h : r ∉ hostOps14_1_W) : B30 m c r = B29 m c r :=
  StableHlo.after_of_writes_sub hostOps14_1 _ hostOps14_1_writes h
theorem B31_of (c : Dev nD) (r : Ref sig .tc) (h : r ∉ hostOps14_2_W) : B31 m c r = B30 m c r :=
  StableHlo.after_of_writes_sub hostOps14_2 _ hostOps14_2_writes h

/-! ## No item writes an argument -/
theorem B31_main_arg0 (c : Dev nD) : B31 m c main_arg0 = m ((c : Thread nD τ).loc main_arg0) :=
  (B31_of m c main_arg0 (by decide)).trans <| (B30_of m c main_arg0 (by decide)).trans <| (B29_of m c main_arg0 (by decide)).trans <| (B28_of m c main_arg0 (by decide)).trans <| (B27_of m c main_arg0 (by decide)).trans <| (B26_of m c main_arg0 (by decide)).trans <| (B25_of m c main_arg0 (by decide)).trans <| (B24_of m c main_arg0 (by decide)).trans <| (B23_of m c main_arg0 (by decide)).trans <| (B22_of m c main_arg0 (by decide)).trans <| (B21_of m c main_arg0 (by decide)).trans <| (B20_of m c main_arg0 (by decide)).trans <| (B19_of m c main_arg0 (by decide)).trans <| (B18_of m c main_arg0 (by decide)).trans <| (B17_of m c main_arg0 (by decide)).trans <| (B16_of m c main_arg0 (by decide)).trans <| (B15_of m c main_arg0 (by decide)).trans <| (B14_of m c main_arg0 (by decide)).trans <| (B13_of m c main_arg0 (by decide)).trans <| (B12_of m c main_arg0 (by decide)).trans <| (B11_of m c main_arg0 (by decide)).trans <| (B10_of m c main_arg0 (by decide)).trans <| (B9_of m c main_arg0 (by decide)).trans <| (B8_of m c main_arg0 (by decide)).trans <| (B7_of m c main_arg0 (by decide)).trans <| (B6_of m c main_arg0 (by decide)).trans <| (B5_of m c main_arg0 (by decide)).trans <| (B4_of m c main_arg0 (by decide)).trans <| (B3_of m c main_arg0 (by decide)).trans <| (B2_of m c main_arg0 (by decide)).trans <| (B1_of m c main_arg0 (by decide))
theorem B31_main_arg1 (c : Dev nD) : B31 m c main_arg1 = m ((c : Thread nD τ).loc main_arg1) :=
  (B31_of m c main_arg1 (by decide)).trans <| (B30_of m c main_arg1 (by decide)).trans <| (B29_of m c main_arg1 (by decide)).trans <| (B28_of m c main_arg1 (by decide)).trans <| (B27_of m c main_arg1 (by decide)).trans <| (B26_of m c main_arg1 (by decide)).trans <| (B25_of m c main_arg1 (by decide)).trans <| (B24_of m c main_arg1 (by decide)).trans <| (B23_of m c main_arg1 (by decide)).trans <| (B22_of m c main_arg1 (by decide)).trans <| (B21_of m c main_arg1 (by decide)).trans <| (B20_of m c main_arg1 (by decide)).trans <| (B19_of m c main_arg1 (by decide)).trans <| (B18_of m c main_arg1 (by decide)).trans <| (B17_of m c main_arg1 (by decide)).trans <| (B16_of m c main_arg1 (by decide)).trans <| (B15_of m c main_arg1 (by decide)).trans <| (B14_of m c main_arg1 (by decide)).trans <| (B13_of m c main_arg1 (by decide)).trans <| (B12_of m c main_arg1 (by decide)).trans <| (B11_of m c main_arg1 (by decide)).trans <| (B10_of m c main_arg1 (by decide)).trans <| (B9_of m c main_arg1 (by decide)).trans <| (B8_of m c main_arg1 (by decide)).trans <| (B7_of m c main_arg1 (by decide)).trans <| (B6_of m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide))
theorem B31_main_arg2 (c : Dev nD) : B31 m c main_arg2 = m ((c : Thread nD τ).loc main_arg2) :=
  (B31_of m c main_arg2 (by decide)).trans <| (B30_of m c main_arg2 (by decide)).trans <| (B29_of m c main_arg2 (by decide)).trans <| (B28_of m c main_arg2 (by decide)).trans <| (B27_of m c main_arg2 (by decide)).trans <| (B26_of m c main_arg2 (by decide)).trans <| (B25_of m c main_arg2 (by decide)).trans <| (B24_of m c main_arg2 (by decide)).trans <| (B23_of m c main_arg2 (by decide)).trans <| (B22_of m c main_arg2 (by decide)).trans <| (B21_of m c main_arg2 (by decide)).trans <| (B20_of m c main_arg2 (by decide)).trans <| (B19_of m c main_arg2 (by decide)).trans <| (B18_of m c main_arg2 (by decide)).trans <| (B17_of m c main_arg2 (by decide)).trans <| (B16_of m c main_arg2 (by decide)).trans <| (B15_of m c main_arg2 (by decide)).trans <| (B14_of m c main_arg2 (by decide)).trans <| (B13_of m c main_arg2 (by decide)).trans <| (B12_of m c main_arg2 (by decide)).trans <| (B11_of m c main_arg2 (by decide)).trans <| (B10_of m c main_arg2 (by decide)).trans <| (B9_of m c main_arg2 (by decide)).trans <| (B8_of m c main_arg2 (by decide)).trans <| (B7_of m c main_arg2 (by decide)).trans <| (B6_of m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide))
theorem B31_main_arg3 (c : Dev nD) : B31 m c main_arg3 = m ((c : Thread nD τ).loc main_arg3) :=
  (B31_of m c main_arg3 (by decide)).trans <| (B30_of m c main_arg3 (by decide)).trans <| (B29_of m c main_arg3 (by decide)).trans <| (B28_of m c main_arg3 (by decide)).trans <| (B27_of m c main_arg3 (by decide)).trans <| (B26_of m c main_arg3 (by decide)).trans <| (B25_of m c main_arg3 (by decide)).trans <| (B24_of m c main_arg3 (by decide)).trans <| (B23_of m c main_arg3 (by decide)).trans <| (B22_of m c main_arg3 (by decide)).trans <| (B21_of m c main_arg3 (by decide)).trans <| (B20_of m c main_arg3 (by decide)).trans <| (B19_of m c main_arg3 (by decide)).trans <| (B18_of m c main_arg3 (by decide)).trans <| (B17_of m c main_arg3 (by decide)).trans <| (B16_of m c main_arg3 (by decide)).trans <| (B15_of m c main_arg3 (by decide)).trans <| (B14_of m c main_arg3 (by decide)).trans <| (B13_of m c main_arg3 (by decide)).trans <| (B12_of m c main_arg3 (by decide)).trans <| (B11_of m c main_arg3 (by decide)).trans <| (B10_of m c main_arg3 (by decide)).trans <| (B9_of m c main_arg3 (by decide)).trans <| (B8_of m c main_arg3 (by decide)).trans <| (B7_of m c main_arg3 (by decide)).trans <| (B6_of m c main_arg3 (by decide)).trans <| (B5_of m c main_arg3 (by decide)).trans <| (B4_of m c main_arg3 (by decide)).trans <| (B3_of m c main_arg3 (by decide)).trans <| (B2_of m c main_arg3 (by decide)).trans <| (B1_of m c main_arg3 (by decide))
theorem B31_main_arg4 (c : Dev nD) : B31 m c main_arg4 = m ((c : Thread nD τ).loc main_arg4) :=
  (B31_of m c main_arg4 (by decide)).trans <| (B30_of m c main_arg4 (by decide)).trans <| (B29_of m c main_arg4 (by decide)).trans <| (B28_of m c main_arg4 (by decide)).trans <| (B27_of m c main_arg4 (by decide)).trans <| (B26_of m c main_arg4 (by decide)).trans <| (B25_of m c main_arg4 (by decide)).trans <| (B24_of m c main_arg4 (by decide)).trans <| (B23_of m c main_arg4 (by decide)).trans <| (B22_of m c main_arg4 (by decide)).trans <| (B21_of m c main_arg4 (by decide)).trans <| (B20_of m c main_arg4 (by decide)).trans <| (B19_of m c main_arg4 (by decide)).trans <| (B18_of m c main_arg4 (by decide)).trans <| (B17_of m c main_arg4 (by decide)).trans <| (B16_of m c main_arg4 (by decide)).trans <| (B15_of m c main_arg4 (by decide)).trans <| (B14_of m c main_arg4 (by decide)).trans <| (B13_of m c main_arg4 (by decide)).trans <| (B12_of m c main_arg4 (by decide)).trans <| (B11_of m c main_arg4 (by decide)).trans <| (B10_of m c main_arg4 (by decide)).trans <| (B9_of m c main_arg4 (by decide)).trans <| (B8_of m c main_arg4 (by decide)).trans <| (B7_of m c main_arg4 (by decide)).trans <| (B6_of m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide))
theorem B31_main_arg5 (c : Dev nD) : B31 m c main_arg5 = m ((c : Thread nD τ).loc main_arg5) :=
  (B31_of m c main_arg5 (by decide)).trans <| (B30_of m c main_arg5 (by decide)).trans <| (B29_of m c main_arg5 (by decide)).trans <| (B28_of m c main_arg5 (by decide)).trans <| (B27_of m c main_arg5 (by decide)).trans <| (B26_of m c main_arg5 (by decide)).trans <| (B25_of m c main_arg5 (by decide)).trans <| (B24_of m c main_arg5 (by decide)).trans <| (B23_of m c main_arg5 (by decide)).trans <| (B22_of m c main_arg5 (by decide)).trans <| (B21_of m c main_arg5 (by decide)).trans <| (B20_of m c main_arg5 (by decide)).trans <| (B19_of m c main_arg5 (by decide)).trans <| (B18_of m c main_arg5 (by decide)).trans <| (B17_of m c main_arg5 (by decide)).trans <| (B16_of m c main_arg5 (by decide)).trans <| (B15_of m c main_arg5 (by decide)).trans <| (B14_of m c main_arg5 (by decide)).trans <| (B13_of m c main_arg5 (by decide)).trans <| (B12_of m c main_arg5 (by decide)).trans <| (B11_of m c main_arg5 (by decide)).trans <| (B10_of m c main_arg5 (by decide)).trans <| (B9_of m c main_arg5 (by decide)).trans <| (B8_of m c main_arg5 (by decide)).trans <| (B7_of m c main_arg5 (by decide)).trans <| (B6_of m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide))
theorem B31_main_arg6 (c : Dev nD) : B31 m c main_arg6 = m ((c : Thread nD τ).loc main_arg6) :=
  (B31_of m c main_arg6 (by decide)).trans <| (B30_of m c main_arg6 (by decide)).trans <| (B29_of m c main_arg6 (by decide)).trans <| (B28_of m c main_arg6 (by decide)).trans <| (B27_of m c main_arg6 (by decide)).trans <| (B26_of m c main_arg6 (by decide)).trans <| (B25_of m c main_arg6 (by decide)).trans <| (B24_of m c main_arg6 (by decide)).trans <| (B23_of m c main_arg6 (by decide)).trans <| (B22_of m c main_arg6 (by decide)).trans <| (B21_of m c main_arg6 (by decide)).trans <| (B20_of m c main_arg6 (by decide)).trans <| (B19_of m c main_arg6 (by decide)).trans <| (B18_of m c main_arg6 (by decide)).trans <| (B17_of m c main_arg6 (by decide)).trans <| (B16_of m c main_arg6 (by decide)).trans <| (B15_of m c main_arg6 (by decide)).trans <| (B14_of m c main_arg6 (by decide)).trans <| (B13_of m c main_arg6 (by decide)).trans <| (B12_of m c main_arg6 (by decide)).trans <| (B11_of m c main_arg6 (by decide)).trans <| (B10_of m c main_arg6 (by decide)).trans <| (B9_of m c main_arg6 (by decide)).trans <| (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide))
theorem B31_main_arg7 (c : Dev nD) : B31 m c main_arg7 = m ((c : Thread nD τ).loc main_arg7) :=
  (B31_of m c main_arg7 (by decide)).trans <| (B30_of m c main_arg7 (by decide)).trans <| (B29_of m c main_arg7 (by decide)).trans <| (B28_of m c main_arg7 (by decide)).trans <| (B27_of m c main_arg7 (by decide)).trans <| (B26_of m c main_arg7 (by decide)).trans <| (B25_of m c main_arg7 (by decide)).trans <| (B24_of m c main_arg7 (by decide)).trans <| (B23_of m c main_arg7 (by decide)).trans <| (B22_of m c main_arg7 (by decide)).trans <| (B21_of m c main_arg7 (by decide)).trans <| (B20_of m c main_arg7 (by decide)).trans <| (B19_of m c main_arg7 (by decide)).trans <| (B18_of m c main_arg7 (by decide)).trans <| (B17_of m c main_arg7 (by decide)).trans <| (B16_of m c main_arg7 (by decide)).trans <| (B15_of m c main_arg7 (by decide)).trans <| (B14_of m c main_arg7 (by decide)).trans <| (B13_of m c main_arg7 (by decide)).trans <| (B12_of m c main_arg7 (by decide)).trans <| (B11_of m c main_arg7 (by decide)).trans <| (B10_of m c main_arg7 (by decide)).trans <| (B9_of m c main_arg7 (by decide)).trans <| (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide))
theorem B31_main_arg8 (c : Dev nD) : B31 m c main_arg8 = m ((c : Thread nD τ).loc main_arg8) :=
  (B31_of m c main_arg8 (by decide)).trans <| (B30_of m c main_arg8 (by decide)).trans <| (B29_of m c main_arg8 (by decide)).trans <| (B28_of m c main_arg8 (by decide)).trans <| (B27_of m c main_arg8 (by decide)).trans <| (B26_of m c main_arg8 (by decide)).trans <| (B25_of m c main_arg8 (by decide)).trans <| (B24_of m c main_arg8 (by decide)).trans <| (B23_of m c main_arg8 (by decide)).trans <| (B22_of m c main_arg8 (by decide)).trans <| (B21_of m c main_arg8 (by decide)).trans <| (B20_of m c main_arg8 (by decide)).trans <| (B19_of m c main_arg8 (by decide)).trans <| (B18_of m c main_arg8 (by decide)).trans <| (B17_of m c main_arg8 (by decide)).trans <| (B16_of m c main_arg8 (by decide)).trans <| (B15_of m c main_arg8 (by decide)).trans <| (B14_of m c main_arg8 (by decide)).trans <| (B13_of m c main_arg8 (by decide)).trans <| (B12_of m c main_arg8 (by decide)).trans <| (B11_of m c main_arg8 (by decide)).trans <| (B10_of m c main_arg8 (by decide)).trans <| (B9_of m c main_arg8 (by decide)).trans <| (B8_of m c main_arg8 (by decide)).trans <| (B7_of m c main_arg8 (by decide)).trans <| (B6_of m c main_arg8 (by decide)).trans <| (B5_of m c main_arg8 (by decide)).trans <| (B4_of m c main_arg8 (by decide)).trans <| (B3_of m c main_arg8 (by decide)).trans <| (B2_of m c main_arg8 (by decide)).trans <| (B1_of m c main_arg8 (by decide))
theorem B31_main_arg9 (c : Dev nD) : B31 m c main_arg9 = m ((c : Thread nD τ).loc main_arg9) :=
  (B31_of m c main_arg9 (by decide)).trans <| (B30_of m c main_arg9 (by decide)).trans <| (B29_of m c main_arg9 (by decide)).trans <| (B28_of m c main_arg9 (by decide)).trans <| (B27_of m c main_arg9 (by decide)).trans <| (B26_of m c main_arg9 (by decide)).trans <| (B25_of m c main_arg9 (by decide)).trans <| (B24_of m c main_arg9 (by decide)).trans <| (B23_of m c main_arg9 (by decide)).trans <| (B22_of m c main_arg9 (by decide)).trans <| (B21_of m c main_arg9 (by decide)).trans <| (B20_of m c main_arg9 (by decide)).trans <| (B19_of m c main_arg9 (by decide)).trans <| (B18_of m c main_arg9 (by decide)).trans <| (B17_of m c main_arg9 (by decide)).trans <| (B16_of m c main_arg9 (by decide)).trans <| (B15_of m c main_arg9 (by decide)).trans <| (B14_of m c main_arg9 (by decide)).trans <| (B13_of m c main_arg9 (by decide)).trans <| (B12_of m c main_arg9 (by decide)).trans <| (B11_of m c main_arg9 (by decide)).trans <| (B10_of m c main_arg9 (by decide)).trans <| (B9_of m c main_arg9 (by decide)).trans <| (B8_of m c main_arg9 (by decide)).trans <| (B7_of m c main_arg9 (by decide)).trans <| (B6_of m c main_arg9 (by decide)).trans <| (B5_of m c main_arg9 (by decide)).trans <| (B4_of m c main_arg9 (by decide)).trans <| (B3_of m c main_arg9 (by decide)).trans <| (B2_of m c main_arg9 (by decide)).trans <| (B1_of m c main_arg9 (by decide))
theorem B31_main_arg10 (c : Dev nD) : B31 m c main_arg10 = m ((c : Thread nD τ).loc main_arg10) :=
  (B31_of m c main_arg10 (by decide)).trans <| (B30_of m c main_arg10 (by decide)).trans <| (B29_of m c main_arg10 (by decide)).trans <| (B28_of m c main_arg10 (by decide)).trans <| (B27_of m c main_arg10 (by decide)).trans <| (B26_of m c main_arg10 (by decide)).trans <| (B25_of m c main_arg10 (by decide)).trans <| (B24_of m c main_arg10 (by decide)).trans <| (B23_of m c main_arg10 (by decide)).trans <| (B22_of m c main_arg10 (by decide)).trans <| (B21_of m c main_arg10 (by decide)).trans <| (B20_of m c main_arg10 (by decide)).trans <| (B19_of m c main_arg10 (by decide)).trans <| (B18_of m c main_arg10 (by decide)).trans <| (B17_of m c main_arg10 (by decide)).trans <| (B16_of m c main_arg10 (by decide)).trans <| (B15_of m c main_arg10 (by decide)).trans <| (B14_of m c main_arg10 (by decide)).trans <| (B13_of m c main_arg10 (by decide)).trans <| (B12_of m c main_arg10 (by decide)).trans <| (B11_of m c main_arg10 (by decide)).trans <| (B10_of m c main_arg10 (by decide)).trans <| (B9_of m c main_arg10 (by decide)).trans <| (B8_of m c main_arg10 (by decide)).trans <| (B7_of m c main_arg10 (by decide)).trans <| (B6_of m c main_arg10 (by decide)).trans <| (B5_of m c main_arg10 (by decide)).trans <| (B4_of m c main_arg10 (by decide)).trans <| (B3_of m c main_arg10 (by decide)).trans <| (B2_of m c main_arg10 (by decide)).trans <| (B1_of m c main_arg10 (by decide))
theorem B31_main_arg11 (c : Dev nD) : B31 m c main_arg11 = m ((c : Thread nD τ).loc main_arg11) :=
  (B31_of m c main_arg11 (by decide)).trans <| (B30_of m c main_arg11 (by decide)).trans <| (B29_of m c main_arg11 (by decide)).trans <| (B28_of m c main_arg11 (by decide)).trans <| (B27_of m c main_arg11 (by decide)).trans <| (B26_of m c main_arg11 (by decide)).trans <| (B25_of m c main_arg11 (by decide)).trans <| (B24_of m c main_arg11 (by decide)).trans <| (B23_of m c main_arg11 (by decide)).trans <| (B22_of m c main_arg11 (by decide)).trans <| (B21_of m c main_arg11 (by decide)).trans <| (B20_of m c main_arg11 (by decide)).trans <| (B19_of m c main_arg11 (by decide)).trans <| (B18_of m c main_arg11 (by decide)).trans <| (B17_of m c main_arg11 (by decide)).trans <| (B16_of m c main_arg11 (by decide)).trans <| (B15_of m c main_arg11 (by decide)).trans <| (B14_of m c main_arg11 (by decide)).trans <| (B13_of m c main_arg11 (by decide)).trans <| (B12_of m c main_arg11 (by decide)).trans <| (B11_of m c main_arg11 (by decide)).trans <| (B10_of m c main_arg11 (by decide)).trans <| (B9_of m c main_arg11 (by decide)).trans <| (B8_of m c main_arg11 (by decide)).trans <| (B7_of m c main_arg11 (by decide)).trans <| (B6_of m c main_arg11 (by decide)).trans <| (B5_of m c main_arg11 (by decide)).trans <| (B4_of m c main_arg11 (by decide)).trans <| (B3_of m c main_arg11 (by decide)).trans <| (B2_of m c main_arg11 (by decide)).trans <| (B1_of m c main_arg11 (by decide))
theorem B31_main_arg12 (c : Dev nD) : B31 m c main_arg12 = m ((c : Thread nD τ).loc main_arg12) :=
  (B31_of m c main_arg12 (by decide)).trans <| (B30_of m c main_arg12 (by decide)).trans <| (B29_of m c main_arg12 (by decide)).trans <| (B28_of m c main_arg12 (by decide)).trans <| (B27_of m c main_arg12 (by decide)).trans <| (B26_of m c main_arg12 (by decide)).trans <| (B25_of m c main_arg12 (by decide)).trans <| (B24_of m c main_arg12 (by decide)).trans <| (B23_of m c main_arg12 (by decide)).trans <| (B22_of m c main_arg12 (by decide)).trans <| (B21_of m c main_arg12 (by decide)).trans <| (B20_of m c main_arg12 (by decide)).trans <| (B19_of m c main_arg12 (by decide)).trans <| (B18_of m c main_arg12 (by decide)).trans <| (B17_of m c main_arg12 (by decide)).trans <| (B16_of m c main_arg12 (by decide)).trans <| (B15_of m c main_arg12 (by decide)).trans <| (B14_of m c main_arg12 (by decide)).trans <| (B13_of m c main_arg12 (by decide)).trans <| (B12_of m c main_arg12 (by decide)).trans <| (B11_of m c main_arg12 (by decide)).trans <| (B10_of m c main_arg12 (by decide)).trans <| (B9_of m c main_arg12 (by decide)).trans <| (B8_of m c main_arg12 (by decide)).trans <| (B7_of m c main_arg12 (by decide)).trans <| (B6_of m c main_arg12 (by decide)).trans <| (B5_of m c main_arg12 (by decide)).trans <| (B4_of m c main_arg12 (by decide)).trans <| (B3_of m c main_arg12 (by decide)).trans <| (B2_of m c main_arg12 (by decide)).trans <| (B1_of m c main_arg12 (by decide))
theorem B31_main_arg13 (c : Dev nD) : B31 m c main_arg13 = m ((c : Thread nD τ).loc main_arg13) :=
  (B31_of m c main_arg13 (by decide)).trans <| (B30_of m c main_arg13 (by decide)).trans <| (B29_of m c main_arg13 (by decide)).trans <| (B28_of m c main_arg13 (by decide)).trans <| (B27_of m c main_arg13 (by decide)).trans <| (B26_of m c main_arg13 (by decide)).trans <| (B25_of m c main_arg13 (by decide)).trans <| (B24_of m c main_arg13 (by decide)).trans <| (B23_of m c main_arg13 (by decide)).trans <| (B22_of m c main_arg13 (by decide)).trans <| (B21_of m c main_arg13 (by decide)).trans <| (B20_of m c main_arg13 (by decide)).trans <| (B19_of m c main_arg13 (by decide)).trans <| (B18_of m c main_arg13 (by decide)).trans <| (B17_of m c main_arg13 (by decide)).trans <| (B16_of m c main_arg13 (by decide)).trans <| (B15_of m c main_arg13 (by decide)).trans <| (B14_of m c main_arg13 (by decide)).trans <| (B13_of m c main_arg13 (by decide)).trans <| (B12_of m c main_arg13 (by decide)).trans <| (B11_of m c main_arg13 (by decide)).trans <| (B10_of m c main_arg13 (by decide)).trans <| (B9_of m c main_arg13 (by decide)).trans <| (B8_of m c main_arg13 (by decide)).trans <| (B7_of m c main_arg13 (by decide)).trans <| (B6_of m c main_arg13 (by decide)).trans <| (B5_of m c main_arg13 (by decide)).trans <| (B4_of m c main_arg13 (by decide)).trans <| (B3_of m c main_arg13 (by decide)).trans <| (B2_of m c main_arg13 (by decide)).trans <| (B1_of m c main_arg13 (by decide))
theorem B31_main_arg14 (c : Dev nD) : B31 m c main_arg14 = m ((c : Thread nD τ).loc main_arg14) :=
  (B31_of m c main_arg14 (by decide)).trans <| (B30_of m c main_arg14 (by decide)).trans <| (B29_of m c main_arg14 (by decide)).trans <| (B28_of m c main_arg14 (by decide)).trans <| (B27_of m c main_arg14 (by decide)).trans <| (B26_of m c main_arg14 (by decide)).trans <| (B25_of m c main_arg14 (by decide)).trans <| (B24_of m c main_arg14 (by decide)).trans <| (B23_of m c main_arg14 (by decide)).trans <| (B22_of m c main_arg14 (by decide)).trans <| (B21_of m c main_arg14 (by decide)).trans <| (B20_of m c main_arg14 (by decide)).trans <| (B19_of m c main_arg14 (by decide)).trans <| (B18_of m c main_arg14 (by decide)).trans <| (B17_of m c main_arg14 (by decide)).trans <| (B16_of m c main_arg14 (by decide)).trans <| (B15_of m c main_arg14 (by decide)).trans <| (B14_of m c main_arg14 (by decide)).trans <| (B13_of m c main_arg14 (by decide)).trans <| (B12_of m c main_arg14 (by decide)).trans <| (B11_of m c main_arg14 (by decide)).trans <| (B10_of m c main_arg14 (by decide)).trans <| (B9_of m c main_arg14 (by decide)).trans <| (B8_of m c main_arg14 (by decide)).trans <| (B7_of m c main_arg14 (by decide)).trans <| (B6_of m c main_arg14 (by decide)).trans <| (B5_of m c main_arg14 (by decide)).trans <| (B4_of m c main_arg14 (by decide)).trans <| (B3_of m c main_arg14 (by decide)).trans <| (B2_of m c main_arg14 (by decide)).trans <| (B1_of m c main_arg14 (by decide))
theorem B31_main_arg15 (c : Dev nD) : B31 m c main_arg15 = m ((c : Thread nD τ).loc main_arg15) :=
  (B31_of m c main_arg15 (by decide)).trans <| (B30_of m c main_arg15 (by decide)).trans <| (B29_of m c main_arg15 (by decide)).trans <| (B28_of m c main_arg15 (by decide)).trans <| (B27_of m c main_arg15 (by decide)).trans <| (B26_of m c main_arg15 (by decide)).trans <| (B25_of m c main_arg15 (by decide)).trans <| (B24_of m c main_arg15 (by decide)).trans <| (B23_of m c main_arg15 (by decide)).trans <| (B22_of m c main_arg15 (by decide)).trans <| (B21_of m c main_arg15 (by decide)).trans <| (B20_of m c main_arg15 (by decide)).trans <| (B19_of m c main_arg15 (by decide)).trans <| (B18_of m c main_arg15 (by decide)).trans <| (B17_of m c main_arg15 (by decide)).trans <| (B16_of m c main_arg15 (by decide)).trans <| (B15_of m c main_arg15 (by decide)).trans <| (B14_of m c main_arg15 (by decide)).trans <| (B13_of m c main_arg15 (by decide)).trans <| (B12_of m c main_arg15 (by decide)).trans <| (B11_of m c main_arg15 (by decide)).trans <| (B10_of m c main_arg15 (by decide)).trans <| (B9_of m c main_arg15 (by decide)).trans <| (B8_of m c main_arg15 (by decide)).trans <| (B7_of m c main_arg15 (by decide)).trans <| (B6_of m c main_arg15 (by decide)).trans <| (B5_of m c main_arg15 (by decide)).trans <| (B4_of m c main_arg15 (by decide)).trans <| (B3_of m c main_arg15 (by decide)).trans <| (B2_of m c main_arg15 (by decide)).trans <| (B1_of m c main_arg15 (by decide))
theorem B31_main_arg16 (c : Dev nD) : B31 m c main_arg16 = m ((c : Thread nD τ).loc main_arg16) :=
  (B31_of m c main_arg16 (by decide)).trans <| (B30_of m c main_arg16 (by decide)).trans <| (B29_of m c main_arg16 (by decide)).trans <| (B28_of m c main_arg16 (by decide)).trans <| (B27_of m c main_arg16 (by decide)).trans <| (B26_of m c main_arg16 (by decide)).trans <| (B25_of m c main_arg16 (by decide)).trans <| (B24_of m c main_arg16 (by decide)).trans <| (B23_of m c main_arg16 (by decide)).trans <| (B22_of m c main_arg16 (by decide)).trans <| (B21_of m c main_arg16 (by decide)).trans <| (B20_of m c main_arg16 (by decide)).trans <| (B19_of m c main_arg16 (by decide)).trans <| (B18_of m c main_arg16 (by decide)).trans <| (B17_of m c main_arg16 (by decide)).trans <| (B16_of m c main_arg16 (by decide)).trans <| (B15_of m c main_arg16 (by decide)).trans <| (B14_of m c main_arg16 (by decide)).trans <| (B13_of m c main_arg16 (by decide)).trans <| (B12_of m c main_arg16 (by decide)).trans <| (B11_of m c main_arg16 (by decide)).trans <| (B10_of m c main_arg16 (by decide)).trans <| (B9_of m c main_arg16 (by decide)).trans <| (B8_of m c main_arg16 (by decide)).trans <| (B7_of m c main_arg16 (by decide)).trans <| (B6_of m c main_arg16 (by decide)).trans <| (B5_of m c main_arg16 (by decide)).trans <| (B4_of m c main_arg16 (by decide)).trans <| (B3_of m c main_arg16 (by decide)).trans <| (B2_of m c main_arg16 (by decide)).trans <| (B1_of m c main_arg16 (by decide))
theorem B31_main_arg17 (c : Dev nD) : B31 m c main_arg17 = m ((c : Thread nD τ).loc main_arg17) :=
  (B31_of m c main_arg17 (by decide)).trans <| (B30_of m c main_arg17 (by decide)).trans <| (B29_of m c main_arg17 (by decide)).trans <| (B28_of m c main_arg17 (by decide)).trans <| (B27_of m c main_arg17 (by decide)).trans <| (B26_of m c main_arg17 (by decide)).trans <| (B25_of m c main_arg17 (by decide)).trans <| (B24_of m c main_arg17 (by decide)).trans <| (B23_of m c main_arg17 (by decide)).trans <| (B22_of m c main_arg17 (by decide)).trans <| (B21_of m c main_arg17 (by decide)).trans <| (B20_of m c main_arg17 (by decide)).trans <| (B19_of m c main_arg17 (by decide)).trans <| (B18_of m c main_arg17 (by decide)).trans <| (B17_of m c main_arg17 (by decide)).trans <| (B16_of m c main_arg17 (by decide)).trans <| (B15_of m c main_arg17 (by decide)).trans <| (B14_of m c main_arg17 (by decide)).trans <| (B13_of m c main_arg17 (by decide)).trans <| (B12_of m c main_arg17 (by decide)).trans <| (B11_of m c main_arg17 (by decide)).trans <| (B10_of m c main_arg17 (by decide)).trans <| (B9_of m c main_arg17 (by decide)).trans <| (B8_of m c main_arg17 (by decide)).trans <| (B7_of m c main_arg17 (by decide)).trans <| (B6_of m c main_arg17 (by decide)).trans <| (B5_of m c main_arg17 (by decide)).trans <| (B4_of m c main_arg17 (by decide)).trans <| (B3_of m c main_arg17 (by decide)).trans <| (B2_of m c main_arg17 (by decide)).trans <| (B1_of m c main_arg17 (by decide))
theorem B31_main_arg18 (c : Dev nD) : B31 m c main_arg18 = m ((c : Thread nD τ).loc main_arg18) :=
  (B31_of m c main_arg18 (by decide)).trans <| (B30_of m c main_arg18 (by decide)).trans <| (B29_of m c main_arg18 (by decide)).trans <| (B28_of m c main_arg18 (by decide)).trans <| (B27_of m c main_arg18 (by decide)).trans <| (B26_of m c main_arg18 (by decide)).trans <| (B25_of m c main_arg18 (by decide)).trans <| (B24_of m c main_arg18 (by decide)).trans <| (B23_of m c main_arg18 (by decide)).trans <| (B22_of m c main_arg18 (by decide)).trans <| (B21_of m c main_arg18 (by decide)).trans <| (B20_of m c main_arg18 (by decide)).trans <| (B19_of m c main_arg18 (by decide)).trans <| (B18_of m c main_arg18 (by decide)).trans <| (B17_of m c main_arg18 (by decide)).trans <| (B16_of m c main_arg18 (by decide)).trans <| (B15_of m c main_arg18 (by decide)).trans <| (B14_of m c main_arg18 (by decide)).trans <| (B13_of m c main_arg18 (by decide)).trans <| (B12_of m c main_arg18 (by decide)).trans <| (B11_of m c main_arg18 (by decide)).trans <| (B10_of m c main_arg18 (by decide)).trans <| (B9_of m c main_arg18 (by decide)).trans <| (B8_of m c main_arg18 (by decide)).trans <| (B7_of m c main_arg18 (by decide)).trans <| (B6_of m c main_arg18 (by decide)).trans <| (B5_of m c main_arg18 (by decide)).trans <| (B4_of m c main_arg18 (by decide)).trans <| (B3_of m c main_arg18 (by decide)).trans <| (B2_of m c main_arg18 (by decide)).trans <| (B1_of m c main_arg18 (by decide))

end Cert.Kernel.Gen

end
-- ==== Proof.KPdats.lean ====
/- Every pipeline's proof data, each taken at the contents its region is entered from, and what rides beside the
  buffers through every item of the main program: the core's generator register at some state, and nothing owed.
-/
import proofs.«127476_j62818191671466_2_alg».proof.Proof.KBoundaries

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data at its region's entry contents. -/
def pdats : (p : Fin 14) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c
  | ⟨13, _⟩ => fun c => dat13 (E27 m) c
/-- No variant, no level, no pair of cores that owe each other: the cores never signal one another. -/
abbrev vr0 : Variants := Variants.none
abbrev pairs0 : GSem nD τ sig → Finset Unit := fun _ => ∅
abbrev lvl0 : GSem nD τ sig → Unit → ℕ := fun _ _ => 0
/-- What rides beside the buffers: the generator register at some state, and the core owing nothing. -/
abbrev Rc (c : Dev nD) : sProp 𝕄 := iprop((∃ r, prngReg c r) ∗ ∃ W, owes (c : Thread nD τ) (0 : CellTallies nD τ sig Unit) W)

end Cert.Kernel.Gen

end
-- ==== Proof.KRec0.lean ====
/- Region 0 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ vr0 pairs0 lvl0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ pairs0 lvl0 0 fun _ _ => rfl
  pre c := iprop(StableHlo.held (c : Thread nD τ) (Pipeline.ucRefs τ sig) (B1 m c) ∗ Rc c)
  post c := iprop(StableHlo.held (c : Thread nD τ) (Pipeline.ucRefs τ sig) (B2 m c) ∗ Rc c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec1.lean ====
/- Region 1 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ vr0 pairs0 lvl0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ pairs0 lvl0 1 fun _ _ => rfl
  pre c := iprop(StableHlo.held (c : Thread nD τ) (Pipeline.ucRefs τ sig) (B3 m c) ∗ Rc c)
  post c := iprop(StableHlo.held (c : Thread nD τ) (Pipeline.ucRefs τ sig) (B4 m c) ∗ Rc c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec2.lean ====
/- Region 2 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ vr0 pairs0 lvl0 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ pairs0 lvl0 2 fun _ _ => rfl
  pre c := iprop(StableHlo.held (c : Thread nD τ) (Pipeline.ucRefs τ sig) (B5 m c) ∗ Rc c)
  post c := iprop(StableHlo.held (c : Thread nD τ) (Pipeline.ucRefs τ sig) (B6 m c) ∗ Rc c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec3.lean ====
/- Region 3 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ vr0 pairs0 lvl0 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ pairs0 lvl0 3 fun _ _ => rfl
  pre c := iprop(StableHlo.held (c : Thread nD τ) (Pipeline.ucRefs τ sig) (B7 m c) ∗ Rc c)
  post c := iprop(StableHlo.held (c : Thread nD τ) (Pipeline.ucRefs τ sig) (B8 m c) ∗ Rc c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in3 (E7 m) c _
  hout c := phi_out3 (E7 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec4.lean ====
/- Region 4 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ vr0 pairs0 lvl0 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ pairs0 lvl0 4 fun _ _ => rfl
  pre c := iprop(StableHlo.held (c : Thread nD τ) (Pipeline.ucRefs τ sig) (B9 m c) ∗ Rc c)
  post c := iprop(StableHlo.held (c : Thread nD τ) (Pipeline.ucRefs τ sig) (B10 m c) ∗ Rc c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec5.lean ====
/- Region 5 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ vr0 pairs0 lvl0 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ pairs0 lvl0 5 fun _ _ => rfl
  pre c := iprop(StableHlo.held (c : Thread nD τ) (Pipeline.ucRefs τ sig) (B11 m c) ∗ Rc c)
  post c := iprop(StableHlo.held (c : Thread nD τ) (Pipeline.ucRefs τ sig) (B12 m c) ∗ Rc c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec6.lean ====
/- Region 6 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ vr0 pairs0 lvl0 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ pairs0 lvl0 6 fun _ _ => rfl
  pre c := iprop(StableHlo.held (c : Thread nD τ) (Pipeline.ucRefs τ sig) (B13 m c) ∗ Rc c)
  post c := iprop(StableHlo.held (c : Thread nD τ) (Pipeline.ucRefs τ sig) (B14 m c) ∗ Rc c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in6 (E13 m) c _
  hout c := phi_out6 (E13 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec7.lean ====
/- Region 7 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ vr0 pairs0 lvl0 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ pairs0 lvl0 7 fun _ _ => rfl
  pre c := iprop(StableHlo.held (c : Thread nD τ) (Pipeline.ucRefs τ sig) (B15 m c) ∗ Rc c)
  post c := iprop(StableHlo.held (c : Thread nD τ) (Pipeline.ucRefs τ sig) (B16 m c) ∗ Rc c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec8.lean ====
/- Region 8 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ vr0 pairs0 lvl0 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ pairs0 lvl0 8 fun _ _ => rfl
  pre c := iprop(StableHlo.held (c : Thread nD τ) (Pipeline.ucRefs τ sig) (B17 m c) ∗ Rc c)
  post c := iprop(StableHlo.held (c : Thread nD τ) (Pipeline.ucRefs τ sig) (B18 m c) ∗ Rc c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec9.lean ====
/- Region 9 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ vr0 pairs0 lvl0 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ pairs0 lvl0 9 fun _ _ => rfl
  pre c := iprop(StableHlo.held (c : Thread nD τ) (Pipeline.ucRefs τ sig) (B19 m c) ∗ Rc c)
  post c := iprop(StableHlo.held (c : Thread nD τ) (Pipeline.ucRefs τ sig) (B20 m c) ∗ Rc c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in9 (E19 m) c _
  hout c := phi_out9 (E19 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec10.lean ====
/- Region 10 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg10 : Pipeline.RegionSeg (pcfgs (F := F)) adm (pdats m) () defs₀ vr0 pairs0 lvl0 10 where
  win := launch10.win.to₀
  block_pos := launch10.block_pos
  stage_whole := launch10.stage_whole
  K := PEmpty
  osem k := k.elim
  ho := Pipeline.OwnSemFacts.none _
  hbody c := (body_obligation10 (E21 m) c).loose
  hwaits := Pipeline.hwaits_of_owed_zero _ _ _ _ pairs0 lvl0 10 fun _ _ => rfl
  pre c := iprop(StableHlo.held (c : Thread nD τ) (Pipeline.ucRefs τ sig) (B21 m c) ∗ Rc c)
  post c := iprop(StableHlo.held (c : Thread nD τ) (Pipeline.ucRefs τ sig) (B22 m c) ∗ Rc c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec11.lean ====
/- Region 11 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg11 : Pipeline.RegionSeg (pcfgs (F := F)) adm (pdats m) () defs₀ vr0 pairs0 lvl0 11 where
  win := launch11.win.to₀
  block_pos := launch11.block_pos
  stage_whole := launch11.stage_whole
  K := PEmpty
  osem k := k.elim
  ho := Pipeline.OwnSemFacts.none _
  hbody c := (body_obligation11 (E23 m) c).loose
  hwaits := Pipeline.hwaits_of_owed_zero _ _ _ _ pairs0 lvl0 11 fun _ _ => rfl
  pre c := iprop(StableHlo.held (c : Thread nD τ) (Pipeline.ucRefs τ sig) (B23 m c) ∗ Rc c)
  post c := iprop(StableHlo.held (c : Thread nD τ) (Pipeline.ucRefs τ sig) (B24 m c) ∗ Rc c)
  X c := iprop(∃ r, prngReg c r)
  Y c := iprop(∃ r, prngReg c r)
  Z c := Pipeline.unscopedRest (Ix := Unit) (Name := ℕ) (U := UR sig nD τ) (Lvl := ℕ) spec11 c (E23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m c) (E24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec12.lean ====
/- Region 12 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg12 : Pipeline.RegionSeg (pcfgs (F := F)) adm (pdats m) () defs₀ vr0 pairs0 lvl0 12 where
  win := launch12.win.to₀
  block_pos := launch12.block_pos
  stage_whole := launch12.stage_whole
  K := PEmpty
  osem k := k.elim
  ho := Pipeline.OwnSemFacts.none _
  hbody c := (body_obligation12 (E25 m) c).loose
  hwaits := Pipeline.hwaits_of_owed_zero _ _ _ _ pairs0 lvl0 12 fun _ _ => rfl
  pre c := iprop(StableHlo.held (c : Thread nD τ) (Pipeline.ucRefs τ sig) (B25 m c) ∗ Rc c)
  post c := iprop(StableHlo.held (c : Thread nD τ) (Pipeline.ucRefs τ sig) (B26 m c) ∗ Rc c)
  X c := iprop(∃ r, prngReg c r)
  Y c := iprop(∃ r, prngReg c r)
  Z c := Pipeline.unscopedRest (Ix := Unit) (Name := ℕ) (U := UR sig nD τ) (Lvl := ℕ) spec12 c (E25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in12 (E25 m) c _
  hout c := phi_out12 (E25 m) c
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m c) (E26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRec13.lean ====
/- Region 13 as an item of the main program: entered with every unscoped buffer at the contents the host stretch
  before it leaves, left with the region's output arrays at what the write-backs leave and every other buffer as entered.
  On entry the region's arrays are split out of the unscoped buffers and at the exit put back; the generator register
  goes into the pipeline's invariant and comes back; the kernel has no semaphore of its own and owes nothing.
-/
import proofs.«127476_j62818191671466_2_alg».proof.Proof.KPdats

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg13 : Pipeline.RegionSeg (pcfgs (F := F)) adm (pdats m) () defs₀ vr0 pairs0 lvl0 13 where
  win := launch13.win.to₀
  block_pos := launch13.block_pos
  stage_whole := launch13.stage_whole
  K := PEmpty
  osem k := k.elim
  ho := Pipeline.OwnSemFacts.none _
  hbody c := (body_obligation13 (E27 m) c).loose
  hwaits := Pipeline.hwaits_of_owed_zero _ _ _ _ pairs0 lvl0 13 fun _ _ => rfl
  pre c := iprop(StableHlo.held (c : Thread nD τ) (Pipeline.ucRefs τ sig) (B27 m c) ∗ Rc c)
  post c := iprop(StableHlo.held (c : Thread nD τ) (Pipeline.ucRefs τ sig) (B28 m c) ∗ Rc c)
  X c := iprop(∃ r, prngReg c r)
  Y c := iprop(∃ r, prngReg c r)
  Z c := Pipeline.unscopedRest (Ix := Unit) (Name := ℕ) (U := UR sig nD τ) (Lvl := ℕ) spec13 c (E27 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (E27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E27 m c) (E28 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRun.lean ====
/- The main program as a list of items: each stretch of host operations entered from the contents the item before it
  leaves, each kernel region by its record. Every weakly fair execution then terminates without a fault and ends with
  every unscoped buffer at the last boundary's contents; in particular every argument array as launched.
-/
import proofs.«127476_j62818191671466_2_alg».proof.Proof.KRec0
import proofs.«127476_j62818191671466_2_alg».proof.Proof.KRec1
import proofs.«127476_j62818191671466_2_alg».proof.Proof.KRec2
import proofs.«127476_j62818191671466_2_alg».proof.Proof.KRec3
import proofs.«127476_j62818191671466_2_alg».proof.Proof.KRec4
import proofs.«127476_j62818191671466_2_alg».proof.Proof.KRec5
import proofs.«127476_j62818191671466_2_alg».proof.Proof.KRec6
import proofs.«127476_j62818191671466_2_alg».proof.Proof.KRec7
import proofs.«127476_j62818191671466_2_alg».proof.Proof.KRec8
import proofs.«127476_j62818191671466_2_alg».proof.Proof.KRec9
import proofs.«127476_j62818191671466_2_alg».proof.Proof.KRec10
import proofs.«127476_j62818191671466_2_alg».proof.Proof.KRec11
import proofs.«127476_j62818191671466_2_alg».proof.Proof.KRec12
import proofs.«127476_j62818191671466_2_alg».proof.Proof.KRec13

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A stretch of host operations as an item: over the unscoped buffers from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 pairs0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The main program's 31 items in order. -/
abbrev items : List (Pipeline.Seg (pcfgs (F := F)) adm (pdats m) () defs₀ vr0 pairs0 lvl0) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)),
    .region (reg6 m),
    .host (hseg hostOps7 hostOps7_sub hostOps7_fresh (B14 m)),
    .region (reg7 m),
    .host (hseg hostOps8 hostOps8_sub hostOps8_fresh (B16 m)),
    .region (reg8 m),
    .host (hseg hostOps9 hostOps9_sub hostOps9_fresh (B18 m)),
    .region (reg9 m),
    .host (hseg hostOps10 hostOps10_sub hostOps10_fresh (B20 m)),
    .region (reg10 m),
    .host (hseg hostOps11 hostOps11_sub hostOps11_fresh (B22 m)),
    .region (reg11 m),
    .host (hseg hostOps12 hostOps12_sub hostOps12_fresh (B24 m)),
    .region (reg12 m),
    .host (hseg hostOps13 hostOps13_sub hostOps13_fresh (B26 m)),
    .region (reg13 m),
    .host (hseg hostOps14 hostOps14_sub hostOps14_fresh (B28 m)),
    .host (hseg hostOps14_1 hostOps14_1_sub hostOps14_1_fresh (B29 m)),
    .host (hseg hostOps14_2 hostOps14_2_sub hostOps14_2_fresh (B30 m)) ]

set_option backward.isDefEq.respectTransparency.types false in
/-- Every weakly fair execution of the main program terminates, nothing faulting, and ends with every unscoped buffer
    of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B31 m c b) :=
  Pipeline.θ_run_regions_kit (pcfgs (F := F)) adm (pdats m) () cellOf_inj emb₁ defs₀ vr0 pairs0 lvl0 m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          StableHlo.seq hostOps14_1,
          StableHlo.seq hostOps14_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rc c))
    (Tₙ := fun c => iprop(StableHlo.held (c : Thread nD τ) (Pipeline.ucRefs τ sig) (B31 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B31 m c) ∗ Rc c) ⊢ _
        iintro ⟨Hh, Hp, HO⟩
        isplitl [Hh Hp]
        · isplitl [Hh]; · iexact Hh
          iexact Hp
        iexact HO⟩)
    (hinit := by
      refine Pipeline.initEach pairs0 lvl0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B31 m c b)
    (hfin := fun c s' => by
      iintro ⟨⟨Hh, -⟩, HSI⟩
      unfold StableHlo.held
      imodintro
      iapply (pointsTo_read_all (Pipeline.ucRefs τ sig) (fun b => (((c : Thread nD τ)).1, b)) (B31 m c) s')
      isplitl [Hh] <;> iassumption)
    (hQ := fun s h c => h c)

/-- The frame claim at any float instance: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (B31_main_arg0 m c),
    (h c _ (mem_uc main_arg1 (by decide))).trans (B31_main_arg1 m c),
    (h c _ (mem_uc main_arg2 (by decide))).trans (B31_main_arg2 m c),
    (h c _ (mem_uc main_arg3 (by decide))).trans (B31_main_arg3 m c),
    (h c _ (mem_uc main_arg4 (by decide))).trans (B31_main_arg4 m c),
    (h c _ (mem_uc main_arg5 (by decide))).trans (B31_main_arg5 m c),
    (h c _ (mem_uc main_arg6 (by decide))).trans (B31_main_arg6 m c),
    (h c _ (mem_uc main_arg7 (by decide))).trans (B31_main_arg7 m c),
    (h c _ (mem_uc main_arg8 (by decide))).trans (B31_main_arg8 m c),
    (h c _ (mem_uc main_arg9 (by decide))).trans (B31_main_arg9 m c),
    (h c _ (mem_uc main_arg10 (by decide))).trans (B31_main_arg10 m c),
    (h c _ (mem_uc main_arg11 (by decide))).trans (B31_main_arg11 m c),
    (h c _ (mem_uc main_arg12 (by decide))).trans (B31_main_arg12 m c),
    (h c _ (mem_uc main_arg13 (by decide))).trans (B31_main_arg13 m c),
    (h c _ (mem_uc main_arg14 (by decide))).trans (B31_main_arg14 m c),
    (h c _ (mem_uc main_arg15 (by decide))).trans (B31_main_arg15 m c),
    (h c _ (mem_uc main_arg16 (by decide))).trans (B31_main_arg16 m c),
    (h c _ (mem_uc main_arg17 (by decide))).trans (B31_main_arg17 m c),
    (h c _ (mem_uc main_arg18 (by decide))).trans (B31_main_arg18 m c)⟩) (run_all m ρ)

end Cert.Kernel.Gen

end
-- ==== Proof.Spec.lean ====
/-
  The network's layers as functions of whole arrays over the extended reals, index by index, in the two forms the two
  programs compute them. Arrays are functions of an index of a literal shape; an entry is read at an index built from
  its coordinates. The row gather and the segment sum are the same host functions in both programs and stay abstract
  here (G and S below).

  A layer: the messages relu(G h + e) on the edges, their segment sum at the nodes, the combination
  (1 + eps) * h + aggregate, a two-layer perceptron, and a batch normalisation over the 100000 rows followed by the
  residual and a relu. The reference normalises with the mean of the squared deviations from the mean; the kernel with
  the mean of the squares less the squared mean, clamped at zero from below.
-/
import Idealize.ShloMosaic.PureOps.Ideal
import Idealize.ShloMosaic.Lib.ValueIdx

noncomputable section

namespace Cert.Spec

open Idealize.ShloMosaic Idealize.ShloMosaic.ValueIdx

/-- Arrays of one, two and three axes over the extended reals. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- An array of two axes from its entries by coordinates. -/
def ofFn {a b : ℕ} (f : Fin a → Fin b → EReal) : A2 a b := fun i => f (i 0) (i 1)

theorem ofFn_ix2 {a b : ℕ} (f : Fin a → Fin b → EReal) (p : Fin a) (q : Fin b) : ofFn f (ix2 p q) = f p q := rfl

/-- The number of nodes and of edges. -/
abbrev nN : ℕ := 100000
abbrev nE : ℕ := 1000000

/-- The literals: one, the row count 100000 and the normalisation's epsilon, as the programs spell them. -/
abbrev oneW : EReal := Ideal.ofBits .f32 0x3F800000#32
abbrev cntW : EReal := Ideal.ofBits .f32 0x47C35000#32
abbrev epsW : EReal := Ideal.ofBits .f32 0x3727C5AC#32

/-- The node encoder: relu(x · w + b). -/
def encNode (x : A2 nN 32) (w : A2 32 64) (b : A1 64) : A2 nN 64 :=
  ofFn fun p q => max ((∑ k : Fin 32, x (ix2 p k) * w (ix2 k q)) + b (ix1 q)) 0

/-- The edge encoder: a · w + b. -/
def encEdge (a : A2 nE 16) (w : A2 16 64) (b : A1 64) : A2 nE 64 :=
  ofFn fun n q => (∑ k : Fin 16, a (ix2 n k) * w (ix2 k q)) + b (ix1 q)

section Layer

variable (G : A2 nN 64 → A2 nE 64) (S : A2 nE 64 → A2 nN 64)
variable (eps : A1 4) (w1 : A3 4 64 128) (b1 : A2 4 128) (w2 : A3 4 128 64) (b2 : A2 4 64) (gam bet : A2 4 64)
variable (l : Fin 4)

/-- The messages: relu(gathered node row + edge row). -/
def msg (h : A2 nN 64) (e : A2 nE 64) : A2 nE 64 :=
  ofFn fun n q => max (G h (ix2 n q) + e (ix2 n q)) 0

/-- (1 + eps) * h + the messages summed at their target nodes. -/
def comb (h : A2 nN 64) (ms : A2 nE 64) : A2 nN 64 :=
  ofFn fun p q => (oneW + eps (ix1 l)) * h (ix2 p q) + S ms (ix2 p q)

/-- The two-layer perceptron, row by row. -/
def mlp (z : A2 nN 64) : A2 nN 64 :=
  ofFn fun p q => (∑ j : Fin 128, max ((∑ k : Fin 64, z (ix2 p k) * w1 (ix3 l k j)) + b1 (ix2 l j)) 0 * w2 (ix3 l j q)) + b2 (ix2 l q)

/-- A column's mean over the rows. -/
def colMean (z : A2 nN 64) (q : Fin 64) : EReal := Ideal.div (∑ r : Fin nN, z (ix2 r q)) cntW

/-- A column's variance as the reference forms it: the mean of the squared deviations from the mean. -/
def varCentred (z : A2 nN 64) (q : Fin 64) : EReal :=
  Ideal.div (∑ r : Fin nN, (z (ix2 r q) - colMean z q) * (z (ix2 r q) - colMean z q)) cntW

/-- A column's variance as the kernel forms it: the mean of the squares less the squared mean, not below zero. -/
def varClamped (z : A2 nN 64) (q : Fin 64) : EReal :=
  max (Ideal.div (∑ r : Fin nN, z (ix2 r q) * z (ix2 r q)) cntW - colMean z q * colMean z q) 0

/-- The normalisation with a given column variance, the affine map, the residual and the relu. -/
def norm (var : A2 nN 64 → Fin 64 → EReal) (z h : A2 nN 64) : A2 nN 64 :=
  ofFn fun p q => max ((z (ix2 p q) - colMean z q) * Ideal.rsqrt (var z q + epsW) * gam (ix2 l q) + bet (ix2 l q) + h (ix2 p q)) 0

/-- One layer as the reference computes it, and as the kernel does. -/
def layerR (h : A2 nN 64) (e : A2 nE 64) : A2 nN 64 :=
  norm gam bet l varCentred (mlp w1 b1 w2 b2 l (comb S eps l h (msg G h e))) h
def layerK (h : A2 nN 64) (e : A2 nE 64) : A2 nN 64 :=
  norm gam bet l varClamped (mlp w1 b1 w2 b2 l (comb S eps l h (msg G h e))) h

end Layer

end Cert.Spec

end
-- ==== Proof.KDefs.lean ====
/-
  The kernel program's arrays between its regions, named: the node features after the encoder and after each layer,
  the edge features, and the two host functions every layer applies — the gather of node rows at the edges' source
  nodes and the sum of edge rows at the edges' target nodes.
-/
import proofs.«127476_j62818191671466_2_alg».proof.Proof.Boundaries
import proofs.«127476_j62818191671466_2_alg».proof.Proof.Spec

noncomputable section

namespace Cert.KernelIdeal.Gen

open Idealize.ShloMosaic Idealize.ShloMosaic.TcCoe Idealize.SL.Sem

variable (m : (ℓ : Loc nD τ sig) → Buf (Elt Ideal) ℓ) (c : Dev nD)

/-- The gather's index column as the host prepares it from the edges' source nodes (a negative index counts from the end). -/
def gatherIdx (v1 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The rows of a node array at the edges' source nodes. -/
def gatherK (x : Spec.A2 Spec.nN 64) : Spec.A2 Spec.nE 64 :=
  Host.gather gather_S100000x64_S1000000x1_S1000000x64_1_0_n_n_0_1_164 x (gatherIdx (B1 m c main_v1))

/-- The rows of an edge array summed at the edges' target nodes. -/
def scatterK (u : Spec.A2 Spec.nE 64) : Spec.A2 Spec.nN 64 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (B1 m c main_v3)) u

/-- The node features after the encoder and after each of the four layers; the edge features. -/
def hK0 : Spec.A2 Spec.nN 64 := B2 m c main_v5
def hK1 : Spec.A2 Spec.nN 64 := B10 m c main_v50
def hK2 : Spec.A2 Spec.nN 64 := B16 m c main_v93
def hK3 : Spec.A2 Spec.nN 64 := B22 m c main_v136
def hK4 : Spec.A2 Spec.nN 64 := B28 m c main_v179
def eK : Spec.A2 Spec.nE 64 := B4 m c main_v7

/-- The argument arrays as the layers read them. -/
def argX : Spec.A2 Spec.nN 32 := m (c, main_arg0)
def argEA : Spec.A2 Spec.nE 16 := m (c, main_arg1)
def argNW : Spec.A2 32 64 := m (c, main_arg4)
def argNB : Spec.A1 64 := m (c, main_arg5)
def argEW : Spec.A2 16 64 := m (c, main_arg6)
def argEB : Spec.A1 64 := m (c, main_arg7)
def argEps : Spec.A1 4 := m (c, main_arg8)
def argW1 : Spec.A3 4 64 128 := m (c, main_arg9)
def argB1 : Spec.A2 4 128 := m (c, main_arg10)
def argW2 : Spec.A3 4 128 64 := m (c, main_arg11)
def argB2 : Spec.A2 4 64 := m (c, main_arg12)
def argGam : Spec.A2 4 64 := m (c, main_arg13)
def argBet : Spec.A2 4 64 := m (c, main_arg14)

end Cert.KernelIdeal.Gen

end
-- ==== Proof.TailK.lean ====
/-
  The kernel program's result is the network's end applied to the node features its last region leaves: the three
  stretches of host operations after the last region, read back.
-/
import proofs.«127476_j62818191671466_2_alg».proof.Proof.Boundaries
import Idealize.ShloMosaic.PureOps.Ideal
import Idealize.ShloMosaic.Lib.StableHlo.Run

noncomputable section

namespace Cert.KernelIdeal.Gen

open Idealize.ShloMosaic Idealize.ShloMosaic.TcCoe Idealize.SL.Sem

/-- The network's end as one function of the last layer's node features, the nodes' graph numbers and the output
    perceptron's parameters: the features summed per graph, divided by the graph's node count (at least one), then
    relu(pooled · w1 + b1) · w2 + b2. -/
def tailFn (h : FVec Ideal S100000x64 .f32) (a3 : IVec S100000 32)
    (a15 : FVec Ideal S64x32 .f32) (a16 : FVec Ideal S32 .f32) (a17 : FVec Ideal S32x10 .f32) (a18 : FVec Ideal S10 .f32) :
    FVec Ideal S64x10 .f32 :=
  addf (F := Ideal) (Host.dotGeneral (F := Ideal) dot_S64x32_S32x10_S64x10_1_0_0_1_n_n none
      (maximumf (F := Ideal)
        (addf (F := Ideal) (Host.dotGeneral (F := Ideal) dot_S64x64_S64x32_S64x32_1_0_0_1_n_n none
            (Host.divf (F := Ideal)
              (Host.scatterAdd (F := Ideal) scatter_S64x64_S100000x1_S100000x64_1_0_0_1
                (broadcastInDim S64x64 ![] bcast_S_S64x64 (constant (F := Ideal) S_ .f32 0x00000000#32))
                (broadcastInDim S100000x1 ![0] bcast_S100000_S100000x1_0 a3) h)
              (broadcastInDim S64x64 ![0, 1] bcast_S64x1_S64x64_0_1
                (broadcastInDim S64x1 ![0] bcast_S64_S64x1_0
                  (maximumf (F := Ideal)
                    (Host.scatterAdd (F := Ideal) scatter_S64_S100000x1_S100000_n_0_0_1
                      (broadcastInDim S64 ![] bcast_S_S64 (constant (F := Ideal) S_ .f32 0x00000000#32))
                      (broadcastInDim S100000x1 ![0] bcast_S100000_S100000x1_0 a3)
                      (broadcastInDim S100000 ![] bcast_S_S100000 (constant (F := Ideal) S_ .f32 0x3F800000#32)))
                    (broadcastInDim S64 ![] bcast_S_S64 (constant (F := Ideal) S_ .f32 0x3F800000#32))))))
            a15)
          (broadcastInDim S64x32 ![0, 1] bcast_S1x32_S64x32_0_1 (broadcastInDim S1x32 ![1] bcast_S32_S1x32_1 a16)))
        (broadcastInDim S64x32 ![] bcast_S_S64x32 (constant (F := Ideal) S_ .f32 0x00000000#32)))
      a17)
    (broadcastInDim S64x10 ![0, 1] bcast_S1x10_S64x10_0_1 (broadcastInDim S1x10 ![1] bcast_S10_S1x10_1 a18))

variable (m : (ℓ : Loc nD τ sig) → Buf (Elt Ideal) ℓ) (c : Dev nD)

set_option maxHeartbeats 8000000 in
/-- The result buffer at the end, from what the last region leaves. -/
theorem tail_eq : B31 m c main_v200
    = tailFn (B28 m c main_v179) (B28 m c main_arg3) (B28 m c main_arg15) (B28 m c main_arg16) (B28 m c main_arg17) (B28 m c main_arg18) := by
  dsimp only [B31, B30, B29, hostOps14, hostOps14_1, hostOps14_2]
  after_results_simp
  rfl

end Cert.KernelIdeal.Gen

end
-- ==== Proof.AlgRows.lean ====
/-
  The two index columns both programs cut from the edge list, as functions of the edge-list array: row 0 (the
  edges' source nodes) and row 1 (their target nodes) of the 2 × 1000000 array, each laid out as a vector.
-/
import Idealize.ShloMosaic.PureOps.ShapeOps

namespace Cert.Proof.Algebraic

open Idealize.ShloMosaic

/-- Row 0 of the edge list as a vector: the edges' source nodes. -/
def srcRow (a2 : (⟨2, ![2, 1000000]⟩ : Shape).Idx → BitVec 32) : (⟨1, ![1000000]⟩ : Shape).Idx → BitVec 32 :=
  shapeCast ⟨1, ![1000000]⟩ (extractStridedSlice ⟨2, ![1, 1000000]⟩ ![0, 0] a2 (by decide)) (by decide)

/-- Row 1 of the edge list as a vector: the edges' target nodes. -/
def dstRow (a2 : (⟨2, ![2, 1000000]⟩ : Shape).Idx → BitVec 32) : (⟨1, ![1000000]⟩ : Shape).Idx → BitVec 32 :=
  shapeCast ⟨1, ![1000000]⟩ (extractStridedSlice ⟨2, ![1, 1000000]⟩ ![1, 0] a2 (by decide)) (by decide)

end Cert.Proof.Algebraic
-- ==== Proof.AlgK.lean ====
/-
  The kernel program's side of the assembly: the two index columns its first host stretch cuts from the edge list,
  the argument arrays its last stretches read (no item of the program writes an argument, so they read as at the
  launch), and its result as the network's end applied to the last layer's node features.
-/
import proofs.«127476_j62818191671466_2_alg».proof.Proof.KDefs
import proofs.«127476_j62818191671466_2_alg».proof.Proof.TailK
import proofs.«127476_j62818191671466_2_alg».proof.Proof.AlgRows
import Idealize.ShloMosaic.Lib.StableHlo.Run

noncomputable section

namespace Cert.Proof.Algebraic.K

open Idealize.ShloMosaic Idealize.ShloMosaic.TcCoe Idealize.SL.Sem Cert.KernelIdeal Cert.KernelIdeal.Gen

variable (m : (ℓ : Loc nD τ sig) → Buf (Elt Ideal) ℓ) (c : Dev nD)

/-- The source-node column after the first host stretch. -/
theorem v1_eq : B1 m c main_v1 = srcRow (m (c, main_arg2)) := by
  dsimp only [B1, B0, hostOps0]
  after_results
  rfl

/-- The target-node column after the first host stretch. -/
theorem v3_eq : B1 m c main_v3 = dstRow (m (c, main_arg2)) := by
  dsimp only [B1, B0, hostOps0]
  after_results
  rfl

theorem arg3_eq : B28 m c main_arg3 = m (c, main_arg3) :=
  (B29_of m c main_arg3 (by decide)).symm.trans <| (B30_of m c main_arg3 (by decide)).symm.trans <|
    (B31_of m c main_arg3 (by decide)).symm.trans (B31_main_arg3 m c)
theorem arg15_eq : B28 m c main_arg15 = m (c, main_arg15) :=
  (B29_of m c main_arg15 (by decide)).symm.trans <| (B30_of m c main_arg15 (by decide)).symm.trans <|
    (B31_of m c main_arg15 (by decide)).symm.trans (B31_main_arg15 m c)
theorem arg16_eq : B28 m c main_arg16 = m (c, main_arg16) :=
  (B29_of m c main_arg16 (by decide)).symm.trans <| (B30_of m c main_arg16 (by decide)).symm.trans <|
    (B31_of m c main_arg16 (by decide)).symm.trans (B31_main_arg16 m c)
theorem arg17_eq : B28 m c main_arg17 = m (c, main_arg17) :=
  (B29_of m c main_arg17 (by decide)).symm.trans <| (B30_of m c main_arg17 (by decide)).symm.trans <|
    (B31_of m c main_arg17 (by decide)).symm.trans (B31_main_arg17 m c)
theorem arg18_eq : B28 m c main_arg18 = m (c, main_arg18) :=
  (B29_of m c main_arg18 (by decide)).symm.trans <| (B30_of m c main_arg18 (by decide)).symm.trans <|
    (B31_of m c main_arg18 (by decide)).symm.trans (B31_main_arg18 m c)

/-- The gather with its index column written as a function of the edge list. -/
theorem gatherK_eq (x : Spec.A2 Spec.nN 64) : gatherK m c x
    = Host.gather gather_S100000x64_S1000000x1_S1000000x64_1_0_n_n_0_1_164 x (gatherIdx (srcRow (m (c, main_arg2)))) := by
  unfold gatherK
  rw [v1_eq]

/-- The segment sum with its index column written as a function of the edge list. -/
theorem scatterK_eq (u : Spec.A2 Spec.nE 64) : scatterK m c u
    = Host.scatterAdd (F := Ideal) scatter_S100000x64_S1000000x1_S1000000x64_1_0_0_1
        (broadcastInDim S100000x64 ![] bcast_S_S100000x64 (constant (F := Ideal) S_ .f32 0x00000000#32))
        (broadcastInDim S1000000x1 ![0] bcast_S1000000_S1000000x1_0 (dstRow (m (c, main_arg2)))) u := by
  unfold scatterK
  rw [v3_eq]

/-- The result: the network's end applied to the last layer's features and the launch's arguments. -/
theorem result_eq : B31 m c main_v200
    = tailFn (hK4 m c) (m (c, main_arg3)) (m (c, main_arg15)) (m (c, main_arg16)) (m (c, main_arg17)) (m (c, main_arg18)) := by
  rw [tail_eq, arg3_eq, arg15_eq, arg16_eq, arg17_eq, arg18_eq]
  rfl

end Cert.Proof.Algebraic.K

end
-- ==== Proof.RDefs.lean ====
/-
  The reference program's arrays between its stretches, named as the kernel program's are: the node features after the
  encoder and after each layer, the edge features, and the two host functions every layer applies.
-/
import proofs.«127476_j62818191671466_2_alg».proof.Proof.RefRunLite
import proofs.«127476_j62818191671466_2_alg».proof.Proof.Spec

noncomputable section

namespace Cert.ReferenceIdeal.ValueP

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The gather's index column as the host prepares it from the edges' source nodes (a negative index counts from the end). -/
def gatherIdx (v1 : (⟨S1000000, .i32⟩ : BufTy).Contents (Elt Ideal)) : (⟨S1000000x1, .i32⟩ : BufTy).Contents (Elt Ideal) :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The rows of a node array at the edges' source nodes. -/
def gatherR (x : Spec.A2 Spec.nN 64) : Spec.A2 Spec.nE 64 :=
  Host.gather gather_S100000x64_S1000000x1_S1000000x64_1_0_n_n_0_1_164 x (gatherIdx (R0 m c main_v1))

/-- The rows of an edge array summed at the edges' target nodes. -/
def scatterR (u : Spec.A2 Spec.nE 64) : Spec.A2 Spec.nN 64 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (R0 m c main_v3)) u

/-- The node features after the encoder and after each of the four layers; the edge features. -/
def hR0 : Spec.A2 Spec.nN 64 := R0 m c main_v8
def hR1 : Spec.A2 Spec.nN 64 := R1 m c main_v78
def hR2 : Spec.A2 Spec.nN 64 := R2 m c main_v144
def hR3 : Spec.A2 Spec.nN 64 := R3 m c main_v210
def hR4 : Spec.A2 Spec.nN 64 := R4 m c main_v276
def eR : Spec.A2 Spec.nE 64 := R0 m c main_v12

/-- The argument arrays as the layers read them. -/
def argX : Spec.A2 Spec.nN 32 := m (c, main_arg0)
def argEA : Spec.A2 Spec.nE 16 := m (c, main_arg1)
def argNW : Spec.A2 32 64 := m (c, main_arg4)
def argNB : Spec.A1 64 := m (c, main_arg5)
def argEW : Spec.A2 16 64 := m (c, main_arg6)
def argEB : Spec.A1 64 := m (c, main_arg7)
def argEps : Spec.A1 4 := m (c, main_arg8)
def argW1 : Spec.A3 4 64 128 := m (c, main_arg9)
def argB1 : Spec.A2 4 128 := m (c, main_arg10)
def argW2 : Spec.A3 4 128 64 := m (c, main_arg11)
def argB2 : Spec.A2 4 64 := m (c, main_arg12)
def argGam : Spec.A2 4 64 := m (c, main_arg13)
def argBet : Spec.A2 4 64 := m (c, main_arg14)

end Cert.ReferenceIdeal.ValueP

end
-- ==== Proof.TailR.lean ====
/-
  The reference program's result is the network's end applied to the node features its last layer leaves: the last
  stretch of host operations, read back.
-/
import proofs.«127476_j62818191671466_2_alg».proof.Proof.RefRunLite
import Idealize.ShloMosaic.PureOps.Ideal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem

/-- The network's end as one function of the last layer's node features, the nodes' graph numbers and the output
    perceptron's parameters: the features summed per graph, divided by the graph's node count (at least one), then
    relu(pooled · w1 + b1) · w2 + b2. -/
def tailFn (h : FVec Ideal S100000x64 .f32) (a3 : IVec S100000 32)
    (a15 : FVec Ideal S64x32 .f32) (a16 : FVec Ideal S32 .f32) (a17 : FVec Ideal S32x10 .f32) (a18 : FVec Ideal S10 .f32) :
    FVec Ideal S64x10 .f32 :=
  addf (F := Ideal) (Host.dotGeneral (F := Ideal) dot_S64x32_S32x10_S64x10_1_0_0_1_n_n none
      (maximumf (F := Ideal)
        (addf (F := Ideal) (Host.dotGeneral (F := Ideal) dot_S64x64_S64x32_S64x32_1_0_0_1_n_n none
            (Host.divf (F := Ideal)
              (Host.scatterAdd (F := Ideal) scatter_S64x64_S100000x1_S100000x64_1_0_0_1
                (broadcastInDim S64x64 ![] bcast_S_S64x64 (constant (F := Ideal) S_ .f32 0x00000000#32))
                (broadcastInDim S100000x1 ![0] bcast_S100000_S100000x1_0 a3) h)
              (broadcastInDim S64x64 ![0, 1] bcast_S64x1_S64x64_0_1
                (broadcastInDim S64x1 ![0] bcast_S64_S64x1_0
                  (maximumf (F := Ideal)
                    (Host.scatterAdd (F := Ideal) scatter_S64_S100000x1_S100000_n_0_0_1
                      (broadcastInDim S64 ![] bcast_S_S64 (constant (F := Ideal) S_ .f32 0x00000000#32))
                      (broadcastInDim S100000x1 ![0] bcast_S100000_S100000x1_0 a3)
                      (broadcastInDim S100000 ![] bcast_S_S100000 (constant (F := Ideal) S_ .f32 0x3F800000#32)))
                    (broadcastInDim S64 ![] bcast_S_S64 (constant (F := Ideal) S_ .f32 0x3F800000#32))))))
            a15)
          (broadcastInDim S64x32 ![0, 1] bcast_S1x32_S64x32_0_1 (broadcastInDim S1x32 ![1] bcast_S32_S1x32_1 a16)))
        (broadcastInDim S64x32 ![] bcast_S_S64x32 (constant (F := Ideal) S_ .f32 0x00000000#32)))
      a17)
    (broadcastInDim S64x10 ![0, 1] bcast_S1x10_S64x10_0_1 (broadcastInDim S1x10 ![1] bcast_S10_S1x10_1 a18))

variable (m : (ℓ : Loc nD τ sig) → Buf (Elt Ideal) ℓ) (c : Dev nD)

set_option maxHeartbeats 8000000 in
/-- The result buffer at the end, from what the last layer leaves. -/
theorem tail_eq : R5 m c main_v297
    = tailFn (R4 m c main_v276) (R4 m c main_arg3) (R4 m c main_arg15) (R4 m c main_arg16) (R4 m c main_arg17) (R4 m c main_arg18) := by
  dsimp only [R5, opsTail]
  after_results_simp
  rfl

end Cert.ReferenceIdeal.ValueP

end
-- ==== Proof.AlgR.lean ====
/-
  The reference program's side of the assembly: the two index columns its first stretch cuts from the edge list,
  the argument arrays its last stretch reads (no operation writes an argument, so they read as at the launch),
  and its result as the network's end applied to the last layer's node features.
-/
import proofs.«127476_j62818191671466_2_alg».proof.Proof.RDefs
import proofs.«127476_j62818191671466_2_alg».proof.Proof.TailR
import proofs.«127476_j62818191671466_2_alg».proof.Proof.AlgRows
import Idealize.ShloMosaic.Lib.StableHlo.Run

noncomputable section

namespace Cert.Proof.Algebraic.R

open Idealize.ShloMosaic Idealize.ShloMosaic.TcCoe Idealize.SL.Sem
open Cert.ReferenceIdeal Cert.ReferenceIdeal.Gen Cert.ReferenceIdeal.ValueP

variable (m : (ℓ : Loc nD τ sig) → Buf (Elt Ideal) ℓ) (c : Dev nD)

/-- The source-node column after the first stretch. -/
theorem v1_eq : R0 m c main_v1 = srcRow (m (c, main_arg2)) := by
  dsimp only [R0, opsEnc]
  after_results
  rfl

/-- The target-node column after the first stretch. -/
theorem v3_eq : R0 m c main_v3 = dstRow (m (c, main_arg2)) := by
  dsimp only [R0, opsEnc]
  after_results
  rfl

theorem arg3_eq : R4 m c main_arg3 = m (c, main_arg3) :=
  (R4_of m c main_arg3 (by decide)).trans <| (R3_of m c main_arg3 (by decide)).trans <|
    (R2_of m c main_arg3 (by decide)).trans <| (R1_of m c main_arg3 (by decide)).trans <|
      R0_of m c main_arg3 (by decide)
theorem arg15_eq : R4 m c main_arg15 = m (c, main_arg15) :=
  (R4_of m c main_arg15 (by decide)).trans <| (R3_of m c main_arg15 (by decide)).trans <|
    (R2_of m c main_arg15 (by decide)).trans <| (R1_of m c main_arg15 (by decide)).trans <|
      R0_of m c main_arg15 (by decide)
theorem arg16_eq : R4 m c main_arg16 = m (c, main_arg16) :=
  (R4_of m c main_arg16 (by decide)).trans <| (R3_of m c main_arg16 (by decide)).trans <|
    (R2_of m c main_arg16 (by decide)).trans <| (R1_of m c main_arg16 (by decide)).trans <|
      R0_of m c main_arg16 (by decide)
theorem arg17_eq : R4 m c main_arg17 = m (c, main_arg17) :=
  (R4_of m c main_arg17 (by decide)).trans <| (R3_of m c main_arg17 (by decide)).trans <|
    (R2_of m c main_arg17 (by decide)).trans <| (R1_of m c main_arg17 (by decide)).trans <|
      R0_of m c main_arg17 (by decide)
theorem arg18_eq : R4 m c main_arg18 = m (c, main_arg18) :=
  (R4_of m c main_arg18 (by decide)).trans <| (R3_of m c main_arg18 (by decide)).trans <|
    (R2_of m c main_arg18 (by decide)).trans <| (R1_of m c main_arg18 (by decide)).trans <|
      R0_of m c main_arg18 (by decide)

/-- The gather with its index column written as a function of the edge list. -/
theorem gatherR_eq (x : Spec.A2 Spec.nN 64) : gatherR m c x
    = Host.gather gather_S100000x64_S1000000x1_S1000000x64_1_0_n_n_0_1_164 x (gatherIdx (srcRow (m (c, main_arg2)))) := by
  unfold gatherR
  rw [v1_eq]

/-- The segment sum with its index column written as a function of the edge list. -/
theorem scatterR_eq (u : Spec.A2 Spec.nE 64) : scatterR m c u
    = Host.scatterAdd (F := Ideal) scatter_S100000x64_S1000000x1_S1000000x64_1_0_0_1
        (broadcastInDim S100000x64 ![] bcast_S_S100000x64 (constant (F := Ideal) S_ .f32 0x00000000#32))
        (broadcastInDim S1000000x1 ![0] bcast_S1000000_S1000000x1_0 (dstRow (m (c, main_arg2)))) u := by
  unfold scatterR
  rw [v3_eq]

/-- The result: the network's end applied to the last layer's features and the launch's arguments. -/
theorem result_eq : StableHlo.after (ops (F := Ideal)) (StableHlo.launchContents m c) (Proc.devRef .tc main_v297)
    = tailFn (hR4 m c) (m (c, main_arg3)) (m (c, main_arg15)) (m (c, main_arg16)) (m (c, main_arg17)) (m (c, main_arg18)) := by
  rw [after_ops_eq, tail_eq, arg3_eq, arg15_eq, arg16_eq, arg17_eq, arg18_eq]
  rfl

end Cert.Proof.Algebraic.R

end
-- ==== Proof.LibVarianceIdentity.lean ====
/-
  The variance identity on the extended reals.

  For finitely many REAL numbers x_i, a real c with c · (number of entries) = 1 (so c is the reciprocal of the count) and
  the mean μ = (Σ x_i) · c, the mean of the squared deviations equals the mean of the squares less the squared mean:

      (Σ_i (x_i − μ)·(x_i − μ)) · c  =  (Σ_i x_i·x_i) · c − μ·μ.

  Over the reals this is the expansion (x − μ)² = x² − 2μx + μ² summed over i, with Σ_i μ² = (count)·μ² and c·(count) = 1.
  Over the extended reals the same equation holds when every entry is the image of a real: each sum, product and
  difference of images of reals is the image of the real sum, product and difference, so both sides are images of
  the two real sides. The hypothesis cannot be dropped: at an infinite entry the left side subtracts infinities.

  The two ways a batch normalisation computes its variance — centre first and average the squares, or average the
  squares and subtract the squared mean — are the two sides; `variance_div` states the identity with the quotient by
  the count n written as the extended reals' division by the image of the real n, the form a program's `divide`
  by a constant takes. `variance_nonneg` adds that the common value is the image of a nonnegative real, so that adding a
  positive ε to it gives the image of a positive real, at which the reciprocal square root is again the image of a real.
-/
import Idealize.ShloMosaic.PureOps.Ideal

noncomputable section

namespace Cert.Lib.VarianceIdentity

open Idealize.ShloMosaic

variable {ι : Type} [Fintype ι]

/-- The image of a finite real sum in the extended reals is the sum of the images. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: with μ = (Σ x)·c and c·(count) = 1, the averaged squared deviations are the
    averaged squares less μ². -/
theorem real_variance (x : ι → ℝ) (c : ℝ) (hc : c * (Fintype.card ι : ℝ) = 1) :
    (∑ i, (x i - (∑ j, x j) * c) * (x i - (∑ j, x j) * c)) * c
      = (∑ i, x i * x i) * c - ((∑ j, x j) * c) * ((∑ j, x j) * c) := by
  have hexp : ∀ a : ℝ, ∑ i, (x i - a) * (x i - a)
      = (∑ i, x i * x i) - 2 * a * (∑ i, x i) + (Fintype.card ι : ℝ) * (a * a) := by
    intro a
    have h : ∀ i, (x i - a) * (x i - a) = x i * x i - 2 * a * x i + a * a := fun i => by ring
    simp only [h, Finset.sum_add_distrib, Finset.sum_sub_distrib, ← Finset.mul_sum, Finset.sum_const,
      Finset.card_univ, nsmul_eq_mul]
    ring
  rw [hexp]
  have hc' : (Fintype.card ι : ℝ) * c = 1 := by rw [mul_comm]; exact hc
  linear_combination (((∑ j, x j) * c) * ((∑ j, x j) * c)) * hc'

/-- The averaged squared deviations of real entries are nonnegative when the averaging factor is. -/
theorem real_variance_nonneg (x : ι → ℝ) (c : ℝ) (hc0 : 0 ≤ c) :
    0 ≤ (∑ i, (x i - (∑ j, x j) * c) * (x i - (∑ j, x j) * c)) * c :=
  mul_nonneg (Finset.sum_nonneg fun i _ => mul_self_nonneg _) hc0

/-- The identity on the extended reals, for entries that are images of reals. -/
theorem variance (x : ι → ℝ) (c : ℝ) (hc : c * (Fintype.card ι : ℝ) = 1) :
    (∑ i, ((x i : EReal) - (∑ j, (x j : EReal)) * (c : EReal)) * ((x i : EReal) - (∑ j, (x j : EReal)) * (c : EReal))) * (c : EReal)
      = (∑ i, (x i : EReal) * (x i : EReal)) * (c : EReal)
        - ((∑ j, (x j : EReal)) * (c : EReal)) * ((∑ j, (x j : EReal)) * (c : EReal)) := by
  simp only [← coe_sum, ← EReal.coe_mul, ← EReal.coe_sub]
  exact congrArg _ (real_variance x c hc)

/-- The same with the quotient by the count written as the extended reals' division by the image of the real `n`. -/
theorem variance_div (x : ι → ℝ) (n : ℝ) (hn : (Fintype.card ι : ℝ) = n) (hn0 : n ≠ 0) :
    Ideal.div (∑ i, ((x i : EReal) - Ideal.div (∑ j, (x j : EReal)) (n : EReal))
        * ((x i : EReal) - Ideal.div (∑ j, (x j : EReal)) (n : EReal))) (n : EReal)
      = Ideal.div (∑ i, (x i : EReal) * (x i : EReal)) (n : EReal)
        - Ideal.div (∑ j, (x j : EReal)) (n : EReal) * Ideal.div (∑ j, (x j : EReal)) (n : EReal) := by
  simp only [Ideal.div_coe hn0]
  exact variance x (1 / n) (by rw [hn]; field_simp)

/-- The common value is the image of a nonnegative real. -/
theorem variance_nonneg (x : ι → ℝ) (n : ℝ) (hn0 : 0 < n) :
    ∃ v : ℝ, 0 ≤ v ∧
      Ideal.div (∑ i, ((x i : EReal) - Ideal.div (∑ j, (x j : EReal)) (n : EReal))
        * ((x i : EReal) - Ideal.div (∑ j, (x j : EReal)) (n : EReal))) (n : EReal) = (v : EReal) := by
  refine ⟨_, real_variance_nonneg x (1 / n) (by positivity), ?_⟩
  simp only [Ideal.div_coe hn0.ne', ← coe_sum, ← EReal.coe_mul, ← EReal.coe_sub]

end Cert.Lib.VarianceIdentity

end
-- ==== Proof.LibRealEntries.lean ====
/-
  Extended reals that are images of real numbers.

  The extended reals add the two infinities to the real line, and their arithmetic has conventions at the
  infinities (an infinity less itself, zero times an infinity) under which the usual ring identities fail. Every
  identity of real arithmetic does hold on the part of the extended reals that is the image of the real line, and
  that part is closed under every operation a feed-forward network applies: sums, products, differences, maxima
  and minima, finite sums (so matrix products, column sums and sums over the members of a segment), the quotient
  by a nonzero real, and the reciprocal square root at a positive real. This file names the part (IsReal) and
  proves each closure, giving the real whose image the result is wherever it is used later.

  It also reads the four single-precision bit patterns the normalisation uses as the reals they denote:
  0x00000000 is 0, 0x3F800000 is 1, 0x47C35000 is 100000 (sign 0, exponent field 143, fraction field 4411392:
  (2^23 + 4411392) · 2^(143 − 127 − 23) = 12800000 / 128), and 0x3727C5AC is 10995116 / 2^40 (sign 0, exponent
  field 110, fraction field 2606508: (2^23 + 2606508) · 2^(110 − 127 − 23)), the positive single-precision number
  nearest 1/100000.
-/
import Idealize.ShloMosaic.PureOps.Ideal

noncomputable section

namespace Cert.Lib.RealEntries

open Idealize.ShloMosaic

/-- An extended real that is the image of a real number: neither infinity. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- The images of reals are exactly the extended reals other than the two infinities. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩

theorem mul (hx : IsReal x) (hy : IsReal y) : IsReal (x * y) := by
  obtain ⟨a, rfl⟩ := hx; obtain ⟨b, rfl⟩ := hy; exact ⟨a * b, (EReal.coe_mul a b).symm⟩

theorem sub (hx : IsReal x) (hy : IsReal y) : IsReal (x - y) := by
  obtain ⟨a, rfl⟩ := hx; obtain ⟨b, rfl⟩ := hy; exact ⟨a - b, (EReal.coe_sub a b).symm⟩

theorem neg (hx : IsReal x) : IsReal (-x) := by
  obtain ⟨a, rfl⟩ := hx; exact ⟨-a, (EReal.coe_neg a).symm⟩

theorem max (hx : IsReal x) (hy : IsReal y) : IsReal (max x y) := by
  rcases max_choice x y with h | h <;> rw [h] <;> assumption

theorem min (hx : IsReal x) (hy : IsReal y) : IsReal (min x y) := by
  rcases min_choice x y with h | h <;> rw [h] <;> assumption

/-- The rectifier max x 0 of the image of a real is the image of a real. -/
theorem relu (hx : IsReal x) : IsReal (Max.max x 0) := hx.max isReal_zero

/-- A choice between two images of reals is one. -/
theorem ite {p : Prop} [Decidable p] (hx : IsReal x) (hy : IsReal y) : IsReal (if p then x else y) := by
  split <;> assumption

/-- A finite sum of images of reals is the image of a real. -/
theorem sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- The sum over a whole finite index type. -/
theorem sum_univ {ι : Type} [Fintype ι] (f : ι → EReal) (hf : ∀ i, IsReal (f i)) : IsReal (∑ i, f i) :=
  sum Finset.univ f fun i _ => hf i

/-- One entry of a matrix product: the sum over the contracted index of the products of two real-entried
    families. -/
theorem sum_mul {κ : Type} [Fintype κ] (a b : κ → EReal) (ha : ∀ k, IsReal (a k)) (hb : ∀ k, IsReal (b k)) :
    IsReal (∑ k, a k * b k) :=
  sum_univ _ fun k => (ha k).mul (hb k)

/-- The same onto a real accumulator entry. -/
theorem add_sum_mul {κ : Type} [Fintype κ] {c : EReal} (hc : IsReal c) (a b : κ → EReal) (ha : ∀ k, IsReal (a k))
    (hb : ∀ k, IsReal (b k)) : IsReal (c + ∑ k, a k * b k) :=
  hc.add (sum_mul a b ha hb)

/-- A segment sum: over the members e of a finite family, the entry u e where the member's label is k and
    nothing elsewhere. -/
theorem segment_sum {ε κ : Type} [Fintype ε] [DecidableEq κ] (ids : ε → κ) (k : κ) (u : ε → EReal)
    (hu : ∀ e, IsReal (u e)) : IsReal (∑ e, if ids e = k then u e else 0) :=
  sum_univ _ fun e => (hu e).ite isReal_zero

/-- The same written as a sum over the members that carry the label. -/
theorem segment_sum_filter {ε : Type} [Fintype ε] (p : ε → Prop) [DecidablePred p] (u : ε → EReal)
    (hu : ∀ e, IsReal (u e)) : IsReal (∑ e ∈ Finset.univ.filter p, u e) :=
  sum _ u fun e _ => hu e

/-- The quotient of the image of a real by the image of a nonzero real, in the form the programs' divide
    takes: it is the product with the reciprocal. -/
theorem div_coe (hx : IsReal x) {c : ℝ} (hc : c ≠ 0) : IsReal (Ideal.div x (c : EReal)) := by
  rw [Ideal.div_coe hc]; exact hx.mul (isReal_coe _)

/-- The quotient by any image of a real other than zero. -/
theorem div (hx : IsReal x) (hy : IsReal y) (hy0 : y ≠ 0) : IsReal (Ideal.div x y) := by
  obtain ⟨c, rfl⟩ := hy
  exact hx.div_coe fun h => hy0 (by rw [h, EReal.coe_zero])

end IsReal

/-- The quotient of two images of reals, as the image of the real quotient. -/
theorem div_coe_coe (a : ℝ) {c : ℝ} (hc : c ≠ 0) : Ideal.div (a : EReal) (c : EReal) = ((a / c : ℝ) : EReal) := by
  rw [Ideal.div_coe hc, ← EReal.coe_mul, mul_one_div]

/-- The reciprocal square root at the image of a positive real is the image of the real reciprocal square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_coe_pos {r : ℝ} (hr : 0 < r) : IsReal (Ideal.rsqrt (r : EReal)) :=
  ⟨_, rsqrt_coe_pos hr⟩

/-- … and that real is positive. -/
theorem rsqrt_coe_pos' {r : ℝ} (hr : 0 < r) : ∃ s : ℝ, 0 < s ∧ Ideal.rsqrt (r : EReal) = (s : EReal) :=
  ⟨_, inv_pos.mpr (Real.sqrt_pos.mpr hr), rsqrt_coe_pos hr⟩

/-- A nonnegative real plus a positive real, both read in the extended reals, has a real reciprocal square
    root: the normalisation's 1 / √(variance + ε). -/
theorem isReal_rsqrt_add_pos {v e : ℝ} (hv : 0 ≤ v) (he : 0 < e) : IsReal (Ideal.rsqrt ((v : EReal) + (e : EReal))) := by
  rw [← EReal.coe_add]; exact isReal_rsqrt_coe_pos (add_pos_of_nonneg_of_pos hv he)

/-- The same from the two facts as they are met: x is the image of a nonnegative real, y of a positive one. -/
theorem isReal_rsqrt_add {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add_pos hv he

/-! ### The bit patterns of the constants -/

/-- The single-precision pattern of zero. -/
theorem ofBits_f32_zero : Ideal.ofBits .f32 0x00000000#32 = ((0 : ℝ) : EReal) := by
  simp [Ideal.ofBits, Ideal.ieee]

/-- The single-precision pattern of one. -/
theorem ofBits_f32_one : Ideal.ofBits .f32 0x3F800000#32 = ((1 : ℝ) : EReal) := by
  simp [Ideal.ofBits, Ideal.ieee, -EReal.coe_mul]; norm_num

/-- The single-precision pattern of one hundred thousand, the number of rows. -/
theorem ofBits_f32_1e5 : Ideal.ofBits .f32 0x47C35000#32 = ((100000 : ℝ) : EReal) := by
  simp [Ideal.ofBits, Ideal.ieee, -EReal.coe_mul]; norm_num

/-- The real the pattern 0x3727C5AC denotes: the single-precision number nearest 1/100000. -/
def bnEps : ℝ := 10995116 / 1099511627776

theorem bnEps_pos : 0 < bnEps := by unfold bnEps; norm_num

theorem ofBits_f32_bnEps : Ideal.ofBits .f32 0x3727C5AC#32 = ((bnEps : ℝ) : EReal) := by
  unfold bnEps
  simp [Ideal.ofBits, Ideal.ieee, -EReal.coe_mul]; norm_num

theorem isReal_ofBits_f32_zero : IsReal (Ideal.ofBits .f32 0x00000000#32) := ⟨_, ofBits_f32_zero⟩
theorem isReal_ofBits_f32_one : IsReal (Ideal.ofBits .f32 0x3F800000#32) := ⟨_, ofBits_f32_one⟩
theorem isReal_ofBits_f32_1e5 : IsReal (Ideal.ofBits .f32 0x47C35000#32) := ⟨_, ofBits_f32_1e5⟩
theorem isReal_ofBits_f32_bnEps : IsReal (Ideal.ofBits .f32 0x3727C5AC#32) := ⟨_, ofBits_f32_bnEps⟩

/-- The pattern 0x3727C5AC denotes the image of a positive real. -/
theorem ofBits_f32_bnEps_pos : ∃ e : ℝ, 0 < e ∧ Ideal.ofBits .f32 0x3727C5AC#32 = (e : EReal) :=
  ⟨bnEps, bnEps_pos, ofBits_f32_bnEps⟩

end Cert.Lib.RealEntries

end
-- ==== Proof.BatchNormLaw.lean ====
/-
  The batch-normalisation law: two ways of computing a column's variance agree on real entries.

  For a column z of finitely many entries with N their number, write mean = (Σ z) / N. One program centres the
  entries and averages the squares, (Σ (z − mean)·(z − mean)) / N; the other averages the squares, subtracts
  the squared mean and clamps the result at zero, max ((Σ z·z) / N − mean·mean) 0. Over the reals
  the two unclamped values are equal (expand the square and use N · (1/N) = 1), and the value is a mean of squares,
  hence nonnegative, so the clamp changes nothing. Over the extended reals all of this holds when every entry is
  the image of a real, since then every sum, product, difference and quotient by N is the image of the real one;
  it fails at an infinite entry, where the centred form subtracts an infinity from itself.

  The quotient is the extended reals' division by the image of the real N, which is how both programs' divide
  by the row count reads. The last statements put the single-precision pattern of 100000 in N's place.
-/
import proofs.«127476_j62818191671466_2_alg».proof.Proof.LibVarianceIdentity
import proofs.«127476_j62818191671466_2_alg».proof.Proof.LibRealEntries

noncomputable section

namespace Cert.Lib.BatchNormLaw

open Idealize.ShloMosaic Cert.Lib.RealEntries

variable {ι : Type} [Fintype ι]

/-- A family of images of reals is the image of a family of reals. -/
theorem exists_real_family (z : ι → EReal) (hz : ∀ r, IsReal (z r)) : ∃ x : ι → ℝ, z = fun r => (x r : EReal) := by
  choose x hx using hz
  exact ⟨x, funext hx⟩

/-- A nonzero real that is the number of elements of a finite type is positive. -/
theorem count_pos {N : ℝ} (hN : (Fintype.card ι : ℝ) = N) (hN0 : N ≠ 0) : 0 < N :=
  lt_of_le_of_ne (hN ▸ Nat.cast_nonneg _) (Ne.symm hN0)

/-- The centred variance of real entries is the image of a nonnegative real. -/
theorem centred_variance_nonneg (N : ℝ) (hN : (Fintype.card ι : ℝ) = N) (hN0 : N ≠ 0)
    (z : ι → EReal) (hz : ∀ r, IsReal (z r)) :
    ∃ v : ℝ, 0 ≤ v ∧
      Ideal.div (∑ r, (z r - Ideal.div (∑ r, z r) (N : EReal)) * (z r - Ideal.div (∑ r, z r) (N : EReal))) (N : EReal)
        = (v : EReal) := by
  obtain ⟨x, rfl⟩ := exists_real_family z hz
  exact Cert.Lib.VarianceIdentity.variance_nonneg x N (count_pos hN hN0)

/-- The two unclamped variances of real entries agree. -/
theorem variance_forms (N : ℝ) (hN : (Fintype.card ι : ℝ) = N) (hN0 : N ≠ 0)
    (z : ι → EReal) (hz : ∀ r, IsReal (z r)) :
    Ideal.div (∑ r, z r * z r) (N : EReal) - Ideal.div (∑ r, z r) (N : EReal) * Ideal.div (∑ r, z r) (N : EReal)
      = Ideal.div (∑ r, (z r - Ideal.div (∑ r, z r) (N : EReal)) * (z r - Ideal.div (∑ r, z r) (N : EReal))) (N : EReal) := by
  obtain ⟨x, rfl⟩ := exists_real_family z hz
  exact (Cert.Lib.VarianceIdentity.variance_div x N hN hN0).symm

/-- The law: the clamped one-pass variance equals the centred two-pass variance. -/
theorem batchNorm_variance (N : ℝ) (hN : (Fintype.card ι : ℝ) = N) (hN0 : N ≠ 0)
    (z : ι → EReal) (hz : ∀ r, IsReal (z r)) :
    max (Ideal.div (∑ r, z r * z r) (N : EReal)
          - Ideal.div (∑ r, z r) (N : EReal) * Ideal.div (∑ r, z r) (N : EReal)) 0
      = Ideal.div (∑ r, (z r - Ideal.div (∑ r, z r) (N : EReal)) * (z r - Ideal.div (∑ r, z r) (N : EReal))) (N : EReal) := by
  rw [variance_forms N hN hN0 z hz]
  obtain ⟨v, hv, h⟩ := centred_variance_nonneg N hN hN0 z hz
  rw [h]
  exact max_eq_left (by exact_mod_cast hv)

/-- The common value is the image of a nonnegative real, in its clamped one-pass form too. -/
theorem clamped_variance_nonneg (N : ℝ) (hN : (Fintype.card ι : ℝ) = N) (hN0 : N ≠ 0)
    (z : ι → EReal) (hz : ∀ r, IsReal (z r)) :
    ∃ v : ℝ, 0 ≤ v ∧
      max (Ideal.div (∑ r, z r * z r) (N : EReal)
            - Ideal.div (∑ r, z r) (N : EReal) * Ideal.div (∑ r, z r) (N : EReal)) 0 = (v : EReal) := by
  rw [batchNorm_variance N hN hN0 z hz]
  exact centred_variance_nonneg N hN hN0 z hz

/-- The mean of real entries is the image of a real. -/
theorem isReal_mean (N : ℝ) (hN0 : N ≠ 0) (z : ι → EReal) (hz : ∀ r, IsReal (z r)) :
    IsReal (Ideal.div (∑ r, z r) (N : EReal)) :=
  (IsReal.sum_univ z hz).div_coe hN0

/-- The variance of real entries is the image of a real. -/
theorem isReal_variance (N : ℝ) (hN : (Fintype.card ι : ℝ) = N) (hN0 : N ≠ 0)
    (z : ι → EReal) (hz : ∀ r, IsReal (z r)) :
    IsReal (Ideal.div (∑ r, (z r - Ideal.div (∑ r, z r) (N : EReal)) * (z r - Ideal.div (∑ r, z r) (N : EReal))) (N : EReal)) := by
  obtain ⟨v, _, h⟩ := centred_variance_nonneg N hN hN0 z hz
  exact ⟨v, h⟩

/-- The reciprocal square root of the variance plus the image of a positive real is the image of a real:
    the normalisation's scale factor. -/
theorem isReal_rsqrt_variance_add (N : ℝ) (hN : (Fintype.card ι : ℝ) = N) (hN0 : N ≠ 0)
    (z : ι → EReal) (hz : ∀ r, IsReal (z r)) {e : EReal} (he : ∃ ε : ℝ, 0 < ε ∧ e = (ε : EReal)) :
    IsReal (Ideal.rsqrt
      (Ideal.div (∑ r, (z r - Ideal.div (∑ r, z r) (N : EReal)) * (z r - Ideal.div (∑ r, z r) (N : EReal))) (N : EReal) + e)) :=
  isReal_rsqrt_add (centred_variance_nonneg N hN hN0 z hz) he

/-! ### With the row count written as the single-precision pattern of 100000 -/

/-- The law over one hundred thousand rows, the divisor being the pattern 0x47C35000. -/
theorem batchNorm_variance_1e5 (z : Fin 100000 → EReal) (hz : ∀ r, IsReal (z r)) :
    max (Ideal.div (∑ r, z r * z r) (Ideal.ofBits .f32 0x47C35000#32)
          - Ideal.div (∑ r, z r) (Ideal.ofBits .f32 0x47C35000#32) * Ideal.div (∑ r, z r) (Ideal.ofBits .f32 0x47C35000#32)) 0
      = Ideal.div (∑ r, (z r - Ideal.div (∑ r, z r) (Ideal.ofBits .f32 0x47C35000#32))
          * (z r - Ideal.div (∑ r, z r) (Ideal.ofBits .f32 0x47C35000#32))) (Ideal.ofBits .f32 0x47C35000#32) := by
  rw [ofBits_f32_1e5]
  exact batchNorm_variance 100000 (by rw [Fintype.card_fin]; norm_num) (by norm_num) z hz

/-- … and its value is the image of a nonnegative real. -/
theorem centred_variance_nonneg_1e5 (z : Fin 100000 → EReal) (hz : ∀ r, IsReal (z r)) :
    ∃ v : ℝ, 0 ≤ v ∧
      Ideal.div (∑ r, (z r - Ideal.div (∑ r, z r) (Ideal.ofBits .f32 0x47C35000#32))
          * (z r - Ideal.div (∑ r, z r) (Ideal.ofBits .f32 0x47C35000#32))) (Ideal.ofBits .f32 0x47C35000#32) = (v : EReal) := by
  rw [ofBits_f32_1e5]
  exact centred_variance_nonneg 100000 (by rw [Fintype.card_fin]; norm_num) (by norm_num) z hz

/-- The scale factor 1 / √(variance + ε) over one hundred thousand rows, ε the pattern 0x3727C5AC, is the
    image of a real. -/
theorem isReal_rsqrt_variance_add_1e5 (z : Fin 100000 → EReal) (hz : ∀ r, IsReal (z r)) :
    IsReal (Ideal.rsqrt
      (Ideal.div (∑ r, (z r - Ideal.div (∑ r, z r) (Ideal.ofBits .f32 0x47C35000#32))
          * (z r - Ideal.div (∑ r, z r) (Ideal.ofBits .f32 0x47C35000#32))) (Ideal.ofBits .f32 0x47C35000#32)
        + Ideal.ofBits .f32 0x3727C5AC#32)) :=
  isReal_rsqrt_add (centred_variance_nonneg_1e5 z hz) ofBits_f32_bnEps_pos

/-- The mean over one hundred thousand rows is the image of a real. -/
theorem isReal_mean_1e5 (z : Fin 100000 → EReal) (hz : ∀ r, IsReal (z r)) :
    IsReal (Ideal.div (∑ r, z r) (Ideal.ofBits .f32 0x47C35000#32)) := by
  rw [ofBits_f32_1e5]; exact isReal_mean 100000 (by norm_num) z hz

/-- The law over one hundred thousand rows with the clamp's zero written as its pattern too. -/
theorem batchNorm_variance_1e5_bits (z : Fin 100000 → EReal) (hz : ∀ r, IsReal (z r)) :
    max (Ideal.div (∑ r, z r * z r) (Ideal.ofBits .f32 0x47C35000#32)
          - Ideal.div (∑ r, z r) (Ideal.ofBits .f32 0x47C35000#32) * Ideal.div (∑ r, z r) (Ideal.ofBits .f32 0x47C35000#32))
        (Ideal.ofBits .f32 0x00000000#32)
      = Ideal.div (∑ r, (z r - Ideal.div (∑ r, z r) (Ideal.ofBits .f32 0x47C35000#32))
          * (z r - Ideal.div (∑ r, z r) (Ideal.ofBits .f32 0x47C35000#32))) (Ideal.ofBits .f32 0x47C35000#32) := by
  rw [ofBits_f32_zero, EReal.coe_zero]
  exact batchNorm_variance_1e5 z hz

end Cert.Lib.BatchNormLaw

end
-- ==== Proof.SpecLaw.lean ====
/-
  The two forms of a layer agree on real entries, and a layer keeps entries real.

  The reference's and the kernel's layer differ only in the column variance the normalisation divides by: the mean
  of the squared deviations from the column mean, against the mean of the squares less the squared mean, clamped
  at zero. On a column of images of reals the two are equal (the batch-normalisation law). The normalised array
  is the perceptron's output, whose entries are images of reals when the layer's inputs and weights are: the
  messages, the combination and the perceptron are built from sums, products and maxima of real entries, and the
  gather and the segment sum are assumed to keep entries real.

  The layer's output is then real-entried too: the column mean is a real, the variance is a nonnegative real, so
  variance plus the positive ε has a real reciprocal square root, and the affine map, the residual and the
  rectifier keep reals real.
-/
import proofs.«127476_j62818191671466_2_alg».proof.Proof.Spec
import proofs.«127476_j62818191671466_2_alg».proof.Proof.BatchNormLaw
import proofs.«127476_j62818191671466_2_alg».proof.Proof.LibRealEntries

noncomputable section

namespace Cert.Spec

open Idealize.ShloMosaic Idealize.ShloMosaic.ValueIdx Cert.Lib.RealEntries Cert.Lib.BatchNormLaw

/-- An array given by real entries has real entries. -/
theorem isReal_ofFn {a b : ℕ} (f : Fin a → Fin b → EReal) (hf : ∀ p q, IsReal (f p q)) : ∀ i, IsReal (ofFn f i) :=
  fun i => hf (i 0) (i 1)

/-- The node encoder keeps entries real. -/
theorem isReal_encNode (x : A2 nN 32) (w : A2 32 64) (b : A1 64) (hx : ∀ i, IsReal (x i)) (hw : ∀ i, IsReal (w i))
    (hb : ∀ i, IsReal (b i)) : ∀ i, IsReal (encNode x w b i) :=
  isReal_ofFn _ fun _ _ => ((IsReal.sum_mul _ _ (fun _ => hx _) (fun _ => hw _)).add (hb _)).relu

/-- The edge encoder keeps entries real. -/
theorem isReal_encEdge (a : A2 nE 16) (w : A2 16 64) (b : A1 64) (ha : ∀ i, IsReal (a i)) (hw : ∀ i, IsReal (w i))
    (hb : ∀ i, IsReal (b i)) : ∀ i, IsReal (encEdge a w b i) :=
  isReal_ofFn _ fun _ _ => (IsReal.sum_mul _ _ (fun _ => ha _) (fun _ => hw _)).add (hb _)

section Layer

variable (G : A2 nN 64 → A2 nE 64) (S : A2 nE 64 → A2 nN 64)
variable (eps : A1 4) (w1 : A3 4 64 128) (b1 : A2 4 128) (w2 : A3 4 128 64) (b2 : A2 4 64) (gam bet : A2 4 64)
variable (l : Fin 4)

/-- The messages are real when the gathered rows and the edge rows are. -/
theorem isReal_msg (h : A2 nN 64) (e : A2 nE 64) (hGh : ∀ i, IsReal (G h i)) (he : ∀ i, IsReal (e i)) :
    ∀ i, IsReal (msg G h e i) :=
  isReal_ofFn _ fun _ _ => ((hGh _).add (he _)).relu

/-- The combination is real when its parts are. -/
theorem isReal_comb (h : A2 nN 64) (ms : A2 nE 64) (heps : ∀ i, IsReal (eps i)) (hh : ∀ i, IsReal (h i))
    (hSms : ∀ i, IsReal (S ms i)) : ∀ i, IsReal (comb S eps l h ms i) :=
  isReal_ofFn _ fun _ _ => ((isReal_ofBits_f32_one.add (heps _)).mul (hh _)).add (hSms _)

/-- The perceptron keeps entries real. -/
theorem isReal_mlp (z : A2 nN 64) (hz : ∀ i, IsReal (z i)) (hw1 : ∀ i, IsReal (w1 i)) (hb1 : ∀ i, IsReal (b1 i))
    (hw2 : ∀ i, IsReal (w2 i)) (hb2 : ∀ i, IsReal (b2 i)) : ∀ i, IsReal (mlp w1 b1 w2 b2 l z i) :=
  isReal_ofFn _ fun _ _ =>
    (IsReal.sum_univ _ fun _ =>
      (((IsReal.sum_mul _ _ (fun _ => hz _) (fun _ => hw1 _)).add (hb1 _)).relu).mul (hw2 _)).add (hb2 _)

/-- On a real-entried array the clamped one-pass column variance is the centred one. -/
theorem varClamped_eq_varCentred (z : A2 nN 64) (hz : ∀ i, IsReal (z i)) (q : Fin 64) :
    varClamped z q = varCentred z q :=
  batchNorm_variance_1e5 (fun r => z (ix2 r q)) fun _ => hz _

/-- The column mean of a real-entried array is real. -/
theorem isReal_colMean (z : A2 nN 64) (hz : ∀ i, IsReal (z i)) (q : Fin 64) : IsReal (colMean z q) :=
  isReal_mean_1e5 (fun r => z (ix2 r q)) fun _ => hz _

/-- The scale factor 1 / √(variance + ε) of a real-entried array is real. -/
theorem isReal_rsqrt_varCentred (z : A2 nN 64) (hz : ∀ i, IsReal (z i)) (q : Fin 64) :
    IsReal (Ideal.rsqrt (varCentred z q + epsW)) :=
  isReal_rsqrt_variance_add_1e5 (fun r => z (ix2 r q)) fun _ => hz _

/-- The two normalisations of a real-entried array agree. -/
theorem norm_varClamped_eq (z h : A2 nN 64) (hz : ∀ i, IsReal (z i)) :
    norm gam bet l varClamped z h = norm gam bet l varCentred z h := by
  unfold norm
  refine congrArg ofFn (funext fun p => funext fun q => ?_)
  rw [varClamped_eq_varCentred z hz q]

/-- The centred normalisation, the affine map, the residual and the rectifier keep entries real. -/
theorem isReal_norm_varCentred (z h : A2 nN 64) (hz : ∀ i, IsReal (z i)) (hh : ∀ i, IsReal (h i))
    (hgam : ∀ i, IsReal (gam i)) (hbet : ∀ i, IsReal (bet i)) : ∀ i, IsReal (norm gam bet l varCentred z h i) :=
  isReal_ofFn _ fun _ q =>
    ((((((hz _).sub (isReal_colMean z hz q)).mul (isReal_rsqrt_varCentred z hz q)).mul (hgam _)).add (hbet _)).add
      (hh _)).relu

/-- The perceptron's output inside a layer is real-entried. -/
theorem isReal_layer_mlp (h : A2 nN 64) (e : A2 nE 64)
    (hG : ∀ x : A2 nN 64, (∀ i, IsReal (x i)) → ∀ i, IsReal (G x i))
    (hS : ∀ u : A2 nE 64, (∀ i, IsReal (u i)) → ∀ i, IsReal (S u i))
    (hh : ∀ i, IsReal (h i)) (he : ∀ i, IsReal (e i)) (heps : ∀ i, IsReal (eps i)) (hw1 : ∀ i, IsReal (w1 i))
    (hb1 : ∀ i, IsReal (b1 i)) (hw2 : ∀ i, IsReal (w2 i)) (hb2 : ∀ i, IsReal (b2 i)) :
    ∀ i, IsReal (mlp w1 b1 w2 b2 l (comb S eps l h (msg G h e)) i) :=
  isReal_mlp w1 b1 w2 b2 l _
    (isReal_comb S eps l h _ heps hh (hS _ (isReal_msg G h e (hG h hh) he))) hw1 hb1 hw2 hb2

/-- The kernel's form of a layer equals the reference's on real entries. -/
theorem layerK_eq_layerR (h : A2 nN 64) (e : A2 nE 64)
    (hG : ∀ x : A2 nN 64, (∀ i, IsReal (x i)) → ∀ i, IsReal (G x i))
    (hS : ∀ u : A2 nE 64, (∀ i, IsReal (u i)) → ∀ i, IsReal (S u i))
    (hh : ∀ i, IsReal (h i)) (he : ∀ i, IsReal (e i)) (heps : ∀ i, IsReal (eps i)) (hw1 : ∀ i, IsReal (w1 i))
    (hb1 : ∀ i, IsReal (b1 i)) (hw2 : ∀ i, IsReal (w2 i)) (hb2 : ∀ i, IsReal (b2 i)) :
    layerK G S eps w1 b1 w2 b2 gam bet l h e = layerR G S eps w1 b1 w2 b2 gam bet l h e :=
  norm_varClamped_eq gam bet l _ h (isReal_layer_mlp G S eps w1 b1 w2 b2 l h e hG hS hh he heps hw1 hb1 hw2 hb2)

/-- A layer keeps entries real. -/
theorem isReal_layerR (h : A2 nN 64) (e : A2 nE 64)
    (hG : ∀ x : A2 nN 64, (∀ i, IsReal (x i)) → ∀ i, IsReal (G x i))
    (hS : ∀ u : A2 nE 64, (∀ i, IsReal (u i)) → ∀ i, IsReal (S u i))
    (hh : ∀ i, IsReal (h i)) (he : ∀ i, IsReal (e i)) (heps : ∀ i, IsReal (eps i)) (hw1 : ∀ i, IsReal (w1 i))
    (hb1 : ∀ i, IsReal (b1 i)) (hw2 : ∀ i, IsReal (w2 i)) (hb2 : ∀ i, IsReal (b2 i))
    (hgam : ∀ i, IsReal (gam i)) (hbet : ∀ i, IsReal (bet i)) :
    ∀ i, IsReal (layerR G S eps w1 b1 w2 b2 gam bet l h e i) :=
  isReal_norm_varCentred gam bet l _ h
    (isReal_layer_mlp G S eps w1 b1 w2 b2 l h e hG hS hh he heps hw1 hb1 hw2 hb2) hh hgam hbet

/-- … and so does the kernel's form. -/
theorem isReal_layerK (h : A2 nN 64) (e : A2 nE 64)
    (hG : ∀ x : A2 nN 64, (∀ i, IsReal (x i)) → ∀ i, IsReal (G x i))
    (hS : ∀ u : A2 nE 64, (∀ i, IsReal (u i)) → ∀ i, IsReal (S u i))
    (hh : ∀ i, IsReal (h i)) (he : ∀ i, IsReal (e i)) (heps : ∀ i, IsReal (eps i)) (hw1 : ∀ i, IsReal (w1 i))
    (hb1 : ∀ i, IsReal (b1 i)) (hw2 : ∀ i, IsReal (w2 i)) (hb2 : ∀ i, IsReal (b2 i))
    (hgam : ∀ i, IsReal (gam i)) (hbet : ∀ i, IsReal (bet i)) :
    ∀ i, IsReal (layerK G S eps w1 b1 w2 b2 gam bet l h e i) := by
  rw [layerK_eq_layerR G S eps w1 b1 w2 b2 gam bet l h e hG hS hh he heps hw1 hb1 hw2 hb2]
  exact isReal_layerR G S eps w1 b1 w2 b2 gam bet l h e hG hS hh he heps hw1 hb1 hw2 hb2 hgam hbet

end Layer

end Cert.Spec

end
-- ==== Proof.SpecChain.lean ====
/-
  Two computations of the network's node features through the same stages agree.

  Both start from the encoders applied to the same argument arrays and apply four layers with the same gather, the
  same segment sum and the same parameters; one uses the kernel's form of a layer, the other the reference's. The
  encoders' outputs are equal and real-entried. If the features entering a layer are equal and real-entried, the
  kernel's form of the layer equals the reference's on them (the two column variances agree on real entries), so
  the features leaving it are equal, and they are real-entried again. Four steps give the last layer's features.
-/
import proofs.«127476_j62818191671466_2_alg».proof.Proof.SpecLaw

noncomputable section

namespace Cert.Spec

open Idealize.ShloMosaic Idealize.ShloMosaic.ValueIdx Cert.Lib.RealEntries

/-- One step: equal real-entried features go through the two forms of a layer to equal real-entried features. -/
theorem layer_step (G : A2 nN 64 → A2 nE 64) (S : A2 nE 64 → A2 nN 64) (eps : A1 4) (w1 : A3 4 64 128) (b1 : A2 4 128)
    (w2 : A3 4 128 64) (b2 : A2 4 64) (gam bet : A2 4 64) (l : Fin 4) (a b a' b' : A2 nN 64) (e e' : A2 nE 64)
    (hG : ∀ x : A2 nN 64, (∀ i, IsReal (x i)) → ∀ i, IsReal (G x i))
    (hS : ∀ u : A2 nE 64, (∀ i, IsReal (u i)) → ∀ i, IsReal (S u i))
    (heps : ∀ i, IsReal (eps i)) (hw1 : ∀ i, IsReal (w1 i)) (hb1 : ∀ i, IsReal (b1 i)) (hw2 : ∀ i, IsReal (w2 i))
    (hb2 : ∀ i, IsReal (b2 i)) (hgam : ∀ i, IsReal (gam i)) (hbet : ∀ i, IsReal (bet i))
    (hab : a = b) (ha : ∀ i, IsReal (a i)) (hee : e = e') (he : ∀ i, IsReal (e i))
    (ka : a' = layerK G S eps w1 b1 w2 b2 gam bet l a e) (kb : b' = layerR G S eps w1 b1 w2 b2 gam bet l b e') :
    a' = b' ∧ ∀ i, IsReal (a' i) := by
  subst hab hee
  have h := layerK_eq_layerR G S eps w1 b1 w2 b2 gam bet l a e hG hS ha he heps hw1 hb1 hw2 hb2
  refine ⟨ka.trans (h.trans kb.symm), ?_⟩
  rw [ka]
  exact isReal_layerK G S eps w1 b1 w2 b2 gam bet l a e hG hS ha he heps hw1 hb1 hw2 hb2 hgam hbet

/-- The four layers after the encoders: the kernel's features and the reference's agree at the end. -/
theorem features_agree (G : A2 nN 64 → A2 nE 64) (S : A2 nE 64 → A2 nN 64)
    (x : A2 nN 32) (nw : A2 32 64) (nb : A1 64) (ea : A2 nE 16) (ew : A2 16 64) (eb : A1 64)
    (eps : A1 4) (w1 : A3 4 64 128) (b1 : A2 4 128) (w2 : A3 4 128 64) (b2 : A2 4 64) (gam bet : A2 4 64)
    (hG : ∀ x : A2 nN 64, (∀ i, IsReal (x i)) → ∀ i, IsReal (G x i))
    (hS : ∀ u : A2 nE 64, (∀ i, IsReal (u i)) → ∀ i, IsReal (S u i))
    (hx : ∀ i, IsReal (x i)) (hnw : ∀ i, IsReal (nw i)) (hnb : ∀ i, IsReal (nb i)) (hea : ∀ i, IsReal (ea i))
    (hew : ∀ i, IsReal (ew i)) (heb : ∀ i, IsReal (eb i))
    (heps : ∀ i, IsReal (eps i)) (hw1 : ∀ i, IsReal (w1 i)) (hb1 : ∀ i, IsReal (b1 i)) (hw2 : ∀ i, IsReal (w2 i))
    (hb2 : ∀ i, IsReal (b2 i)) (hgam : ∀ i, IsReal (gam i)) (hbet : ∀ i, IsReal (bet i))
    (a0 a1 a2 a3 a4 b0 b1' b2' b3 b4 : A2 nN 64) (eK eR : A2 nE 64)
    (kN : a0 = encNode x nw nb) (kE : eK = encEdge ea ew eb)
    (k0 : a1 = layerK G S eps w1 b1 w2 b2 gam bet 0 a0 eK) (k1 : a2 = layerK G S eps w1 b1 w2 b2 gam bet 1 a1 eK)
    (k2 : a3 = layerK G S eps w1 b1 w2 b2 gam bet 2 a2 eK) (k3 : a4 = layerK G S eps w1 b1 w2 b2 gam bet 3 a3 eK)
    (rN : b0 = encNode x nw nb) (rE : eR = encEdge ea ew eb)
    (r0 : b1' = layerR G S eps w1 b1 w2 b2 gam bet 0 b0 eR) (r1 : b2' = layerR G S eps w1 b1 w2 b2 gam bet 1 b1' eR)
    (r2 : b3 = layerR G S eps w1 b1 w2 b2 gam bet 2 b2' eR) (r3 : b4 = layerR G S eps w1 b1 w2 b2 gam bet 3 b3 eR) :
    a4 = b4 := by
  have e0 : a0 = b0 := kN.trans rN.symm
  have ee : eK = eR := kE.trans rE.symm
  have ha0 : ∀ i, IsReal (a0 i) := by rw [kN]; exact isReal_encNode x nw nb hx hnw hnb
  have he : ∀ i, IsReal (eK i) := by rw [kE]; exact isReal_encEdge ea ew eb hea hew heb
  obtain ⟨e1, ha1⟩ := layer_step G S eps w1 b1 w2 b2 gam bet 0 a0 b0 a1 b1' eK eR hG hS heps hw1 hb1 hw2 hb2 hgam hbet
    e0 ha0 ee he k0 r0
  obtain ⟨e2, ha2⟩ := layer_step G S eps w1 b1 w2 b2 gam bet 1 a1 b1' a2 b2' eK eR hG hS heps hw1 hb1 hw2 hb2 hgam hbet
    e1 ha1 ee he k1 r1
  obtain ⟨e3, ha3⟩ := layer_step G S eps w1 b1 w2 b2 gam bet 2 a2 b2' a3 b3 eK eR hG hS heps hw1 hb1 hw2 hb2 hgam hbet
    e2 ha2 ee he k2 r2
  exact (layer_step G S eps w1 b1 w2 b2 gam bet 3 a3 b3 a4 b4 eK eR hG hS heps hw1 hb1 hw2 hb2 hgam hbet
    e3 ha3 ee he k3 r3).1

end Cert.Spec

end
-- ==== Proof.FiniteInputs.lean ====
/-
  The precondition read back: every float argument array has real entries.

  The precondition computes, for each float argument x, the conjunction over all entries of |x| < +∞, where
  |x| is max x (−x) and +∞ is the word 0x7F800000, and requires the conjunction of these seventeen bits to be 1.
  On the extended reals max x (−x) < ⊤ fails exactly at the two infinities (at ⊥ the maximum is −⊥ = ⊤), so it
  says that x is the image of a real. A conjunction folded over all entries that comes out 1 met a 1 at every
  entry, and a conjunction of bits is 1 only if each bit is.
-/
import proofs.«127476_j62818191671466_2_alg».proof.Pre_finite_inputs
import proofs.«127476_j62818191671466_2_alg».proof.Proof.LibRealEntries
import Idealize.ShloMosaic.Lib.ReduceAll
import Idealize.ShloMosaic.Lib.ValueIdx

noncomputable section

namespace Cert.Proof.Finite

open Idealize.ShloMosaic Idealize.ShloMosaic.ValueIdx Cert.Lib.RealEntries Cert.Pre_finite_inputs

/-- The scalar shape has one index. -/
instance subsingleton_scalar_idx : Subsingleton S_.Idx := ⟨fun a b => funext fun d => d.elim0⟩

/-- The word 0x7F800000 is +∞. -/
theorem ofBits_f32_inf : Ideal.ofBits .f32 0x7F800000#32 = ⊤ := by simp [Ideal.ofBits, Ideal.ieee]

/-- An extended real whose absolute value is below +∞ is the image of a real. -/
theorem isReal_of_abs_lt_inf (x : EReal)
    (h : Ideal.cmp .olt (max x (-x)) (Ideal.ofBits .f32 0x7F800000#32) = 1#1) : IsReal x := by
  rw [ofBits_f32_inf] at h
  induction x using EReal.rec with
  | bot => simp [Ideal.cmp] at h
  | top => simp [Ideal.cmp] at h
  | coe r => exact ⟨r, rfl⟩

/-- One conjunct of the precondition: if "all entries have absolute value below +∞" is 1, every entry of the
    array is the image of a real. -/
theorem isReal_of_all_finite {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ix0 = 1#1) (i : S.Idx) : IsReal (x i) :=
  isReal_of_abs_lt_inf (x i) (Host.reduce_andi_all _ _ hr hu ix0 e i)

variable [Facts]

/-- The precondition at the exact values says every float argument array has real entries. -/
theorem real_entries (a0 : FVec Ideal S100000x32 .f32) (a1 : FVec Ideal S1000000x16 .f32) (a2 : IVec S2x1000000 32)
    (a3 : IVec S100000 32) (a4 : FVec Ideal S32x64 .f32) (a5 : FVec Ideal S64 .f32) (a6 : FVec Ideal S16x64 .f32)
    (a7 : FVec Ideal S64 .f32) (a8 : FVec Ideal S4 .f32) (a9 : FVec Ideal S4x64x128 .f32) (a10 : FVec Ideal S4x128 .f32)
    (a11 : FVec Ideal S4x128x64 .f32) (a12 : FVec Ideal S4x64 .f32) (a13 : FVec Ideal S4x64 .f32)
    (a14 : FVec Ideal S4x64 .f32) (a15 : FVec Ideal S64x32 .f32) (a16 : FVec Ideal S32 .f32)
    (a17 : FVec Ideal S32x10 .f32) (a18 : FVec Ideal S10 .f32)
    (h : fn (F := Ideal) a0 a1 a2 a3 a4 a5 a6 a7 a8 a9 a10 a11 a12 a13 a14 a15 a16 a17 a18 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) ∧ (∀ i, IsReal (a16 i)) ∧ (∀ i, IsReal (a17 i)) ∧ (∀ i, IsReal (a18 i)) := by
  have h0 := congrFun h ix0
  simp only [fn, fn_part1, fn_part2, fn_part3, fn_part4, andi, IntOp.andi_eq_one] at h0
  obtain ⟨⟨⟨⟨⟨⟨⟨⟨⟨⟨⟨⟨⟨⟨⟨⟨e0, e1⟩, e4⟩, e5⟩, e6⟩, e7⟩, e8⟩, e9⟩, e10⟩, e11⟩, e12⟩, e13⟩, e14⟩, e15⟩, e16⟩, e17⟩, e18⟩ := h0
  exact ⟨isReal_of_all_finite a0 _ _ _ e0, isReal_of_all_finite a1 _ _ _ e1, isReal_of_all_finite a4 _ _ _ e4,
    isReal_of_all_finite a5 _ _ _ e5, isReal_of_all_finite a6 _ _ _ e6, isReal_of_all_finite a7 _ _ _ e7,
    isReal_of_all_finite a8 _ _ _ e8, isReal_of_all_finite a9 _ _ _ e9, isReal_of_all_finite a10 _ _ _ e10,
    isReal_of_all_finite a11 _ _ _ e11, isReal_of_all_finite a12 _ _ _ e12, isReal_of_all_finite a13 _ _ _ e13,
    isReal_of_all_finite a14 _ _ _ e14, isReal_of_all_finite a15 _ _ _ e15, isReal_of_all_finite a16 _ _ _ e16,
    isReal_of_all_finite a17 _ _ _ e17, isReal_of_all_finite a18 _ _ _ e18⟩

end Cert.Proof.Finite

end
-- ==== Proof.FiniteInputsKernel.lean ====
/-
  The kernel program's precondition, read back at its argument arrays: on every device each float argument
  array of the launch memory has real entries. The precondition is the finiteness predicate applied to the
  launch memory's argument arrays, so this is that predicate's reading applied to them.
-/
import proofs.«127476_j62818191671466_2_alg».proof.Defs
import proofs.«127476_j62818191671466_2_alg».proof.Proof.FiniteInputs

noncomputable section

namespace Cert.Proof.Finite

open Idealize.ShloMosaic Idealize.SL.Sem Cert.Lib.RealEntries

variable [Cert.Pre_finite_inputs.Facts]

theorem real_entries_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i)) :=
  real_entries _ _ _ _ _ _ _ _ _ _ _ _ _ _ _ _ _ _ _ (h c)

end Cert.Proof.Finite

end
-- ==== Proof.LibRealOps.lean ====
/-
  Images of reals through the exact array operations.

  At the exact (extended-real) reading a matrix product is, entry by entry, an accumulator entry plus a finite sum
  of products; a reduction over some axes is a start value plus a finite sum of the entries reducing to an index;
  an accumulating scatter is an operand entry plus a finite sum of the update entries landing on it. Each is
  built from sums and products only, so each keeps "every entry is the image of a real". The last lemmas do the
  same for the normalisation's affine step and the rectified residual step.
-/
import proofs.«127476_j62818191671466_2_alg».proof.Proof.LibRealEntries

noncomputable section

namespace Cert.Lib.RealEntries

open Idealize.ShloMosaic

/-- A matrix product onto a real-entried accumulator, of real-entried operands, is real-entried. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j))
    (j : so.Idx) : IsReal (Ideal.matmul d lhs rhs acc j) :=
  (ha j).add_sum_mul _ _ (fun _ => hl _) (fun _ => hr _)

/-- The same onto the zero accumulator: the host's product. -/
theorem isReal_matmul_zero {sl sr so : Shape} (d : DotDims sl sr so) (lhs : sl.Idx → EReal) (rhs : sr.Idx → EReal)
    (hl : ∀ i, IsReal (lhs i)) (hr : ∀ i, IsReal (rhs i)) (j : so.Idx) :
    IsReal (Ideal.matmul d lhs rhs (fun _ => 0) j) :=
  isReal_matmul d lhs rhs _ hl hr (fun _ => isReal_zero) j

/-- The product with no accumulator. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  IsReal.sum_mul _ _ (fun _ => hl _) (fun _ => hr _)

/-- A host sum over some axes, from a real start value, of a real-entried array is real-entried. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (IsReal.sum _ x fun i _ => hx i)

/-- A kernel's sum over some axes of a real-entried array is real-entried. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  IsReal.sum _ x fun i _ => hx i

/-- An accumulating scatter of real-entried updates into a real-entried operand is real-entried, whatever
    the indices. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (IsReal.sum _ upd fun j _ => hu j)

/-- The normalisation's affine step (z − mean) · scale · γ + β on images of reals. -/
theorem isReal_affine {z mean scale γ β : EReal} (hz : IsReal z) (hm : IsReal mean) (hs : IsReal scale)
    (hγ : IsReal γ) (hβ : IsReal β) : IsReal ((z - mean) * scale * γ + β) :=
  (((hz.sub hm).mul hs).mul hγ).add hβ

/-- … followed by the rectified residual step max (· + h) 0. -/
theorem isReal_affine_residual_relu {z mean scale γ β h : EReal} (hz : IsReal z) (hm : IsReal mean)
    (hs : IsReal scale) (hγ : IsReal γ) (hβ : IsReal β) (hh : IsReal h) :
    IsReal (max ((z - mean) * scale * γ + β + h) 0) :=
  ((isReal_affine hz hm hs hγ hβ).add hh).relu

/-- The message step max (a + b) 0 and the update step (1 + ε) · h + a on images of reals. -/
theorem isReal_add_relu {a b : EReal} (ha : IsReal a) (hb : IsReal b) : IsReal (max (a + b) 0) :=
  (ha.add hb).relu

theorem isReal_one_add_mul_add {ε h a : EReal} (hε : IsReal ε) (hh : IsReal h) (ha : IsReal a) :
    IsReal ((1 + ε) * h + a) :=
  ((isReal_one.add hε).mul hh).add ha

/-- A count of members, 1 summed over the members with a label, clamped below at 1, is the image of a real
    that is at least one, hence not zero: the divisor of a mean over a segment. -/
theorem max_one_ne_zero {c : EReal} : max c 1 ≠ 0 := by
  intro h
  have h1 : (1 : EReal) ≤ max c 1 := le_max_right c 1
  rw [h] at h1
  exact absurd h1 (by norm_num)

/-- So a real-entried segment sum divided by such a clamped real count is the image of a real. -/
theorem isReal_div_max_one {x c : EReal} (hx : IsReal x) (hc : IsReal c) : IsReal (Ideal.div x (max c 1)) :=
  hx.div (hc.max isReal_one) max_one_ne_zero

/-- The host's accumulating scatter, as the programs spell it, keeps entries real. -/
theorem isReal_scatterAdd {s si su : Shape} (d : ScatterDims s si su) {w : Nat} (x : FVec Ideal s .f32)
    (hx : ∀ i, IsReal (x i)) (idx : IVec si w) (u : FVec Ideal su .f32) (hu : ∀ j, IsReal (u j)) (i : s.Idx) :
    IsReal (Host.scatterAdd (F := Ideal) d x idx u i) :=
  isReal_hostScatterAdd d x idx u hx hu i

/-- The splat of the zero word has real entries. -/
theorem isReal_zero_splat {s : Shape} (hb : (⟨0, ![]⟩ : Shape).BroadcastsInDim s (![] : Fin 0 → Fin s.rank)) (i : s.Idx) :
    IsReal (broadcastInDim s (![] : Fin 0 → Fin s.rank) hb (constant (F := Ideal) ⟨0, ![]⟩ .f32 0x00000000#32) i) :=
  isReal_ofBits_f32_zero

end Cert.Lib.RealEntries

end
-- ==== Proof.AlgebraicCore.lean ====
/-
  The two programs compute the same result from agreeing real-entried arguments, given that each program's
  stages are the network's stages.

  Both programs run the two encoders, four layers and the network's end on their argument arrays. Their arguments
  agree, so the encoders see equal arrays; the gather and the segment sum are the same host functions of equal
  index columns (rows 0 and 1 of the edge list), so they are equal functions; the precondition makes every float
  argument real-entried, a gather only reads entries and a segment sum only adds them onto zero, so both keep
  entries real. The layers then agree one after the other (the kernel's form of a layer equals the reference's on
  real entries), and the network's end is one function of the last features and the arguments in both programs.
-/
import proofs.«127476_j62818191671466_2_alg».proof.Proof.AlgK
import proofs.«127476_j62818191671466_2_alg».proof.Proof.AlgR
import proofs.«127476_j62818191671466_2_alg».proof.Proof.SpecChain
import proofs.«127476_j62818191671466_2_alg».proof.Proof.FiniteInputsKernel
import proofs.«127476_j62818191671466_2_alg».proof.Proof.LibRealOps

noncomputable section

namespace Cert.Proof.Algebraic

open Idealize.ShloMosaic Idealize.ShloMosaic.TcCoe Idealize.SL.Sem Cert.Lib.RealEntries Cert.Proof.Finite

/-- The two programs' launch memories. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- The arguments the two sides read outside the layers, at literal shapes: the edge list, the nodes' graph numbers
    and the output perceptron's parameters, of the kernel program's memory and of the reference program's. -/
def kA2 (m : KMem) (c : Dev Cert.KernelIdeal.nD) : IVec ⟨2, ![2, 1000000]⟩ 32 := m (c, Cert.KernelIdeal.main_arg2)
def kA3 (m : KMem) (c : Dev Cert.KernelIdeal.nD) : IVec ⟨1, ![100000]⟩ 32 := m (c, Cert.KernelIdeal.main_arg3)
def kA15 (m : KMem) (c : Dev Cert.KernelIdeal.nD) : FVec Ideal ⟨2, ![64, 32]⟩ .f32 := m (c, Cert.KernelIdeal.main_arg15)
def kA16 (m : KMem) (c : Dev Cert.KernelIdeal.nD) : FVec Ideal ⟨1, ![32]⟩ .f32 := m (c, Cert.KernelIdeal.main_arg16)
def kA17 (m : KMem) (c : Dev Cert.KernelIdeal.nD) : FVec Ideal ⟨2, ![32, 10]⟩ .f32 := m (c, Cert.KernelIdeal.main_arg17)
def kA18 (m : KMem) (c : Dev Cert.KernelIdeal.nD) : FVec Ideal ⟨1, ![10]⟩ .f32 := m (c, Cert.KernelIdeal.main_arg18)
def rA2 (m : RMem) (c : Dev Cert.ReferenceIdeal.nD) : IVec ⟨2, ![2, 1000000]⟩ 32 := m (c, Cert.ReferenceIdeal.main_arg2)
def rA3 (m : RMem) (c : Dev Cert.ReferenceIdeal.nD) : IVec ⟨1, ![100000]⟩ 32 := m (c, Cert.ReferenceIdeal.main_arg3)
def rA15 (m : RMem) (c : Dev Cert.ReferenceIdeal.nD) : FVec Ideal ⟨2, ![64, 32]⟩ .f32 := m (c, Cert.ReferenceIdeal.main_arg15)
def rA16 (m : RMem) (c : Dev Cert.ReferenceIdeal.nD) : FVec Ideal ⟨1, ![32]⟩ .f32 := m (c, Cert.ReferenceIdeal.main_arg16)
def rA17 (m : RMem) (c : Dev Cert.ReferenceIdeal.nD) : FVec Ideal ⟨2, ![32, 10]⟩ .f32 := m (c, Cert.ReferenceIdeal.main_arg17)
def rA18 (m : RMem) (c : Dev Cert.ReferenceIdeal.nD) : FVec Ideal ⟨1, ![10]⟩ .f32 := m (c, Cert.ReferenceIdeal.main_arg18)

/-- The network's end is the same function in both programs. -/
theorem tail_same (h : FVec Ideal Cert.KernelIdeal.S100000x64 .f32) (a3 : IVec Cert.KernelIdeal.S100000 32)
    (a15 : FVec Ideal Cert.KernelIdeal.S64x32 .f32) (a16 : FVec Ideal Cert.KernelIdeal.S32 .f32)
    (a17 : FVec Ideal Cert.KernelIdeal.S32x10 .f32) (a18 : FVec Ideal Cert.KernelIdeal.S10 .f32) :
    Cert.ReferenceIdeal.ValueP.tailFn h a3 a15 a16 a17 a18 = Cert.KernelIdeal.Gen.tailFn h a3 a15 a16 a17 a18 := by
  unfold Cert.ReferenceIdeal.ValueP.tailFn Cert.KernelIdeal.Gen.tailFn
  rfl

/-- A function of six arguments takes equal arguments to equal values. -/
theorem congr6 {α β γ δ ε ζ η : Type} (f : α → β → γ → δ → ε → ζ → η) {a a' : α} {b b' : β} {c c' : γ} {d d' : δ}
    {e e' : ε} {g g' : ζ} (ha : a = a') (hb : b = b') (hc : c = c') (hd : d = d') (he : e = e') (hg : g = g') :
    f a b c d e g = f a' b' c' d' e' g' := by
  subst ha hb hc hd he hg
  rfl

/-- A gather of rows reads entries of its operand, so it keeps entries real. -/
theorem isReal_gatherK (m : KMem) (c : Dev Cert.KernelIdeal.nD) (x : Spec.A2 Spec.nN 64) (hx : ∀ i, IsReal (x i)) :
    ∀ i, IsReal (Cert.KernelIdeal.Gen.gatherK m c x i) := by
  intro i
  unfold Cert.KernelIdeal.Gen.gatherK Host.gather
  exact hx _

/-- A segment sum adds entries of its operand onto zero, so it keeps entries real. -/
theorem isReal_scatterK (m : KMem) (c : Dev Cert.KernelIdeal.nD) (u : Spec.A2 Spec.nE 64) (hu : ∀ i, IsReal (u i)) :
    ∀ i, IsReal (Cert.KernelIdeal.Gen.scatterK m c u i) :=
  fun i => isReal_scatterAdd _ _ (fun j => isReal_zero_splat Cert.KernelIdeal.Gen.bcast_S_S100000x64 j) _ u hu i

/-- Equal edge lists give the same gather of source-node rows in both programs. -/
theorem gather_eq (m : KMem) (m' : RMem) (c : Dev Cert.KernelIdeal.nD) (g2 : rA2 m' c = kA2 m c) :
    Cert.ReferenceIdeal.ValueP.gatherR m' c = Cert.KernelIdeal.Gen.gatherK m c := by
  funext x
  rw [R.gatherR_eq m' c x, K.gatherK_eq m c x]
  show Host.gather Cert.ReferenceIdeal.gather_S100000x64_S1000000x1_S1000000x64_1_0_n_n_0_1_164 x
        (Cert.ReferenceIdeal.ValueP.gatherIdx (srcRow (rA2 m' c)))
      = Host.gather Cert.KernelIdeal.gather_S100000x64_S1000000x1_S1000000x64_1_0_n_n_0_1_164 x
        (Cert.KernelIdeal.Gen.gatherIdx (srcRow (kA2 m c)))
  rw [g2]
  unfold Cert.ReferenceIdeal.ValueP.gatherIdx Cert.KernelIdeal.Gen.gatherIdx
  rfl

/-- Equal edge lists give the same sum at target nodes in both programs. -/
theorem scatter_eq (m : KMem) (m' : RMem) (c : Dev Cert.KernelIdeal.nD) (g2 : rA2 m' c = kA2 m c) :
    Cert.ReferenceIdeal.ValueP.scatterR m' c = Cert.KernelIdeal.Gen.scatterK m c := by
  funext u
  rw [R.scatterR_eq m' c u, K.scatterK_eq m c u]
  show Host.scatterAdd (F := Ideal) Cert.ReferenceIdeal.scatter_S100000x64_S1000000x1_S1000000x64_1_0_0_1 _
        (broadcastInDim Cert.ReferenceIdeal.S1000000x1 ![0] Cert.ReferenceIdeal.Gen.bcast_S1000000_S1000000x1_0 (dstRow (rA2 m' c))) u
      = Host.scatterAdd (F := Ideal) Cert.KernelIdeal.scatter_S100000x64_S1000000x1_S1000000x64_1_0_0_1 _
        (broadcastInDim Cert.KernelIdeal.S1000000x1 ![0] Cert.KernelIdeal.Gen.bcast_S1000000_S1000000x1_0 (dstRow (kA2 m c))) u
  rw [g2]
  rfl

variable [Cert.Pre_finite_inputs.Facts]

/-- The value claim from the stage equations. -/
theorem value_eq_of_stages (m : KMem) (m' : RMem) (c : Dev Cert.KernelIdeal.nD) (hpre : Cert.Pre_KernelIdeal m)
    (g0 : Cert.ReferenceIdeal.ValueP.argX m' c = Cert.KernelIdeal.Gen.argX m c) (g1 : Cert.ReferenceIdeal.ValueP.argEA m' c = Cert.KernelIdeal.Gen.argEA m c)
    (g2 : rA2 m' c = kA2 m c) (g3 : rA3 m' c = kA3 m c)
    (g4 : Cert.ReferenceIdeal.ValueP.argNW m' c = Cert.KernelIdeal.Gen.argNW m c)
    (g5 : Cert.ReferenceIdeal.ValueP.argNB m' c = Cert.KernelIdeal.Gen.argNB m c)
    (g6 : Cert.ReferenceIdeal.ValueP.argEW m' c = Cert.KernelIdeal.Gen.argEW m c)
    (g7 : Cert.ReferenceIdeal.ValueP.argEB m' c = Cert.KernelIdeal.Gen.argEB m c)
    (g8 : Cert.ReferenceIdeal.ValueP.argEps m' c = Cert.KernelIdeal.Gen.argEps m c)
    (g9 : Cert.ReferenceIdeal.ValueP.argW1 m' c = Cert.KernelIdeal.Gen.argW1 m c)
    (g10 : Cert.ReferenceIdeal.ValueP.argB1 m' c = Cert.KernelIdeal.Gen.argB1 m c)
    (g11 : Cert.ReferenceIdeal.ValueP.argW2 m' c = Cert.KernelIdeal.Gen.argW2 m c)
    (g12 : Cert.ReferenceIdeal.ValueP.argB2 m' c = Cert.KernelIdeal.Gen.argB2 m c)
    (g13 : Cert.ReferenceIdeal.ValueP.argGam m' c = Cert.KernelIdeal.Gen.argGam m c)
    (g14 : Cert.ReferenceIdeal.ValueP.argBet m' c = Cert.KernelIdeal.Gen.argBet m c)
    (g15 : rA15 m' c = kA15 m c) (g16 : rA16 m' c = kA16 m c) (g17 : rA17 m' c = kA17 m c) (g18 : rA18 m' c = kA18 m c)
    (kN : Cert.KernelIdeal.Gen.hK0 m c = Spec.encNode (Cert.KernelIdeal.Gen.argX m c) (Cert.KernelIdeal.Gen.argNW m c) (Cert.KernelIdeal.Gen.argNB m c))
    (kE : Cert.KernelIdeal.Gen.eK m c = Spec.encEdge (Cert.KernelIdeal.Gen.argEA m c) (Cert.KernelIdeal.Gen.argEW m c) (Cert.KernelIdeal.Gen.argEB m c))
    (k0 : Cert.KernelIdeal.Gen.hK1 m c = Spec.layerK (Cert.KernelIdeal.Gen.gatherK m c) (Cert.KernelIdeal.Gen.scatterK m c) (Cert.KernelIdeal.Gen.argEps m c) (Cert.KernelIdeal.Gen.argW1 m c) (Cert.KernelIdeal.Gen.argB1 m c) (Cert.KernelIdeal.Gen.argW2 m c) (Cert.KernelIdeal.Gen.argB2 m c) (Cert.KernelIdeal.Gen.argGam m c) (Cert.KernelIdeal.Gen.argBet m c) 0 (Cert.KernelIdeal.Gen.hK0 m c) (Cert.KernelIdeal.Gen.eK m c))
    (k1 : Cert.KernelIdeal.Gen.hK2 m c = Spec.layerK (Cert.KernelIdeal.Gen.gatherK m c) (Cert.KernelIdeal.Gen.scatterK m c) (Cert.KernelIdeal.Gen.argEps m c) (Cert.KernelIdeal.Gen.argW1 m c) (Cert.KernelIdeal.Gen.argB1 m c) (Cert.KernelIdeal.Gen.argW2 m c) (Cert.KernelIdeal.Gen.argB2 m c) (Cert.KernelIdeal.Gen.argGam m c) (Cert.KernelIdeal.Gen.argBet m c) 1 (Cert.KernelIdeal.Gen.hK1 m c) (Cert.KernelIdeal.Gen.eK m c))
    (k2 : Cert.KernelIdeal.Gen.hK3 m c = Spec.layerK (Cert.KernelIdeal.Gen.gatherK m c) (Cert.KernelIdeal.Gen.scatterK m c) (Cert.KernelIdeal.Gen.argEps m c) (Cert.KernelIdeal.Gen.argW1 m c) (Cert.KernelIdeal.Gen.argB1 m c) (Cert.KernelIdeal.Gen.argW2 m c) (Cert.KernelIdeal.Gen.argB2 m c) (Cert.KernelIdeal.Gen.argGam m c) (Cert.KernelIdeal.Gen.argBet m c) 2 (Cert.KernelIdeal.Gen.hK2 m c) (Cert.KernelIdeal.Gen.eK m c))
    (k3 : Cert.KernelIdeal.Gen.hK4 m c = Spec.layerK (Cert.KernelIdeal.Gen.gatherK m c) (Cert.KernelIdeal.Gen.scatterK m c) (Cert.KernelIdeal.Gen.argEps m c) (Cert.KernelIdeal.Gen.argW1 m c) (Cert.KernelIdeal.Gen.argB1 m c) (Cert.KernelIdeal.Gen.argW2 m c) (Cert.KernelIdeal.Gen.argB2 m c) (Cert.KernelIdeal.Gen.argGam m c) (Cert.KernelIdeal.Gen.argBet m c) 3 (Cert.KernelIdeal.Gen.hK3 m c) (Cert.KernelIdeal.Gen.eK m c))
    (rN : Cert.ReferenceIdeal.ValueP.hR0 m' c = Spec.encNode (Cert.ReferenceIdeal.ValueP.argX m' c) (Cert.ReferenceIdeal.ValueP.argNW m' c) (Cert.ReferenceIdeal.ValueP.argNB m' c))
    (rE : Cert.ReferenceIdeal.ValueP.eR m' c = Spec.encEdge (Cert.ReferenceIdeal.ValueP.argEA m' c) (Cert.ReferenceIdeal.ValueP.argEW m' c) (Cert.ReferenceIdeal.ValueP.argEB m' c))
    (r0 : Cert.ReferenceIdeal.ValueP.hR1 m' c = Spec.layerR (Cert.ReferenceIdeal.ValueP.gatherR m' c) (Cert.ReferenceIdeal.ValueP.scatterR m' c) (Cert.ReferenceIdeal.ValueP.argEps m' c) (Cert.ReferenceIdeal.ValueP.argW1 m' c) (Cert.ReferenceIdeal.ValueP.argB1 m' c) (Cert.ReferenceIdeal.ValueP.argW2 m' c) (Cert.ReferenceIdeal.ValueP.argB2 m' c) (Cert.ReferenceIdeal.ValueP.argGam m' c) (Cert.ReferenceIdeal.ValueP.argBet m' c) 0 (Cert.ReferenceIdeal.ValueP.hR0 m' c) (Cert.ReferenceIdeal.ValueP.eR m' c))
    (r1 : Cert.ReferenceIdeal.ValueP.hR2 m' c = Spec.layerR (Cert.ReferenceIdeal.ValueP.gatherR m' c) (Cert.ReferenceIdeal.ValueP.scatterR m' c) (Cert.ReferenceIdeal.ValueP.argEps m' c) (Cert.ReferenceIdeal.ValueP.argW1 m' c) (Cert.ReferenceIdeal.ValueP.argB1 m' c) (Cert.ReferenceIdeal.ValueP.argW2 m' c) (Cert.ReferenceIdeal.ValueP.argB2 m' c) (Cert.ReferenceIdeal.ValueP.argGam m' c) (Cert.ReferenceIdeal.ValueP.argBet m' c) 1 (Cert.ReferenceIdeal.ValueP.hR1 m' c) (Cert.ReferenceIdeal.ValueP.eR m' c))
    (r2 : Cert.ReferenceIdeal.ValueP.hR3 m' c = Spec.layerR (Cert.ReferenceIdeal.ValueP.gatherR m' c) (Cert.ReferenceIdeal.ValueP.scatterR m' c) (Cert.ReferenceIdeal.ValueP.argEps m' c) (Cert.ReferenceIdeal.ValueP.argW1 m' c) (Cert.ReferenceIdeal.ValueP.argB1 m' c) (Cert.ReferenceIdeal.ValueP.argW2 m' c) (Cert.ReferenceIdeal.ValueP.argB2 m' c) (Cert.ReferenceIdeal.ValueP.argGam m' c) (Cert.ReferenceIdeal.ValueP.argBet m' c) 2 (Cert.ReferenceIdeal.ValueP.hR2 m' c) (Cert.ReferenceIdeal.ValueP.eR m' c))
    (r3 : Cert.ReferenceIdeal.ValueP.hR4 m' c = Spec.layerR (Cert.ReferenceIdeal.ValueP.gatherR m' c) (Cert.ReferenceIdeal.ValueP.scatterR m' c) (Cert.ReferenceIdeal.ValueP.argEps m' c) (Cert.ReferenceIdeal.ValueP.argW1 m' c) (Cert.ReferenceIdeal.ValueP.argB1 m' c) (Cert.ReferenceIdeal.ValueP.argW2 m' c) (Cert.ReferenceIdeal.ValueP.argB2 m' c) (Cert.ReferenceIdeal.ValueP.argGam m' c) (Cert.ReferenceIdeal.ValueP.argBet m' c) 3 (Cert.ReferenceIdeal.ValueP.hR3 m' c) (Cert.ReferenceIdeal.ValueP.eR m' c)) :
    StableHlo.after (Cert.ReferenceIdeal.ValueP.ops (F := Ideal)) (StableHlo.launchContents m' c)
        (Proc.devRef .tc Cert.ReferenceIdeal.main_v297)
      = Cert.KernelIdeal.Gen.B31 m c Cert.KernelIdeal.main_v200 := by
  obtain ⟨p0, p1, p4, p5, p6, p7, p8, p9, p10, p11, p12, p13, p14, -, -, -, -⟩ := real_entries_of_pre m hpre c
  have hGeq : Cert.ReferenceIdeal.ValueP.gatherR m' c = Cert.KernelIdeal.Gen.gatherK m c := gather_eq m m' c g2
  have hSeq : Cert.ReferenceIdeal.ValueP.scatterR m' c = Cert.KernelIdeal.Gen.scatterK m c := scatter_eq m m' c g2
  rw [g0, g4, g5] at rN
  rw [g1, g6, g7] at rE
  rw [hGeq, hSeq, g8, g9, g10, g11, g12, g13, g14] at r0 r1 r2 r3
  have h4 : Cert.KernelIdeal.Gen.hK4 m c = Cert.ReferenceIdeal.ValueP.hR4 m' c :=
    Spec.features_agree (Cert.KernelIdeal.Gen.gatherK m c) (Cert.KernelIdeal.Gen.scatterK m c) (Cert.KernelIdeal.Gen.argX m c) (Cert.KernelIdeal.Gen.argNW m c) (Cert.KernelIdeal.Gen.argNB m c)
      (Cert.KernelIdeal.Gen.argEA m c) (Cert.KernelIdeal.Gen.argEW m c) (Cert.KernelIdeal.Gen.argEB m c) (Cert.KernelIdeal.Gen.argEps m c) (Cert.KernelIdeal.Gen.argW1 m c) (Cert.KernelIdeal.Gen.argB1 m c) (Cert.KernelIdeal.Gen.argW2 m c) (Cert.KernelIdeal.Gen.argB2 m c) (Cert.KernelIdeal.Gen.argGam m c) (Cert.KernelIdeal.Gen.argBet m c)
      (isReal_gatherK m c) (isReal_scatterK m c) p0 p4 p5 p1 p6 p7 p8 p9 p10 p11 p12 p13 p14
      (Cert.KernelIdeal.Gen.hK0 m c) (Cert.KernelIdeal.Gen.hK1 m c) (Cert.KernelIdeal.Gen.hK2 m c) (Cert.KernelIdeal.Gen.hK3 m c) (Cert.KernelIdeal.Gen.hK4 m c)
      (Cert.ReferenceIdeal.ValueP.hR0 m' c) (Cert.ReferenceIdeal.ValueP.hR1 m' c) (Cert.ReferenceIdeal.ValueP.hR2 m' c) (Cert.ReferenceIdeal.ValueP.hR3 m' c) (Cert.ReferenceIdeal.ValueP.hR4 m' c) (Cert.KernelIdeal.Gen.eK m c) (Cert.ReferenceIdeal.ValueP.eR m' c)
      kN kE k0 k1 k2 k3 rN rE r0 r1 r2 r3
  rw [R.result_eq, K.result_eq]
  exact (tail_same _ _ _ _ _ _).trans (congr6 Cert.KernelIdeal.Gen.tailFn h4.symm g3 g15 g16 g17 g18)

end Cert.Proof.Algebraic

end
-- ==== Proof.Final0.lean ====
/- The array the pipeline of custom_call 0 leaves in its output window, index by index, as a function of the arrays
   its three input windows read, in exact arithmetic: every row block of 10000 rows is written once, by the grid point
   of that number, with relu of the block's rows times the 32 x 64 matrix plus the one-row bias; the matrix and the
   bias are read whole at every point. -/
import proofs.«127476_j62818191671466_2_alg».proof.Proof.Region0
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zeroOff0 : (![0, 0] : Fin 2 → Nat) = fun _ => 0 := funext fun a => by fin_cases a <;> rfl

/-- One output element, in exact arithmetic: relu of the dot product of a row of 32 entries with a column of 32
    entries plus the bias entry. -/
abbrev nodeSum0 (l r : Fin 32 → Ideal .f32) (b : Ideal .f32) : Ideal .f32 := max ((∑ k : Fin 32, l k * r k) + b) 0

/-- The output at row p and column q: relu of row p of x times column q of w plus b at column q. -/
abbrev nodeAt0 {n : Nat} (x : FVec Ideal ⟨2, ![n, 32]⟩ .f32) (w : FVec Ideal S32x64 .f32) (b : FVec Ideal S1x64 .f32)
    (p : Fin n) (q : Fin 64) : Ideal .f32 :=
  nodeSum0 (fun k => x (ix2 p k)) (fun k => w (ix2 k q)) (b (ix2 0 q))

/-- What the output array holds in the end. -/
abbrev nodeVal0 (x : FVec Ideal S100000x32 .f32) (w : FVec Ideal S32x64 .f32) (b : FVec Ideal S1x64 .f32) :
    FVec Ideal S100000x64 .f32 :=
  fun i => nodeAt0 x w b (i 0) (i 1)

/-- A one-row vector broadcast down the 10000 rows reads, at an index, the row's entry of the index's column. -/
theorem nodeRow0 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The block's matrix product into the zero accumulator, read at an index: the sum over the one contracted
    coordinate of the products of the entries. -/
theorem nodeDot0 (A : FVec Ideal S10000x32 .bf16) (B : FVec Ideal S32x64 .bf16) (a : Fin 10000) (b : Fin 64) :
    matmul dot_S10000x32_S32x64_S10000x64_1_0_0_1_n_n none A B (constant S10000x64 .f32 0x00000000#32) (ix2 a b)
      = ∑ k : Fin 32, A (ix2 a k) * B (ix2 k b) := by
  show FloatOps.matmul dot_S10000x32_S32x64_S10000x64_1_0_0_1_n_n none A B (constant S10000x64 .f32 0x00000000#32) (ix2 a b) = _
  rw [Ideal.matmul_constant_zero_apply,
    ← Equiv.sum_comp (contrEquiv1 dot_S10000x32_S32x64_S10000x64_1_0_0_1_n_n 32 rfl rfl).symm]
  refine Finset.sum_congr rfl fun k _ => ?_
  have ck := contrEquiv1_symm_val dot_S10000x32_S32x64_S10000x64_1_0_0_1_n_n 32 rfl rfl k
  have hl : dot_S10000x32_S32x64_S10000x64_1_0_0_1_n_n.lhsIdx (ix2 a b) ((contrEquiv1 _ 32 rfl rfl).symm k) = ix2 a k := by
    funext ax; apply Fin.ext
    match ax with
    | ⟨0, _⟩ => simp [DotDims.lhsIdx, dot_S10000x32_S32x64_S10000x64_1_0_0_1_n_n]; rfl
    | ⟨1, _⟩ => simp [DotDims.lhsIdx, dot_S10000x32_S32x64_S10000x64_1_0_0_1_n_n]; exact ck
  have hr : dot_S10000x32_S32x64_S10000x64_1_0_0_1_n_n.rhsIdx (ix2 a b) ((contrEquiv1 _ 32 rfl rfl).symm k) = ix2 k b := by
    funext ax; apply Fin.ext
    match ax with
    | ⟨0, _⟩ => simp [DotDims.rhsIdx, dot_S10000x32_S32x64_S10000x64_1_0_0_1_n_n]; exact ck
    | ⟨1, _⟩ => simp [DotDims.rhsIdx, dot_S10000x32_S32x64_S10000x64_1_0_0_1_n_n]; rfl
  rw [hl, hr]

/-- The body's stored value at an index: the two roundings to the narrower format are the identity on exact values,
    the shape cast is the identity, the broadcast reads the row, and the constant word of the maximum is the number zero. -/
theorem nodePay0_eq (x0 : Vec Ideal S10000x32 .f32) (x1 : Vec Ideal S32x64 .f32) (x2 : Vec Ideal S1x64 .f32)
    (a : Fin 10000) (b : Fin 64) :
    k0_pay1 x0 x1 x2 (ix2 a b) = nodeAt0 x0 x1 x2 a b := by
  unfold k0_pay1
  simp only [shapeCast_self]
  show max (matmul dot_S10000x32_S32x64_S10000x64_1_0_0_1_n_n none (truncf (F := Ideal) .bf16 x0 bitsLt_bf16_f32)
      (truncf (F := Ideal) .bf16 x1 bitsLt_bf16_f32) (constant S10000x64 .f32 0x00000000#32) (ix2 a b)
    + broadcastTo S10000x64 x2 broadcasts_S1x64_S10000x64 (ix2 a b)) (Ideal.ofBits .f32 0x00000000#32) = _
  rw [nodeRow0, nodeDot0, Ideal.ofBits_zero_f32]
  rfl

/-- The printed index maps, decided over the 10 grid points: the row-blocked input and the output are at row block
    t, column block 0; the matrix and the bias are at block (0, 0) at every point. -/
theorem nodeIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1600000 in
/-- What point t writes back is block t of nodeVal0 of the three input arrays as the region finds them. -/
theorem nodeFlushed0_eq (c : Dev nD) (t : Fin cfg0.N) :
    (dat0 V c).flushed 3 t = ((cfg0.win 3).blk t).view.read (Elt Ideal)
      (nodeVal0 (V c main_arg0) (V c main_arg4) (V c main_v4)) := by
  show (cfg0.win 3).cut (grid0.coords t) ((dat0 V c).after 3 t) = _
  rw [after0_3]
  unfold out0_3
  rw [View.canon_unit_zero zeroOff0]
  simp only [View.ld_unit_zero (S := S10000x32) zeroOff0, View.ld_unit_zero (S := S32x64) zeroOff0,
    View.ld_unit_zero (S := S1x64) zeroOff0]
  obtain ⟨e00, e01, e10, e11, e20, e21, e30, e31⟩ := nodeIdx0 t
  funext j
  obtain ⟨j0, j1, rfl⟩ : ∃ (j0 : Fin 10000) (j1 : Fin 64), j = ix2 j0 j1 := ⟨j 0, j 1, eq_ix2 j⟩
  show k0_pay1 (iblk0 V c 0 t) (iblk0 V c 1 t) (iblk0 V c 2 t) (ix2 j0 j1) = _
  rw [nodePay0_eq]
  have ht : t.val < 10 := by have := t.isLt; have hN : cfg0.N = 10 := N_0; omega
  -- the array row of row j0 of block t
  let p : Fin 100000 := ⟨t.val * 10000 + j0.val, by omega⟩
  let r : S1x64.Idx := ix2 (0 : Fin 1) j1
  show nodeSum0 (fun k => V c main_arg0 (((cfg0.win 0).blk t).view.emb (ix2 j0 k)))
      (fun k => V c main_arg4 (((cfg0.win 1).blk t).view.emb (ix2 k j1))) (V c main_v4 (((cfg0.win 2).blk t).view.emb r))
    = nodeVal0 (V c main_arg0) (V c main_arg4) (V c main_v4) (((cfg0.win 3).blk t).view.emb (ix2 j0 j1))
  have h0 : ∀ k : Fin 32, ((cfg0.win 0).blk t).view.emb (ix2 j0 k) = (ix2 p k : S100000x32.Idx) := fun k => by
    funext a; apply Fin.ext
    match a with
    | ⟨0, _⟩ => show win0_0.index t (0 : Fin 2) * 10000 + 1 * j0.val = t.val * 10000 + j0.val; omega
    | ⟨1, _⟩ => show win0_0.index t (1 : Fin 2) * 32 + 1 * k.val = k.val; omega
  have h1 : ∀ k : Fin 32, ((cfg0.win 1).blk t).view.emb (ix2 k j1) = (ix2 k j1 : S32x64.Idx) := fun k => by
    funext a; apply Fin.ext
    match a with
    | ⟨0, _⟩ => show win0_1.index t (0 : Fin 2) * 32 + 1 * k.val = k.val; omega
    | ⟨1, _⟩ => show win0_1.index t (1 : Fin 2) * 64 + 1 * j1.val = j1.val; omega
  have h2 : ((cfg0.win 2).blk t).view.emb r = r := by
    funext a; apply Fin.ext
    match a with
    | ⟨0, _⟩ => show win0_2.index t (0 : Fin 2) * 1 + 1 * 0 = 0; omega
    | ⟨1, _⟩ => show win0_2.index t (1 : Fin 2) * 64 + 1 * j1.val = j1.val; omega
  have h3 : ((cfg0.win 3).blk t).view.emb (ix2 j0 j1) = (ix2 p j1 : S100000x64.Idx) := by
    funext a; apply Fin.ext
    match a with
    | ⟨0, _⟩ => show win0_3.index t (0 : Fin 2) * 10000 + 1 * j0.val = t.val * 10000 + j0.val; omega
    | ⟨1, _⟩ => show win0_3.index t (1 : Fin 2) * 64 + 1 * j1.val = j1.val; omega
  simp only [h0, h1]
  rw [h2, h3]

/-- An index of the array is in point t's block iff each coordinate is in the block's range on its axis. -/
theorem nodeMem0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Every index is in the block of the point its row falls in: row r is in block r / 10000. -/
theorem nodeCover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e30, e31⟩ := nodeIdx0 t
  have e30' : win0_3.index t (0 : Fin 2) = (i 0).val / 10000 := e30
  refine ⟨t, flush0_3 t, ?_⟩
  rw [nodeMem0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region, at every index. -/
theorem final0 (c : Dev nD) (p : Fin 100000) (q : Fin 64) :
    (dat0 V c).arrAt 3 cfg0.N (ix2 p q) = nodeAt0 (V c main_arg0) (V c main_arg4) (V c main_v4) p q := by
  rw [(dat0 V c).arrAt_eq_of_cover 3 (nodeVal0 (V c main_arg0) (V c main_arg4) (V c main_v4))
    (fun t _ => nodeFlushed0_eq V c t) nodeCover0]

end Cert.KernelIdeal.Gen
-- ==== Proof.Final1.lean ====
/- The array the pipeline of custom_call 1 leaves in its output window, index by index, as a function of the arrays
   its three input windows read, in exact arithmetic: every row block of 10000 rows is written once, by the grid point
   of that number, with the block's rows times the 16 x 64 matrix plus the one-row bias; the matrix and the bias are
   read whole at every point. -/
import proofs.«127476_j62818191671466_2_alg».proof.Proof.Region1
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zeroOff1 : (![0, 0] : Fin 2 → Nat) = fun _ => 0 := funext fun a => by fin_cases a <;> rfl

/-- One output element, in exact arithmetic: the dot product of a row of 16 entries with a column of 16 entries,
    plus the bias entry. -/
abbrev encSum1 (l r : Fin 16 → Ideal .f32) (b : Ideal .f32) : Ideal .f32 := (∑ k : Fin 16, l k * r k) + b

/-- The output at row p and column q: row p of x times column q of w, plus b at column q. -/
abbrev encAt1 {n : Nat} (x : FVec Ideal ⟨2, ![n, 16]⟩ .f32) (w : FVec Ideal S16x64 .f32) (b : FVec Ideal S1x64 .f32)
    (p : Fin n) (q : Fin 64) : Ideal .f32 :=
  encSum1 (fun k => x (ix2 p k)) (fun k => w (ix2 k q)) (b (ix2 0 q))

/-- What the output array holds in the end. -/
abbrev encVal1 (x : FVec Ideal S1000000x16 .f32) (w : FVec Ideal S16x64 .f32) (b : FVec Ideal S1x64 .f32) :
    FVec Ideal S1000000x64 .f32 :=
  fun i => encAt1 x w b (i 0) (i 1)

/-- A one-row vector broadcast down the 10000 rows reads, at an index, the row's entry of the index's column. -/
theorem encRow1 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The block's matrix product into the zero accumulator, read at an index: the sum over the one contracted
    coordinate of the products of the entries. -/
theorem encDot1 (A : FVec Ideal S10000x16 .bf16) (B : FVec Ideal S16x64 .bf16) (a : Fin 10000) (b : Fin 64) :
    matmul dot_S10000x16_S16x64_S10000x64_1_0_0_1_n_n none A B (constant S10000x64 .f32 0x00000000#32) (ix2 a b)
      = ∑ k : Fin 16, A (ix2 a k) * B (ix2 k b) := by
  show FloatOps.matmul dot_S10000x16_S16x64_S10000x64_1_0_0_1_n_n none A B (constant S10000x64 .f32 0x00000000#32) (ix2 a b) = _
  rw [Ideal.matmul_constant_zero_apply,
    ← Equiv.sum_comp (contrEquiv1 dot_S10000x16_S16x64_S10000x64_1_0_0_1_n_n 16 rfl rfl).symm]
  refine Finset.sum_congr rfl fun k _ => ?_
  have ck := contrEquiv1_symm_val dot_S10000x16_S16x64_S10000x64_1_0_0_1_n_n 16 rfl rfl k
  have hl : dot_S10000x16_S16x64_S10000x64_1_0_0_1_n_n.lhsIdx (ix2 a b) ((contrEquiv1 _ 16 rfl rfl).symm k) = ix2 a k := by
    funext ax; apply Fin.ext
    match ax with
    | ⟨0, _⟩ => simp [DotDims.lhsIdx, dot_S10000x16_S16x64_S10000x64_1_0_0_1_n_n]; rfl
    | ⟨1, _⟩ => simp [DotDims.lhsIdx, dot_S10000x16_S16x64_S10000x64_1_0_0_1_n_n]; exact ck
  have hr : dot_S10000x16_S16x64_S10000x64_1_0_0_1_n_n.rhsIdx (ix2 a b) ((contrEquiv1 _ 16 rfl rfl).symm k) = ix2 k b := by
    funext ax; apply Fin.ext
    match ax with
    | ⟨0, _⟩ => simp [DotDims.rhsIdx, dot_S10000x16_S16x64_S10000x64_1_0_0_1_n_n]; exact ck
    | ⟨1, _⟩ => simp [DotDims.rhsIdx, dot_S10000x16_S16x64_S10000x64_1_0_0_1_n_n]; rfl
  rw [hl, hr]

/-- The body's stored value at an index: the two roundings to the narrower format are the identity on exact values,
    the shape cast is the identity and the broadcast reads the row. -/
theorem encPay1_eq (x0 : Vec Ideal S10000x16 .f32) (x1 : Vec Ideal S16x64 .f32) (x2 : Vec Ideal S1x64 .f32)
    (a : Fin 10000) (b : Fin 64) :
    k1_pay1 x0 x1 x2 (ix2 a b) = encAt1 x0 x1 x2 a b := by
  unfold k1_pay1
  simp only [shapeCast_self]
  show matmul dot_S10000x16_S16x64_S10000x64_1_0_0_1_n_n none (truncf (F := Ideal) .bf16 x0 bitsLt_bf16_f32)
      (truncf (F := Ideal) .bf16 x1 bitsLt_bf16_f32) (constant S10000x64 .f32 0x00000000#32) (ix2 a b)
    + broadcastTo S10000x64 x2 broadcasts_S1x64_S10000x64 (ix2 a b) = _
  rw [encRow1, encDot1]
  rfl

/-- The printed index maps, decided over the 100 grid points: the row-blocked input and the output are at row block
    t, column block 0; the matrix and the bias are at block (0, 0) at every point. -/
theorem encIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1600000 in
/-- What point t writes back is block t of encVal1 of the three input arrays as the region finds them. -/
theorem encFlushed1_eq (c : Dev nD) (t : Fin cfg1.N) :
    (dat1 V c).flushed 3 t = ((cfg1.win 3).blk t).view.read (Elt Ideal)
      (encVal1 (V c main_arg1) (V c main_arg6) (V c main_v6)) := by
  show (cfg1.win 3).cut (grid1.coords t) ((dat1 V c).after 3 t) = _
  rw [after1_3]
  unfold out1_3
  rw [View.canon_unit_zero zeroOff1]
  simp only [View.ld_unit_zero (S := S10000x16) zeroOff1, View.ld_unit_zero (S := S16x64) zeroOff1,
    View.ld_unit_zero (S := S1x64) zeroOff1]
  obtain ⟨e00, e01, e10, e11, e20, e21, e30, e31⟩ := encIdx1 t
  funext j
  obtain ⟨j0, j1, rfl⟩ : ∃ (j0 : Fin 10000) (j1 : Fin 64), j = ix2 j0 j1 := ⟨j 0, j 1, eq_ix2 j⟩
  show k1_pay1 (iblk1 V c 0 t) (iblk1 V c 1 t) (iblk1 V c 2 t) (ix2 j0 j1) = _
  rw [encPay1_eq]
  have ht : t.val < 100 := by have := t.isLt; have hN : cfg1.N = 100 := N_1; omega
  -- the array row of row j0 of block t
  let p : Fin 1000000 := ⟨t.val * 10000 + j0.val, by omega⟩
  let r : S1x64.Idx := ix2 (0 : Fin 1) j1
  show encSum1 (fun k => V c main_arg1 (((cfg1.win 0).blk t).view.emb (ix2 j0 k)))
      (fun k => V c main_arg6 (((cfg1.win 1).blk t).view.emb (ix2 k j1))) (V c main_v6 (((cfg1.win 2).blk t).view.emb r))
    = encVal1 (V c main_arg1) (V c main_arg6) (V c main_v6) (((cfg1.win 3).blk t).view.emb (ix2 j0 j1))
  have h0 : ∀ k : Fin 16, ((cfg1.win 0).blk t).view.emb (ix2 j0 k) = (ix2 p k : S1000000x16.Idx) := fun k => by
    funext a; apply Fin.ext
    match a with
    | ⟨0, _⟩ => show win1_0.index t (0 : Fin 2) * 10000 + 1 * j0.val = t.val * 10000 + j0.val; omega
    | ⟨1, _⟩ => show win1_0.index t (1 : Fin 2) * 16 + 1 * k.val = k.val; omega
  have h1 : ∀ k : Fin 16, ((cfg1.win 1).blk t).view.emb (ix2 k j1) = (ix2 k j1 : S16x64.Idx) := fun k => by
    funext a; apply Fin.ext
    match a with
    | ⟨0, _⟩ => show win1_1.index t (0 : Fin 2) * 16 + 1 * k.val = k.val; omega
    | ⟨1, _⟩ => show win1_1.index t (1 : Fin 2) * 64 + 1 * j1.val = j1.val; omega
  have h2 : ((cfg1.win 2).blk t).view.emb r = r := by
    funext a; apply Fin.ext
    match a with
    | ⟨0, _⟩ => show win1_2.index t (0 : Fin 2) * 1 + 1 * 0 = 0; omega
    | ⟨1, _⟩ => show win1_2.index t (1 : Fin 2) * 64 + 1 * j1.val = j1.val; omega
  have h3 : ((cfg1.win 3).blk t).view.emb (ix2 j0 j1) = (ix2 p j1 : S1000000x64.Idx) := by
    funext a; apply Fin.ext
    match a with
    | ⟨0, _⟩ => show win1_3.index t (0 : Fin 2) * 10000 + 1 * j0.val = t.val * 10000 + j0.val; omega
    | ⟨1, _⟩ => show win1_3.index t (1 : Fin 2) * 64 + 1 * j1.val = j1.val; omega
  simp only [h0, h1]
  rw [h2, h3]

/-- An index of the array is in point t's block iff each coordinate is in the block's range on its axis. -/
theorem encMem1 (t : Fin cfg1.N) (i : S1000000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v7).slice (win1_3.rect t)).set ↔ _
  rw [View.set_slice_whole, Rect.mem_set_unit]
  exact Iff.rfl

/-- Every index is in the block of the point its row falls in: row r is in block r / 10000. -/
theorem encCover1 (i : S1000000x64.Idx) :
    ∃ t : Fin cfg1.N, (cfg1.win 3).flush t = true ∧ i ∈ ((cfg1.win 3).blk t).view.set := by
  have hi0 : (i 0).val < 1000000 := (i 0).isLt
  have hi1 : (i 1).val < 64 := (i 1).isLt
  have hN : cfg1.N = 100 := N_1
  let t : Fin cfg1.N := ⟨(i 0).val / 10000, by rw [hN]; omega⟩
  obtain ⟨-, -, -, -, -, -, e30, e31⟩ := encIdx1 t
  have e30' : win1_3.index t (0 : Fin 2) = (i 0).val / 10000 := e30
  refine ⟨t, flush1_3 t, ?_⟩
  rw [encMem1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region, at every index. -/
theorem final1 (c : Dev nD) (p : Fin 1000000) (q : Fin 64) :
    (dat1 V c).arrAt 3 cfg1.N (ix2 p q) = encAt1 (V c main_arg1) (V c main_arg6) (V c main_v6) p q := by
  rw [(dat1 V c).arrAt_eq_of_cover 3 (encVal1 (V c main_arg1) (V c main_arg6) (V c main_v6))
    (fun t _ => encFlushed1_eq V c t) encCover1]

end Cert.KernelIdeal.Gen
-- ==== Proof.KEnc.lean ====
/- The kernel program's two encoders, read off the program: the node features region 0 leaves are relu(x · w + b)
   of the argument arrays, and the edge features region 1 leaves are a · w + b; the bias rows the regions read are the
   argument vectors reshaped to one row by the host. -/
import proofs.«127476_j62818191671466_2_alg».proof.Proof.KDefs
import proofs.«127476_j62818191671466_2_alg».proof.Proof.Final0
import proofs.«127476_j62818191671466_2_alg».proof.Proof.Final1
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-- The node encoder's bias row, as region 0 finds it, is the argument vector: entry (0, q) is entry q. -/
theorem encNodeBias (q : Fin 64) : B1 m c main_v4 (ix2 (0 : Fin 1) q) = m (c, main_arg5) (ix1 q) := by
  dsimp only [B1, hostOps0]
  after_results
  exact shapeCast_a_1a_apply _ _ 0 q

/-- The edge encoder's bias row, as region 1 finds it, is the argument vector. -/
theorem encEdgeBias (q : Fin 64) : B3 m c main_v6 (ix2 (0 : Fin 1) q) = m (c, main_arg7) (ix1 q) := by
  dsimp only [B3, hostOps1]
  after_results
  rw [B2_of m c main_arg7 (by decide), B1_of m c main_arg7 (by decide)]
  exact shapeCast_a_1a_apply _ _ 0 q

/-- The node features after region 0. -/
theorem kEncNode : hK0 m c = Spec.encNode (argX m c) (argNW m c) (argNB m c) := by
  funext i
  obtain ⟨p, q, rfl⟩ : ∃ (p : Fin 100000) (q : Fin 64), i = ix2 p q := ⟨i 0, i 1, eq_ix2 i⟩
  show B2 m c main_v5 (ix2 p q) = _
  rw [← show (dat0 (E1 m) c).arrAt 3 cfg0.N = B2 m c main_v5 from hF0_3 m c, final0 (E1 m) c p q]
  show nodeSum0 (fun k => B1 m c main_arg0 (ix2 p k)) (fun k => B1 m c main_arg4 (ix2 k q)) (B1 m c main_v4 (ix2 (0 : Fin 1) q)) = _
  rw [encNodeBias, B1_of m c main_arg0 (by decide), B1_of m c main_arg4 (by decide)]
  rfl

/-- The edge features after region 1. -/
theorem kEncEdge : eK m c = Spec.encEdge (argEA m c) (argEW m c) (argEB m c) := by
  funext i
  obtain ⟨p, q, rfl⟩ : ∃ (p : Fin 1000000) (q : Fin 64), i = ix2 p q := ⟨i 0, i 1, eq_ix2 i⟩
  show B4 m c main_v7 (ix2 p q) = _
  rw [← show (dat1 (E3 m) c).arrAt 3 cfg1.N = B4 m c main_v7 from hF1_3 m c, final1 (E3 m) c p q]
  show encSum1 (fun k => B3 m c main_arg1 (ix2 p k)) (fun k => B3 m c main_arg6 (ix2 k q)) (B3 m c main_v6 (ix2 (0 : Fin 1) q)) = _
  rw [encEdgeBias, B3_of m c main_arg1 (by decide), B2_of m c main_arg1 (by decide), B1_of m c main_arg1 (by decide),
    B3_of m c main_arg6 (by decide), B2_of m c main_arg6 (by decide), B1_of m c main_arg6 (by decide)]
  rfl

end Cert.KernelIdeal.Gen
-- ==== Proof.Final2.lean ====
/- The array the pipeline of custom_call 2 leaves in its output window, index by index, as a function of the arrays
   its two input windows read, in exact arithmetic: every row block of 10000 rows is written once, by the grid point
   of that number, with the pointwise value relu(a + b) of the same block of the two inputs. -/
import proofs.«127476_j62818191671466_2_alg».proof.Proof.Region2
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The body's operation on one pair of elements, in exact arithmetic: relu of the sum. -/
abbrev msgOp2 (x y : Ideal .f32) : Ideal .f32 := max (x + y) 0

/-- What the output array holds in the end: that operation of the two input arrays, index by index. -/
abbrev msgVal2 (a0 a1 : FVec Ideal S1000000x64 .f32) : FVec Ideal S1000000x64 .f32 :=
  fun i => msgOp2 (a0 i) (a1 i)

/-- The body's stored value is that operation of its two loaded blocks: the shape casts are identities and the
    constant word is the number zero. -/
theorem msgPay2_eq (x0 x1 : Vec Ideal S10000x64 .f32) : k2_pay1 x0 x1 = fun j => msgOp2 (x0 j) (x1 j) := by
  funext j
  show max (shapeCast S10000x64 x0 shapeCasts_S10000x64_S10000x64 j + shapeCast S10000x64 x1 shapeCasts_S10000x64_S10000x64 j)
    (Ideal.ofBits .f32 0x00000000#32) = _
  rw [Ideal.ofBits_zero_f32, shapeCast_self, shapeCast_self]

/-- The printed index maps, decided over the 100 grid points: all three windows are at row block t, column block 0. -/
theorem msgIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of msgVal2 of the two input arrays as the region finds them. -/
theorem msgFlushed2_eq (c : Dev nD) (t : Fin cfg2.N) :
    (dat2 V c).flushed 2 t = ((cfg2.win 2).blk t).view.read (Elt Ideal) (msgVal2 (V c main_v14) (V c main_v7)) := by
  show (cfg2.win 2).cut (grid2.coords t) ((dat2 V c).after 2 t) = _
  rw [after2_2]
  unfold out2_2
  rw [View.canon_unit_zero zeroOff2]
  simp only [View.ld_unit_zero (S := S10000x64) zeroOff2]
  rw [msgPay2_eq]
  obtain ⟨e0, e1, e2, e3, e4, e5⟩ := msgIdx2 t
  funext j
  show msgOp2 (V c main_v14 (((cfg2.win 0).blk t).view.emb j)) (V c main_v7 (((cfg2.win 1).blk t).view.emb j))
    = msgOp2 (V c main_v14 (((cfg2.win 2).blk t).view.emb j)) (V c main_v7 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  rw [h0, h1]

/-- An index of the array is in point t's block iff each coordinate is in the block's range on its axis. -/
theorem msgMem2 (t : Fin cfg2.N) (i : S1000000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v15).slice (win2_2.rect t)).set ↔ _
  rw [View.set_slice_whole, Rect.mem_set_unit]
  exact Iff.rfl

/-- Every index is in the block of the point its row falls in: row r is in block r / 10000. -/
theorem msgCover2 (i : S1000000x64.Idx) :
    ∃ t : Fin cfg2.N, (cfg2.win 2).flush t = true ∧ i ∈ ((cfg2.win 2).blk t).view.set := by
  have hi0 : (i 0).val < 1000000 := (i 0).isLt
  have hi1 : (i 1).val < 64 := (i 1).isLt
  have hN : cfg2.N = 100 := N_2
  let t : Fin cfg2.N := ⟨(i 0).val / 10000, by rw [hN]; omega⟩
  obtain ⟨-, -, -, -, e4, e5⟩ := msgIdx2 t
  have e4' : win2_2.index t (0 : Fin 2) = (i 0).val / 10000 := e4
  refine ⟨t, flush2_2 t, ?_⟩
  rw [msgMem2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region, at every index. -/
theorem final2 (c : Dev nD) (p : Fin 1000000) (q : Fin 64) :
    (dat2 V c).arrAt 2 cfg2.N (ix2 p q) = msgOp2 (V c main_v14 (ix2 p q)) (V c main_v7 (ix2 p q)) := by
  rw [(dat2 V c).arrAt_eq_of_cover 2 (msgVal2 (V c main_v14) (V c main_v7)) (fun t _ => msgFlushed2_eq V c t) msgCover2]

end Cert.KernelIdeal.Gen
-- ==== Proof.KLayer0a.lean ====
/- Layer 0 of the kernel program, first part: what the layer's items find unchanged from earlier items, the gathered
   rows, the messages, and the perceptron's and the normalisation's parameters as the regions find them (slices of the
   argument arrays at the layer's index). -/
import proofs.«127476_j62818191671466_2_alg».proof.Proof.KDefs
import proofs.«127476_j62818191671466_2_alg».proof.Proof.Final2
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-! ## What the layer's items find unchanged -/

/-- The node features the encoder left are what every item of the layer reads. -/
theorem L0_h_at4 : B4 m c main_v5 = hK0 m c := by
  rw [B4_of m c main_v5 (by decide), B3_of m c main_v5 (by decide)]; rfl
theorem L0_h_at6 : B6 m c main_v5 = hK0 m c := by
  rw [B6_of m c main_v5 (by decide), B5_of m c main_v5 (by decide), L0_h_at4]
theorem L0_h_at9 : B9 m c main_v5 = hK0 m c := by
  rw [B9_of m c main_v5 (by decide), B8_of m c main_v5 (by decide), B7_of m c main_v5 (by decide), L0_h_at6]
/-- The edge features are what region 2 reads. -/
theorem L0_e_at5 : B5 m c main_v7 = eK m c := by
  rw [B5_of m c main_v7 (by decide)]; rfl
/-- The edges' source and target columns are as the first host stretch left them. -/
theorem L0_src_at4 : B4 m c main_v1 = B1 m c main_v1 := by
  rw [B4_of m c main_v1 (by decide), B3_of m c main_v1 (by decide), B2_of m c main_v1 (by decide)]
theorem L0_dst_at6 : B6 m c main_v3 = B1 m c main_v3 := by
  rw [B6_of m c main_v3 (by decide), B5_of m c main_v3 (by decide), B4_of m c main_v3 (by decide),
    B3_of m c main_v3 (by decide), B2_of m c main_v3 (by decide)]
/-- The argument arrays are as launched. -/
theorem L0_arg8_at6 : B6 m c main_arg8 = m (c, main_arg8) := by
  rw [B6_of m c main_arg8 (by decide), B5_of m c main_arg8 (by decide), B4_of m c main_arg8 (by decide),
    B3_of m c main_arg8 (by decide), B2_of m c main_arg8 (by decide), B1_of m c main_arg8 (by decide)]
theorem L0_arg9_at6 : B6 m c main_arg9 = m (c, main_arg9) := by
  rw [B6_of m c main_arg9 (by decide), B5_of m c main_arg9 (by decide), B4_of m c main_arg9 (by decide),
    B3_of m c main_arg9 (by decide), B2_of m c main_arg9 (by decide), B1_of m c main_arg9 (by decide)]
theorem L0_arg10_at6 : B6 m c main_arg10 = m (c, main_arg10) := by
  rw [B6_of m c main_arg10 (by decide), B5_of m c main_arg10 (by decide), B4_of m c main_arg10 (by decide),
    B3_of m c main_arg10 (by decide), B2_of m c main_arg10 (by decide), B1_of m c main_arg10 (by decide)]
theorem L0_arg11_at6 : B6 m c main_arg11 = m (c, main_arg11) := by
  rw [B6_of m c main_arg11 (by decide), B5_of m c main_arg11 (by decide), B4_of m c main_arg11 (by decide),
    B3_of m c main_arg11 (by decide), B2_of m c main_arg11 (by decide), B1_of m c main_arg11 (by decide)]
theorem L0_arg12_at6 : B6 m c main_arg12 = m (c, main_arg12) := by
  rw [B6_of m c main_arg12 (by decide), B5_of m c main_arg12 (by decide), B4_of m c main_arg12 (by decide),
    B3_of m c main_arg12 (by decide), B2_of m c main_arg12 (by decide), B1_of m c main_arg12 (by decide)]
theorem L0_arg13_at8 : B8 m c main_arg13 = m (c, main_arg13) := by
  rw [B8_of m c main_arg13 (by decide), B7_of m c main_arg13 (by decide), B6_of m c main_arg13 (by decide),
    B5_of m c main_arg13 (by decide), B4_of m c main_arg13 (by decide), B3_of m c main_arg13 (by decide),
    B2_of m c main_arg13 (by decide), B1_of m c main_arg13 (by decide)]
theorem L0_arg14_at8 : B8 m c main_arg14 = m (c, main_arg14) := by
  rw [B8_of m c main_arg14 (by decide), B7_of m c main_arg14 (by decide), B6_of m c main_arg14 (by decide),
    B5_of m c main_arg14 (by decide), B4_of m c main_arg14 (by decide), B3_of m c main_arg14 (by decide),
    B2_of m c main_arg14 (by decide), B1_of m c main_arg14 (by decide)]

/-! ## The gather and the messages -/

/-- The rows region 2 reads: the gather of the node features at the edges' source nodes. -/
theorem L0_gather : B5 m c main_v14 = gatherK m c (hK0 m c) := by
  dsimp only [B5, hostOps2]
  after_results
  rw [L0_h_at4, L0_src_at4]
  rfl

/-- Region 2's output: the messages. -/
theorem L0_msg : B6 m c main_v15 = Spec.msg (gatherK m c) (hK0 m c) (eK m c) := by
  funext i
  obtain ⟨n, q, rfl⟩ : ∃ (n : Fin 1000000) (q : Fin 64), i = ix2 n q := ⟨i 0, i 1, eq_ix2 i⟩
  rw [← show (dat2 (E5 m) c).arrAt 2 cfg2.N = B6 m c main_v15 from hF2_2 m c, final2 (E5 m) c n q]
  show msgOp2 (B5 m c main_v14 (ix2 n q)) (B5 m c main_v7 (ix2 n q)) = _
  rw [L0_gather, L0_e_at5]
  rfl

/-! ## The perceptron's parameters and the normalisation's, as the regions find them -/

/-- A slice of one leading index of a rank-3 array, with the unit axis dropped, reads the array at that index. -/
theorem L0_w1 (k : Fin 64) (j : Fin 128) : B7 m c main_v26 (ix2 k j) = argW1 m c (ix3 (0 : Fin 4) k j) := by
  dsimp only [B7, hostOps3]
  after_results
  rw [L0_arg9_at6]
  refine (shapeCast_1ab_ab_apply _ _ k j).trans ?_
  exact extractStridedSlice_apply _ _ _ _ (ix3 (0 : Fin 4) k j) (fun a => by
    match a with
    | ⟨0, _⟩ => rfl
    | ⟨1, _⟩ => exact (Nat.zero_add _).symm
    | ⟨2, _⟩ => exact (Nat.zero_add _).symm)

theorem L0_w2 (j : Fin 128) (q : Fin 64) : B7 m c main_v30 (ix2 j q) = argW2 m c (ix3 (0 : Fin 4) j q) := by
  dsimp only [B7, hostOps3]
  after_results
  rw [L0_arg11_at6]
  refine (shapeCast_1ab_ab_apply _ _ j q).trans ?_
  exact extractStridedSlice_apply _ _ _ _ (ix3 (0 : Fin 4) j q) (fun a => by
    match a with
    | ⟨0, _⟩ => rfl
    | ⟨1, _⟩ => exact (Nat.zero_add _).symm
    | ⟨2, _⟩ => exact (Nat.zero_add _).symm)

/-- A one-row slice of a matrix, flattened and put back as one row, reads the matrix at that row. -/
theorem L0_b1 (j : Fin 128) : B7 m c main_v33 (ix2 (0 : Fin 1) j) = argB1 m c (ix2 (0 : Fin 4) j) := by
  dsimp only [B7, hostOps3]
  after_results
  rw [L0_arg10_at6]
  refine (shapeCast_a_1a_apply _ _ 0 j).trans ?_
  refine (shapeCast_1a_a_apply _ _ j).trans ?_
  exact slice2_axis0_apply 0 _ _ (0 : Fin 1) j (0 : Fin 4) rfl

theorem L0_b2 (q : Fin 64) : B7 m c main_v34 (ix2 (0 : Fin 1) q) = argB2 m c (ix2 (0 : Fin 4) q) := by
  dsimp only [B7, hostOps3]
  after_results
  rw [L0_arg12_at6]
  refine (shapeCast_a_1a_apply _ _ 0 q).trans ?_
  refine (shapeCast_1a_a_apply _ _ q).trans ?_
  exact slice2_axis0_apply 0 _ _ (0 : Fin 1) q (0 : Fin 4) rfl

theorem L0_gam (q : Fin 64) : B9 m c main_v46 (ix2 (0 : Fin 1) q) = argGam m c (ix2 (0 : Fin 4) q) := by
  dsimp only [B9, hostOps4]
  after_results
  rw [L0_arg13_at8]
  refine (shapeCast_a_1a_apply _ _ 0 q).trans ?_
  refine (shapeCast_1a_a_apply _ _ q).trans ?_
  exact slice2_axis0_apply 0 _ _ (0 : Fin 1) q (0 : Fin 4) rfl

theorem L0_bet (q : Fin 64) : B9 m c main_v49 (ix2 (0 : Fin 1) q) = argBet m c (ix2 (0 : Fin 4) q) := by
  dsimp only [B9, hostOps4]
  after_results
  rw [L0_arg14_at8]
  refine (shapeCast_a_1a_apply _ _ 0 q).trans ?_
  refine (shapeCast_1a_a_apply _ _ q).trans ?_
  exact slice2_axis0_apply 0 _ _ (0 : Fin 1) q (0 : Fin 4) rfl

end Cert.KernelIdeal.Gen
-- ==== Proof.PayloadLib.lean ====
/-
  Two array operations of the kernels read at an index, at the exact (extended-real) values.

  A matrix product of an m×k by a k×n matrix accumulated into the zero matrix is, at entry (a, b), the sum over
  the contracted coordinate c of the products A(a, c) · B(c, b): the accumulator's zero is the neutral element
  of the sum, and the product with no accumulator is that sum.

  The sum of a matrix over its rows is, at column q, the sum over the row coordinate p of the entries (p, q).
-/
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Payload

open Idealize.ShloMosaic Idealize.ShloMosaic.ValueIdx

/-- A plain matrix product into the zero accumulator, at entry (a, b): Σ_c A(a, c) · B(c, b). -/
theorem matmul_zero_plain_apply {m k n : Nat} {φ₁ φ₂ : FTy} (d : DotDims ⟨2, ![m, k]⟩ ⟨2, ![k, n]⟩ ⟨2, ![m, n]⟩)
    (hd : d = DotDims.plain m k n) (prec : Option ContractPrecision) (A : FVec Ideal ⟨2, ![m, k]⟩ φ₁)
    (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact StackMember.dotGeneral_plain_apply prec A B a b

/-- The sum over the rows of a 10000 × 64 matrix, at column q: Σ_p src(p, q). -/
theorem colsum_apply (src : FVec Ideal ⟨2, ![10000, 64]⟩ .f32) (h : (⟨2, ![10000, 64]⟩ : Shape).Reduces [0] ⟨1, ![64]⟩)
    (hφ : FKind.Formats .f32) (hacc : (0x00000000#32 : BitVec 32) = FKind.add.neutral .f32 hφ) (q : Fin 64) :
    multiReduction .add [0] ⟨1, ![64]⟩ src 0x00000000#32 h hφ hacc (ix1 q) = ∑ p : Fin 10000, src (ix2 p q) := by
  refine (Ideal.multiReduction_add_single src 0x00000000#32 h hφ hacc (ix1 q)).trans ?_
  show ∑ p : Fin 10000, src (h.lift (ix1 q) p) = _
  refine Finset.sum_congr rfl fun p _ => congrArg src ?_
  funext a
  apply Fin.ext
  match a with
  | ⟨0, _⟩ => rfl
  | ⟨1, _⟩ => rfl

/-- The same sum laid out as the one row of a 1 × 64 matrix. -/
theorem colsum_row_apply (src : FVec Ideal ⟨2, ![10000, 64]⟩ .f32) (h : (⟨2, ![10000, 64]⟩ : Shape).Reduces [0] ⟨1, ![64]⟩)
    (hφ : FKind.Formats .f32) (hacc : (0x00000000#32 : BitVec 32) = FKind.add.neutral .f32 hφ)
    (hc : (⟨1, ![64]⟩ : Shape).ShapeCasts ⟨2, ![1, 64]⟩) (u : Fin 1) (q : Fin 64) :
    shapeCast ⟨2, ![1, 64]⟩ (multiReduction .add [0] ⟨1, ![64]⟩ src 0x00000000#32 h hφ hacc) hc (ix2 u q)
      = ∑ p : Fin 10000, src (ix2 p q) :=
  (shapeCast_a_1a_apply _ hc u q).trans (colsum_apply src h hφ hacc q)

end Cert.KernelIdeal.Payload

end
-- ==== Proof.PayloadK3.lean ====
/-
  The perceptron-and-statistics step's stored values at an entry, at the exact values.

  The body applies a two-layer perceptron to a 10000 × 64 block: the block times the 64 × 128 first weight matrix
  into a zero accumulator, plus the first bias down the rows, rectified, times the 128 × 64 second weight matrix
  into a zero accumulator, plus the second bias down the rows. It then adds the block's column sums, and the
  column sums of its squares, to two running 1 × 64 rows, which the first grid point sets to zero. Roundings
  into the products and reshapes to the same shape are the identity at the exact values; the zero word is the
  extended real 0; a product into a zero accumulator is the plain sum of products; a sum over the rows laid out
  as one row reads, at column q, the sum over the row coordinate.
-/
import proofs.«127476_j62818191671466_2_alg».proof.Proof.Gen.KernelIdeal.Skeleton
import proofs.«127476_j62818191671466_2_alg».proof.Proof.PayloadLib

noncomputable section

namespace Cert.KernelIdeal.Payload

open Idealize.ShloMosaic Idealize.ShloMosaic.ValueIdx Cert.KernelIdeal Cert.KernelIdeal.Gen

/-- The two contractions: 64 channels into 128 hidden units, and back. -/
theorem dot_10000x64_64x128_eq : dot_S10000x64_S64x128_S10000x128_1_0_0_1_n_n = DotDims.plain 10000 64 128 := rfl
theorem dot_10000x128_128x64_eq : dot_S10000x128_S128x64_S10000x64_1_0_0_1_n_n = DotDims.plain 10000 128 64 := rfl

/-- The squares' column sums added to the running row: entry (0, q) of the stored row. -/
theorem k3_pay1_apply (v24 : FVec Ideal S10000x64 .f32) (v33 : Vec Ideal S1x64 .f32) (q : Fin 64) :
    k3_pay1 v24 v33 (ix2 (0 : Fin 1) q) = v33 (ix2 (0 : Fin 1) q) + ∑ p : Fin 10000, v24 (ix2 p q) * v24 (ix2 p q) := by
  simp only [k3_pay1, shapeCast_self]
  exact congrArg (v33 (ix2 (0 : Fin 1) q) + ·)
    (colsum_row_apply (mulf v24 v24) reduces_S10000x64_S64 (.inl rfl) rfl shapeCasts_S64_S1x64 0 q)

/-- The two running rows start at zero. -/
theorem k3_pay2_apply (q : Fin 64) : k3_pay2 (F := Ideal) (ix2 (0 : Fin 1) q) = 0 := by
  simp only [k3_pay2, shapeCast_self]
  exact Ideal.ofBits_zero_f32

theorem k3_pay3_apply (q : Fin 64) : k3_pay3 (F := Ideal) (ix2 (0 : Fin 1) q) = 0 := by
  simp only [k3_pay3, shapeCast_self]
  exact Ideal.ofBits_zero_f32

/-- The two-layer perceptron at an entry: Σ_j max (Σ_k x(p, k) · w₁(k, j) + b₁(0, j)) 0 · w₂(j, q) + b₂(0, q). -/
theorem k3_pay4_apply (v3 : Vec Ideal S10000x64 .f32) (v6 : Vec Ideal S64x128 .f32) (v10 : Vec Ideal S1x128 .f32)
    (v17 : Vec Ideal S128x64 .f32) (v21 : Vec Ideal S1x64 .f32) (p : Fin 10000) (q : Fin 64) :
    k3_pay4 v3 v6 v10 v17 v21 (ix2 p q)
      = (∑ j : Fin 128, max ((∑ k : Fin 64, v3 (ix2 p k) * v6 (ix2 k j)) + v10 (ix2 (0 : Fin 1) j)) 0 * v17 (ix2 j q))
        + v21 (ix2 (0 : Fin 1) q) := by
  simp only [k3_pay4, shapeCast_self]
  rw [addf_apply, matmul_zero_plain_apply _ dot_10000x128_128x64_eq, broadcastTo_1b_ab_apply]
  refine congrArg (· + v21 (ix2 (0 : Fin 1) q)) (Finset.sum_congr rfl fun j _ => ?_)
  refine congrArg (· * v17 (ix2 j q)) ?_
  show max (matmul (F := Ideal) dot_S10000x64_S64x128_S10000x128_1_0_0_1_n_n none (truncf .bf16 v3 bitsLt_bf16_f32)
        (truncf .bf16 v6 bitsLt_bf16_f32) (constant S10000x128 .f32 0x00000000#32) (ix2 p j)
      + broadcastTo S10000x128 v10 broadcasts_S1x128_S10000x128 (ix2 p j)) (Ideal.ofBits .f32 0x00000000#32) = _
  rw [matmul_zero_plain_apply _ dot_10000x64_64x128_eq, broadcastTo_1b_ab_apply, Ideal.ofBits_zero_f32]
  rfl

/-- The perceptron's column sums added to the running row: entry (0, q) of the stored row. -/
theorem k3_pay5_apply (v3 : Vec Ideal S10000x64 .f32) (v6 : Vec Ideal S64x128 .f32) (v10 : Vec Ideal S1x128 .f32)
    (v17 : Vec Ideal S128x64 .f32) (v21 : Vec Ideal S1x64 .f32) (v26 : Vec Ideal S1x64 .f32) (q : Fin 64) :
    k3_pay5 v3 v6 v10 v17 v21 v26 (ix2 (0 : Fin 1) q)
      = v26 (ix2 (0 : Fin 1) q) + ∑ p : Fin 10000, k3_pay4 v3 v6 v10 v17 v21 (ix2 p q) := by
  simp only [k3_pay5, shapeCast_self]
  exact congrArg (v26 (ix2 (0 : Fin 1) q) + ·)
    (colsum_row_apply (k3_pay4 v3 v6 v10 v17 v21) reduces_S10000x64_S64 (.inl rfl) rfl shapeCasts_S64_S1x64 0 q)

end Cert.KernelIdeal.Payload

end
-- ==== Proof.Final3.lean ====
/- The three arrays the pipeline of custom_call 3 leaves in its output windows, index by index, as functions of the
   arrays its five input windows read, in exact arithmetic. Every row block of 10000 rows of the first output is written
   once, by the grid point of that number, with the two-layer perceptron of the same block of the input and of the four
   parameter arrays, which every point reads whole. The other two outputs are one row each, revisited at every point and
   written back once, after the last point: they end at the column sums of the first output over all 100000 rows, and at
   the column sums of its squares — the ten per-block sums, added up point after point from zero, regrouped into one sum
   over all rows. -/
import proofs.«127476_j62818191671466_2_alg».proof.Proof.Region3
import proofs.«127476_j62818191671466_2_alg».proof.Proof.PayloadK3
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Payload

variable (V : (c : Dev nD) → (b : Ref sig .tc) → Buf (Elt Ideal) ((c : Thread nD τ).loc b))

theorem zeroOff3 : (![0, 0] : Fin 2 → Nat) = fun _ => 0 := funext fun a => by fin_cases a <;> rfl

/-! ## The perceptron at an entry -/

/-- The two-layer perceptron at row p, column q, from the input array and the four parameter arrays, in exact
    arithmetic: Σ_j relu(Σ_k a(p, k) · w₁(k, j) + b₁(0, j)) · w₂(j, q) + b₂(0, q). -/
abbrev mlpOp3 (a : FVec Ideal S100000x64 .f32) (w1 : FVec Ideal S64x128 .f32) (b1 : FVec Ideal S1x128 .f32)
    (w2 : FVec Ideal S128x64 .f32) (b2 : FVec Ideal S1x64 .f32) (p : Fin 100000) (q : Fin 64) : Ideal .f32 :=
  (∑ j : Fin 128, max ((∑ k : Fin 64, a (ix2 p k) * w1 (ix2 k j)) + b1 (ix2 (0 : Fin 1) j)) 0 * w2 (ix2 j q)) + b2 (ix2 (0 : Fin 1) q)

/-- The same of the five arrays as the region finds them. -/
abbrev Z3 (c : Dev nD) (p : Fin 100000) (q : Fin 64) : Ideal .f32 :=
  mlpOp3 (V c main_v24) (V c main_v26) (V c main_v33) (V c main_v30) (V c main_v34) p q

/-- What the first output array holds in the end. -/
abbrev zrawVal3 (c : Dev nD) : FVec Ideal S100000x64 .f32 :=
  fun i => Z3 V c (i 0) (i 1)

/-- The index maps, decided over the 10 grid points: the input and the first output are at row block t, column block
    0; the four parameter arrays and the two one-row outputs are at block (0, 0) at every point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Row p of block t is a row of the array. -/
theorem rowLt3 (t : Fin cfg3.N) (p : Fin 10000) : t.val * 10000 + p.val < 100000 := by
  have := t.isLt; have hN : cfg3.N = 10 := N_3; have := p.isLt; omega

/-- The value the body stores into the first output's buffer at point t, at entry (p, q): the perceptron at row
    t · 10000 + p of the array. The loads read whole buffers; the input's block t starts at that row; the parameter
    arrays' one block is the whole array. -/
theorem zrawBlk3 (c : Dev nD) (t : Fin cfg3.N) (p : Fin 10000) (q : Fin 64) :
    zraw3 (iblk3 V c 0 t) (iblk3 V c 1 t) (iblk3 V c 2 t) (iblk3 V c 3 t) (iblk3 V c 4 t) (ix2 p q)
      = Z3 V c ⟨t.val * 10000 + p.val, rowLt3 t p⟩ q := by
  unfold zraw3
  simp only [View.ld_unit_zero (S := S10000x64) zeroOff3, View.ld_unit_zero (S := S64x128) zeroOff3, View.ld_unit_zero (S := S1x128) zeroOff3,
    View.ld_unit_zero (S := S128x64) zeroOff3, View.ld_unit_zero (S := S1x64) zeroOff3]
  rw [k3_pay4_apply]
  obtain ⟨e00, e01, e10, e11, e20, e21, e30, e31, e40, e41, -⟩ := idx3 t
  have h0 : ∀ k : Fin 64, iblk3 V c 0 t (ix2 p k) = V c main_v24 (ix2 (⟨t.val * 10000 + p.val, rowLt3 t p⟩ : Fin 100000) k) := fun k => by
    show V c main_v24 (((cfg3.win 0).blk t).view.emb (ix2 p k)) = _
    refine congrArg (V c main_v24) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  have h1 : ∀ (k : Fin 64) (j : Fin 128), iblk3 V c 1 t (ix2 k j) = V c main_v26 (ix2 k j) := fun k j => by
    show V c main_v26 (((cfg3.win 1).blk t).view.emb (ix2 k j)) = _
    refine congrArg (V c main_v26) ?_
    funext a; apply Fin.ext
    match a with
    | ⟨0, _⟩ => show win3_1.index t (0 : Fin 2) * 64 + 1 * k.val = k.val; omega
    | ⟨1, _⟩ => show win3_1.index t (1 : Fin 2) * 128 + 1 * j.val = j.val; omega
  have h2 : ∀ j : Fin 128, iblk3 V c 2 t (ix2 (0 : Fin 1) j) = V c main_v33 (ix2 (0 : Fin 1) j) := fun j => by
    show V c main_v33 (((cfg3.win 2).blk t).view.emb (ix2 (0 : Fin 1) j)) = _
    refine congrArg (V c main_v33) ?_
    funext a; apply Fin.ext
    match a with
    | ⟨0, _⟩ => show win3_2.index t (0 : Fin 2) * 1 + 1 * 0 = 0; omega
    | ⟨1, _⟩ => show win3_2.index t (1 : Fin 2) * 128 + 1 * j.val = j.val; omega
  have h3 : ∀ (j : Fin 128) (q : Fin 64), iblk3 V c 3 t (ix2 j q) = V c main_v30 (ix2 j q) := fun j q => by
    show V c main_v30 (((cfg3.win 3).blk t).view.emb (ix2 j q)) = _
    refine congrArg (V c main_v30) ?_
    funext a; apply Fin.ext
    match a with
    | ⟨0, _⟩ => show win3_3.index t (0 : Fin 2) * 128 + 1 * j.val = j.val; omega
    | ⟨1, _⟩ => show win3_3.index t (1 : Fin 2) * 64 + 1 * q.val = q.val; omega
  have h4 : ∀ q : Fin 64, iblk3 V c 4 t (ix2 (0 : Fin 1) q) = V c main_v34 (ix2 (0 : Fin 1) q) := fun q => by
    show V c main_v34 (((cfg3.win 4).blk t).view.emb (ix2 (0 : Fin 1) q)) = _
    refine congrArg (V c main_v34) ?_
    funext a; apply Fin.ext
    match a with
    | ⟨0, _⟩ => show win3_4.index t (0 : Fin 2) * 1 + 1 * 0 = 0; omega
    | ⟨1, _⟩ => show win3_4.index t (1 : Fin 2) * 64 + 1 * q.val = q.val; omega
  simp only [h0, h1, h2, h3, h4]

/-! ## The first output: the perceptron of every row -/

/-- What point t writes back is block t of the perceptron of the whole input array. -/
theorem flushed3_5_eq (c : Dev nD) (t : Fin cfg3.N) :
    (dat3 V c).flushed 5 t = ((cfg3.win 5).blk t).view.read (Elt Ideal) (zrawVal3 V c) := by
  show (cfg3.win 5).cut (grid3.coords t) ((dat3 V c).after 5 t) = _
  rw [after3_5]
  unfold out3_5
  rw [View.canon_unit_zero zeroOff3]
  obtain ⟨-, -, -, -, -, -, -, -, -, -, e50, e51, -⟩ := idx3 t
  funext j
  obtain ⟨j0, j1, rfl⟩ : ∃ (j0 : Fin 10000) (j1 : Fin 64), j = ix2 j0 j1 := ⟨j 0, j 1, eq_ix2 j⟩
  show zraw3 (iblk3 V c 0 t) (iblk3 V c 1 t) (iblk3 V c 2 t) (iblk3 V c 3 t) (iblk3 V c 4 t) (ix2 j0 j1) = zrawVal3 V c (((cfg3.win 5).blk t).view.emb (ix2 j0 j1))
  have h5 : ((cfg3.win 5).blk t).view.emb (ix2 j0 j1) = ix2 (⟨t.val * 10000 + j0.val, rowLt3 t j0⟩ : Fin 100000) j1 := by
    funext a; apply Fin.ext
    match a with
    | ⟨0, _⟩ => show win3_5.index t (0 : Fin 2) * 10000 + 1 * j0.val = t.val * 10000 + j0.val; omega
    | ⟨1, _⟩ => show win3_5.index t (1 : Fin 2) * 64 + 1 * j1.val = j1.val; omega
  rw [h5, zrawBlk3]

/-- An index of the first output array is in point t's block iff each coordinate is in the block's range on its axis. -/
theorem mem3_5 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v35_0).slice (win3_5.rect t)).set ↔ _
  rw [View.set_slice_whole, Rect.mem_set_unit]
  exact Iff.rfl

/-- Every index is in the block of the point its row falls in: row r is in block r / 10000. -/
theorem cover3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, -, -, -, -, e50, e51, -⟩ := idx3 t
  have e50' : win3_5.index t (0 : Fin 2) = (i 0).val / 10000 := e50
  refine ⟨t, flush3_5 t, ?_⟩
  rw [mem3_5]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- THE FIRST OUTPUT after the region, at every index: the perceptron of the index's row. -/
theorem final3_5 (c : Dev nD) (p : Fin 100000) (q : Fin 64) :
    (dat3 V c).arrAt 5 cfg3.N (ix2 p q) = Z3 V c p q := by
  rw [(dat3 V c).arrAt_eq_of_cover 5 (zrawVal3 V c) (fun t _ => flushed3_5_eq V c t) (cover3_5)]

/-! ## The two running rows -/

/-- What a point adds to the first running row at column q: the column sum of its block of the perceptron. -/
theorem sumAt3_apply (c : Dev nD) (t : Fin cfg3.N) (v : Vec Ideal S1x64 .f32) (q : Fin 64) :
    sumAt3 V c t v (ix2 (0 : Fin 1) q)
      = v (ix2 (0 : Fin 1) q) + ∑ p : Fin 10000, Z3 V c ⟨t.val * 10000 + p.val, rowLt3 t p⟩ q := by
  unfold sumAt3 sumP3
  rw [k3_pay5_apply]
  exact congrArg (v (ix2 (0 : Fin 1) q) + ·) (Finset.sum_congr rfl fun p _ => zrawBlk3 V c t p q)

/-- What a point adds to the second running row at column q: the column sum of the squares of its block. -/
theorem sqAt3_apply (c : Dev nD) (t : Fin cfg3.N) (v : Vec Ideal S1x64 .f32) (q : Fin 64) :
    sqAt3 V c t v (ix2 (0 : Fin 1) q)
      = v (ix2 (0 : Fin 1) q) + ∑ p : Fin 10000, Z3 V c ⟨t.val * 10000 + p.val, rowLt3 t p⟩ q * Z3 V c ⟨t.val * 10000 + p.val, rowLt3 t p⟩ q := by
  unfold sqAt3 sqP3
  rw [k3_pay1_apply]
  exact congrArg (v (ix2 (0 : Fin 1) q) + ·) (Finset.sum_congr rfl fun p _ => by rw [zrawBlk3 V c t p q])

/-- The column sum of block n of the perceptron (zero past the last block), -/
def bsum3 (c : Dev nD) (q : Fin 64) (n : ℕ) : Ideal .f32 :=
  if h : n < cfg3.N then ∑ p : Fin 10000, Z3 V c ⟨n * 10000 + p.val, rowLt3 ⟨n, h⟩ p⟩ q else 0
/-- and of its squares. -/
def bsq3 (c : Dev nD) (q : Fin 64) (n : ℕ) : Ideal .f32 :=
  if h : n < cfg3.N then ∑ p : Fin 10000, Z3 V c ⟨n * 10000 + p.val, rowLt3 ⟨n, h⟩ p⟩ q * Z3 V c ⟨n * 10000 + p.val, rowLt3 ⟨n, h⟩ p⟩ q else 0

/-- After point n the two running rows hold, at column q, the sums of the block sums of the points 0..n. -/
theorem acc3_sum (c : Dev nD) (q : Fin 64) : ∀ (n : ℕ) (hn : n < cfg3.N),
    (acc3 V c n hn).1 (ix2 (0 : Fin 1) q) = ∑ a ∈ Finset.range (n + 1), bsum3 V c q a
    ∧ (acc3 V c n hn).2 (ix2 (0 : Fin 1) q) = ∑ a ∈ Finset.range (n + 1), bsq3 V c q a
  | 0, hn => by
    refine ⟨?_, ?_⟩
    · show sumAt3 V c ⟨0, hn⟩ (k3_pay2 (F := Ideal)) (ix2 (0 : Fin 1) q) = _
      rw [sumAt3_apply, k3_pay2_apply, zero_add, Finset.sum_range_one]
      unfold bsum3; rw [dif_pos hn]
    · show sqAt3 V c ⟨0, hn⟩ (k3_pay3 (F := Ideal)) (ix2 (0 : Fin 1) q) = _
      rw [sqAt3_apply, k3_pay3_apply, zero_add, Finset.sum_range_one]
      unfold bsq3; rw [dif_pos hn]
  | n + 1, hn => by
    obtain ⟨ih1, ih2⟩ := acc3_sum c q n (Nat.lt_of_succ_lt hn)
    refine ⟨?_, ?_⟩
    · show sumAt3 V c ⟨n + 1, hn⟩ (acc3 V c n (Nat.lt_of_succ_lt hn)).1 (ix2 (0 : Fin 1) q) = _
      rw [sumAt3_apply, ih1, Finset.sum_range_succ (bsum3 V c q) (n + 1)]
      refine congrArg (_ + ·) ?_
      unfold bsum3; rw [dif_pos hn]
    · show sqAt3 V c ⟨n + 1, hn⟩ (acc3 V c n (Nat.lt_of_succ_lt hn)).2 (ix2 (0 : Fin 1) q) = _
      rw [sqAt3_apply, ih2, Finset.sum_range_succ (bsq3 V c q) (n + 1)]
      refine congrArg (_ + ·) ?_
      unfold bsq3; rw [dif_pos hn]

/-- The rows regrouped: row r of the array is row r % 10000 of block r / 10000. -/
def rowsEquiv3 : Fin 10 × Fin 10000 ≃ Fin 100000 where
  toFun x := ⟨x.1.val * 10000 + x.2.val, by have := x.1.isLt; have := x.2.isLt; omega⟩
  invFun r := (⟨r.val / 10000, by have := r.isLt; omega⟩, ⟨r.val % 10000, Nat.mod_lt _ (by decide)⟩)
  left_inv x := by
    obtain ⟨a, b⟩ := x
    have := a.isLt; have := b.isLt
    refine Prod.ext (Fin.ext ?_) (Fin.ext ?_)
    · show (a.val * 10000 + b.val) / 10000 = a.val; omega
    · show (a.val * 10000 + b.val) % 10000 = b.val; omega
  right_inv r := by
    apply Fin.ext
    show r.val / 10000 * 10000 + r.val % 10000 = r.val; omega

/-- Ten sums over the blocks of 10000 rows, added up, are one sum over the 100000 rows. -/
theorem sum_blocks3 (f : Fin 100000 → Ideal .f32) (g : ℕ → Ideal .f32)
    (hg : ∀ (n : ℕ) (h : n < 10), g n = ∑ p : Fin 10000, f ⟨n * 10000 + p.val, by have := p.isLt; omega⟩) :
    ∑ a ∈ Finset.range 10, g a = ∑ r : Fin 100000, f r := by
  have e1 : ∑ a ∈ Finset.range 10, g a = ∑ a : Fin 10, g a.val := (Fin.sum_univ_eq_sum_range g 10).symm
  rw [e1]
  have e2 : ∑ r : Fin 100000, f r = ∑ x : Fin 10 × Fin 10000, f (rowsEquiv3 x) :=
    (Fintype.sum_equiv rowsEquiv3 (fun x => f (rowsEquiv3 x)) f (fun _ => rfl)).symm
  rw [e2, Fintype.sum_prod_type]
  refine Finset.sum_congr rfl fun a _ => ?_
  rw [hg a.val a.isLt]
  rfl

/-- After the last point the first running row holds, at column q, the column sum of the perceptron over all rows, -/
theorem acc3_total_sum (c : Dev nD) (q : Fin 64) (hn : 9 < cfg3.N) :
    (acc3 V c 9 hn).1 (ix2 (0 : Fin 1) q) = ∑ p : Fin 100000, Z3 V c p q := by
  rw [(acc3_sum V c q 9 hn).1]
  refine sum_blocks3 (fun r => Z3 V c r q) (bsum3 V c q) fun n h => ?_
  unfold bsum3; rw [dif_pos (by rw [show cfg3.N = 10 from N_3]; exact h)]

/-- and the second the column sum of its squares. -/
theorem acc3_total_sq (c : Dev nD) (q : Fin 64) (hn : 9 < cfg3.N) :
    (acc3 V c 9 hn).2 (ix2 (0 : Fin 1) q) = ∑ p : Fin 100000, Z3 V c p q * Z3 V c p q := by
  rw [(acc3_sum V c q 9 hn).2]
  refine sum_blocks3 (fun r => Z3 V c r q * Z3 V c r q) (bsq3 V c q) fun n h => ?_
  unfold bsq3; rw [dif_pos (by rw [show cfg3.N = 10 from N_3]; exact h)]

/-! ## The two one-row outputs: written back once, after the last point -/

/-- What the second output array holds in the end, -/
def sumVal3 (c : Dev nD) : FVec Ideal S1x64 .f32 := fun i => ∑ p : Fin 100000, Z3 V c p (i 1)
/-- and the third. -/
def sqVal3 (c : Dev nD) : FVec Ideal S1x64 .f32 := fun i => ∑ p : Fin 100000, Z3 V c p (i 1) * Z3 V c p (i 1)

/-- The one block of a one-row output is the whole row, at every point. -/
theorem emb3_6 (t : Fin cfg3.N) (q : Fin 64) : ((cfg3.win 6).blk t).view.emb (ix2 (0 : Fin 1) q) = ix2 (0 : Fin 1) q := by
  obtain ⟨-, -, -, -, -, -, -, -, -, -, -, -, e60, e61, -⟩ := idx3 t
  funext a; apply Fin.ext
  match a with
  | ⟨0, _⟩ => show win3_6.index t (0 : Fin 2) * 1 + 1 * 0 = 0; omega
  | ⟨1, _⟩ => show win3_6.index t (1 : Fin 2) * 64 + 1 * q.val = q.val; omega
theorem emb3_7 (t : Fin cfg3.N) (q : Fin 64) : ((cfg3.win 7).blk t).view.emb (ix2 (0 : Fin 1) q) = ix2 (0 : Fin 1) q := by
  obtain ⟨-, -, -, -, -, -, -, -, -, -, -, -, -, -, e70, e71⟩ := idx3 t
  funext a; apply Fin.ext
  match a with
  | ⟨0, _⟩ => show win3_7.index t (0 : Fin 2) * 1 + 1 * 0 = 0; omega
  | ⟨1, _⟩ => show win3_7.index t (1 : Fin 2) * 64 + 1 * q.val = q.val; omega

/-- So reading any one-row array through that block reads the array. -/
theorem read_blk3_6 (G : FVec Ideal S1x64 .f32) (t : Fin cfg3.N) (q : Fin 64) :
    ((cfg3.win 6).blk t).view.read (Elt Ideal) G (ix2 (0 : Fin 1) q) = G (ix2 (0 : Fin 1) q) := by
  show G (((cfg3.win 6).blk t).view.emb (ix2 (0 : Fin 1) q)) = _
  exact congrArg G (emb3_6 t q)
theorem read_blk3_7 (G : FVec Ideal S1x64 .f32) (t : Fin cfg3.N) (q : Fin 64) :
    ((cfg3.win 7).blk t).view.read (Elt Ideal) G (ix2 (0 : Fin 1) q) = G (ix2 (0 : Fin 1) q) := by
  show G (((cfg3.win 7).blk t).view.emb (ix2 (0 : Fin 1) q)) = _
  exact congrArg G (emb3_7 t q)

theorem sumVal3_apply (c : Dev nD) (q : Fin 64) : sumVal3 V c (ix2 (0 : Fin 1) q) = ∑ p : Fin 100000, Z3 V c p q := by
  unfold sumVal3; rfl
theorem sqVal3_apply (c : Dev nD) (q : Fin 64) : sqVal3 V c (ix2 (0 : Fin 1) q) = ∑ p : Fin 100000, Z3 V c p q * Z3 V c p q := by
  unfold sqVal3; rfl

/-- The only point that writes the second output back is the last; what it writes is the row of the totals. -/
theorem flushed3_6_eq (c : Dev nD) (t : Fin cfg3.N) (hf : (cfg3.win 6).flush t = true) :
    (dat3 V c).flushed 6 t = ((cfg3.win 6).blk t).view.read (Elt Ideal) (sumVal3 V c) := by
  have hN : cfg3.N = 10 := N_3
  have h9 : t.val = 9 := by have := (flush3_6 t).mp hf; have := t.isLt; omega
  show (cfg3.win 6).cut (grid3.coords t) ((dat3 V c).after 6 t) = _
  rw [after3_6]
  unfold rowBuf3
  rw [View.canon_unit_zero zeroOff3]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk3_6 (sumVal3 V c) t j1).symm
  rw [sumVal3_apply]
  show (acc3 V c t.val t.isLt).1 (ix2 (0 : Fin 1) j1) = _
  obtain ⟨n, hn⟩ := t
  obtain rfl : n = 9 := h9
  exact acc3_total_sum V c j1 hn

/-- The same of the third output. -/
theorem flushed3_7_eq (c : Dev nD) (t : Fin cfg3.N) (hf : (cfg3.win 7).flush t = true) :
    (dat3 V c).flushed 7 t = ((cfg3.win 7).blk t).view.read (Elt Ideal) (sqVal3 V c) := by
  have hN : cfg3.N = 10 := N_3
  have h9 : t.val = 9 := by have := (flush3_7 t).mp hf; have := t.isLt; omega
  show (cfg3.win 7).cut (grid3.coords t) ((dat3 V c).after 7 t) = _
  rw [after3_7]
  unfold rowBuf3
  rw [View.canon_unit_zero zeroOff3]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk3_7 (sqVal3 V c) t j1).symm
  rw [sqVal3_apply]
  show (acc3 V c t.val t.isLt).2 (ix2 (0 : Fin 1) j1) = _
  obtain ⟨n, hn⟩ := t
  obtain rfl : n = 9 := h9
  exact acc3_total_sq V c j1 hn

/-- Every index of a one-row output is in the last point's block, which is written back. -/
theorem cover3_6 (i : S1x64.Idx) :
    ∃ t : Fin cfg3.N, (cfg3.win 6).flush t = true ∧ i ∈ ((cfg3.win 6).blk t).view.set := by
  have hi0 : (i 0).val < 1 := (i 0).isLt
  have hi1 : (i 1).val < 64 := (i 1).isLt
  have hN : cfg3.N = 10 := N_3
  let t : Fin cfg3.N := ⟨9, by rw [hN]; decide⟩
  obtain ⟨-, -, -, -, -, -, -, -, -, -, -, -, e60, e61, -⟩ := idx3 t
  refine ⟨t, (flush3_6 t).mpr rfl, ?_⟩
  show i ∈ ((View.whole main_v35_1).slice (win3_6.rect t)).set
  rw [View.set_slice_whole, Rect.mem_set_unit]
  intro a
  match a with
  | ⟨0, _⟩ => show win3_6.index t (0 : Fin 2) * 1 ≤ (i 0).val ∧ (i 0).val < win3_6.index t (0 : Fin 2) * 1 + 1; omega
  | ⟨1, _⟩ => show win3_6.index t (1 : Fin 2) * 64 ≤ (i 1).val ∧ (i 1).val < win3_6.index t (1 : Fin 2) * 64 + 64; omega
theorem cover3_7 (i : S1x64.Idx) :
    ∃ t : Fin cfg3.N, (cfg3.win 7).flush t = true ∧ i ∈ ((cfg3.win 7).blk t).view.set := by
  have hi0 : (i 0).val < 1 := (i 0).isLt
  have hi1 : (i 1).val < 64 := (i 1).isLt
  have hN : cfg3.N = 10 := N_3
  let t : Fin cfg3.N := ⟨9, by rw [hN]; decide⟩
  obtain ⟨-, -, -, -, -, -, -, -, -, -, -, -, -, -, e70, e71⟩ := idx3 t
  refine ⟨t, (flush3_7 t).mpr rfl, ?_⟩
  show i ∈ ((View.whole main_v35_2).slice (win3_7.rect t)).set
  rw [View.set_slice_whole, Rect.mem_set_unit]
  intro a
  match a with
  | ⟨0, _⟩ => show win3_7.index t (0 : Fin 2) * 1 ≤ (i 0).val ∧ (i 0).val < win3_7.index t (0 : Fin 2) * 1 + 1; omega
  | ⟨1, _⟩ => show win3_7.index t (1 : Fin 2) * 64 ≤ (i 1).val ∧ (i 1).val < win3_7.index t (1 : Fin 2) * 64 + 64; omega

/-- THE SECOND OUTPUT after the region: at column q the column sum of the perceptron over all 100000 rows. -/
theorem final3_6 (c : Dev nD) (q : Fin 64) :
    (dat3 V c).arrAt 6 cfg3.N (ix2 (0 : Fin 1) q) = ∑ p : Fin 100000, Z3 V c p q := by
  exact (congrFun ((dat3 V c).arrAt_eq_of_cover 6 (sumVal3 V c) (fun t hf => flushed3_6_eq V c t hf) (cover3_6)) (ix2 (0 : Fin 1) q)).trans (sumVal3_apply V c q)

/-- THE THIRD OUTPUT after the region: at column q the column sum of the squares of the perceptron over all rows. -/
theorem final3_7 (c : Dev nD) (q : Fin 64) :
    (dat3 V c).arrAt 7 cfg3.N (ix2 (0 : Fin 1) q) = ∑ p : Fin 100000, Z3 V c p q * Z3 V c p q := by
  exact (congrFun ((dat3 V c).arrAt_eq_of_cover 7 (sqVal3 V c) (fun t hf => flushed3_7_eq V c t hf) (cover3_7)) (ix2 (0 : Fin 1) q)).trans (sqVal3_apply V c q)

end Cert.KernelIdeal.Gen

end
-- ==== Proof.Final4.lean ====
/- The array the pipeline of custom_call 4 leaves in its output window, index by index, as a function of the arrays
   its six input windows read, in exact arithmetic: every row block of 10000 rows is written once, by the grid point
   of that number, with relu((z - mean) * rsqrt(var + eps) * gamma + beta + h) of the same block of z and h and of the
   four one-row arrays, which every point reads whole. -/
import proofs.«127476_j62818191671466_2_alg».proof.Proof.Region4
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The body's operation on one element of z and of h and the four row entries of its column, in exact arithmetic:
    the normalisation's affine map, the residual added, then relu. -/
abbrev bnOp4 (z h mean var gamma beta : Ideal .f32) : Ideal .f32 :=
  max ((z - mean) * Ideal.rsqrt (var + Ideal.ofBits .f32 0x3727C5AC#32) * gamma + beta + h) 0

/-- What the output array holds in the end: that operation of the two full arrays at the index and of the four
    one-row arrays at the index's column. -/
abbrev bnVal4 (z h : FVec Ideal S100000x64 .f32) (mean var gamma beta : FVec Ideal S1x64 .f32) : FVec Ideal S100000x64 .f32 :=
  fun i => bnOp4 (z i) (h i) (mean (ix2 0 (i 1))) (var (ix2 0 (i 1))) (gamma (ix2 0 (i 1))) (beta (ix2 0 (i 1)))

/-- A one-row vector broadcast down the 10000 rows reads, at an index, the row's entry of the index's column. -/
theorem bnRow4 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The body's stored value is that operation of its six loaded blocks: the shape casts are identities, the
    broadcasts read the row, and the constant word of the last maximum is the number zero. -/
theorem bnPay4_eq (x0 x1 : Vec Ideal S10000x64 .f32) (x2 x3 x4 x5 : Vec Ideal S1x64 .f32) :
    k4_pay1 x3 x0 x2 x4 x5 x1
      = fun j => bnOp4 (x0 j) (x1 j) (x2 (ix2 0 (j 1))) (x3 (ix2 0 (j 1))) (x4 (ix2 0 (j 1))) (x5 (ix2 0 (j 1))) := by
  funext j
  unfold k4_pay1
  simp only [shapeCast_self]
  show max ((x0 j - broadcastTo S10000x64 x2 broadcasts_S1x64_S10000x64 j)
        * broadcastTo S10000x64 (rsqrt (F := Ideal) (addf (F := Ideal) x3 (broadcast S1x64 (Scalar.ofBits (F := Ideal) .f32 0x3727C5AC#32)))) broadcasts_S1x64_S10000x64 j
        * broadcastTo S10000x64 x4 broadcasts_S1x64_S10000x64 j
      + broadcastTo S10000x64 x5 broadcasts_S1x64_S10000x64 j + x1 j) (Ideal.ofBits .f32 0x00000000#32) = _
  simp only [bnRow4]
  rw [Ideal.ofBits_zero_f32]
  rfl

/-- The printed index maps, decided over the 10 grid points: the two full inputs and the output are at row block t,
    column block 0; the four one-row inputs are at block (0, 0) at every point. -/
theorem bnIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 1600000 in
/-- What point t writes back is block t of bnVal4 of the six input arrays as the region finds them. -/
theorem bnFlushed4_eq (c : Dev nD) (t : Fin cfg4.N) :
    (dat4 V c).flushed 6 t = ((cfg4.win 6).blk t).view.read (Elt Ideal)
      (bnVal4 (V c main_v35_0) (V c main_v5) (V c main_v37) (V c main_v43) (V c main_v46) (V c main_v49)) := by
  show (cfg4.win 6).cut (grid4.coords t) ((dat4 V c).after 6 t) = _
  rw [after4_6]
  unfold out4_6
  rw [View.canon_unit_zero zeroOff4]
  simp only [View.ld_unit_zero (S := S10000x64) zeroOff4, View.ld_unit_zero (S := S1x64) zeroOff4]
  rw [bnPay4_eq]
  obtain ⟨e00, e01, e10, e11, e20, e21, e30, e31, e40, e41, e50, e51, e60, e61⟩ := bnIdx4 t
  funext j
  obtain ⟨j0, j1, rfl⟩ : ∃ (j0 : Fin 10000) (j1 : Fin 64), j = ix2 j0 j1 := ⟨j 0, j 1, eq_ix2 j⟩
  have ht : t.val < 10 := by have := t.isLt; have hN : cfg4.N = 10 := N_4; omega
  -- the array index of element (j0, j1) of block t: row t * 10000 + j0, column j1
  let i6 : S100000x64.Idx := ix2 (⟨t.val * 10000 + j0.val, by omega⟩ : Fin 100000) j1
  let r : S1x64.Idx := ix2 (0 : Fin 1) j1
  show bnOp4 (V c main_v35_0 (((cfg4.win 0).blk t).view.emb (ix2 j0 j1))) (V c main_v5 (((cfg4.win 1).blk t).view.emb (ix2 j0 j1)))
      (V c main_v37 (((cfg4.win 2).blk t).view.emb r)) (V c main_v43 (((cfg4.win 3).blk t).view.emb r))
      (V c main_v46 (((cfg4.win 4).blk t).view.emb r)) (V c main_v49 (((cfg4.win 5).blk t).view.emb r))
    = bnVal4 (V c main_v35_0) (V c main_v5) (V c main_v37) (V c main_v43) (V c main_v46) (V c main_v49)
        (((cfg4.win 6).blk t).view.emb (ix2 j0 j1))
  have h0 : ((cfg4.win 0).blk t).view.emb (ix2 j0 j1) = i6 := by
    funext a; apply Fin.ext
    match a with
    | ⟨0, _⟩ => show win4_0.index t (0 : Fin 2) * 10000 + 1 * j0.val = t.val * 10000 + j0.val; omega
    | ⟨1, _⟩ => show win4_0.index t (1 : Fin 2) * 64 + 1 * j1.val = j1.val; omega
  have h1 : ((cfg4.win 1).blk t).view.emb (ix2 j0 j1) = i6 := by
    funext a; apply Fin.ext
    match a with
    | ⟨0, _⟩ => show win4_1.index t (0 : Fin 2) * 10000 + 1 * j0.val = t.val * 10000 + j0.val; omega
    | ⟨1, _⟩ => show win4_1.index t (1 : Fin 2) * 64 + 1 * j1.val = j1.val; omega
  have h6 : ((cfg4.win 6).blk t).view.emb (ix2 j0 j1) = i6 := by
    funext a; apply Fin.ext
    match a with
    | ⟨0, _⟩ => show win4_6.index t (0 : Fin 2) * 10000 + 1 * j0.val = t.val * 10000 + j0.val; omega
    | ⟨1, _⟩ => show win4_6.index t (1 : Fin 2) * 64 + 1 * j1.val = j1.val; omega
  have h2 : ((cfg4.win 2).blk t).view.emb r = r := by
    funext a; apply Fin.ext
    match a with
    | ⟨0, _⟩ => show win4_2.index t (0 : Fin 2) * 1 + 1 * 0 = 0; omega
    | ⟨1, _⟩ => show win4_2.index t (1 : Fin 2) * 64 + 1 * j1.val = j1.val; omega
  have h3 : ((cfg4.win 3).blk t).view.emb r = r := by
    funext a; apply Fin.ext
    match a with
    | ⟨0, _⟩ => show win4_3.index t (0 : Fin 2) * 1 + 1 * 0 = 0; omega
    | ⟨1, _⟩ => show win4_3.index t (1 : Fin 2) * 64 + 1 * j1.val = j1.val; omega
  have h4 : ((cfg4.win 4).blk t).view.emb r = r := by
    funext a; apply Fin.ext
    match a with
    | ⟨0, _⟩ => show win4_4.index t (0 : Fin 2) * 1 + 1 * 0 = 0; omega
    | ⟨1, _⟩ => show win4_4.index t (1 : Fin 2) * 64 + 1 * j1.val = j1.val; omega
  have h5 : ((cfg4.win 5).blk t).view.emb r = r := by
    funext a; apply Fin.ext
    match a with
    | ⟨0, _⟩ => show win4_5.index t (0 : Fin 2) * 1 + 1 * 0 = 0; omega
    | ⟨1, _⟩ => show win4_5.index t (1 : Fin 2) * 64 + 1 * j1.val = j1.val; omega
  rw [h0, h1, h2, h3, h4, h5, h6]

/-- An index of the array is in point t's block iff each coordinate is in the block's range on its axis. -/
theorem bnMem4 (t : Fin cfg4.N) (i : S100000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v50).slice (win4_6.rect t)).set ↔ _
  rw [View.set_slice_whole, Rect.mem_set_unit]
  exact Iff.rfl

/-- Every index is in the block of the point its row falls in: row r is in block r / 10000. -/
theorem bnCover4 (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, -, -, -, -, -, -, -, -, e60, e61⟩ := bnIdx4 t
  have e60' : win4_6.index t (0 : Fin 2) = (i 0).val / 10000 := e60
  refine ⟨t, flush4_6 t, ?_⟩
  rw [bnMem4]
  intro a
  match a with
  | ⟨0, _⟩ => show win4_6.index t (0 : Fin 2) * 10000 ≤ (i 0).val ∧ (i 0).val < win4_6.index t (0 : Fin 2) * 10000 + 10000; omega
  | ⟨1, _⟩ => show win4_6.index t (1 : Fin 2) * 64 ≤ (i 1).val ∧ (i 1).val < win4_6.index t (1 : Fin 2) * 64 + 64; omega

/-- The output array after the region, at every index. -/
theorem final4 (c : Dev nD) (p : Fin 100000) (q : Fin 64) :
    (dat4 V c).arrAt 6 cfg4.N (ix2 p q)
      = bnOp4 (V c main_v35_0 (ix2 p q)) (V c main_v5 (ix2 p q)) (V c main_v37 (ix2 0 q)) (V c main_v43 (ix2 0 q))
          (V c main_v46 (ix2 0 q)) (V c main_v49 (ix2 0 q)) := by
  rw [(dat4 V c).arrAt_eq_of_cover 6 (bnVal4 (V c main_v35_0) (V c main_v5) (V c main_v37) (V c main_v43) (V c main_v46) (V c main_v49))
    (fun t _ => bnFlushed4_eq V c t) bnCover4]

end Cert.KernelIdeal.Gen
-- ==== Proof.KLayer0.lean ====
/- Layer 0 of the kernel program, second part: the messages' segment sum combined with the node features, the
   perceptron and its column sums, the mean and the clamped variance the host forms from them, and the normalisation
   with the residual and the relu: the node features after the layer are the layer function of those before it. -/
import proofs.«127476_j62818191671466_2_alg».proof.Proof.KLayer0a
import proofs.«127476_j62818191671466_2_alg».proof.Proof.Final3
import proofs.«127476_j62818191671466_2_alg».proof.Proof.Final4

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-- What region 3 reads and what it leaves in its first output, as arrays over the extended reals. -/
abbrev L0_zin : Spec.A2 Spec.nN 64 := B7 m c main_v24
abbrev L0_z : Spec.A2 Spec.nN 64 := B8 m c main_v35_0

set_option maxHeartbeats 2000000 in
/-- What region 3 reads: (1 + eps) * h + the messages summed at their target nodes. -/
theorem L0_comb : L0_zin m c
    = Spec.comb (scatterK m c) (argEps m c) (0 : Fin 4) (hK0 m c) (Spec.msg (gatherK m c) (hK0 m c) (eK m c)) := by
  funext i
  obtain ⟨p, q, rfl⟩ : ∃ (p : Fin 100000) (q : Fin 64), i = ix2 p q := ⟨i 0, i 1, eq_ix2 i⟩
  show B7 m c main_v24 (ix2 p q) = _
  dsimp only [B7, hostOps3]
  after_results
  rw [L0_h_at6, L0_dst_at6, L0_arg8_at6, L0_msg]
  rw [addf_apply, mulf_apply, broadcastInDim_apply ![] bcast_S_S100000x64 _ (ix2 p q) ix0 (fun a => a.elim0), addf_apply]
  unfold Spec.comb
  rw [Spec.ofFn_ix2]
  have he : (shapeCast S_ (extractStridedSlice S1 ![0] (m (c, main_arg8)) slices_S4_S1_0) shapeCasts_S1_S_) ix0
      = argEps m c (ix1 (0 : Fin 4)) :=
    (shapeCast_apply _ _ ix0 (ix1 (0 : Fin 1)) rfl).trans
      (extractStridedSlice_apply _ _ _ _ (ix1 (0 : Fin 4)) (fun a => by
        match a with
        | ⟨0, _⟩ => rfl))
  exact congrArg (fun x : Ideal .f32 => (Spec.oneW + x) * hK0 m c (ix2 p q)
    + scatterK m c (Spec.msg (gatherK m c) (hK0 m c) (eK m c)) (ix2 p q)) he

/-- The perceptron's entry over parameter blocks that are the layer's slices of the parameter arrays. -/
theorem L0_mlpOp_eq (a : FVec Ideal S100000x64 .f32) (w1 : FVec Ideal S64x128 .f32) (b1 : FVec Ideal S1x128 .f32)
    (w2 : FVec Ideal S128x64 .f32) (b2 : FVec Ideal S1x64 .f32)
    (W1 : Spec.A3 4 64 128) (B1' : Spec.A2 4 128) (W2 : Spec.A3 4 128 64) (B2' : Spec.A2 4 64) (l : Fin 4)
    (h1 : ∀ k j, w1 (ix2 k j) = W1 (ix3 l k j)) (hb1 : ∀ j, b1 (ix2 (0 : Fin 1) j) = B1' (ix2 l j))
    (h2 : ∀ j q, w2 (ix2 j q) = W2 (ix3 l j q)) (hb2 : ∀ q, b2 (ix2 (0 : Fin 1) q) = B2' (ix2 l q))
    (p : Fin 100000) (q : Fin 64) :
    mlpOp3 a w1 b1 w2 b2 p q = Spec.mlp W1 B1' W2 B2' l a (ix2 p q) := by
  unfold Spec.mlp
  rw [Spec.ofFn_ix2]
  simp only [mlpOp3, h1, hb1, h2, hb2]

/-- Region 3's first output: the perceptron of what it reads. -/
theorem L0_mlp : L0_z m c
    = Spec.mlp (argW1 m c) (argB1 m c) (argW2 m c) (argB2 m c) (0 : Fin 4) (L0_zin m c) := by
  funext i
  obtain ⟨p, q, rfl⟩ : ∃ (p : Fin 100000) (q : Fin 64), i = ix2 p q := ⟨i 0, i 1, eq_ix2 i⟩
  show B8 m c main_v35_0 (ix2 p q) = _
  rw [← show (dat3 (E7 m) c).arrAt 5 cfg3.N = B8 m c main_v35_0 from hF3_5 m c, final3_5 (E7 m) c p q]
  exact L0_mlpOp_eq (B7 m c main_v24) (B7 m c main_v26) (B7 m c main_v33) (B7 m c main_v30) (B7 m c main_v34)
    (argW1 m c) (argB1 m c) (argW2 m c) (argB2 m c) (0 : Fin 4) (L0_w1 m c) (L0_b1 m c) (L0_w2 m c) (L0_b2 m c) p q

/-- The perceptron's entries are what region 3 states its two running rows over. -/
theorem L0_Z (p : Fin 100000) (q : Fin 64) : Z3 (E7 m) c p q = L0_z m c (ix2 p q) := by
  show _ = B8 m c main_v35_0 (ix2 p q)
  rw [← show (dat3 (E7 m) c).arrAt 5 cfg3.N = B8 m c main_v35_0 from hF3_5 m c, final3_5 (E7 m) c p q]

/-- Region 3's second and third outputs: the column sums of the perceptron and of its squares. -/
theorem L0_sum (q : Fin 64) : B8 m c main_v35_1 (ix2 (0 : Fin 1) q) = ∑ r : Fin Spec.nN, L0_z m c (ix2 r q) := by
  rw [← show (dat3 (E7 m) c).arrAt 6 cfg3.N = B8 m c main_v35_1 from hF3_6 m c, final3_6 (E7 m) c q]
  show ∑ r : Fin 100000, Z3 (E7 m) c r q = ∑ r : Fin Spec.nN, L0_z m c (ix2 r q)
  exact Finset.sum_congr rfl fun r _ => L0_Z m c r q
theorem L0_sq (q : Fin 64) : B8 m c main_v35_2 (ix2 (0 : Fin 1) q)
    = ∑ r : Fin Spec.nN, L0_z m c (ix2 r q) * L0_z m c (ix2 r q) := by
  rw [← show (dat3 (E7 m) c).arrAt 7 cfg3.N = B8 m c main_v35_2 from hF3_7 m c, final3_7 (E7 m) c q]
  show ∑ r : Fin 100000, Z3 (E7 m) c r q * Z3 (E7 m) c r q = ∑ r : Fin Spec.nN, L0_z m c (ix2 r q) * L0_z m c (ix2 r q)
  exact Finset.sum_congr rfl fun r _ => by rw [L0_Z]

/-! ## The mean and the clamped variance the host forms -/

set_option maxHeartbeats 2000000 in
/-- The mean row: the column sums divided by the row count. -/
theorem L0_mean (q : Fin 64) : B9 m c main_v37 (ix2 (0 : Fin 1) q) = Spec.colMean (L0_z m c) q := by
  dsimp only [B9, hostOps4]
  after_results
  show Ideal.div (B8 m c main_v35_1 (ix2 (0 : Fin 1) q))
    (broadcastInDim S1x64 ![] bcast_S_S1x64 (constant (F := Ideal) S_ .f32 0x47C35000#32) (ix2 (0 : Fin 1) q)) = _
  rw [L0_sum, broadcastInDim_apply ![] bcast_S_S1x64 _ (ix2 (0 : Fin 1) q) ix0 (fun a => a.elim0)]
  unfold Spec.colMean
  exact congrArg (Ideal.div (∑ r : Fin Spec.nN, L0_z m c (ix2 r q))) rfl

set_option maxHeartbeats 4000000 in
/-- The variance row: the mean of the squares less the squared mean, not below zero. -/
theorem L0_var (q : Fin 64) : B9 m c main_v43 (ix2 (0 : Fin 1) q) = Spec.varClamped (L0_z m c) q := by
  dsimp only [B9, hostOps4]
  after_results
  rw [maximumf_apply, subf_apply, mulf_apply]
  show max (Ideal.div (B8 m c main_v35_2 (ix2 (0 : Fin 1) q))
        (broadcastInDim S1x64 ![] bcast_S_S1x64 (constant (F := Ideal) S_ .f32 0x47C35000#32) (ix2 (0 : Fin 1) q))
      - Ideal.div (B8 m c main_v35_1 (ix2 (0 : Fin 1) q))
          (broadcastInDim S1x64 ![] bcast_S_S1x64 (constant (F := Ideal) S_ .f32 0x47C35000#32) (ix2 (0 : Fin 1) q))
        * Ideal.div (B8 m c main_v35_1 (ix2 (0 : Fin 1) q))
          (broadcastInDim S1x64 ![] bcast_S_S1x64 (constant (F := Ideal) S_ .f32 0x47C35000#32) (ix2 (0 : Fin 1) q)))
    (broadcastInDim S1x64 ![] bcast_S_S1x64 (constant (F := Ideal) S_ .f32 0x00000000#32) (ix2 (0 : Fin 1) q)) = _
  rw [L0_sum, L0_sq, broadcastInDim_apply ![] bcast_S_S1x64 _ (ix2 (0 : Fin 1) q) ix0 (fun a => a.elim0),
    broadcastInDim_apply ![] bcast_S_S1x64 _ (ix2 (0 : Fin 1) q) ix0 (fun a => a.elim0)]
  unfold Spec.varClamped Spec.colMean
  have hk : constant (F := Ideal) S_ .f32 0x47C35000#32 ix0 = Spec.cntW := rfl
  have h0 : constant (F := Ideal) S_ .f32 0x00000000#32 ix0 = (0 : EReal) := Ideal.ofBits_zero_f32
  rw [hk, h0]

/-! ## The layer -/

set_option maxHeartbeats 1000000 in
/-- The node features after layer 0. -/
theorem kLayer0 : hK1 m c = Spec.layerK (gatherK m c) (scatterK m c) (argEps m c) (argW1 m c) (argB1 m c) (argW2 m c)
    (argB2 m c) (argGam m c) (argBet m c) (0 : Fin 4) (hK0 m c) (eK m c) := by
  funext i
  obtain ⟨p, q, rfl⟩ : ∃ (p : Fin 100000) (q : Fin 64), i = ix2 p q := ⟨i 0, i 1, eq_ix2 i⟩
  have hz : L0_z m c = Spec.mlp (argW1 m c) (argB1 m c) (argW2 m c) (argB2 m c) (0 : Fin 4)
      (Spec.comb (scatterK m c) (argEps m c) (0 : Fin 4) (hK0 m c) (Spec.msg (gatherK m c) (hK0 m c) (eK m c))) := by
    rw [L0_mlp, L0_comb]
  show B10 m c main_v50 (ix2 p q) = _
  rw [← show (dat4 (E9 m) c).arrAt 6 cfg4.N = B10 m c main_v50 from hF4_6 m c, final4 (E9 m) c p q]
  show bnOp4 (B9 m c main_v35_0 (ix2 p q)) (B9 m c main_v5 (ix2 p q)) (B9 m c main_v37 (ix2 (0 : Fin 1) q))
    (B9 m c main_v43 (ix2 (0 : Fin 1) q)) (B9 m c main_v46 (ix2 (0 : Fin 1) q)) (B9 m c main_v49 (ix2 (0 : Fin 1) q)) = _
  rw [L0_mean, L0_var, L0_gam, L0_bet, L0_h_at9, B9_of m c main_v35_0 (by decide)]
  show bnOp4 (L0_z m c (ix2 p q)) (hK0 m c (ix2 p q)) (Spec.colMean (L0_z m c) q) (Spec.varClamped (L0_z m c) q)
    (argGam m c (ix2 (0 : Fin 4) q)) (argBet m c (ix2 (0 : Fin 4) q)) = _
  rw [hz]
  rfl

end Cert.KernelIdeal.Gen
-- ==== Proof.Final5.lean ====
/- The array the pipeline of custom_call 5 leaves in its output window, index by index, as a function of the arrays
   its two input windows read, in exact arithmetic: every row block of 10000 rows is written once, by the grid point
   of that number, with the pointwise value relu(a + b) of the same block of the two inputs. -/
import proofs.«127476_j62818191671466_2_alg».proof.Proof.Region5
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The body's operation on one pair of elements, in exact arithmetic: relu of the sum. -/
abbrev msgOp5 (x y : Ideal .f32) : Ideal .f32 := max (x + y) 0

/-- What the output array holds in the end: that operation of the two input arrays, index by index. -/
abbrev msgVal5 (a0 a1 : FVec Ideal S1000000x64 .f32) : FVec Ideal S1000000x64 .f32 :=
  fun i => msgOp5 (a0 i) (a1 i)

/-- The body's stored value is that operation of its two loaded blocks: the shape casts are identities and the
    constant word is the number zero. -/
theorem msgPay5_eq (x0 x1 : Vec Ideal S10000x64 .f32) : k5_pay1 x0 x1 = fun j => msgOp5 (x0 j) (x1 j) := by
  funext j
  show max (shapeCast S10000x64 x0 shapeCasts_S10000x64_S10000x64 j + shapeCast S10000x64 x1 shapeCasts_S10000x64_S10000x64 j)
    (Ideal.ofBits .f32 0x00000000#32) = _
  rw [Ideal.ofBits_zero_f32, shapeCast_self, shapeCast_self]

/-- The printed index maps, decided over the 100 grid points: all three windows are at row block t, column block 0. -/
theorem msgIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of msgVal5 of the two input arrays as the region finds them. -/
theorem msgFlushed5_eq (c : Dev nD) (t : Fin cfg5.N) :
    (dat5 V c).flushed 2 t = ((cfg5.win 2).blk t).view.read (Elt Ideal) (msgVal5 (V c main_v57) (V c main_v7)) := by
  show (cfg5.win 2).cut (grid5.coords t) ((dat5 V c).after 2 t) = _
  rw [after5_2]
  unfold out5_2
  rw [View.canon_unit_zero zeroOff5]
  simp only [View.ld_unit_zero (S := S10000x64) zeroOff5]
  rw [msgPay5_eq]
  obtain ⟨e0, e1, e2, e3, e4, e5⟩ := msgIdx5 t
  funext j
  show msgOp5 (V c main_v57 (((cfg5.win 0).blk t).view.emb j)) (V c main_v7 (((cfg5.win 1).blk t).view.emb j))
    = msgOp5 (V c main_v57 (((cfg5.win 2).blk t).view.emb j)) (V c main_v7 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

/-- An index of the array is in point t's block iff each coordinate is in the block's range on its axis. -/
theorem msgMem5 (t : Fin cfg5.N) (i : S1000000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v58).slice (win5_2.rect t)).set ↔ _
  rw [View.set_slice_whole, Rect.mem_set_unit]
  exact Iff.rfl

/-- Every index is in the block of the point its row falls in: row r is in block r / 10000. -/
theorem msgCover5 (i : S1000000x64.Idx) :
    ∃ t : Fin cfg5.N, (cfg5.win 2).flush t = true ∧ i ∈ ((cfg5.win 2).blk t).view.set := by
  have hi0 : (i 0).val < 1000000 := (i 0).isLt
  have hi1 : (i 1).val < 64 := (i 1).isLt
  have hN : cfg5.N = 100 := N_5
  let t : Fin cfg5.N := ⟨(i 0).val / 10000, by rw [hN]; omega⟩
  obtain ⟨-, -, -, -, e4, e5⟩ := msgIdx5 t
  have e4' : win5_2.index t (0 : Fin 2) = (i 0).val / 10000 := e4
  refine ⟨t, flush5_2 t, ?_⟩
  rw [msgMem5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region, at every index. -/
theorem final5 (c : Dev nD) (p : Fin 1000000) (q : Fin 64) :
    (dat5 V c).arrAt 2 cfg5.N (ix2 p q) = msgOp5 (V c main_v57 (ix2 p q)) (V c main_v7 (ix2 p q)) := by
  rw [(dat5 V c).arrAt_eq_of_cover 2 (msgVal5 (V c main_v57) (V c main_v7)) (fun t _ => msgFlushed5_eq V c t) msgCover5]

end Cert.KernelIdeal.Gen
-- ==== Proof.KLayer1a.lean ====
/- Layer 1 of the kernel program, first part: what the layer's items find unchanged from earlier items, the gathered
   rows, the messages, and the perceptron's and the normalisation's parameters as the regions find them (slices of the
   argument arrays at the layer's index). -/
import proofs.«127476_j62818191671466_2_alg».proof.Proof.KDefs
import proofs.«127476_j62818191671466_2_alg».proof.Proof.Final5
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-! ## What the layer's items find unchanged -/

/-- The node features the item before the layer left are what every item of the layer reads. -/
theorem L1_h_at10 : B10 m c main_v50 = hK1 m c := by
  rfl
theorem L1_h_at12 : B12 m c main_v50 = hK1 m c := by
  rw [B12_of m c main_v50 (by decide), B11_of m c main_v50 (by decide), L1_h_at10]
theorem L1_h_at15 : B15 m c main_v50 = hK1 m c := by
  rw [B15_of m c main_v50 (by decide), B14_of m c main_v50 (by decide), B13_of m c main_v50 (by decide),
    L1_h_at12]
/-- The edge features are what the messages' region reads. -/
theorem L1_e_at11 : B11 m c main_v7 = eK m c := by
  rw [B11_of m c main_v7 (by decide), B10_of m c main_v7 (by decide), B9_of m c main_v7 (by decide),
    B8_of m c main_v7 (by decide), B7_of m c main_v7 (by decide), B6_of m c main_v7 (by decide),
    B5_of m c main_v7 (by decide)]; rfl
/-- The edges' source and target columns are as the first host stretch left them. -/
theorem L1_src_at10 : B10 m c main_v1 = B1 m c main_v1 := by
  rw [B10_of m c main_v1 (by decide), B9_of m c main_v1 (by decide), B8_of m c main_v1 (by decide),
    B7_of m c main_v1 (by decide), B6_of m c main_v1 (by decide), B5_of m c main_v1 (by decide),
    B4_of m c main_v1 (by decide), B3_of m c main_v1 (by decide), B2_of m c main_v1 (by decide)]
theorem L1_dst_at12 : B12 m c main_v3 = B1 m c main_v3 := by
  rw [B12_of m c main_v3 (by decide), B11_of m c main_v3 (by decide), B10_of m c main_v3 (by decide),
    B9_of m c main_v3 (by decide), B8_of m c main_v3 (by decide), B7_of m c main_v3 (by decide),
    B6_of m c main_v3 (by decide), B5_of m c main_v3 (by decide), B4_of m c main_v3 (by decide),
    B3_of m c main_v3 (by decide), B2_of m c main_v3 (by decide)]
/-- The argument arrays are as launched. -/
theorem L1_arg8_at12 : B12 m c main_arg8 = m (c, main_arg8) := by
  rw [B12_of m c main_arg8 (by decide), B11_of m c main_arg8 (by decide), B10_of m c main_arg8 (by decide),
    B9_of m c main_arg8 (by decide), B8_of m c main_arg8 (by decide), B7_of m c main_arg8 (by decide),
    B6_of m c main_arg8 (by decide), B5_of m c main_arg8 (by decide), B4_of m c main_arg8 (by decide),
    B3_of m c main_arg8 (by decide), B2_of m c main_arg8 (by decide), B1_of m c main_arg8 (by decide)]
theorem L1_arg9_at12 : B12 m c main_arg9 = m (c, main_arg9) := by
  rw [B12_of m c main_arg9 (by decide), B11_of m c main_arg9 (by decide), B10_of m c main_arg9 (by decide),
    B9_of m c main_arg9 (by decide), B8_of m c main_arg9 (by decide), B7_of m c main_arg9 (by decide),
    B6_of m c main_arg9 (by decide), B5_of m c main_arg9 (by decide), B4_of m c main_arg9 (by decide),
    B3_of m c main_arg9 (by decide), B2_of m c main_arg9 (by decide), B1_of m c main_arg9 (by decide)]
theorem L1_arg10_at12 : B12 m c main_arg10 = m (c, main_arg10) := by
  rw [B12_of m c main_arg10 (by decide), B11_of m c main_arg10 (by decide), B10_of m c main_arg10 (by decide),
    B9_of m c main_arg10 (by decide), B8_of m c main_arg10 (by decide), B7_of m c main_arg10 (by decide),
    B6_of m c main_arg10 (by decide), B5_of m c main_arg10 (by decide), B4_of m c main_arg10 (by decide),
    B3_of m c main_arg10 (by decide), B2_of m c main_arg10 (by decide), B1_of m c main_arg10 (by decide)]
theorem L1_arg11_at12 : B12 m c main_arg11 = m (c, main_arg11) := by
  rw [B12_of m c main_arg11 (by decide), B11_of m c main_arg11 (by decide), B10_of m c main_arg11 (by decide),
    B9_of m c main_arg11 (by decide), B8_of m c main_arg11 (by decide), B7_of m c main_arg11 (by decide),
    B6_of m c main_arg11 (by decide), B5_of m c main_arg11 (by decide), B4_of m c main_arg11 (by decide),
    B3_of m c main_arg11 (by decide), B2_of m c main_arg11 (by decide), B1_of m c main_arg11 (by decide)]
theorem L1_arg12_at12 : B12 m c main_arg12 = m (c, main_arg12) := by
  rw [B12_of m c main_arg12 (by decide), B11_of m c main_arg12 (by decide), B10_of m c main_arg12 (by decide),
    B9_of m c main_arg12 (by decide), B8_of m c main_arg12 (by decide), B7_of m c main_arg12 (by decide),
    B6_of m c main_arg12 (by decide), B5_of m c main_arg12 (by decide), B4_of m c main_arg12 (by decide),
    B3_of m c main_arg12 (by decide), B2_of m c main_arg12 (by decide), B1_of m c main_arg12 (by decide)]
theorem L1_arg13_at14 : B14 m c main_arg13 = m (c, main_arg13) := by
  rw [B14_of m c main_arg13 (by decide), B13_of m c main_arg13 (by decide), B12_of m c main_arg13 (by decide),
    B11_of m c main_arg13 (by decide), B10_of m c main_arg13 (by decide), B9_of m c main_arg13 (by decide),
    B8_of m c main_arg13 (by decide), B7_of m c main_arg13 (by decide), B6_of m c main_arg13 (by decide),
    B5_of m c main_arg13 (by decide), B4_of m c main_arg13 (by decide), B3_of m c main_arg13 (by decide),
    B2_of m c main_arg13 (by decide), B1_of m c main_arg13 (by decide)]
theorem L1_arg14_at14 : B14 m c main_arg14 = m (c, main_arg14) := by
  rw [B14_of m c main_arg14 (by decide), B13_of m c main_arg14 (by decide), B12_of m c main_arg14 (by decide),
    B11_of m c main_arg14 (by decide), B10_of m c main_arg14 (by decide), B9_of m c main_arg14 (by decide),
    B8_of m c main_arg14 (by decide), B7_of m c main_arg14 (by decide), B6_of m c main_arg14 (by decide),
    B5_of m c main_arg14 (by decide), B4_of m c main_arg14 (by decide), B3_of m c main_arg14 (by decide),
    B2_of m c main_arg14 (by decide), B1_of m c main_arg14 (by decide)]

/-! ## The gather and the messages -/

/-- The rows region 5 reads: the gather of the node features at the edges' source nodes. -/
theorem L1_gather : B11 m c main_v57 = gatherK m c (hK1 m c) := by
  dsimp only [B11, hostOps5]
  after_results
  rw [L1_h_at10, L1_src_at10]
  rfl

/-- Region 5's output: the messages. -/
theorem L1_msg : B12 m c main_v58 = Spec.msg (gatherK m c) (hK1 m c) (eK m c) := by
  funext i
  obtain ⟨n, q, rfl⟩ : ∃ (n : Fin 1000000) (q : Fin 64), i = ix2 n q := ⟨i 0, i 1, eq_ix2 i⟩
  rw [← show (dat5 (E11 m) c).arrAt 2 cfg5.N = B12 m c main_v58 from hF5_2 m c, final5 (E11 m) c n q]
  show msgOp5 (B11 m c main_v57 (ix2 n q)) (B11 m c main_v7 (ix2 n q)) = _
  rw [L1_gather, L1_e_at11]
  rfl

/-! ## The perceptron's parameters and the normalisation's, as the regions find them -/

/-- A slice of one leading index of a rank-3 array, with the unit axis dropped, reads the array at that index. -/
theorem L1_w1 (k : Fin 64) (j : Fin 128) : B13 m c main_v69 (ix2 k j) = argW1 m c (ix3 (1 : Fin 4) k j) := by
  dsimp only [B13, hostOps6]
  after_results
  rw [L1_arg9_at12]
  refine (shapeCast_1ab_ab_apply _ _ k j).trans ?_
  exact extractStridedSlice_apply _ _ _ _ (ix3 (1 : Fin 4) k j) (fun a => by
    match a with
    | ⟨0, _⟩ => rfl
    | ⟨1, _⟩ => exact (Nat.zero_add _).symm
    | ⟨2, _⟩ => exact (Nat.zero_add _).symm)

theorem L1_w2 (j : Fin 128) (q : Fin 64) : B13 m c main_v73 (ix2 j q) = argW2 m c (ix3 (1 : Fin 4) j q) := by
  dsimp only [B13, hostOps6]
  after_results
  rw [L1_arg11_at12]
  refine (shapeCast_1ab_ab_apply _ _ j q).trans ?_
  exact extractStridedSlice_apply _ _ _ _ (ix3 (1 : Fin 4) j q) (fun a => by
    match a with
    | ⟨0, _⟩ => rfl
    | ⟨1, _⟩ => exact (Nat.zero_add _).symm
    | ⟨2, _⟩ => exact (Nat.zero_add _).symm)

/-- A one-row slice of a matrix, flattened and put back as one row, reads the matrix at that row. -/
theorem L1_b1 (j : Fin 128) : B13 m c main_v76 (ix2 (0 : Fin 1) j) = argB1 m c (ix2 (1 : Fin 4) j) := by
  dsimp only [B13, hostOps6]
  after_results
  rw [L1_arg10_at12]
  refine (shapeCast_a_1a_apply _ _ 0 j).trans ?_
  refine (shapeCast_1a_a_apply _ _ j).trans ?_
  exact slice2_axis0_apply 1 _ _ (0 : Fin 1) j (1 : Fin 4) rfl

theorem L1_b2 (q : Fin 64) : B13 m c main_v77 (ix2 (0 : Fin 1) q) = argB2 m c (ix2 (1 : Fin 4) q) := by
  dsimp only [B13, hostOps6]
  after_results
  rw [L1_arg12_at12]
  refine (shapeCast_a_1a_apply _ _ 0 q).trans ?_
  refine (shapeCast_1a_a_apply _ _ q).trans ?_
  exact slice2_axis0_apply 1 _ _ (0 : Fin 1) q (1 : Fin 4) rfl

theorem L1_gam (q : Fin 64) : B15 m c main_v89 (ix2 (0 : Fin 1) q) = argGam m c (ix2 (1 : Fin 4) q) := by
  dsimp only [B15, hostOps7]
  after_results
  rw [L1_arg13_at14]
  refine (shapeCast_a_1a_apply _ _ 0 q).trans ?_
  refine (shapeCast_1a_a_apply _ _ q).trans ?_
  exact slice2_axis0_apply 1 _ _ (0 : Fin 1) q (1 : Fin 4) rfl

theorem L1_bet (q : Fin 64) : B15 m c main_v92 (ix2 (0 : Fin 1) q) = argBet m c (ix2 (1 : Fin 4) q) := by
  dsimp only [B15, hostOps7]
  after_results
  rw [L1_arg14_at14]
  refine (shapeCast_a_1a_apply _ _ 0 q).trans ?_
  refine (shapeCast_1a_a_apply _ _ q).trans ?_
  exact slice2_axis0_apply 1 _ _ (0 : Fin 1) q (1 : Fin 4) rfl

end Cert.KernelIdeal.Gen
-- ==== Proof.PayloadK6.lean ====
/-
  The perceptron-and-statistics step of the second layer: the same body as the first layer's, launched under
  another name, so the same readings at an entry hold: the perceptron
  Σ_j max (Σ_k x(p, k) · w₁(k, j) + b₁(0, j)) 0 · w₂(j, q) + b₂(0, q), its column sums and the column sums of its
  squares added to the two running rows, and the rows' start at zero.
-/
import proofs.«127476_j62818191671466_2_alg».proof.Proof.PayloadK3

noncomputable section

namespace Cert.KernelIdeal.Payload

open Idealize.ShloMosaic Idealize.ShloMosaic.ValueIdx Cert.KernelIdeal Cert.KernelIdeal.Gen

/-- The squares' column sums added to the running row: entry (0, q) of the stored row. -/
theorem k6_pay1_apply (v24 : FVec Ideal S10000x64 .f32) (v33 : Vec Ideal S1x64 .f32) (q : Fin 64) :
    k6_pay1 v24 v33 (ix2 (0 : Fin 1) q) = v33 (ix2 (0 : Fin 1) q) + ∑ p : Fin 10000, v24 (ix2 p q) * v24 (ix2 p q) := by
  simp only [k6_pay1, shapeCast_self]
  exact congrArg (v33 (ix2 (0 : Fin 1) q) + ·)
    (colsum_row_apply (mulf v24 v24) reduces_S10000x64_S64 (.inl rfl) rfl shapeCasts_S64_S1x64 0 q)

/-- The two running rows start at zero. -/
theorem k6_pay2_apply (q : Fin 64) : k6_pay2 (F := Ideal) (ix2 (0 : Fin 1) q) = 0 := by
  simp only [k6_pay2, shapeCast_self]
  exact Ideal.ofBits_zero_f32

theorem k6_pay3_apply (q : Fin 64) : k6_pay3 (F := Ideal) (ix2 (0 : Fin 1) q) = 0 := by
  simp only [k6_pay3, shapeCast_self]
  exact Ideal.ofBits_zero_f32

/-- The two-layer perceptron at an entry: Σ_j max (Σ_k x(p, k) · w₁(k, j) + b₁(0, j)) 0 · w₂(j, q) + b₂(0, q). -/
theorem k6_pay4_apply (v3 : Vec Ideal S10000x64 .f32) (v6 : Vec Ideal S64x128 .f32) (v10 : Vec Ideal S1x128 .f32)
    (v17 : Vec Ideal S128x64 .f32) (v21 : Vec Ideal S1x64 .f32) (p : Fin 10000) (q : Fin 64) :
    k6_pay4 v3 v6 v10 v17 v21 (ix2 p q)
      = (∑ j : Fin 128, max ((∑ k : Fin 64, v3 (ix2 p k) * v6 (ix2 k j)) + v10 (ix2 (0 : Fin 1) j)) 0 * v17 (ix2 j q))
        + v21 (ix2 (0 : Fin 1) q) := by
  simp only [k6_pay4, shapeCast_self]
  rw [addf_apply, matmul_zero_plain_apply _ dot_10000x128_128x64_eq, broadcastTo_1b_ab_apply]
  refine congrArg (· + v21 (ix2 (0 : Fin 1) q)) (Finset.sum_congr rfl fun j _ => ?_)
  refine congrArg (· * v17 (ix2 j q)) ?_
  show max (matmul (F := Ideal) dot_S10000x64_S64x128_S10000x128_1_0_0_1_n_n none (truncf .bf16 v3 bitsLt_bf16_f32)
        (truncf .bf16 v6 bitsLt_bf16_f32) (constant S10000x128 .f32 0x00000000#32) (ix2 p j)
      + broadcastTo S10000x128 v10 broadcasts_S1x128_S10000x128 (ix2 p j)) (Ideal.ofBits .f32 0x00000000#32) = _
  rw [matmul_zero_plain_apply _ dot_10000x64_64x128_eq, broadcastTo_1b_ab_apply, Ideal.ofBits_zero_f32]
  rfl

/-- The perceptron's column sums added to the running row: entry (0, q) of the stored row. -/
theorem k6_pay5_apply (v3 : Vec Ideal S10000x64 .f32) (v6 : Vec Ideal S64x128 .f32) (v10 : Vec Ideal S1x128 .f32)
    (v17 : Vec Ideal S128x64 .f32) (v21 : Vec Ideal S1x64 .f32) (v26 : Vec Ideal S1x64 .f32) (q : Fin 64) :
    k6_pay5 v3 v6 v10 v17 v21 v26 (ix2 (0 : Fin 1) q)
      = v26 (ix2 (0 : Fin 1) q) + ∑ p : Fin 10000, k6_pay4 v3 v6 v10 v17 v21 (ix2 p q) := by
  simp only [k6_pay5, shapeCast_self]
  exact congrArg (v26 (ix2 (0 : Fin 1) q) + ·)
    (colsum_row_apply (k6_pay4 v3 v6 v10 v17 v21) reduces_S10000x64_S64 (.inl rfl) rfl shapeCasts_S64_S1x64 0 q)

end Cert.KernelIdeal.Payload

end
-- ==== Proof.Final6.lean ====
/- The three arrays the pipeline of custom_call 6 leaves in its output windows, index by index, as functions of the
   arrays its five input windows read, in exact arithmetic. Every row block of 10000 rows of the first output is written
   once, by the grid point of that number, with the two-layer perceptron of the same block of the input and of the four
   parameter arrays, which every point reads whole. The other two outputs are one row each, revisited at every point and
   written back once, after the last point: they end at the column sums of the first output over all 100000 rows, and at
   the column sums of its squares — the ten per-block sums, added up point after point from zero, regrouped into one sum
   over all rows. -/
import proofs.«127476_j62818191671466_2_alg».proof.Proof.Region6
import proofs.«127476_j62818191671466_2_alg».proof.Proof.PayloadK6
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Payload

variable (V : (c : Dev nD) → (b : Ref sig .tc) → Buf (Elt Ideal) ((c : Thread nD τ).loc b))

theorem zeroOff6 : (![0, 0] : Fin 2 → Nat) = fun _ => 0 := funext fun a => by fin_cases a <;> rfl

/-! ## The perceptron at an entry -/

/-- The two-layer perceptron at row p, column q, from the input array and the four parameter arrays, in exact
    arithmetic: Σ_j relu(Σ_k a(p, k) · w₁(k, j) + b₁(0, j)) · w₂(j, q) + b₂(0, q). -/
abbrev mlpOp6 (a : FVec Ideal S100000x64 .f32) (w1 : FVec Ideal S64x128 .f32) (b1 : FVec Ideal S1x128 .f32)
    (w2 : FVec Ideal S128x64 .f32) (b2 : FVec Ideal S1x64 .f32) (p : Fin 100000) (q : Fin 64) : Ideal .f32 :=
  (∑ j : Fin 128, max ((∑ k : Fin 64, a (ix2 p k) * w1 (ix2 k j)) + b1 (ix2 (0 : Fin 1) j)) 0 * w2 (ix2 j q)) + b2 (ix2 (0 : Fin 1) q)

/-- The same of the five arrays as the region finds them. -/
abbrev Z6 (c : Dev nD) (p : Fin 100000) (q : Fin 64) : Ideal .f32 :=
  mlpOp6 (V c main_v67) (V c main_v69) (V c main_v76) (V c main_v73) (V c main_v77) p q

/-- What the first output array holds in the end. -/
abbrev zrawVal6 (c : Dev nD) : FVec Ideal S100000x64 .f32 :=
  fun i => Z6 V c (i 0) (i 1)

/-- The index maps, decided over the 10 grid points: the input and the first output are at row block t, column block
    0; the four parameter arrays and the two one-row outputs are at block (0, 0) at every point. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Row p of block t is a row of the array. -/
theorem rowLt6 (t : Fin cfg6.N) (p : Fin 10000) : t.val * 10000 + p.val < 100000 := by
  have := t.isLt; have hN : cfg6.N = 10 := N_6; have := p.isLt; omega

/-- The value the body stores into the first output's buffer at point t, at entry (p, q): the perceptron at row
    t · 10000 + p of the array. The loads read whole buffers; the input's block t starts at that row; the parameter
    arrays' one block is the whole array. -/
theorem zrawBlk6 (c : Dev nD) (t : Fin cfg6.N) (p : Fin 10000) (q : Fin 64) :
    zraw6 (iblk6 V c 0 t) (iblk6 V c 1 t) (iblk6 V c 2 t) (iblk6 V c 3 t) (iblk6 V c 4 t) (ix2 p q)
      = Z6 V c ⟨t.val * 10000 + p.val, rowLt6 t p⟩ q := by
  unfold zraw6
  simp only [View.ld_unit_zero (S := S10000x64) zeroOff6, View.ld_unit_zero (S := S64x128) zeroOff6, View.ld_unit_zero (S := S1x128) zeroOff6,
    View.ld_unit_zero (S := S128x64) zeroOff6, View.ld_unit_zero (S := S1x64) zeroOff6]
  rw [k6_pay4_apply]
  obtain ⟨e00, e01, e10, e11, e20, e21, e30, e31, e40, e41, -⟩ := idx6 t
  have h0 : ∀ k : Fin 64, iblk6 V c 0 t (ix2 p k) = V c main_v67 (ix2 (⟨t.val * 10000 + p.val, rowLt6 t p⟩ : Fin 100000) k) := fun k => by
    show V c main_v67 (((cfg6.win 0).blk t).view.emb (ix2 p k)) = _
    refine congrArg (V c main_v67) ?_
    funext a; apply Fin.ext
    match a with
    | ⟨0, _⟩ => show win6_0.index t (0 : Fin 2) * 10000 + 1 * p.val = t.val * 10000 + p.val; omega
    | ⟨1, _⟩ => show win6_0.index t (1 : Fin 2) * 64 + 1 * k.val = k.val; omega
  have h1 : ∀ (k : Fin 64) (j : Fin 128), iblk6 V c 1 t (ix2 k j) = V c main_v69 (ix2 k j) := fun k j => by
    show V c main_v69 (((cfg6.win 1).blk t).view.emb (ix2 k j)) = _
    refine congrArg (V c main_v69) ?_
    funext a; apply Fin.ext
    match a with
    | ⟨0, _⟩ => show win6_1.index t (0 : Fin 2) * 64 + 1 * k.val = k.val; omega
    | ⟨1, _⟩ => show win6_1.index t (1 : Fin 2) * 128 + 1 * j.val = j.val; omega
  have h2 : ∀ j : Fin 128, iblk6 V c 2 t (ix2 (0 : Fin 1) j) = V c main_v76 (ix2 (0 : Fin 1) j) := fun j => by
    show V c main_v76 (((cfg6.win 2).blk t).view.emb (ix2 (0 : Fin 1) j)) = _
    refine congrArg (V c main_v76) ?_
    funext a; apply Fin.ext
    match a with
    | ⟨0, _⟩ => show win6_2.index t (0 : Fin 2) * 1 + 1 * 0 = 0; omega
    | ⟨1, _⟩ => show win6_2.index t (1 : Fin 2) * 128 + 1 * j.val = j.val; omega
  have h3 : ∀ (j : Fin 128) (q : Fin 64), iblk6 V c 3 t (ix2 j q) = V c main_v73 (ix2 j q) := fun j q => by
    show V c main_v73 (((cfg6.win 3).blk t).view.emb (ix2 j q)) = _
    refine congrArg (V c main_v73) ?_
    funext a; apply Fin.ext
    match a with
    | ⟨0, _⟩ => show win6_3.index t (0 : Fin 2) * 128 + 1 * j.val = j.val; omega
    | ⟨1, _⟩ => show win6_3.index t (1 : Fin 2) * 64 + 1 * q.val = q.val; omega
  have h4 : ∀ q : Fin 64, iblk6 V c 4 t (ix2 (0 : Fin 1) q) = V c main_v77 (ix2 (0 : Fin 1) q) := fun q => by
    show V c main_v77 (((cfg6.win 4).blk t).view.emb (ix2 (0 : Fin 1) q)) = _
    refine congrArg (V c main_v77) ?_
    funext a; apply Fin.ext
    match a with
    | ⟨0, _⟩ => show win6_4.index t (0 : Fin 2) * 1 + 1 * 0 = 0; omega
    | ⟨1, _⟩ => show win6_4.index t (1 : Fin 2) * 64 + 1 * q.val = q.val; omega
  simp only [h0, h1, h2, h3, h4]

/-! ## The first output: the perceptron of every row -/

/-- What point t writes back is block t of the perceptron of the whole input array. -/
theorem flushed6_5_eq (c : Dev nD) (t : Fin cfg6.N) :
    (dat6 V c).flushed 5 t = ((cfg6.win 5).blk t).view.read (Elt Ideal) (zrawVal6 V c) := by
  show (cfg6.win 5).cut (grid6.coords t) ((dat6 V c).after 5 t) = _
  rw [after6_5]
  unfold out6_5
  rw [View.canon_unit_zero zeroOff6]
  obtain ⟨-, -, -, -, -, -, -, -, -, -, e50, e51, -⟩ := idx6 t
  funext j
  obtain ⟨j0, j1, rfl⟩ : ∃ (j0 : Fin 10000) (j1 : Fin 64), j = ix2 j0 j1 := ⟨j 0, j 1, eq_ix2 j⟩
  show zraw6 (iblk6 V c 0 t) (iblk6 V c 1 t) (iblk6 V c 2 t) (iblk6 V c 3 t) (iblk6 V c 4 t) (ix2 j0 j1) = zrawVal6 V c (((cfg6.win 5).blk t).view.emb (ix2 j0 j1))
  have h5 : ((cfg6.win 5).blk t).view.emb (ix2 j0 j1) = ix2 (⟨t.val * 10000 + j0.val, rowLt6 t j0⟩ : Fin 100000) j1 := by
    funext a; apply Fin.ext
    match a with
    | ⟨0, _⟩ => show win6_5.index t (0 : Fin 2) * 10000 + 1 * j0.val = t.val * 10000 + j0.val; omega
    | ⟨1, _⟩ => show win6_5.index t (1 : Fin 2) * 64 + 1 * j1.val = j1.val; omega
  rw [h5, zrawBlk6]

/-- An index of the first output array is in point t's block iff each coordinate is in the block's range on its axis. -/
theorem mem6_5 (t : Fin cfg6.N) (i : S100000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v78_0).slice (win6_5.rect t)).set ↔ _
  rw [View.set_slice_whole, Rect.mem_set_unit]
  exact Iff.rfl

/-- Every index is in the block of the point its row falls in: row r is in block r / 10000. -/
theorem cover6_5 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 10 := N_6
  let t : Fin cfg6.N := ⟨(i 0).val / 10000, by rw [hN]; omega⟩
  obtain ⟨-, -, -, -, -, -, -, -, -, -, e50, e51, -⟩ := idx6 t
  have e50' : win6_5.index t (0 : Fin 2) = (i 0).val / 10000 := e50
  refine ⟨t, flush6_5 t, ?_⟩
  rw [mem6_5]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- THE FIRST OUTPUT after the region, at every index: the perceptron of the index's row. -/
theorem final6_5 (c : Dev nD) (p : Fin 100000) (q : Fin 64) :
    (dat6 V c).arrAt 5 cfg6.N (ix2 p q) = Z6 V c p q := by
  rw [(dat6 V c).arrAt_eq_of_cover 5 (zrawVal6 V c) (fun t _ => flushed6_5_eq V c t) (cover6_5)]

/-! ## The two running rows -/

/-- What a point adds to the first running row at column q: the column sum of its block of the perceptron. -/
theorem sumAt6_apply (c : Dev nD) (t : Fin cfg6.N) (v : Vec Ideal S1x64 .f32) (q : Fin 64) :
    sumAt6 V c t v (ix2 (0 : Fin 1) q)
      = v (ix2 (0 : Fin 1) q) + ∑ p : Fin 10000, Z6 V c ⟨t.val * 10000 + p.val, rowLt6 t p⟩ q := by
  unfold sumAt6 sumP6
  rw [k6_pay5_apply]
  exact congrArg (v (ix2 (0 : Fin 1) q) + ·) (Finset.sum_congr rfl fun p _ => zrawBlk6 V c t p q)

/-- What a point adds to the second running row at column q: the column sum of the squares of its block. -/
theorem sqAt6_apply (c : Dev nD) (t : Fin cfg6.N) (v : Vec Ideal S1x64 .f32) (q : Fin 64) :
    sqAt6 V c t v (ix2 (0 : Fin 1) q)
      = v (ix2 (0 : Fin 1) q) + ∑ p : Fin 10000, Z6 V c ⟨t.val * 10000 + p.val, rowLt6 t p⟩ q * Z6 V c ⟨t.val * 10000 + p.val, rowLt6 t p⟩ q := by
  unfold sqAt6 sqP6
  rw [k6_pay1_apply]
  exact congrArg (v (ix2 (0 : Fin 1) q) + ·) (Finset.sum_congr rfl fun p _ => by rw [zrawBlk6 V c t p q])

/-- The column sum of block n of the perceptron (zero past the last block), -/
def bsum6 (c : Dev nD) (q : Fin 64) (n : ℕ) : Ideal .f32 :=
  if h : n < cfg6.N then ∑ p : Fin 10000, Z6 V c ⟨n * 10000 + p.val, rowLt6 ⟨n, h⟩ p⟩ q else 0
/-- and of its squares. -/
def bsq6 (c : Dev nD) (q : Fin 64) (n : ℕ) : Ideal .f32 :=
  if h : n < cfg6.N then ∑ p : Fin 10000, Z6 V c ⟨n * 10000 + p.val, rowLt6 ⟨n, h⟩ p⟩ q * Z6 V c ⟨n * 10000 + p.val, rowLt6 ⟨n, h⟩ p⟩ q else 0

/-- After point n the two running rows hold, at column q, the sums of the block sums of the points 0..n. -/
theorem acc6_sum (c : Dev nD) (q : Fin 64) : ∀ (n : ℕ) (hn : n < cfg6.N),
    (acc6 V c n hn).1 (ix2 (0 : Fin 1) q) = ∑ a ∈ Finset.range (n + 1), bsum6 V c q a
    ∧ (acc6 V c n hn).2 (ix2 (0 : Fin 1) q) = ∑ a ∈ Finset.range (n + 1), bsq6 V c q a
  | 0, hn => by
    refine ⟨?_, ?_⟩
    · show sumAt6 V c ⟨0, hn⟩ (k6_pay2 (F := Ideal)) (ix2 (0 : Fin 1) q) = _
      rw [sumAt6_apply, k6_pay2_apply, zero_add, Finset.sum_range_one]
      unfold bsum6; rw [dif_pos hn]
    · show sqAt6 V c ⟨0, hn⟩ (k6_pay3 (F := Ideal)) (ix2 (0 : Fin 1) q) = _
      rw [sqAt6_apply, k6_pay3_apply, zero_add, Finset.sum_range_one]
      unfold bsq6; rw [dif_pos hn]
  | n + 1, hn => by
    obtain ⟨ih1, ih2⟩ := acc6_sum c q n (Nat.lt_of_succ_lt hn)
    refine ⟨?_, ?_⟩
    · show sumAt6 V c ⟨n + 1, hn⟩ (acc6 V c n (Nat.lt_of_succ_lt hn)).1 (ix2 (0 : Fin 1) q) = _
      rw [sumAt6_apply, ih1, Finset.sum_range_succ (bsum6 V c q) (n + 1)]
      refine congrArg (_ + ·) ?_
      unfold bsum6; rw [dif_pos hn]
    · show sqAt6 V c ⟨n + 1, hn⟩ (acc6 V c n (Nat.lt_of_succ_lt hn)).2 (ix2 (0 : Fin 1) q) = _
      rw [sqAt6_apply, ih2, Finset.sum_range_succ (bsq6 V c q) (n + 1)]
      refine congrArg (_ + ·) ?_
      unfold bsq6; rw [dif_pos hn]

/-- The rows regrouped: row r of the array is row r % 10000 of block r / 10000. -/
def rowsEquiv6 : Fin 10 × Fin 10000 ≃ Fin 100000 where
  toFun x := ⟨x.1.val * 10000 + x.2.val, by have := x.1.isLt; have := x.2.isLt; omega⟩
  invFun r := (⟨r.val / 10000, by have := r.isLt; omega⟩, ⟨r.val % 10000, Nat.mod_lt _ (by decide)⟩)
  left_inv x := by
    obtain ⟨a, b⟩ := x
    have := a.isLt; have := b.isLt
    refine Prod.ext (Fin.ext ?_) (Fin.ext ?_)
    · show (a.val * 10000 + b.val) / 10000 = a.val; omega
    · show (a.val * 10000 + b.val) % 10000 = b.val; omega
  right_inv r := by
    apply Fin.ext
    show r.val / 10000 * 10000 + r.val % 10000 = r.val; omega

/-- Ten sums over the blocks of 10000 rows, added up, are one sum over the 100000 rows. -/
theorem sum_blocks6 (f : Fin 100000 → Ideal .f32) (g : ℕ → Ideal .f32)
    (hg : ∀ (n : ℕ) (h : n < 10), g n = ∑ p : Fin 10000, f ⟨n * 10000 + p.val, by have := p.isLt; omega⟩) :
    ∑ a ∈ Finset.range 10, g a = ∑ r : Fin 100000, f r := by
  have e1 : ∑ a ∈ Finset.range 10, g a = ∑ a : Fin 10, g a.val := (Fin.sum_univ_eq_sum_range g 10).symm
  rw [e1]
  have e2 : ∑ r : Fin 100000, f r = ∑ x : Fin 10 × Fin 10000, f (rowsEquiv6 x) :=
    (Fintype.sum_equiv rowsEquiv6 (fun x => f (rowsEquiv6 x)) f (fun _ => rfl)).symm
  rw [e2, Fintype.sum_prod_type]
  refine Finset.sum_congr rfl fun a _ => ?_
  rw [hg a.val a.isLt]
  rfl

/-- After the last point the first running row holds, at column q, the column sum of the perceptron over all rows, -/
theorem acc6_total_sum (c : Dev nD) (q : Fin 64) (hn : 9 < cfg6.N) :
    (acc6 V c 9 hn).1 (ix2 (0 : Fin 1) q) = ∑ p : Fin 100000, Z6 V c p q := by
  rw [(acc6_sum V c q 9 hn).1]
  refine sum_blocks6 (fun r => Z6 V c r q) (bsum6 V c q) fun n h => ?_
  unfold bsum6; rw [dif_pos (by rw [show cfg6.N = 10 from N_6]; exact h)]

/-- and the second the column sum of its squares. -/
theorem acc6_total_sq (c : Dev nD) (q : Fin 64) (hn : 9 < cfg6.N) :
    (acc6 V c 9 hn).2 (ix2 (0 : Fin 1) q) = ∑ p : Fin 100000, Z6 V c p q * Z6 V c p q := by
  rw [(acc6_sum V c q 9 hn).2]
  refine sum_blocks6 (fun r => Z6 V c r q * Z6 V c r q) (bsq6 V c q) fun n h => ?_
  unfold bsq6; rw [dif_pos (by rw [show cfg6.N = 10 from N_6]; exact h)]

/-! ## The two one-row outputs: written back once, after the last point -/

/-- What the second output array holds in the end, -/
def sumVal6 (c : Dev nD) : FVec Ideal S1x64 .f32 := fun i => ∑ p : Fin 100000, Z6 V c p (i 1)
/-- and the third. -/
def sqVal6 (c : Dev nD) : FVec Ideal S1x64 .f32 := fun i => ∑ p : Fin 100000, Z6 V c p (i 1) * Z6 V c p (i 1)

/-- The one block of a one-row output is the whole row, at every point. -/
theorem emb6_6 (t : Fin cfg6.N) (q : Fin 64) : ((cfg6.win 6).blk t).view.emb (ix2 (0 : Fin 1) q) = ix2 (0 : Fin 1) q := by
  obtain ⟨-, -, -, -, -, -, -, -, -, -, -, -, e60, e61, -⟩ := idx6 t
  funext a; apply Fin.ext
  match a with
  | ⟨0, _⟩ => show win6_6.index t (0 : Fin 2) * 1 + 1 * 0 = 0; omega
  | ⟨1, _⟩ => show win6_6.index t (1 : Fin 2) * 64 + 1 * q.val = q.val; omega
theorem emb6_7 (t : Fin cfg6.N) (q : Fin 64) : ((cfg6.win 7).blk t).view.emb (ix2 (0 : Fin 1) q) = ix2 (0 : Fin 1) q := by
  obtain ⟨-, -, -, -, -, -, -, -, -, -, -, -, -, -, e70, e71⟩ := idx6 t
  funext a; apply Fin.ext
  match a with
  | ⟨0, _⟩ => show win6_7.index t (0 : Fin 2) * 1 + 1 * 0 = 0; omega
  | ⟨1, _⟩ => show win6_7.index t (1 : Fin 2) * 64 + 1 * q.val = q.val; omega

/-- So reading any one-row array through that block reads the array. -/
theorem read_blk6_6 (G : FVec Ideal S1x64 .f32) (t : Fin cfg6.N) (q : Fin 64) :
    ((cfg6.win 6).blk t).view.read (Elt Ideal) G (ix2 (0 : Fin 1) q) = G (ix2 (0 : Fin 1) q) := by
  show G (((cfg6.win 6).blk t).view.emb (ix2 (0 : Fin 1) q)) = _
  exact congrArg G (emb6_6 t q)
theorem read_blk6_7 (G : FVec Ideal S1x64 .f32) (t : Fin cfg6.N) (q : Fin 64) :
    ((cfg6.win 7).blk t).view.read (Elt Ideal) G (ix2 (0 : Fin 1) q) = G (ix2 (0 : Fin 1) q) := by
  show G (((cfg6.win 7).blk t).view.emb (ix2 (0 : Fin 1) q)) = _
  exact congrArg G (emb6_7 t q)

theorem sumVal6_apply (c : Dev nD) (q : Fin 64) : sumVal6 V c (ix2 (0 : Fin 1) q) = ∑ p : Fin 100000, Z6 V c p q := by
  unfold sumVal6; rfl
theorem sqVal6_apply (c : Dev nD) (q : Fin 64) : sqVal6 V c (ix2 (0 : Fin 1) q) = ∑ p : Fin 100000, Z6 V c p q * Z6 V c p q := by
  unfold sqVal6; rfl

/-- The only point that writes the second output back is the last; what it writes is the row of the totals. -/
theorem flushed6_6_eq (c : Dev nD) (t : Fin cfg6.N) (hf : (cfg6.win 6).flush t = true) :
    (dat6 V c).flushed 6 t = ((cfg6.win 6).blk t).view.read (Elt Ideal) (sumVal6 V c) := by
  have hN : cfg6.N = 10 := N_6
  have h9 : t.val = 9 := by have := (flush6_6 t).mp hf; have := t.isLt; omega
  show (cfg6.win 6).cut (grid6.coords t) ((dat6 V c).after 6 t) = _
  rw [after6_6]
  unfold rowBuf6
  rw [View.canon_unit_zero zeroOff6]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk6_6 (sumVal6 V c) t j1).symm
  rw [sumVal6_apply]
  show (acc6 V c t.val t.isLt).1 (ix2 (0 : Fin 1) j1) = _
  obtain ⟨n, hn⟩ := t
  obtain rfl : n = 9 := h9
  exact acc6_total_sum V c j1 hn

/-- The same of the third output. -/
theorem flushed6_7_eq (c : Dev nD) (t : Fin cfg6.N) (hf : (cfg6.win 7).flush t = true) :
    (dat6 V c).flushed 7 t = ((cfg6.win 7).blk t).view.read (Elt Ideal) (sqVal6 V c) := by
  have hN : cfg6.N = 10 := N_6
  have h9 : t.val = 9 := by have := (flush6_7 t).mp hf; have := t.isLt; omega
  show (cfg6.win 7).cut (grid6.coords t) ((dat6 V c).after 7 t) = _
  rw [after6_7]
  unfold rowBuf6
  rw [View.canon_unit_zero zeroOff6]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk6_7 (sqVal6 V c) t j1).symm
  rw [sqVal6_apply]
  show (acc6 V c t.val t.isLt).2 (ix2 (0 : Fin 1) j1) = _
  obtain ⟨n, hn⟩ := t
  obtain rfl : n = 9 := h9
  exact acc6_total_sq V c j1 hn

/-- Every index of a one-row output is in the last point's block, which is written back. -/
theorem cover6_6 (i : S1x64.Idx) :
    ∃ t : Fin cfg6.N, (cfg6.win 6).flush t = true ∧ i ∈ ((cfg6.win 6).blk t).view.set := by
  have hi0 : (i 0).val < 1 := (i 0).isLt
  have hi1 : (i 1).val < 64 := (i 1).isLt
  have hN : cfg6.N = 10 := N_6
  let t : Fin cfg6.N := ⟨9, by rw [hN]; decide⟩
  obtain ⟨-, -, -, -, -, -, -, -, -, -, -, -, e60, e61, -⟩ := idx6 t
  refine ⟨t, (flush6_6 t).mpr rfl, ?_⟩
  show i ∈ ((View.whole main_v78_1).slice (win6_6.rect t)).set
  rw [View.set_slice_whole, Rect.mem_set_unit]
  intro a
  match a with
  | ⟨0, _⟩ => show win6_6.index t (0 : Fin 2) * 1 ≤ (i 0).val ∧ (i 0).val < win6_6.index t (0 : Fin 2) * 1 + 1; omega
  | ⟨1, _⟩ => show win6_6.index t (1 : Fin 2) * 64 ≤ (i 1).val ∧ (i 1).val < win6_6.index t (1 : Fin 2) * 64 + 64; omega
theorem cover6_7 (i : S1x64.Idx) :
    ∃ t : Fin cfg6.N, (cfg6.win 7).flush t = true ∧ i ∈ ((cfg6.win 7).blk t).view.set := by
  have hi0 : (i 0).val < 1 := (i 0).isLt
  have hi1 : (i 1).val < 64 := (i 1).isLt
  have hN : cfg6.N = 10 := N_6
  let t : Fin cfg6.N := ⟨9, by rw [hN]; decide⟩
  obtain ⟨-, -, -, -, -, -, -, -, -, -, -, -, -, -, e70, e71⟩ := idx6 t
  refine ⟨t, (flush6_7 t).mpr rfl, ?_⟩
  show i ∈ ((View.whole main_v78_2).slice (win6_7.rect t)).set
  rw [View.set_slice_whole, Rect.mem_set_unit]
  intro a
  match a with
  | ⟨0, _⟩ => show win6_7.index t (0 : Fin 2) * 1 ≤ (i 0).val ∧ (i 0).val < win6_7.index t (0 : Fin 2) * 1 + 1; omega
  | ⟨1, _⟩ => show win6_7.index t (1 : Fin 2) * 64 ≤ (i 1).val ∧ (i 1).val < win6_7.index t (1 : Fin 2) * 64 + 64; omega

/-- THE SECOND OUTPUT after the region: at column q the column sum of the perceptron over all 100000 rows. -/
theorem final6_6 (c : Dev nD) (q : Fin 64) :
    (dat6 V c).arrAt 6 cfg6.N (ix2 (0 : Fin 1) q) = ∑ p : Fin 100000, Z6 V c p q := by
  exact (congrFun ((dat6 V c).arrAt_eq_of_cover 6 (sumVal6 V c) (fun t hf => flushed6_6_eq V c t hf) (cover6_6)) (ix2 (0 : Fin 1) q)).trans (sumVal6_apply V c q)

/-- THE THIRD OUTPUT after the region: at column q the column sum of the squares of the perceptron over all rows. -/
theorem final6_7 (c : Dev nD) (q : Fin 64) :
    (dat6 V c).arrAt 7 cfg6.N (ix2 (0 : Fin 1) q) = ∑ p : Fin 100000, Z6 V c p q * Z6 V c p q := by
  exact (congrFun ((dat6 V c).arrAt_eq_of_cover 7 (sqVal6 V c) (fun t hf => flushed6_7_eq V c t hf) (cover6_7)) (ix2 (0 : Fin 1) q)).trans (sqVal6_apply V c q)

end Cert.KernelIdeal.Gen

end
-- ==== Proof.Final7.lean ====
/- The array the pipeline of custom_call 7 leaves in its output window, index by index, as a function of the arrays
   its six input windows read, in exact arithmetic: every row block of 10000 rows is written once, by the grid point
   of that number, with relu((z - mean) * rsqrt(var + eps) * gamma + beta + h) of the same block of z and h and of the
   four one-row arrays, which every point reads whole. -/
import proofs.«127476_j62818191671466_2_alg».proof.Proof.Region7
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff7 : (![0, 0] : Fin 2 → Nat) = fun _ => 0 := funext fun a => by fin_cases a <;> rfl

/-- The body's operation on one element of z and of h and the four row entries of its column, in exact arithmetic:
    the normalisation's affine map, the residual added, then relu. -/
abbrev bnOp7 (z h mean var gamma beta : Ideal .f32) : Ideal .f32 :=
  max ((z - mean) * Ideal.rsqrt (var + Ideal.ofBits .f32 0x3727C5AC#32) * gamma + beta + h) 0

/-- What the output array holds in the end: that operation of the two full arrays at the index and of the four
    one-row arrays at the index's column. -/
abbrev bnVal7 (z h : FVec Ideal S100000x64 .f32) (mean var gamma beta : FVec Ideal S1x64 .f32) : FVec Ideal S100000x64 .f32 :=
  fun i => bnOp7 (z i) (h i) (mean (ix2 0 (i 1))) (var (ix2 0 (i 1))) (gamma (ix2 0 (i 1))) (beta (ix2 0 (i 1)))

/-- A one-row vector broadcast down the 10000 rows reads, at an index, the row's entry of the index's column. -/
theorem bnRow7 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The body's stored value is that operation of its six loaded blocks: the shape casts are identities, the
    broadcasts read the row, and the constant word of the last maximum is the number zero. -/
theorem bnPay7_eq (x0 x1 : Vec Ideal S10000x64 .f32) (x2 x3 x4 x5 : Vec Ideal S1x64 .f32) :
    k7_pay1 x3 x0 x2 x4 x5 x1
      = fun j => bnOp7 (x0 j) (x1 j) (x2 (ix2 0 (j 1))) (x3 (ix2 0 (j 1))) (x4 (ix2 0 (j 1))) (x5 (ix2 0 (j 1))) := by
  funext j
  unfold k7_pay1
  simp only [shapeCast_self]
  show max ((x0 j - broadcastTo S10000x64 x2 broadcasts_S1x64_S10000x64 j)
        * broadcastTo S10000x64 (rsqrt (F := Ideal) (addf (F := Ideal) x3 (broadcast S1x64 (Scalar.ofBits (F := Ideal) .f32 0x3727C5AC#32)))) broadcasts_S1x64_S10000x64 j
        * broadcastTo S10000x64 x4 broadcasts_S1x64_S10000x64 j
      + broadcastTo S10000x64 x5 broadcasts_S1x64_S10000x64 j + x1 j) (Ideal.ofBits .f32 0x00000000#32) = _
  simp only [bnRow7]
  rw [Ideal.ofBits_zero_f32]
  rfl

/-- The printed index maps, decided over the 10 grid points: the two full inputs and the output are at row block t,
    column block 0; the four one-row inputs are at block (0, 0) at every point. -/
theorem bnIdx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

set_option maxHeartbeats 1600000 in
/-- What point t writes back is block t of bnVal7 of the six input arrays as the region finds them. -/
theorem bnFlushed7_eq (c : Dev nD) (t : Fin cfg7.N) :
    (dat7 V c).flushed 6 t = ((cfg7.win 6).blk t).view.read (Elt Ideal)
      (bnVal7 (V c main_v78_0) (V c main_v50) (V c main_v80) (V c main_v86) (V c main_v89) (V c main_v92)) := by
  show (cfg7.win 6).cut (grid7.coords t) ((dat7 V c).after 6 t) = _
  rw [after7_6]
  unfold out7_6
  rw [View.canon_unit_zero zeroOff7]
  simp only [View.ld_unit_zero (S := S10000x64) zeroOff7, View.ld_unit_zero (S := S1x64) zeroOff7]
  rw [bnPay7_eq]
  obtain ⟨e00, e01, e10, e11, e20, e21, e30, e31, e40, e41, e50, e51, e60, e61⟩ := bnIdx7 t
  funext j
  obtain ⟨j0, j1, rfl⟩ : ∃ (j0 : Fin 10000) (j1 : Fin 64), j = ix2 j0 j1 := ⟨j 0, j 1, eq_ix2 j⟩
  have ht : t.val < 10 := by have := t.isLt; have hN : cfg7.N = 10 := N_7; omega
  -- the array index of element (j0, j1) of block t: row t * 10000 + j0, column j1
  let i6 : S100000x64.Idx := ix2 (⟨t.val * 10000 + j0.val, by omega⟩ : Fin 100000) j1
  let r : S1x64.Idx := ix2 (0 : Fin 1) j1
  show bnOp7 (V c main_v78_0 (((cfg7.win 0).blk t).view.emb (ix2 j0 j1))) (V c main_v50 (((cfg7.win 1).blk t).view.emb (ix2 j0 j1)))
      (V c main_v80 (((cfg7.win 2).blk t).view.emb r)) (V c main_v86 (((cfg7.win 3).blk t).view.emb r))
      (V c main_v89 (((cfg7.win 4).blk t).view.emb r)) (V c main_v92 (((cfg7.win 5).blk t).view.emb r))
    = bnVal7 (V c main_v78_0) (V c main_v50) (V c main_v80) (V c main_v86) (V c main_v89) (V c main_v92)
        (((cfg7.win 6).blk t).view.emb (ix2 j0 j1))
  have h0 : ((cfg7.win 0).blk t).view.emb (ix2 j0 j1) = i6 := by
    funext a; apply Fin.ext
    match a with
    | ⟨0, _⟩ => show win7_0.index t (0 : Fin 2) * 10000 + 1 * j0.val = t.val * 10000 + j0.val; omega
    | ⟨1, _⟩ => show win7_0.index t (1 : Fin 2) * 64 + 1 * j1.val = j1.val; omega
  have h1 : ((cfg7.win 1).blk t).view.emb (ix2 j0 j1) = i6 := by
    funext a; apply Fin.ext
    match a with
    | ⟨0, _⟩ => show win7_1.index t (0 : Fin 2) * 10000 + 1 * j0.val = t.val * 10000 + j0.val; omega
    | ⟨1, _⟩ => show win7_1.index t (1 : Fin 2) * 64 + 1 * j1.val = j1.val; omega
  have h6 : ((cfg7.win 6).blk t).view.emb (ix2 j0 j1) = i6 := by
    funext a; apply Fin.ext
    match a with
    | ⟨0, _⟩ => show win7_6.index t (0 : Fin 2) * 10000 + 1 * j0.val = t.val * 10000 + j0.val; omega
    | ⟨1, _⟩ => show win7_6.index t (1 : Fin 2) * 64 + 1 * j1.val = j1.val; omega
  have h2 : ((cfg7.win 2).blk t).view.emb r = r := by
    funext a; apply Fin.ext
    match a with
    | ⟨0, _⟩ => show win7_2.index t (0 : Fin 2) * 1 + 1 * 0 = 0; omega
    | ⟨1, _⟩ => show win7_2.index t (1 : Fin 2) * 64 + 1 * j1.val = j1.val; omega
  have h3 : ((cfg7.win 3).blk t).view.emb r = r := by
    funext a; apply Fin.ext
    match a with
    | ⟨0, _⟩ => show win7_3.index t (0 : Fin 2) * 1 + 1 * 0 = 0; omega
    | ⟨1, _⟩ => show win7_3.index t (1 : Fin 2) * 64 + 1 * j1.val = j1.val; omega
  have h4 : ((cfg7.win 4).blk t).view.emb r = r := by
    funext a; apply Fin.ext
    match a with
    | ⟨0, _⟩ => show win7_4.index t (0 : Fin 2) * 1 + 1 * 0 = 0; omega
    | ⟨1, _⟩ => show win7_4.index t (1 : Fin 2) * 64 + 1 * j1.val = j1.val; omega
  have h5 : ((cfg7.win 5).blk t).view.emb r = r := by
    funext a; apply Fin.ext
    match a with
    | ⟨0, _⟩ => show win7_5.index t (0 : Fin 2) * 1 + 1 * 0 = 0; omega
    | ⟨1, _⟩ => show win7_5.index t (1 : Fin 2) * 64 + 1 * j1.val = j1.val; omega
  rw [h0, h1, h2, h3, h4, h5, h6]

/-- An index of the array is in point t's block iff each coordinate is in the block's range on its axis. -/
theorem bnMem7 (t : Fin cfg7.N) (i : S100000x64.Idx) :
    i ∈ ((cfg7.win 6).blk t).view.set ↔ ∀ a : Fin 2, win7_6.index t a * S10000x64.size a ≤ (i a).val ∧ (i a).val < win7_6.index t a * S10000x64.size a + S10000x64.size a := by
  show i ∈ ((View.whole main_v93).slice (win7_6.rect t)).set ↔ _
  rw [View.set_slice_whole, Rect.mem_set_unit]
  exact Iff.rfl

/-- Every index is in the block of the point its row falls in: row r is in block r / 10000. -/
theorem bnCover7 (i : S100000x64.Idx) :
    ∃ t : Fin cfg7.N, (cfg7.win 6).flush t = true ∧ i ∈ ((cfg7.win 6).blk t).view.set := by
  have hi0 : (i 0).val < 100000 := (i 0).isLt
  have hi1 : (i 1).val < 64 := (i 1).isLt
  have hN : cfg7.N = 10 := N_7
  let t : Fin cfg7.N := ⟨(i 0).val / 10000, by rw [hN]; omega⟩
  obtain ⟨-, -, -, -, -, -, -, -, -, -, -, -, e60, e61⟩ := bnIdx7 t
  have e60' : win7_6.index t (0 : Fin 2) = (i 0).val / 10000 := e60
  refine ⟨t, flush7_6 t, ?_⟩
  rw [bnMem7]
  intro a
  match a with
  | ⟨0, _⟩ => show win7_6.index t (0 : Fin 2) * 10000 ≤ (i 0).val ∧ (i 0).val < win7_6.index t (0 : Fin 2) * 10000 + 10000; omega
  | ⟨1, _⟩ => show win7_6.index t (1 : Fin 2) * 64 ≤ (i 1).val ∧ (i 1).val < win7_6.index t (1 : Fin 2) * 64 + 64; omega

/-- The output array after the region, at every index. -/
theorem final7 (c : Dev nD) (p : Fin 100000) (q : Fin 64) :
    (dat7 V c).arrAt 6 cfg7.N (ix2 p q)
      = bnOp7 (V c main_v78_0 (ix2 p q)) (V c main_v50 (ix2 p q)) (V c main_v80 (ix2 0 q)) (V c main_v86 (ix2 0 q))
          (V c main_v89 (ix2 0 q)) (V c main_v92 (ix2 0 q)) := by
  rw [(dat7 V c).arrAt_eq_of_cover 6 (bnVal7 (V c main_v78_0) (V c main_v50) (V c main_v80) (V c main_v86) (V c main_v89) (V c main_v92))
    (fun t _ => bnFlushed7_eq V c t) bnCover7]

end Cert.KernelIdeal.Gen
-- ==== Proof.KLayer1.lean ====
/- Layer 1 of the kernel program, second part: the messages' segment sum combined with the node features, the
   perceptron and its column sums, the mean and the clamped variance the host forms from them, and the normalisation
   with the residual and the relu: the node features after the layer are the layer function of those before it. -/
import proofs.«127476_j62818191671466_2_alg».proof.Proof.KLayer1a
import proofs.«127476_j62818191671466_2_alg».proof.Proof.Final6
import proofs.«127476_j62818191671466_2_alg».proof.Proof.Final7

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-- What region 6 reads and what it leaves in its first output, as arrays over the extended reals. -/
abbrev L1_zin : Spec.A2 Spec.nN 64 := B13 m c main_v67
abbrev L1_z : Spec.A2 Spec.nN 64 := B14 m c main_v78_0

set_option maxHeartbeats 2000000 in
/-- What region 6 reads: (1 + eps) * h + the messages summed at their target nodes. -/
theorem L1_comb : L1_zin m c
    = Spec.comb (scatterK m c) (argEps m c) (1 : Fin 4) (hK1 m c) (Spec.msg (gatherK m c) (hK1 m c) (eK m c)) := by
  funext i
  obtain ⟨p, q, rfl⟩ : ∃ (p : Fin 100000) (q : Fin 64), i = ix2 p q := ⟨i 0, i 1, eq_ix2 i⟩
  show B13 m c main_v67 (ix2 p q) = _
  dsimp only [B13, hostOps6]
  after_results
  rw [L1_h_at12, L1_dst_at12, L1_arg8_at12, L1_msg]
  rw [addf_apply, mulf_apply, broadcastInDim_apply ![] bcast_S_S100000x64 _ (ix2 p q) ix0 (fun a => a.elim0), addf_apply]
  unfold Spec.comb
  rw [Spec.ofFn_ix2]
  have he : (shapeCast S_ (extractStridedSlice S1 ![1] (m (c, main_arg8)) slices_S4_S1_1) shapeCasts_S1_S_) ix0
      = argEps m c (ix1 (1 : Fin 4)) :=
    (shapeCast_apply _ _ ix0 (ix1 (0 : Fin 1)) rfl).trans
      (extractStridedSlice_apply _ _ _ _ (ix1 (1 : Fin 4)) (fun a => by
        match a with
        | ⟨0, _⟩ => rfl))
  exact congrArg (fun x : Ideal .f32 => (Spec.oneW + x) * hK1 m c (ix2 p q)
    + scatterK m c (Spec.msg (gatherK m c) (hK1 m c) (eK m c)) (ix2 p q)) he

/-- The perceptron's entry over parameter blocks that are the layer's slices of the parameter arrays. -/
theorem L1_mlpOp_eq (a : FVec Ideal S100000x64 .f32) (w1 : FVec Ideal S64x128 .f32) (b1 : FVec Ideal S1x128 .f32)
    (w2 : FVec Ideal S128x64 .f32) (b2 : FVec Ideal S1x64 .f32)
    (W1 : Spec.A3 4 64 128) (B1' : Spec.A2 4 128) (W2 : Spec.A3 4 128 64) (B2' : Spec.A2 4 64) (l : Fin 4)
    (h1 : ∀ k j, w1 (ix2 k j) = W1 (ix3 l k j)) (hb1 : ∀ j, b1 (ix2 (0 : Fin 1) j) = B1' (ix2 l j))
    (h2 : ∀ j q, w2 (ix2 j q) = W2 (ix3 l j q)) (hb2 : ∀ q, b2 (ix2 (0 : Fin 1) q) = B2' (ix2 l q))
    (p : Fin 100000) (q : Fin 64) :
    mlpOp6 a w1 b1 w2 b2 p q = Spec.mlp W1 B1' W2 B2' l a (ix2 p q) := by
  unfold Spec.mlp
  rw [Spec.ofFn_ix2]
  simp only [mlpOp6, h1, hb1, h2, hb2]

/-- Region 6's first output: the perceptron of what it reads. -/
theorem L1_mlp : L1_z m c
    = Spec.mlp (argW1 m c) (argB1 m c) (argW2 m c) (argB2 m c) (1 : Fin 4) (L1_zin m c) := by
  funext i
  obtain ⟨p, q, rfl⟩ : ∃ (p : Fin 100000) (q : Fin 64), i = ix2 p q := ⟨i 0, i 1, eq_ix2 i⟩
  show B14 m c main_v78_0 (ix2 p q) = _
  rw [← show (dat6 (E13 m) c).arrAt 5 cfg6.N = B14 m c main_v78_0 from hF6_5 m c, final6_5 (E13 m) c p q]
  exact L1_mlpOp_eq (B13 m c main_v67) (B13 m c main_v69) (B13 m c main_v76) (B13 m c main_v73) (B13 m c main_v77)
    (argW1 m c) (argB1 m c) (argW2 m c) (argB2 m c) (1 : Fin 4) (L1_w1 m c) (L1_b1 m c) (L1_w2 m c) (L1_b2 m c) p q

/-- The perceptron's entries are what region 6 states its two running rows over. -/
theorem L1_Z (p : Fin 100000) (q : Fin 64) : Z6 (E13 m) c p q = L1_z m c (ix2 p q) := by
  show _ = B14 m c main_v78_0 (ix2 p q)
  rw [← show (dat6 (E13 m) c).arrAt 5 cfg6.N = B14 m c main_v78_0 from hF6_5 m c, final6_5 (E13 m) c p q]

/-- Region 6's second and third outputs: the column sums of the perceptron and of its squares. -/
theorem L1_sum (q : Fin 64) : B14 m c main_v78_1 (ix2 (0 : Fin 1) q) = ∑ r : Fin Spec.nN, L1_z m c (ix2 r q) := by
  rw [← show (dat6 (E13 m) c).arrAt 6 cfg6.N = B14 m c main_v78_1 from hF6_6 m c, final6_6 (E13 m) c q]
  show ∑ r : Fin 100000, Z6 (E13 m) c r q = ∑ r : Fin Spec.nN, L1_z m c (ix2 r q)
  exact Finset.sum_congr rfl fun r _ => L1_Z m c r q
theorem L1_sq (q : Fin 64) : B14 m c main_v78_2 (ix2 (0 : Fin 1) q)
    = ∑ r : Fin Spec.nN, L1_z m c (ix2 r q) * L1_z m c (ix2 r q) := by
  rw [← show (dat6 (E13 m) c).arrAt 7 cfg6.N = B14 m c main_v78_2 from hF6_7 m c, final6_7 (E13 m) c q]
  show ∑ r : Fin 100000, Z6 (E13 m) c r q * Z6 (E13 m) c r q = ∑ r : Fin Spec.nN, L1_z m c (ix2 r q) * L1_z m c (ix2 r q)
  exact Finset.sum_congr rfl fun r _ => by rw [L1_Z]

/-! ## The mean and the clamped variance the host forms -/

set_option maxHeartbeats 2000000 in
/-- The mean row: the column sums divided by the row count. -/
theorem L1_mean (q : Fin 64) : B15 m c main_v80 (ix2 (0 : Fin 1) q) = Spec.colMean (L1_z m c) q := by
  dsimp only [B15, hostOps7]
  after_results
  show Ideal.div (B14 m c main_v78_1 (ix2 (0 : Fin 1) q))
    (broadcastInDim S1x64 ![] bcast_S_S1x64 (constant (F := Ideal) S_ .f32 0x47C35000#32) (ix2 (0 : Fin 1) q)) = _
  rw [L1_sum, broadcastInDim_apply ![] bcast_S_S1x64 _ (ix2 (0 : Fin 1) q) ix0 (fun a => a.elim0)]
  unfold Spec.colMean
  exact congrArg (Ideal.div (∑ r : Fin Spec.nN, L1_z m c (ix2 r q))) rfl

set_option maxHeartbeats 4000000 in
/-- The variance row: the mean of the squares less the squared mean, not below zero. -/
theorem L1_var (q : Fin 64) : B15 m c main_v86 (ix2 (0 : Fin 1) q) = Spec.varClamped (L1_z m c) q := by
  dsimp only [B15, hostOps7]
  after_results
  rw [maximumf_apply, subf_apply, mulf_apply]
  show max (Ideal.div (B14 m c main_v78_2 (ix2 (0 : Fin 1) q))
        (broadcastInDim S1x64 ![] bcast_S_S1x64 (constant (F := Ideal) S_ .f32 0x47C35000#32) (ix2 (0 : Fin 1) q))
      - Ideal.div (B14 m c main_v78_1 (ix2 (0 : Fin 1) q))
          (broadcastInDim S1x64 ![] bcast_S_S1x64 (constant (F := Ideal) S_ .f32 0x47C35000#32) (ix2 (0 : Fin 1) q))
        * Ideal.div (B14 m c main_v78_1 (ix2 (0 : Fin 1) q))
          (broadcastInDim S1x64 ![] bcast_S_S1x64 (constant (F := Ideal) S_ .f32 0x47C35000#32) (ix2 (0 : Fin 1) q)))
    (broadcastInDim S1x64 ![] bcast_S_S1x64 (constant (F := Ideal) S_ .f32 0x00000000#32) (ix2 (0 : Fin 1) q)) = _
  rw [L1_sum, L1_sq, broadcastInDim_apply ![] bcast_S_S1x64 _ (ix2 (0 : Fin 1) q) ix0 (fun a => a.elim0),
    broadcastInDim_apply ![] bcast_S_S1x64 _ (ix2 (0 : Fin 1) q) ix0 (fun a => a.elim0)]
  unfold Spec.varClamped Spec.colMean
  have hk : constant (F := Ideal) S_ .f32 0x47C35000#32 ix0 = Spec.cntW := rfl
  have h0 : constant (F := Ideal) S_ .f32 0x00000000#32 ix0 = (0 : EReal) := Ideal.ofBits_zero_f32
  rw [hk, h0]

/-! ## The layer -/

set_option maxHeartbeats 1000000 in
/-- The node features after layer 1. -/
theorem kLayer1 : hK2 m c = Spec.layerK (gatherK m c) (scatterK m c) (argEps m c) (argW1 m c) (argB1 m c) (argW2 m c)
    (argB2 m c) (argGam m c) (argBet m c) (1 : Fin 4) (hK1 m c) (eK m c) := by
  funext i
  obtain ⟨p, q, rfl⟩ : ∃ (p : Fin 100000) (q : Fin 64), i = ix2 p q := ⟨i 0, i 1, eq_ix2 i⟩
  have hz : L1_z m c = Spec.mlp (argW1 m c) (argB1 m c) (argW2 m c) (argB2 m c) (1 : Fin 4)
      (Spec.comb (scatterK m c) (argEps m c) (1 : Fin 4) (hK1 m c) (Spec.msg (gatherK m c) (hK1 m c) (eK m c))) := by
    rw [L1_mlp, L1_comb]
  show B16 m c main_v93 (ix2 p q) = _
  rw [← show (dat7 (E15 m) c).arrAt 6 cfg7.N = B16 m c main_v93 from hF7_6 m c, final7 (E15 m) c p q]
  show bnOp7 (B15 m c main_v78_0 (ix2 p q)) (B15 m c main_v50 (ix2 p q)) (B15 m c main_v80 (ix2 (0 : Fin 1) q))
    (B15 m c main_v86 (ix2 (0 : Fin 1) q)) (B15 m c main_v89 (ix2 (0 : Fin 1) q)) (B15 m c main_v92 (ix2 (0 : Fin 1) q)) = _
  rw [L1_mean, L1_var, L1_gam, L1_bet, L1_h_at15, B15_of m c main_v78_0 (by decide)]
  show bnOp7 (L1_z m c (ix2 p q)) (hK1 m c (ix2 p q)) (Spec.colMean (L1_z m c) q) (Spec.varClamped (L1_z m c) q)
    (argGam m c (ix2 (1 : Fin 4) q)) (argBet m c (ix2 (1 : Fin 4) q)) = _
  rw [hz]
  rfl

end Cert.KernelIdeal.Gen
-- ==== Proof.Final8.lean ====
/- The array the pipeline of custom_call 8 leaves in its output window, index by index, as a function of the arrays
   its two input windows read, in exact arithmetic: every row block of 10000 rows is written once, by the grid point
   of that number, with the pointwise value relu(a + b) of the same block of the two inputs. -/
import proofs.«127476_j62818191671466_2_alg».proof.Proof.Region8
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff8 : (![0, 0] : Fin 2 → Nat) = fun _ => 0 := funext fun a => by fin_cases a <;> rfl

/-- The body's operation on one pair of elements, in exact arithmetic: relu of the sum. -/
abbrev msgOp8 (x y : Ideal .f32) : Ideal .f32 := max (x + y) 0

/-- What the output array holds in the end: that operation of the two input arrays, index by index. -/
abbrev msgVal8 (a0 a1 : FVec Ideal S1000000x64 .f32) : FVec Ideal S1000000x64 .f32 :=
  fun i => msgOp8 (a0 i) (a1 i)

/-- The body's stored value is that operation of its two loaded blocks: the shape casts are identities and the
    constant word is the number zero. -/
theorem msgPay8_eq (x0 x1 : Vec Ideal S10000x64 .f32) : k8_pay1 x0 x1 = fun j => msgOp8 (x0 j) (x1 j) := by
  funext j
  show max (shapeCast S10000x64 x0 shapeCasts_S10000x64_S10000x64 j + shapeCast S10000x64 x1 shapeCasts_S10000x64_S10000x64 j)
    (Ideal.ofBits .f32 0x00000000#32) = _
  rw [Ideal.ofBits_zero_f32, shapeCast_self, shapeCast_self]

/-- The printed index maps, decided over the 100 grid points: all three windows are at row block t, column block 0. -/
theorem msgIdx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of msgVal8 of the two input arrays as the region finds them. -/
theorem msgFlushed8_eq (c : Dev nD) (t : Fin cfg8.N) :
    (dat8 V c).flushed 2 t = ((cfg8.win 2).blk t).view.read (Elt Ideal) (msgVal8 (V c main_v100) (V c main_v7)) := by
  show (cfg8.win 2).cut (grid8.coords t) ((dat8 V c).after 2 t) = _
  rw [after8_2]
  unfold out8_2
  rw [View.canon_unit_zero zeroOff8]
  simp only [View.ld_unit_zero (S := S10000x64) zeroOff8]
  rw [msgPay8_eq]
  obtain ⟨e0, e1, e2, e3, e4, e5⟩ := msgIdx8 t
  funext j
  show msgOp8 (V c main_v100 (((cfg8.win 0).blk t).view.emb j)) (V c main_v7 (((cfg8.win 1).blk t).view.emb j))
    = msgOp8 (V c main_v100 (((cfg8.win 2).blk t).view.emb j)) (V c main_v7 (((cfg8.win 2).blk t).view.emb j))
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; omega
    | ⟨1, _⟩ => show win8_1.index t (1 : Fin 2) * 64 + 1 * (j 1).val = win8_2.index t (1 : Fin 2) * 64 + 1 * (j 1).val; omega
  rw [h0, h1]

/-- An index of the array is in point t's block iff each coordinate is in the block's range on its axis. -/
theorem msgMem8 (t : Fin cfg8.N) (i : S1000000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v101).slice (win8_2.rect t)).set ↔ _
  rw [View.set_slice_whole, Rect.mem_set_unit]
  exact Iff.rfl

/-- Every index is in the block of the point its row falls in: row r is in block r / 10000. -/
theorem msgCover8 (i : S1000000x64.Idx) :
    ∃ t : Fin cfg8.N, (cfg8.win 2).flush t = true ∧ i ∈ ((cfg8.win 2).blk t).view.set := by
  have hi0 : (i 0).val < 1000000 := (i 0).isLt
  have hi1 : (i 1).val < 64 := (i 1).isLt
  have hN : cfg8.N = 100 := N_8
  let t : Fin cfg8.N := ⟨(i 0).val / 10000, by rw [hN]; omega⟩
  obtain ⟨-, -, -, -, e4, e5⟩ := msgIdx8 t
  have e4' : win8_2.index t (0 : Fin 2) = (i 0).val / 10000 := e4
  refine ⟨t, flush8_2 t, ?_⟩
  rw [msgMem8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- The output array after the region, at every index. -/
theorem final8 (c : Dev nD) (p : Fin 1000000) (q : Fin 64) :
    (dat8 V c).arrAt 2 cfg8.N (ix2 p q) = msgOp8 (V c main_v100 (ix2 p q)) (V c main_v7 (ix2 p q)) := by
  rw [(dat8 V c).arrAt_eq_of_cover 2 (msgVal8 (V c main_v100) (V c main_v7)) (fun t _ => msgFlushed8_eq V c t) msgCover8]

end Cert.KernelIdeal.Gen
-- ==== Proof.KLayer2a.lean ====
/- Layer 2 of the kernel program, first part: what the layer's items find unchanged from earlier items, the gathered
   rows, the messages, and the perceptron's and the normalisation's parameters as the regions find them (slices of the
   argument arrays at the layer's index). -/
import proofs.«127476_j62818191671466_2_alg».proof.Proof.KDefs
import proofs.«127476_j62818191671466_2_alg».proof.Proof.Final8
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-! ## What the layer's items find unchanged -/

/-- The node features the item before the layer left are what every item of the layer reads. -/
theorem L2_h_at16 : B16 m c main_v93 = hK2 m c := by
  rfl
theorem L2_h_at18 : B18 m c main_v93 = hK2 m c := by
  rw [B18_of m c main_v93 (by decide), B17_of m c main_v93 (by decide), L2_h_at16]
theorem L2_h_at21 : B21 m c main_v93 = hK2 m c := by
  rw [B21_of m c main_v93 (by decide), B20_of m c main_v93 (by decide), B19_of m c main_v93 (by decide),
    L2_h_at18]
/-- The edge features are what the messages' region reads. -/
theorem L2_e_at17 : B17 m c main_v7 = eK m c := by
  rw [B17_of m c main_v7 (by decide), B16_of m c main_v7 (by decide), B15_of m c main_v7 (by decide),
    B14_of m c main_v7 (by decide), B13_of m c main_v7 (by decide), B12_of m c main_v7 (by decide),
    B11_of m c main_v7 (by decide), B10_of m c main_v7 (by decide), B9_of m c main_v7 (by decide),
    B8_of m c main_v7 (by decide), B7_of m c main_v7 (by decide), B6_of m c main_v7 (by decide),
    B5_of m c main_v7 (by decide)]; rfl
/-- The edges' source and target columns are as the first host stretch left them. -/
theorem L2_src_at16 : B16 m c main_v1 = B1 m c main_v1 := by
  rw [B16_of m c main_v1 (by decide), B15_of m c main_v1 (by decide), B14_of m c main_v1 (by decide),
    B13_of m c main_v1 (by decide), B12_of m c main_v1 (by decide), B11_of m c main_v1 (by decide),
    B10_of m c main_v1 (by decide), B9_of m c main_v1 (by decide), B8_of m c main_v1 (by decide),
    B7_of m c main_v1 (by decide), B6_of m c main_v1 (by decide), B5_of m c main_v1 (by decide),
    B4_of m c main_v1 (by decide), B3_of m c main_v1 (by decide), B2_of m c main_v1 (by decide)]
theorem L2_dst_at18 : B18 m c main_v3 = B1 m c main_v3 := by
  rw [B18_of m c main_v3 (by decide), B17_of m c main_v3 (by decide), B16_of m c main_v3 (by decide),
    B15_of m c main_v3 (by decide), B14_of m c main_v3 (by decide), B13_of m c main_v3 (by decide),
    B12_of m c main_v3 (by decide), B11_of m c main_v3 (by decide), B10_of m c main_v3 (by decide),
    B9_of m c main_v3 (by decide), B8_of m c main_v3 (by decide), B7_of m c main_v3 (by decide),
    B6_of m c main_v3 (by decide), B5_of m c main_v3 (by decide), B4_of m c main_v3 (by decide),
    B3_of m c main_v3 (by decide), B2_of m c main_v3 (by decide)]
/-- The argument arrays are as launched. -/
theorem L2_arg8_at18 : B18 m c main_arg8 = m (c, main_arg8) := by
  rw [B18_of m c main_arg8 (by decide), B17_of m c main_arg8 (by decide), B16_of m c main_arg8 (by decide),
    B15_of m c main_arg8 (by decide), B14_of m c main_arg8 (by decide), B13_of m c main_arg8 (by decide),
    B12_of m c main_arg8 (by decide), B11_of m c main_arg8 (by decide), B10_of m c main_arg8 (by decide),
    B9_of m c main_arg8 (by decide), B8_of m c main_arg8 (by decide), B7_of m c main_arg8 (by decide),
    B6_of m c main_arg8 (by decide), B5_of m c main_arg8 (by decide), B4_of m c main_arg8 (by decide),
    B3_of m c main_arg8 (by decide), B2_of m c main_arg8 (by decide), B1_of m c main_arg8 (by decide)]
theorem L2_arg9_at18 : B18 m c main_arg9 = m (c, main_arg9) := by
  rw [B18_of m c main_arg9 (by decide), B17_of m c main_arg9 (by decide), B16_of m c main_arg9 (by decide),
    B15_of m c main_arg9 (by decide), B14_of m c main_arg9 (by decide), B13_of m c main_arg9 (by decide),
    B12_of m c main_arg9 (by decide), B11_of m c main_arg9 (by decide), B10_of m c main_arg9 (by decide),
    B9_of m c main_arg9 (by decide), B8_of m c main_arg9 (by decide), B7_of m c main_arg9 (by decide),
    B6_of m c main_arg9 (by decide), B5_of m c main_arg9 (by decide), B4_of m c main_arg9 (by decide),
    B3_of m c main_arg9 (by decide), B2_of m c main_arg9 (by decide), B1_of m c main_arg9 (by decide)]
theorem L2_arg10_at18 : B18 m c main_arg10 = m (c, main_arg10) := by
  rw [B18_of m c main_arg10 (by decide), B17_of m c main_arg10 (by decide), B16_of m c main_arg10 (by decide),
    B15_of m c main_arg10 (by decide), B14_of m c main_arg10 (by decide), B13_of m c main_arg10 (by decide),
    B12_of m c main_arg10 (by decide), B11_of m c main_arg10 (by decide), B10_of m c main_arg10 (by decide),
    B9_of m c main_arg10 (by decide), B8_of m c main_arg10 (by decide), B7_of m c main_arg10 (by decide),
    B6_of m c main_arg10 (by decide), B5_of m c main_arg10 (by decide), B4_of m c main_arg10 (by decide),
    B3_of m c main_arg10 (by decide), B2_of m c main_arg10 (by decide), B1_of m c main_arg10 (by decide)]
theorem L2_arg11_at18 : B18 m c main_arg11 = m (c, main_arg11) := by
  rw [B18_of m c main_arg11 (by decide), B17_of m c main_arg11 (by decide), B16_of m c main_arg11 (by decide),
    B15_of m c main_arg11 (by decide), B14_of m c main_arg11 (by decide), B13_of m c main_arg11 (by decide),
    B12_of m c main_arg11 (by decide), B11_of m c main_arg11 (by decide), B10_of m c main_arg11 (by decide),
    B9_of m c main_arg11 (by decide), B8_of m c main_arg11 (by decide), B7_of m c main_arg11 (by decide),
    B6_of m c main_arg11 (by decide), B5_of m c main_arg11 (by decide), B4_of m c main_arg11 (by decide),
    B3_of m c main_arg11 (by decide), B2_of m c main_arg11 (by decide), B1_of m c main_arg11 (by decide)]
theorem L2_arg12_at18 : B18 m c main_arg12 = m (c, main_arg12) := by
  rw [B18_of m c main_arg12 (by decide), B17_of m c main_arg12 (by decide), B16_of m c main_arg12 (by decide),
    B15_of m c main_arg12 (by decide), B14_of m c main_arg12 (by decide), B13_of m c main_arg12 (by decide),
    B12_of m c main_arg12 (by decide), B11_of m c main_arg12 (by decide), B10_of m c main_arg12 (by decide),
    B9_of m c main_arg12 (by decide), B8_of m c main_arg12 (by decide), B7_of m c main_arg12 (by decide),
    B6_of m c main_arg12 (by decide), B5_of m c main_arg12 (by decide), B4_of m c main_arg12 (by decide),
    B3_of m c main_arg12 (by decide), B2_of m c main_arg12 (by decide), B1_of m c main_arg12 (by decide)]
theorem L2_arg13_at20 : B20 m c main_arg13 = m (c, main_arg13) := by
  rw [B20_of m c main_arg13 (by decide), B19_of m c main_arg13 (by decide), B18_of m c main_arg13 (by decide),
    B17_of m c main_arg13 (by decide), B16_of m c main_arg13 (by decide), B15_of m c main_arg13 (by decide),
    B14_of m c main_arg13 (by decide), B13_of m c main_arg13 (by decide), B12_of m c main_arg13 (by decide),
    B11_of m c main_arg13 (by decide), B10_of m c main_arg13 (by decide), B9_of m c main_arg13 (by decide),
    B8_of m c main_arg13 (by decide), B7_of m c main_arg13 (by decide), B6_of m c main_arg13 (by decide),
    B5_of m c main_arg13 (by decide), B4_of m c main_arg13 (by decide), B3_of m c main_arg13 (by decide),
    B2_of m c main_arg13 (by decide), B1_of m c main_arg13 (by decide)]
theorem L2_arg14_at20 : B20 m c main_arg14 = m (c, main_arg14) := by
  rw [B20_of m c main_arg14 (by decide), B19_of m c main_arg14 (by decide), B18_of m c main_arg14 (by decide),
    B17_of m c main_arg14 (by decide), B16_of m c main_arg14 (by decide), B15_of m c main_arg14 (by decide),
    B14_of m c main_arg14 (by decide), B13_of m c main_arg14 (by decide), B12_of m c main_arg14 (by decide),
    B11_of m c main_arg14 (by decide), B10_of m c main_arg14 (by decide), B9_of m c main_arg14 (by decide),
    B8_of m c main_arg14 (by decide), B7_of m c main_arg14 (by decide), B6_of m c main_arg14 (by decide),
    B5_of m c main_arg14 (by decide), B4_of m c main_arg14 (by decide), B3_of m c main_arg14 (by decide),
    B2_of m c main_arg14 (by decide), B1_of m c main_arg14 (by decide)]

/-! ## The gather and the messages -/

/-- The rows region 8 reads: the gather of the node features at the edges' source nodes. -/
theorem L2_gather : B17 m c main_v100 = gatherK m c (hK2 m c) := by
  dsimp only [B17, hostOps8]
  after_results
  rw [L2_h_at16, L2_src_at16]
  rfl

/-- Region 8's output: the messages. -/
theorem L2_msg : B18 m c main_v101 = Spec.msg (gatherK m c) (hK2 m c) (eK m c) := by
  funext i
  obtain ⟨n, q, rfl⟩ : ∃ (n : Fin 1000000) (q : Fin 64), i = ix2 n q := ⟨i 0, i 1, eq_ix2 i⟩
  rw [← show (dat8 (E17 m) c).arrAt 2 cfg8.N = B18 m c main_v101 from hF8_2 m c, final8 (E17 m) c n q]
  show msgOp8 (B17 m c main_v100 (ix2 n q)) (B17 m c main_v7 (ix2 n q)) = _
  rw [L2_gather, L2_e_at17]
  rfl

/-! ## The perceptron's parameters and the normalisation's, as the regions find them -/

/-- A slice of one leading index of a rank-3 array, with the unit axis dropped, reads the array at that index. -/
theorem L2_w1 (k : Fin 64) (j : Fin 128) : B19 m c main_v112 (ix2 k j) = argW1 m c (ix3 (2 : Fin 4) k j) := by
  dsimp only [B19, hostOps9]
  after_results
  rw [L2_arg9_at18]
  refine (shapeCast_1ab_ab_apply _ _ k j).trans ?_
  exact extractStridedSlice_apply _ _ _ _ (ix3 (2 : Fin 4) k j) (fun a => by
    match a with
    | ⟨0, _⟩ => rfl
    | ⟨1, _⟩ => exact (Nat.zero_add _).symm
    | ⟨2, _⟩ => exact (Nat.zero_add _).symm)

theorem L2_w2 (j : Fin 128) (q : Fin 64) : B19 m c main_v116 (ix2 j q) = argW2 m c (ix3 (2 : Fin 4) j q) := by
  dsimp only [B19, hostOps9]
  after_results
  rw [L2_arg11_at18]
  refine (shapeCast_1ab_ab_apply _ _ j q).trans ?_
  exact extractStridedSlice_apply _ _ _ _ (ix3 (2 : Fin 4) j q) (fun a => by
    match a with
    | ⟨0, _⟩ => rfl
    | ⟨1, _⟩ => exact (Nat.zero_add _).symm
    | ⟨2, _⟩ => exact (Nat.zero_add _).symm)

/-- A one-row slice of a matrix, flattened and put back as one row, reads the matrix at that row. -/
theorem L2_b1 (j : Fin 128) : B19 m c main_v119 (ix2 (0 : Fin 1) j) = argB1 m c (ix2 (2 : Fin 4) j) := by
  dsimp only [B19, hostOps9]
  after_results
  rw [L2_arg10_at18]
  refine (shapeCast_a_1a_apply _ _ 0 j).trans ?_
  refine (shapeCast_1a_a_apply _ _ j).trans ?_
  exact slice2_axis0_apply 2 _ _ (0 : Fin 1) j (2 : Fin 4) rfl

theorem L2_b2 (q : Fin 64) : B19 m c main_v120 (ix2 (0 : Fin 1) q) = argB2 m c (ix2 (2 : Fin 4) q) := by
  dsimp only [B19, hostOps9]
  after_results
  rw [L2_arg12_at18]
  refine (shapeCast_a_1a_apply _ _ 0 q).trans ?_
  refine (shapeCast_1a_a_apply _ _ q).trans ?_
  exact slice2_axis0_apply 2 _ _ (0 : Fin 1) q (2 : Fin 4) rfl

theorem L2_gam (q : Fin 64) : B21 m c main_v132 (ix2 (0 : Fin 1) q) = argGam m c (ix2 (2 : Fin 4) q) := by
  dsimp only [B21, hostOps10]
  after_results
  rw [L2_arg13_at20]
  refine (shapeCast_a_1a_apply _ _ 0 q).trans ?_
  refine (shapeCast_1a_a_apply _ _ q).trans ?_
  exact slice2_axis0_apply 2 _ _ (0 : Fin 1) q (2 : Fin 4) rfl

theorem L2_bet (q : Fin 64) : B21 m c main_v135 (ix2 (0 : Fin 1) q) = argBet m c (ix2 (2 : Fin 4) q) := by
  dsimp only [B21, hostOps10]
  after_results
  rw [L2_arg14_at20]
  refine (shapeCast_a_1a_apply _ _ 0 q).trans ?_
  refine (shapeCast_1a_a_apply _ _ q).trans ?_
  exact slice2_axis0_apply 2 _ _ (0 : Fin 1) q (2 : Fin 4) rfl

end Cert.KernelIdeal.Gen
-- ==== Proof.PayloadK9.lean ====
/-
  The perceptron-and-statistics step of the third layer: the same body as the first layer's, launched under
  another name, so the same readings at an entry hold: the perceptron
  Σ_j max (Σ_k x(p, k) · w₁(k, j) + b₁(0, j)) 0 · w₂(j, q) + b₂(0, q), its column sums and the column sums of its
  squares added to the two running rows, and the rows' start at zero.
-/
import proofs.«127476_j62818191671466_2_alg».proof.Proof.PayloadK3

noncomputable section

namespace Cert.KernelIdeal.Payload

open Idealize.ShloMosaic Idealize.ShloMosaic.ValueIdx Cert.KernelIdeal Cert.KernelIdeal.Gen

/-- The squares' column sums added to the running row: entry (0, q) of the stored row. -/
theorem k9_pay1_apply (v24 : FVec Ideal S10000x64 .f32) (v33 : Vec Ideal S1x64 .f32) (q : Fin 64) :
    k9_pay1 v24 v33 (ix2 (0 : Fin 1) q) = v33 (ix2 (0 : Fin 1) q) + ∑ p : Fin 10000, v24 (ix2 p q) * v24 (ix2 p q) := by
  simp only [k9_pay1, shapeCast_self]
  exact congrArg (v33 (ix2 (0 : Fin 1) q) + ·)
    (colsum_row_apply (mulf v24 v24) reduces_S10000x64_S64 (.inl rfl) rfl shapeCasts_S64_S1x64 0 q)

/-- The two running rows start at zero. -/
theorem k9_pay2_apply (q : Fin 64) : k9_pay2 (F := Ideal) (ix2 (0 : Fin 1) q) = 0 := by
  simp only [k9_pay2, shapeCast_self]
  exact Ideal.ofBits_zero_f32

theorem k9_pay3_apply (q : Fin 64) : k9_pay3 (F := Ideal) (ix2 (0 : Fin 1) q) = 0 := by
  simp only [k9_pay3, shapeCast_self]
  exact Ideal.ofBits_zero_f32

/-- The two-layer perceptron at an entry: Σ_j max (Σ_k x(p, k) · w₁(k, j) + b₁(0, j)) 0 · w₂(j, q) + b₂(0, q). -/
theorem k9_pay4_apply (v3 : Vec Ideal S10000x64 .f32) (v6 : Vec Ideal S64x128 .f32) (v10 : Vec Ideal S1x128 .f32)
    (v17 : Vec Ideal S128x64 .f32) (v21 : Vec Ideal S1x64 .f32) (p : Fin 10000) (q : Fin 64) :
    k9_pay4 v3 v6 v10 v17 v21 (ix2 p q)
      = (∑ j : Fin 128, max ((∑ k : Fin 64, v3 (ix2 p k) * v6 (ix2 k j)) + v10 (ix2 (0 : Fin 1) j)) 0 * v17 (ix2 j q))
        + v21 (ix2 (0 : Fin 1) q) := by
  simp only [k9_pay4, shapeCast_self]
  rw [addf_apply, matmul_zero_plain_apply _ dot_10000x128_128x64_eq, broadcastTo_1b_ab_apply]
  refine congrArg (· + v21 (ix2 (0 : Fin 1) q)) (Finset.sum_congr rfl fun j _ => ?_)
  refine congrArg (· * v17 (ix2 j q)) ?_
  show max (matmul (F := Ideal) dot_S10000x64_S64x128_S10000x128_1_0_0_1_n_n none (truncf .bf16 v3 bitsLt_bf16_f32)
        (truncf .bf16 v6 bitsLt_bf16_f32) (constant S10000x128 .f32 0x00000000#32) (ix2 p j)
      + broadcastTo S10000x128 v10 broadcasts_S1x128_S10000x128 (ix2 p j)) (Ideal.ofBits .f32 0x00000000#32) = _
  rw [matmul_zero_plain_apply _ dot_10000x64_64x128_eq, broadcastTo_1b_ab_apply, Ideal.ofBits_zero_f32]
  rfl

/-- The perceptron's column sums added to the running row: entry (0, q) of the stored row. -/
theorem k9_pay5_apply (v3 : Vec Ideal S10000x64 .f32) (v6 : Vec Ideal S64x128 .f32) (v10 : Vec Ideal S1x128 .f32)
    (v17 : Vec Ideal S128x64 .f32) (v21 : Vec Ideal S1x64 .f32) (v26 : Vec Ideal S1x64 .f32) (q : Fin 64) :
    k9_pay5 v3 v6 v10 v17 v21 v26 (ix2 (0 : Fin 1) q)
      = v26 (ix2 (0 : Fin 1) q) + ∑ p : Fin 10000, k9_pay4 v3 v6 v10 v17 v21 (ix2 p q) := by
  simp only [k9_pay5, shapeCast_self]
  exact congrArg (v26 (ix2 (0 : Fin 1) q) + ·)
    (colsum_row_apply (k9_pay4 v3 v6 v10 v17 v21) reduces_S10000x64_S64 (.inl rfl) rfl shapeCasts_S64_S1x64 0 q)

end Cert.KernelIdeal.Payload

end
-- ==== Proof.Final9.lean ====
/- The three arrays the pipeline of custom_call 9 leaves in its output windows, index by index, as functions of the
   arrays its five input windows read, in exact arithmetic. Every row block of 10000 rows of the first output is written
   once, by the grid point of that number, with the two-layer perceptron of the same block of the input and of the four
   parameter arrays, which every point reads whole. The other two outputs are one row each, revisited at every point and
   written back once, after the last point: they end at the column sums of the first output over all 100000 rows, and at
   the column sums of its squares — the ten per-block sums, added up point after point from zero, regrouped into one sum
   over all rows. -/
import proofs.«127476_j62818191671466_2_alg».proof.Proof.Region9
import proofs.«127476_j62818191671466_2_alg».proof.Proof.PayloadK9
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Payload

variable (V : (c : Dev nD) → (b : Ref sig .tc) → Buf (Elt Ideal) ((c : Thread nD τ).loc b))

theorem zeroOff9 : (![0, 0] : Fin 2 → Nat) = fun _ => 0 := funext fun a => by fin_cases a <;> rfl

/-! ## The perceptron at an entry -/

/-- The two-layer perceptron at row p, column q, from the input array and the four parameter arrays, in exact
    arithmetic: Σ_j relu(Σ_k a(p, k) · w₁(k, j) + b₁(0, j)) · w₂(j, q) + b₂(0, q). -/
abbrev mlpOp9 (a : FVec Ideal S100000x64 .f32) (w1 : FVec Ideal S64x128 .f32) (b1 : FVec Ideal S1x128 .f32)
    (w2 : FVec Ideal S128x64 .f32) (b2 : FVec Ideal S1x64 .f32) (p : Fin 100000) (q : Fin 64) : Ideal .f32 :=
  (∑ j : Fin 128, max ((∑ k : Fin 64, a (ix2 p k) * w1 (ix2 k j)) + b1 (ix2 (0 : Fin 1) j)) 0 * w2 (ix2 j q)) + b2 (ix2 (0 : Fin 1) q)

/-- The same of the five arrays as the region finds them. -/
abbrev Z9 (c : Dev nD) (p : Fin 100000) (q : Fin 64) : Ideal .f32 :=
  mlpOp9 (V c main_v110) (V c main_v112) (V c main_v119) (V c main_v116) (V c main_v120) p q

/-- What the first output array holds in the end. -/
abbrev zrawVal9 (c : Dev nD) : FVec Ideal S100000x64 .f32 :=
  fun i => Z9 V c (i 0) (i 1)

/-- The index maps, decided over the 10 grid points: the input and the first output are at row block t, column block
    0; the four parameter arrays and the two one-row outputs are at block (0, 0) at every point. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

/-- Row p of block t is a row of the array. -/
theorem rowLt9 (t : Fin cfg9.N) (p : Fin 10000) : t.val * 10000 + p.val < 100000 := by
  have := t.isLt; have hN : cfg9.N = 10 := N_9; have := p.isLt; omega

/-- The value the body stores into the first output's buffer at point t, at entry (p, q): the perceptron at row
    t · 10000 + p of the array. The loads read whole buffers; the input's block t starts at that row; the parameter
    arrays' one block is the whole array. -/
theorem zrawBlk9 (c : Dev nD) (t : Fin cfg9.N) (p : Fin 10000) (q : Fin 64) :
    zraw9 (iblk9 V c 0 t) (iblk9 V c 1 t) (iblk9 V c 2 t) (iblk9 V c 3 t) (iblk9 V c 4 t) (ix2 p q)
      = Z9 V c ⟨t.val * 10000 + p.val, rowLt9 t p⟩ q := by
  unfold zraw9
  simp only [View.ld_unit_zero (S := S10000x64) zeroOff9, View.ld_unit_zero (S := S64x128) zeroOff9, View.ld_unit_zero (S := S1x128) zeroOff9,
    View.ld_unit_zero (S := S128x64) zeroOff9, View.ld_unit_zero (S := S1x64) zeroOff9]
  rw [k9_pay4_apply]
  obtain ⟨e00, e01, e10, e11, e20, e21, e30, e31, e40, e41, -⟩ := idx9 t
  have h0 : ∀ k : Fin 64, iblk9 V c 0 t (ix2 p k) = V c main_v110 (ix2 (⟨t.val * 10000 + p.val, rowLt9 t p⟩ : Fin 100000) k) := fun k => by
    show V c main_v110 (((cfg9.win 0).blk t).view.emb (ix2 p k)) = _
    refine congrArg (V c main_v110) ?_
    funext a; apply Fin.ext
    match a with
    | ⟨0, _⟩ => show win9_0.index t (0 : Fin 2) * 10000 + 1 * p.val = t.val * 10000 + p.val; omega
    | ⟨1, _⟩ => show win9_0.index t (1 : Fin 2) * 64 + 1 * k.val = k.val; omega
  have h1 : ∀ (k : Fin 64) (j : Fin 128), iblk9 V c 1 t (ix2 k j) = V c main_v112 (ix2 k j) := fun k j => by
    show V c main_v112 (((cfg9.win 1).blk t).view.emb (ix2 k j)) = _
    refine congrArg (V c main_v112) ?_
    funext a; apply Fin.ext
    match a with
    | ⟨0, _⟩ => show win9_1.index t (0 : Fin 2) * 64 + 1 * k.val = k.val; omega
    | ⟨1, _⟩ => show win9_1.index t (1 : Fin 2) * 128 + 1 * j.val = j.val; omega
  have h2 : ∀ j : Fin 128, iblk9 V c 2 t (ix2 (0 : Fin 1) j) = V c main_v119 (ix2 (0 : Fin 1) j) := fun j => by
    show V c main_v119 (((cfg9.win 2).blk t).view.emb (ix2 (0 : Fin 1) j)) = _
    refine congrArg (V c main_v119) ?_
    funext a; apply Fin.ext
    match a with
    | ⟨0, _⟩ => show win9_2.index t (0 : Fin 2) * 1 + 1 * 0 = 0; omega
    | ⟨1, _⟩ => show win9_2.index t (1 : Fin 2) * 128 + 1 * j.val = j.val; omega
  have h3 : ∀ (j : Fin 128) (q : Fin 64), iblk9 V c 3 t (ix2 j q) = V c main_v116 (ix2 j q) := fun j q => by
    show V c main_v116 (((cfg9.win 3).blk t).view.emb (ix2 j q)) = _
    refine congrArg (V c main_v116) ?_
    funext a; apply Fin.ext
    match a with
    | ⟨0, _⟩ => show win9_3.index t (0 : Fin 2) * 128 + 1 * j.val = j.val; omega
    | ⟨1, _⟩ => show win9_3.index t (1 : Fin 2) * 64 + 1 * q.val = q.val; omega
  have h4 : ∀ q : Fin 64, iblk9 V c 4 t (ix2 (0 : Fin 1) q) = V c main_v120 (ix2 (0 : Fin 1) q) := fun q => by
    show V c main_v120 (((cfg9.win 4).blk t).view.emb (ix2 (0 : Fin 1) q)) = _
    refine congrArg (V c main_v120) ?_
    funext a; apply Fin.ext
    match a with
    | ⟨0, _⟩ => show win9_4.index t (0 : Fin 2) * 1 + 1 * 0 = 0; omega
    | ⟨1, _⟩ => show win9_4.index t (1 : Fin 2) * 64 + 1 * q.val = q.val; omega
  simp only [h0, h1, h2, h3, h4]

/-! ## The first output: the perceptron of every row -/

/-- What point t writes back is block t of the perceptron of the whole input array. -/
theorem flushed9_5_eq (c : Dev nD) (t : Fin cfg9.N) :
    (dat9 V c).flushed 5 t = ((cfg9.win 5).blk t).view.read (Elt Ideal) (zrawVal9 V c) := by
  show (cfg9.win 5).cut (grid9.coords t) ((dat9 V c).after 5 t) = _
  rw [after9_5]
  unfold out9_5
  rw [View.canon_unit_zero zeroOff9]
  obtain ⟨-, -, -, -, -, -, -, -, -, -, e50, e51, -⟩ := idx9 t
  funext j
  obtain ⟨j0, j1, rfl⟩ : ∃ (j0 : Fin 10000) (j1 : Fin 64), j = ix2 j0 j1 := ⟨j 0, j 1, eq_ix2 j⟩
  show zraw9 (iblk9 V c 0 t) (iblk9 V c 1 t) (iblk9 V c 2 t) (iblk9 V c 3 t) (iblk9 V c 4 t) (ix2 j0 j1) = zrawVal9 V c (((cfg9.win 5).blk t).view.emb (ix2 j0 j1))
  have h5 : ((cfg9.win 5).blk t).view.emb (ix2 j0 j1) = ix2 (⟨t.val * 10000 + j0.val, rowLt9 t j0⟩ : Fin 100000) j1 := by
    funext a; apply Fin.ext
    match a with
    | ⟨0, _⟩ => show win9_5.index t (0 : Fin 2) * 10000 + 1 * j0.val = t.val * 10000 + j0.val; omega
    | ⟨1, _⟩ => show win9_5.index t (1 : Fin 2) * 64 + 1 * j1.val = j1.val; omega
  rw [h5, zrawBlk9]

/-- An index of the first output array is in point t's block iff each coordinate is in the block's range on its axis. -/
theorem mem9_5 (t : Fin cfg9.N) (i : S100000x64.Idx) :
    i ∈ ((cfg9.win 5).blk t).view.set ↔ ∀ a : Fin 2, win9_5.index t a * S10000x64.size a ≤ (i a).val ∧ (i a).val < win9_5.index t a * S10000x64.size a + S10000x64.size a := by
  show i ∈ ((View.whole main_v121_0).slice (win9_5.rect t)).set ↔ _
  rw [View.set_slice_whole, Rect.mem_set_unit]
  exact Iff.rfl

/-- Every index is in the block of the point its row falls in: row r is in block r / 10000. -/
theorem cover9_5 (i : S100000x64.Idx) :
    ∃ t : Fin cfg9.N, (cfg9.win 5).flush t = true ∧ i ∈ ((cfg9.win 5).blk t).view.set := by
  have hi0 : (i 0).val < 100000 := (i 0).isLt
  have hi1 : (i 1).val < 64 := (i 1).isLt
  have hN : cfg9.N = 10 := N_9
  let t : Fin cfg9.N := ⟨(i 0).val / 10000, by rw [hN]; omega⟩
  obtain ⟨-, -, -, -, -, -, -, -, -, -, e50, e51, -⟩ := idx9 t
  have e50' : win9_5.index t (0 : Fin 2) = (i 0).val / 10000 := e50
  refine ⟨t, flush9_5 t, ?_⟩
  rw [mem9_5]
  intro a
  match a with
  | ⟨0, _⟩ => show win9_5.index t (0 : Fin 2) * 10000 ≤ (i 0).val ∧ (i 0).val < win9_5.index t (0 : Fin 2) * 10000 + 10000; omega
  | ⟨1, _⟩ => show win9_5.index t (1 : Fin 2) * 64 ≤ (i 1).val ∧ (i 1).val < win9_5.index t (1 : Fin 2) * 64 + 64; omega

/-- THE FIRST OUTPUT after the region, at every index: the perceptron of the index's row. -/
theorem final9_5 (c : Dev nD) (p : Fin 100000) (q : Fin 64) :
    (dat9 V c).arrAt 5 cfg9.N (ix2 p q) = Z9 V c p q := by
  rw [(dat9 V c).arrAt_eq_of_cover 5 (zrawVal9 V c) (fun t _ => flushed9_5_eq V c t) (cover9_5)]

/-! ## The two running rows -/

/-- What a point adds to the first running row at column q: the column sum of its block of the perceptron. -/
theorem sumAt9_apply (c : Dev nD) (t : Fin cfg9.N) (v : Vec Ideal S1x64 .f32) (q : Fin 64) :
    sumAt9 V c t v (ix2 (0 : Fin 1) q)
      = v (ix2 (0 : Fin 1) q) + ∑ p : Fin 10000, Z9 V c ⟨t.val * 10000 + p.val, rowLt9 t p⟩ q := by
  unfold sumAt9 sumP9
  rw [k9_pay5_apply]
  exact congrArg (v (ix2 (0 : Fin 1) q) + ·) (Finset.sum_congr rfl fun p _ => zrawBlk9 V c t p q)

/-- What a point adds to the second running row at column q: the column sum of the squares of its block. -/
theorem sqAt9_apply (c : Dev nD) (t : Fin cfg9.N) (v : Vec Ideal S1x64 .f32) (q : Fin 64) :
    sqAt9 V c t v (ix2 (0 : Fin 1) q)
      = v (ix2 (0 : Fin 1) q) + ∑ p : Fin 10000, Z9 V c ⟨t.val * 10000 + p.val, rowLt9 t p⟩ q * Z9 V c ⟨t.val * 10000 + p.val, rowLt9 t p⟩ q := by
  unfold sqAt9 sqP9
  rw [k9_pay1_apply]
  exact congrArg (v (ix2 (0 : Fin 1) q) + ·) (Finset.sum_congr rfl fun p _ => by rw [zrawBlk9 V c t p q])

/-- The column sum of block n of the perceptron (zero past the last block), -/
def bsum9 (c : Dev nD) (q : Fin 64) (n : ℕ) : Ideal .f32 :=
  if h : n < cfg9.N then ∑ p : Fin 10000, Z9 V c ⟨n * 10000 + p.val, rowLt9 ⟨n, h⟩ p⟩ q else 0
/-- and of its squares. -/
def bsq9 (c : Dev nD) (q : Fin 64) (n : ℕ) : Ideal .f32 :=
  if h : n < cfg9.N then ∑ p : Fin 10000, Z9 V c ⟨n * 10000 + p.val, rowLt9 ⟨n, h⟩ p⟩ q * Z9 V c ⟨n * 10000 + p.val, rowLt9 ⟨n, h⟩ p⟩ q else 0

/-- After point n the two running rows hold, at column q, the sums of the block sums of the points 0..n. -/
theorem acc9_sum (c : Dev nD) (q : Fin 64) : ∀ (n : ℕ) (hn : n < cfg9.N),
    (acc9 V c n hn).1 (ix2 (0 : Fin 1) q) = ∑ a ∈ Finset.range (n + 1), bsum9 V c q a
    ∧ (acc9 V c n hn).2 (ix2 (0 : Fin 1) q) = ∑ a ∈ Finset.range (n + 1), bsq9 V c q a
  | 0, hn => by
    refine ⟨?_, ?_⟩
    · show sumAt9 V c ⟨0, hn⟩ (k9_pay2 (F := Ideal)) (ix2 (0 : Fin 1) q) = _
      rw [sumAt9_apply, k9_pay2_apply, zero_add, Finset.sum_range_one]
      unfold bsum9; rw [dif_pos hn]
    · show sqAt9 V c ⟨0, hn⟩ (k9_pay3 (F := Ideal)) (ix2 (0 : Fin 1) q) = _
      rw [sqAt9_apply, k9_pay3_apply, zero_add, Finset.sum_range_one]
      unfold bsq9; rw [dif_pos hn]
  | n + 1, hn => by
    obtain ⟨ih1, ih2⟩ := acc9_sum c q n (Nat.lt_of_succ_lt hn)
    refine ⟨?_, ?_⟩
    · show sumAt9 V c ⟨n + 1, hn⟩ (acc9 V c n (Nat.lt_of_succ_lt hn)).1 (ix2 (0 : Fin 1) q) = _
      rw [sumAt9_apply, ih1, Finset.sum_range_succ (bsum9 V c q) (n + 1)]
      refine congrArg (_ + ·) ?_
      unfold bsum9; rw [dif_pos hn]
    · show sqAt9 V c ⟨n + 1, hn⟩ (acc9 V c n (Nat.lt_of_succ_lt hn)).2 (ix2 (0 : Fin 1) q) = _
      rw [sqAt9_apply, ih2, Finset.sum_range_succ (bsq9 V c q) (n + 1)]
      refine congrArg (_ + ·) ?_
      unfold bsq9; rw [dif_pos hn]

/-- The rows regrouped: row r of the array is row r % 10000 of block r / 10000. -/
def rowsEquiv9 : Fin 10 × Fin 10000 ≃ Fin 100000 where
  toFun x := ⟨x.1.val * 10000 + x.2.val, by have := x.1.isLt; have := x.2.isLt; omega⟩
  invFun r := (⟨r.val / 10000, by have := r.isLt; omega⟩, ⟨r.val % 10000, Nat.mod_lt _ (by decide)⟩)
  left_inv x := by
    obtain ⟨a, b⟩ := x
    have := a.isLt; have := b.isLt
    refine Prod.ext (Fin.ext ?_) (Fin.ext ?_)
    · show (a.val * 10000 + b.val) / 10000 = a.val; omega
    · show (a.val * 10000 + b.val) % 10000 = b.val; omega
  right_inv r := by
    apply Fin.ext
    show r.val / 10000 * 10000 + r.val % 10000 = r.val; omega

/-- Ten sums over the blocks of 10000 rows, added up, are one sum over the 100000 rows. -/
theorem sum_blocks9 (f : Fin 100000 → Ideal .f32) (g : ℕ → Ideal .f32)
    (hg : ∀ (n : ℕ) (h : n < 10), g n = ∑ p : Fin 10000, f ⟨n * 10000 + p.val, by have := p.isLt; omega⟩) :
    ∑ a ∈ Finset.range 10, g a = ∑ r : Fin 100000, f r := by
  have e1 : ∑ a ∈ Finset.range 10, g a = ∑ a : Fin 10, g a.val := (Fin.sum_univ_eq_sum_range g 10).symm
  rw [e1]
  have e2 : ∑ r : Fin 100000, f r = ∑ x : Fin 10 × Fin 10000, f (rowsEquiv9 x) :=
    (Fintype.sum_equiv rowsEquiv9 (fun x => f (rowsEquiv9 x)) f (fun _ => rfl)).symm
  rw [e2, Fintype.sum_prod_type]
  refine Finset.sum_congr rfl fun a _ => ?_
  rw [hg a.val a.isLt]
  rfl

/-- After the last point the first running row holds, at column q, the column sum of the perceptron over all rows, -/
theorem acc9_total_sum (c : Dev nD) (q : Fin 64) (hn : 9 < cfg9.N) :
    (acc9 V c 9 hn).1 (ix2 (0 : Fin 1) q) = ∑ p : Fin 100000, Z9 V c p q := by
  rw [(acc9_sum V c q 9 hn).1]
  refine sum_blocks9 (fun r => Z9 V c r q) (bsum9 V c q) fun n h => ?_
  unfold bsum9; rw [dif_pos (by rw [show cfg9.N = 10 from N_9]; exact h)]

/-- and the second the column sum of its squares. -/
theorem acc9_total_sq (c : Dev nD) (q : Fin 64) (hn : 9 < cfg9.N) :
    (acc9 V c 9 hn).2 (ix2 (0 : Fin 1) q) = ∑ p : Fin 100000, Z9 V c p q * Z9 V c p q := by
  rw [(acc9_sum V c q 9 hn).2]
  refine sum_blocks9 (fun r => Z9 V c r q * Z9 V c r q) (bsq9 V c q) fun n h => ?_
  unfold bsq9; rw [dif_pos (by rw [show cfg9.N = 10 from N_9]; exact h)]

/-! ## The two one-row outputs: written back once, after the last point -/

/-- What the second output array holds in the end, -/
def sumVal9 (c : Dev nD) : FVec Ideal S1x64 .f32 := fun i => ∑ p : Fin 100000, Z9 V c p (i 1)
/-- and the third. -/
def sqVal9 (c : Dev nD) : FVec Ideal S1x64 .f32 := fun i => ∑ p : Fin 100000, Z9 V c p (i 1) * Z9 V c p (i 1)

/-- The one block of a one-row output is the whole row, at every point. -/
theorem emb9_6 (t : Fin cfg9.N) (q : Fin 64) : ((cfg9.win 6).blk t).view.emb (ix2 (0 : Fin 1) q) = ix2 (0 : Fin 1) q := by
  obtain ⟨-, -, -, -, -, -, -, -, -, -, -, -, e60, e61, -⟩ := idx9 t
  funext a; apply Fin.ext
  match a with
  | ⟨0, _⟩ => show win9_6.index t (0 : Fin 2) * 1 + 1 * 0 = 0; omega
  | ⟨1, _⟩ => show win9_6.index t (1 : Fin 2) * 64 + 1 * q.val = q.val; omega
theorem emb9_7 (t : Fin cfg9.N) (q : Fin 64) : ((cfg9.win 7).blk t).view.emb (ix2 (0 : Fin 1) q) = ix2 (0 : Fin 1) q := by
  obtain ⟨-, -, -, -, -, -, -, -, -, -, -, -, -, -, e70, e71⟩ := idx9 t
  funext a; apply Fin.ext
  match a with
  | ⟨0, _⟩ => show win9_7.index t (0 : Fin 2) * 1 + 1 * 0 = 0; omega
  | ⟨1, _⟩ => show win9_7.index t (1 : Fin 2) * 64 + 1 * q.val = q.val; omega

/-- So reading any one-row array through that block reads the array. -/
theorem read_blk9_6 (G : FVec Ideal S1x64 .f32) (t : Fin cfg9.N) (q : Fin 64) :
    ((cfg9.win 6).blk t).view.read (Elt Ideal) G (ix2 (0 : Fin 1) q) = G (ix2 (0 : Fin 1) q) := by
  show G (((cfg9.win 6).blk t).view.emb (ix2 (0 : Fin 1) q)) = _
  exact congrArg G (emb9_6 t q)
theorem read_blk9_7 (G : FVec Ideal S1x64 .f32) (t : Fin cfg9.N) (q : Fin 64) :
    ((cfg9.win 7).blk t).view.read (Elt Ideal) G (ix2 (0 : Fin 1) q) = G (ix2 (0 : Fin 1) q) := by
  show G (((cfg9.win 7).blk t).view.emb (ix2 (0 : Fin 1) q)) = _
  exact congrArg G (emb9_7 t q)

theorem sumVal9_apply (c : Dev nD) (q : Fin 64) : sumVal9 V c (ix2 (0 : Fin 1) q) = ∑ p : Fin 100000, Z9 V c p q := by
  unfold sumVal9; rfl
theorem sqVal9_apply (c : Dev nD) (q : Fin 64) : sqVal9 V c (ix2 (0 : Fin 1) q) = ∑ p : Fin 100000, Z9 V c p q * Z9 V c p q := by
  unfold sqVal9; rfl

/-- The only point that writes the second output back is the last; what it writes is the row of the totals. -/
theorem flushed9_6_eq (c : Dev nD) (t : Fin cfg9.N) (hf : (cfg9.win 6).flush t = true) :
    (dat9 V c).flushed 6 t = ((cfg9.win 6).blk t).view.read (Elt Ideal) (sumVal9 V c) := by
  have hN : cfg9.N = 10 := N_9
  have h9 : t.val = 9 := by have := (flush9_6 t).mp hf; have := t.isLt; omega
  show (cfg9.win 6).cut (grid9.coords t) ((dat9 V c).after 6 t) = _
  rw [after9_6]
  unfold rowBuf9
  rw [View.canon_unit_zero zeroOff9]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk9_6 (sumVal9 V c) t j1).symm
  rw [sumVal9_apply]
  show (acc9 V c t.val t.isLt).1 (ix2 (0 : Fin 1) j1) = _
  obtain ⟨n, hn⟩ := t
  obtain rfl : n = 9 := h9
  exact acc9_total_sum V c j1 hn

/-- The same of the third output. -/
theorem flushed9_7_eq (c : Dev nD) (t : Fin cfg9.N) (hf : (cfg9.win 7).flush t = true) :
    (dat9 V c).flushed 7 t = ((cfg9.win 7).blk t).view.read (Elt Ideal) (sqVal9 V c) := by
  have hN : cfg9.N = 10 := N_9
  have h9 : t.val = 9 := by have := (flush9_7 t).mp hf; have := t.isLt; omega
  show (cfg9.win 7).cut (grid9.coords t) ((dat9 V c).after 7 t) = _
  rw [after9_7]
  unfold rowBuf9
  rw [View.canon_unit_zero zeroOff9]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk9_7 (sqVal9 V c) t j1).symm
  rw [sqVal9_apply]
  show (acc9 V c t.val t.isLt).2 (ix2 (0 : Fin 1) j1) = _
  obtain ⟨n, hn⟩ := t
  obtain rfl : n = 9 := h9
  exact acc9_total_sq V c j1 hn

/-- Every index of a one-row output is in the last point's block, which is written back. -/
theorem cover9_6 (i : S1x64.Idx) :
    ∃ t : Fin cfg9.N, (cfg9.win 6).flush t = true ∧ i ∈ ((cfg9.win 6).blk t).view.set := by
  have hi0 : (i 0).val < 1 := (i 0).isLt
  have hi1 : (i 1).val < 64 := (i 1).isLt
  have hN : cfg9.N = 10 := N_9
  let t : Fin cfg9.N := ⟨9, by rw [hN]; decide⟩
  obtain ⟨-, -, -, -, -, -, -, -, -, -, -, -, e60, e61, -⟩ := idx9 t
  refine ⟨t, (flush9_6 t).mpr rfl, ?_⟩
  show i ∈ ((View.whole main_v121_1).slice (win9_6.rect t)).set
  rw [View.set_slice_whole, Rect.mem_set_unit]
  intro a
  match a with
  | ⟨0, _⟩ => show win9_6.index t (0 : Fin 2) * 1 ≤ (i 0).val ∧ (i 0).val < win9_6.index t (0 : Fin 2) * 1 + 1; omega
  | ⟨1, _⟩ => show win9_6.index t (1 : Fin 2) * 64 ≤ (i 1).val ∧ (i 1).val < win9_6.index t (1 : Fin 2) * 64 + 64; omega
theorem cover9_7 (i : S1x64.Idx) :
    ∃ t : Fin cfg9.N, (cfg9.win 7).flush t = true ∧ i ∈ ((cfg9.win 7).blk t).view.set := by
  have hi0 : (i 0).val < 1 := (i 0).isLt
  have hi1 : (i 1).val < 64 := (i 1).isLt
  have hN : cfg9.N = 10 := N_9
  let t : Fin cfg9.N := ⟨9, by rw [hN]; decide⟩
  obtain ⟨-, -, -, -, -, -, -, -, -, -, -, -, -, -, e70, e71⟩ := idx9 t
  refine ⟨t, (flush9_7 t).mpr rfl, ?_⟩
  show i ∈ ((View.whole main_v121_2).slice (win9_7.rect t)).set
  rw [View.set_slice_whole, Rect.mem_set_unit]
  intro a
  match a with
  | ⟨0, _⟩ => show win9_7.index t (0 : Fin 2) * 1 ≤ (i 0).val ∧ (i 0).val < win9_7.index t (0 : Fin 2) * 1 + 1; omega
  | ⟨1, _⟩ => show win9_7.index t (1 : Fin 2) * 64 ≤ (i 1).val ∧ (i 1).val < win9_7.index t (1 : Fin 2) * 64 + 64; omega

/-- THE SECOND OUTPUT after the region: at column q the column sum of the perceptron over all 100000 rows. -/
theorem final9_6 (c : Dev nD) (q : Fin 64) :
    (dat9 V c).arrAt 6 cfg9.N (ix2 (0 : Fin 1) q) = ∑ p : Fin 100000, Z9 V c p q := by
  exact (congrFun ((dat9 V c).arrAt_eq_of_cover 6 (sumVal9 V c) (fun t hf => flushed9_6_eq V c t hf) (cover9_6)) (ix2 (0 : Fin 1) q)).trans (sumVal9_apply V c q)

/-- THE THIRD OUTPUT after the region: at column q the column sum of the squares of the perceptron over all rows. -/
theorem final9_7 (c : Dev nD) (q : Fin 64) :
    (dat9 V c).arrAt 7 cfg9.N (ix2 (0 : Fin 1) q) = ∑ p : Fin 100000, Z9 V c p q * Z9 V c p q := by
  exact (congrFun ((dat9 V c).arrAt_eq_of_cover 7 (sqVal9 V c) (fun t hf => flushed9_7_eq V c t hf) (cover9_7)) (ix2 (0 : Fin 1) q)).trans (sqVal9_apply V c q)

end Cert.KernelIdeal.Gen

end
-- ==== Proof.Final10.lean ====
/- The array the pipeline of custom_call 10 leaves in its output window, index by index, as a function of the arrays
   its six input windows read, in exact arithmetic: every row block of 10000 rows is written once, by the grid point
   of that number, with relu((z - mean) * rsqrt(var + eps) * gamma + beta + h) of the same block of z and h and of the
   four one-row arrays, which every point reads whole. -/
import proofs.«127476_j62818191671466_2_alg».proof.Proof.Region10
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff10 : (![0, 0] : Fin 2 → Nat) = fun _ => 0 := funext fun a => by fin_cases a <;> rfl

/-- The body's operation on one element of z and of h and the four row entries of its column, in exact arithmetic:
    the normalisation's affine map, the residual added, then relu. -/
abbrev bnOp10 (z h mean var gamma beta : Ideal .f32) : Ideal .f32 :=
  max ((z - mean) * Ideal.rsqrt (var + Ideal.ofBits .f32 0x3727C5AC#32) * gamma + beta + h) 0

/-- What the output array holds in the end: that operation of the two full arrays at the index and of the four
    one-row arrays at the index's column. -/
abbrev bnVal10 (z h : FVec Ideal S100000x64 .f32) (mean var gamma beta : FVec Ideal S1x64 .f32) : FVec Ideal S100000x64 .f32 :=
  fun i => bnOp10 (z i) (h i) (mean (ix2 0 (i 1))) (var (ix2 0 (i 1))) (gamma (ix2 0 (i 1))) (beta (ix2 0 (i 1)))

/-- A one-row vector broadcast down the 10000 rows reads, at an index, the row's entry of the index's column. -/
theorem bnRow10 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The body's stored value is that operation of its six loaded blocks: the shape casts are identities, the
    broadcasts read the row, and the constant word of the last maximum is the number zero. -/
theorem bnPay10_eq (x0 x1 : Vec Ideal S10000x64 .f32) (x2 x3 x4 x5 : Vec Ideal S1x64 .f32) :
    k10_pay1 x3 x0 x2 x4 x5 x1
      = fun j => bnOp10 (x0 j) (x1 j) (x2 (ix2 0 (j 1))) (x3 (ix2 0 (j 1))) (x4 (ix2 0 (j 1))) (x5 (ix2 0 (j 1))) := by
  funext j
  unfold k10_pay1
  simp only [shapeCast_self]
  show max ((x0 j - broadcastTo S10000x64 x2 broadcasts_S1x64_S10000x64 j)
        * broadcastTo S10000x64 (rsqrt (F := Ideal) (addf (F := Ideal) x3 (broadcast S1x64 (Scalar.ofBits (F := Ideal) .f32 0x3727C5AC#32)))) broadcasts_S1x64_S10000x64 j
        * broadcastTo S10000x64 x4 broadcasts_S1x64_S10000x64 j
      + broadcastTo S10000x64 x5 broadcasts_S1x64_S10000x64 j + x1 j) (Ideal.ofBits .f32 0x00000000#32) = _
  simp only [bnRow10]
  rw [Ideal.ofBits_zero_f32]
  rfl

/-- The printed index maps, decided over the 10 grid points: the two full inputs and the output are at row block t,
    column block 0; the four one-row inputs are at block (0, 0) at every point. -/
theorem bnIdx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

set_option maxHeartbeats 1600000 in
/-- What point t writes back is block t of bnVal10 of the six input arrays as the region finds them. -/
theorem bnFlushed10_eq (c : Dev nD) (t : Fin cfg10.N) :
    (dat10 V c).flushed 6 t = ((cfg10.win 6).blk t).view.read (Elt Ideal)
      (bnVal10 (V c main_v121_0) (V c main_v93) (V c main_v123) (V c main_v129) (V c main_v132) (V c main_v135)) := by
  show (cfg10.win 6).cut (grid10.coords t) ((dat10 V c).after 6 t) = _
  rw [after10_6]
  unfold out10_6
  rw [View.canon_unit_zero zeroOff10]
  simp only [View.ld_unit_zero (S := S10000x64) zeroOff10, View.ld_unit_zero (S := S1x64) zeroOff10]
  rw [bnPay10_eq]
  obtain ⟨e00, e01, e10, e11, e20, e21, e30, e31, e40, e41, e50, e51, e60, e61⟩ := bnIdx10 t
  funext j
  obtain ⟨j0, j1, rfl⟩ : ∃ (j0 : Fin 10000) (j1 : Fin 64), j = ix2 j0 j1 := ⟨j 0, j 1, eq_ix2 j⟩
  have ht : t.val < 10 := by have := t.isLt; have hN : cfg10.N = 10 := N_10; omega
  -- the array index of element (j0, j1) of block t: row t * 10000 + j0, column j1
  let i6 : S100000x64.Idx := ix2 (⟨t.val * 10000 + j0.val, by omega⟩ : Fin 100000) j1
  let r : S1x64.Idx := ix2 (0 : Fin 1) j1
  show bnOp10 (V c main_v121_0 (((cfg10.win 0).blk t).view.emb (ix2 j0 j1))) (V c main_v93 (((cfg10.win 1).blk t).view.emb (ix2 j0 j1)))
      (V c main_v123 (((cfg10.win 2).blk t).view.emb r)) (V c main_v129 (((cfg10.win 3).blk t).view.emb r))
      (V c main_v132 (((cfg10.win 4).blk t).view.emb r)) (V c main_v135 (((cfg10.win 5).blk t).view.emb r))
    = bnVal10 (V c main_v121_0) (V c main_v93) (V c main_v123) (V c main_v129) (V c main_v132) (V c main_v135)
        (((cfg10.win 6).blk t).view.emb (ix2 j0 j1))
  have h0 : ((cfg10.win 0).blk t).view.emb (ix2 j0 j1) = i6 := by
    funext a; apply Fin.ext
    match a with
    | ⟨0, _⟩ => show win10_0.index t (0 : Fin 2) * 10000 + 1 * j0.val = t.val * 10000 + j0.val; omega
    | ⟨1, _⟩ => show win10_0.index t (1 : Fin 2) * 64 + 1 * j1.val = j1.val; omega
  have h1 : ((cfg10.win 1).blk t).view.emb (ix2 j0 j1) = i6 := by
    funext a; apply Fin.ext
    match a with
    | ⟨0, _⟩ => show win10_1.index t (0 : Fin 2) * 10000 + 1 * j0.val = t.val * 10000 + j0.val; omega
    | ⟨1, _⟩ => show win10_1.index t (1 : Fin 2) * 64 + 1 * j1.val = j1.val; omega
  have h6 : ((cfg10.win 6).blk t).view.emb (ix2 j0 j1) = i6 := by
    funext a; apply Fin.ext
    match a with
    | ⟨0, _⟩ => show win10_6.index t (0 : Fin 2) * 10000 + 1 * j0.val = t.val * 10000 + j0.val; omega
    | ⟨1, _⟩ => show win10_6.index t (1 : Fin 2) * 64 + 1 * j1.val = j1.val; omega
  have h2 : ((cfg10.win 2).blk t).view.emb r = r := by
    funext a; apply Fin.ext
    match a with
    | ⟨0, _⟩ => show win10_2.index t (0 : Fin 2) * 1 + 1 * 0 = 0; omega
    | ⟨1, _⟩ => show win10_2.index t (1 : Fin 2) * 64 + 1 * j1.val = j1.val; omega
  have h3 : ((cfg10.win 3).blk t).view.emb r = r := by
    funext a; apply Fin.ext
    match a with
    | ⟨0, _⟩ => show win10_3.index t (0 : Fin 2) * 1 + 1 * 0 = 0; omega
    | ⟨1, _⟩ => show win10_3.index t (1 : Fin 2) * 64 + 1 * j1.val = j1.val; omega
  have h4 : ((cfg10.win 4).blk t).view.emb r = r := by
    funext a; apply Fin.ext
    match a with
    | ⟨0, _⟩ => show win10_4.index t (0 : Fin 2) * 1 + 1 * 0 = 0; omega
    | ⟨1, _⟩ => show win10_4.index t (1 : Fin 2) * 64 + 1 * j1.val = j1.val; omega
  have h5 : ((cfg10.win 5).blk t).view.emb r = r := by
    funext a; apply Fin.ext
    match a with
    | ⟨0, _⟩ => show win10_5.index t (0 : Fin 2) * 1 + 1 * 0 = 0; omega
    | ⟨1, _⟩ => show win10_5.index t (1 : Fin 2) * 64 + 1 * j1.val = j1.val; omega
  rw [h0, h1, h2, h3, h4, h5, h6]

/-- An index of the array is in point t's block iff each coordinate is in the block's range on its axis. -/
theorem bnMem10 (t : Fin cfg10.N) (i : S100000x64.Idx) :
    i ∈ ((cfg10.win 6).blk t).view.set ↔ ∀ a : Fin 2, win10_6.index t a * S10000x64.size a ≤ (i a).val ∧ (i a).val < win10_6.index t a * S10000x64.size a + S10000x64.size a := by
  show i ∈ ((View.whole main_v136).slice (win10_6.rect t)).set ↔ _
  rw [View.set_slice_whole, Rect.mem_set_unit]
  exact Iff.rfl

/-- Every index is in the block of the point its row falls in: row r is in block r / 10000. -/
theorem bnCover10 (i : S100000x64.Idx) :
    ∃ t : Fin cfg10.N, (cfg10.win 6).flush t = true ∧ i ∈ ((cfg10.win 6).blk t).view.set := by
  have hi0 : (i 0).val < 100000 := (i 0).isLt
  have hi1 : (i 1).val < 64 := (i 1).isLt
  have hN : cfg10.N = 10 := N_10
  let t : Fin cfg10.N := ⟨(i 0).val / 10000, by rw [hN]; omega⟩
  obtain ⟨-, -, -, -, -, -, -, -, -, -, -, -, e60, e61⟩ := bnIdx10 t
  have e60' : win10_6.index t (0 : Fin 2) = (i 0).val / 10000 := e60
  refine ⟨t, flush10_6 t, ?_⟩
  rw [bnMem10]
  intro a
  match a with
  | ⟨0, _⟩ => show win10_6.index t (0 : Fin 2) * 10000 ≤ (i 0).val ∧ (i 0).val < win10_6.index t (0 : Fin 2) * 10000 + 10000; omega
  | ⟨1, _⟩ => show win10_6.index t (1 : Fin 2) * 64 ≤ (i 1).val ∧ (i 1).val < win10_6.index t (1 : Fin 2) * 64 + 64; omega

/-- The output array after the region, at every index. -/
theorem final10 (c : Dev nD) (p : Fin 100000) (q : Fin 64) :
    (dat10 V c).arrAt 6 cfg10.N (ix2 p q)
      = bnOp10 (V c main_v121_0 (ix2 p q)) (V c main_v93 (ix2 p q)) (V c main_v123 (ix2 0 q)) (V c main_v129 (ix2 0 q))
          (V c main_v132 (ix2 0 q)) (V c main_v135 (ix2 0 q)) := by
  rw [(dat10 V c).arrAt_eq_of_cover 6 (bnVal10 (V c main_v121_0) (V c main_v93) (V c main_v123) (V c main_v129) (V c main_v132) (V c main_v135))
    (fun t _ => bnFlushed10_eq V c t) bnCover10]

end Cert.KernelIdeal.Gen
-- ==== Proof.KLayer2.lean ====
/- Layer 2 of the kernel program, second part: the messages' segment sum combined with the node features, the
   perceptron and its column sums, the mean and the clamped variance the host forms from them, and the normalisation
   with the residual and the relu: the node features after the layer are the layer function of those before it. -/
import proofs.«127476_j62818191671466_2_alg».proof.Proof.KLayer2a
import proofs.«127476_j62818191671466_2_alg».proof.Proof.Final9
import proofs.«127476_j62818191671466_2_alg».proof.Proof.Final10

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-- What region 9 reads and what it leaves in its first output, as arrays over the extended reals. -/
abbrev L2_zin : Spec.A2 Spec.nN 64 := B19 m c main_v110
abbrev L2_z : Spec.A2 Spec.nN 64 := B20 m c main_v121_0

set_option maxHeartbeats 2000000 in
/-- What region 9 reads: (1 + eps) * h + the messages summed at their target nodes. -/
theorem L2_comb : L2_zin m c
    = Spec.comb (scatterK m c) (argEps m c) (2 : Fin 4) (hK2 m c) (Spec.msg (gatherK m c) (hK2 m c) (eK m c)) := by
  funext i
  obtain ⟨p, q, rfl⟩ : ∃ (p : Fin 100000) (q : Fin 64), i = ix2 p q := ⟨i 0, i 1, eq_ix2 i⟩
  show B19 m c main_v110 (ix2 p q) = _
  dsimp only [B19, hostOps9]
  after_results
  rw [L2_h_at18, L2_dst_at18, L2_arg8_at18, L2_msg]
  rw [addf_apply, mulf_apply, broadcastInDim_apply ![] bcast_S_S100000x64 _ (ix2 p q) ix0 (fun a => a.elim0), addf_apply]
  unfold Spec.comb
  rw [Spec.ofFn_ix2]
  have he : (shapeCast S_ (extractStridedSlice S1 ![2] (m (c, main_arg8)) slices_S4_S1_2) shapeCasts_S1_S_) ix0
      = argEps m c (ix1 (2 : Fin 4)) :=
    (shapeCast_apply _ _ ix0 (ix1 (0 : Fin 1)) rfl).trans
      (extractStridedSlice_apply _ _ _ _ (ix1 (2 : Fin 4)) (fun a => by
        match a with
        | ⟨0, _⟩ => rfl))
  exact congrArg (fun x : Ideal .f32 => (Spec.oneW + x) * hK2 m c (ix2 p q)
    + scatterK m c (Spec.msg (gatherK m c) (hK2 m c) (eK m c)) (ix2 p q)) he

/-- The perceptron's entry over parameter blocks that are the layer's slices of the parameter arrays. -/
theorem L2_mlpOp_eq (a : FVec Ideal S100000x64 .f32) (w1 : FVec Ideal S64x128 .f32) (b1 : FVec Ideal S1x128 .f32)
    (w2 : FVec Ideal S128x64 .f32) (b2 : FVec Ideal S1x64 .f32)
    (W1 : Spec.A3 4 64 128) (B1' : Spec.A2 4 128) (W2 : Spec.A3 4 128 64) (B2' : Spec.A2 4 64) (l : Fin 4)
    (h1 : ∀ k j, w1 (ix2 k j) = W1 (ix3 l k j)) (hb1 : ∀ j, b1 (ix2 (0 : Fin 1) j) = B1' (ix2 l j))
    (h2 : ∀ j q, w2 (ix2 j q) = W2 (ix3 l j q)) (hb2 : ∀ q, b2 (ix2 (0 : Fin 1) q) = B2' (ix2 l q))
    (p : Fin 100000) (q : Fin 64) :
    mlpOp9 a w1 b1 w2 b2 p q = Spec.mlp W1 B1' W2 B2' l a (ix2 p q) := by
  unfold Spec.mlp
  rw [Spec.ofFn_ix2]
  simp only [mlpOp9, h1, hb1, h2, hb2]

/-- Region 9's first output: the perceptron of what it reads. -/
theorem L2_mlp : L2_z m c
    = Spec.mlp (argW1 m c) (argB1 m c) (argW2 m c) (argB2 m c) (2 : Fin 4) (L2_zin m c) := by
  funext i
  obtain ⟨p, q, rfl⟩ : ∃ (p : Fin 100000) (q : Fin 64), i = ix2 p q := ⟨i 0, i 1, eq_ix2 i⟩
  show B20 m c main_v121_0 (ix2 p q) = _
  rw [← show (dat9 (E19 m) c).arrAt 5 cfg9.N = B20 m c main_v121_0 from hF9_5 m c, final9_5 (E19 m) c p q]
  exact L2_mlpOp_eq (B19 m c main_v110) (B19 m c main_v112) (B19 m c main_v119) (B19 m c main_v116) (B19 m c main_v120)
    (argW1 m c) (argB1 m c) (argW2 m c) (argB2 m c) (2 : Fin 4) (L2_w1 m c) (L2_b1 m c) (L2_w2 m c) (L2_b2 m c) p q

/-- The perceptron's entries are what region 9 states its two running rows over. -/
theorem L2_Z (p : Fin 100000) (q : Fin 64) : Z9 (E19 m) c p q = L2_z m c (ix2 p q) := by
  show _ = B20 m c main_v121_0 (ix2 p q)
  rw [← show (dat9 (E19 m) c).arrAt 5 cfg9.N = B20 m c main_v121_0 from hF9_5 m c, final9_5 (E19 m) c p q]

/-- Region 9's second and third outputs: the column sums of the perceptron and of its squares. -/
theorem L2_sum (q : Fin 64) : B20 m c main_v121_1 (ix2 (0 : Fin 1) q) = ∑ r : Fin Spec.nN, L2_z m c (ix2 r q) := by
  rw [← show (dat9 (E19 m) c).arrAt 6 cfg9.N = B20 m c main_v121_1 from hF9_6 m c, final9_6 (E19 m) c q]
  show ∑ r : Fin 100000, Z9 (E19 m) c r q = ∑ r : Fin Spec.nN, L2_z m c (ix2 r q)
  exact Finset.sum_congr rfl fun r _ => L2_Z m c r q
theorem L2_sq (q : Fin 64) : B20 m c main_v121_2 (ix2 (0 : Fin 1) q)
    = ∑ r : Fin Spec.nN, L2_z m c (ix2 r q) * L2_z m c (ix2 r q) := by
  rw [← show (dat9 (E19 m) c).arrAt 7 cfg9.N = B20 m c main_v121_2 from hF9_7 m c, final9_7 (E19 m) c q]
  show ∑ r : Fin 100000, Z9 (E19 m) c r q * Z9 (E19 m) c r q = ∑ r : Fin Spec.nN, L2_z m c (ix2 r q) * L2_z m c (ix2 r q)
  exact Finset.sum_congr rfl fun r _ => by rw [L2_Z]

/-! ## The mean and the clamped variance the host forms -/

set_option maxHeartbeats 2000000 in
/-- The mean row: the column sums divided by the row count. -/
theorem L2_mean (q : Fin 64) : B21 m c main_v123 (ix2 (0 : Fin 1) q) = Spec.colMean (L2_z m c) q := by
  dsimp only [B21, hostOps10]
  after_results
  show Ideal.div (B20 m c main_v121_1 (ix2 (0 : Fin 1) q))
    (broadcastInDim S1x64 ![] bcast_S_S1x64 (constant (F := Ideal) S_ .f32 0x47C35000#32) (ix2 (0 : Fin 1) q)) = _
  rw [L2_sum, broadcastInDim_apply ![] bcast_S_S1x64 _ (ix2 (0 : Fin 1) q) ix0 (fun a => a.elim0)]
  unfold Spec.colMean
  exact congrArg (Ideal.div (∑ r : Fin Spec.nN, L2_z m c (ix2 r q))) rfl

set_option maxHeartbeats 4000000 in
/-- The variance row: the mean of the squares less the squared mean, not below zero. -/
theorem L2_var (q : Fin 64) : B21 m c main_v129 (ix2 (0 : Fin 1) q) = Spec.varClamped (L2_z m c) q := by
  dsimp only [B21, hostOps10]
  after_results
  rw [maximumf_apply, subf_apply, mulf_apply]
  show max (Ideal.div (B20 m c main_v121_2 (ix2 (0 : Fin 1) q))
        (broadcastInDim S1x64 ![] bcast_S_S1x64 (constant (F := Ideal) S_ .f32 0x47C35000#32) (ix2 (0 : Fin 1) q))
      - Ideal.div (B20 m c main_v121_1 (ix2 (0 : Fin 1) q))
          (broadcastInDim S1x64 ![] bcast_S_S1x64 (constant (F := Ideal) S_ .f32 0x47C35000#32) (ix2 (0 : Fin 1) q))
        * Ideal.div (B20 m c main_v121_1 (ix2 (0 : Fin 1) q))
          (broadcastInDim S1x64 ![] bcast_S_S1x64 (constant (F := Ideal) S_ .f32 0x47C35000#32) (ix2 (0 : Fin 1) q)))
    (broadcastInDim S1x64 ![] bcast_S_S1x64 (constant (F := Ideal) S_ .f32 0x00000000#32) (ix2 (0 : Fin 1) q)) = _
  rw [L2_sum, L2_sq, broadcastInDim_apply ![] bcast_S_S1x64 _ (ix2 (0 : Fin 1) q) ix0 (fun a => a.elim0),
    broadcastInDim_apply ![] bcast_S_S1x64 _ (ix2 (0 : Fin 1) q) ix0 (fun a => a.elim0)]
  unfold Spec.varClamped Spec.colMean
  have hk : constant (F := Ideal) S_ .f32 0x47C35000#32 ix0 = Spec.cntW := rfl
  have h0 : constant (F := Ideal) S_ .f32 0x00000000#32 ix0 = (0 : EReal) := Ideal.ofBits_zero_f32
  rw [hk, h0]

/-! ## The layer -/

set_option maxHeartbeats 1000000 in
/-- The node features after layer 2. -/
theorem kLayer2 : hK3 m c = Spec.layerK (gatherK m c) (scatterK m c) (argEps m c) (argW1 m c) (argB1 m c) (argW2 m c)
    (argB2 m c) (argGam m c) (argBet m c) (2 : Fin 4) (hK2 m c) (eK m c) := by
  funext i
  obtain ⟨p, q, rfl⟩ : ∃ (p : Fin 100000) (q : Fin 64), i = ix2 p q := ⟨i 0, i 1, eq_ix2 i⟩
  have hz : L2_z m c = Spec.mlp (argW1 m c) (argB1 m c) (argW2 m c) (argB2 m c) (2 : Fin 4)
      (Spec.comb (scatterK m c) (argEps m c) (2 : Fin 4) (hK2 m c) (Spec.msg (gatherK m c) (hK2 m c) (eK m c))) := by
    rw [L2_mlp, L2_comb]
  show B22 m c main_v136 (ix2 p q) = _
  rw [← show (dat10 (E21 m) c).arrAt 6 cfg10.N = B22 m c main_v136 from hF10_6 m c, final10 (E21 m) c p q]
  show bnOp10 (B21 m c main_v121_0 (ix2 p q)) (B21 m c main_v93 (ix2 p q)) (B21 m c main_v123 (ix2 (0 : Fin 1) q))
    (B21 m c main_v129 (ix2 (0 : Fin 1) q)) (B21 m c main_v132 (ix2 (0 : Fin 1) q)) (B21 m c main_v135 (ix2 (0 : Fin 1) q)) = _
  rw [L2_mean, L2_var, L2_gam, L2_bet, L2_h_at21, B21_of m c main_v121_0 (by decide)]
  show bnOp10 (L2_z m c (ix2 p q)) (hK2 m c (ix2 p q)) (Spec.colMean (L2_z m c) q) (Spec.varClamped (L2_z m c) q)
    (argGam m c (ix2 (2 : Fin 4) q)) (argBet m c (ix2 (2 : Fin 4) q)) = _
  rw [hz]
  rfl

end Cert.KernelIdeal.Gen
-- ==== Proof.Final11.lean ====
/- The array the pipeline of custom_call 11 leaves in its output window, index by index, as a function of the arrays
   its two input windows read, in exact arithmetic: every row block of 10000 rows is written once, by the grid point
   of that number, with the pointwise value relu(a + b) of the same block of the two inputs. -/
import proofs.«127476_j62818191671466_2_alg».proof.Proof.Region11
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff11 : (![0, 0] : Fin 2 → Nat) = fun _ => 0 := funext fun a => by fin_cases a <;> rfl

/-- The body's operation on one pair of elements, in exact arithmetic: relu of the sum. -/
abbrev msgOp11 (x y : Ideal .f32) : Ideal .f32 := max (x + y) 0

/-- What the output array holds in the end: that operation of the two input arrays, index by index. -/
abbrev msgVal11 (a0 a1 : FVec Ideal S1000000x64 .f32) : FVec Ideal S1000000x64 .f32 :=
  fun i => msgOp11 (a0 i) (a1 i)

/-- The body's stored value is that operation of its two loaded blocks: the shape casts are identities and the
    constant word is the number zero. -/
theorem msgPay11_eq (x0 x1 : Vec Ideal S10000x64 .f32) : k11_pay1 x0 x1 = fun j => msgOp11 (x0 j) (x1 j) := by
  funext j
  show max (shapeCast S10000x64 x0 shapeCasts_S10000x64_S10000x64 j + shapeCast S10000x64 x1 shapeCasts_S10000x64_S10000x64 j)
    (Ideal.ofBits .f32 0x00000000#32) = _
  rw [Ideal.ofBits_zero_f32, shapeCast_self, shapeCast_self]

/-- The printed index maps, decided over the 100 grid points: all three windows are at row block t, column block 0. -/
theorem msgIdx11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

/-- What point t writes back is block t of msgVal11 of the two input arrays as the region finds them. -/
theorem msgFlushed11_eq (c : Dev nD) (t : Fin cfg11.N) :
    (dat11 V c).flushed 2 t = ((cfg11.win 2).blk t).view.read (Elt Ideal) (msgVal11 (V c main_v143) (V c main_v7)) := by
  show (cfg11.win 2).cut (grid11.coords t) ((dat11 V c).after 2 t) = _
  rw [after11_2]
  unfold out11_2
  rw [View.canon_unit_zero zeroOff11]
  simp only [View.ld_unit_zero (S := S10000x64) zeroOff11]
  rw [msgPay11_eq]
  obtain ⟨e0, e1, e2, e3, e4, e5⟩ := msgIdx11 t
  funext j
  show msgOp11 (V c main_v143 (((cfg11.win 0).blk t).view.emb j)) (V c main_v7 (((cfg11.win 1).blk t).view.emb j))
    = msgOp11 (V c main_v143 (((cfg11.win 2).blk t).view.emb j)) (V c main_v7 (((cfg11.win 2).blk t).view.emb j))
  have h0 : ((cfg11.win 0).blk t).view.emb j = ((cfg11.win 2).blk t).view.emb j := by
    funext a; apply Fin.ext
    match a with
    | ⟨0, _⟩ => show win11_0.index t (0 : Fin 2) * 10000 + 1 * (j 0).val = win11_2.index t (0 : Fin 2) * 10000 + 1 * (j 0).val; omega
    | ⟨1, _⟩ => show win11_0.index t (1 : Fin 2) * 64 + 1 * (j 1).val = win11_2.index t (1 : Fin 2) * 64 + 1 * (j 1).val; omega
  have h1 : ((cfg11.win 1).blk t).view.emb j = ((cfg11.win 2).blk t).view.emb j := by
    funext a; apply Fin.ext
    match a with
    | ⟨0, _⟩ => show win11_1.index t (0 : Fin 2) * 10000 + 1 * (j 0).val = win11_2.index t (0 : Fin 2) * 10000 + 1 * (j 0).val; omega
    | ⟨1, _⟩ => show win11_1.index t (1 : Fin 2) * 64 + 1 * (j 1).val = win11_2.index t (1 : Fin 2) * 64 + 1 * (j 1).val; omega
  rw [h0, h1]

/-- An index of the array is in point t's block iff each coordinate is in the block's range on its axis. -/
theorem msgMem11 (t : Fin cfg11.N) (i : S1000000x64.Idx) :
    i ∈ ((cfg11.win 2).blk t).view.set ↔ ∀ a : Fin 2, win11_2.index t a * S10000x64.size a ≤ (i a).val ∧ (i a).val < win11_2.index t a * S10000x64.size a + S10000x64.size a := by
  show i ∈ ((View.whole main_v144).slice (win11_2.rect t)).set ↔ _
  rw [View.set_slice_whole, Rect.mem_set_unit]
  exact Iff.rfl

/-- Every index is in the block of the point its row falls in: row r is in block r / 10000. -/
theorem msgCover11 (i : S1000000x64.Idx) :
    ∃ t : Fin cfg11.N, (cfg11.win 2).flush t = true ∧ i ∈ ((cfg11.win 2).blk t).view.set := by
  have hi0 : (i 0).val < 1000000 := (i 0).isLt
  have hi1 : (i 1).val < 64 := (i 1).isLt
  have hN : cfg11.N = 100 := N_11
  let t : Fin cfg11.N := ⟨(i 0).val / 10000, by rw [hN]; omega⟩
  obtain ⟨-, -, -, -, e4, e5⟩ := msgIdx11 t
  have e4' : win11_2.index t (0 : Fin 2) = (i 0).val / 10000 := e4
  refine ⟨t, flush11_2 t, ?_⟩
  rw [msgMem11]
  intro a
  match a with
  | ⟨0, _⟩ => show win11_2.index t (0 : Fin 2) * 10000 ≤ (i 0).val ∧ (i 0).val < win11_2.index t (0 : Fin 2) * 10000 + 10000; omega
  | ⟨1, _⟩ => show win11_2.index t (1 : Fin 2) * 64 ≤ (i 1).val ∧ (i 1).val < win11_2.index t (1 : Fin 2) * 64 + 64; omega

/-- The output array after the region, at every index. -/
theorem final11 (c : Dev nD) (p : Fin 1000000) (q : Fin 64) :
    (dat11 V c).arrAt 2 cfg11.N (ix2 p q) = msgOp11 (V c main_v143 (ix2 p q)) (V c main_v7 (ix2 p q)) := by
  rw [(dat11 V c).arrAt_eq_of_cover 2 (msgVal11 (V c main_v143) (V c main_v7)) (fun t _ => msgFlushed11_eq V c t) msgCover11]

end Cert.KernelIdeal.Gen
-- ==== Proof.KLayer3a.lean ====
/- Layer 3 of the kernel program, first part: what the layer's items find unchanged from earlier items, the gathered
   rows, the messages, and the perceptron's and the normalisation's parameters as the regions find them (slices of the
   argument arrays at the layer's index). -/
import proofs.«127476_j62818191671466_2_alg».proof.Proof.KDefs
import proofs.«127476_j62818191671466_2_alg».proof.Proof.Final11
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-! ## What the layer's items find unchanged -/

/-- The node features the item before the layer left are what every item of the layer reads. -/
theorem L3_h_at22 : B22 m c main_v136 = hK3 m c := by
  rfl
theorem L3_h_at24 : B24 m c main_v136 = hK3 m c := by
  rw [B24_of m c main_v136 (by decide), B23_of m c main_v136 (by decide), L3_h_at22]
theorem L3_h_at27 : B27 m c main_v136 = hK3 m c := by
  rw [B27_of m c main_v136 (by decide), B26_of m c main_v136 (by decide), B25_of m c main_v136 (by decide),
    L3_h_at24]
/-- The edge features are what the messages' region reads. -/
theorem L3_e_at23 : B23 m c main_v7 = eK m c := by
  rw [B23_of m c main_v7 (by decide), B22_of m c main_v7 (by decide), B21_of m c main_v7 (by decide),
    B20_of m c main_v7 (by decide), B19_of m c main_v7 (by decide), B18_of m c main_v7 (by decide),
    B17_of m c main_v7 (by decide), B16_of m c main_v7 (by decide), B15_of m c main_v7 (by decide),
    B14_of m c main_v7 (by decide), B13_of m c main_v7 (by decide), B12_of m c main_v7 (by decide),
    B11_of m c main_v7 (by decide), B10_of m c main_v7 (by decide), B9_of m c main_v7 (by decide),
    B8_of m c main_v7 (by decide), B7_of m c main_v7 (by decide), B6_of m c main_v7 (by decide),
    B5_of m c main_v7 (by decide)]; rfl
/-- The edges' source and target columns are as the first host stretch left them. -/
theorem L3_src_at22 : B22 m c main_v1 = B1 m c main_v1 := by
  rw [B22_of m c main_v1 (by decide), B21_of m c main_v1 (by decide), B20_of m c main_v1 (by decide),
    B19_of m c main_v1 (by decide), B18_of m c main_v1 (by decide), B17_of m c main_v1 (by decide),
    B16_of m c main_v1 (by decide), B15_of m c main_v1 (by decide), B14_of m c main_v1 (by decide),
    B13_of m c main_v1 (by decide), B12_of m c main_v1 (by decide), B11_of m c main_v1 (by decide),
    B10_of m c main_v1 (by decide), B9_of m c main_v1 (by decide), B8_of m c main_v1 (by decide),
    B7_of m c main_v1 (by decide), B6_of m c main_v1 (by decide), B5_of m c main_v1 (by decide),
    B4_of m c main_v1 (by decide), B3_of m c main_v1 (by decide), B2_of m c main_v1 (by decide)]
theorem L3_dst_at24 : B24 m c main_v3 = B1 m c main_v3 := by
  rw [B24_of m c main_v3 (by decide), B23_of m c main_v3 (by decide), B22_of m c main_v3 (by decide),
    B21_of m c main_v3 (by decide), B20_of m c main_v3 (by decide), B19_of m c main_v3 (by decide),
    B18_of m c main_v3 (by decide), B17_of m c main_v3 (by decide), B16_of m c main_v3 (by decide),
    B15_of m c main_v3 (by decide), B14_of m c main_v3 (by decide), B13_of m c main_v3 (by decide),
    B12_of m c main_v3 (by decide), B11_of m c main_v3 (by decide), B10_of m c main_v3 (by decide),
    B9_of m c main_v3 (by decide), B8_of m c main_v3 (by decide), B7_of m c main_v3 (by decide),
    B6_of m c main_v3 (by decide), B5_of m c main_v3 (by decide), B4_of m c main_v3 (by decide),
    B3_of m c main_v3 (by decide), B2_of m c main_v3 (by decide)]
/-- The argument arrays are as launched. -/
theorem L3_arg8_at24 : B24 m c main_arg8 = m (c, main_arg8) := by
  rw [B24_of m c main_arg8 (by decide), B23_of m c main_arg8 (by decide), B22_of m c main_arg8 (by decide),
    B21_of m c main_arg8 (by decide), B20_of m c main_arg8 (by decide), B19_of m c main_arg8 (by decide),
    B18_of m c main_arg8 (by decide), B17_of m c main_arg8 (by decide), B16_of m c main_arg8 (by decide),
    B15_of m c main_arg8 (by decide), B14_of m c main_arg8 (by decide), B13_of m c main_arg8 (by decide),
    B12_of m c main_arg8 (by decide), B11_of m c main_arg8 (by decide), B10_of m c main_arg8 (by decide),
    B9_of m c main_arg8 (by decide), B8_of m c main_arg8 (by decide), B7_of m c main_arg8 (by decide),
    B6_of m c main_arg8 (by decide), B5_of m c main_arg8 (by decide), B4_of m c main_arg8 (by decide),
    B3_of m c main_arg8 (by decide), B2_of m c main_arg8 (by decide), B1_of m c main_arg8 (by decide)]
theorem L3_arg9_at24 : B24 m c main_arg9 = m (c, main_arg9) := by
  rw [B24_of m c main_arg9 (by decide), B23_of m c main_arg9 (by decide), B22_of m c main_arg9 (by decide),
    B21_of m c main_arg9 (by decide), B20_of m c main_arg9 (by decide), B19_of m c main_arg9 (by decide),
    B18_of m c main_arg9 (by decide), B17_of m c main_arg9 (by decide), B16_of m c main_arg9 (by decide),
    B15_of m c main_arg9 (by decide), B14_of m c main_arg9 (by decide), B13_of m c main_arg9 (by decide),
    B12_of m c main_arg9 (by decide), B11_of m c main_arg9 (by decide), B10_of m c main_arg9 (by decide),
    B9_of m c main_arg9 (by decide), B8_of m c main_arg9 (by decide), B7_of m c main_arg9 (by decide),
    B6_of m c main_arg9 (by decide), B5_of m c main_arg9 (by decide), B4_of m c main_arg9 (by decide),
    B3_of m c main_arg9 (by decide), B2_of m c main_arg9 (by decide), B1_of m c main_arg9 (by decide)]
theorem L3_arg10_at24 : B24 m c main_arg10 = m (c, main_arg10) := by
  rw [B24_of m c main_arg10 (by decide), B23_of m c main_arg10 (by decide), B22_of m c main_arg10 (by decide),
    B21_of m c main_arg10 (by decide), B20_of m c main_arg10 (by decide), B19_of m c main_arg10 (by decide),
    B18_of m c main_arg10 (by decide), B17_of m c main_arg10 (by decide), B16_of m c main_arg10 (by decide),
    B15_of m c main_arg10 (by decide), B14_of m c main_arg10 (by decide), B13_of m c main_arg10 (by decide),
    B12_of m c main_arg10 (by decide), B11_of m c main_arg10 (by decide), B10_of m c main_arg10 (by decide),
    B9_of m c main_arg10 (by decide), B8_of m c main_arg10 (by decide), B7_of m c main_arg10 (by decide),
    B6_of m c main_arg10 (by decide), B5_of m c main_arg10 (by decide), B4_of m c main_arg10 (by decide),
    B3_of m c main_arg10 (by decide), B2_of m c main_arg10 (by decide), B1_of m c main_arg10 (by decide)]
theorem L3_arg11_at24 : B24 m c main_arg11 = m (c, main_arg11) := by
  rw [B24_of m c main_arg11 (by decide), B23_of m c main_arg11 (by decide), B22_of m c main_arg11 (by decide),
    B21_of m c main_arg11 (by decide), B20_of m c main_arg11 (by decide), B19_of m c main_arg11 (by decide),
    B18_of m c main_arg11 (by decide), B17_of m c main_arg11 (by decide), B16_of m c main_arg11 (by decide),
    B15_of m c main_arg11 (by decide), B14_of m c main_arg11 (by decide), B13_of m c main_arg11 (by decide),
    B12_of m c main_arg11 (by decide), B11_of m c main_arg11 (by decide), B10_of m c main_arg11 (by decide),
    B9_of m c main_arg11 (by decide), B8_of m c main_arg11 (by decide), B7_of m c main_arg11 (by decide),
    B6_of m c main_arg11 (by decide), B5_of m c main_arg11 (by decide), B4_of m c main_arg11 (by decide),
    B3_of m c main_arg11 (by decide), B2_of m c main_arg11 (by decide), B1_of m c main_arg11 (by decide)]
theorem L3_arg12_at24 : B24 m c main_arg12 = m (c, main_arg12) := by
  rw [B24_of m c main_arg12 (by decide), B23_of m c main_arg12 (by decide), B22_of m c main_arg12 (by decide),
    B21_of m c main_arg12 (by decide), B20_of m c main_arg12 (by decide), B19_of m c main_arg12 (by decide),
    B18_of m c main_arg12 (by decide), B17_of m c main_arg12 (by decide), B16_of m c main_arg12 (by decide),
    B15_of m c main_arg12 (by decide), B14_of m c main_arg12 (by decide), B13_of m c main_arg12 (by decide),
    B12_of m c main_arg12 (by decide), B11_of m c main_arg12 (by decide), B10_of m c main_arg12 (by decide),
    B9_of m c main_arg12 (by decide), B8_of m c main_arg12 (by decide), B7_of m c main_arg12 (by decide),
    B6_of m c main_arg12 (by decide), B5_of m c main_arg12 (by decide), B4_of m c main_arg12 (by decide),
    B3_of m c main_arg12 (by decide), B2_of m c main_arg12 (by decide), B1_of m c main_arg12 (by decide)]
theorem L3_arg13_at26 : B26 m c main_arg13 = m (c, main_arg13) := by
  rw [B26_of m c main_arg13 (by decide), B25_of m c main_arg13 (by decide), B24_of m c main_arg13 (by decide),
    B23_of m c main_arg13 (by decide), B22_of m c main_arg13 (by decide), B21_of m c main_arg13 (by decide),
    B20_of m c main_arg13 (by decide), B19_of m c main_arg13 (by decide), B18_of m c main_arg13 (by decide),
    B17_of m c main_arg13 (by decide), B16_of m c main_arg13 (by decide), B15_of m c main_arg13 (by decide),
    B14_of m c main_arg13 (by decide), B13_of m c main_arg13 (by decide), B12_of m c main_arg13 (by decide),
    B11_of m c main_arg13 (by decide), B10_of m c main_arg13 (by decide), B9_of m c main_arg13 (by decide),
    B8_of m c main_arg13 (by decide), B7_of m c main_arg13 (by decide), B6_of m c main_arg13 (by decide),
    B5_of m c main_arg13 (by decide), B4_of m c main_arg13 (by decide), B3_of m c main_arg13 (by decide),
    B2_of m c main_arg13 (by decide), B1_of m c main_arg13 (by decide)]
theorem L3_arg14_at26 : B26 m c main_arg14 = m (c, main_arg14) := by
  rw [B26_of m c main_arg14 (by decide), B25_of m c main_arg14 (by decide), B24_of m c main_arg14 (by decide),
    B23_of m c main_arg14 (by decide), B22_of m c main_arg14 (by decide), B21_of m c main_arg14 (by decide),
    B20_of m c main_arg14 (by decide), B19_of m c main_arg14 (by decide), B18_of m c main_arg14 (by decide),
    B17_of m c main_arg14 (by decide), B16_of m c main_arg14 (by decide), B15_of m c main_arg14 (by decide),
    B14_of m c main_arg14 (by decide), B13_of m c main_arg14 (by decide), B12_of m c main_arg14 (by decide),
    B11_of m c main_arg14 (by decide), B10_of m c main_arg14 (by decide), B9_of m c main_arg14 (by decide),
    B8_of m c main_arg14 (by decide), B7_of m c main_arg14 (by decide), B6_of m c main_arg14 (by decide),
    B5_of m c main_arg14 (by decide), B4_of m c main_arg14 (by decide), B3_of m c main_arg14 (by decide),
    B2_of m c main_arg14 (by decide), B1_of m c main_arg14 (by decide)]

/-! ## The gather and the messages -/

/-- The rows region 11 reads: the gather of the node features at the edges' source nodes. -/
theorem L3_gather : B23 m c main_v143 = gatherK m c (hK3 m c) := by
  dsimp only [B23, hostOps11]
  after_results
  rw [L3_h_at22, L3_src_at22]
  rfl

/-- Region 11's output: the messages. -/
theorem L3_msg : B24 m c main_v144 = Spec.msg (gatherK m c) (hK3 m c) (eK m c) := by
  funext i
  obtain ⟨n, q, rfl⟩ : ∃ (n : Fin 1000000) (q : Fin 64), i = ix2 n q := ⟨i 0, i 1, eq_ix2 i⟩
  rw [← show (dat11 (E23 m) c).arrAt 2 cfg11.N = B24 m c main_v144 from hF11_2 m c, final11 (E23 m) c n q]
  show msgOp11 (B23 m c main_v143 (ix2 n q)) (B23 m c main_v7 (ix2 n q)) = _
  rw [L3_gather, L3_e_at23]
  rfl

/-! ## The perceptron's parameters and the normalisation's, as the regions find them -/

/-- A slice of one leading index of a rank-3 array, with the unit axis dropped, reads the array at that index. -/
theorem L3_w1 (k : Fin 64) (j : Fin 128) : B25 m c main_v155 (ix2 k j) = argW1 m c (ix3 (3 : Fin 4) k j) := by
  dsimp only [B25, hostOps12]
  after_results
  rw [L3_arg9_at24]
  refine (shapeCast_1ab_ab_apply _ _ k j).trans ?_
  exact extractStridedSlice_apply _ _ _ _ (ix3 (3 : Fin 4) k j) (fun a => by
    match a with
    | ⟨0, _⟩ => rfl
    | ⟨1, _⟩ => exact (Nat.zero_add _).symm
    | ⟨2, _⟩ => exact (Nat.zero_add _).symm)

theorem L3_w2 (j : Fin 128) (q : Fin 64) : B25 m c main_v159 (ix2 j q) = argW2 m c (ix3 (3 : Fin 4) j q) := by
  dsimp only [B25, hostOps12]
  after_results
  rw [L3_arg11_at24]
  refine (shapeCast_1ab_ab_apply _ _ j q).trans ?_
  exact extractStridedSlice_apply _ _ _ _ (ix3 (3 : Fin 4) j q) (fun a => by
    match a with
    | ⟨0, _⟩ => rfl
    | ⟨1, _⟩ => exact (Nat.zero_add _).symm
    | ⟨2, _⟩ => exact (Nat.zero_add _).symm)

/-- A one-row slice of a matrix, flattened and put back as one row, reads the matrix at that row. -/
theorem L3_b1 (j : Fin 128) : B25 m c main_v162 (ix2 (0 : Fin 1) j) = argB1 m c (ix2 (3 : Fin 4) j) := by
  dsimp only [B25, hostOps12]
  after_results
  rw [L3_arg10_at24]
  refine (shapeCast_a_1a_apply _ _ 0 j).trans ?_
  refine (shapeCast_1a_a_apply _ _ j).trans ?_
  exact slice2_axis0_apply 3 _ _ (0 : Fin 1) j (3 : Fin 4) rfl

theorem L3_b2 (q : Fin 64) : B25 m c main_v163 (ix2 (0 : Fin 1) q) = argB2 m c (ix2 (3 : Fin 4) q) := by
  dsimp only [B25, hostOps12]
  after_results
  rw [L3_arg12_at24]
  refine (shapeCast_a_1a_apply _ _ 0 q).trans ?_
  refine (shapeCast_1a_a_apply _ _ q).trans ?_
  exact slice2_axis0_apply 3 _ _ (0 : Fin 1) q (3 : Fin 4) rfl

theorem L3_gam (q : Fin 64) : B27 m c main_v175 (ix2 (0 : Fin 1) q) = argGam m c (ix2 (3 : Fin 4) q) := by
  dsimp only [B27, hostOps13]
  after_results
  rw [L3_arg13_at26]
  refine (shapeCast_a_1a_apply _ _ 0 q).trans ?_
  refine (shapeCast_1a_a_apply _ _ q).trans ?_
  exact slice2_axis0_apply 3 _ _ (0 : Fin 1) q (3 : Fin 4) rfl

theorem L3_bet (q : Fin 64) : B27 m c main_v178 (ix2 (0 : Fin 1) q) = argBet m c (ix2 (3 : Fin 4) q) := by
  dsimp only [B27, hostOps13]
  after_results
  rw [L3_arg14_at26]
  refine (shapeCast_a_1a_apply _ _ 0 q).trans ?_
  refine (shapeCast_1a_a_apply _ _ q).trans ?_
  exact slice2_axis0_apply 3 _ _ (0 : Fin 1) q (3 : Fin 4) rfl

end Cert.KernelIdeal.Gen
-- ==== Proof.PayloadK12.lean ====
/-
  The perceptron-and-statistics step of the fourth layer: the same body as the first layer's, launched under
  another name, so the same readings at an entry hold: the perceptron
  Σ_j max (Σ_k x(p, k) · w₁(k, j) + b₁(0, j)) 0 · w₂(j, q) + b₂(0, q), its column sums and the column sums of its
  squares added to the two running rows, and the rows' start at zero.
-/
import proofs.«127476_j62818191671466_2_alg».proof.Proof.PayloadK3

noncomputable section

namespace Cert.KernelIdeal.Payload

open Idealize.ShloMosaic Idealize.ShloMosaic.ValueIdx Cert.KernelIdeal Cert.KernelIdeal.Gen

/-- The squares' column sums added to the running row: entry (0, q) of the stored row. -/
theorem k12_pay1_apply (v24 : FVec Ideal S10000x64 .f32) (v33 : Vec Ideal S1x64 .f32) (q : Fin 64) :
    k12_pay1 v24 v33 (ix2 (0 : Fin 1) q) = v33 (ix2 (0 : Fin 1) q) + ∑ p : Fin 10000, v24 (ix2 p q) * v24 (ix2 p q) := by
  simp only [k12_pay1, shapeCast_self]
  exact congrArg (v33 (ix2 (0 : Fin 1) q) + ·)
    (colsum_row_apply (mulf v24 v24) reduces_S10000x64_S64 (.inl rfl) rfl shapeCasts_S64_S1x64 0 q)

/-- The two running rows start at zero. -/
theorem k12_pay2_apply (q : Fin 64) : k12_pay2 (F := Ideal) (ix2 (0 : Fin 1) q) = 0 := by
  simp only [k12_pay2, shapeCast_self]
  exact Ideal.ofBits_zero_f32

theorem k12_pay3_apply (q : Fin 64) : k12_pay3 (F := Ideal) (ix2 (0 : Fin 1) q) = 0 := by
  simp only [k12_pay3, shapeCast_self]
  exact Ideal.ofBits_zero_f32

/-- The two-layer perceptron at an entry: Σ_j max (Σ_k x(p, k) · w₁(k, j) + b₁(0, j)) 0 · w₂(j, q) + b₂(0, q). -/
theorem k12_pay4_apply (v3 : Vec Ideal S10000x64 .f32) (v6 : Vec Ideal S64x128 .f32) (v10 : Vec Ideal S1x128 .f32)
    (v17 : Vec Ideal S128x64 .f32) (v21 : Vec Ideal S1x64 .f32) (p : Fin 10000) (q : Fin 64) :
    k12_pay4 v3 v6 v10 v17 v21 (ix2 p q)
      = (∑ j : Fin 128, max ((∑ k : Fin 64, v3 (ix2 p k) * v6 (ix2 k j)) + v10 (ix2 (0 : Fin 1) j)) 0 * v17 (ix2 j q))
        + v21 (ix2 (0 : Fin 1) q) := by
  simp only [k12_pay4, shapeCast_self]
  rw [addf_apply, matmul_zero_plain_apply _ dot_10000x128_128x64_eq, broadcastTo_1b_ab_apply]
  refine congrArg (· + v21 (ix2 (0 : Fin 1) q)) (Finset.sum_congr rfl fun j _ => ?_)
  refine congrArg (· * v17 (ix2 j q)) ?_
  show max (matmul (F := Ideal) dot_S10000x64_S64x128_S10000x128_1_0_0_1_n_n none (truncf .bf16 v3 bitsLt_bf16_f32)
        (truncf .bf16 v6 bitsLt_bf16_f32) (constant S10000x128 .f32 0x00000000#32) (ix2 p j)
      + broadcastTo S10000x128 v10 broadcasts_S1x128_S10000x128 (ix2 p j)) (Ideal.ofBits .f32 0x00000000#32) = _
  rw [matmul_zero_plain_apply _ dot_10000x64_64x128_eq, broadcastTo_1b_ab_apply, Ideal.ofBits_zero_f32]
  rfl

/-- The perceptron's column sums added to the running row: entry (0, q) of the stored row. -/
theorem k12_pay5_apply (v3 : Vec Ideal S10000x64 .f32) (v6 : Vec Ideal S64x128 .f32) (v10 : Vec Ideal S1x128 .f32)
    (v17 : Vec Ideal S128x64 .f32) (v21 : Vec Ideal S1x64 .f32) (v26 : Vec Ideal S1x64 .f32) (q : Fin 64) :
    k12_pay5 v3 v6 v10 v17 v21 v26 (ix2 (0 : Fin 1) q)
      = v26 (ix2 (0 : Fin 1) q) + ∑ p : Fin 10000, k12_pay4 v3 v6 v10 v17 v21 (ix2 p q) := by
  simp only [k12_pay5, shapeCast_self]
  exact congrArg (v26 (ix2 (0 : Fin 1) q) + ·)
    (colsum_row_apply (k12_pay4 v3 v6 v10 v17 v21) reduces_S10000x64_S64 (.inl rfl) rfl shapeCasts_S64_S1x64 0 q)

end Cert.KernelIdeal.Payload

end
-- ==== Proof.Final12.lean ====
/- The three arrays the pipeline of custom_call 12 leaves in its output windows, index by index, as functions of the
   arrays its five input windows read, in exact arithmetic. Every row block of 10000 rows of the first output is written
   once, by the grid point of that number, with the two-layer perceptron of the same block of the input and of the four
   parameter arrays, which every point reads whole. The other two outputs are one row each, revisited at every point and
   written back once, after the last point: they end at the column sums of the first output over all 100000 rows, and at
   the column sums of its squares — the ten per-block sums, added up point after point from zero, regrouped into one sum
   over all rows. -/
import proofs.«127476_j62818191671466_2_alg».proof.Proof.Region12
import proofs.«127476_j62818191671466_2_alg».proof.Proof.PayloadK12
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Payload

variable (V : (c : Dev nD) → (b : Ref sig .tc) → Buf (Elt Ideal) ((c : Thread nD τ).loc b))

theorem zeroOff12 : (![0, 0] : Fin 2 → Nat) = fun _ => 0 := funext fun a => by fin_cases a <;> rfl

/-! ## The perceptron at an entry -/

/-- The two-layer perceptron at row p, column q, from the input array and the four parameter arrays, in exact
    arithmetic: Σ_j relu(Σ_k a(p, k) · w₁(k, j) + b₁(0, j)) · w₂(j, q) + b₂(0, q). -/
abbrev mlpOp12 (a : FVec Ideal S100000x64 .f32) (w1 : FVec Ideal S64x128 .f32) (b1 : FVec Ideal S1x128 .f32)
    (w2 : FVec Ideal S128x64 .f32) (b2 : FVec Ideal S1x64 .f32) (p : Fin 100000) (q : Fin 64) : Ideal .f32 :=
  (∑ j : Fin 128, max ((∑ k : Fin 64, a (ix2 p k) * w1 (ix2 k j)) + b1 (ix2 (0 : Fin 1) j)) 0 * w2 (ix2 j q)) + b2 (ix2 (0 : Fin 1) q)

/-- The same of the five arrays as the region finds them. -/
abbrev Z12 (c : Dev nD) (p : Fin 100000) (q : Fin 64) : Ideal .f32 :=
  mlpOp12 (V c main_v153) (V c main_v155) (V c main_v162) (V c main_v159) (V c main_v163) p q

/-- What the first output array holds in the end. -/
abbrev zrawVal12 (c : Dev nD) : FVec Ideal S100000x64 .f32 :=
  fun i => Z12 V c (i 0) (i 1)

/-- The index maps, decided over the 10 grid points: the input and the first output are at row block t, column block
    0; the four parameter arrays and the two one-row outputs are at block (0, 0) at every point. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0 :=
  (by decide +kernel : ∀ t : Fin grid12.N, _)

/-- Row p of block t is a row of the array. -/
theorem rowLt12 (t : Fin cfg12.N) (p : Fin 10000) : t.val * 10000 + p.val < 100000 := by
  have := t.isLt; have hN : cfg12.N = 10 := N_12; have := p.isLt; omega

/-- The value the body stores into the first output's buffer at point t, at entry (p, q): the perceptron at row
    t · 10000 + p of the array. The loads read whole buffers; the input's block t starts at that row; the parameter
    arrays' one block is the whole array. -/
theorem zrawBlk12 (c : Dev nD) (t : Fin cfg12.N) (p : Fin 10000) (q : Fin 64) :
    zraw12 (iblk12 V c 0 t) (iblk12 V c 1 t) (iblk12 V c 2 t) (iblk12 V c 3 t) (iblk12 V c 4 t) (ix2 p q)
      = Z12 V c ⟨t.val * 10000 + p.val, rowLt12 t p⟩ q := by
  unfold zraw12
  simp only [View.ld_unit_zero (S := S10000x64) zeroOff12, View.ld_unit_zero (S := S64x128) zeroOff12, View.ld_unit_zero (S := S1x128) zeroOff12,
    View.ld_unit_zero (S := S128x64) zeroOff12, View.ld_unit_zero (S := S1x64) zeroOff12]
  rw [k12_pay4_apply]
  obtain ⟨e00, e01, e10, e11, e20, e21, e30, e31, e40, e41, -⟩ := idx12 t
  have h0 : ∀ k : Fin 64, iblk12 V c 0 t (ix2 p k) = V c main_v153 (ix2 (⟨t.val * 10000 + p.val, rowLt12 t p⟩ : Fin 100000) k) := fun k => by
    show V c main_v153 (((cfg12.win 0).blk t).view.emb (ix2 p k)) = _
    refine congrArg (V c main_v153) ?_
    funext a; apply Fin.ext
    match a with
    | ⟨0, _⟩ => show win12_0.index t (0 : Fin 2) * 10000 + 1 * p.val = t.val * 10000 + p.val; omega
    | ⟨1, _⟩ => show win12_0.index t (1 : Fin 2) * 64 + 1 * k.val = k.val; omega
  have h1 : ∀ (k : Fin 64) (j : Fin 128), iblk12 V c 1 t (ix2 k j) = V c main_v155 (ix2 k j) := fun k j => by
    show V c main_v155 (((cfg12.win 1).blk t).view.emb (ix2 k j)) = _
    refine congrArg (V c main_v155) ?_
    funext a; apply Fin.ext
    match a with
    | ⟨0, _⟩ => show win12_1.index t (0 : Fin 2) * 64 + 1 * k.val = k.val; omega
    | ⟨1, _⟩ => show win12_1.index t (1 : Fin 2) * 128 + 1 * j.val = j.val; omega
  have h2 : ∀ j : Fin 128, iblk12 V c 2 t (ix2 (0 : Fin 1) j) = V c main_v162 (ix2 (0 : Fin 1) j) := fun j => by
    show V c main_v162 (((cfg12.win 2).blk t).view.emb (ix2 (0 : Fin 1) j)) = _
    refine congrArg (V c main_v162) ?_
    funext a; apply Fin.ext
    match a with
    | ⟨0, _⟩ => show win12_2.index t (0 : Fin 2) * 1 + 1 * 0 = 0; omega
    | ⟨1, _⟩ => show win12_2.index t (1 : Fin 2) * 128 + 1 * j.val = j.val; omega
  have h3 : ∀ (j : Fin 128) (q : Fin 64), iblk12 V c 3 t (ix2 j q) = V c main_v159 (ix2 j q) := fun j q => by
    show V c main_v159 (((cfg12.win 3).blk t).view.emb (ix2 j q)) = _
    refine congrArg (V c main_v159) ?_
    funext a; apply Fin.ext
    match a with
    | ⟨0, _⟩ => show win12_3.index t (0 : Fin 2) * 128 + 1 * j.val = j.val; omega
    | ⟨1, _⟩ => show win12_3.index t (1 : Fin 2) * 64 + 1 * q.val = q.val; omega
  have h4 : ∀ q : Fin 64, iblk12 V c 4 t (ix2 (0 : Fin 1) q) = V c main_v163 (ix2 (0 : Fin 1) q) := fun q => by
    show V c main_v163 (((cfg12.win 4).blk t).view.emb (ix2 (0 : Fin 1) q)) = _
    refine congrArg (V c main_v163) ?_
    funext a; apply Fin.ext
    match a with
    | ⟨0, _⟩ => show win12_4.index t (0 : Fin 2) * 1 + 1 * 0 = 0; omega
    | ⟨1, _⟩ => show win12_4.index t (1 : Fin 2) * 64 + 1 * q.val = q.val; omega
  simp only [h0, h1, h2, h3, h4]

/-! ## The first output: the perceptron of every row -/

/-- What point t writes back is block t of the perceptron of the whole input array. -/
theorem flushed12_5_eq (c : Dev nD) (t : Fin cfg12.N) :
    (dat12 V c).flushed 5 t = ((cfg12.win 5).blk t).view.read (Elt Ideal) (zrawVal12 V c) := by
  show (cfg12.win 5).cut (grid12.coords t) ((dat12 V c).after 5 t) = _
  rw [after12_5]
  unfold out12_5
  rw [View.canon_unit_zero zeroOff12]
  obtain ⟨-, -, -, -, -, -, -, -, -, -, e50, e51, -⟩ := idx12 t
  funext j
  obtain ⟨j0, j1, rfl⟩ : ∃ (j0 : Fin 10000) (j1 : Fin 64), j = ix2 j0 j1 := ⟨j 0, j 1, eq_ix2 j⟩
  show zraw12 (iblk12 V c 0 t) (iblk12 V c 1 t) (iblk12 V c 2 t) (iblk12 V c 3 t) (iblk12 V c 4 t) (ix2 j0 j1) = zrawVal12 V c (((cfg12.win 5).blk t).view.emb (ix2 j0 j1))
  have h5 : ((cfg12.win 5).blk t).view.emb (ix2 j0 j1) = ix2 (⟨t.val * 10000 + j0.val, rowLt12 t j0⟩ : Fin 100000) j1 := by
    funext a; apply Fin.ext
    match a with
    | ⟨0, _⟩ => show win12_5.index t (0 : Fin 2) * 10000 + 1 * j0.val = t.val * 10000 + j0.val; omega
    | ⟨1, _⟩ => show win12_5.index t (1 : Fin 2) * 64 + 1 * j1.val = j1.val; omega
  rw [h5, zrawBlk12]

/-- An index of the first output array is in point t's block iff each coordinate is in the block's range on its axis. -/
theorem mem12_5 (t : Fin cfg12.N) (i : S100000x64.Idx) :
    i ∈ ((cfg12.win 5).blk t).view.set ↔ ∀ a : Fin 2, win12_5.index t a * S10000x64.size a ≤ (i a).val ∧ (i a).val < win12_5.index t a * S10000x64.size a + S10000x64.size a := by
  show i ∈ ((View.whole main_v164_0).slice (win12_5.rect t)).set ↔ _
  rw [View.set_slice_whole, Rect.mem_set_unit]
  exact Iff.rfl

/-- Every index is in the block of the point its row falls in: row r is in block r / 10000. -/
theorem cover12_5 (i : S100000x64.Idx) :
    ∃ t : Fin cfg12.N, (cfg12.win 5).flush t = true ∧ i ∈ ((cfg12.win 5).blk t).view.set := by
  have hi0 : (i 0).val < 100000 := (i 0).isLt
  have hi1 : (i 1).val < 64 := (i 1).isLt
  have hN : cfg12.N = 10 := N_12
  let t : Fin cfg12.N := ⟨(i 0).val / 10000, by rw [hN]; omega⟩
  obtain ⟨-, -, -, -, -, -, -, -, -, -, e50, e51, -⟩ := idx12 t
  have e50' : win12_5.index t (0 : Fin 2) = (i 0).val / 10000 := e50
  refine ⟨t, flush12_5 t, ?_⟩
  rw [mem12_5]
  intro a
  match a with
  | ⟨0, _⟩ => show win12_5.index t (0 : Fin 2) * 10000 ≤ (i 0).val ∧ (i 0).val < win12_5.index t (0 : Fin 2) * 10000 + 10000; omega
  | ⟨1, _⟩ => show win12_5.index t (1 : Fin 2) * 64 ≤ (i 1).val ∧ (i 1).val < win12_5.index t (1 : Fin 2) * 64 + 64; omega

/-- THE FIRST OUTPUT after the region, at every index: the perceptron of the index's row. -/
theorem final12_5 (c : Dev nD) (p : Fin 100000) (q : Fin 64) :
    (dat12 V c).arrAt 5 cfg12.N (ix2 p q) = Z12 V c p q := by
  rw [(dat12 V c).arrAt_eq_of_cover 5 (zrawVal12 V c) (fun t _ => flushed12_5_eq V c t) (cover12_5)]

/-! ## The two running rows -/

/-- What a point adds to the first running row at column q: the column sum of its block of the perceptron. -/
theorem sumAt12_apply (c : Dev nD) (t : Fin cfg12.N) (v : Vec Ideal S1x64 .f32) (q : Fin 64) :
    sumAt12 V c t v (ix2 (0 : Fin 1) q)
      = v (ix2 (0 : Fin 1) q) + ∑ p : Fin 10000, Z12 V c ⟨t.val * 10000 + p.val, rowLt12 t p⟩ q := by
  unfold sumAt12 sumP12
  rw [k12_pay5_apply]
  exact congrArg (v (ix2 (0 : Fin 1) q) + ·) (Finset.sum_congr rfl fun p _ => zrawBlk12 V c t p q)

/-- What a point adds to the second running row at column q: the column sum of the squares of its block. -/
theorem sqAt12_apply (c : Dev nD) (t : Fin cfg12.N) (v : Vec Ideal S1x64 .f32) (q : Fin 64) :
    sqAt12 V c t v (ix2 (0 : Fin 1) q)
      = v (ix2 (0 : Fin 1) q) + ∑ p : Fin 10000, Z12 V c ⟨t.val * 10000 + p.val, rowLt12 t p⟩ q * Z12 V c ⟨t.val * 10000 + p.val, rowLt12 t p⟩ q := by
  unfold sqAt12 sqP12
  rw [k12_pay1_apply]
  exact congrArg (v (ix2 (0 : Fin 1) q) + ·) (Finset.sum_congr rfl fun p _ => by rw [zrawBlk12 V c t p q])

/-- The column sum of block n of the perceptron (zero past the last block), -/
def bsum12 (c : Dev nD) (q : Fin 64) (n : ℕ) : Ideal .f32 :=
  if h : n < cfg12.N then ∑ p : Fin 10000, Z12 V c ⟨n * 10000 + p.val, rowLt12 ⟨n, h⟩ p⟩ q else 0
/-- and of its squares. -/
def bsq12 (c : Dev nD) (q : Fin 64) (n : ℕ) : Ideal .f32 :=
  if h : n < cfg12.N then ∑ p : Fin 10000, Z12 V c ⟨n * 10000 + p.val, rowLt12 ⟨n, h⟩ p⟩ q * Z12 V c ⟨n * 10000 + p.val, rowLt12 ⟨n, h⟩ p⟩ q else 0

/-- After point n the two running rows hold, at column q, the sums of the block sums of the points 0..n. -/
theorem acc12_sum (c : Dev nD) (q : Fin 64) : ∀ (n : ℕ) (hn : n < cfg12.N),
    (acc12 V c n hn).1 (ix2 (0 : Fin 1) q) = ∑ a ∈ Finset.range (n + 1), bsum12 V c q a
    ∧ (acc12 V c n hn).2 (ix2 (0 : Fin 1) q) = ∑ a ∈ Finset.range (n + 1), bsq12 V c q a
  | 0, hn => by
    refine ⟨?_, ?_⟩
    · show sumAt12 V c ⟨0, hn⟩ (k12_pay2 (F := Ideal)) (ix2 (0 : Fin 1) q) = _
      rw [sumAt12_apply, k12_pay2_apply, zero_add, Finset.sum_range_one]
      unfold bsum12; rw [dif_pos hn]
    · show sqAt12 V c ⟨0, hn⟩ (k12_pay3 (F := Ideal)) (ix2 (0 : Fin 1) q) = _
      rw [sqAt12_apply, k12_pay3_apply, zero_add, Finset.sum_range_one]
      unfold bsq12; rw [dif_pos hn]
  | n + 1, hn => by
    obtain ⟨ih1, ih2⟩ := acc12_sum c q n (Nat.lt_of_succ_lt hn)
    refine ⟨?_, ?_⟩
    · show sumAt12 V c ⟨n + 1, hn⟩ (acc12 V c n (Nat.lt_of_succ_lt hn)).1 (ix2 (0 : Fin 1) q) = _
      rw [sumAt12_apply, ih1, Finset.sum_range_succ (bsum12 V c q) (n + 1)]
      refine congrArg (_ + ·) ?_
      unfold bsum12; rw [dif_pos hn]
    · show sqAt12 V c ⟨n + 1, hn⟩ (acc12 V c n (Nat.lt_of_succ_lt hn)).2 (ix2 (0 : Fin 1) q) = _
      rw [sqAt12_apply, ih2, Finset.sum_range_succ (bsq12 V c q) (n + 1)]
      refine congrArg (_ + ·) ?_
      unfold bsq12; rw [dif_pos hn]

/-- The rows regrouped: row r of the array is row r % 10000 of block r / 10000. -/
def rowsEquiv12 : Fin 10 × Fin 10000 ≃ Fin 100000 where
  toFun x := ⟨x.1.val * 10000 + x.2.val, by have := x.1.isLt; have := x.2.isLt; omega⟩
  invFun r := (⟨r.val / 10000, by have := r.isLt; omega⟩, ⟨r.val % 10000, Nat.mod_lt _ (by decide)⟩)
  left_inv x := by
    obtain ⟨a, b⟩ := x
    have := a.isLt; have := b.isLt
    refine Prod.ext (Fin.ext ?_) (Fin.ext ?_)
    · show (a.val * 10000 + b.val) / 10000 = a.val; omega
    · show (a.val * 10000 + b.val) % 10000 = b.val; omega
  right_inv r := by
    apply Fin.ext
    show r.val / 10000 * 10000 + r.val % 10000 = r.val; omega

/-- Ten sums over the blocks of 10000 rows, added up, are one sum over the 100000 rows. -/
theorem sum_blocks12 (f : Fin 100000 → Ideal .f32) (g : ℕ → Ideal .f32)
    (hg : ∀ (n : ℕ) (h : n < 10), g n = ∑ p : Fin 10000, f ⟨n * 10000 + p.val, by have := p.isLt; omega⟩) :
    ∑ a ∈ Finset.range 10, g a = ∑ r : Fin 100000, f r := by
  have e1 : ∑ a ∈ Finset.range 10, g a = ∑ a : Fin 10, g a.val := (Fin.sum_univ_eq_sum_range g 10).symm
  rw [e1]
  have e2 : ∑ r : Fin 100000, f r = ∑ x : Fin 10 × Fin 10000, f (rowsEquiv12 x) :=
    (Fintype.sum_equiv rowsEquiv12 (fun x => f (rowsEquiv12 x)) f (fun _ => rfl)).symm
  rw [e2, Fintype.sum_prod_type]
  refine Finset.sum_congr rfl fun a _ => ?_
  rw [hg a.val a.isLt]
  rfl

/-- After the last point the first running row holds, at column q, the column sum of the perceptron over all rows, -/
theorem acc12_total_sum (c : Dev nD) (q : Fin 64) (hn : 9 < cfg12.N) :
    (acc12 V c 9 hn).1 (ix2 (0 : Fin 1) q) = ∑ p : Fin 100000, Z12 V c p q := by
  rw [(acc12_sum V c q 9 hn).1]
  refine sum_blocks12 (fun r => Z12 V c r q) (bsum12 V c q) fun n h => ?_
  unfold bsum12; rw [dif_pos (by rw [show cfg12.N = 10 from N_12]; exact h)]

/-- and the second the column sum of its squares. -/
theorem acc12_total_sq (c : Dev nD) (q : Fin 64) (hn : 9 < cfg12.N) :
    (acc12 V c 9 hn).2 (ix2 (0 : Fin 1) q) = ∑ p : Fin 100000, Z12 V c p q * Z12 V c p q := by
  rw [(acc12_sum V c q 9 hn).2]
  refine sum_blocks12 (fun r => Z12 V c r q * Z12 V c r q) (bsq12 V c q) fun n h => ?_
  unfold bsq12; rw [dif_pos (by rw [show cfg12.N = 10 from N_12]; exact h)]

/-! ## The two one-row outputs: written back once, after the last point -/

/-- What the second output array holds in the end, -/
def sumVal12 (c : Dev nD) : FVec Ideal S1x64 .f32 := fun i => ∑ p : Fin 100000, Z12 V c p (i 1)
/-- and the third. -/
def sqVal12 (c : Dev nD) : FVec Ideal S1x64 .f32 := fun i => ∑ p : Fin 100000, Z12 V c p (i 1) * Z12 V c p (i 1)

/-- The one block of a one-row output is the whole row, at every point. -/
theorem emb12_6 (t : Fin cfg12.N) (q : Fin 64) : ((cfg12.win 6).blk t).view.emb (ix2 (0 : Fin 1) q) = ix2 (0 : Fin 1) q := by
  obtain ⟨-, -, -, -, -, -, -, -, -, -, -, -, e60, e61, -⟩ := idx12 t
  funext a; apply Fin.ext
  match a with
  | ⟨0, _⟩ => show win12_6.index t (0 : Fin 2) * 1 + 1 * 0 = 0; omega
  | ⟨1, _⟩ => show win12_6.index t (1 : Fin 2) * 64 + 1 * q.val = q.val; omega
theorem emb12_7 (t : Fin cfg12.N) (q : Fin 64) : ((cfg12.win 7).blk t).view.emb (ix2 (0 : Fin 1) q) = ix2 (0 : Fin 1) q := by
  obtain ⟨-, -, -, -, -, -, -, -, -, -, -, -, -, -, e70, e71⟩ := idx12 t
  funext a; apply Fin.ext
  match a with
  | ⟨0, _⟩ => show win12_7.index t (0 : Fin 2) * 1 + 1 * 0 = 0; omega
  | ⟨1, _⟩ => show win12_7.index t (1 : Fin 2) * 64 + 1 * q.val = q.val; omega

/-- So reading any one-row array through that block reads the array. -/
theorem read_blk12_6 (G : FVec Ideal S1x64 .f32) (t : Fin cfg12.N) (q : Fin 64) :
    ((cfg12.win 6).blk t).view.read (Elt Ideal) G (ix2 (0 : Fin 1) q) = G (ix2 (0 : Fin 1) q) := by
  show G (((cfg12.win 6).blk t).view.emb (ix2 (0 : Fin 1) q)) = _
  exact congrArg G (emb12_6 t q)
theorem read_blk12_7 (G : FVec Ideal S1x64 .f32) (t : Fin cfg12.N) (q : Fin 64) :
    ((cfg12.win 7).blk t).view.read (Elt Ideal) G (ix2 (0 : Fin 1) q) = G (ix2 (0 : Fin 1) q) := by
  show G (((cfg12.win 7).blk t).view.emb (ix2 (0 : Fin 1) q)) = _
  exact congrArg G (emb12_7 t q)

theorem sumVal12_apply (c : Dev nD) (q : Fin 64) : sumVal12 V c (ix2 (0 : Fin 1) q) = ∑ p : Fin 100000, Z12 V c p q := by
  unfold sumVal12; rfl
theorem sqVal12_apply (c : Dev nD) (q : Fin 64) : sqVal12 V c (ix2 (0 : Fin 1) q) = ∑ p : Fin 100000, Z12 V c p q * Z12 V c p q := by
  unfold sqVal12; rfl

/-- The only point that writes the second output back is the last; what it writes is the row of the totals. -/
theorem flushed12_6_eq (c : Dev nD) (t : Fin cfg12.N) (hf : (cfg12.win 6).flush t = true) :
    (dat12 V c).flushed 6 t = ((cfg12.win 6).blk t).view.read (Elt Ideal) (sumVal12 V c) := by
  have hN : cfg12.N = 10 := N_12
  have h9 : t.val = 9 := by have := (flush12_6 t).mp hf; have := t.isLt; omega
  show (cfg12.win 6).cut (grid12.coords t) ((dat12 V c).after 6 t) = _
  rw [after12_6]
  unfold rowBuf12
  rw [View.canon_unit_zero zeroOff12]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk12_6 (sumVal12 V c) t j1).symm
  rw [sumVal12_apply]
  show (acc12 V c t.val t.isLt).1 (ix2 (0 : Fin 1) j1) = _
  obtain ⟨n, hn⟩ := t
  obtain rfl : n = 9 := h9
  exact acc12_total_sum V c j1 hn

/-- The same of the third output. -/
theorem flushed12_7_eq (c : Dev nD) (t : Fin cfg12.N) (hf : (cfg12.win 7).flush t = true) :
    (dat12 V c).flushed 7 t = ((cfg12.win 7).blk t).view.read (Elt Ideal) (sqVal12 V c) := by
  have hN : cfg12.N = 10 := N_12
  have h9 : t.val = 9 := by have := (flush12_7 t).mp hf; have := t.isLt; omega
  show (cfg12.win 7).cut (grid12.coords t) ((dat12 V c).after 7 t) = _
  rw [after12_7]
  unfold rowBuf12
  rw [View.canon_unit_zero zeroOff12]
  funext j
  obtain ⟨j0, j1, rfl⟩ : ∃ (j0 : Fin 1) (j1 : Fin 64), j = ix2 j0 j1 := ⟨j 0, j 1, eq_ix2 j⟩
  obtain rfl : j0 = 0 := Subsingleton.elim _ _
  refine Eq.trans ?_ (read_blk12_7 (sqVal12 V c) t j1).symm
  rw [sqVal12_apply]
  show (acc12 V c t.val t.isLt).2 (ix2 (0 : Fin 1) j1) = _
  obtain ⟨n, hn⟩ := t
  obtain rfl : n = 9 := h9
  exact acc12_total_sq V c j1 hn

/-- Every index of a one-row output is in the last point's block, which is written back. -/
theorem cover12_6 (i : S1x64.Idx) :
    ∃ t : Fin cfg12.N, (cfg12.win 6).flush t = true ∧ i ∈ ((cfg12.win 6).blk t).view.set := by
  have hi0 : (i 0).val < 1 := (i 0).isLt
  have hi1 : (i 1).val < 64 := (i 1).isLt
  have hN : cfg12.N = 10 := N_12
  let t : Fin cfg12.N := ⟨9, by rw [hN]; decide⟩
  obtain ⟨-, -, -, -, -, -, -, -, -, -, -, -, e60, e61, -⟩ := idx12 t
  refine ⟨t, (flush12_6 t).mpr rfl, ?_⟩
  show i ∈ ((View.whole main_v164_1).slice (win12_6.rect t)).set
  rw [View.set_slice_whole, Rect.mem_set_unit]
  intro a
  match a with
  | ⟨0, _⟩ => show win12_6.index t (0 : Fin 2) * 1 ≤ (i 0).val ∧ (i 0).val < win12_6.index t (0 : Fin 2) * 1 + 1; omega
  | ⟨1, _⟩ => show win12_6.index t (1 : Fin 2) * 64 ≤ (i 1).val ∧ (i 1).val < win12_6.index t (1 : Fin 2) * 64 + 64; omega
theorem cover12_7 (i : S1x64.Idx) :
    ∃ t : Fin cfg12.N, (cfg12.win 7).flush t = true ∧ i ∈ ((cfg12.win 7).blk t).view.set := by
  have hi0 : (i 0).val < 1 := (i 0).isLt
  have hi1 : (i 1).val < 64 := (i 1).isLt
  have hN : cfg12.N = 10 := N_12
  let t : Fin cfg12.N := ⟨9, by rw [hN]; decide⟩
  obtain ⟨-, -, -, -, -, -, -, -, -, -, -, -, -, -, e70, e71⟩ := idx12 t
  refine ⟨t, (flush12_7 t).mpr rfl, ?_⟩
  show i ∈ ((View.whole main_v164_2).slice (win12_7.rect t)).set
  rw [View.set_slice_whole, Rect.mem_set_unit]
  intro a
  match a with
  | ⟨0, _⟩ => show win12_7.index t (0 : Fin 2) * 1 ≤ (i 0).val ∧ (i 0).val < win12_7.index t (0 : Fin 2) * 1 + 1; omega
  | ⟨1, _⟩ => show win12_7.index t (1 : Fin 2) * 64 ≤ (i 1).val ∧ (i 1).val < win12_7.index t (1 : Fin 2) * 64 + 64; omega

/-- THE SECOND OUTPUT after the region: at column q the column sum of the perceptron over all 100000 rows. -/
theorem final12_6 (c : Dev nD) (q : Fin 64) :
    (dat12 V c).arrAt 6 cfg12.N (ix2 (0 : Fin 1) q) = ∑ p : Fin 100000, Z12 V c p q := by
  exact (congrFun ((dat12 V c).arrAt_eq_of_cover 6 (sumVal12 V c) (fun t hf => flushed12_6_eq V c t hf) (cover12_6)) (ix2 (0 : Fin 1) q)).trans (sumVal12_apply V c q)

/-- THE THIRD OUTPUT after the region: at column q the column sum of the squares of the perceptron over all rows. -/
theorem final12_7 (c : Dev nD) (q : Fin 64) :
    (dat12 V c).arrAt 7 cfg12.N (ix2 (0 : Fin 1) q) = ∑ p : Fin 100000, Z12 V c p q * Z12 V c p q := by
  exact (congrFun ((dat12 V c).arrAt_eq_of_cover 7 (sqVal12 V c) (fun t hf => flushed12_7_eq V c t hf) (cover12_7)) (ix2 (0 : Fin 1) q)).trans (sqVal12_apply V c q)

end Cert.KernelIdeal.Gen

end
-- ==== Proof.Final13.lean ====
/- The array the pipeline of custom_call 13 leaves in its output window, index by index, as a function of the arrays
   its six input windows read, in exact arithmetic: every row block of 10000 rows is written once, by the grid point
   of that number, with relu((z - mean) * rsqrt(var + eps) * gamma + beta + h) of the same block of z and h and of the
   four one-row arrays, which every point reads whole. -/
import proofs.«127476_j62818191671466_2_alg».proof.Proof.Region13
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff13 : (![0, 0] : Fin 2 → Nat) = fun _ => 0 := funext fun a => by fin_cases a <;> rfl

/-- The body's operation on one element of z and of h and the four row entries of its column, in exact arithmetic:
    the normalisation's affine map, the residual added, then relu. -/
abbrev bnOp13 (z h mean var gamma beta : Ideal .f32) : Ideal .f32 :=
  max ((z - mean) * Ideal.rsqrt (var + Ideal.ofBits .f32 0x3727C5AC#32) * gamma + beta + h) 0

/-- What the output array holds in the end: that operation of the two full arrays at the index and of the four
    one-row arrays at the index's column. -/
abbrev bnVal13 (z h : FVec Ideal S100000x64 .f32) (mean var gamma beta : FVec Ideal S1x64 .f32) : FVec Ideal S100000x64 .f32 :=
  fun i => bnOp13 (z i) (h i) (mean (ix2 0 (i 1))) (var (ix2 0 (i 1))) (gamma (ix2 0 (i 1))) (beta (ix2 0 (i 1)))

/-- A one-row vector broadcast down the 10000 rows reads, at an index, the row's entry of the index's column. -/
theorem bnRow13 (x : FVec Ideal S1x64 .f32) (j : S10000x64.Idx) :
    broadcastTo S10000x64 x broadcasts_S1x64_S10000x64 j = x (ix2 0 (j 1)) :=
  broadcastTo_apply x broadcasts_S1x64_S10000x64 j (ix2 0 (j 1)) fun a => by
    match a with
    | ⟨0, _⟩ => rfl
    | ⟨1, _⟩ => rfl

/-- The body's stored value is that operation of its six loaded blocks: the shape casts are identities, the
    broadcasts read the row, and the constant word of the last maximum is the number zero. -/
theorem bnPay13_eq (x0 x1 : Vec Ideal S10000x64 .f32) (x2 x3 x4 x5 : Vec Ideal S1x64 .f32) :
    k13_pay1 x3 x0 x2 x4 x5 x1
      = fun j => bnOp13 (x0 j) (x1 j) (x2 (ix2 0 (j 1))) (x3 (ix2 0 (j 1))) (x4 (ix2 0 (j 1))) (x5 (ix2 0 (j 1))) := by
  funext j
  unfold k13_pay1
  simp only [shapeCast_self]
  show max ((x0 j - broadcastTo S10000x64 x2 broadcasts_S1x64_S10000x64 j)
        * broadcastTo S10000x64 (rsqrt (F := Ideal) (addf (F := Ideal) x3 (broadcast S1x64 (Scalar.ofBits (F := Ideal) .f32 0x3727C5AC#32)))) broadcasts_S1x64_S10000x64 j
        * broadcastTo S10000x64 x4 broadcasts_S1x64_S10000x64 j
      + broadcastTo S10000x64 x5 broadcasts_S1x64_S10000x64 j + x1 j) (Ideal.ofBits .f32 0x00000000#32) = _
  simp only [bnRow13]
  rw [Ideal.ofBits_zero_f32]
  rfl

/-- The printed index maps, decided over the 10 grid points: the two full inputs and the output are at row block t,
    column block 0; the four one-row inputs are at block (0, 0) at every point. -/
theorem bnIdx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

set_option maxHeartbeats 1600000 in
/-- What point t writes back is block t of bnVal13 of the six input arrays as the region finds them. -/
theorem bnFlushed13_eq (c : Dev nD) (t : Fin cfg13.N) :
    (dat13 V c).flushed 6 t = ((cfg13.win 6).blk t).view.read (Elt Ideal)
      (bnVal13 (V c main_v164_0) (V c main_v136) (V c main_v166) (V c main_v172) (V c main_v175) (V c main_v178)) := by
  show (cfg13.win 6).cut (grid13.coords t) ((dat13 V c).after 6 t) = _
  rw [after13_6]
  unfold out13_6
  rw [View.canon_unit_zero zeroOff13]
  simp only [View.ld_unit_zero (S := S10000x64) zeroOff13, View.ld_unit_zero (S := S1x64) zeroOff13]
  rw [bnPay13_eq]
  obtain ⟨e00, e01, e10, e11, e20, e21, e30, e31, e40, e41, e50, e51, e60, e61⟩ := bnIdx13 t
  funext j
  obtain ⟨j0, j1, rfl⟩ : ∃ (j0 : Fin 10000) (j1 : Fin 64), j = ix2 j0 j1 := ⟨j 0, j 1, eq_ix2 j⟩
  have ht : t.val < 10 := by have := t.isLt; have hN : cfg13.N = 10 := N_13; omega
  -- the array index of element (j0, j1) of block t: row t * 10000 + j0, column j1
  let i6 : S100000x64.Idx := ix2 (⟨t.val * 10000 + j0.val, by omega⟩ : Fin 100000) j1
  let r : S1x64.Idx := ix2 (0 : Fin 1) j1
  show bnOp13 (V c main_v164_0 (((cfg13.win 0).blk t).view.emb (ix2 j0 j1))) (V c main_v136 (((cfg13.win 1).blk t).view.emb (ix2 j0 j1)))
      (V c main_v166 (((cfg13.win 2).blk t).view.emb r)) (V c main_v172 (((cfg13.win 3).blk t).view.emb r))
      (V c main_v175 (((cfg13.win 4).blk t).view.emb r)) (V c main_v178 (((cfg13.win 5).blk t).view.emb r))
    = bnVal13 (V c main_v164_0) (V c main_v136) (V c main_v166) (V c main_v172) (V c main_v175) (V c main_v178)
        (((cfg13.win 6).blk t).view.emb (ix2 j0 j1))
  have h0 : ((cfg13.win 0).blk t).view.emb (ix2 j0 j1) = i6 := by
    funext a; apply Fin.ext
    match a with
    | ⟨0, _⟩ => show win13_0.index t (0 : Fin 2) * 10000 + 1 * j0.val = t.val * 10000 + j0.val; omega
    | ⟨1, _⟩ => show win13_0.index t (1 : Fin 2) * 64 + 1 * j1.val = j1.val; omega
  have h1 : ((cfg13.win 1).blk t).view.emb (ix2 j0 j1) = i6 := by
    funext a; apply Fin.ext
    match a with
    | ⟨0, _⟩ => show win13_1.index t (0 : Fin 2) * 10000 + 1 * j0.val = t.val * 10000 + j0.val; omega
    | ⟨1, _⟩ => show win13_1.index t (1 : Fin 2) * 64 + 1 * j1.val = j1.val; omega
  have h6 : ((cfg13.win 6).blk t).view.emb (ix2 j0 j1) = i6 := by
    funext a; apply Fin.ext
    match a with
    | ⟨0, _⟩ => show win13_6.index t (0 : Fin 2) * 10000 + 1 * j0.val = t.val * 10000 + j0.val; omega
    | ⟨1, _⟩ => show win13_6.index t (1 : Fin 2) * 64 + 1 * j1.val = j1.val; omega
  have h2 : ((cfg13.win 2).blk t).view.emb r = r := by
    funext a; apply Fin.ext
    match a with
    | ⟨0, _⟩ => show win13_2.index t (0 : Fin 2) * 1 + 1 * 0 = 0; omega
    | ⟨1, _⟩ => show win13_2.index t (1 : Fin 2) * 64 + 1 * j1.val = j1.val; omega
  have h3 : ((cfg13.win 3).blk t).view.emb r = r := by
    funext a; apply Fin.ext
    match a with
    | ⟨0, _⟩ => show win13_3.index t (0 : Fin 2) * 1 + 1 * 0 = 0; omega
    | ⟨1, _⟩ => show win13_3.index t (1 : Fin 2) * 64 + 1 * j1.val = j1.val; omega
  have h4 : ((cfg13.win 4).blk t).view.emb r = r := by
    funext a; apply Fin.ext
    match a with
    | ⟨0, _⟩ => show win13_4.index t (0 : Fin 2) * 1 + 1 * 0 = 0; omega
    | ⟨1, _⟩ => show win13_4.index t (1 : Fin 2) * 64 + 1 * j1.val = j1.val; omega
  have h5 : ((cfg13.win 5).blk t).view.emb r = r := by
    funext a; apply Fin.ext
    match a with
    | ⟨0, _⟩ => show win13_5.index t (0 : Fin 2) * 1 + 1 * 0 = 0; omega
    | ⟨1, _⟩ => show win13_5.index t (1 : Fin 2) * 64 + 1 * j1.val = j1.val; omega
  rw [h0, h1, h2, h3, h4, h5, h6]

/-- An index of the array is in point t's block iff each coordinate is in the block's range on its axis. -/
theorem bnMem13 (t : Fin cfg13.N) (i : S100000x64.Idx) :
    i ∈ ((cfg13.win 6).blk t).view.set ↔ ∀ a : Fin 2, win13_6.index t a * S10000x64.size a ≤ (i a).val ∧ (i a).val < win13_6.index t a * S10000x64.size a + S10000x64.size a := by
  show i ∈ ((View.whole main_v179).slice (win13_6.rect t)).set ↔ _
  rw [View.set_slice_whole, Rect.mem_set_unit]
  exact Iff.rfl

/-- Every index is in the block of the point its row falls in: row r is in block r / 10000. -/
theorem bnCover13 (i : S100000x64.Idx) :
    ∃ t : Fin cfg13.N, (cfg13.win 6).flush t = true ∧ i ∈ ((cfg13.win 6).blk t).view.set := by
  have hi0 : (i 0).val < 100000 := (i 0).isLt
  have hi1 : (i 1).val < 64 := (i 1).isLt
  have hN : cfg13.N = 10 := N_13
  let t : Fin cfg13.N := ⟨(i 0).val / 10000, by rw [hN]; omega⟩
  obtain ⟨-, -, -, -, -, -, -, -, -, -, -, -, e60, e61⟩ := bnIdx13 t
  have e60' : win13_6.index t (0 : Fin 2) = (i 0).val / 10000 := e60
  refine ⟨t, flush13_6 t, ?_⟩
  rw [bnMem13]
  intro a
  match a with
  | ⟨0, _⟩ => show win13_6.index t (0 : Fin 2) * 10000 ≤ (i 0).val ∧ (i 0).val < win13_6.index t (0 : Fin 2) * 10000 + 10000; omega
  | ⟨1, _⟩ => show win13_6.index t (1 : Fin 2) * 64 ≤ (i 1).val ∧ (i 1).val < win13_6.index t (1 : Fin 2) * 64 + 64; omega

/-- The output array after the region, at every index. -/
theorem final13 (c : Dev nD) (p : Fin 100000) (q : Fin 64) :
    (dat13 V c).arrAt 6 cfg13.N (ix2 p q)
      = bnOp13 (V c main_v164_0 (ix2 p q)) (V c main_v136 (ix2 p q)) (V c main_v166 (ix2 0 q)) (V c main_v172 (ix2 0 q))
          (V c main_v175 (ix2 0 q)) (V c main_v178 (ix2 0 q)) := by
  rw [(dat13 V c).arrAt_eq_of_cover 6 (bnVal13 (V c main_v164_0) (V c main_v136) (V c main_v166) (V c main_v172) (V c main_v175) (V c main_v178))
    (fun t _ => bnFlushed13_eq V c t) bnCover13]

end Cert.KernelIdeal.Gen
-- ==== Proof.KLayer3.lean ====
/- Layer 3 of the kernel program, second part: the messages' segment sum combined with the node features, the
   perceptron and its column sums, the mean and the clamped variance the host forms from them, and the normalisation
   with the residual and the relu: the node features after the layer are the layer function of those before it. -/
import proofs.«127476_j62818191671466_2_alg».proof.Proof.KLayer3a
import proofs.«127476_j62818191671466_2_alg».proof.Proof.Final12
import proofs.«127476_j62818191671466_2_alg».proof.Proof.Final13

set_option maxRecDepth 16384

noncomputable section

namespace Cert.KernelIdeal.Gen

open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-- What region 12 reads and what it leaves in its first output, as arrays over the extended reals. -/
abbrev L3_zin : Spec.A2 Spec.nN 64 := B25 m c main_v153
abbrev L3_z : Spec.A2 Spec.nN 64 := B26 m c main_v164_0

set_option maxHeartbeats 2000000 in
/-- What region 12 reads: (1 + eps) * h + the messages summed at their target nodes. -/
theorem L3_comb : L3_zin m c
    = Spec.comb (scatterK m c) (argEps m c) (3 : Fin 4) (hK3 m c) (Spec.msg (gatherK m c) (hK3 m c) (eK m c)) := by
  funext i
  obtain ⟨p, q, rfl⟩ : ∃ (p : Fin 100000) (q : Fin 64), i = ix2 p q := ⟨i 0, i 1, eq_ix2 i⟩
  show B25 m c main_v153 (ix2 p q) = _
  dsimp only [B25, hostOps12]
  after_results
  rw [L3_h_at24, L3_dst_at24, L3_arg8_at24, L3_msg]
  rw [addf_apply, mulf_apply, broadcastInDim_apply ![] bcast_S_S100000x64 _ (ix2 p q) ix0 (fun a => a.elim0), addf_apply]
  unfold Spec.comb
  rw [Spec.ofFn_ix2]
  have he : (shapeCast S_ (extractStridedSlice S1 ![3] (m (c, main_arg8)) slices_S4_S1_3) shapeCasts_S1_S_) ix0
      = argEps m c (ix1 (3 : Fin 4)) :=
    (shapeCast_apply _ _ ix0 (ix1 (0 : Fin 1)) rfl).trans
      (extractStridedSlice_apply _ _ _ _ (ix1 (3 : Fin 4)) (fun a => by
        match a with
        | ⟨0, _⟩ => rfl))
  exact congrArg (fun x : Ideal .f32 => (Spec.oneW + x) * hK3 m c (ix2 p q)
    + scatterK m c (Spec.msg (gatherK m c) (hK3 m c) (eK m c)) (ix2 p q)) he

/-- The perceptron's entry over parameter blocks that are the layer's slices of the parameter arrays. -/
theorem L3_mlpOp_eq (a : FVec Ideal S100000x64 .f32) (w1 : FVec Ideal S64x128 .f32) (b1 : FVec Ideal S1x128 .f32)
    (w2 : FVec Ideal S128x64 .f32) (b2 : FVec Ideal S1x64 .f32)
    (W1 : Spec.A3 4 64 128) (B1' : Spec.A2 4 128) (W2 : Spec.A3 4 128 64) (B2' : Spec.A2 4 64) (l : Fin 4)
    (h1 : ∀ k j, w1 (ix2 k j) = W1 (ix3 l k j)) (hb1 : ∀ j, b1 (ix2 (0 : Fin 1) j) = B1' (ix2 l j))
    (h2 : ∀ j q, w2 (ix2 j q) = W2 (ix3 l j q)) (hb2 : ∀ q, b2 (ix2 (0 : Fin 1) q) = B2' (ix2 l q))
    (p : Fin 100000) (q : Fin 64) :
    mlpOp12 a w1 b1 w2 b2 p q = Spec.mlp W1 B1' W2 B2' l a (ix2 p q) := by
  unfold Spec.mlp
  rw [Spec.ofFn_ix2]
  simp only [mlpOp12, h1, hb1, h2, hb2]

/-- Region 12's first output: the perceptron of what it reads. -/
theorem L3_mlp : L3_z m c
    = Spec.mlp (argW1 m c) (argB1 m c) (argW2 m c) (argB2 m c) (3 : Fin 4) (L3_zin m c) := by
  funext i
  obtain ⟨p, q, rfl⟩ : ∃ (p : Fin 100000) (q : Fin 64), i = ix2 p q := ⟨i 0, i 1, eq_ix2 i⟩
  show B26 m c main_v164_0 (ix2 p q) = _
  rw [← show (dat12 (E25 m) c).arrAt 5 cfg12.N = B26 m c main_v164_0 from hF12_5 m c, final12_5 (E25 m) c p q]
  exact L3_mlpOp_eq (B25 m c main_v153) (B25 m c main_v155) (B25 m c main_v162) (B25 m c main_v159) (B25 m c main_v163)
    (argW1 m c) (argB1 m c) (argW2 m c) (argB2 m c) (3 : Fin 4) (L3_w1 m c) (L3_b1 m c) (L3_w2 m c) (L3_b2 m c) p q

/-- The perceptron's entries are what region 12 states its two running rows over. -/
theorem L3_Z (p : Fin 100000) (q : Fin 64) : Z12 (E25 m) c p q = L3_z m c (ix2 p q) := by
  show _ = B26 m c main_v164_0 (ix2 p q)
  rw [← show (dat12 (E25 m) c).arrAt 5 cfg12.N = B26 m c main_v164_0 from hF12_5 m c, final12_5 (E25 m) c p q]

/-- Region 12's second and third outputs: the column sums of the perceptron and of its squares. -/
theorem L3_sum (q : Fin 64) : B26 m c main_v164_1 (ix2 (0 : Fin 1) q) = ∑ r : Fin Spec.nN, L3_z m c (ix2 r q) := by
  rw [← show (dat12 (E25 m) c).arrAt 6 cfg12.N = B26 m c main_v164_1 from hF12_6 m c, final12_6 (E25 m) c q]
  show ∑ r : Fin 100000, Z12 (E25 m) c r q = ∑ r : Fin Spec.nN, L3_z m c (ix2 r q)
  exact Finset.sum_congr rfl fun r _ => L3_Z m c r q
theorem L3_sq (q : Fin 64) : B26 m c main_v164_2 (ix2 (0 : Fin 1) q)
    = ∑ r : Fin Spec.nN, L3_z m c (ix2 r q) * L3_z m c (ix2 r q) := by
  rw [← show (dat12 (E25 m) c).arrAt 7 cfg12.N = B26 m c main_v164_2 from hF12_7 m c, final12_7 (E25 m) c q]
  show ∑ r : Fin 100000, Z12 (E25 m) c r q * Z12 (E25 m) c r q = ∑ r : Fin Spec.nN, L3_z m c (ix2 r q) * L3_z m c (ix2 r q)
  exact Finset.sum_congr rfl fun r _ => by rw [L3_Z]

/-! ## The mean and the clamped variance the host forms -/

set_option maxHeartbeats 2000000 in
/-- The mean row: the column sums divided by the row count. -/
theorem L3_mean (q : Fin 64) : B27 m c main_v166 (ix2 (0 : Fin 1) q) = Spec.colMean (L3_z m c) q := by
  dsimp only [B27, hostOps13]
  after_results
  show Ideal.div (B26 m c main_v164_1 (ix2 (0 : Fin 1) q))
    (broadcastInDim S1x64 ![] bcast_S_S1x64 (constant (F := Ideal) S_ .f32 0x47C35000#32) (ix2 (0 : Fin 1) q)) = _
  rw [L3_sum, broadcastInDim_apply ![] bcast_S_S1x64 _ (ix2 (0 : Fin 1) q) ix0 (fun a => a.elim0)]
  unfold Spec.colMean
  exact congrArg (Ideal.div (∑ r : Fin Spec.nN, L3_z m c (ix2 r q))) rfl

set_option maxHeartbeats 4000000 in
/-- The variance row: the mean of the squares less the squared mean, not below zero. -/
theorem L3_var (q : Fin 64) : B27 m c main_v172 (ix2 (0 : Fin 1) q) = Spec.varClamped (L3_z m c) q := by
  dsimp only [B27, hostOps13]
  after_results
  rw [maximumf_apply, subf_apply, mulf_apply]
  show max (Ideal.div (B26 m c main_v164_2 (ix2 (0 : Fin 1) q))
        (broadcastInDim S1x64 ![] bcast_S_S1x64 (constant (F := Ideal) S_ .f32 0x47C35000#32) (ix2 (0 : Fin 1) q))
      - Ideal.div (B26 m c main_v164_1 (ix2 (0 : Fin 1) q))
          (broadcastInDim S1x64 ![] bcast_S_S1x64 (constant (F := Ideal) S_ .f32 0x47C35000#32) (ix2 (0 : Fin 1) q))
        * Ideal.div (B26 m c main_v164_1 (ix2 (0 : Fin 1) q))
          (broadcastInDim S1x64 ![] bcast_S_S1x64 (constant (F := Ideal) S_ .f32 0x47C35000#32) (ix2 (0 : Fin 1) q)))
    (broadcastInDim S1x64 ![] bcast_S_S1x64 (constant (F := Ideal) S_ .f32 0x00000000#32) (ix2 (0 : Fin 1) q)) = _
  rw [L3_sum, L3_sq, broadcastInDim_apply ![] bcast_S_S1x64 _ (ix2 (0 : Fin 1) q) ix0 (fun a => a.elim0),
    broadcastInDim_apply ![] bcast_S_S1x64 _ (ix2 (0 : Fin 1) q) ix0 (fun a => a.elim0)]
  unfold Spec.varClamped Spec.colMean
  have hk : constant (F := Ideal) S_ .f32 0x47C35000#32 ix0 = Spec.cntW := rfl
  have h0 : constant (F := Ideal) S_ .f32 0x00000000#32 ix0 = (0 : EReal) := Ideal.ofBits_zero_f32
  rw [hk, h0]

/-! ## The layer -/

set_option maxHeartbeats 1000000 in
/-- The node features after layer 3. -/
theorem kLayer3 : hK4 m c = Spec.layerK (gatherK m c) (scatterK m c) (argEps m c) (argW1 m c) (argB1 m c) (argW2 m c)
    (argB2 m c) (argGam m c) (argBet m c) (3 : Fin 4) (hK3 m c) (eK m c) := by
  funext i
  obtain ⟨p, q, rfl⟩ : ∃ (p : Fin 100000) (q : Fin 64), i = ix2 p q := ⟨i 0, i 1, eq_ix2 i⟩
  have hz : L3_z m c = Spec.mlp (argW1 m c) (argB1 m c) (argW2 m c) (argB2 m c) (3 : Fin 4)
      (Spec.comb (scatterK m c) (argEps m c) (3 : Fin 4) (hK3 m c) (Spec.msg (gatherK m c) (hK3 m c) (eK m c))) := by
    rw [L3_mlp, L3_comb]
  show B28 m c main_v179 (ix2 p q) = _
  rw [← show (dat13 (E27 m) c).arrAt 6 cfg13.N = B28 m c main_v179 from hF13_6 m c, final13 (E27 m) c p q]
  show bnOp13 (B27 m c main_v164_0 (ix2 p q)) (B27 m c main_v136 (ix2 p q)) (B27 m c main_v166 (ix2 (0 : Fin 1) q))
    (B27 m c main_v172 (ix2 (0 : Fin 1) q)) (B27 m c main_v175 (ix2 (0 : Fin 1) q)) (B27 m c main_v178 (ix2 (0 : Fin 1) q)) = _
  rw [L3_mean, L3_var, L3_gam, L3_bet, L3_h_at27, B27_of m c main_v164_0 (by decide)]
  show bnOp13 (L3_z m c (ix2 p q)) (hK3 m c (ix2 p q)) (Spec.colMean (L3_z m c) q) (Spec.varClamped (L3_z m c) q)
    (argGam m c (ix2 (3 : Fin 4) q)) (argBet m c (ix2 (3 : Fin 4) q)) = _
  rw [hz]
  rfl

end Cert.KernelIdeal.Gen
-- ==== Proof.RVal.lean ====
/-
  The reference program's stages as functions of whole arrays, against the network's layers over the extended reals.

  Each host operation's value is a function of the arguments of the program it depends on, and reads at an index as its
  operands at an index (the module imported first). Chained from a layer's last operation down to the layer's inputs,
  the readings give the layer's five stages as the network's: the messages, their combination with the node features,
  the two-layer perceptron, a column's mean and centred variance over the 100000 rows, and the normalisation with the
  affine map, the residual and the relu. A product of matrices reads as the sum over the contracted coordinate; a
  reduction over the rows from the zero word as the sum over the row coordinate; a slice of a parameter array and its
  reshape as the array at the layer's index; the zero word is the number zero. The row gather and the segment sum are
  not read at an index: they stay host functions applied to whole arrays.
-/
import proofs.«127476_j62818191671466_2_alg».proof.Proof.RReadLite
import proofs.«127476_j62818191671466_2_alg».proof.Proof.Spec

set_option maxRecDepth 16384

noncomputable section

namespace Cert.ReferenceIdeal.ValueP

open Cert.ReferenceIdeal Cert.ReferenceIdeal.Gen Cert.ReferenceIdeal.ReadP Idealize.ShloMosaic Idealize.ShloMosaic.ValueIdx Cert.Spec

/-! ## The two encoders -/

theorem encNode_val (x0 : A2 nN 32) (x4 : A2 32 64) (x5 : A1 64) :
    val_main_v8 (F := Ideal) x0 x4 x5 = encNode x0 x4 x5 := by
  funext i
  obtain ⟨p, q, rfl⟩ : ∃ (p : Fin 100000) (q : Fin 64), i = ix2 p q := ⟨i 0, i 1, eq_ix2 i⟩
  rw [val_main_v8_apply, val_main_v7_apply, val_main_v4_apply, val_main_v6_apply, val_main_v5_apply, val_main_call0_v0_apply, val_main_call0_cst_apply]
  unfold encNode; rw [ofFn_ix2]
  have hl : ∀ k : Fin 32, lidx_main_v4 (ix2 p q) k = ix2 p k := fun k => funext fun a => by match a with | ⟨0, _⟩ => rfl | ⟨1, _⟩ => rfl
  have hr : ∀ k : Fin 32, ridx_main_v4 (ix2 p q) k = ix2 k q := fun k => funext fun a => by match a with | ⟨0, _⟩ => rfl | ⟨1, _⟩ => rfl
  have h5 : idx_main_v5 (idx_main_v6 (ix2 p q)) = ix1 q := funext fun a => by match a with | ⟨0, _⟩ => rfl
  simp only [hl, hr, h5]
  show max (_ + _) (Ideal.ofBits .f32 0x00000000#32) = _
  rw [Ideal.ofBits_zero_f32]

theorem encEdge_val (x1 : A2 nE 16) (x6 : A2 16 64) (x7 : A1 64) :
    val_main_v12 (F := Ideal) x1 x6 x7 = encEdge x1 x6 x7 := by
  funext i
  obtain ⟨n, q, rfl⟩ : ∃ (n : Fin 1000000) (q : Fin 64), i = ix2 n q := ⟨i 0, i 1, eq_ix2 i⟩
  rw [val_main_v12_apply, val_main_v9_apply, val_main_v11_apply, val_main_v10_apply]
  unfold encEdge; rw [ofFn_ix2]
  have hl : ∀ k : Fin 16, lidx_main_v9 (ix2 n q) k = ix2 n k := fun k => funext fun a => by match a with | ⟨0, _⟩ => rfl | ⟨1, _⟩ => rfl
  have hr : ∀ k : Fin 16, ridx_main_v9 (ix2 n q) k = ix2 k q := fun k => funext fun a => by match a with | ⟨0, _⟩ => rfl | ⟨1, _⟩ => rfl
  have h5 : idx_main_v10 (idx_main_v11 (ix2 n q)) = ix1 q := funext fun a => by match a with | ⟨0, _⟩ => rfl
  simp only [hl, hr, h5]
  rfl

/-! ## Layer 0 of the reference, stage by stage -/

section Layer0

variable (x0 : A2 nN 32) (x1 : A2 nE 16) (x2 : (⟨S2x1000000, .i32⟩ : BufTy).Contents (Elt Ideal)) (x4 : A2 32 64) (x5 : A1 64) (x6 : A2 16 64) (x7 : A1 64)
    (x8 : A1 4) (x9 : A3 4 64 128) (x10 : A2 4 128) (x11 : A3 4 128 64) (x12 : A2 4 64) (x13 : A2 4 64) (x14 : A2 4 64)

/-- The messages: relu of the gathered node rows plus the edge rows. -/
theorem msg_val0 : val_main_v21 (F := Ideal) x0 x1 x2 x4 x5 x6 x7 = msg (fun h => Host.gather gather_S100000x64_S1000000x1_S1000000x64_1_0_n_n_0_1_164 h (val_main_v18 (F := Ideal) x2)) (val_main_v8 (F := Ideal) x0 x4 x5) (val_main_v12 (F := Ideal) x1 x6 x7) := by
  funext i
  obtain ⟨n, q, rfl⟩ : ∃ (n : Fin 1000000) (q : Fin 64), i = ix2 n q := ⟨i 0, i 1, eq_ix2 i⟩
  rw [val_main_v21_apply, val_main_v20_apply, val_main_call1_v0_apply, val_main_call1_cst_apply]
  unfold msg; rw [ofFn_ix2]
  show max (_ + _) (Ideal.ofBits .f32 0x00000000#32) = _
  rw [Ideal.ofBits_zero_f32]
  rfl

/-- The layer's eps, read off the one-element slice of the four. -/
theorem eps_val0 (j : S_.Idx) : val_main_v26 (F := Ideal) x8 j = x8 (ix1 (0 : Fin 4)) := by
  unfold val_main_v26
  rw [shapeCast_apply (val_main_v25 (F := Ideal) x8) shapeCasts_S1_S_ j (ix1 (0 : Fin 1)) rfl, val_main_v25_apply]
  exact congrArg x8 (funext fun a => Fin.ext (by match a with | ⟨0, _⟩ => rfl))

/-- The combination (1 + eps) h + the messages summed at their target nodes. -/
theorem comb_val0 : val_main_v30 (F := Ideal) x0 x1 x2 x4 x5 x6 x7 x8 = comb (fun (u : (⟨S1000000x64, .f32⟩ : BufTy).Contents (Elt Ideal)) => (Host.scatterAdd (F := Ideal) (φ := .f32) scatter_S100000x64_S1000000x1_S1000000x64_1_0_0_1 (val_main_v22 (F := Ideal)) (val_main_v23 (F := Ideal) x2) u : (⟨S100000x64, .f32⟩ : BufTy).Contents (Elt Ideal))) x8 0 (val_main_v8 (F := Ideal) x0 x4 x5) (val_main_v21 (F := Ideal) x0 x1 x2 x4 x5 x6 x7) := by
  funext i
  obtain ⟨p, q, rfl⟩ : ∃ (p : Fin 100000) (q : Fin 64), i = ix2 p q := ⟨i 0, i 1, eq_ix2 i⟩
  rw [val_main_v30_apply, val_main_v29_apply, val_main_v28_apply, val_main_v27_apply, val_main_cst_1_apply, eps_val0]
  unfold comb; rw [ofFn_ix2]
  rfl

/-- The perceptron: both products as sums over the contracted coordinate, the biases broadcast down the rows, the
    layer's slices of the parameter arrays read at the layer's index. -/
theorem mlp_val0 : val_main_v47 (F := Ideal) x0 x1 x2 x4 x5 x6 x7 x8 x9 x10 x11 x12 = mlp x9 x10 x11 x12 0 (val_main_v30 (F := Ideal) x0 x1 x2 x4 x5 x6 x7 x8) := by
  funext i
  obtain ⟨p, q, rfl⟩ : ∃ (p : Fin 100000) (q : Fin 64), i = ix2 p q := ⟨i 0, i 1, eq_ix2 i⟩
  simp only [val_main_v47_apply, val_main_v42_apply, val_main_v46_apply, val_main_v45_apply, val_main_v44_apply, val_main_v43_apply,
    val_main_v39_apply, val_main_v38_apply, val_main_v33_apply, val_main_v37_apply, val_main_v36_apply, val_main_v35_apply, val_main_v34_apply,
    val_main_call2_v0_apply, val_main_call2_cst_apply, val_main_v41_apply, val_main_v40_apply, val_main_v32_apply, val_main_v31_apply]
  generalize (val_main_v30 (F := Ideal) x0 x1 x2 x4 x5 x6 x7 x8) = z
  unfold mlp; rw [ofFn_ix2]
  have hp : p.val < 100000 := p.isLt
  have hq : q.val < 64 := q.isLt
  have h1 : ∀ (j : Fin 128) (k : Fin 64), lidx_main_v33 (lidx_main_v42 (ix2 p q) j) k = ix2 p k := fun j k =>
    funext fun a => Fin.ext (by match a with | ⟨0, _⟩ => rfl | ⟨1, _⟩ => rfl)
  have h2 : ∀ (j : Fin 128) (k : Fin 64), idx_main_v31 (idx_main_v32 (ridx_main_v33 (lidx_main_v42 (ix2 p q) j) k)) = ix3 (0 : Fin 4) k j := fun j k =>
    funext fun a => Fin.ext (by
      have := j.isLt; have := k.isLt
      match a with
      | ⟨0, _⟩ => rfl
      | ⟨1, _⟩ => show (k.val * 128 + j.val) / 128 % 64 = k.val; omega
      | ⟨2, _⟩ => show (k.val * 128 + j.val) % 128 = j.val; omega)
  have h3 : ∀ j : Fin 128, idx_main_v34 (idx_main_v35 (idx_main_v36 (idx_main_v37 (lidx_main_v42 (ix2 p q) j)))) = ix2 (0 : Fin 4) j := fun j =>
    funext fun a => Fin.ext (by
      have := j.isLt
      match a with
      | ⟨0, _⟩ => rfl
      | ⟨1, _⟩ => show j.val % 128 = j.val; omega)
  have h4 : ∀ j : Fin 128, idx_main_v40 (idx_main_v41 (ridx_main_v42 (ix2 p q) j)) = ix3 (0 : Fin 4) j q := fun j =>
    funext fun a => Fin.ext (by
      have := j.isLt
      match a with
      | ⟨0, _⟩ => rfl
      | ⟨1, _⟩ => show (j.val * 64 + q.val) / 64 % 128 = j.val; omega
      | ⟨2, _⟩ => show (j.val * 64 + q.val) % 64 = q.val; omega)
  have h5 : idx_main_v43 (idx_main_v44 (idx_main_v45 (idx_main_v46 (ix2 p q)))) = ix2 (0 : Fin 4) q :=
    funext fun a => Fin.ext (by
      match a with
      | ⟨0, _⟩ => rfl
      | ⟨1, _⟩ => show q.val % 64 = q.val; omega)
  simp only [h1, h2, h3, h4, h5]
  show (∑ j : Fin 128, max (_ + _) (Ideal.ofBits .f32 0x00000000#32) * _) + _ = _
  rw [Ideal.ofBits_zero_f32]

/-- A column's mean: the row sum from zero, divided by the row count. -/
theorem mean_val0 (q : Fin 64) : val_main_v50 (F := Ideal) x0 x1 x2 x4 x5 x6 x7 x8 x9 x10 x11 x12 (ix1 q) = colMean (val_main_v47 (F := Ideal) x0 x1 x2 x4 x5 x6 x7 x8 x9 x10 x11 x12) q := by
  rw [val_main_v50_apply, val_main_v48_apply, val_main_v49_apply, val_main_cst_3_apply, val_main_cst_2_apply]
  generalize (val_main_v47 (F := Ideal) x0 x1 x2 x4 x5 x6 x7 x8 x9 x10 x11 x12) = z
  unfold colMean
  have hk : ∀ k : Fin 100000, idx_main_v48 (ix1 q) k = ix2 k q := fun k =>
    funext fun a => Fin.ext (by match a with | ⟨0, _⟩ => rfl | ⟨1, _⟩ => rfl)
  simp only [hk]
  show Ideal.div (Ideal.ofBits .f32 0x00000000#32 + _) _ = _
  rw [Ideal.ofBits_zero_f32, zero_add]
  rfl

/-- A column's variance: the mean of the squared deviations from the column's mean. -/
theorem var_val0 (q : Fin 64) : val_main_v57 (F := Ideal) x0 x1 x2 x4 x5 x6 x7 x8 x9 x10 x11 x12 (ix1 q) = varCentred (val_main_v47 (F := Ideal) x0 x1 x2 x4 x5 x6 x7 x8 x9 x10 x11 x12) q := by
  rw [val_main_v57_apply, val_main_v55_apply, val_main_v56_apply, val_main_cst_5_apply, val_main_cst_4_apply]
  simp only [val_main_v54_apply, val_main_v53_apply, val_main_v52_apply, val_main_v51_apply]
  have hk : ∀ k : Fin 100000, idx_main_v55 (ix1 q) k = ix2 k q := fun k =>
    funext fun a => Fin.ext (by match a with | ⟨0, _⟩ => rfl | ⟨1, _⟩ => rfl)
  have hm : ∀ k : Fin 100000, idx_main_v51 (idx_main_v52 (ix2 k q)) = ix1 q := fun k =>
    funext fun a => Fin.ext (by match a with | ⟨0, _⟩ => rfl)
  simp only [hk, hm, mean_val0]
  generalize (val_main_v47 (F := Ideal) x0 x1 x2 x4 x5 x6 x7 x8 x9 x10 x11 x12) = z
  unfold varCentred
  show Ideal.div (Ideal.ofBits .f32 0x00000000#32 + _) _ = _
  rw [Ideal.ofBits_zero_f32, zero_add]
  rfl

/-- The normalisation, the affine map, the residual and the relu. -/
theorem norm_val0 : val_main_v78 (F := Ideal) x0 x1 x2 x4 x5 x6 x7 x8 x9 x10 x11 x12 x13 x14 = Spec.norm x13 x14 0 varCentred (val_main_v47 (F := Ideal) x0 x1 x2 x4 x5 x6 x7 x8 x9 x10 x11 x12) (val_main_v8 (F := Ideal) x0 x4 x5) := by
  funext i
  obtain ⟨p, q, rfl⟩ : ∃ (p : Fin 100000) (q : Fin 64), i = ix2 p q := ⟨i 0, i 1, eq_ix2 i⟩
  have hq : q.val < 64 := q.isLt
  rw [val_main_v78_apply, val_main_call3_v0_apply, val_main_call3_cst_apply, val_main_v77_apply, val_main_v76_apply,
    val_main_v75_apply, val_main_v74_apply, val_main_v73_apply, val_main_v72_apply, val_main_v71_apply, val_main_v70_apply, val_main_v69_apply, val_main_v68_apply, val_main_v67_apply,
    val_main_v66_apply, val_main_v65_apply, val_main_v64_apply, val_main_v63_apply, val_main_v62_apply, val_main_v61_apply, val_main_cst_6_apply,
    val_main_v60_apply, val_main_v59_apply, val_main_v58_apply]
  have hb : idx_main_v72 (idx_main_v73 (idx_main_v74 (idx_main_v75 (ix2 p q)))) = ix2 (0 : Fin 4) q :=
    funext fun a => Fin.ext (by
      match a with
      | ⟨0, _⟩ => rfl
      | ⟨1, _⟩ => show q.val % 64 = q.val; omega)
  have hg : idx_main_v67 (idx_main_v68 (idx_main_v69 (idx_main_v70 (ix2 p q)))) = ix2 (0 : Fin 4) q :=
    funext fun a => Fin.ext (by
      match a with
      | ⟨0, _⟩ => rfl
      | ⟨1, _⟩ => show q.val % 64 = q.val; omega)
  have hv : idx_main_v64 (idx_main_v65 (ix2 p q)) = ix1 q := funext fun a => Fin.ext (by match a with | ⟨0, _⟩ => rfl)
  have hm : idx_main_v58 (idx_main_v59 (ix2 p q)) = ix1 q := funext fun a => Fin.ext (by match a with | ⟨0, _⟩ => rfl)
  rw [hb, hg, hv, hm, var_val0, mean_val0]
  generalize (val_main_v47 (F := Ideal) x0 x1 x2 x4 x5 x6 x7 x8 x9 x10 x11 x12) = z
  unfold Spec.norm; rw [ofFn_ix2]
  show max (_ + _) (Ideal.ofBits .f32 0x00000000#32) = _
  rw [Ideal.ofBits_zero_f32]
  rfl

/-- The layer: the five stages composed. -/
theorem layer_val0 : val_main_v78 (F := Ideal) x0 x1 x2 x4 x5 x6 x7 x8 x9 x10 x11 x12 x13 x14
    = layerR (fun h => Host.gather gather_S100000x64_S1000000x1_S1000000x64_1_0_n_n_0_1_164 h (val_main_v18 (F := Ideal) x2)) (fun (u : (⟨S1000000x64, .f32⟩ : BufTy).Contents (Elt Ideal)) => (Host.scatterAdd (F := Ideal) (φ := .f32) scatter_S100000x64_S1000000x1_S1000000x64_1_0_0_1 (val_main_v22 (F := Ideal)) (val_main_v23 (F := Ideal) x2) u : (⟨S100000x64, .f32⟩ : BufTy).Contents (Elt Ideal))) x8 x9 x10 x11 x12 x13 x14 0 (val_main_v8 (F := Ideal) x0 x4 x5) (val_main_v12 (F := Ideal) x1 x6 x7) := by
  rw [norm_val0, mlp_val0, comb_val0, msg_val0]
  rfl

end Layer0

/-! ## Layer 1 of the reference, stage by stage -/

section Layer1

variable (x0 : A2 nN 32) (x1 : A2 nE 16) (x2 : (⟨S2x1000000, .i32⟩ : BufTy).Contents (Elt Ideal)) (x4 : A2 32 64) (x5 : A1 64) (x6 : A2 16 64) (x7 : A1 64)
    (x8 : A1 4) (x9 : A3 4 64 128) (x10 : A2 4 128) (x11 : A3 4 128 64) (x12 : A2 4 64) (x13 : A2 4 64) (x14 : A2 4 64)

/-- The messages: relu of the gathered node rows plus the edge rows. -/
theorem msg_val1 : val_main_v87 (F := Ideal) x0 x1 x2 x4 x5 x6 x7 x8 x9 x10 x11 x12 x13 x14 = msg (fun h => Host.gather gather_S100000x64_S1000000x1_S1000000x64_1_0_n_n_0_1_164 h (val_main_v84 (F := Ideal) x2)) (val_main_v78 (F := Ideal) x0 x1 x2 x4 x5 x6 x7 x8 x9 x10 x11 x12 x13 x14) (val_main_v12 (F := Ideal) x1 x6 x7) := by
  funext i
  obtain ⟨n, q, rfl⟩ : ∃ (n : Fin 1000000) (q : Fin 64), i = ix2 n q := ⟨i 0, i 1, eq_ix2 i⟩
  rw [val_main_v87_apply, val_main_v86_apply, val_main_call4_v0_apply, val_main_call4_cst_apply]
  unfold msg; rw [ofFn_ix2]
  show max (_ + _) (Ideal.ofBits .f32 0x00000000#32) = _
  rw [Ideal.ofBits_zero_f32]
  rfl

/-- The layer's eps, read off the one-element slice of the four. -/
theorem eps_val1 (j : S_.Idx) : val_main_v92 (F := Ideal) x8 j = x8 (ix1 (1 : Fin 4)) := by
  unfold val_main_v92
  rw [shapeCast_apply (val_main_v91 (F := Ideal) x8) shapeCasts_S1_S_ j (ix1 (0 : Fin 1)) rfl, val_main_v91_apply]
  exact congrArg x8 (funext fun a => Fin.ext (by match a with | ⟨0, _⟩ => rfl))

/-- The combination (1 + eps) h + the messages summed at their target nodes. -/
theorem comb_val1 : val_main_v96 (F := Ideal) x0 x1 x2 x4 x5 x6 x7 x8 x9 x10 x11 x12 x13 x14 = comb (fun (u : (⟨S1000000x64, .f32⟩ : BufTy).Contents (Elt Ideal)) => (Host.scatterAdd (F := Ideal) (φ := .f32) scatter_S100000x64_S1000000x1_S1000000x64_1_0_0_1 (val_main_v88 (F := Ideal)) (val_main_v89 (F := Ideal) x2) u : (⟨S100000x64, .f32⟩ : BufTy).Contents (Elt Ideal))) x8 1 (val_main_v78 (F := Ideal) x0 x1 x2 x4 x5 x6 x7 x8 x9 x10 x11 x12 x13 x14) (val_main_v87 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  rw [val_main_v96_apply, val_main_v95_apply, val_main_v94_apply, val_main_v93_apply, val_main_cst_10_apply, eps_val1]
  unfold comb; rw [ofFn_ix2]
  rfl

/-- The perceptron: both products as sums over the contracted coordinate, the biases broadcast down the rows, the
    layer's slices of the parameter arrays read at the layer's index. -/
theorem mlp_val1 : val_main_v113 (F := Ideal) x0 x1 x2 x4 x5 x6 x7 x8 x9 x10 x11 x12 x13 x14 = mlp x9 x10 x11 x12 1 (val_main_v96 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  simp only [val_main_v113_apply, val_main_v108_apply, val_main_v112_apply, val_main_v111_apply, val_main_v110_apply, val_main_v109_apply,
    val_main_v105_apply, val_main_v104_apply, val_main_v99_apply, val_main_v103_apply, val_main_v102_apply, val_main_v101_apply, val_main_v100_apply,
    val_main_call5_v0_apply, val_main_call5_cst_apply, val_main_v107_apply, val_main_v106_apply, val_main_v98_apply, val_main_v97_apply]
  generalize (val_main_v96 (F := Ideal) x0 x1 x2 x4 x5 x6 x7 x8 x9 x10 x11 x12 x13 x14) = z
  unfold mlp; rw [ofFn_ix2]
  have hp : p.val < 100000 := p.isLt
  have hq : q.val < 64 := q.isLt
  have h1 : ∀ (j : Fin 128) (k : Fin 64), lidx_main_v99 (lidx_main_v108 (ix2 p q) j) k = ix2 p k := fun j k =>
    funext fun a => Fin.ext (by match a with | ⟨0, _⟩ => rfl | ⟨1, _⟩ => rfl)
  have h2 : ∀ (j : Fin 128) (k : Fin 64), idx_main_v97 (idx_main_v98 (ridx_main_v99 (lidx_main_v108 (ix2 p q) j) k)) = ix3 (1 : Fin 4) k j := fun j k =>
    funext fun a => Fin.ext (by
      have := j.isLt; have := k.isLt
      match a with
      | ⟨0, _⟩ => rfl
      | ⟨1, _⟩ => show (k.val * 128 + j.val) / 128 % 64 = k.val; omega
      | ⟨2, _⟩ => show (k.val * 128 + j.val) % 128 = j.val; omega)
  have h3 : ∀ j : Fin 128, idx_main_v100 (idx_main_v101 (idx_main_v102 (idx_main_v103 (lidx_main_v108 (ix2 p q) j)))) = ix2 (1 : Fin 4) j := fun j =>
    funext fun a => Fin.ext (by
      have := j.isLt
      match a with
      | ⟨0, _⟩ => rfl
      | ⟨1, _⟩ => show j.val % 128 = j.val; omega)
  have h4 : ∀ j : Fin 128, idx_main_v106 (idx_main_v107 (ridx_main_v108 (ix2 p q) j)) = ix3 (1 : Fin 4) j q := fun j =>
    funext fun a => Fin.ext (by
      have := j.isLt
      match a with
      | ⟨0, _⟩ => rfl
      | ⟨1, _⟩ => show (j.val * 64 + q.val) / 64 % 128 = j.val; omega
      | ⟨2, _⟩ => show (j.val * 64 + q.val) % 64 = q.val; omega)
  have h5 : idx_main_v109 (idx_main_v110 (idx_main_v111 (idx_main_v112 (ix2 p q)))) = ix2 (1 : Fin 4) q :=
    funext fun a => Fin.ext (by
      match a with
      | ⟨0, _⟩ => rfl
      | ⟨1, _⟩ => show q.val % 64 = q.val; omega)
  simp only [h1, h2, h3, h4, h5]
  show (∑ j : Fin 128, max (_ + _) (Ideal.ofBits .f32 0x00000000#32) * _) + _ = _
  rw [Ideal.ofBits_zero_f32]

/-- A column's mean: the row sum from zero, divided by the row count. -/
theorem mean_val1 (q : Fin 64) : val_main_v116 (F := Ideal) x0 x1 x2 x4 x5 x6 x7 x8 x9 x10 x11 x12 x13 x14 (ix1 q) = colMean (val_main_v113 (F := Ideal) x0 x1 x2 x4 x5 x6 x7 x8 x9 x10 x11 x12 x13 x14) q := by
  rw [val_main_v116_apply, val_main_v114_apply, val_main_v115_apply, val_main_cst_12_apply, val_main_cst_11_apply]
  generalize (val_main_v113 (F := Ideal) x0 x1 x2 x4 x5 x6 x7 x8 x9 x10 x11 x12 x13 x14) = z
  unfold colMean
  have hk : ∀ k : Fin 100000, idx_main_v114 (ix1 q) k = ix2 k q := fun k =>
    funext fun a => Fin.ext (by match a with | ⟨0, _⟩ => rfl | ⟨1, _⟩ => rfl)
  simp only [hk]
  show Ideal.div (Ideal.ofBits .f32 0x00000000#32 + _) _ = _
  rw [Ideal.ofBits_zero_f32, zero_add]
  rfl

/-- A column's variance: the mean of the squared deviations from the column's mean. -/
theorem var_val1 (q : Fin 64) : val_main_v123 (F := Ideal) x0 x1 x2 x4 x5 x6 x7 x8 x9 x10 x11 x12 x13 x14 (ix1 q) = varCentred (val_main_v113 (F := Ideal) x0 x1 x2 x4 x5 x6 x7 x8 x9 x10 x11 x12 x13 x14) q := by
  rw [val_main_v123_apply, val_main_v121_apply, val_main_v122_apply, val_main_cst_14_apply, val_main_cst_13_apply]
  simp only [val_main_v120_apply, val_main_v119_apply, val_main_v118_apply, val_main_v117_apply]
  have hk : ∀ k : Fin 100000, idx_main_v121 (ix1 q) k = ix2 k q := fun k =>
    funext fun a => Fin.ext (by match a with | ⟨0, _⟩ => rfl | ⟨1, _⟩ => rfl)
  have hm : ∀ k : Fin 100000, idx_main_v117 (idx_main_v118 (ix2 k q)) = ix1 q := fun k =>
    funext fun a => Fin.ext (by match a with | ⟨0, _⟩ => rfl)
  simp only [hk, hm, mean_val1]
  generalize (val_main_v113 (F := Ideal) x0 x1 x2 x4 x5 x6 x7 x8 x9 x10 x11 x12 x13 x14) = z
  unfold varCentred
  show Ideal.div (Ideal.ofBits .f32 0x00000000#32 + _) _ = _
  rw [Ideal.ofBits_zero_f32, zero_add]
  rfl

/-- The normalisation, the affine map, the residual and the relu. -/
theorem norm_val1 : val_main_v144 (F := Ideal) x0 x1 x2 x4 x5 x6 x7 x8 x9 x10 x11 x12 x13 x14 = Spec.norm x13 x14 1 varCentred (val_main_v113 (F := Ideal) x0 x1 x2 x4 x5 x6 x7 x8 x9 x10 x11 x12 x13 x14) (val_main_v78 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  have hq : q.val < 64 := q.isLt
  rw [val_main_v144_apply, val_main_call6_v0_apply, val_main_call6_cst_apply, val_main_v143_apply, val_main_v142_apply,
    val_main_v141_apply, val_main_v140_apply, val_main_v139_apply, val_main_v138_apply, val_main_v137_apply, val_main_v136_apply, val_main_v135_apply, val_main_v134_apply, val_main_v133_apply,
    val_main_v132_apply, val_main_v131_apply, val_main_v130_apply, val_main_v129_apply, val_main_v128_apply, val_main_v127_apply, val_main_cst_15_apply,
    val_main_v126_apply, val_main_v125_apply, val_main_v124_apply]
  have hb : idx_main_v138 (idx_main_v139 (idx_main_v140 (idx_main_v141 (ix2 p q)))) = ix2 (1 : Fin 4) q :=
    funext fun a => Fin.ext (by
      match a with
      | ⟨0, _⟩ => rfl
      | ⟨1, _⟩ => show q.val % 64 = q.val; omega)
  have hg : idx_main_v133 (idx_main_v134 (idx_main_v135 (idx_main_v136 (ix2 p q)))) = ix2 (1 : Fin 4) q :=
    funext fun a => Fin.ext (by
      match a with
      | ⟨0, _⟩ => rfl
      | ⟨1, _⟩ => show q.val % 64 = q.val; omega)
  have hv : idx_main_v130 (idx_main_v131 (ix2 p q)) = ix1 q := funext fun a => Fin.ext (by match a with | ⟨0, _⟩ => rfl)
  have hm : idx_main_v124 (idx_main_v125 (ix2 p q)) = ix1 q := funext fun a => Fin.ext (by match a with | ⟨0, _⟩ => rfl)
  rw [hb, hg, hv, hm, var_val1, mean_val1]
  generalize (val_main_v113 (F := Ideal) x0 x1 x2 x4 x5 x6 x7 x8 x9 x10 x11 x12 x13 x14) = z
  unfold Spec.norm; rw [ofFn_ix2]
  show max (_ + _) (Ideal.ofBits .f32 0x00000000#32) = _
  rw [Ideal.ofBits_zero_f32]
  rfl

/-- The layer: the five stages composed. -/
theorem layer_val1 : val_main_v144 (F := Ideal) x0 x1 x2 x4 x5 x6 x7 x8 x9 x10 x11 x12 x13 x14
    = layerR (fun h => Host.gather gather_S100000x64_S1000000x1_S1000000x64_1_0_n_n_0_1_164 h (val_main_v84 (F := Ideal) x2)) (fun (u : (⟨S1000000x64, .f32⟩ : BufTy).Contents (Elt Ideal)) => (Host.scatterAdd (F := Ideal) (φ := .f32) scatter_S100000x64_S1000000x1_S1000000x64_1_0_0_1 (val_main_v88 (F := Ideal)) (val_main_v89 (F := Ideal) x2) u : (⟨S100000x64, .f32⟩ : BufTy).Contents (Elt Ideal))) x8 x9 x10 x11 x12 x13 x14 1 (val_main_v78 (F := Ideal) x0 x1 x2 x4 x5 x6 x7 x8 x9 x10 x11 x12 x13 x14) (val_main_v12 (F := Ideal) x1 x6 x7) := by
  rw [norm_val1, mlp_val1, comb_val1, msg_val1]
  rfl

end Layer1

/-! ## Layer 2 of the reference, stage by stage -/

section Layer2

variable (x0 : A2 nN 32) (x1 : A2 nE 16) (x2 : (⟨S2x1000000, .i32⟩ : BufTy).Contents (Elt Ideal)) (x4 : A2 32 64) (x5 : A1 64) (x6 : A2 16 64) (x7 : A1 64)
    (x8 : A1 4) (x9 : A3 4 64 128) (x10 : A2 4 128) (x11 : A3 4 128 64) (x12 : A2 4 64) (x13 : A2 4 64) (x14 : A2 4 64)

/-- The messages: relu of the gathered node rows plus the edge rows. -/
theorem msg_val2 : val_main_v153 (F := Ideal) x0 x1 x2 x4 x5 x6 x7 x8 x9 x10 x11 x12 x13 x14 = msg (fun h => Host.gather gather_S100000x64_S1000000x1_S1000000x64_1_0_n_n_0_1_164 h (val_main_v150 (F := Ideal) x2)) (val_main_v144 (F := Ideal) x0 x1 x2 x4 x5 x6 x7 x8 x9 x10 x11 x12 x13 x14) (val_main_v12 (F := Ideal) x1 x6 x7) := by
  funext i
  obtain ⟨n, q, rfl⟩ : ∃ (n : Fin 1000000) (q : Fin 64), i = ix2 n q := ⟨i 0, i 1, eq_ix2 i⟩
  rw [val_main_v153_apply, val_main_v152_apply, val_main_call7_v0_apply, val_main_call7_cst_apply]
  unfold msg; rw [ofFn_ix2]
  show max (_ + _) (Ideal.ofBits .f32 0x00000000#32) = _
  rw [Ideal.ofBits_zero_f32]
  rfl

/-- The layer's eps, read off the one-element slice of the four. -/
theorem eps_val2 (j : S_.Idx) : val_main_v158 (F := Ideal) x8 j = x8 (ix1 (2 : Fin 4)) := by
  unfold val_main_v158
  rw [shapeCast_apply (val_main_v157 (F := Ideal) x8) shapeCasts_S1_S_ j (ix1 (0 : Fin 1)) rfl, val_main_v157_apply]
  exact congrArg x8 (funext fun a => Fin.ext (by match a with | ⟨0, _⟩ => rfl))

/-- The combination (1 + eps) h + the messages summed at their target nodes. -/
theorem comb_val2 : val_main_v162 (F := Ideal) x0 x1 x2 x4 x5 x6 x7 x8 x9 x10 x11 x12 x13 x14 = comb (fun (u : (⟨S1000000x64, .f32⟩ : BufTy).Contents (Elt Ideal)) => (Host.scatterAdd (F := Ideal) (φ := .f32) scatter_S100000x64_S1000000x1_S1000000x64_1_0_0_1 (val_main_v154 (F := Ideal)) (val_main_v155 (F := Ideal) x2) u : (⟨S100000x64, .f32⟩ : BufTy).Contents (Elt Ideal))) x8 2 (val_main_v144 (F := Ideal) x0 x1 x2 x4 x5 x6 x7 x8 x9 x10 x11 x12 x13 x14) (val_main_v153 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  rw [val_main_v162_apply, val_main_v161_apply, val_main_v160_apply, val_main_v159_apply, val_main_cst_19_apply, eps_val2]
  unfold comb; rw [ofFn_ix2]
  rfl

/-- The perceptron: both products as sums over the contracted coordinate, the biases broadcast down the rows, the
    layer's slices of the parameter arrays read at the layer's index. -/
theorem mlp_val2 : val_main_v179 (F := Ideal) x0 x1 x2 x4 x5 x6 x7 x8 x9 x10 x11 x12 x13 x14 = mlp x9 x10 x11 x12 2 (val_main_v162 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  simp only [val_main_v179_apply, val_main_v174_apply, val_main_v178_apply, val_main_v177_apply, val_main_v176_apply, val_main_v175_apply,
    val_main_v171_apply, val_main_v170_apply, val_main_v165_apply, val_main_v169_apply, val_main_v168_apply, val_main_v167_apply, val_main_v166_apply,
    val_main_call8_v0_apply, val_main_call8_cst_apply, val_main_v173_apply, val_main_v172_apply, val_main_v164_apply, val_main_v163_apply]
  generalize (val_main_v162 (F := Ideal) x0 x1 x2 x4 x5 x6 x7 x8 x9 x10 x11 x12 x13 x14) = z
  unfold mlp; rw [ofFn_ix2]
  have hp : p.val < 100000 := p.isLt
  have hq : q.val < 64 := q.isLt
  have h1 : ∀ (j : Fin 128) (k : Fin 64), lidx_main_v165 (lidx_main_v174 (ix2 p q) j) k = ix2 p k := fun j k =>
    funext fun a => Fin.ext (by match a with | ⟨0, _⟩ => rfl | ⟨1, _⟩ => rfl)
  have h2 : ∀ (j : Fin 128) (k : Fin 64), idx_main_v163 (idx_main_v164 (ridx_main_v165 (lidx_main_v174 (ix2 p q) j) k)) = ix3 (2 : Fin 4) k j := fun j k =>
    funext fun a => Fin.ext (by
      have := j.isLt; have := k.isLt
      match a with
      | ⟨0, _⟩ => rfl
      | ⟨1, _⟩ => show (k.val * 128 + j.val) / 128 % 64 = k.val; omega
      | ⟨2, _⟩ => show (k.val * 128 + j.val) % 128 = j.val; omega)
  have h3 : ∀ j : Fin 128, idx_main_v166 (idx_main_v167 (idx_main_v168 (idx_main_v169 (lidx_main_v174 (ix2 p q) j)))) = ix2 (2 : Fin 4) j := fun j =>
    funext fun a => Fin.ext (by
      have := j.isLt
      match a with
      | ⟨0, _⟩ => rfl
      | ⟨1, _⟩ => show j.val % 128 = j.val; omega)
  have h4 : ∀ j : Fin 128, idx_main_v172 (idx_main_v173 (ridx_main_v174 (ix2 p q) j)) = ix3 (2 : Fin 4) j q := fun j =>
    funext fun a => Fin.ext (by
      have := j.isLt
      match a with
      | ⟨0, _⟩ => rfl
      | ⟨1, _⟩ => show (j.val * 64 + q.val) / 64 % 128 = j.val; omega
      | ⟨2, _⟩ => show (j.val * 64 + q.val) % 64 = q.val; omega)
  have h5 : idx_main_v175 (idx_main_v176 (idx_main_v177 (idx_main_v178 (ix2 p q)))) = ix2 (2 : Fin 4) q :=
    funext fun a => Fin.ext (by
      match a with
      | ⟨0, _⟩ => rfl
      | ⟨1, _⟩ => show q.val % 64 = q.val; omega)
  simp only [h1, h2, h3, h4, h5]
  show (∑ j : Fin 128, max (_ + _) (Ideal.ofBits .f32 0x00000000#32) * _) + _ = _
  rw [Ideal.ofBits_zero_f32]

/-- A column's mean: the row sum from zero, divided by the row count. -/
theorem mean_val2 (q : Fin 64) : val_main_v182 (F := Ideal) x0 x1 x2 x4 x5 x6 x7 x8 x9 x10 x11 x12 x13 x14 (ix1 q) = colMean (val_main_v179 (F := Ideal) x0 x1 x2 x4 x5 x6 x7 x8 x9 x10 x11 x12 x13 x14) q := by
  rw [val_main_v182_apply, val_main_v180_apply, val_main_v181_apply, val_main_cst_21_apply, val_main_cst_20_apply]
  generalize (val_main_v179 (F := Ideal) x0 x1 x2 x4 x5 x6 x7 x8 x9 x10 x11 x12 x13 x14) = z
  unfold colMean
  have hk : ∀ k : Fin 100000, idx_main_v180 (ix1 q) k = ix2 k q := fun k =>
    funext fun a => Fin.ext (by match a with | ⟨0, _⟩ => rfl | ⟨1, _⟩ => rfl)
  simp only [hk]
  show Ideal.div (Ideal.ofBits .f32 0x00000000#32 + _) _ = _
  rw [Ideal.ofBits_zero_f32, zero_add]
  rfl

/-- A column's variance: the mean of the squared deviations from the column's mean. -/
theorem var_val2 (q : Fin 64) : val_main_v189 (F := Ideal) x0 x1 x2 x4 x5 x6 x7 x8 x9 x10 x11 x12 x13 x14 (ix1 q) = varCentred (val_main_v179 (F := Ideal) x0 x1 x2 x4 x5 x6 x7 x8 x9 x10 x11 x12 x13 x14) q := by
  rw [val_main_v189_apply, val_main_v187_apply, val_main_v188_apply, val_main_cst_23_apply, val_main_cst_22_apply]
  simp only [val_main_v186_apply, val_main_v185_apply, val_main_v184_apply, val_main_v183_apply]
  have hk : ∀ k : Fin 100000, idx_main_v187 (ix1 q) k = ix2 k q := fun k =>
    funext fun a => Fin.ext (by match a with | ⟨0, _⟩ => rfl | ⟨1, _⟩ => rfl)
  have hm : ∀ k : Fin 100000, idx_main_v183 (idx_main_v184 (ix2 k q)) = ix1 q := fun k =>
    funext fun a => Fin.ext (by match a with | ⟨0, _⟩ => rfl)
  simp only [hk, hm, mean_val2]
  generalize (val_main_v179 (F := Ideal) x0 x1 x2 x4 x5 x6 x7 x8 x9 x10 x11 x12 x13 x14) = z
  unfold varCentred
  show Ideal.div (Ideal.ofBits .f32 0x00000000#32 + _) _ = _
  rw [Ideal.ofBits_zero_f32, zero_add]
  rfl

/-- The normalisation, the affine map, the residual and the relu. -/
theorem norm_val2 : val_main_v210 (F := Ideal) x0 x1 x2 x4 x5 x6 x7 x8 x9 x10 x11 x12 x13 x14 = Spec.norm x13 x14 2 varCentred (val_main_v179 (F := Ideal) x0 x1 x2 x4 x5 x6 x7 x8 x9 x10 x11 x12 x13 x14) (val_main_v144 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  have hq : q.val < 64 := q.isLt
  rw [val_main_v210_apply, val_main_call9_v0_apply, val_main_call9_cst_apply, val_main_v209_apply, val_main_v208_apply,
    val_main_v207_apply, val_main_v206_apply, val_main_v205_apply, val_main_v204_apply, val_main_v203_apply, val_main_v202_apply, val_main_v201_apply, val_main_v200_apply, val_main_v199_apply,
    val_main_v198_apply, val_main_v197_apply, val_main_v196_apply, val_main_v195_apply, val_main_v194_apply, val_main_v193_apply, val_main_cst_24_apply,
    val_main_v192_apply, val_main_v191_apply, val_main_v190_apply]
  have hb : idx_main_v204 (idx_main_v205 (idx_main_v206 (idx_main_v207 (ix2 p q)))) = ix2 (2 : Fin 4) q :=
    funext fun a => Fin.ext (by
      match a with
      | ⟨0, _⟩ => rfl
      | ⟨1, _⟩ => show q.val % 64 = q.val; omega)
  have hg : idx_main_v199 (idx_main_v200 (idx_main_v201 (idx_main_v202 (ix2 p q)))) = ix2 (2 : Fin 4) q :=
    funext fun a => Fin.ext (by
      match a with
      | ⟨0, _⟩ => rfl
      | ⟨1, _⟩ => show q.val % 64 = q.val; omega)
  have hv : idx_main_v196 (idx_main_v197 (ix2 p q)) = ix1 q := funext fun a => Fin.ext (by match a with | ⟨0, _⟩ => rfl)
  have hm : idx_main_v190 (idx_main_v191 (ix2 p q)) = ix1 q := funext fun a => Fin.ext (by match a with | ⟨0, _⟩ => rfl)
  rw [hb, hg, hv, hm, var_val2, mean_val2]
  generalize (val_main_v179 (F := Ideal) x0 x1 x2 x4 x5 x6 x7 x8 x9 x10 x11 x12 x13 x14) = z
  unfold Spec.norm; rw [ofFn_ix2]
  show max (_ + _) (Ideal.ofBits .f32 0x00000000#32) = _
  rw [Ideal.ofBits_zero_f32]
  rfl

/-- The layer: the five stages composed. -/
theorem layer_val2 : val_main_v210 (F := Ideal) x0 x1 x2 x4 x5 x6 x7 x8 x9 x10 x11 x12 x13 x14
    = layerR (fun h => Host.gather gather_S100000x64_S1000000x1_S1000000x64_1_0_n_n_0_1_164 h (val_main_v150 (F := Ideal) x2)) (fun (u : (⟨S1000000x64, .f32⟩ : BufTy).Contents (Elt Ideal)) => (Host.scatterAdd (F := Ideal) (φ := .f32) scatter_S100000x64_S1000000x1_S1000000x64_1_0_0_1 (val_main_v154 (F := Ideal)) (val_main_v155 (F := Ideal) x2) u : (⟨S100000x64, .f32⟩ : BufTy).Contents (Elt Ideal))) x8 x9 x10 x11 x12 x13 x14 2 (val_main_v144 (F := Ideal) x0 x1 x2 x4 x5 x6 x7 x8 x9 x10 x11 x12 x13 x14) (val_main_v12 (F := Ideal) x1 x6 x7) := by
  rw [norm_val2, mlp_val2, comb_val2, msg_val2]
  rfl

end Layer2

/-! ## Layer 3 of the reference, stage by stage -/

section Layer3

variable (x0 : A2 nN 32) (x1 : A2 nE 16) (x2 : (⟨S2x1000000, .i32⟩ : BufTy).Contents (Elt Ideal)) (x4 : A2 32 64) (x5 : A1 64) (x6 : A2 16 64) (x7 : A1 64)
    (x8 : A1 4) (x9 : A3 4 64 128) (x10 : A2 4 128) (x11 : A3 4 128 64) (x12 : A2 4 64) (x13 : A2 4 64) (x14 : A2 4 64)

/-- The messages: relu of the gathered node rows plus the edge rows. -/
theorem msg_val3 : val_main_v219 (F := Ideal) x0 x1 x2 x4 x5 x6 x7 x8 x9 x10 x11 x12 x13 x14 = msg (fun h => Host.gather gather_S100000x64_S1000000x1_S1000000x64_1_0_n_n_0_1_164 h (val_main_v216 (F := Ideal) x2)) (val_main_v210 (F := Ideal) x0 x1 x2 x4 x5 x6 x7 x8 x9 x10 x11 x12 x13 x14) (val_main_v12 (F := Ideal) x1 x6 x7) := by
  funext i
  obtain ⟨n, q, rfl⟩ : ∃ (n : Fin 1000000) (q : Fin 64), i = ix2 n q := ⟨i 0, i 1, eq_ix2 i⟩
  rw [val_main_v219_apply, val_main_v218_apply, val_main_call10_v0_apply, val_main_call10_cst_apply]
  unfold msg; rw [ofFn_ix2]
  show max (_ + _) (Ideal.ofBits .f32 0x00000000#32) = _
  rw [Ideal.ofBits_zero_f32]
  rfl

/-- The layer's eps, read off the one-element slice of the four. -/
theorem eps_val3 (j : S_.Idx) : val_main_v224 (F := Ideal) x8 j = x8 (ix1 (3 : Fin 4)) := by
  unfold val_main_v224
  rw [shapeCast_apply (val_main_v223 (F := Ideal) x8) shapeCasts_S1_S_ j (ix1 (0 : Fin 1)) rfl, val_main_v223_apply]
  exact congrArg x8 (funext fun a => Fin.ext (by match a with | ⟨0, _⟩ => rfl))

/-- The combination (1 + eps) h + the messages summed at their target nodes. -/
theorem comb_val3 : val_main_v228 (F := Ideal) x0 x1 x2 x4 x5 x6 x7 x8 x9 x10 x11 x12 x13 x14 = comb (fun (u : (⟨S1000000x64, .f32⟩ : BufTy).Contents (Elt Ideal)) => (Host.scatterAdd (F := Ideal) (φ := .f32) scatter_S100000x64_S1000000x1_S1000000x64_1_0_0_1 (val_main_v220 (F := Ideal)) (val_main_v221 (F := Ideal) x2) u : (⟨S100000x64, .f32⟩ : BufTy).Contents (Elt Ideal))) x8 3 (val_main_v210 (F := Ideal) x0 x1 x2 x4 x5 x6 x7 x8 x9 x10 x11 x12 x13 x14) (val_main_v219 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  rw [val_main_v228_apply, val_main_v227_apply, val_main_v226_apply, val_main_v225_apply, val_main_cst_28_apply, eps_val3]
  unfold comb; rw [ofFn_ix2]
  rfl

/-- The perceptron: both products as sums over the contracted coordinate, the biases broadcast down the rows, the
    layer's slices of the parameter arrays read at the layer's index. -/
theorem mlp_val3 : val_main_v245 (F := Ideal) x0 x1 x2 x4 x5 x6 x7 x8 x9 x10 x11 x12 x13 x14 = mlp x9 x10 x11 x12 3 (val_main_v228 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  simp only [val_main_v245_apply, val_main_v240_apply, val_main_v244_apply, val_main_v243_apply, val_main_v242_apply, val_main_v241_apply,
    val_main_v237_apply, val_main_v236_apply, val_main_v231_apply, val_main_v235_apply, val_main_v234_apply, val_main_v233_apply, val_main_v232_apply,
    val_main_call11_v0_apply, val_main_call11_cst_apply, val_main_v239_apply, val_main_v238_apply, val_main_v230_apply, val_main_v229_apply]
  generalize (val_main_v228 (F := Ideal) x0 x1 x2 x4 x5 x6 x7 x8 x9 x10 x11 x12 x13 x14) = z
  unfold mlp; rw [ofFn_ix2]
  have hp : p.val < 100000 := p.isLt
  have hq : q.val < 64 := q.isLt
  have h1 : ∀ (j : Fin 128) (k : Fin 64), lidx_main_v231 (lidx_main_v240 (ix2 p q) j) k = ix2 p k := fun j k =>
    funext fun a => Fin.ext (by match a with | ⟨0, _⟩ => rfl | ⟨1, _⟩ => rfl)
  have h2 : ∀ (j : Fin 128) (k : Fin 64), idx_main_v229 (idx_main_v230 (ridx_main_v231 (lidx_main_v240 (ix2 p q) j) k)) = ix3 (3 : Fin 4) k j := fun j k =>
    funext fun a => Fin.ext (by
      have := j.isLt; have := k.isLt
      match a with
      | ⟨0, _⟩ => rfl
      | ⟨1, _⟩ => show (k.val * 128 + j.val) / 128 % 64 = k.val; omega
      | ⟨2, _⟩ => show (k.val * 128 + j.val) % 128 = j.val; omega)
  have h3 : ∀ j : Fin 128, idx_main_v232 (idx_main_v233 (idx_main_v234 (idx_main_v235 (lidx_main_v240 (ix2 p q) j)))) = ix2 (3 : Fin 4) j := fun j =>
    funext fun a => Fin.ext (by
      have := j.isLt
      match a with
      | ⟨0, _⟩ => rfl
      | ⟨1, _⟩ => show j.val % 128 = j.val; omega)
  have h4 : ∀ j : Fin 128, idx_main_v238 (idx_main_v239 (ridx_main_v240 (ix2 p q) j)) = ix3 (3 : Fin 4) j q := fun j =>
    funext fun a => Fin.ext (by
      have := j.isLt
      match a with
      | ⟨0, _⟩ => rfl
      | ⟨1, _⟩ => show (j.val * 64 + q.val) / 64 % 128 = j.val; omega
      | ⟨2, _⟩ => show (j.val * 64 + q.val) % 64 = q.val; omega)
  have h5 : idx_main_v241 (idx_main_v242 (idx_main_v243 (idx_main_v244 (ix2 p q)))) = ix2 (3 : Fin 4) q :=
    funext fun a => Fin.ext (by
      match a with
      | ⟨0, _⟩ => rfl
      | ⟨1, _⟩ => show q.val % 64 = q.val; omega)
  simp only [h1, h2, h3, h4, h5]
  show (∑ j : Fin 128, max (_ + _) (Ideal.ofBits .f32 0x00000000#32) * _) + _ = _
  rw [Ideal.ofBits_zero_f32]

/-- A column's mean: the row sum from zero, divided by the row count. -/
theorem mean_val3 (q : Fin 64) : val_main_v248 (F := Ideal) x0 x1 x2 x4 x5 x6 x7 x8 x9 x10 x11 x12 x13 x14 (ix1 q) = colMean (val_main_v245 (F := Ideal) x0 x1 x2 x4 x5 x6 x7 x8 x9 x10 x11 x12 x13 x14) q := by
  rw [val_main_v248_apply, val_main_v246_apply, val_main_v247_apply, val_main_cst_30_apply, val_main_cst_29_apply]
  generalize (val_main_v245 (F := Ideal) x0 x1 x2 x4 x5 x6 x7 x8 x9 x10 x11 x12 x13 x14) = z
  unfold colMean
  have hk : ∀ k : Fin 100000, idx_main_v246 (ix1 q) k = ix2 k q := fun k =>
    funext fun a => Fin.ext (by match a with | ⟨0, _⟩ => rfl | ⟨1, _⟩ => rfl)
  simp only [hk]
  show Ideal.div (Ideal.ofBits .f32 0x00000000#32 + _) _ = _
  rw [Ideal.ofBits_zero_f32, zero_add]
  rfl

/-- A column's variance: the mean of the squared deviations from the column's mean. -/
theorem var_val3 (q : Fin 64) : val_main_v255 (F := Ideal) x0 x1 x2 x4 x5 x6 x7 x8 x9 x10 x11 x12 x13 x14 (ix1 q) = varCentred (val_main_v245 (F := Ideal) x0 x1 x2 x4 x5 x6 x7 x8 x9 x10 x11 x12 x13 x14) q := by
  rw [val_main_v255_apply, val_main_v253_apply, val_main_v254_apply, val_main_cst_32_apply, val_main_cst_31_apply]
  simp only [val_main_v252_apply, val_main_v251_apply, val_main_v250_apply, val_main_v249_apply]
  have hk : ∀ k : Fin 100000, idx_main_v253 (ix1 q) k = ix2 k q := fun k =>
    funext fun a => Fin.ext (by match a with | ⟨0, _⟩ => rfl | ⟨1, _⟩ => rfl)
  have hm : ∀ k : Fin 100000, idx_main_v249 (idx_main_v250 (ix2 k q)) = ix1 q := fun k =>
    funext fun a => Fin.ext (by match a with | ⟨0, _⟩ => rfl)
  simp only [hk, hm, mean_val3]
  generalize (val_main_v245 (F := Ideal) x0 x1 x2 x4 x5 x6 x7 x8 x9 x10 x11 x12 x13 x14) = z
  unfold varCentred
  show Ideal.div (Ideal.ofBits .f32 0x00000000#32 + _) _ = _
  rw [Ideal.ofBits_zero_f32, zero_add]
  rfl

/-- The normalisation, the affine map, the residual and the relu. -/
theorem norm_val3 : val_main_v276 (F := Ideal) x0 x1 x2 x4 x5 x6 x7 x8 x9 x10 x11 x12 x13 x14 = Spec.norm x13 x14 3 varCentred (val_main_v245 (F := Ideal) x0 x1 x2 x4 x5 x6 x7 x8 x9 x10 x11 x12 x13 x14) (val_main_v210 (F := Ideal) x0 x1 x2 x4 x5 x6 x7 x8 x9 x10 x11 x12 x13 x14) := by
  funext i
  obtain ⟨p, q, rfl⟩ : ∃ (p : Fin 100000) (q : Fin 64), i = ix2 p q := ⟨i 0, i 1, eq_ix2 i⟩
  have hq : q.val < 64 := q.isLt
  rw [val_main_v276_apply, val_main_call12_v0_apply, val_main_call12_cst_apply, val_main_v275_apply, val_main_v274_apply,
    val_main_v273_apply, val_main_v272_apply, val_main_v271_apply, val_main_v270_apply, val_main_v269_apply, val_main_v268_apply, val_main_v267_apply, val_main_v266_apply, val_main_v265_apply,
    val_main_v264_apply, val_main_v263_apply, val_main_v262_apply, val_main_v261_apply, val_main_v260_apply, val_main_v259_apply, val_main_cst_33_apply,
    val_main_v258_apply, val_main_v257_apply, val_main_v256_apply]
  have hb : idx_main_v270 (idx_main_v271 (idx_main_v272 (idx_main_v273 (ix2 p q)))) = ix2 (3 : Fin 4) q :=
    funext fun a => Fin.ext (by
      match a with
      | ⟨0, _⟩ => rfl
      | ⟨1, _⟩ => show q.val % 64 = q.val; omega)
  have hg : idx_main_v265 (idx_main_v266 (idx_main_v267 (idx_main_v268 (ix2 p q)))) = ix2 (3 : Fin 4) q :=
    funext fun a => Fin.ext (by
      match a with
      | ⟨0, _⟩ => rfl
      | ⟨1, _⟩ => show q.val % 64 = q.val; omega)
  have hv : idx_main_v262 (idx_main_v263 (ix2 p q)) = ix1 q := funext fun a => Fin.ext (by match a with | ⟨0, _⟩ => rfl)
  have hm : idx_main_v256 (idx_main_v257 (ix2 p q)) = ix1 q := funext fun a => Fin.ext (by match a with | ⟨0, _⟩ => rfl)
  rw [hb, hg, hv, hm, var_val3, mean_val3]
  generalize (val_main_v245 (F := Ideal) x0 x1 x2 x4 x5 x6 x7 x8 x9 x10 x11 x12 x13 x14) = z
  unfold Spec.norm; rw [ofFn_ix2]
  show max (_ + _) (Ideal.ofBits .f32 0x00000000#32) = _
  rw [Ideal.ofBits_zero_f32]
  rfl

/-- The layer: the five stages composed. -/
theorem layer_val3 : val_main_v276 (F := Ideal) x0 x1 x2 x4 x5 x6 x7 x8 x9 x10 x11 x12 x13 x14
    = layerR (fun h => Host.gather gather_S100000x64_S1000000x1_S1000000x64_1_0_n_n_0_1_164 h (val_main_v216 (F := Ideal) x2)) (fun (u : (⟨S1000000x64, .f32⟩ : BufTy).Contents (Elt Ideal)) => (Host.scatterAdd (F := Ideal) (φ := .f32) scatter_S100000x64_S1000000x1_S1000000x64_1_0_0_1 (val_main_v220 (F := Ideal)) (val_main_v221 (F := Ideal) x2) u : (⟨S100000x64, .f32⟩ : BufTy).Contents (Elt Ideal))) x8 x9 x10 x11 x12 x13 x14 3 (val_main_v210 (F := Ideal) x0 x1 x2 x4 x5 x6 x7 x8 x9 x10 x11 x12 x13 x14) (val_main_v12 (F := Ideal) x1 x6 x7) := by
  rw [norm_val3, mlp_val3, comb_val3, msg_val3]
  rfl

end Layer3

end Cert.ReferenceIdeal.ValueP

end
-- ==== Proof.REnc.lean ====
/-
  The reference program's two encoders: the node features and the edge features its first stretch leaves are the
  network's encoders of the argument arrays. A buffer's contents after the stretch is the composition of the stretch's
  operations' results; that composition is the stage's value, which reads index by index as the encoder.
-/
import proofs.«127476_j62818191671466_2_alg».proof.Proof.RDefs
import proofs.«127476_j62818191671466_2_alg».proof.Proof.RVal
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The encoders' buffers as the stages' values -/

/-- The node features the encoder leaves: the stage's value at the program's arguments (the stretch's operations,
    one result after the other). -/
theorem R0_v8 : R0 m c main_v8 = val_main_v8 (F := Ideal) (argX m c) (argNW m c) (argNB m c) := by
  dsimp only [R0, opsEnc]; after_results; rfl
/-- The edge features. -/
theorem R0_v12 : R0 m c main_v12 = val_main_v12 (F := Ideal) (argEA m c) (argEW m c) (argEB m c) := by
  dsimp only [R0, opsEnc]; after_results; rfl
/-- The edges' source nodes and target nodes, as the two rows of the edge index. -/
theorem R0_v1 : R0 m c main_v1 = val_main_v1 (F := Ideal) (m (c, main_arg2)) := by
  dsimp only [R0, opsEnc]; after_results; rfl
theorem R0_v3 : R0 m c main_v3 = val_main_v3 (F := Ideal) (m (c, main_arg2)) := by
  dsimp only [R0, opsEnc]; after_results; rfl

/-- THE NODE ENCODER. -/
theorem rEncNode : hR0 m c = Spec.encNode (argX m c) (argNW m c) (argNB m c) := by
  unfold hR0; rw [R0_v8]; exact encNode_val _ _ _

/-- THE EDGE ENCODER. -/
theorem rEncEdge : eR m c = Spec.encEdge (argEA m c) (argEW m c) (argEB m c) := by
  unfold eR; rw [R0_v12]; exact encEdge_val _ _ _

/-! ## The argument arrays pass through every stretch -/

theorem R0_arg (r : Ref sig .tc) (h0 : r ∉ opsEnc_W) : R0 m c r = m ((c.tc : Thread nD τ).loc r) := R0_of m c r h0
theorem R1_arg (r : Ref sig .tc) (h0 : r ∉ opsEnc_W) (h1 : r ∉ opsL0_W) : R1 m c r = m ((c.tc : Thread nD τ).loc r) :=
  (R1_of m c r h1).trans (R0_arg m c r h0)
theorem R2_arg (r : Ref sig .tc) (h0 : r ∉ opsEnc_W) (h1 : r ∉ opsL0_W) (h2 : r ∉ opsL1_W) : R2 m c r = m ((c.tc : Thread nD τ).loc r) :=
  (R2_of m c r h2).trans (R1_arg m c r h0 h1)
theorem R3_arg (r : Ref sig .tc) (h0 : r ∉ opsEnc_W) (h1 : r ∉ opsL0_W) (h2 : r ∉ opsL1_W) (h3 : r ∉ opsL2_W) : R3 m c r = m ((c.tc : Thread nD τ).loc r) :=
  (R3_of m c r h3).trans (R2_arg m c r h0 h1 h2)

end Cert.ReferenceIdeal.ValueP

end
-- ==== Proof.RLayer0.lean ====
/-
  Layer 0 of the reference program: the node features its stretch leaves are the network's layer, in the reference's
  form (the variance as the mean of the squared deviations), of the features the stretch before it leaves and of the
  edge features. The stretch's last buffer is the composition of the stretch's 81 operations' results from the buffers
  it is entered with — the earlier features, the edge features, the two rows of the edge index and the argument arrays,
  none of which an earlier layer writes —; that composition is the last stage's value, and the stages are the layer's.
-/
import proofs.«127476_j62818191671466_2_alg».proof.Proof.REnc
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Layer 0: the stretch's last buffer as the last stage's value, then the stages as the network's layer -/

set_option maxHeartbeats 4000000 in
/-- The stretch's 81 operations, one result after the other, from any buffers that hold the layer's inputs: the last
    buffer ends at the last stage's value. -/
theorem after_L0 (V : Valuation τ sig (Elt Ideal)) (x0 : Spec.A2 Spec.nN 32) (x1 : Spec.A2 Spec.nE 16) (x2 : (⟨S2x1000000, .i32⟩ : BufTy).Contents (Elt Ideal)) (x4 : Spec.A2 32 64) (x5 : Spec.A1 64) (x6 : Spec.A2 16 64) (x7 : Spec.A1 64)
    (x8 : Spec.A1 4) (x9 : Spec.A3 4 64 128) (x10 : Spec.A2 4 128) (x11 : Spec.A3 4 128 64) (x12 : Spec.A2 4 64) (x13 : Spec.A2 4 64) (x14 : Spec.A2 4 64)
    (hh : V main_v8 = val_main_v8 (F := Ideal) x0 x4 x5) (he : V main_v12 = val_main_v12 (F := Ideal) x1 x6 x7)
    (h1 : V main_v1 = val_main_v1 (F := Ideal) x2) (h3 : V main_v3 = val_main_v3 (F := Ideal) x2)
    (h8 : V main_arg8 = x8) (h9 : V main_arg9 = x9) (h10 : V main_arg10 = x10) (h11 : V main_arg11 = x11) (h12 : V main_arg12 = x12)
    (h13 : V main_arg13 = x13) (h14 : V main_arg14 = x14) :
    StableHlo.after opsL0 V main_v78 = val_main_v78 (F := Ideal) x0 x1 x2 x4 x5 x6 x7 x8 x9 x10 x11 x12 x13 x14 := by
  dsimp only [opsL0]
  after_results_simp
  rw [hh, he, h1, h3, h8, h9, h10, h11, h12, h13, h14]
  rfl

/-- The node features the layer leaves: the last stage's value at the program's arguments. -/
theorem R1_v78 : R1 m c main_v78 = val_main_v78 (F := Ideal) (argX m c) (argEA m c) (m (c, main_arg2)) (argNW m c) (argNB m c) (argEW m c) (argEB m c) (argEps m c) (argW1 m c) (argB1 m c) (argW2 m c) (argB2 m c) (argGam m c) (argBet m c) :=
  after_L0 (R0 m c) _ _ _ _ _ _ _ _ _ _ _ _ _ _ (R0_v8 m c) (R0_v12 m c) (R0_v1 m c) (R0_v3 m c)
    (R0_arg m c main_arg8 (by decide)) (R0_arg m c main_arg9 (by decide)) (R0_arg m c main_arg10 (by decide)) (R0_arg m c main_arg11 (by decide))
    (R0_arg m c main_arg12 (by decide)) (R0_arg m c main_arg13 (by decide)) (R0_arg m c main_arg14 (by decide))

/-- The layer's gather is the rows at the edges' source nodes; -/
theorem gather_eq0 : (fun h => Host.gather gather_S100000x64_S1000000x1_S1000000x64_1_0_n_n_0_1_164 h (val_main_v18 (F := Ideal) (m (c, main_arg2)))) = gatherR m c := by
  funext h; unfold gatherR gatherIdx; rw [R0_v1]; rfl
/-- its scatter is the segment sum at the edges' target nodes. -/
theorem scatter_eq0 : (fun (u : (⟨S1000000x64, .f32⟩ : BufTy).Contents (Elt Ideal)) => (Host.scatterAdd (F := Ideal) (φ := .f32) scatter_S100000x64_S1000000x1_S1000000x64_1_0_0_1 (val_main_v22 (F := Ideal)) (val_main_v23 (F := Ideal) (m (c, main_arg2))) u : (⟨S100000x64, .f32⟩ : BufTy).Contents (Elt Ideal))) = scatterR m c := by
  funext u; unfold scatterR; rw [R0_v3]; rfl

/-- LAYER 0 of the reference is the network's layer of the features the stretch before it leaves. -/
theorem rLayer0 : hR1 m c = Spec.layerR (gatherR m c) (scatterR m c) (argEps m c) (argW1 m c) (argB1 m c) (argW2 m c) (argB2 m c)
    (argGam m c) (argBet m c) 0 (hR0 m c) (eR m c) := by
  unfold hR1 hR0 eR
  rw [R1_v78, layer_val0, gather_eq0, scatter_eq0, R0_v8, R0_v12]

end Cert.ReferenceIdeal.ValueP

end
-- ==== Proof.RLayer1.lean ====
/-
  Layer 1 of the reference program: the node features its stretch leaves are the network's layer, in the reference's
  form (the variance as the mean of the squared deviations), of the features the stretch before it leaves and of the
  edge features. The stretch's last buffer is the composition of the stretch's 81 operations' results from the buffers
  it is entered with — the earlier features, the edge features, the two rows of the edge index and the argument arrays,
  none of which an earlier layer writes —; that composition is the last stage's value, and the stages are the layer's.
-/
import proofs.«127476_j62818191671466_2_alg».proof.Proof.RLayer0
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Layer 1: the stretch's last buffer as the last stage's value, then the stages as the network's layer -/

/-- The edge features and the two rows of the edge index pass through the earlier layers unchanged. -/
theorem R1_v12 : R1 m c main_v12 = val_main_v12 (F := Ideal) (argEA m c) (argEW m c) (argEB m c) := by
  rw [R1_of m c main_v12 (by decide)]; exact R0_v12 m c
theorem R1_v1 : R1 m c main_v1 = val_main_v1 (F := Ideal) (m (c, main_arg2)) := by
  rw [R1_of m c main_v1 (by decide)]; exact R0_v1 m c
theorem R1_v3 : R1 m c main_v3 = val_main_v3 (F := Ideal) (m (c, main_arg2)) := by
  rw [R1_of m c main_v3 (by decide)]; exact R0_v3 m c

set_option maxHeartbeats 4000000 in
/-- The stretch's 81 operations, one result after the other, from any buffers that hold the layer's inputs: the last
    buffer ends at the last stage's value. -/
theorem after_L1 (V : Valuation τ sig (Elt Ideal)) (x0 : Spec.A2 Spec.nN 32) (x1 : Spec.A2 Spec.nE 16) (x2 : (⟨S2x1000000, .i32⟩ : BufTy).Contents (Elt Ideal)) (x4 : Spec.A2 32 64) (x5 : Spec.A1 64) (x6 : Spec.A2 16 64) (x7 : Spec.A1 64)
    (x8 : Spec.A1 4) (x9 : Spec.A3 4 64 128) (x10 : Spec.A2 4 128) (x11 : Spec.A3 4 128 64) (x12 : Spec.A2 4 64) (x13 : Spec.A2 4 64) (x14 : Spec.A2 4 64)
    (hh : V main_v78 = val_main_v78 (F := Ideal) x0 x1 x2 x4 x5 x6 x7 x8 x9 x10 x11 x12 x13 x14) (he : V main_v12 = val_main_v12 (F := Ideal) x1 x6 x7)
    (h1 : V main_v1 = val_main_v1 (F := Ideal) x2) (h3 : V main_v3 = val_main_v3 (F := Ideal) x2)
    (h8 : V main_arg8 = x8) (h9 : V main_arg9 = x9) (h10 : V main_arg10 = x10) (h11 : V main_arg11 = x11) (h12 : V main_arg12 = x12)
    (h13 : V main_arg13 = x13) (h14 : V main_arg14 = x14) :
    StableHlo.after opsL1 V main_v144 = val_main_v144 (F := Ideal) x0 x1 x2 x4 x5 x6 x7 x8 x9 x10 x11 x12 x13 x14 := by
  dsimp only [opsL1]
  after_results_simp
  rw [hh, he, h1, h3, h8, h9, h10, h11, h12, h13, h14]
  rfl

/-- The node features the layer leaves: the last stage's value at the program's arguments. -/
theorem R2_v144 : R2 m c main_v144 = val_main_v144 (F := Ideal) (argX m c) (argEA m c) (m (c, main_arg2)) (argNW m c) (argNB m c) (argEW m c) (argEB m c) (argEps m c) (argW1 m c) (argB1 m c) (argW2 m c) (argB2 m c) (argGam m c) (argBet m c) :=
  after_L1 (R1 m c) _ _ _ _ _ _ _ _ _ _ _ _ _ _ (R1_v78 m c) (R1_v12 m c) (R1_v1 m c) (R1_v3 m c)
    (R1_arg m c main_arg8 (by decide) (by decide)) (R1_arg m c main_arg9 (by decide) (by decide)) (R1_arg m c main_arg10 (by decide) (by decide)) (R1_arg m c main_arg11 (by decide) (by decide))
    (R1_arg m c main_arg12 (by decide) (by decide)) (R1_arg m c main_arg13 (by decide) (by decide)) (R1_arg m c main_arg14 (by decide) (by decide))

/-- The layer's gather is the rows at the edges' source nodes; -/
theorem gather_eq1 : (fun h => Host.gather gather_S100000x64_S1000000x1_S1000000x64_1_0_n_n_0_1_164 h (val_main_v84 (F := Ideal) (m (c, main_arg2)))) = gatherR m c := by
  funext h; unfold gatherR gatherIdx; rw [R0_v1]; rfl
/-- its scatter is the segment sum at the edges' target nodes. -/
theorem scatter_eq1 : (fun (u : (⟨S1000000x64, .f32⟩ : BufTy).Contents (Elt Ideal)) => (Host.scatterAdd (F := Ideal) (φ := .f32) scatter_S100000x64_S1000000x1_S1000000x64_1_0_0_1 (val_main_v88 (F := Ideal)) (val_main_v89 (F := Ideal) (m (c, main_arg2))) u : (⟨S100000x64, .f32⟩ : BufTy).Contents (Elt Ideal))) = scatterR m c := by
  funext u; unfold scatterR; rw [R0_v3]; rfl

/-- LAYER 1 of the reference is the network's layer of the features the stretch before it leaves. -/
theorem rLayer1 : hR2 m c = Spec.layerR (gatherR m c) (scatterR m c) (argEps m c) (argW1 m c) (argB1 m c) (argW2 m c) (argB2 m c)
    (argGam m c) (argBet m c) 1 (hR1 m c) (eR m c) := by
  unfold hR2 hR1 eR
  rw [R2_v144, layer_val1, gather_eq1, scatter_eq1, R1_v78, R0_v12]

end Cert.ReferenceIdeal.ValueP

end
-- ==== Proof.RLayer2.lean ====
/-
  Layer 2 of the reference program: the node features its stretch leaves are the network's layer, in the reference's
  form (the variance as the mean of the squared deviations), of the features the stretch before it leaves and of the
  edge features. The stretch's last buffer is the composition of the stretch's 81 operations' results from the buffers
  it is entered with — the earlier features, the edge features, the two rows of the edge index and the argument arrays,
  none of which an earlier layer writes —; that composition is the last stage's value, and the stages are the layer's.
-/
import proofs.«127476_j62818191671466_2_alg».proof.Proof.RLayer1
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Layer 2: the stretch's last buffer as the last stage's value, then the stages as the network's layer -/

/-- The edge features and the two rows of the edge index pass through the earlier layers unchanged. -/
theorem R2_v12 : R2 m c main_v12 = val_main_v12 (F := Ideal) (argEA m c) (argEW m c) (argEB m c) := by
  rw [R2_of m c main_v12 (by decide)]; exact R1_v12 m c
theorem R2_v1 : R2 m c main_v1 = val_main_v1 (F := Ideal) (m (c, main_arg2)) := by
  rw [R2_of m c main_v1 (by decide)]; exact R1_v1 m c
theorem R2_v3 : R2 m c main_v3 = val_main_v3 (F := Ideal) (m (c, main_arg2)) := by
  rw [R2_of m c main_v3 (by decide)]; exact R1_v3 m c

set_option maxHeartbeats 4000000 in
/-- The stretch's 81 operations, one result after the other, from any buffers that hold the layer's inputs: the last
    buffer ends at the last stage's value. -/
theorem after_L2 (V : Valuation τ sig (Elt Ideal)) (x0 : Spec.A2 Spec.nN 32) (x1 : Spec.A2 Spec.nE 16) (x2 : (⟨S2x1000000, .i32⟩ : BufTy).Contents (Elt Ideal)) (x4 : Spec.A2 32 64) (x5 : Spec.A1 64) (x6 : Spec.A2 16 64) (x7 : Spec.A1 64)
    (x8 : Spec.A1 4) (x9 : Spec.A3 4 64 128) (x10 : Spec.A2 4 128) (x11 : Spec.A3 4 128 64) (x12 : Spec.A2 4 64) (x13 : Spec.A2 4 64) (x14 : Spec.A2 4 64)
    (hh : V main_v144 = val_main_v144 (F := Ideal) x0 x1 x2 x4 x5 x6 x7 x8 x9 x10 x11 x12 x13 x14) (he : V main_v12 = val_main_v12 (F := Ideal) x1 x6 x7)
    (h1 : V main_v1 = val_main_v1 (F := Ideal) x2) (h3 : V main_v3 = val_main_v3 (F := Ideal) x2)
    (h8 : V main_arg8 = x8) (h9 : V main_arg9 = x9) (h10 : V main_arg10 = x10) (h11 : V main_arg11 = x11) (h12 : V main_arg12 = x12)
    (h13 : V main_arg13 = x13) (h14 : V main_arg14 = x14) :
    StableHlo.after opsL2 V main_v210 = val_main_v210 (F := Ideal) x0 x1 x2 x4 x5 x6 x7 x8 x9 x10 x11 x12 x13 x14 := by
  dsimp only [opsL2]
  after_results_simp
  rw [hh, he, h1, h3, h8, h9, h10, h11, h12, h13, h14]
  rfl

/-- The node features the layer leaves: the last stage's value at the program's arguments. -/
theorem R3_v210 : R3 m c main_v210 = val_main_v210 (F := Ideal) (argX m c) (argEA m c) (m (c, main_arg2)) (argNW m c) (argNB m c) (argEW m c) (argEB m c) (argEps m c) (argW1 m c) (argB1 m c) (argW2 m c) (argB2 m c) (argGam m c) (argBet m c) :=
  after_L2 (R2 m c) _ _ _ _ _ _ _ _ _ _ _ _ _ _ (R2_v144 m c) (R2_v12 m c) (R2_v1 m c) (R2_v3 m c)
    (R2_arg m c main_arg8 (by decide) (by decide) (by decide)) (R2_arg m c main_arg9 (by decide) (by decide) (by decide)) (R2_arg m c main_arg10 (by decide) (by decide) (by decide)) (R2_arg m c main_arg11 (by decide) (by decide) (by decide))
    (R2_arg m c main_arg12 (by decide) (by decide) (by decide)) (R2_arg m c main_arg13 (by decide) (by decide) (by decide)) (R2_arg m c main_arg14 (by decide) (by decide) (by decide))

/-- The layer's gather is the rows at the edges' source nodes; -/
theorem gather_eq2 : (fun h => Host.gather gather_S100000x64_S1000000x1_S1000000x64_1_0_n_n_0_1_164 h (val_main_v150 (F := Ideal) (m (c, main_arg2)))) = gatherR m c := by
  funext h; unfold gatherR gatherIdx; rw [R0_v1]; rfl
/-- its scatter is the segment sum at the edges' target nodes. -/
theorem scatter_eq2 : (fun (u : (⟨S1000000x64, .f32⟩ : BufTy).Contents (Elt Ideal)) => (Host.scatterAdd (F := Ideal) (φ := .f32) scatter_S100000x64_S1000000x1_S1000000x64_1_0_0_1 (val_main_v154 (F := Ideal)) (val_main_v155 (F := Ideal) (m (c, main_arg2))) u : (⟨S100000x64, .f32⟩ : BufTy).Contents (Elt Ideal))) = scatterR m c := by
  funext u; unfold scatterR; rw [R0_v3]; rfl

/-- LAYER 2 of the reference is the network's layer of the features the stretch before it leaves. -/
theorem rLayer2 : hR3 m c = Spec.layerR (gatherR m c) (scatterR m c) (argEps m c) (argW1 m c) (argB1 m c) (argW2 m c) (argB2 m c)
    (argGam m c) (argBet m c) 2 (hR2 m c) (eR m c) := by
  unfold hR3 hR2 eR
  rw [R3_v210, layer_val2, gather_eq2, scatter_eq2, R2_v144, R0_v12]

end Cert.ReferenceIdeal.ValueP

end
-- ==== Proof.RLayer3.lean ====
/-
  Layer 3 of the reference program: the node features its stretch leaves are the network's layer, in the reference's
  form (the variance as the mean of the squared deviations), of the features the stretch before it leaves and of the
  edge features. The stretch's last buffer is the composition of the stretch's 81 operations' results from the buffers
  it is entered with — the earlier features, the edge features, the two rows of the edge index and the argument arrays,
  none of which an earlier layer writes —; that composition is the last stage's value, and the stages are the layer's.
-/
import proofs.«127476_j62818191671466_2_alg».proof.Proof.RLayer2
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Layer 3: the stretch's last buffer as the last stage's value, then the stages as the network's layer -/

/-- The edge features and the two rows of the edge index pass through the earlier layers unchanged. -/
theorem R3_v12 : R3 m c main_v12 = val_main_v12 (F := Ideal) (argEA m c) (argEW m c) (argEB m c) := by
  rw [R3_of m c main_v12 (by decide)]; exact R2_v12 m c
theorem R3_v1 : R3 m c main_v1 = val_main_v1 (F := Ideal) (m (c, main_arg2)) := by
  rw [R3_of m c main_v1 (by decide)]; exact R2_v1 m c
theorem R3_v3 : R3 m c main_v3 = val_main_v3 (F := Ideal) (m (c, main_arg2)) := by
  rw [R3_of m c main_v3 (by decide)]; exact R2_v3 m c

set_option maxHeartbeats 4000000 in
/-- The stretch's 81 operations, one result after the other, from any buffers that hold the layer's inputs: the last
    buffer ends at the last stage's value. -/
theorem after_L3 (V : Valuation τ sig (Elt Ideal)) (x0 : Spec.A2 Spec.nN 32) (x1 : Spec.A2 Spec.nE 16) (x2 : (⟨S2x1000000, .i32⟩ : BufTy).Contents (Elt Ideal)) (x4 : Spec.A2 32 64) (x5 : Spec.A1 64) (x6 : Spec.A2 16 64) (x7 : Spec.A1 64)
    (x8 : Spec.A1 4) (x9 : Spec.A3 4 64 128) (x10 : Spec.A2 4 128) (x11 : Spec.A3 4 128 64) (x12 : Spec.A2 4 64) (x13 : Spec.A2 4 64) (x14 : Spec.A2 4 64)
    (hh : V main_v210 = val_main_v210 (F := Ideal) x0 x1 x2 x4 x5 x6 x7 x8 x9 x10 x11 x12 x13 x14) (he : V main_v12 = val_main_v12 (F := Ideal) x1 x6 x7)
    (h1 : V main_v1 = val_main_v1 (F := Ideal) x2) (h3 : V main_v3 = val_main_v3 (F := Ideal) x2)
    (h8 : V main_arg8 = x8) (h9 : V main_arg9 = x9) (h10 : V main_arg10 = x10) (h11 : V main_arg11 = x11) (h12 : V main_arg12 = x12)
    (h13 : V main_arg13 = x13) (h14 : V main_arg14 = x14) :
    StableHlo.after opsL3 V main_v276 = val_main_v276 (F := Ideal) x0 x1 x2 x4 x5 x6 x7 x8 x9 x10 x11 x12 x13 x14 := by
  dsimp only [opsL3]
  after_results_simp
  rw [hh, he, h1, h3, h8, h9, h10, h11, h12, h13, h14]
  rfl

/-- The node features the layer leaves: the last stage's value at the program's arguments. -/
theorem R4_v276 : R4 m c main_v276 = val_main_v276 (F := Ideal) (argX m c) (argEA m c) (m (c, main_arg2)) (argNW m c) (argNB m c) (argEW m c) (argEB m c) (argEps m c) (argW1 m c) (argB1 m c) (argW2 m c) (argB2 m c) (argGam m c) (argBet m c) :=
  after_L3 (R3 m c) _ _ _ _ _ _ _ _ _ _ _ _ _ _ (R3_v210 m c) (R3_v12 m c) (R3_v1 m c) (R3_v3 m c)
    (R3_arg m c main_arg8 (by decide) (by decide) (by decide) (by decide)) (R3_arg m c main_arg9 (by decide) (by decide) (by decide) (by decide)) (R3_arg m c main_arg10 (by decide) (by decide) (by decide) (by decide)) (R3_arg m c main_arg11 (by decide) (by decide) (by decide) (by decide))
    (R3_arg m c main_arg12 (by decide) (by decide) (by decide) (by decide)) (R3_arg m c main_arg13 (by decide) (by decide) (by decide) (by decide)) (R3_arg m c main_arg14 (by decide) (by decide) (by decide) (by decide))

/-- The layer's gather is the rows at the edges' source nodes; -/
theorem gather_eq3 : (fun h => Host.gather gather_S100000x64_S1000000x1_S1000000x64_1_0_n_n_0_1_164 h (val_main_v216 (F := Ideal) (m (c, main_arg2)))) = gatherR m c := by
  funext h; unfold gatherR gatherIdx; rw [R0_v1]; rfl
/-- its scatter is the segment sum at the edges' target nodes. -/
theorem scatter_eq3 : (fun (u : (⟨S1000000x64, .f32⟩ : BufTy).Contents (Elt Ideal)) => (Host.scatterAdd (F := Ideal) (φ := .f32) scatter_S100000x64_S1000000x1_S1000000x64_1_0_0_1 (val_main_v220 (F := Ideal)) (val_main_v221 (F := Ideal) (m (c, main_arg2))) u : (⟨S100000x64, .f32⟩ : BufTy).Contents (Elt Ideal))) = scatterR m c := by
  funext u; unfold scatterR; rw [R0_v3]; rfl

/-- LAYER 3 of the reference is the network's layer of the features the stretch before it leaves. -/
theorem rLayer3 : hR4 m c = Spec.layerR (gatherR m c) (scatterR m c) (argEps m c) (argW1 m c) (argB1 m c) (argW2 m c) (argB2 m c)
    (argGam m c) (argBet m c) 3 (hR3 m c) (eR m c) := by
  unfold hR4 hR3 eR
  rw [R4_v276, layer_val3, gather_eq3, scatter_eq3, R3_v210, R0_v12]

end Cert.ReferenceIdeal.ValueP

end
-- ==== Proof.Algebraic.lean ====
/-
  The algebraic claim: from agreeing launch memories whose float arguments are finite, the kernel program and the
  reference program both run to the end, leave their arguments as they were, and leave equal results.

  The kernel program's run ends with every buffer at the last boundary's contents, which gives its result and its
  unchanged arguments; the reference program's run ends with its result at the fold of its operations over the
  launch contents and its arguments unchanged. The two results are equal because each program's stages are the
  network's stages (the ten stage equations) and the network's stages agree on real entries.
-/
import proofs.«127476_j62818191671466_2_alg».proof.Proof.AlgebraicCore
import proofs.«127476_j62818191671466_2_alg».proof.Proof.Run
import proofs.«127476_j62818191671466_2_alg».proof.Proof.KEnc
import proofs.«127476_j62818191671466_2_alg».proof.Proof.KLayer0
import proofs.«127476_j62818191671466_2_alg».proof.Proof.KLayer1
import proofs.«127476_j62818191671466_2_alg».proof.Proof.KLayer2
import proofs.«127476_j62818191671466_2_alg».proof.Proof.KLayer3
import proofs.«127476_j62818191671466_2_alg».proof.Proof.REnc
import proofs.«127476_j62818191671466_2_alg».proof.Proof.RLayer0
import proofs.«127476_j62818191671466_2_alg».proof.Proof.RLayer1
import proofs.«127476_j62818191671466_2_alg».proof.Proof.RLayer2
import proofs.«127476_j62818191671466_2_alg».proof.Proof.RLayer3
import proofs.«127476_j62818191671466_2_alg».proof.Proof.Gen.Pre_finite_inputs

noncomputable section

namespace Cert.Proof.Algebraic

open Idealize.ShloMosaic Idealize.ShloMosaic.TcCoe Idealize.SL.Sem

theorem algebraic : Cert.algebraic_KernelIdeal_ReferenceIdeal := by
  intro m g m' g' hpre hagree
  refine ⟨fun c => Cert.KernelIdeal.Gen.B31 m c Cert.KernelIdeal.main_v200, ?_, ?_⟩
  · exact (θ_run Cert.KernelIdeal.defs _ _).mono
      (fun r h c => ⟨h c _ (Cert.KernelIdeal.Gen.mem_uc Cert.KernelIdeal.main_v200 (by decide)),
        (h c _ (Cert.KernelIdeal.Gen.mem_uc Cert.KernelIdeal.main_arg0 (by decide))).trans (Cert.KernelIdeal.Gen.B31_main_arg0 m c),
        (h c _ (Cert.KernelIdeal.Gen.mem_uc Cert.KernelIdeal.main_arg1 (by decide))).trans (Cert.KernelIdeal.Gen.B31_main_arg1 m c),
        (h c _ (Cert.KernelIdeal.Gen.mem_uc Cert.KernelIdeal.main_arg2 (by decide))).trans (Cert.KernelIdeal.Gen.B31_main_arg2 m c),
        (h c _ (Cert.KernelIdeal.Gen.mem_uc Cert.KernelIdeal.main_arg3 (by decide))).trans (Cert.KernelIdeal.Gen.B31_main_arg3 m c),
        (h c _ (Cert.KernelIdeal.Gen.mem_uc Cert.KernelIdeal.main_arg4 (by decide))).trans (Cert.KernelIdeal.Gen.B31_main_arg4 m c),
        (h c _ (Cert.KernelIdeal.Gen.mem_uc Cert.KernelIdeal.main_arg5 (by decide))).trans (Cert.KernelIdeal.Gen.B31_main_arg5 m c),
        (h c _ (Cert.KernelIdeal.Gen.mem_uc Cert.KernelIdeal.main_arg6 (by decide))).trans (Cert.KernelIdeal.Gen.B31_main_arg6 m c),
        (h c _ (Cert.KernelIdeal.Gen.mem_uc Cert.KernelIdeal.main_arg7 (by decide))).trans (Cert.KernelIdeal.Gen.B31_main_arg7 m c),
        (h c _ (Cert.KernelIdeal.Gen.mem_uc Cert.KernelIdeal.main_arg8 (by decide))).trans (Cert.KernelIdeal.Gen.B31_main_arg8 m c),
        (h c _ (Cert.KernelIdeal.Gen.mem_uc Cert.KernelIdeal.main_arg9 (by decide))).trans (Cert.KernelIdeal.Gen.B31_main_arg9 m c),
        (h c _ (Cert.KernelIdeal.Gen.mem_uc Cert.KernelIdeal.main_arg10 (by decide))).trans (Cert.KernelIdeal.Gen.B31_main_arg10 m c),
        (h c _ (Cert.KernelIdeal.Gen.mem_uc Cert.KernelIdeal.main_arg11 (by decide))).trans (Cert.KernelIdeal.Gen.B31_main_arg11 m c),
        (h c _ (Cert.KernelIdeal.Gen.mem_uc Cert.KernelIdeal.main_arg12 (by decide))).trans (Cert.KernelIdeal.Gen.B31_main_arg12 m c),
        (h c _ (Cert.KernelIdeal.Gen.mem_uc Cert.KernelIdeal.main_arg13 (by decide))).trans (Cert.KernelIdeal.Gen.B31_main_arg13 m c),
        (h c _ (Cert.KernelIdeal.Gen.mem_uc Cert.KernelIdeal.main_arg14 (by decide))).trans (Cert.KernelIdeal.Gen.B31_main_arg14 m c),
        (h c _ (Cert.KernelIdeal.Gen.mem_uc Cert.KernelIdeal.main_arg15 (by decide))).trans (Cert.KernelIdeal.Gen.B31_main_arg15 m c),
        (h c _ (Cert.KernelIdeal.Gen.mem_uc Cert.KernelIdeal.main_arg16 (by decide))).trans (Cert.KernelIdeal.Gen.B31_main_arg16 m c),
        (h c _ (Cert.KernelIdeal.Gen.mem_uc Cert.KernelIdeal.main_arg17 (by decide))).trans (Cert.KernelIdeal.Gen.B31_main_arg17 m c),
        (h c _ (Cert.KernelIdeal.Gen.mem_uc Cert.KernelIdeal.main_arg18 (by decide))).trans (Cert.KernelIdeal.Gen.B31_main_arg18 m c)⟩)
      (Cert.KernelIdeal.Gen.run_all (F := Ideal) m g)
  · have hv : ∀ c : Dev Cert.KernelIdeal.nD,
        StableHlo.after (Cert.ReferenceIdeal.ValueP.ops (F := Ideal)) (StableHlo.launchContents m' c)
            (Proc.devRef .tc Cert.ReferenceIdeal.main_v297)
          = Cert.KernelIdeal.Gen.B31 m c Cert.KernelIdeal.main_v200 := fun c => by
      obtain ⟨g0, g1, g2, g3, g4, g5, g6, g7, g8, g9, g10, g11, g12, g13, g14, g15, g16, g17, g18⟩ := hagree c
      exact value_eq_of_stages m m' c hpre g0 g1 g2 g3 g4 g5 g6 g7 g8 g9 g10 g11 g12 g13 g14 g15 g16 g17 g18
        (Cert.KernelIdeal.Gen.kEncNode m c) (Cert.KernelIdeal.Gen.kEncEdge m c) (Cert.KernelIdeal.Gen.kLayer0 m c) (Cert.KernelIdeal.Gen.kLayer1 m c) (Cert.KernelIdeal.Gen.kLayer2 m c) (Cert.KernelIdeal.Gen.kLayer3 m c)
        (Cert.ReferenceIdeal.ValueP.rEncNode m' c) (Cert.ReferenceIdeal.ValueP.rEncEdge m' c) (Cert.ReferenceIdeal.ValueP.rLayer0 m' c) (Cert.ReferenceIdeal.ValueP.rLayer1 m' c) (Cert.ReferenceIdeal.ValueP.rLayer2 m' c) (Cert.ReferenceIdeal.ValueP.rLayer3 m' c)
    exact (θ_run Cert.ReferenceIdeal.defs _ _).mono (fun r h c => ⟨(h c).1.trans (hv c), (h c).2⟩)
      (Cert.ReferenceIdeal.ValueP.run (F := Ideal) m' g')

end Cert.Proof.Algebraic

end
-- ==== Proof.lean ====
/-
  The certificate of a four-layer graph network (edge-conditioned message passing, a two-layer perceptron and a batch
  normalisation per layer, mean pooling per graph and an output perceptron) computed by fourteen kernel regions among
  stretches of host operations, against its plain reference.

  The three frame claims: each program terminates without a fault and leaves its argument arrays as launched. For the
  kernel programs this is the run of the main program item by item: a host stretch writes only its own results, a kernel
  region only its output arrays, and no item writes an argument. For the reference it is its run as a straight-line host
  program.

  The idealised kernel is the printed kernel's own text read over the extended reals (no operation was rewritten), so
  there is nothing to preserve.

  The two idealised programs agree on finite inputs. They differ only in how a layer's batch statistics are formed:
  the reference takes the mean of the squared deviations from the mean, the kernel the mean of the squares less the
  squared mean, clamped at zero from below. On real entries these are one number, and it is not negative, so the clamp
  changes nothing; finiteness of the inputs makes every entry of every intermediate array a real.
-/
import proofs.«127476_j62818191671466_2_alg».proof.Defs
import proofs.«127476_j62818191671466_2_alg».proof.Proof.Gen.Kernel
import proofs.«127476_j62818191671466_2_alg».proof.Proof.Gen.KernelIdeal
import proofs.«127476_j62818191671466_2_alg».proof.Proof.Gen.ReferenceIdeal
import proofs.«127476_j62818191671466_2_alg».proof.Proof.Gen.Pre_finite_inputs
import proofs.«127476_j62818191671466_2_alg».proof.Proof.RefFrame
import proofs.«127476_j62818191671466_2_alg».proof.Proof.Run
import proofs.«127476_j62818191671466_2_alg».proof.Proof.KRun
import proofs.«127476_j62818191671466_2_alg».proof.Proof.Algebraic
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.Gen.frame_all (F := Bits) m ρ

/-- So does the same text read over the extended reals. -/
theorem frame_ki : Cert.frame_KernelIdeal := fun m ρ _ => Cert.KernelIdeal.Gen.frame_all (F := Ideal) m ρ

/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, preserves, Cert.Proof.Algebraic.algebraic⟩

end Cert.Proof

end
